-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x22x3x3 : Shape := ⟨5, ![16, 2048, 22, 3, 3]⟩
abbrev S55x3 : Shape := ⟨2, ![55, 3]⟩
abbrev S55 : Shape := ⟨1, ![55]⟩
abbrev S_ : Shape := ⟨0, ![]⟩

class Facts : Prop where
  bcast_S_S16x2048x22x3x3 : S_.BroadcastsInDim S16x2048x22x3x3 (![] : Fin 0 → Fin S16x2048x22x3x3.rank)
  reducesTo_S16x2048x22x3x3_S_d0_1_2_3_4 : S16x2048x22x3x3.ReducesTo [0, 1, 2, 3, 4] S_
  h_S_ : 0 < S_.numel
  bcast_S_S55x3 : S_.BroadcastsInDim S55x3 (![] : Fin 0 → Fin S55x3.rank)
  reducesTo_S55x3_S_d0_1 : S55x3.ReducesTo [0, 1] S_

variable [Facts]

def fn {F : FTy → Type} [FloatOps F] (main_arg0 : FVec F S16x2048x22x3x3 .f32) (main_arg1 : FVec F S55x3 .f32) (main_arg2 : IVec S55 32) : IVec S_ 1 :=
  let main_v0 : FVec F S16x2048x22x3x3 .f32 := Host.absf main_arg0
  let main_cst : FVec F S_ .f32 := constant S_ .f32 0x7F800000#32
  let main_v1 : FVec F S16x2048x22x3x3 .f32 := broadcastInDim S16x2048x22x3x3 ![] bcast_S_S16x2048x22x3x3 main_cst
  let main_v2 : IVec S16x2048x22x3x3 1 := cmpf .olt main_v0 main_v1
  let main_c : IVec S_ 1 := constantI S_ 1 1#1
  let main_v3 : IVec S_ 1 := (fun x v => Host.reduce IntOp.andi x v reducesTo_S16x2048x22x3x3_S_d0_1_2_3_4 h_S_) main_v2 main_c
  let main_v4 : FVec F S55x3 .f32 := Host.absf main_arg1
  let main_cst_0 : FVec F S_ .f32 := constant S_ .f32 0x7F800000#32
  let main_v5 : FVec F S55x3 .f32 := broadcastInDim S55x3 ![] bcast_S_S55x3 main_cst_0
  let main_v6 : IVec S55x3 1 := cmpf .olt main_v4 main_v5
  let main_c_1 : IVec S_ 1 := constantI S_ 1 1#1
  let main_v7 : IVec S_ 1 := (fun x v => Host.reduce IntOp.andi x v reducesTo_S55x3_S_d0_1 h_S_) main_v6 main_c_1
  let main_v8 : IVec S_ 1 := andi main_v3 main_v7
  main_v8
-- ==== Kernel.lean ====
abbrev S16x2048x22x3x3 : Shape := ⟨5, ![16, 2048, 22, 3, 3]⟩
abbrev S55x3 : Shape := ⟨2, ![55, 3]⟩
abbrev S55 : Shape := ⟨1, ![55]⟩
abbrev S54 : Shape := ⟨1, ![54]⟩
abbrev S32768x198 : Shape := ⟨2, ![32768, 198]⟩
abbrev S1x3 : Shape := ⟨2, ![1, 3]⟩
abbrev S54x3 : Shape := ⟨2, ![54, 3]⟩
abbrev S_ : Shape := ⟨0, ![]⟩
abbrev S54x1 : Shape := ⟨2, ![54, 1]⟩
abbrev S3x55 : Shape := ⟨2, ![3, 55]⟩
abbrev S32768x165 : Shape := ⟨2, ![32768, 165]⟩
abbrev S4096x198 : Shape := ⟨2, ![4096, 198]⟩
abbrev S4096x165 : Shape := ⟨2, ![4096, 165]⟩
abbrev S165x4096 : Shape := ⟨2, ![165, 4096]⟩
abbrev S198x4096 : Shape := ⟨2, ![198, 4096]⟩
abbrev S1x4096 : Shape := ⟨2, ![1, 4096]⟩
abbrev S4096 : Shape := ⟨1, ![4096]⟩
abbrev S1x1 : Shape := ⟨2, ![1, 1]⟩
abbrev S16x2048x55x3 : Shape := ⟨4, ![16, 2048, 55, 3]⟩

abbrev nBuf : Space → Nat
  | .hbm => 19
  | .vmem => 6
  | .smem => 0
  | _ => 0

abbrev bufTy : (tb : Table) → Fin (tcTables nBuf tb) → BufTy
  | .hbm, ⟨0, _⟩ => ⟨S16x2048x22x3x3, .f32⟩
  | .hbm, ⟨1, _⟩ => ⟨S55x3, .f32⟩
  | .hbm, ⟨2, _⟩ => ⟨S55, .i32⟩
  | .hbm, ⟨3, _⟩ => ⟨S54, .i32⟩
  | .hbm, ⟨4, _⟩ => ⟨S54, .i1⟩
  | .hbm, ⟨5, _⟩ => ⟨S32768x198, .f32⟩
  | .hbm, ⟨6, _⟩ => ⟨S1x3, .f32⟩
  | .hbm, ⟨7, _⟩ => ⟨S54x3, .f32⟩
  | .hbm, ⟨8, _⟩ => ⟨S_, .i32⟩
  | .hbm, ⟨9, _⟩ => ⟨S54, .i32⟩
  | .hbm, ⟨10, _⟩ => ⟨S54, .i32⟩
  | .hbm, ⟨11, _⟩ => ⟨S54, .i32⟩
  | .hbm, ⟨12, _⟩ => ⟨S54x1, .i32⟩
  | .hbm, ⟨13, _⟩ => ⟨S54x3, .f32⟩
  | .hbm, ⟨14, _⟩ => ⟨S54x3, .f32⟩
  | .hbm, ⟨15, _⟩ => ⟨S55x3, .f32⟩
  | .hbm, ⟨16, _⟩ => ⟨S3x55, .f32⟩
  | .hbm, ⟨17, _⟩ => ⟨S32768x165, .f32⟩
  | .hbm, ⟨18, _⟩ => ⟨S16x2048x55x3, .f32⟩
  | .local _ .vmem, ⟨0, _⟩ => ⟨S4096x198, .f32⟩
  | .local _ .vmem, ⟨1, _⟩ => ⟨S4096x198, .f32⟩
  | .local _ .vmem, ⟨2, _⟩ => ⟨S3x55, .f32⟩
  | .local _ .vmem, ⟨3, _⟩ => ⟨S4096x165, .f32⟩
  | .local _ .vmem, ⟨4, _⟩ => ⟨S4096x165, .f32⟩
  | .local _ .vmem, ⟨5, _⟩ => ⟨S165x4096, .f32⟩
  | _, _ => ⟨S16x2048x22x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x198 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x55 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x165 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x2048x22x3x3_S32768x198 : S16x2048x22x3x3.ShapeCasts S32768x198
  slices_S55x3_S1x3_0_0 : S55x3.Slices ![0, 0] S1x3
  slices_S55x3_S54x3_1_0 : S55x3.Slices ![1, 0] S54x3
  bcast_S_S54 : S_.BroadcastsInDim S54 (![] : Fin 0 → Fin S54.rank)
  bcast_S54_S54x1_0 : S54.BroadcastsInDim S54x1 (![0] : Fin 1 → Fin S54x1.rank)
  concatenates_S1x3_S54x3_S55x3_d0 : Shape.Concatenates [S1x3, S54x3] S55x3 0
  transposes_S55x3_S3x55_1_0 : S55x3.Transposes [1, 0] S3x55
  inb_S4096x198_S4096x198_0_0 : ∀ a, (![0, 0] : Fin 2 → Nat) a + S4096x198.size a ≤ S4096x198.size a
  h_S4096x198 : 0 < S4096x198.numel
  shapeCasts_S4096x198_S4096x198 : S4096x198.ShapeCasts S4096x198
  transposes_S4096x198_p1_0_S198x4096 : S4096x198.Transposes [1, 0] S198x4096
  slices_S198x4096_o0_0_S1x4096 : S198x4096.Slices ![0, 0] S1x4096
  shapeCasts_S1x4096_S4096 : S1x4096.ShapeCasts S4096
  slices_S198x4096_o1_0_S1x4096 : S198x4096.Slices ![1, 0] S1x4096
  slices_S198x4096_o2_0_S1x4096 : S198x4096.Slices ![2, 0] S1x4096
  slices_S198x4096_o3_0_S1x4096 : S198x4096.Slices ![3, 0] S1x4096
  slices_S198x4096_o4_0_S1x4096 : S198x4096.Slices ![4, 0] S1x4096
  slices_S198x4096_o5_0_S1x4096 : S198x4096.Slices ![5, 0] S1x4096
  slices_S198x4096_o6_0_S1x4096 : S198x4096.Slices ![6, 0] S1x4096
  slices_S198x4096_o7_0_S1x4096 : S198x4096.Slices ![7, 0] S1x4096
  slices_S198x4096_o8_0_S1x4096 : S198x4096.Slices ![8, 0] S1x4096
  inb_S3x55_S1x1_0_0 : ∀ a, (![0, 0] : Fin 2 → Nat) a + S1x1.size a ≤ S3x55.size a
  h_S1x1 : 0 < S1x1.numel
  inpos_S1x1_p0_0 : ∀ a, (![0, 0] : Fin 2 → Nat) a < S1x1.size a
  inb_S3x55_S1x1_1_0 : ∀ a, (![1, 0] : Fin 2 → Nat) a + S1x1.size a ≤ S3x55.size a
  inb_S3x55_S1x1_2_0 : ∀ a, (![2, 0] : Fin 2 → Nat) a + S1x1.size a ≤ S3x55.size a
  inb_S165x4096_S1x4096_0_0 : ∀ a, (![0, 0] : Fin 2 → Nat) a + S1x4096.size a ≤ S165x4096.size a
  h_S1x4096 : 0 < S1x4096.numel
  shapeCasts_S4096_S1x4096 : S4096.ShapeCasts S1x4096
  inb_S165x4096_S1x4096_1_0 : ∀ a, (![1, 0] : Fin 2 → Nat) a + S1x4096.size a ≤ S165x4096.size a
  inb_S165x4096_S1x4096_2_0 : ∀ a, (![2, 0] : Fin 2 → Nat) a + S1x4096.size a ≤ S165x4096.size a
  slices_S198x4096_o9_0_S1x4096 : S198x4096.Slices ![9, 0] S1x4096
  slices_S198x4096_o10_0_S1x4096 : S198x4096.Slices ![10, 0] S1x4096
  slices_S198x4096_o11_0_S1x4096 : S198x4096.Slices ![11, 0] S1x4096
  slices_S198x4096_o12_0_S1x4096 : S198x4096.Slices ![12, 0] S1x4096
  slices_S198x4096_o13_0_S1x4096 : S198x4096.Slices ![13, 0] S1x4096
  slices_S198x4096_o14_0_S1x4096 : S198x4096.Slices ![14, 0] S1x4096
  slices_S198x4096_o15_0_S1x4096 : S198x4096.Slices ![15, 0] S1x4096
  slices_S198x4096_o16_0_S1x4096 : S198x4096.Slices ![16, 0] S1x4096
  slices_S198x4096_o17_0_S1x4096 : S198x4096.Slices ![17, 0] S1x4096
  inb_S3x55_S1x1_0_1 : ∀ a, (![0, 1] : Fin 2 → Nat) a + S1x1.size a ≤ S3x55.size a
  inb_S3x55_S1x1_1_1 : ∀ a, (![1, 1] : Fin 2 → Nat) a + S1x1.size a ≤ S3x55.size a
  inb_S3x55_S1x1_2_1 : ∀ a, (![2, 1] : Fin 2 → Nat) a + S1x1.size a ≤ S3x55.size a
  inb_S165x4096_S1x4096_3_0 : ∀ a, (![3, 0] : Fin 2 → Nat) a + S1x4096.size a ≤ S165x4096.size a
  inb_S165x4096_S1x4096_4_0 : ∀ a, (![4, 0] : Fin 2 → Nat) a + S1x4096.size a ≤ S165x4096.size a
  inb_S165x4096_S1x4096_5_0 : ∀ a, (![5, 0] : Fin 2 → Nat) a + S1x4096.size a ≤ S165x4096.size a
  slices_S198x4096_o18_0_S1x4096 : S198x4096.Slices ![18, 0] S1x4096
  slices_S198x4096_o19_0_S1x4096 : S198x4096.Slices ![19, 0] S1x4096
  slices_S198x4096_o20_0_S1x4096 : S198x4096.Slices ![20, 0] S1x4096
  slices_S198x4096_o21_0_S1x4096 : S198x4096.Slices ![21, 0] S1x4096
  slices_S198x4096_o22_0_S1x4096 : S198x4096.Slices ![22, 0] S1x4096
  slices_S198x4096_o23_0_S1x4096 : S198x4096.Slices ![23, 0] S1x4096
  slices_S198x4096_o24_0_S1x4096 : S198x4096.Slices ![24, 0] S1x4096
  slices_S198x4096_o25_0_S1x4096 : S198x4096.Slices ![25, 0] S1x4096
  slices_S198x4096_o26_0_S1x4096 : S198x4096.Slices ![26, 0] S1x4096
  inb_S3x55_S1x1_0_2 : ∀ a, (![0, 2] : Fin 2 → Nat) a + S1x1.size a ≤ S3x55.size a
  inb_S3x55_S1x1_1_2 : ∀ a, (![1, 2] : Fin 2 → Nat) a + S1x1.size a ≤ S3x55.size a
  inb_S3x55_S1x1_2_2 : ∀ a, (![2, 2] : Fin 2 → Nat) a + S1x1.size a ≤ S3x55.size a
  inb_S165x4096_S1x4096_6_0 : ∀ a, (![6, 0] : Fin 2 → Nat) a + S1x4096.size a ≤ S165x4096.size a
  inb_S165x4096_S1x4096_7_0 : ∀ a, (![7, 0] : Fin 2 → Nat) a + S1x4096.size a ≤ S165x4096.size a
  inb_S165x4096_S1x4096_8_0 : ∀ a, (![8, 0] : Fin 2 → Nat) a + S1x4096.size a ≤ S165x4096.size a
  slices_S198x4096_o27_0_S1x4096 : S198x4096.Slices ![27, 0] S1x4096
  slices_S198x4096_o28_0_S1x4096 : S198x4096.Slices ![28, 0] S1x4096
  slices_S198x4096_o29_0_S1x4096 : S198x4096.Slices ![29, 0] S1x4096
  slices_S198x4096_o30_0_S1x4096 : S198x4096.Slices ![30, 0] S1x4096
  slices_S198x4096_o31_0_S1x4096 : S198x4096.Slices ![31, 0] S1x4096
  slices_S198x4096_o32_0_S1x4096 : S198x4096.Slices ![32, 0] S1x4096
  slices_S198x4096_o33_0_S1x4096 : S198x4096.Slices ![33, 0] S1x4096
  slices_S198x4096_o34_0_S1x4096 : S198x4096.Slices ![34, 0] S1x4096
  slices_S198x4096_o35_0_S1x4096 : S198x4096.Slices ![35, 0] S1x4096
  inb_S3x55_S1x1_0_3 : ∀ a, (![0, 3] : Fin 2 → Nat) a + S1x1.size a ≤ S3x55.size a
  inb_S3x55_S1x1_1_3 : ∀ a, (![1, 3] : Fin 2 → Nat) a + S1x1.size a ≤ S3x55.size a
  inb_S3x55_S1x1_2_3 : ∀ a, (![2, 3] : Fin 2 → Nat) a + S1x1.size a ≤ S3x55.size a
  inb_S165x4096_S1x4096_9_0 : ∀ a, (![9, 0] : Fin 2 → Nat) a + S1x4096.size a ≤ S165x4096.size a
  inb_S165x4096_S1x4096_10_0 : ∀ a, (![10, 0] : Fin 2 → Nat) a + S1x4096.size a ≤ S165x4096.size a
  inb_S165x4096_S1x4096_11_0 : ∀ a, (![11, 0] : Fin 2 → Nat) a + S1x4096.size a ≤ S165x4096.size a
  slices_S198x4096_o36_0_S1x4096 : S198x4096.Slices ![36, 0] S1x4096
  slices_S198x4096_o37_0_S1x4096 : S198x4096.Slices ![37, 0] S1x4096
  slices_S198x4096_o38_0_S1x4096 : S198x4096.Slices ![38, 0] S1x4096
  slices_S198x4096_o39_0_S1x4096 : S198x4096.Slices ![39, 0] S1x4096
  slices_S198x4096_o40_0_S1x4096 : S198x4096.Slices ![40, 0] S1x4096
  slices_S198x4096_o41_0_S1x4096 : S198x4096.Slices ![41, 0] S1x4096
  slices_S198x4096_o42_0_S1x4096 : S198x4096.Slices ![42, 0] S1x4096
  slices_S198x4096_o43_0_S1x4096 : S198x4096.Slices ![43, 0] S1x4096
  slices_S198x4096_o44_0_S1x4096 : S198x4096.Slices ![44, 0] S1x4096
  inb_S3x55_S1x1_0_4 : ∀ a, (![0, 4] : Fin 2 → Nat) a + S1x1.size a ≤ S3x55.size a
  inb_S3x55_S1x1_1_4 : ∀ a, (![1, 4] : Fin 2 → Nat) a + S1x1.size a ≤ S3x55.size a
  inb_S3x55_S1x1_2_4 : ∀ a, (![2, 4] : Fin 2 → Nat) a + S1x1.size a ≤ S3x55.size a
  inb_S165x4096_S1x4096_12_0 : ∀ a, (![12, 0] : Fin 2 → Nat) a + S1x4096.size a ≤ S165x4096.size a
  inb_S165x4096_S1x4096_13_0 : ∀ a, (![13, 0] : Fin 2 → Nat) a + S1x4096.size a ≤ S165x4096.size a
  inb_S165x4096_S1x4096_14_0 : ∀ a, (![14, 0] : Fin 2 → Nat) a + S1x4096.size a ≤ S165x4096.size a
  slices_S198x4096_o45_0_S1x4096 : S198x4096.Slices ![45, 0] S1x4096
  slices_S198x4096_o46_0_S1x4096 : S198x4096.Slices ![46, 0] S1x4096
  slices_S198x4096_o47_0_S1x4096 : S198x4096.Slices ![47, 0] S1x4096
  slices_S198x4096_o48_0_S1x4096 : S198x4096.Slices ![48, 0] S1x4096
  slices_S198x4096_o49_0_S1x4096 : S198x4096.Slices ![49, 0] S1x4096
  slices_S198x4096_o50_0_S1x4096 : S198x4096.Slices ![50, 0] S1x4096
  slices_S198x4096_o51_0_S1x4096 : S198x4096.Slices ![51, 0] S1x4096
  slices_S198x4096_o52_0_S1x4096 : S198x4096.Slices ![52, 0] S1x4096
  slices_S198x4096_o53_0_S1x4096 : S198x4096.Slices ![53, 0] S1x4096
  inb_S3x55_S1x1_0_5 : ∀ a, (![0, 5] : Fin 2 → Nat) a + S1x1.size a ≤ S3x55.size a
  inb_S3x55_S1x1_1_5 : ∀ a, (![1, 5] : Fin 2 → Nat) a + S1x1.size a ≤ S3x55.size a
  inb_S3x55_S1x1_2_5 : ∀ a, (![2, 5] : Fin 2 → Nat) a + S1x1.size a ≤ S3x55.size a
  inb_S165x4096_S1x4096_15_0 : ∀ a, (![15, 0] : Fin 2 → Nat) a + S1x4096.size a ≤ S165x4096.size a
  inb_S165x4096_S1x4096_16_0 : ∀ a, (![16, 0] : Fin 2 → Nat) a + S1x4096.size a ≤ S165x4096.size a
  inb_S165x4096_S1x4096_17_0 : ∀ a, (![17, 0] : Fin 2 → Nat) a + S1x4096.size a ≤ S165x4096.size a
  slices_S198x4096_o54_0_S1x4096 : S198x4096.Slices ![54, 0] S1x4096
  slices_S198x4096_o55_0_S1x4096 : S198x4096.Slices ![55, 0] S1x4096
  slices_S198x4096_o56_0_S1x4096 : S198x4096.Slices ![56, 0] S1x4096
  slices_S198x4096_o57_0_S1x4096 : S198x4096.Slices ![57, 0] S1x4096
  slices_S198x4096_o58_0_S1x4096 : S198x4096.Slices ![58, 0] S1x4096
  slices_S198x4096_o59_0_S1x4096 : S198x4096.Slices ![59, 0] S1x4096
  slices_S198x4096_o60_0_S1x4096 : S198x4096.Slices ![60, 0] S1x4096
  slices_S198x4096_o61_0_S1x4096 : S198x4096.Slices ![61, 0] S1x4096
  slices_S198x4096_o62_0_S1x4096 : S198x4096.Slices ![62, 0] S1x4096
  inb_S3x55_S1x1_0_6 : ∀ a, (![0, 6] : Fin 2 → Nat) a + S1x1.size a ≤ S3x55.size a
  inb_S3x55_S1x1_1_6 : ∀ a, (![1, 6] : Fin 2 → Nat) a + S1x1.size a ≤ S3x55.size a
  inb_S3x55_S1x1_2_6 : ∀ a, (![2, 6] : Fin 2 → Nat) a + S1x1.size a ≤ S3x55.size a
  inb_S165x4096_S1x4096_18_0 : ∀ a, (![18, 0] : Fin 2 → Nat) a + S1x4096.size a ≤ S165x4096.size a
  inb_S165x4096_S1x4096_19_0 : ∀ a, (![19, 0] : Fin 2 → Nat) a + S1x4096.size a ≤ S165x4096.size a
  inb_S165x4096_S1x4096_20_0 : ∀ a, (![20, 0] : Fin 2 → Nat) a + S1x4096.size a ≤ S165x4096.size a
  slices_S198x4096_o63_0_S1x4096 : S198x4096.Slices ![63, 0] S1x4096
  slices_S198x4096_o64_0_S1x4096 : S198x4096.Slices ![64, 0] S1x4096
  slices_S198x4096_o65_0_S1x4096 : S198x4096.Slices ![65, 0] S1x4096
  slices_S198x4096_o66_0_S1x4096 : S198x4096.Slices ![66, 0] S1x4096
  slices_S198x4096_o67_0_S1x4096 : S198x4096.Slices ![67, 0] S1x4096
  slices_S198x4096_o68_0_S1x4096 : S198x4096.Slices ![68, 0] S1x4096
  slices_S198x4096_o69_0_S1x4096 : S198x4096.Slices ![69, 0] S1x4096
  slices_S198x4096_o70_0_S1x4096 : S198x4096.Slices ![70, 0] S1x4096
  slices_S198x4096_o71_0_S1x4096 : S198x4096.Slices ![71, 0] S1x4096
  inb_S3x55_S1x1_0_7 : ∀ a, (![0, 7] : Fin 2 → Nat) a + S1x1.size a ≤ S3x55.size a
  inb_S3x55_S1x1_1_7 : ∀ a, (![1, 7] : Fin 2 → Nat) a + S1x1.size a ≤ S3x55.size a
  inb_S3x55_S1x1_2_7 : ∀ a, (![2, 7] : Fin 2 → Nat) a + S1x1.size a ≤ S3x55.size a
  inb_S165x4096_S1x4096_21_0 : ∀ a, (![21, 0] : Fin 2 → Nat) a + S1x4096.size a ≤ S165x4096.size a
  inb_S165x4096_S1x4096_22_0 : ∀ a, (![22, 0] : Fin 2 → Nat) a + S1x4096.size a ≤ S165x4096.size a
  inb_S165x4096_S1x4096_23_0 : ∀ a, (![23, 0] : Fin 2 → Nat) a + S1x4096.size a ≤ S165x4096.size a
  slices_S198x4096_o72_0_S1x4096 : S198x4096.Slices ![72, 0] S1x4096
  slices_S198x4096_o73_0_S1x4096 : S198x4096.Slices ![73, 0] S1x4096
  slices_S198x4096_o74_0_S1x4096 : S198x4096.Slices ![74, 0] S1x4096
  slices_S198x4096_o75_0_S1x4096 : S198x4096.Slices ![75, 0] S1x4096
  slices_S198x4096_o76_0_S1x4096 : S198x4096.Slices ![76, 0] S1x4096
  slices_S198x4096_o77_0_S1x4096 : S198x4096.Slices ![77, 0] S1x4096
  slices_S198x4096_o78_0_S1x4096 : S198x4096.Slices ![78, 0] S1x4096
  slices_S198x4096_o79_0_S1x4096 : S198x4096.Slices ![79, 0] S1x4096
  slices_S198x4096_o80_0_S1x4096 : S198x4096.Slices ![80, 0] S1x4096
  inb_S3x55_S1x1_0_8 : ∀ a, (![0, 8] : Fin 2 → Nat) a + S1x1.size a ≤ S3x55.size a
  inb_S3x55_S1x1_1_8 : ∀ a, (![1, 8] : Fin 2 → Nat) a + S1x1.size a ≤ S3x55.size a
  inb_S3x55_S1x1_2_8 : ∀ a, (![2, 8] : Fin 2 → Nat) a + S1x1.size a ≤ S3x55.size a
  inb_S165x4096_S1x4096_24_0 : ∀ a, (![24, 0] : Fin 2 → Nat) a + S1x4096.size a ≤ S165x4096.size a
  inb_S165x4096_S1x4096_25_0 : ∀ a, (![25, 0] : Fin 2 → Nat) a + S1x4096.size a ≤ S165x4096.size a
  inb_S165x4096_S1x4096_26_0 : ∀ a, (![26, 0] : Fin 2 → Nat) a + S1x4096.size a ≤ S165x4096.size a
  slices_S198x4096_o81_0_S1x4096 : S198x4096.Slices ![81, 0] S1x4096
  slices_S198x4096_o82_0_S1x4096 : S198x4096.Slices ![82, 0] S1x4096
  slices_S198x4096_o83_0_S1x4096 : S198x4096.Slices ![83, 0] S1x4096
  slices_S198x4096_o84_0_S1x4096 : S198x4096.Slices ![84, 0] S1x4096
  slices_S198x4096_o85_0_S1x4096 : S198x4096.Slices ![85, 0] S1x4096
  slices_S198x4096_o86_0_S1x4096 : S198x4096.Slices ![86, 0] S1x4096
  slices_S198x4096_o87_0_S1x4096 : S198x4096.Slices ![87, 0] S1x4096
  slices_S198x4096_o88_0_S1x4096 : S198x4096.Slices ![88, 0] S1x4096
  slices_S198x4096_o89_0_S1x4096 : S198x4096.Slices ![89, 0] S1x4096
  inb_S3x55_S1x1_0_9 : ∀ a, (![0, 9] : Fin 2 → Nat) a + S1x1.size a ≤ S3x55.size a
  inb_S3x55_S1x1_1_9 : ∀ a, (![1, 9] : Fin 2 → Nat) a + S1x1.size a ≤ S3x55.size a
  inb_S3x55_S1x1_2_9 : ∀ a, (![2, 9] : Fin 2 → Nat) a + S1x1.size a ≤ S3x55.size a
  inb_S165x4096_S1x4096_27_0 : ∀ a, (![27, 0] : Fin 2 → Nat) a + S1x4096.size a ≤ S165x4096.size a
  inb_S165x4096_S1x4096_28_0 : ∀ a, (![28, 0] : Fin 2 → Nat) a + S1x4096.size a ≤ S165x4096.size a
  inb_S165x4096_S1x4096_29_0 : ∀ a, (![29, 0] : Fin 2 → Nat) a + S1x4096.size a ≤ S165x4096.size a
  inb_S3x55_S1x1_0_10 : ∀ a, (![0, 10] : Fin 2 → Nat) a + S1x1.size a ≤ S3x55.size a
  inb_S3x55_S1x1_1_10 : ∀ a, (![1, 10] : Fin 2 → Nat) a + S1x1.size a ≤ S3x55.size a
  inb_S3x55_S1x1_2_10 : ∀ a, (![2, 10] : Fin 2 → Nat) a + S1x1.size a ≤ S3x55.size a
  inb_S165x4096_S1x4096_30_0 : ∀ a, (![30, 0] : Fin 2 → Nat) a + S1x4096.size a ≤ S165x4096.size a
  inb_S165x4096_S1x4096_31_0 : ∀ a, (![31, 0] : Fin 2 → Nat) a + S1x4096.size a ≤ S165x4096.size a
  inb_S165x4096_S1x4096_32_0 : ∀ a, (![32, 0] : Fin 2 → Nat) a + S1x4096.size a ≤ S165x4096.size a
  inb_S3x55_S1x1_0_11 : ∀ a, (![0, 11] : Fin 2 → Nat) a + S1x1.size a ≤ S3x55.size a
  inb_S3x55_S1x1_1_11 : ∀ a, (![1, 11] : Fin 2 → Nat) a + S1x1.size a ≤ S3x55.size a
  inb_S3x55_S1x1_2_11 : ∀ a, (![2, 11] : Fin 2 → Nat) a + S1x1.size a ≤ S3x55.size a
  inb_S165x4096_S1x4096_33_0 : ∀ a, (![33, 0] : Fin 2 → Nat) a + S1x4096.size a ≤ S165x4096.size a
  inb_S165x4096_S1x4096_34_0 : ∀ a, (![34, 0] : Fin 2 → Nat) a + S1x4096.size a ≤ S165x4096.size a
  inb_S165x4096_S1x4096_35_0 : ∀ a, (![35, 0] : Fin 2 → Nat) a + S1x4096.size a ≤ S165x4096.size a
  slices_S198x4096_o108_0_S1x4096 : S198x4096.Slices ![108, 0] S1x4096
  slices_S198x4096_o109_0_S1x4096 : S198x4096.Slices ![109, 0] S1x4096
  slices_S198x4096_o110_0_S1x4096 : S198x4096.Slices ![110, 0] S1x4096
  slices_S198x4096_o111_0_S1x4096 : S198x4096.Slices ![111, 0] S1x4096
  slices_S198x4096_o112_0_S1x4096 : S198x4096.Slices ![112, 0] S1x4096
  slices_S198x4096_o113_0_S1x4096 : S198x4096.Slices ![113, 0] S1x4096
  slices_S198x4096_o114_0_S1x4096 : S198x4096.Slices ![114, 0] S1x4096
  slices_S198x4096_o115_0_S1x4096 : S198x4096.Slices ![115, 0] S1x4096
  slices_S198x4096_o116_0_S1x4096 : S198x4096.Slices ![116, 0] S1x4096
  inb_S3x55_S1x1_0_12 : ∀ a, (![0, 12] : Fin 2 → Nat) a + S1x1.size a ≤ S3x55.size a
  inb_S3x55_S1x1_1_12 : ∀ a, (![1, 12] : Fin 2 → Nat) a + S1x1.size a ≤ S3x55.size a
  inb_S3x55_S1x1_2_12 : ∀ a, (![2, 12] : Fin 2 → Nat) a + S1x1.size a ≤ S3x55.size a
  inb_S165x4096_S1x4096_36_0 : ∀ a, (![36, 0] : Fin 2 → Nat) a + S1x4096.size a ≤ S165x4096.size a
  inb_S165x4096_S1x4096_37_0 : ∀ a, (![37, 0] : Fin 2 → Nat) a + S1x4096.size a ≤ S165x4096.size a
  inb_S165x4096_S1x4096_38_0 : ∀ a, (![38, 0] : Fin 2 → Nat) a + S1x4096.size a ≤ S165x4096.size a
  slices_S198x4096_o117_0_S1x4096 : S198x4096.Slices ![117, 0] S1x4096
  slices_S198x4096_o118_0_S1x4096 : S198x4096.Slices ![118, 0] S1x4096
  slices_S198x4096_o119_0_S1x4096 : S198x4096.Slices ![119, 0] S1x4096
  slices_S198x4096_o120_0_S1x4096 : S198x4096.Slices ![120, 0] S1x4096
  slices_S198x4096_o121_0_S1x4096 : S198x4096.Slices ![121, 0] S1x4096
  slices_S198x4096_o122_0_S1x4096 : S198x4096.Slices ![122, 0] S1x4096
  slices_S198x4096_o123_0_S1x4096 : S198x4096.Slices ![123, 0] S1x4096
  slices_S198x4096_o124_0_S1x4096 : S198x4096.Slices ![124, 0] S1x4096
  slices_S198x4096_o125_0_S1x4096 : S198x4096.Slices ![125, 0] S1x4096
  inb_S3x55_S1x1_0_13 : ∀ a, (![0, 13] : Fin 2 → Nat) a + S1x1.size a ≤ S3x55.size a
  inb_S3x55_S1x1_1_13 : ∀ a, (![1, 13] : Fin 2 → Nat) a + S1x1.size a ≤ S3x55.size a
  inb_S3x55_S1x1_2_13 : ∀ a, (![2, 13] : Fin 2 → Nat) a + S1x1.size a ≤ S3x55.size a
  inb_S165x4096_S1x4096_39_0 : ∀ a, (![39, 0] : Fin 2 → Nat) a + S1x4096.size a ≤ S165x4096.size a
  inb_S165x4096_S1x4096_40_0 : ∀ a, (![40, 0] : Fin 2 → Nat) a + S1x4096.size a ≤ S165x4096.size a
  inb_S165x4096_S1x4096_41_0 : ∀ a, (![41, 0] : Fin 2 → Nat) a + S1x4096.size a ≤ S165x4096.size a
  slices_S198x4096_o126_0_S1x4096 : S198x4096.Slices ![126, 0] S1x4096
  slices_S198x4096_o127_0_S1x4096 : S198x4096.Slices ![127, 0] S1x4096
  slices_S198x4096_o128_0_S1x4096 : S198x4096.Slices ![128, 0] S1x4096
  slices_S198x4096_o129_0_S1x4096 : S198x4096.Slices ![129, 0] S1x4096
  slices_S198x4096_o130_0_S1x4096 : S198x4096.Slices ![130, 0] S1x4096
  slices_S198x4096_o131_0_S1x4096 : S198x4096.Slices ![131, 0] S1x4096
  slices_S198x4096_o132_0_S1x4096 : S198x4096.Slices ![132, 0] S1x4096
  slices_S198x4096_o133_0_S1x4096 : S198x4096.Slices ![133, 0] S1x4096
  slices_S198x4096_o134_0_S1x4096 : S198x4096.Slices ![134, 0] S1x4096
  inb_S3x55_S1x1_0_14 : ∀ a, (![0, 14] : Fin 2 → Nat) a + S1x1.size a ≤ S3x55.size a
  inb_S3x55_S1x1_1_14 : ∀ a, (![1, 14] : Fin 2 → Nat) a + S1x1.size a ≤ S3x55.size a
  inb_S3x55_S1x1_2_14 : ∀ a, (![2, 14] : Fin 2 → Nat) a + S1x1.size a ≤ S3x55.size a
  inb_S165x4096_S1x4096_42_0 : ∀ a, (![42, 0] : Fin 2 → Nat) a + S1x4096.size a ≤ S165x4096.size a
  inb_S165x4096_S1x4096_43_0 : ∀ a, (![43, 0] : Fin 2 → Nat) a + S1x4096.size a ≤ S165x4096.size a
  inb_S165x4096_S1x4096_44_0 : ∀ a, (![44, 0] : Fin 2 → Nat) a + S1x4096.size a ≤ S165x4096.size a
  slices_S198x4096_o135_0_S1x4096 : S198x4096.Slices ![135, 0] S1x4096
  slices_S198x4096_o136_0_S1x4096 : S198x4096.Slices ![136, 0] S1x4096
  slices_S198x4096_o137_0_S1x4096 : S198x4096.Slices ![137, 0] S1x4096
  slices_S198x4096_o138_0_S1x4096 : S198x4096.Slices ![138, 0] S1x4096
  slices_S198x4096_o139_0_S1x4096 : S198x4096.Slices ![139, 0] S1x4096
  slices_S198x4096_o140_0_S1x4096 : S198x4096.Slices ![140, 0] S1x4096
  slices_S198x4096_o141_0_S1x4096 : S198x4096.Slices ![141, 0] S1x4096
  slices_S198x4096_o142_0_S1x4096 : S198x4096.Slices ![142, 0] S1x4096
  slices_S198x4096_o143_0_S1x4096 : S198x4096.Slices ![143, 0] S1x4096
  inb_S3x55_S1x1_0_15 : ∀ a, (![0, 15] : Fin 2 → Nat) a + S1x1.size a ≤ S3x55.size a
  inb_S3x55_S1x1_1_15 : ∀ a, (![1, 15] : Fin 2 → Nat) a + S1x1.size a ≤ S3x55.size a
  inb_S3x55_S1x1_2_15 : ∀ a, (![2, 15] : Fin 2 → Nat) a + S1x1.size a ≤ S3x55.size a
  inb_S165x4096_S1x4096_45_0 : ∀ a, (![45, 0] : Fin 2 → Nat) a + S1x4096.size a ≤ S165x4096.size a
  inb_S165x4096_S1x4096_46_0 : ∀ a, (![46, 0] : Fin 2 → Nat) a + S1x4096.size a ≤ S165x4096.size a
  inb_S165x4096_S1x4096_47_0 : ∀ a, (![47, 0] : Fin 2 → Nat) a + S1x4096.size a ≤ S165x4096.size a
  slices_S198x4096_o144_0_S1x4096 : S198x4096.Slices ![144, 0] S1x4096
  slices_S198x4096_o145_0_S1x4096 : S198x4096.Slices ![145, 0] S1x4096
  slices_S198x4096_o146_0_S1x4096 : S198x4096.Slices ![146, 0] S1x4096
  slices_S198x4096_o147_0_S1x4096 : S198x4096.Slices ![147, 0] S1x4096
  slices_S198x4096_o148_0_S1x4096 : S198x4096.Slices ![148, 0] S1x4096
  slices_S198x4096_o149_0_S1x4096 : S198x4096.Slices ![149, 0] S1x4096
  slices_S198x4096_o150_0_S1x4096 : S198x4096.Slices ![150, 0] S1x4096
  slices_S198x4096_o151_0_S1x4096 : S198x4096.Slices ![151, 0] S1x4096
  slices_S198x4096_o152_0_S1x4096 : S198x4096.Slices ![152, 0] S1x4096
  inb_S3x55_S1x1_0_16 : ∀ a, (![0, 16] : Fin 2 → Nat) a + S1x1.size a ≤ S3x55.size a
  inb_S3x55_S1x1_1_16 : ∀ a, (![1, 16] : Fin 2 → Nat) a + S1x1.size a ≤ S3x55.size a
  inb_S3x55_S1x1_2_16 : ∀ a, (![2, 16] : Fin 2 → Nat) a + S1x1.size a ≤ S3x55.size a
  inb_S165x4096_S1x4096_48_0 : ∀ a, (![48, 0] : Fin 2 → Nat) a + S1x4096.size a ≤ S165x4096.size a
  inb_S165x4096_S1x4096_49_0 : ∀ a, (![49, 0] : Fin 2 → Nat) a + S1x4096.size a ≤ S165x4096.size a
  inb_S165x4096_S1x4096_50_0 : ∀ a, (![50, 0] : Fin 2 → Nat) a + S1x4096.size a ≤ S165x4096.size a
  slices_S198x4096_o153_0_S1x4096 : S198x4096.Slices ![153, 0] S1x4096
  slices_S198x4096_o154_0_S1x4096 : S198x4096.Slices ![154, 0] S1x4096
  slices_S198x4096_o155_0_S1x4096 : S198x4096.Slices ![155, 0] S1x4096
  slices_S198x4096_o156_0_S1x4096 : S198x4096.Slices ![156, 0] S1x4096
  slices_S198x4096_o157_0_S1x4096 : S198x4096.Slices ![157, 0] S1x4096
  slices_S198x4096_o158_0_S1x4096 : S198x4096.Slices ![158, 0] S1x4096
  slices_S198x4096_o159_0_S1x4096 : S198x4096.Slices ![159, 0] S1x4096
  slices_S198x4096_o160_0_S1x4096 : S198x4096.Slices ![160, 0] S1x4096
  slices_S198x4096_o161_0_S1x4096 : S198x4096.Slices ![161, 0] S1x4096
  inb_S3x55_S1x1_0_17 : ∀ a, (![0, 17] : Fin 2 → Nat) a + S1x1.size a ≤ S3x55.size a
  inb_S3x55_S1x1_1_17 : ∀ a, (![1, 17] : Fin 2 → Nat) a + S1x1.size a ≤ S3x55.size a
  inb_S3x55_S1x1_2_17 : ∀ a, (![2, 17] : Fin 2 → Nat) a + S1x1.size a ≤ S3x55.size a
  inb_S165x4096_S1x4096_51_0 : ∀ a, (![51, 0] : Fin 2 → Nat) a + S1x4096.size a ≤ S165x4096.size a
  inb_S165x4096_S1x4096_52_0 : ∀ a, (![52, 0] : Fin 2 → Nat) a + S1x4096.size a ≤ S165x4096.size a
  inb_S165x4096_S1x4096_53_0 : ∀ a, (![53, 0] : Fin 2 → Nat) a + S1x4096.size a ≤ S165x4096.size a
  slices_S198x4096_o162_0_S1x4096 : S198x4096.Slices ![162, 0] S1x4096
  slices_S198x4096_o163_0_S1x4096 : S198x4096.Slices ![163, 0] S1x4096
  slices_S198x4096_o164_0_S1x4096 : S198x4096.Slices ![164, 0] S1x4096
  slices_S198x4096_o165_0_S1x4096 : S198x4096.Slices ![165, 0] S1x4096
  slices_S198x4096_o166_0_S1x4096 : S198x4096.Slices ![166, 0] S1x4096
  slices_S198x4096_o167_0_S1x4096 : S198x4096.Slices ![167, 0] S1x4096
  slices_S198x4096_o168_0_S1x4096 : S198x4096.Slices ![168, 0] S1x4096
  slices_S198x4096_o169_0_S1x4096 : S198x4096.Slices ![169, 0] S1x4096
  slices_S198x4096_o170_0_S1x4096 : S198x4096.Slices ![170, 0] S1x4096
  inb_S3x55_S1x1_0_18 : ∀ a, (![0, 18] : Fin 2 → Nat) a + S1x1.size a ≤ S3x55.size a
  inb_S3x55_S1x1_1_18 : ∀ a, (![1, 18] : Fin 2 → Nat) a + S1x1.size a ≤ S3x55.size a
  inb_S3x55_S1x1_2_18 : ∀ a, (![2, 18] : Fin 2 → Nat) a + S1x1.size a ≤ S3x55.size a
  inb_S165x4096_S1x4096_54_0 : ∀ a, (![54, 0] : Fin 2 → Nat) a + S1x4096.size a ≤ S165x4096.size a
  inb_S165x4096_S1x4096_55_0 : ∀ a, (![55, 0] : Fin 2 → Nat) a + S1x4096.size a ≤ S165x4096.size a
  inb_S165x4096_S1x4096_56_0 : ∀ a, (![56, 0] : Fin 2 → Nat) a + S1x4096.size a ≤ S165x4096.size a
  slices_S198x4096_o171_0_S1x4096 : S198x4096.Slices ![171, 0] S1x4096
  slices_S198x4096_o172_0_S1x4096 : S198x4096.Slices ![172, 0] S1x4096
  slices_S198x4096_o173_0_S1x4096 : S198x4096.Slices ![173, 0] S1x4096
  slices_S198x4096_o174_0_S1x4096 : S198x4096.Slices ![174, 0] S1x4096
  slices_S198x4096_o175_0_S1x4096 : S198x4096.Slices ![175, 0] S1x4096
  slices_S198x4096_o176_0_S1x4096 : S198x4096.Slices ![176, 0] S1x4096
  slices_S198x4096_o177_0_S1x4096 : S198x4096.Slices ![177, 0] S1x4096
  slices_S198x4096_o178_0_S1x4096 : S198x4096.Slices ![178, 0] S1x4096
  slices_S198x4096_o179_0_S1x4096 : S198x4096.Slices ![179, 0] S1x4096
  inb_S3x55_S1x1_0_19 : ∀ a, (![0, 19] : Fin 2 → Nat) a + S1x1.size a ≤ S3x55.size a
  inb_S3x55_S1x1_1_19 : ∀ a, (![1, 19] : Fin 2 → Nat) a + S1x1.size a ≤ S3x55.size a
  inb_S3x55_S1x1_2_19 : ∀ a, (![2, 19] : Fin 2 → Nat) a + S1x1.size a ≤ S3x55.size a
  inb_S165x4096_S1x4096_57_0 : ∀ a, (![57, 0] : Fin 2 → Nat) a + S1x4096.size a ≤ S165x4096.size a
  inb_S165x4096_S1x4096_58_0 : ∀ a, (![58, 0] : Fin 2 → Nat) a + S1x4096.size a ≤ S165x4096.size a
  inb_S165x4096_S1x4096_59_0 : ∀ a, (![59, 0] : Fin 2 → Nat) a + S1x4096.size a ≤ S165x4096.size a
  slices_S198x4096_o180_0_S1x4096 : S198x4096.Slices ![180, 0] S1x4096
  slices_S198x4096_o181_0_S1x4096 : S198x4096.Slices ![181, 0] S1x4096
  slices_S198x4096_o182_0_S1x4096 : S198x4096.Slices ![182, 0] S1x4096
  slices_S198x4096_o183_0_S1x4096 : S198x4096.Slices ![183, 0] S1x4096
  slices_S198x4096_o184_0_S1x4096 : S198x4096.Slices ![184, 0] S1x4096
  slices_S198x4096_o185_0_S1x4096 : S198x4096.Slices ![185, 0] S1x4096
  slices_S198x4096_o186_0_S1x4096 : S198x4096.Slices ![186, 0] S1x4096
  slices_S198x4096_o187_0_S1x4096 : S198x4096.Slices ![187, 0] S1x4096
  slices_S198x4096_o188_0_S1x4096 : S198x4096.Slices ![188, 0] S1x4096
  inb_S3x55_S1x1_0_20 : ∀ a, (![0, 20] : Fin 2 → Nat) a + S1x1.size a ≤ S3x55.size a
  inb_S3x55_S1x1_1_20 : ∀ a, (![1, 20] : Fin 2 → Nat) a + S1x1.size a ≤ S3x55.size a
  inb_S3x55_S1x1_2_20 : ∀ a, (![2, 20] : Fin 2 → Nat) a + S1x1.size a ≤ S3x55.size a
  inb_S165x4096_S1x4096_60_0 : ∀ a, (![60, 0] : Fin 2 → Nat) a + S1x4096.size a ≤ S165x4096.size a
  inb_S165x4096_S1x4096_61_0 : ∀ a, (![61, 0] : Fin 2 → Nat) a + S1x4096.size a ≤ S165x4096.size a
  inb_S165x4096_S1x4096_62_0 : ∀ a, (![62, 0] : Fin 2 → Nat) a + S1x4096.size a ≤ S165x4096.size a
  slices_S198x4096_o189_0_S1x4096 : S198x4096.Slices ![189, 0] S1x4096
  slices_S198x4096_o190_0_S1x4096 : S198x4096.Slices ![190, 0] S1x4096
  slices_S198x4096_o191_0_S1x4096 : S198x4096.Slices ![191, 0] S1x4096
  slices_S198x4096_o192_0_S1x4096 : S198x4096.Slices ![192, 0] S1x4096
  slices_S198x4096_o193_0_S1x4096 : S198x4096.Slices ![193, 0] S1x4096
  slices_S198x4096_o194_0_S1x4096 : S198x4096.Slices ![194, 0] S1x4096
  slices_S198x4096_o195_0_S1x4096 : S198x4096.Slices ![195, 0] S1x4096
  slices_S198x4096_o196_0_S1x4096 : S198x4096.Slices ![196, 0] S1x4096
  slices_S198x4096_o197_0_S1x4096 : S198x4096.Slices ![197, 0] S1x4096
  inb_S3x55_S1x1_0_21 : ∀ a, (![0, 21] : Fin 2 → Nat) a + S1x1.size a ≤ S3x55.size a
  inb_S3x55_S1x1_1_21 : ∀ a, (![1, 21] : Fin 2 → Nat) a + S1x1.size a ≤ S3x55.size a
  inb_S3x55_S1x1_2_21 : ∀ a, (![2, 21] : Fin 2 → Nat) a + S1x1.size a ≤ S3x55.size a
  inb_S165x4096_S1x4096_63_0 : ∀ a, (![63, 0] : Fin 2 → Nat) a + S1x4096.size a ≤ S165x4096.size a
  inb_S165x4096_S1x4096_64_0 : ∀ a, (![64, 0] : Fin 2 → Nat) a + S1x4096.size a ≤ S165x4096.size a
  inb_S165x4096_S1x4096_65_0 : ∀ a, (![65, 0] : Fin 2 → Nat) a + S1x4096.size a ≤ S165x4096.size a
  inb_S3x55_S1x1_0_22 : ∀ a, (![0, 22] : Fin 2 → Nat) a + S1x1.size a ≤ S3x55.size a
  inb_S3x55_S1x1_1_22 : ∀ a, (![1, 22] : Fin 2 → Nat) a + S1x1.size a ≤ S3x55.size a
  inb_S3x55_S1x1_2_22 : ∀ a, (![2, 22] : Fin 2 → Nat) a + S1x1.size a ≤ S3x55.size a
  inb_S165x4096_S1x4096_66_0 : ∀ a, (![66, 0] : Fin 2 → Nat) a + S1x4096.size a ≤ S165x4096.size a
  inb_S165x4096_S1x4096_67_0 : ∀ a, (![67, 0] : Fin 2 → Nat) a + S1x4096.size a ≤ S165x4096.size a
  inb_S165x4096_S1x4096_68_0 : ∀ a, (![68, 0] : Fin 2 → Nat) a + S1x4096.size a ≤ S165x4096.size a
  inb_S3x55_S1x1_0_23 : ∀ a, (![0, 23] : Fin 2 → Nat) a + S1x1.size a ≤ S3x55.size a
  inb_S3x55_S1x1_1_23 : ∀ a, (![1, 23] : Fin 2 → Nat) a + S1x1.size a ≤ S3x55.size a
  inb_S3x55_S1x1_2_23 : ∀ a, (![2, 23] : Fin 2 → Nat) a + S1x1.size a ≤ S3x55.size a
  inb_S165x4096_S1x4096_69_0 : ∀ a, (![69, 0] : Fin 2 → Nat) a + S1x4096.size a ≤ S165x4096.size a
  inb_S165x4096_S1x4096_70_0 : ∀ a, (![70, 0] : Fin 2 → Nat) a + S1x4096.size a ≤ S165x4096.size a
  inb_S165x4096_S1x4096_71_0 : ∀ a, (![71, 0] : Fin 2 → Nat) a + S1x4096.size a ≤ S165x4096.size a
  inb_S3x55_S1x1_0_24 : ∀ a, (![0, 24] : Fin 2 → Nat) a + S1x1.size a ≤ S3x55.size a
  inb_S3x55_S1x1_1_24 : ∀ a, (![1, 24] : Fin 2 → Nat) a + S1x1.size a ≤ S3x55.size a
  inb_S3x55_S1x1_2_24 : ∀ a, (![2, 24] : Fin 2 → Nat) a + S1x1.size a ≤ S3x55.size a
  inb_S165x4096_S1x4096_72_0 : ∀ a, (![72, 0] : Fin 2 → Nat) a + S1x4096.size a ≤ S165x4096.size a
  inb_S165x4096_S1x4096_73_0 : ∀ a, (![73, 0] : Fin 2 → Nat) a + S1x4096.size a ≤ S165x4096.size a
  inb_S165x4096_S1x4096_74_0 : ∀ a, (![74, 0] : Fin 2 → Nat) a + S1x4096.size a ≤ S165x4096.size a
  inb_S3x55_S1x1_0_25 : ∀ a, (![0, 25] : Fin 2 → Nat) a + S1x1.size a ≤ S3x55.size a
  inb_S3x55_S1x1_1_25 : ∀ a, (![1, 25] : Fin 2 → Nat) a + S1x1.size a ≤ S3x55.size a
  inb_S3x55_S1x1_2_25 : ∀ a, (![2, 25] : Fin 2 → Nat) a + S1x1.size a ≤ S3x55.size a
  inb_S165x4096_S1x4096_75_0 : ∀ a, (![75, 0] : Fin 2 → Nat) a + S1x4096.size a ≤ S165x4096.size a
  inb_S165x4096_S1x4096_76_0 : ∀ a, (![76, 0] : Fin 2 → Nat) a + S1x4096.size a ≤ S165x4096.size a
  inb_S165x4096_S1x4096_77_0 : ∀ a, (![77, 0] : Fin 2 → Nat) a + S1x4096.size a ≤ S165x4096.size a
  inb_S3x55_S1x1_0_26 : ∀ a, (![0, 26] : Fin 2 → Nat) a + S1x1.size a ≤ S3x55.size a
  inb_S3x55_S1x1_1_26 : ∀ a, (![1, 26] : Fin 2 → Nat) a + S1x1.size a ≤ S3x55.size a
  inb_S3x55_S1x1_2_26 : ∀ a, (![2, 26] : Fin 2 → Nat) a + S1x1.size a ≤ S3x55.size a
  inb_S165x4096_S1x4096_78_0 : ∀ a, (![78, 0] : Fin 2 → Nat) a + S1x4096.size a ≤ S165x4096.size a
  inb_S165x4096_S1x4096_79_0 : ∀ a, (![79, 0] : Fin 2 → Nat) a + S1x4096.size a ≤ S165x4096.size a
  inb_S165x4096_S1x4096_80_0 : ∀ a, (![80, 0] : Fin 2 → Nat) a + S1x4096.size a ≤ S165x4096.size a
  inb_S3x55_S1x1_0_27 : ∀ a, (![0, 27] : Fin 2 → Nat) a + S1x1.size a ≤ S3x55.size a
  inb_S3x55_S1x1_1_27 : ∀ a, (![1, 27] : Fin 2 → Nat) a + S1x1.size a ≤ S3x55.size a
  inb_S3x55_S1x1_2_27 : ∀ a, (![2, 27] : Fin 2 → Nat) a + S1x1.size a ≤ S3x55.size a
  inb_S165x4096_S1x4096_81_0 : ∀ a, (![81, 0] : Fin 2 → Nat) a + S1x4096.size a ≤ S165x4096.size a
  inb_S165x4096_S1x4096_82_0 : ∀ a, (![82, 0] : Fin 2 → Nat) a + S1x4096.size a ≤ S165x4096.size a
  inb_S165x4096_S1x4096_83_0 : ∀ a, (![83, 0] : Fin 2 → Nat) a + S1x4096.size a ≤ S165x4096.size a
  inb_S3x55_S1x1_0_28 : ∀ a, (![0, 28] : Fin 2 → Nat) a + S1x1.size a ≤ S3x55.size a
  inb_S3x55_S1x1_1_28 : ∀ a, (![1, 28] : Fin 2 → Nat) a + S1x1.size a ≤ S3x55.size a
  inb_S3x55_S1x1_2_28 : ∀ a, (![2, 28] : Fin 2 → Nat) a + S1x1.size a ≤ S3x55.size a
  inb_S165x4096_S1x4096_84_0 : ∀ a, (![84, 0] : Fin 2 → Nat) a + S1x4096.size a ≤ S165x4096.size a
  inb_S165x4096_S1x4096_85_0 : ∀ a, (![85, 0] : Fin 2 → Nat) a + S1x4096.size a ≤ S165x4096.size a
  inb_S165x4096_S1x4096_86_0 : ∀ a, (![86, 0] : Fin 2 → Nat) a + S1x4096.size a ≤ S165x4096.size a
  inb_S3x55_S1x1_0_29 : ∀ a, (![0, 29] : Fin 2 → Nat) a + S1x1.size a ≤ S3x55.size a
  inb_S3x55_S1x1_1_29 : ∀ a, (![1, 29] : Fin 2 → Nat) a + S1x1.size a ≤ S3x55.size a
  inb_S3x55_S1x1_2_29 : ∀ a, (![2, 29] : Fin 2 → Nat) a + S1x1.size a ≤ S3x55.size a
  inb_S165x4096_S1x4096_87_0 : ∀ a, (![87, 0] : Fin 2 → Nat) a + S1x4096.size a ≤ S165x4096.size a
  inb_S165x4096_S1x4096_88_0 : ∀ a, (![88, 0] : Fin 2 → Nat) a + S1x4096.size a ≤ S165x4096.size a
  inb_S165x4096_S1x4096_89_0 : ∀ a, (![89, 0] : Fin 2 → Nat) a + S1x4096.size a ≤ S165x4096.size a
  inb_S3x55_S1x1_0_30 : ∀ a, (![0, 30] : Fin 2 → Nat) a + S1x1.size a ≤ S3x55.size a
  inb_S3x55_S1x1_1_30 : ∀ a, (![1, 30] : Fin 2 → Nat) a + S1x1.size a ≤ S3x55.size a
  inb_S3x55_S1x1_2_30 : ∀ a, (![2, 30] : Fin 2 → Nat) a + S1x1.size a ≤ S3x55.size a
  inb_S165x4096_S1x4096_90_0 : ∀ a, (![90, 0] : Fin 2 → Nat) a + S1x4096.size a ≤ S165x4096.size a
  inb_S165x4096_S1x4096_91_0 : ∀ a, (![91, 0] : Fin 2 → Nat) a + S1x4096.size a ≤ S165x4096.size a
  inb_S165x4096_S1x4096_92_0 : ∀ a, (![92, 0] : Fin 2 → Nat) a + S1x4096.size a ≤ S165x4096.size a
  inb_S3x55_S1x1_0_31 : ∀ a, (![0, 31] : Fin 2 → Nat) a + S1x1.size a ≤ S3x55.size a
  inb_S3x55_S1x1_1_31 : ∀ a, (![1, 31] : Fin 2 → Nat) a + S1x1.size a ≤ S3x55.size a
  inb_S3x55_S1x1_2_31 : ∀ a, (![2, 31] : Fin 2 → Nat) a + S1x1.size a ≤ S3x55.size a
  inb_S165x4096_S1x4096_93_0 : ∀ a, (![93, 0] : Fin 2 → Nat) a + S1x4096.size a ≤ S165x4096.size a
  inb_S165x4096_S1x4096_94_0 : ∀ a, (![94, 0] : Fin 2 → Nat) a + S1x4096.size a ≤ S165x4096.size a
  inb_S165x4096_S1x4096_95_0 : ∀ a, (![95, 0] : Fin 2 → Nat) a + S1x4096.size a ≤ S165x4096.size a
  inb_S3x55_S1x1_0_32 : ∀ a, (![0, 32] : Fin 2 → Nat) a + S1x1.size a ≤ S3x55.size a
  inb_S3x55_S1x1_1_32 : ∀ a, (![1, 32] : Fin 2 → Nat) a + S1x1.size a ≤ S3x55.size a
  inb_S3x55_S1x1_2_32 : ∀ a, (![2, 32] : Fin 2 → Nat) a + S1x1.size a ≤ S3x55.size a
  inb_S165x4096_S1x4096_96_0 : ∀ a, (![96, 0] : Fin 2 → Nat) a + S1x4096.size a ≤ S165x4096.size a
  inb_S165x4096_S1x4096_97_0 : ∀ a, (![97, 0] : Fin 2 → Nat) a + S1x4096.size a ≤ S165x4096.size a
  inb_S165x4096_S1x4096_98_0 : ∀ a, (![98, 0] : Fin 2 → Nat) a + S1x4096.size a ≤ S165x4096.size a
  inb_S3x55_S1x1_0_33 : ∀ a, (![0, 33] : Fin 2 → Nat) a + S1x1.size a ≤ S3x55.size a
  inb_S3x55_S1x1_1_33 : ∀ a, (![1, 33] : Fin 2 → Nat) a + S1x1.size a ≤ S3x55.size a
  inb_S3x55_S1x1_2_33 : ∀ a, (![2, 33] : Fin 2 → Nat) a + S1x1.size a ≤ S3x55.size a
  inb_S165x4096_S1x4096_99_0 : ∀ a, (![99, 0] : Fin 2 → Nat) a + S1x4096.size a ≤ S165x4096.size a
  inb_S165x4096_S1x4096_100_0 : ∀ a, (![100, 0] : Fin 2 → Nat) a + S1x4096.size a ≤ S165x4096.size a
  inb_S165x4096_S1x4096_101_0 : ∀ a, (![101, 0] : Fin 2 → Nat) a + S1x4096.size a ≤ S165x4096.size a
  inb_S3x55_S1x1_0_34 : ∀ a, (![0, 34] : Fin 2 → Nat) a + S1x1.size a ≤ S3x55.size a
  inb_S3x55_S1x1_1_34 : ∀ a, (![1, 34] : Fin 2 → Nat) a + S1x1.size a ≤ S3x55.size a
  inb_S3x55_S1x1_2_34 : ∀ a, (![2, 34] : Fin 2 → Nat) a + S1x1.size a ≤ S3x55.size a
  inb_S165x4096_S1x4096_102_0 : ∀ a, (![102, 0] : Fin 2 → Nat) a + S1x4096.size a ≤ S165x4096.size a
  inb_S165x4096_S1x4096_103_0 : ∀ a, (![103, 0] : Fin 2 → Nat) a + S1x4096.size a ≤ S165x4096.size a
  inb_S165x4096_S1x4096_104_0 : ∀ a, (![104, 0] : Fin 2 → Nat) a + S1x4096.size a ≤ S165x4096.size a
  inb_S3x55_S1x1_0_35 : ∀ a, (![0, 35] : Fin 2 → Nat) a + S1x1.size a ≤ S3x55.size a
  inb_S3x55_S1x1_1_35 : ∀ a, (![1, 35] : Fin 2 → Nat) a + S1x1.size a ≤ S3x55.size a
  inb_S3x55_S1x1_2_35 : ∀ a, (![2, 35] : Fin 2 → Nat) a + S1x1.size a ≤ S3x55.size a
  inb_S165x4096_S1x4096_105_0 : ∀ a, (![105, 0] : Fin 2 → Nat) a + S1x4096.size a ≤ S165x4096.size a
  inb_S165x4096_S1x4096_106_0 : ∀ a, (![106, 0] : Fin 2 → Nat) a + S1x4096.size a ≤ S165x4096.size a
  inb_S165x4096_S1x4096_107_0 : ∀ a, (![107, 0] : Fin 2 → Nat) a + S1x4096.size a ≤ S165x4096.size a
  inb_S3x55_S1x1_0_36 : ∀ a, (![0, 36] : Fin 2 → Nat) a + S1x1.size a ≤ S3x55.size a
  inb_S3x55_S1x1_1_36 : ∀ a, (![1, 36] : Fin 2 → Nat) a + S1x1.size a ≤ S3x55.size a
  inb_S3x55_S1x1_2_36 : ∀ a, (![2, 36] : Fin 2 → Nat) a + S1x1.size a ≤ S3x55.size a
  inb_S165x4096_S1x4096_108_0 : ∀ a, (![108, 0] : Fin 2 → Nat) a + S1x4096.size a ≤ S165x4096.size a
  inb_S165x4096_S1x4096_109_0 : ∀ a, (![109, 0] : Fin 2 → Nat) a + S1x4096.size a ≤ S165x4096.size a
  inb_S165x4096_S1x4096_110_0 : ∀ a, (![110, 0] : Fin 2 → Nat) a + S1x4096.size a ≤ S165x4096.size a
  inb_S3x55_S1x1_0_37 : ∀ a, (![0, 37] : Fin 2 → Nat) a + S1x1.size a ≤ S3x55.size a
  inb_S3x55_S1x1_1_37 : ∀ a, (![1, 37] : Fin 2 → Nat) a + S1x1.size a ≤ S3x55.size a
  inb_S3x55_S1x1_2_37 : ∀ a, (![2, 37] : Fin 2 → Nat) a + S1x1.size a ≤ S3x55.size a
  inb_S165x4096_S1x4096_111_0 : ∀ a, (![111, 0] : Fin 2 → Nat) a + S1x4096.size a ≤ S165x4096.size a
  inb_S165x4096_S1x4096_112_0 : ∀ a, (![112, 0] : Fin 2 → Nat) a + S1x4096.size a ≤ S165x4096.size a
  inb_S165x4096_S1x4096_113_0 : ∀ a, (![113, 0] : Fin 2 → Nat) a + S1x4096.size a ≤ S165x4096.size a
  inb_S3x55_S1x1_0_38 : ∀ a, (![0, 38] : Fin 2 → Nat) a + S1x1.size a ≤ S3x55.size a
  inb_S3x55_S1x1_1_38 : ∀ a, (![1, 38] : Fin 2 → Nat) a + S1x1.size a ≤ S3x55.size a
  inb_S3x55_S1x1_2_38 : ∀ a, (![2, 38] : Fin 2 → Nat) a + S1x1.size a ≤ S3x55.size a
  inb_S165x4096_S1x4096_114_0 : ∀ a, (![114, 0] : Fin 2 → Nat) a + S1x4096.size a ≤ S165x4096.size a
  inb_S165x4096_S1x4096_115_0 : ∀ a, (![115, 0] : Fin 2 → Nat) a + S1x4096.size a ≤ S165x4096.size a
  inb_S165x4096_S1x4096_116_0 : ∀ a, (![116, 0] : Fin 2 → Nat) a + S1x4096.size a ≤ S165x4096.size a
  inb_S3x55_S1x1_0_39 : ∀ a, (![0, 39] : Fin 2 → Nat) a + S1x1.size a ≤ S3x55.size a
  inb_S3x55_S1x1_1_39 : ∀ a, (![1, 39] : Fin 2 → Nat) a + S1x1.size a ≤ S3x55.size a
  inb_S3x55_S1x1_2_39 : ∀ a, (![2, 39] : Fin 2 → Nat) a + S1x1.size a ≤ S3x55.size a
  inb_S165x4096_S1x4096_117_0 : ∀ a, (![117, 0] : Fin 2 → Nat) a + S1x4096.size a ≤ S165x4096.size a
  inb_S165x4096_S1x4096_118_0 : ∀ a, (![118, 0] : Fin 2 → Nat) a + S1x4096.size a ≤ S165x4096.size a
  inb_S165x4096_S1x4096_119_0 : ∀ a, (![119, 0] : Fin 2 → Nat) a + S1x4096.size a ≤ S165x4096.size a
  inb_S3x55_S1x1_0_40 : ∀ a, (![0, 40] : Fin 2 → Nat) a + S1x1.size a ≤ S3x55.size a
  inb_S3x55_S1x1_1_40 : ∀ a, (![1, 40] : Fin 2 → Nat) a + S1x1.size a ≤ S3x55.size a
  inb_S3x55_S1x1_2_40 : ∀ a, (![2, 40] : Fin 2 → Nat) a + S1x1.size a ≤ S3x55.size a
  inb_S165x4096_S1x4096_120_0 : ∀ a, (![120, 0] : Fin 2 → Nat) a + S1x4096.size a ≤ S165x4096.size a
  inb_S165x4096_S1x4096_121_0 : ∀ a, (![121, 0] : Fin 2 → Nat) a + S1x4096.size a ≤ S165x4096.size a
  inb_S165x4096_S1x4096_122_0 : ∀ a, (![122, 0] : Fin 2 → Nat) a + S1x4096.size a ≤ S165x4096.size a
  inb_S3x55_S1x1_0_41 : ∀ a, (![0, 41] : Fin 2 → Nat) a + S1x1.size a ≤ S3x55.size a
  inb_S3x55_S1x1_1_41 : ∀ a, (![1, 41] : Fin 2 → Nat) a + S1x1.size a ≤ S3x55.size a
  inb_S3x55_S1x1_2_41 : ∀ a, (![2, 41] : Fin 2 → Nat) a + S1x1.size a ≤ S3x55.size a
  inb_S165x4096_S1x4096_123_0 : ∀ a, (![123, 0] : Fin 2 → Nat) a + S1x4096.size a ≤ S165x4096.size a
  inb_S165x4096_S1x4096_124_0 : ∀ a, (![124, 0] : Fin 2 → Nat) a + S1x4096.size a ≤ S165x4096.size a
  inb_S165x4096_S1x4096_125_0 : ∀ a, (![125, 0] : Fin 2 → Nat) a + S1x4096.size a ≤ S165x4096.size a
  inb_S3x55_S1x1_0_42 : ∀ a, (![0, 42] : Fin 2 → Nat) a + S1x1.size a ≤ S3x55.size a
  inb_S3x55_S1x1_1_42 : ∀ a, (![1, 42] : Fin 2 → Nat) a + S1x1.size a ≤ S3x55.size a
  inb_S3x55_S1x1_2_42 : ∀ a, (![2, 42] : Fin 2 → Nat) a + S1x1.size a ≤ S3x55.size a
  inb_S165x4096_S1x4096_126_0 : ∀ a, (![126, 0] : Fin 2 → Nat) a + S1x4096.size a ≤ S165x4096.size a
  inb_S165x4096_S1x4096_127_0 : ∀ a, (![127, 0] : Fin 2 → Nat) a + S1x4096.size a ≤ S165x4096.size a
  inb_S165x4096_S1x4096_128_0 : ∀ a, (![128, 0] : Fin 2 → Nat) a + S1x4096.size a ≤ S165x4096.size a
  inb_S3x55_S1x1_0_43 : ∀ a, (![0, 43] : Fin 2 → Nat) a + S1x1.size a ≤ S3x55.size a
  inb_S3x55_S1x1_1_43 : ∀ a, (![1, 43] : Fin 2 → Nat) a + S1x1.size a ≤ S3x55.size a
  inb_S3x55_S1x1_2_43 : ∀ a, (![2, 43] : Fin 2 → Nat) a + S1x1.size a ≤ S3x55.size a
  inb_S165x4096_S1x4096_129_0 : ∀ a, (![129, 0] : Fin 2 → Nat) a + S1x4096.size a ≤ S165x4096.size a
  inb_S165x4096_S1x4096_130_0 : ∀ a, (![130, 0] : Fin 2 → Nat) a + S1x4096.size a ≤ S165x4096.size a
  inb_S165x4096_S1x4096_131_0 : ∀ a, (![131, 0] : Fin 2 → Nat) a + S1x4096.size a ≤ S165x4096.size a
  inb_S3x55_S1x1_0_44 : ∀ a, (![0, 44] : Fin 2 → Nat) a + S1x1.size a ≤ S3x55.size a
  inb_S3x55_S1x1_1_44 : ∀ a, (![1, 44] : Fin 2 → Nat) a + S1x1.size a ≤ S3x55.size a
  inb_S3x55_S1x1_2_44 : ∀ a, (![2, 44] : Fin 2 → Nat) a + S1x1.size a ≤ S3x55.size a
  inb_S165x4096_S1x4096_132_0 : ∀ a, (![132, 0] : Fin 2 → Nat) a + S1x4096.size a ≤ S165x4096.size a
  inb_S165x4096_S1x4096_133_0 : ∀ a, (![133, 0] : Fin 2 → Nat) a + S1x4096.size a ≤ S165x4096.size a
  inb_S165x4096_S1x4096_134_0 : ∀ a, (![134, 0] : Fin 2 → Nat) a + S1x4096.size a ≤ S165x4096.size a
  inb_S3x55_S1x1_0_45 : ∀ a, (![0, 45] : Fin 2 → Nat) a + S1x1.size a ≤ S3x55.size a
  inb_S3x55_S1x1_1_45 : ∀ a, (![1, 45] : Fin 2 → Nat) a + S1x1.size a ≤ S3x55.size a
  inb_S3x55_S1x1_2_45 : ∀ a, (![2, 45] : Fin 2 → Nat) a + S1x1.size a ≤ S3x55.size a
  inb_S165x4096_S1x4096_135_0 : ∀ a, (![135, 0] : Fin 2 → Nat) a + S1x4096.size a ≤ S165x4096.size a
  inb_S165x4096_S1x4096_136_0 : ∀ a, (![136, 0] : Fin 2 → Nat) a + S1x4096.size a ≤ S165x4096.size a
  inb_S165x4096_S1x4096_137_0 : ∀ a, (![137, 0] : Fin 2 → Nat) a + S1x4096.size a ≤ S165x4096.size a
  inb_S3x55_S1x1_0_46 : ∀ a, (![0, 46] : Fin 2 → Nat) a + S1x1.size a ≤ S3x55.size a
  inb_S3x55_S1x1_1_46 : ∀ a, (![1, 46] : Fin 2 → Nat) a + S1x1.size a ≤ S3x55.size a
  inb_S3x55_S1x1_2_46 : ∀ a, (![2, 46] : Fin 2 → Nat) a + S1x1.size a ≤ S3x55.size a
  inb_S165x4096_S1x4096_138_0 : ∀ a, (![138, 0] : Fin 2 → Nat) a + S1x4096.size a ≤ S165x4096.size a
  inb_S165x4096_S1x4096_139_0 : ∀ a, (![139, 0] : Fin 2 → Nat) a + S1x4096.size a ≤ S165x4096.size a
  inb_S165x4096_S1x4096_140_0 : ∀ a, (![140, 0] : Fin 2 → Nat) a + S1x4096.size a ≤ S165x4096.size a
  inb_S3x55_S1x1_0_47 : ∀ a, (![0, 47] : Fin 2 → Nat) a + S1x1.size a ≤ S3x55.size a
  inb_S3x55_S1x1_1_47 : ∀ a, (![1, 47] : Fin 2 → Nat) a + S1x1.size a ≤ S3x55.size a
  inb_S3x55_S1x1_2_47 : ∀ a, (![2, 47] : Fin 2 → Nat) a + S1x1.size a ≤ S3x55.size a
  inb_S165x4096_S1x4096_141_0 : ∀ a, (![141, 0] : Fin 2 → Nat) a + S1x4096.size a ≤ S165x4096.size a
  inb_S165x4096_S1x4096_142_0 : ∀ a, (![142, 0] : Fin 2 → Nat) a + S1x4096.size a ≤ S165x4096.size a
  inb_S165x4096_S1x4096_143_0 : ∀ a, (![143, 0] : Fin 2 → Nat) a + S1x4096.size a ≤ S165x4096.size a
  inb_S3x55_S1x1_0_48 : ∀ a, (![0, 48] : Fin 2 → Nat) a + S1x1.size a ≤ S3x55.size a
  inb_S3x55_S1x1_1_48 : ∀ a, (![1, 48] : Fin 2 → Nat) a + S1x1.size a ≤ S3x55.size a
  inb_S3x55_S1x1_2_48 : ∀ a, (![2, 48] : Fin 2 → Nat) a + S1x1.size a ≤ S3x55.size a
  inb_S165x4096_S1x4096_144_0 : ∀ a, (![144, 0] : Fin 2 → Nat) a + S1x4096.size a ≤ S165x4096.size a
  inb_S165x4096_S1x4096_145_0 : ∀ a, (![145, 0] : Fin 2 → Nat) a + S1x4096.size a ≤ S165x4096.size a
  inb_S165x4096_S1x4096_146_0 : ∀ a, (![146, 0] : Fin 2 → Nat) a + S1x4096.size a ≤ S165x4096.size a
  inb_S3x55_S1x1_0_49 : ∀ a, (![0, 49] : Fin 2 → Nat) a + S1x1.size a ≤ S3x55.size a
  inb_S3x55_S1x1_1_49 : ∀ a, (![1, 49] : Fin 2 → Nat) a + S1x1.size a ≤ S3x55.size a
  inb_S3x55_S1x1_2_49 : ∀ a, (![2, 49] : Fin 2 → Nat) a + S1x1.size a ≤ S3x55.size a
  inb_S165x4096_S1x4096_147_0 : ∀ a, (![147, 0] : Fin 2 → Nat) a + S1x4096.size a ≤ S165x4096.size a
  inb_S165x4096_S1x4096_148_0 : ∀ a, (![148, 0] : Fin 2 → Nat) a + S1x4096.size a ≤ S165x4096.size a
  inb_S165x4096_S1x4096_149_0 : ∀ a, (![149, 0] : Fin 2 → Nat) a + S1x4096.size a ≤ S165x4096.size a
  inb_S3x55_S1x1_0_50 : ∀ a, (![0, 50] : Fin 2 → Nat) a + S1x1.size a ≤ S3x55.size a
  inb_S3x55_S1x1_1_50 : ∀ a, (![1, 50] : Fin 2 → Nat) a + S1x1.size a ≤ S3x55.size a
  inb_S3x55_S1x1_2_50 : ∀ a, (![2, 50] : Fin 2 → Nat) a + S1x1.size a ≤ S3x55.size a
  inb_S165x4096_S1x4096_150_0 : ∀ a, (![150, 0] : Fin 2 → Nat) a + S1x4096.size a ≤ S165x4096.size a
  inb_S165x4096_S1x4096_151_0 : ∀ a, (![151, 0] : Fin 2 → Nat) a + S1x4096.size a ≤ S165x4096.size a
  inb_S165x4096_S1x4096_152_0 : ∀ a, (![152, 0] : Fin 2 → Nat) a + S1x4096.size a ≤ S165x4096.size a
  inb_S3x55_S1x1_0_51 : ∀ a, (![0, 51] : Fin 2 → Nat) a + S1x1.size a ≤ S3x55.size a
  inb_S3x55_S1x1_1_51 : ∀ a, (![1, 51] : Fin 2 → Nat) a + S1x1.size a ≤ S3x55.size a
  inb_S3x55_S1x1_2_51 : ∀ a, (![2, 51] : Fin 2 → Nat) a + S1x1.size a ≤ S3x55.size a
  inb_S165x4096_S1x4096_153_0 : ∀ a, (![153, 0] : Fin 2 → Nat) a + S1x4096.size a ≤ S165x4096.size a
  inb_S165x4096_S1x4096_154_0 : ∀ a, (![154, 0] : Fin 2 → Nat) a + S1x4096.size a ≤ S165x4096.size a
  inb_S165x4096_S1x4096_155_0 : ∀ a, (![155, 0] : Fin 2 → Nat) a + S1x4096.size a ≤ S165x4096.size a
  inb_S3x55_S1x1_0_52 : ∀ a, (![0, 52] : Fin 2 → Nat) a + S1x1.size a ≤ S3x55.size a
  inb_S3x55_S1x1_1_52 : ∀ a, (![1, 52] : Fin 2 → Nat) a + S1x1.size a ≤ S3x55.size a
  inb_S3x55_S1x1_2_52 : ∀ a, (![2, 52] : Fin 2 → Nat) a + S1x1.size a ≤ S3x55.size a
  inb_S165x4096_S1x4096_156_0 : ∀ a, (![156, 0] : Fin 2 → Nat) a + S1x4096.size a ≤ S165x4096.size a
  inb_S165x4096_S1x4096_157_0 : ∀ a, (![157, 0] : Fin 2 → Nat) a + S1x4096.size a ≤ S165x4096.size a
  inb_S165x4096_S1x4096_158_0 : ∀ a, (![158, 0] : Fin 2 → Nat) a + S1x4096.size a ≤ S165x4096.size a
  inb_S3x55_S1x1_0_53 : ∀ a, (![0, 53] : Fin 2 → Nat) a + S1x1.size a ≤ S3x55.size a
  inb_S3x55_S1x1_1_53 : ∀ a, (![1, 53] : Fin 2 → Nat) a + S1x1.size a ≤ S3x55.size a
  inb_S3x55_S1x1_2_53 : ∀ a, (![2, 53] : Fin 2 → Nat) a + S1x1.size a ≤ S3x55.size a
  inb_S165x4096_S1x4096_159_0 : ∀ a, (![159, 0] : Fin 2 → Nat) a + S1x4096.size a ≤ S165x4096.size a
  inb_S165x4096_S1x4096_160_0 : ∀ a, (![160, 0] : Fin 2 → Nat) a + S1x4096.size a ≤ S165x4096.size a
  inb_S165x4096_S1x4096_161_0 : ∀ a, (![161, 0] : Fin 2 → Nat) a + S1x4096.size a ≤ S165x4096.size a
  inb_S3x55_S1x1_0_54 : ∀ a, (![0, 54] : Fin 2 → Nat) a + S1x1.size a ≤ S3x55.size a
  inb_S3x55_S1x1_1_54 : ∀ a, (![1, 54] : Fin 2 → Nat) a + S1x1.size a ≤ S3x55.size a
  inb_S3x55_S1x1_2_54 : ∀ a, (![2, 54] : Fin 2 → Nat) a + S1x1.size a ≤ S3x55.size a
  inb_S165x4096_S1x4096_162_0 : ∀ a, (![162, 0] : Fin 2 → Nat) a + S1x4096.size a ≤ S165x4096.size a
  inb_S165x4096_S1x4096_163_0 : ∀ a, (![163, 0] : Fin 2 → Nat) a + S1x4096.size a ≤ S165x4096.size a
  inb_S165x4096_S1x4096_164_0 : ∀ a, (![164, 0] : Fin 2 → Nat) a + S1x4096.size a ≤ S165x4096.size a
  inb_S165x4096_S165x4096_0_0 : ∀ a, (![0, 0] : Fin 2 → Nat) a + S165x4096.size a ≤ S165x4096.size a
  h_S165x4096 : 0 < S165x4096.numel
  transposes_S165x4096_p1_0_S4096x165 : S165x4096.Transposes [1, 0] S4096x165
  inb_S4096x165_S4096x165_0_0 : ∀ a, (![0, 0] : Fin 2 → Nat) a + S4096x165.size a ≤ S4096x165.size a
  h_S4096x165 : 0 < S4096x165.numel
  shapeCasts_S32768x165_S16x2048x55x3 : S32768x165.ShapeCasts S16x2048x55x3
  gather_S55x3_S54x1_S54x3_1_0_n_n_0_1_13_wf : GatherDims.WF S55x3 S54x1 S54x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x198.size a ≤ S32768x198.size a
  hwx0_0 : ∀ i : grid0.Coords, EltTy.bits .f32 = 32 ∨ (Rect.block (s := S32768x198) S4096x198.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x55.size a ≤ S3x55.size a
  hwx0_1 : ∀ i : grid0.Coords, EltTy.bits .f32 = 32 ∨ (Rect.block (s := S3x55) S3x55.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x165.size a ≤ S32768x165.size a
  hwx0_2 : ∀ i : grid0.Coords, EltTy.bits .f32 = 32 ∨ (Rect.block (s := S32768x165) S4096x165.size (cc0_transform_2 i) (hinb0_2 i)).WholeWords (EltTy.packing .f32)

variable [Facts₀]

def gather_S55x3_S54x1_S54x3_1_0_n_n_0_1_13 : GatherDims S55x3 S54x1 S54x3 where
  offsetDims := [1]
  collapsedSliceDims := [0]
  operandBatchingDims := []
  startIndicesBatchingDims := []
  startIndexMap := [0]
  indexVectorDim := 1
  sliceSizes := ![1, 3]
  wf := gather_S55x3_S54x1_S54x3_1_0_n_n_0_1_13_wf

abbrev win0_0 : Pipeline.Window sig grid0 :=
  Pipeline.Window.ofSpec (Memref.whole main_v0) S4096x198.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S3x55.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4096x165.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x22x3x3 : Shape := ⟨5, ![16, 2048, 22, 3, 3]⟩
abbrev S55x3 : Shape := ⟨2, ![55, 3]⟩
abbrev S55 : Shape := ⟨1, ![55]⟩
abbrev S54 : Shape := ⟨1, ![54]⟩
abbrev S4 : Shape := ⟨1, ![4]⟩
abbrev S32768x22x3x3 : Shape := ⟨4, ![32768, 22, 3, 3]⟩
abbrev S3x3 : Shape := ⟨2, ![3, 3]⟩
abbrev S_ : Shape := ⟨0, ![]⟩
abbrev S32768x33x3x3 : Shape := ⟨4, ![32768, 33, 3, 3]⟩
abbrev S32768x55x3x3 : Shape := ⟨4, ![32768, 55, 3, 3]⟩
abbrev S32768x55x3 : Shape := ⟨3, ![32768, 55, 3]⟩
abbrev S54x1 : Shape := ⟨2, ![54, 1]⟩
abbrev S32768x54x3 : Shape := ⟨3, ![32768, 54, 3]⟩
abbrev S1 : Shape := ⟨1, ![1]⟩
abbrev S32768x55x3x1 : Shape := ⟨4, ![32768, 55, 3, 1]⟩
abbrev S32768x55x3x4 : Shape := ⟨4, ![32768, 55, 3, 4]⟩
abbrev S32768x55x1x4 : Shape := ⟨4, ![32768, 55, 1, 4]⟩
abbrev S32768x55x4x4 : Shape := ⟨4, ![32768, 55, 4, 4]⟩
abbrev S32768x1x4x4 : Shape := ⟨4, ![32768, 1, 4, 4]⟩
abbrev S32768x4x4 : Shape := ⟨3, ![32768, 4, 4]⟩
abbrev S32768x16x4x4 : Shape := ⟨4, ![32768, 16, 4, 4]⟩
abbrev S32768x7x4x4 : Shape := ⟨4, ![32768, 7, 4, 4]⟩
abbrev S16x2048x55x3 : Shape := ⟨4, ![16, 2048, 55, 3]⟩

abbrev nBuf : Space → Nat
  | .hbm => 258
  | .vmem => 0
  | .smem => 0
  | _ => 0

abbrev hbmTy0_0 (i : Nat) : BufTy := match i % 128 with
  | 0 => ⟨S16x2048x22x3x3, .f32⟩
  | 1 => ⟨S55x3, .f32⟩
  | 2 => ⟨S55, .i32⟩
  | 3 => ⟨S54, .i32⟩
  | 4 => ⟨S54, .i1⟩
  | 5 => ⟨S4, .f32⟩
  | 6 => ⟨S32768x22x3x3, .f32⟩
  | 7 => ⟨S3x3, .i32⟩
  | 8 => ⟨S3x3, .i32⟩
  | 9 => ⟨S_, .i32⟩
  | 10 => ⟨S3x3, .i32⟩
  | 11 => ⟨S3x3, .i32⟩
  | 12 => ⟨S3x3, .i1⟩
  | 13 => ⟨S3x3, .f32⟩
  | 14 => ⟨S32768x33x3x3, .f32⟩
  | 15 => ⟨S32768x55x3x3, .f32⟩
  | 16 => ⟨S32768x55x3, .f32⟩
  | 17 => ⟨S_, .i32⟩
  | 18 => ⟨S54, .i32⟩
  | 19 => ⟨S54, .i32⟩
  | 20 => ⟨S54, .i32⟩
  | 21 => ⟨S54x1, .i32⟩
  | 22 => ⟨S32768x54x3, .f32⟩
  | 23 => ⟨S32768x54x3, .f32⟩
  | 24 => ⟨S_, .i32⟩
  | 25 => ⟨S1, .i32⟩
  | 26 => ⟨S32768x55x3, .f32⟩
  | 27 => ⟨S32768x55x3x1, .f32⟩
  | 28 => ⟨S32768x55x3x4, .f32⟩
  | 29 => ⟨S32768x55x1x4, .f32⟩
  | 30 => ⟨S32768x55x4x4, .f32⟩
  | 31 => ⟨S32768x1x4x4, .f32⟩
  | 32 => ⟨S32768x4x4, .f32⟩
  | 33 => ⟨S32768x1x4x4, .f32⟩
  | 34 => ⟨S32768x4x4, .f32⟩
  | 35 => ⟨S32768x4x4, .f32⟩
  | 36 => ⟨S32768x1x4x4, .f32⟩
  | 37 => ⟨S32768x4x4, .f32⟩
  | 38 => ⟨S32768x4x4, .f32⟩
  | 39 => ⟨S32768x1x4x4, .f32⟩
  | 40 => ⟨S32768x4x4, .f32⟩
  | 41 => ⟨S32768x4x4, .f32⟩
  | 42 => ⟨S32768x1x4x4, .f32⟩
  | 43 => ⟨S32768x4x4, .f32⟩
  | 44 => ⟨S32768x4x4, .f32⟩
  | 45 => ⟨S32768x1x4x4, .f32⟩
  | 46 => ⟨S32768x4x4, .f32⟩
  | 47 => ⟨S32768x4x4, .f32⟩
  | 48 => ⟨S32768x1x4x4, .f32⟩
  | 49 => ⟨S32768x4x4, .f32⟩
  | 50 => ⟨S32768x4x4, .f32⟩
  | 51 => ⟨S32768x1x4x4, .f32⟩
  | 52 => ⟨S32768x4x4, .f32⟩
  | 53 => ⟨S32768x4x4, .f32⟩
  | 54 => ⟨S32768x1x4x4, .f32⟩
  | 55 => ⟨S32768x4x4, .f32⟩
  | 56 => ⟨S32768x4x4, .f32⟩
  | 57 => ⟨S32768x1x4x4, .f32⟩
  | 58 => ⟨S32768x4x4, .f32⟩
  | 59 => ⟨S32768x4x4, .f32⟩
  | 60 => ⟨S32768x1x4x4, .f32⟩
  | 61 => ⟨S32768x4x4, .f32⟩
  | 62 => ⟨S32768x4x4, .f32⟩
  | 63 => ⟨S32768x1x4x4, .f32⟩
  | 64 => ⟨S32768x4x4, .f32⟩
  | 65 => ⟨S32768x4x4, .f32⟩
  | 66 => ⟨S32768x1x4x4, .f32⟩
  | 67 => ⟨S32768x4x4, .f32⟩
  | 68 => ⟨S32768x4x4, .f32⟩
  | 69 => ⟨S32768x1x4x4, .f32⟩
  | 70 => ⟨S32768x4x4, .f32⟩
  | 71 => ⟨S32768x4x4, .f32⟩
  | 72 => ⟨S32768x1x4x4, .f32⟩
  | 73 => ⟨S32768x4x4, .f32⟩
  | 74 => ⟨S32768x4x4, .f32⟩
  | 75 => ⟨S32768x1x4x4, .f32⟩
  | 76 => ⟨S32768x4x4, .f32⟩
  | 77 => ⟨S32768x4x4, .f32⟩
  | 78 => ⟨S32768x1x4x4, .f32⟩
  | 79 => ⟨S32768x4x4, .f32⟩
  | 80 => ⟨S32768x4x4, .f32⟩
  | 81 => ⟨S32768x1x4x4, .f32⟩
  | 82 => ⟨S32768x4x4, .f32⟩
  | 83 => ⟨S32768x4x4, .f32⟩
  | 84 => ⟨S32768x1x4x4, .f32⟩
  | 85 => ⟨S32768x4x4, .f32⟩
  | 86 => ⟨S32768x4x4, .f32⟩
  | 87 => ⟨S32768x1x4x4, .f32⟩
  | 88 => ⟨S32768x4x4, .f32⟩
  | 89 => ⟨S32768x4x4, .f32⟩
  | 90 => ⟨S32768x1x4x4, .f32⟩
  | 91 => ⟨S32768x4x4, .f32⟩
  | 92 => ⟨S32768x4x4, .f32⟩
  | 93 => ⟨S32768x1x4x4, .f32⟩
  | 94 => ⟨S32768x4x4, .f32⟩
  | 95 => ⟨S32768x4x4, .f32⟩
  | 96 => ⟨S32768x1x4x4, .f32⟩
  | 97 => ⟨S32768x4x4, .f32⟩
  | 98 => ⟨S32768x4x4, .f32⟩
  | 99 => ⟨S32768x1x4x4, .f32⟩
  | 100 => ⟨S32768x4x4, .f32⟩
  | 101 => ⟨S32768x4x4, .f32⟩
  | 102 => ⟨S32768x1x4x4, .f32⟩
  | 103 => ⟨S32768x4x4, .f32⟩
  | 104 => ⟨S32768x4x4, .f32⟩
  | 105 => ⟨S32768x1x4x4, .f32⟩
  | 106 => ⟨S32768x4x4, .f32⟩
  | 107 => ⟨S32768x4x4, .f32⟩
  | 108 => ⟨S32768x1x4x4, .f32⟩
  | 109 => ⟨S32768x4x4, .f32⟩
  | 110 => ⟨S32768x4x4, .f32⟩
  | 111 => ⟨S32768x1x4x4, .f32⟩
  | 112 => ⟨S32768x4x4, .f32⟩
  | 113 => ⟨S32768x4x4, .f32⟩
  | 114 => ⟨S32768x1x4x4, .f32⟩
  | 115 => ⟨S32768x4x4, .f32⟩
  | 116 => ⟨S32768x4x4, .f32⟩
  | 117 => ⟨S32768x1x4x4, .f32⟩
  | 118 => ⟨S32768x4x4, .f32⟩
  | 119 => ⟨S32768x4x4, .f32⟩
  | 120 => ⟨S32768x1x4x4, .f32⟩
  | 121 => ⟨S32768x4x4, .f32⟩
  | 122 => ⟨S32768x4x4, .f32⟩
  | 123 => ⟨S32768x1x4x4, .f32⟩
  | 124 => ⟨S32768x4x4, .f32⟩
  | 125 => ⟨S32768x4x4, .f32⟩
  | 126 => ⟨S32768x1x4x4, .f32⟩
  | 127 => ⟨S32768x4x4, .f32⟩
  | _ => ⟨S16x2048x22x3x3, .f32⟩

abbrev hbmTy0_1 (i : Nat) : BufTy := match i % 128 with
  | 0 => ⟨S32768x4x4, .f32⟩
  | 1 => ⟨S32768x1x4x4, .f32⟩
  | 2 => ⟨S32768x4x4, .f32⟩
  | 3 => ⟨S32768x4x4, .f32⟩
  | 4 => ⟨S32768x1x4x4, .f32⟩
  | 5 => ⟨S32768x4x4, .f32⟩
  | 6 => ⟨S32768x4x4, .f32⟩
  | 7 => ⟨S32768x1x4x4, .f32⟩
  | 8 => ⟨S32768x4x4, .f32⟩
  | 9 => ⟨S32768x4x4, .f32⟩
  | 10 => ⟨S32768x1x4x4, .f32⟩
  | 11 => ⟨S32768x4x4, .f32⟩
  | 12 => ⟨S32768x4x4, .f32⟩
  | 13 => ⟨S32768x1x4x4, .f32⟩
  | 14 => ⟨S32768x4x4, .f32⟩
  | 15 => ⟨S32768x4x4, .f32⟩
  | 16 => ⟨S32768x1x4x4, .f32⟩
  | 17 => ⟨S32768x4x4, .f32⟩
  | 18 => ⟨S32768x4x4, .f32⟩
  | 19 => ⟨S32768x1x4x4, .f32⟩
  | 20 => ⟨S32768x4x4, .f32⟩
  | 21 => ⟨S32768x4x4, .f32⟩
  | 22 => ⟨S32768x1x4x4, .f32⟩
  | 23 => ⟨S32768x4x4, .f32⟩
  | 24 => ⟨S32768x4x4, .f32⟩
  | 25 => ⟨S32768x1x4x4, .f32⟩
  | 26 => ⟨S32768x4x4, .f32⟩
  | 27 => ⟨S32768x4x4, .f32⟩
  | 28 => ⟨S32768x1x4x4, .f32⟩
  | 29 => ⟨S32768x4x4, .f32⟩
  | 30 => ⟨S32768x4x4, .f32⟩
  | 31 => ⟨S32768x1x4x4, .f32⟩
  | 32 => ⟨S32768x4x4, .f32⟩
  | 33 => ⟨S32768x4x4, .f32⟩
  | 34 => ⟨S32768x1x4x4, .f32⟩
  | 35 => ⟨S32768x4x4, .f32⟩
  | 36 => ⟨S32768x4x4, .f32⟩
  | 37 => ⟨S32768x1x4x4, .f32⟩
  | 38 => ⟨S32768x4x4, .f32⟩
  | 39 => ⟨S32768x4x4, .f32⟩
  | 40 => ⟨S32768x1x4x4, .f32⟩
  | 41 => ⟨S32768x4x4, .f32⟩
  | 42 => ⟨S32768x4x4, .f32⟩
  | 43 => ⟨S32768x1x4x4, .f32⟩
  | 44 => ⟨S32768x4x4, .f32⟩
  | 45 => ⟨S32768x4x4, .f32⟩
  | 46 => ⟨S32768x1x4x4, .f32⟩
  | 47 => ⟨S32768x4x4, .f32⟩
  | 48 => ⟨S32768x4x4, .f32⟩
  | 49 => ⟨S32768x1x4x4, .f32⟩
  | 50 => ⟨S32768x4x4, .f32⟩
  | 51 => ⟨S32768x4x4, .f32⟩
  | 52 => ⟨S32768x1x4x4, .f32⟩
  | 53 => ⟨S32768x4x4, .f32⟩
  | 54 => ⟨S32768x4x4, .f32⟩
  | 55 => ⟨S32768x1x4x4, .f32⟩
  | 56 => ⟨S32768x4x4, .f32⟩
  | 57 => ⟨S32768x4x4, .f32⟩
  | 58 => ⟨S32768x1x4x4, .f32⟩
  | 59 => ⟨S32768x4x4, .f32⟩
  | 60 => ⟨S32768x4x4, .f32⟩
  | 61 => ⟨S32768x1x4x4, .f32⟩
  | 62 => ⟨S32768x4x4, .f32⟩
  | 63 => ⟨S32768x4x4, .f32⟩
  | 64 => ⟨S32768x1x4x4, .f32⟩
  | 65 => ⟨S32768x4x4, .f32⟩
  | 66 => ⟨S32768x4x4, .f32⟩
  | 67 => ⟨S32768x1x4x4, .f32⟩
  | 68 => ⟨S32768x1x4x4, .f32⟩
  | 69 => ⟨S32768x1x4x4, .f32⟩
  | 70 => ⟨S32768x1x4x4, .f32⟩
  | 71 => ⟨S32768x1x4x4, .f32⟩
  | 72 => ⟨S32768x1x4x4, .f32⟩
  | 73 => ⟨S32768x1x4x4, .f32⟩
  | 74 => ⟨S32768x1x4x4, .f32⟩
  | 75 => ⟨S32768x1x4x4, .f32⟩
  | 76 => ⟨S32768x1x4x4, .f32⟩
  | 77 => ⟨S32768x1x4x4, .f32⟩
  | 78 => ⟨S32768x1x4x4, .f32⟩
  | 79 => ⟨S32768x1x4x4, .f32⟩
  | 80 => ⟨S32768x1x4x4, .f32⟩
  | 81 => ⟨S32768x1x4x4, .f32⟩
  | 82 => ⟨S32768x1x4x4, .f32⟩
  | 83 => ⟨S32768x1x4x4, .f32⟩
  | 84 => ⟨S32768x1x4x4, .f32⟩
  | 85 => ⟨S32768x1x4x4, .f32⟩
  | 86 => ⟨S32768x1x4x4, .f32⟩
  | 87 => ⟨S32768x1x4x4, .f32⟩
  | 88 => ⟨S32768x1x4x4, .f32⟩
  | 89 => ⟨S32768x1x4x4, .f32⟩
  | 90 => ⟨S32768x1x4x4, .f32⟩
  | 91 => ⟨S32768x1x4x4, .f32⟩
  | 92 => ⟨S32768x1x4x4, .f32⟩
  | 93 => ⟨S32768x1x4x4, .f32⟩
  | 94 => ⟨S32768x1x4x4, .f32⟩
  | 95 => ⟨S32768x1x4x4, .f32⟩
  | 96 => ⟨S32768x1x4x4, .f32⟩
  | 97 => ⟨S32768x1x4x4, .f32⟩
  | 98 => ⟨S32768x1x4x4, .f32⟩
  | 99 => ⟨S32768x1x4x4, .f32⟩
  | 100 => ⟨S32768x1x4x4, .f32⟩
  | 101 => ⟨S32768x1x4x4, .f32⟩
  | 102 => ⟨S32768x1x4x4, .f32⟩
  | 103 => ⟨S32768x1x4x4, .f32⟩
  | 104 => ⟨S32768x1x4x4, .f32⟩
  | 105 => ⟨S32768x1x4x4, .f32⟩
  | 106 => ⟨S32768x1x4x4, .f32⟩
  | 107 => ⟨S32768x1x4x4, .f32⟩
  | 108 => ⟨S32768x1x4x4, .f32⟩
  | 109 => ⟨S32768x1x4x4, .f32⟩
  | 110 => ⟨S32768x1x4x4, .f32⟩
  | 111 => ⟨S32768x1x4x4, .f32⟩
  | 112 => ⟨S32768x1x4x4, .f32⟩
  | 113 => ⟨S32768x1x4x4, .f32⟩
  | 114 => ⟨S32768x1x4x4, .f32⟩
  | 115 => ⟨S32768x1x4x4, .f32⟩
  | 116 => ⟨S32768x1x4x4, .f32⟩
  | 117 => ⟨S32768x1x4x4, .f32⟩
  | 118 => ⟨S32768x1x4x4, .f32⟩
  | 119 => ⟨S32768x1x4x4, .f32⟩
  | 120 => ⟨S32768x1x4x4, .f32⟩
  | 121 => ⟨S32768x1x4x4, .f32⟩
  | 122 => ⟨S32768x16x4x4, .f32⟩
  | 123 => ⟨S32768x16x4x4, .f32⟩
  | 124 => ⟨S32768x16x4x4, .f32⟩
  | 125 => ⟨S32768x7x4x4, .f32⟩
  | 126 => ⟨S32768x55x4x4, .f32⟩
  | 127 => ⟨S32768x55x3x1, .f32⟩
  | _ => ⟨S16x2048x22x3x3, .f32⟩

abbrev hbmTy0_2 (i : Nat) : BufTy := match i % 128 with
  | 0 => ⟨S32768x55x3, .f32⟩
  | 1 => ⟨S16x2048x55x3, .f32⟩
  | _ => ⟨S16x2048x22x3x3, .f32⟩

abbrev hbmTy (i : Nat) : BufTy := match i / 128 with
  | 0 => hbmTy0_0 i
  | 1 => hbmTy0_1 i
  | 2 => hbmTy0_2 i
  | _ => ⟨S16x2048x22x3x3, .f32⟩

abbrev bufTy : (tb : Table) → Fin (tcTables nBuf tb) → BufTy
  | .hbm, ⟨i, _⟩ => hbmTy i
  | _, _ => ⟨S16x2048x22x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩

abbrev nD : Nat := 1
abbrev τ : Topo := Topo.v7x

variable {F : FTy → Type} [FloatOps F]

class Facts₀ : Prop where
  shapeCasts_S16x2048x22x3x3_S32768x22x3x3 : S16x2048x22x3x3.ShapeCasts S32768x22x3x3
  bcast_S_S3x3 : S_.BroadcastsInDim S3x3 (![] : Fin 0 → Fin S3x3.rank)
  bcast_S3x3_S32768x33x3x3_2_3 : S3x3.BroadcastsInDim S32768x33x3x3 (![2, 3] : Fin 2 → Fin S32768x33x3x3.rank)
  concatenates_S32768x22x3x3_S32768x33x3x3_S32768x55x3x3_d1 : Shape.Concatenates [S32768x22x3x3, S32768x33x3x3] S32768x55x3x3 1
  bcast_S55x3_S32768x55x3_1_2 : S55x3.BroadcastsInDim S32768x55x3 (![1, 2] : Fin 2 → Fin S32768x55x3.rank)
  bcast_S_S54 : S_.BroadcastsInDim S54 (![] : Fin 0 → Fin S54.rank)
  bcast_S54_S54x1_0 : S54.BroadcastsInDim S54x1 (![0] : Fin 1 → Fin S54x1.rank)
  bcast_S_S1 : S_.BroadcastsInDim S1 (![] : Fin 0 → Fin S1.rank)
  bcast_S32768x55x3_S32768x55x3x1_0_1_2 : S32768x55x3.BroadcastsInDim S32768x55x3x1 (![0, 1, 2] : Fin 3 → Fin S32768x55x3x1.rank)
  concatenates_S32768x55x3x3_S32768x55x3x1_S32768x55x3x4_d3 : Shape.Concatenates [S32768x55x3x3, S32768x55x3x1] S32768x55x3x4 3
  bcast_S4_S32768x55x1x4_3 : S4.BroadcastsInDim S32768x55x1x4 (![3] : Fin 1 → Fin S32768x55x1x4.rank)
  concatenates_S32768x55x3x4_S32768x55x1x4_S32768x55x4x4_d2 : Shape.Concatenates [S32768x55x3x4, S32768x55x1x4] S32768x55x4x4 2
  slices_S32768x55x4x4_S32768x1x4x4_0_0_0_0 : S32768x55x4x4.Slices ![0, 0, 0, 0] S32768x1x4x4
  shapeCasts_S32768x1x4x4_S32768x4x4 : S32768x1x4x4.ShapeCasts S32768x4x4
  slices_S32768x55x4x4_S32768x1x4x4_0_1_0_0 : S32768x55x4x4.Slices ![0, 1, 0, 0] S32768x1x4x4
  slices_S32768x55x4x4_S32768x1x4x4_0_2_0_0 : S32768x55x4x4.Slices ![0, 2, 0, 0] S32768x1x4x4
  slices_S32768x55x4x4_S32768x1x4x4_0_3_0_0 : S32768x55x4x4.Slices ![0, 3, 0, 0] S32768x1x4x4
  slices_S32768x55x4x4_S32768x1x4x4_0_4_0_0 : S32768x55x4x4.Slices ![0, 4, 0, 0] S32768x1x4x4
  slices_S32768x55x4x4_S32768x1x4x4_0_5_0_0 : S32768x55x4x4.Slices ![0, 5, 0, 0] S32768x1x4x4
  slices_S32768x55x4x4_S32768x1x4x4_0_6_0_0 : S32768x55x4x4.Slices ![0, 6, 0, 0] S32768x1x4x4
  slices_S32768x55x4x4_S32768x1x4x4_0_7_0_0 : S32768x55x4x4.Slices ![0, 7, 0, 0] S32768x1x4x4
  slices_S32768x55x4x4_S32768x1x4x4_0_8_0_0 : S32768x55x4x4.Slices ![0, 8, 0, 0] S32768x1x4x4
  slices_S32768x55x4x4_S32768x1x4x4_0_9_0_0 : S32768x55x4x4.Slices ![0, 9, 0, 0] S32768x1x4x4
  slices_S32768x55x4x4_S32768x1x4x4_0_10_0_0 : S32768x55x4x4.Slices ![0, 10, 0, 0] S32768x1x4x4
  slices_S32768x55x4x4_S32768x1x4x4_0_11_0_0 : S32768x55x4x4.Slices ![0, 11, 0, 0] S32768x1x4x4
  slices_S32768x55x4x4_S32768x1x4x4_0_12_0_0 : S32768x55x4x4.Slices ![0, 12, 0, 0] S32768x1x4x4
  slices_S32768x55x4x4_S32768x1x4x4_0_13_0_0 : S32768x55x4x4.Slices ![0, 13, 0, 0] S32768x1x4x4
  slices_S32768x55x4x4_S32768x1x4x4_0_14_0_0 : S32768x55x4x4.Slices ![0, 14, 0, 0] S32768x1x4x4
  slices_S32768x55x4x4_S32768x1x4x4_0_15_0_0 : S32768x55x4x4.Slices ![0, 15, 0, 0] S32768x1x4x4
  slices_S32768x55x4x4_S32768x1x4x4_0_16_0_0 : S32768x55x4x4.Slices ![0, 16, 0, 0] S32768x1x4x4
  slices_S32768x55x4x4_S32768x1x4x4_0_17_0_0 : S32768x55x4x4.Slices ![0, 17, 0, 0] S32768x1x4x4
  slices_S32768x55x4x4_S32768x1x4x4_0_18_0_0 : S32768x55x4x4.Slices ![0, 18, 0, 0] S32768x1x4x4
  slices_S32768x55x4x4_S32768x1x4x4_0_19_0_0 : S32768x55x4x4.Slices ![0, 19, 0, 0] S32768x1x4x4
  slices_S32768x55x4x4_S32768x1x4x4_0_20_0_0 : S32768x55x4x4.Slices ![0, 20, 0, 0] S32768x1x4x4
  slices_S32768x55x4x4_S32768x1x4x4_0_21_0_0 : S32768x55x4x4.Slices ![0, 21, 0, 0] S32768x1x4x4
  slices_S32768x55x4x4_S32768x1x4x4_0_22_0_0 : S32768x55x4x4.Slices ![0, 22, 0, 0] S32768x1x4x4
  slices_S32768x55x4x4_S32768x1x4x4_0_23_0_0 : S32768x55x4x4.Slices ![0, 23, 0, 0] S32768x1x4x4
  slices_S32768x55x4x4_S32768x1x4x4_0_24_0_0 : S32768x55x4x4.Slices ![0, 24, 0, 0] S32768x1x4x4
  slices_S32768x55x4x4_S32768x1x4x4_0_25_0_0 : S32768x55x4x4.Slices ![0, 25, 0, 0] S32768x1x4x4
  slices_S32768x55x4x4_S32768x1x4x4_0_26_0_0 : S32768x55x4x4.Slices ![0, 26, 0, 0] S32768x1x4x4
  slices_S32768x55x4x4_S32768x1x4x4_0_27_0_0 : S32768x55x4x4.Slices ![0, 27, 0, 0] S32768x1x4x4
  slices_S32768x55x4x4_S32768x1x4x4_0_28_0_0 : S32768x55x4x4.Slices ![0, 28, 0, 0] S32768x1x4x4
  slices_S32768x55x4x4_S32768x1x4x4_0_29_0_0 : S32768x55x4x4.Slices ![0, 29, 0, 0] S32768x1x4x4
  slices_S32768x55x4x4_S32768x1x4x4_0_30_0_0 : S32768x55x4x4.Slices ![0, 30, 0, 0] S32768x1x4x4
  slices_S32768x55x4x4_S32768x1x4x4_0_31_0_0 : S32768x55x4x4.Slices ![0, 31, 0, 0] S32768x1x4x4
  slices_S32768x55x4x4_S32768x1x4x4_0_32_0_0 : S32768x55x4x4.Slices ![0, 32, 0, 0] S32768x1x4x4
  slices_S32768x55x4x4_S32768x1x4x4_0_33_0_0 : S32768x55x4x4.Slices ![0, 33, 0, 0] S32768x1x4x4
  slices_S32768x55x4x4_S32768x1x4x4_0_34_0_0 : S32768x55x4x4.Slices ![0, 34, 0, 0] S32768x1x4x4
  slices_S32768x55x4x4_S32768x1x4x4_0_35_0_0 : S32768x55x4x4.Slices ![0, 35, 0, 0] S32768x1x4x4
  slices_S32768x55x4x4_S32768x1x4x4_0_36_0_0 : S32768x55x4x4.Slices ![0, 36, 0, 0] S32768x1x4x4
  slices_S32768x55x4x4_S32768x1x4x4_0_37_0_0 : S32768x55x4x4.Slices ![0, 37, 0, 0] S32768x1x4x4
  slices_S32768x55x4x4_S32768x1x4x4_0_38_0_0 : S32768x55x4x4.Slices ![0, 38, 0, 0] S32768x1x4x4
  slices_S32768x55x4x4_S32768x1x4x4_0_39_0_0 : S32768x55x4x4.Slices ![0, 39, 0, 0] S32768x1x4x4
  slices_S32768x55x4x4_S32768x1x4x4_0_40_0_0 : S32768x55x4x4.Slices ![0, 40, 0, 0] S32768x1x4x4
  slices_S32768x55x4x4_S32768x1x4x4_0_41_0_0 : S32768x55x4x4.Slices ![0, 41, 0, 0] S32768x1x4x4
  slices_S32768x55x4x4_S32768x1x4x4_0_42_0_0 : S32768x55x4x4.Slices ![0, 42, 0, 0] S32768x1x4x4
  slices_S32768x55x4x4_S32768x1x4x4_0_43_0_0 : S32768x55x4x4.Slices ![0, 43, 0, 0] S32768x1x4x4
  slices_S32768x55x4x4_S32768x1x4x4_0_44_0_0 : S32768x55x4x4.Slices ![0, 44, 0, 0] S32768x1x4x4
  slices_S32768x55x4x4_S32768x1x4x4_0_45_0_0 : S32768x55x4x4.Slices ![0, 45, 0, 0] S32768x1x4x4
  slices_S32768x55x4x4_S32768x1x4x4_0_46_0_0 : S32768x55x4x4.Slices ![0, 46, 0, 0] S32768x1x4x4
  slices_S32768x55x4x4_S32768x1x4x4_0_47_0_0 : S32768x55x4x4.Slices ![0, 47, 0, 0] S32768x1x4x4
  slices_S32768x55x4x4_S32768x1x4x4_0_48_0_0 : S32768x55x4x4.Slices ![0, 48, 0, 0] S32768x1x4x4
  slices_S32768x55x4x4_S32768x1x4x4_0_49_0_0 : S32768x55x4x4.Slices ![0, 49, 0, 0] S32768x1x4x4
  slices_S32768x55x4x4_S32768x1x4x4_0_50_0_0 : S32768x55x4x4.Slices ![0, 50, 0, 0] S32768x1x4x4
  slices_S32768x55x4x4_S32768x1x4x4_0_51_0_0 : S32768x55x4x4.Slices ![0, 51, 0, 0] S32768x1x4x4
  slices_S32768x55x4x4_S32768x1x4x4_0_52_0_0 : S32768x55x4x4.Slices ![0, 52, 0, 0] S32768x1x4x4
  slices_S32768x55x4x4_S32768x1x4x4_0_53_0_0 : S32768x55x4x4.Slices ![0, 53, 0, 0] S32768x1x4x4
  slices_S32768x55x4x4_S32768x1x4x4_0_54_0_0 : S32768x55x4x4.Slices ![0, 54, 0, 0] S32768x1x4x4
  bcast_S32768x4x4_S32768x1x4x4_0_2_3 : S32768x4x4.BroadcastsInDim S32768x1x4x4 (![0, 2, 3] : Fin 3 → Fin S32768x1x4x4.rank)
  concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1 : Shape.Concatenates [S32768x1x4x4, S32768x1x4x4, S32768x1x4x4, S32768x1x4x4, S32768x1x4x4, S32768x1x4x4, S32768x1x4x4, S32768x1x4x4, S32768x1x4x4, S32768x1x4x4, S32768x1x4x4, S32768x1x4x4, S32768x1x4x4, S32768x1x4x4, S32768x1x4x4, S32768x1x4x4] S32768x16x4x4 1
  concatenates_S32768x1x4x4_S32768x1x4x4_S32768x1x4x4_S32768x1x4x4_S32768x1x4x4_S32768x1x4x4_S32768x1x4x4_S32768x7x4x4_d1 : Shape.Concatenates [S32768x1x4x4, S32768x1x4x4, S32768x1x4x4, S32768x1x4x4, S32768x1x4x4, S32768x1x4x4, S32768x1x4x4] S32768x7x4x4 1
  concatenates_S32768x16x4x4_S32768x16x4x4_S32768x16x4x4_S32768x7x4x4_S32768x55x4x4_d1 : Shape.Concatenates [S32768x16x4x4, S32768x16x4x4, S32768x16x4x4, S32768x7x4x4] S32768x55x4x4 1
  slices_S32768x55x4x4_S32768x55x3x1_0_0_0_3 : S32768x55x4x4.Slices ![0, 0, 0, 3] S32768x55x3x1
  shapeCasts_S32768x55x3x1_S32768x55x3 : S32768x55x3x1.ShapeCasts S32768x55x3
  shapeCasts_S32768x55x3_S16x2048x55x3 : S32768x55x3.ShapeCasts S16x2048x55x3
  gather_S32768x55x3_S54x1_S32768x54x3_02_1_n_n_1_1_3276813_wf : GatherDims.WF S32768x55x3 S54x1 S32768x54x3 [0, 2] [1] [] [1] [] 1 ![32768, 1, 3]
  scatter_S32768x55x3_S1_S32768x54x3_012_n_1_0_wf : ScatterDims.WF S32768x55x3 S1 S32768x54x3 [0, 1, 2] [] [1] 0
  dot_S32768x4x4_S32768x4x4_S32768x4x4_2_1_1_2_0_0_wf : DotDims.WF S32768x4x4 S32768x4x4 S32768x4x4 [2] [1] [1] [2] [0] [0]

variable [Facts₀]

def gather_S32768x55x3_S54x1_S32768x54x3_02_1_n_n_1_1_3276813 : GatherDims S32768x55x3 S54x1 S32768x54x3 where
  offsetDims := [0, 2]
  collapsedSliceDims := [1]
  operandBatchingDims := []
  startIndicesBatchingDims := []
  startIndexMap := [1]
  indexVectorDim := 1
  sliceSizes := ![32768, 1, 3]
  wf := gather_S32768x55x3_S54x1_S32768x54x3_02_1_n_n_1_1_3276813_wf
def scatter_S32768x55x3_S1_S32768x54x3_012_n_1_0 : ScatterDims S32768x55x3 S1 S32768x54x3 where
  updateWindowDims := [0, 1, 2]
  insertedWindowDims := []
  scatterDimsToOperandDims := [1]
  indexVectorDim := 0
  wf := scatter_S32768x55x3_S1_S32768x54x3_012_n_1_0_wf
def dot_S32768x4x4_S32768x4x4_S32768x4x4_2_1_1_2_0_0 : DotDims S32768x4x4 S32768x4x4 S32768x4x4 where
  lhsContracting := [2]
  rhsContracting := [1]
  lhsNonContracting := [1]
  rhsNonContracting := [2]
  lhsBatch := [0]
  rhsBatch := [0]
  wf := dot_S32768x4x4_S32768x4x4_S32768x4x4_2_1_1_2_0_0_wf

class Facts : Prop extends Facts₀ where

variable [Facts]
-- ==== Proof.RefTerm.lean ====
/-
  The reference program's buffers as values: one definition per tensor value of its host program, each the
  operation's function applied to the values it reads, in the program's order.  The first 28 values build, from the
  rotations `x` and the rest positions `y`, the array `tmats x y` of every sample's 55 local transforms as 4×4
  homogeneous matrices; the remaining ones, functions of that array `tm`, are the walk down the tree — `ch j tm` is
  joint `j`'s global transform, its parent's times its own local one — and the read-out `outOf tm` of the last
  column's first three rows, joint by joint.
-/
import proofs.«163241_j18760417149409_2_alg».proof.ReferenceIdeal

noncomputable section

namespace Cert.ReferenceIdeal.Term

open Idealize.ShloMosaic Cert.ReferenceIdeal

variable {F : FTy → Type} [FloatOps F] [Facts]
open Facts₀ Facts

/-! ## The local transforms, from the arguments -/

def v_main_c : (⟨S54, .i32⟩ : BufTy).Contents (Elt F) :=
  (fun i => lit0 (S54.rowMajor i))
def v_main_c_0 : (⟨S54, .i1⟩ : BufTy).Contents (Elt F) :=
  (constantI S54 1 0#1)
def v_main_cst : (⟨S4, .f32⟩ : BufTy).Contents (Elt F) :=
  (fun i => FloatOps.ofBits .f32 (lit1 (S4.rowMajor i)))
def v_main_v0 (x : (⟨S16x2048x22x3x3, .f32⟩ : BufTy).Contents (Elt F)) : (⟨S32768x22x3x3, .f32⟩ : BufTy).Contents (Elt F) :=
  fun i => shapeCast S32768x22x3x3 (x) shapeCasts_S16x2048x22x3x3_S32768x22x3x3 i
def v_main_v1 : (⟨S3x3, .i32⟩ : BufTy).Contents (Elt F) :=
  (iotaInDim S3x3 32 0)
def v_main_v2 : (⟨S3x3, .i32⟩ : BufTy).Contents (Elt F) :=
  (iotaInDim S3x3 32 1)
def v_main_c_1 : (⟨S_, .i32⟩ : BufTy).Contents (Elt F) :=
  (constantI S_ 32 0#32)
def v_main_v3 : (⟨S3x3, .i32⟩ : BufTy).Contents (Elt F) :=
  (broadcastInDim S3x3 ![] bcast_S_S3x3 : (⟨S_, .i32⟩ : BufTy).Contents (Elt F) → (⟨S3x3, .i32⟩ : BufTy).Contents (Elt F)) (v_main_c_1 (F := F))
def v_main_v4 : (⟨S3x3, .i32⟩ : BufTy).Contents (Elt F) :=
  (addi : (⟨S3x3, .i32⟩ : BufTy).Contents (Elt F) → (⟨S3x3, .i32⟩ : BufTy).Contents (Elt F) → (⟨S3x3, .i32⟩ : BufTy).Contents (Elt F)) (v_main_v1 (F := F)) (v_main_v3 (F := F))
def v_main_v5 : (⟨S3x3, .i1⟩ : BufTy).Contents (Elt F) :=
  (cmpi .eq : (⟨S3x3, .i32⟩ : BufTy).Contents (Elt F) → (⟨S3x3, .i32⟩ : BufTy).Contents (Elt F) → (⟨S3x3, .i1⟩ : BufTy).Contents (Elt F)) (v_main_v4 (F := F)) (v_main_v2 (F := F))
def v_main_v6 : (⟨S3x3, .f32⟩ : BufTy).Contents (Elt F) :=
  (uitofp .f32 : (⟨S3x3, .i1⟩ : BufTy).Contents (Elt F) → (⟨S3x3, .f32⟩ : BufTy).Contents (Elt F)) (v_main_v5 (F := F))
def v_main_v7 : (⟨S32768x33x3x3, .f32⟩ : BufTy).Contents (Elt F) :=
  (broadcastInDim S32768x33x3x3 ![2, 3] bcast_S3x3_S32768x33x3x3_2_3 : (⟨S3x3, .f32⟩ : BufTy).Contents (Elt F) → (⟨S32768x33x3x3, .f32⟩ : BufTy).Contents (Elt F)) (v_main_v6 (F := F))
def v_main_v8 (x : (⟨S16x2048x22x3x3, .f32⟩ : BufTy).Contents (Elt F)) : (⟨S32768x55x3x3, .f32⟩ : BufTy).Contents (Elt F) :=
  ((fun a b => concatenate S32768x55x3x3 1 [⟨S32768x22x3x3, a⟩, ⟨S32768x33x3x3, b⟩] concatenates_S32768x22x3x3_S32768x33x3x3_S32768x55x3x3_d1) : (⟨S32768x22x3x3, .f32⟩ : BufTy).Contents (Elt F) → (⟨S32768x33x3x3, .f32⟩ : BufTy).Contents (Elt F) → (⟨S32768x55x3x3, .f32⟩ : BufTy).Contents (Elt F)) (v_main_v0 (F := F) x) (v_main_v7 (F := F))
def v_main_v9 (y : (⟨S55x3, .f32⟩ : BufTy).Contents (Elt F)) : (⟨S32768x55x3, .f32⟩ : BufTy).Contents (Elt F) :=
  (broadcastInDim S32768x55x3 ![1, 2] bcast_S55x3_S32768x55x3_1_2 : (⟨S55x3, .f32⟩ : BufTy).Contents (Elt F) → (⟨S32768x55x3, .f32⟩ : BufTy).Contents (Elt F)) (y)
def v_main_c_2 : (⟨S_, .i32⟩ : BufTy).Contents (Elt F) :=
  (constantI S_ 32 55#32)
def v_main_v10 : (⟨S54, .i32⟩ : BufTy).Contents (Elt F) :=
  (broadcastInDim S54 ![] bcast_S_S54 : (⟨S_, .i32⟩ : BufTy).Contents (Elt F) → (⟨S54, .i32⟩ : BufTy).Contents (Elt F)) (v_main_c_2 (F := F))
def v_main_v11 : (⟨S54, .i32⟩ : BufTy).Contents (Elt F) :=
  (addi : (⟨S54, .i32⟩ : BufTy).Contents (Elt F) → (⟨S54, .i32⟩ : BufTy).Contents (Elt F) → (⟨S54, .i32⟩ : BufTy).Contents (Elt F)) (v_main_c (F := F)) (v_main_v10 (F := F))
def v_main_v12 : (⟨S54, .i32⟩ : BufTy).Contents (Elt F) :=
  (select : (⟨S54, .i1⟩ : BufTy).Contents (Elt F) → (⟨S54, .i32⟩ : BufTy).Contents (Elt F) → (⟨S54, .i32⟩ : BufTy).Contents (Elt F) → (⟨S54, .i32⟩ : BufTy).Contents (Elt F)) (v_main_c_0 (F := F)) (v_main_v11 (F := F)) (v_main_c (F := F))
def v_main_v13 : (⟨S54x1, .i32⟩ : BufTy).Contents (Elt F) :=
  (broadcastInDim S54x1 ![0] bcast_S54_S54x1_0 : (⟨S54, .i32⟩ : BufTy).Contents (Elt F) → (⟨S54x1, .i32⟩ : BufTy).Contents (Elt F)) (v_main_v12 (F := F))
def v_main_v14 (y : (⟨S55x3, .f32⟩ : BufTy).Contents (Elt F)) : (⟨S32768x54x3, .f32⟩ : BufTy).Contents (Elt F) :=
  ((fun x i => Host.gather gather_S32768x55x3_S54x1_S32768x54x3_02_1_n_n_1_1_3276813 x i) : (⟨S32768x55x3, .f32⟩ : BufTy).Contents (Elt F) → (⟨S54x1, .i32⟩ : BufTy).Contents (Elt F) → (⟨S32768x54x3, .f32⟩ : BufTy).Contents (Elt F)) (v_main_v9 (F := F) y) (v_main_v13 (F := F))
def v_main_v15 (y : (⟨S55x3, .f32⟩ : BufTy).Contents (Elt F)) : (⟨S32768x54x3, .f32⟩ : BufTy).Contents (Elt F) :=
  (Host.negf : (⟨S32768x54x3, .f32⟩ : BufTy).Contents (Elt F) → (⟨S32768x54x3, .f32⟩ : BufTy).Contents (Elt F)) (v_main_v14 (F := F) y)
def v_main_c_3 : (⟨S_, .i32⟩ : BufTy).Contents (Elt F) :=
  (constantI S_ 32 1#32)
def v_main_v16 : (⟨S1, .i32⟩ : BufTy).Contents (Elt F) :=
  (broadcastInDim S1 ![] bcast_S_S1 : (⟨S_, .i32⟩ : BufTy).Contents (Elt F) → (⟨S1, .i32⟩ : BufTy).Contents (Elt F)) (v_main_c_3 (F := F))
def v_main_v17 (y : (⟨S55x3, .f32⟩ : BufTy).Contents (Elt F)) : (⟨S32768x55x3, .f32⟩ : BufTy).Contents (Elt F) :=
  ((fun x i u => Host.scatter scatter_S32768x55x3_S1_S32768x54x3_012_n_1_0 FloatOps.addf x i u) : (⟨S32768x55x3, .f32⟩ : BufTy).Contents (Elt F) → (⟨S1, .i32⟩ : BufTy).Contents (Elt F) → (⟨S32768x54x3, .f32⟩ : BufTy).Contents (Elt F) → (⟨S32768x55x3, .f32⟩ : BufTy).Contents (Elt F)) (v_main_v9 (F := F) y) (v_main_v16 (F := F)) (v_main_v15 (F := F) y)
def v_main_v18 (y : (⟨S55x3, .f32⟩ : BufTy).Contents (Elt F)) : (⟨S32768x55x3x1, .f32⟩ : BufTy).Contents (Elt F) :=
  (broadcastInDim S32768x55x3x1 ![0, 1, 2] bcast_S32768x55x3_S32768x55x3x1_0_1_2 : (⟨S32768x55x3, .f32⟩ : BufTy).Contents (Elt F) → (⟨S32768x55x3x1, .f32⟩ : BufTy).Contents (Elt F)) (v_main_v17 (F := F) y)
def v_main_v19 (x : (⟨S16x2048x22x3x3, .f32⟩ : BufTy).Contents (Elt F)) (y : (⟨S55x3, .f32⟩ : BufTy).Contents (Elt F)) : (⟨S32768x55x3x4, .f32⟩ : BufTy).Contents (Elt F) :=
  ((fun a b => concatenate S32768x55x3x4 3 [⟨S32768x55x3x3, a⟩, ⟨S32768x55x3x1, b⟩] concatenates_S32768x55x3x3_S32768x55x3x1_S32768x55x3x4_d3) : (⟨S32768x55x3x3, .f32⟩ : BufTy).Contents (Elt F) → (⟨S32768x55x3x1, .f32⟩ : BufTy).Contents (Elt F) → (⟨S32768x55x3x4, .f32⟩ : BufTy).Contents (Elt F)) (v_main_v8 (F := F) x) (v_main_v18 (F := F) y)
def v_main_v20 : (⟨S32768x55x1x4, .f32⟩ : BufTy).Contents (Elt F) :=
  (broadcastInDim S32768x55x1x4 ![3] bcast_S4_S32768x55x1x4_3 : (⟨S4, .f32⟩ : BufTy).Contents (Elt F) → (⟨S32768x55x1x4, .f32⟩ : BufTy).Contents (Elt F)) (v_main_cst (F := F))
def v_main_v21 (x : (⟨S16x2048x22x3x3, .f32⟩ : BufTy).Contents (Elt F)) (y : (⟨S55x3, .f32⟩ : BufTy).Contents (Elt F)) : (⟨S32768x55x4x4, .f32⟩ : BufTy).Contents (Elt F) :=
  ((fun a b => concatenate S32768x55x4x4 2 [⟨S32768x55x3x4, a⟩, ⟨S32768x55x1x4, b⟩] concatenates_S32768x55x3x4_S32768x55x1x4_S32768x55x4x4_d2) : (⟨S32768x55x3x4, .f32⟩ : BufTy).Contents (Elt F) → (⟨S32768x55x1x4, .f32⟩ : BufTy).Contents (Elt F) → (⟨S32768x55x4x4, .f32⟩ : BufTy).Contents (Elt F)) (v_main_v19 (F := F) x y) (v_main_v20 (F := F))

/-- Every sample's 55 local transforms in homogeneous form, from the rotations and the rest positions. -/
def tmats (x : (⟨S16x2048x22x3x3, .f32⟩ : BufTy).Contents (Elt F)) (y : (⟨S55x3, .f32⟩ : BufTy).Contents (Elt F)) : (⟨S32768x55x4x4, .f32⟩ : BufTy).Contents (Elt F) := v_main_v21 x y

/-! ## The walk down the tree and the read-out, from the local transforms -/

def v_main_v22 (tm : (⟨S32768x55x4x4, .f32⟩ : BufTy).Contents (Elt F)) : (⟨S32768x1x4x4, .f32⟩ : BufTy).Contents (Elt F) :=
  ((extractStridedSlice S32768x1x4x4 ![0, 0, 0, 0] · slices_S32768x55x4x4_S32768x1x4x4_0_0_0_0) : (⟨S32768x55x4x4, .f32⟩ : BufTy).Contents (Elt F) → (⟨S32768x1x4x4, .f32⟩ : BufTy).Contents (Elt F)) (tm)
def v_main_v23 (tm : (⟨S32768x55x4x4, .f32⟩ : BufTy).Contents (Elt F)) : (⟨S32768x4x4, .f32⟩ : BufTy).Contents (Elt F) :=
  fun i => shapeCast S32768x4x4 (v_main_v22 (F := F) tm) shapeCasts_S32768x1x4x4_S32768x4x4 i
def v_main_v24 (tm : (⟨S32768x55x4x4, .f32⟩ : BufTy).Contents (Elt F)) : (⟨S32768x1x4x4, .f32⟩ : BufTy).Contents (Elt F) :=
  ((extractStridedSlice S32768x1x4x4 ![0, 1, 0, 0] · slices_S32768x55x4x4_S32768x1x4x4_0_1_0_0) : (⟨S32768x55x4x4, .f32⟩ : BufTy).Contents (Elt F) → (⟨S32768x1x4x4, .f32⟩ : BufTy).Contents (Elt F)) (tm)
def v_main_v25 (tm : (⟨S32768x55x4x4, .f32⟩ : BufTy).Contents (Elt F)) : (⟨S32768x4x4, .f32⟩ : BufTy).Contents (Elt F) :=
  fun i => shapeCast S32768x4x4 (v_main_v24 (F := F) tm) shapeCasts_S32768x1x4x4_S32768x4x4 i
def v_main_v26 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v23 (F := F) tm) (v_main_v25 (F := F) tm)
def v_main_v27 (tm : (⟨S32768x55x4x4, .f32⟩ : BufTy).Contents (Elt F)) : (⟨S32768x1x4x4, .f32⟩ : BufTy).Contents (Elt F) :=
  ((extractStridedSlice S32768x1x4x4 ![0, 2, 0, 0] · slices_S32768x55x4x4_S32768x1x4x4_0_2_0_0) : (⟨S32768x55x4x4, .f32⟩ : BufTy).Contents (Elt F) → (⟨S32768x1x4x4, .f32⟩ : BufTy).Contents (Elt F)) (tm)
def v_main_v28 (tm : (⟨S32768x55x4x4, .f32⟩ : BufTy).Contents (Elt F)) : (⟨S32768x4x4, .f32⟩ : BufTy).Contents (Elt F) :=
  fun i => shapeCast S32768x4x4 (v_main_v27 (F := F) tm) shapeCasts_S32768x1x4x4_S32768x4x4 i
def v_main_v29 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v23 (F := F) tm) (v_main_v28 (F := F) tm)
def v_main_v30 (tm : (⟨S32768x55x4x4, .f32⟩ : BufTy).Contents (Elt F)) : (⟨S32768x1x4x4, .f32⟩ : BufTy).Contents (Elt F) :=
  ((extractStridedSlice S32768x1x4x4 ![0, 3, 0, 0] · slices_S32768x55x4x4_S32768x1x4x4_0_3_0_0) : (⟨S32768x55x4x4, .f32⟩ : BufTy).Contents (Elt F) → (⟨S32768x1x4x4, .f32⟩ : BufTy).Contents (Elt F)) (tm)
def v_main_v31 (tm : (⟨S32768x55x4x4, .f32⟩ : BufTy).Contents (Elt F)) : (⟨S32768x4x4, .f32⟩ : BufTy).Contents (Elt F) :=
  fun i => shapeCast S32768x4x4 (v_main_v30 (F := F) tm) shapeCasts_S32768x1x4x4_S32768x4x4 i
def v_main_v32 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v23 (F := F) tm) (v_main_v31 (F := F) tm)
def v_main_v33 (tm : (⟨S32768x55x4x4, .f32⟩ : BufTy).Contents (Elt F)) : (⟨S32768x1x4x4, .f32⟩ : BufTy).Contents (Elt F) :=
  ((extractStridedSlice S32768x1x4x4 ![0, 4, 0, 0] · slices_S32768x55x4x4_S32768x1x4x4_0_4_0_0) : (⟨S32768x55x4x4, .f32⟩ : BufTy).Contents (Elt F) → (⟨S32768x1x4x4, .f32⟩ : BufTy).Contents (Elt F)) (tm)
def v_main_v34 (tm : (⟨S32768x55x4x4, .f32⟩ : BufTy).Contents (Elt F)) : (⟨S32768x4x4, .f32⟩ : BufTy).Contents (Elt F) :=
  fun i => shapeCast S32768x4x4 (v_main_v33 (F := F) tm) shapeCasts_S32768x1x4x4_S32768x4x4 i
def v_main_v35 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v26 (F := F) tm) (v_main_v34 (F := F) tm)
def v_main_v36 (tm : (⟨S32768x55x4x4, .f32⟩ : BufTy).Contents (Elt F)) : (⟨S32768x1x4x4, .f32⟩ : BufTy).Contents (Elt F) :=
  ((extractStridedSlice S32768x1x4x4 ![0, 5, 0, 0] · slices_S32768x55x4x4_S32768x1x4x4_0_5_0_0) : (⟨S32768x55x4x4, .f32⟩ : BufTy).Contents (Elt F) → (⟨S32768x1x4x4, .f32⟩ : BufTy).Contents (Elt F)) (tm)
def v_main_v37 (tm : (⟨S32768x55x4x4, .f32⟩ : BufTy).Contents (Elt F)) : (⟨S32768x4x4, .f32⟩ : BufTy).Contents (Elt F) :=
  fun i => shapeCast S32768x4x4 (v_main_v36 (F := F) tm) shapeCasts_S32768x1x4x4_S32768x4x4 i
def v_main_v38 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v29 (F := F) tm) (v_main_v37 (F := F) tm)
def v_main_v39 (tm : (⟨S32768x55x4x4, .f32⟩ : BufTy).Contents (Elt F)) : (⟨S32768x1x4x4, .f32⟩ : BufTy).Contents (Elt F) :=
  ((extractStridedSlice S32768x1x4x4 ![0, 6, 0, 0] · slices_S32768x55x4x4_S32768x1x4x4_0_6_0_0) : (⟨S32768x55x4x4, .f32⟩ : BufTy).Contents (Elt F) → (⟨S32768x1x4x4, .f32⟩ : BufTy).Contents (Elt F)) (tm)
def v_main_v40 (tm : (⟨S32768x55x4x4, .f32⟩ : BufTy).Contents (Elt F)) : (⟨S32768x4x4, .f32⟩ : BufTy).Contents (Elt F) :=
  fun i => shapeCast S32768x4x4 (v_main_v39 (F := F) tm) shapeCasts_S32768x1x4x4_S32768x4x4 i
def v_main_v41 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v32 (F := F) tm) (v_main_v40 (F := F) tm)
def v_main_v42 (tm : (⟨S32768x55x4x4, .f32⟩ : BufTy).Contents (Elt F)) : (⟨S32768x1x4x4, .f32⟩ : BufTy).Contents (Elt F) :=
  ((extractStridedSlice S32768x1x4x4 ![0, 7, 0, 0] · slices_S32768x55x4x4_S32768x1x4x4_0_7_0_0) : (⟨S32768x55x4x4, .f32⟩ : BufTy).Contents (Elt F) → (⟨S32768x1x4x4, .f32⟩ : BufTy).Contents (Elt F)) (tm)
def v_main_v43 (tm : (⟨S32768x55x4x4, .f32⟩ : BufTy).Contents (Elt F)) : (⟨S32768x4x4, .f32⟩ : BufTy).Contents (Elt F) :=
  fun i => shapeCast S32768x4x4 (v_main_v42 (F := F) tm) shapeCasts_S32768x1x4x4_S32768x4x4 i
def v_main_v44 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v35 (F := F) tm) (v_main_v43 (F := F) tm)
def v_main_v45 (tm : (⟨S32768x55x4x4, .f32⟩ : BufTy).Contents (Elt F)) : (⟨S32768x1x4x4, .f32⟩ : BufTy).Contents (Elt F) :=
  ((extractStridedSlice S32768x1x4x4 ![0, 8, 0, 0] · slices_S32768x55x4x4_S32768x1x4x4_0_8_0_0) : (⟨S32768x55x4x4, .f32⟩ : BufTy).Contents (Elt F) → (⟨S32768x1x4x4, .f32⟩ : BufTy).Contents (Elt F)) (tm)
def v_main_v46 (tm : (⟨S32768x55x4x4, .f32⟩ : BufTy).Contents (Elt F)) : (⟨S32768x4x4, .f32⟩ : BufTy).Contents (Elt F) :=
  fun i => shapeCast S32768x4x4 (v_main_v45 (F := F) tm) shapeCasts_S32768x1x4x4_S32768x4x4 i
def v_main_v47 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v38 (F := F) tm) (v_main_v46 (F := F) tm)
def v_main_v48 (tm : (⟨S32768x55x4x4, .f32⟩ : BufTy).Contents (Elt F)) : (⟨S32768x1x4x4, .f32⟩ : BufTy).Contents (Elt F) :=
  ((extractStridedSlice S32768x1x4x4 ![0, 9, 0, 0] · slices_S32768x55x4x4_S32768x1x4x4_0_9_0_0) : (⟨S32768x55x4x4, .f32⟩ : BufTy).Contents (Elt F) → (⟨S32768x1x4x4, .f32⟩ : BufTy).Contents (Elt F)) (tm)
def v_main_v49 (tm : (⟨S32768x55x4x4, .f32⟩ : BufTy).Contents (Elt F)) : (⟨S32768x4x4, .f32⟩ : BufTy).Contents (Elt F) :=
  fun i => shapeCast S32768x4x4 (v_main_v48 (F := F) tm) shapeCasts_S32768x1x4x4_S32768x4x4 i
def v_main_v50 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v41 (F := F) tm) (v_main_v49 (F := F) tm)
def v_main_v51 (tm : (⟨S32768x55x4x4, .f32⟩ : BufTy).Contents (Elt F)) : (⟨S32768x1x4x4, .f32⟩ : BufTy).Contents (Elt F) :=
  ((extractStridedSlice S32768x1x4x4 ![0, 10, 0, 0] · slices_S32768x55x4x4_S32768x1x4x4_0_10_0_0) : (⟨S32768x55x4x4, .f32⟩ : BufTy).Contents (Elt F) → (⟨S32768x1x4x4, .f32⟩ : BufTy).Contents (Elt F)) (tm)
def v_main_v52 (tm : (⟨S32768x55x4x4, .f32⟩ : BufTy).Contents (Elt F)) : (⟨S32768x4x4, .f32⟩ : BufTy).Contents (Elt F) :=
  fun i => shapeCast S32768x4x4 (v_main_v51 (F := F) tm) shapeCasts_S32768x1x4x4_S32768x4x4 i
def v_main_v53 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v44 (F := F) tm) (v_main_v52 (F := F) tm)
def v_main_v54 (tm : (⟨S32768x55x4x4, .f32⟩ : BufTy).Contents (Elt F)) : (⟨S32768x1x4x4, .f32⟩ : BufTy).Contents (Elt F) :=
  ((extractStridedSlice S32768x1x4x4 ![0, 11, 0, 0] · slices_S32768x55x4x4_S32768x1x4x4_0_11_0_0) : (⟨S32768x55x4x4, .f32⟩ : BufTy).Contents (Elt F) → (⟨S32768x1x4x4, .f32⟩ : BufTy).Contents (Elt F)) (tm)
def v_main_v55 (tm : (⟨S32768x55x4x4, .f32⟩ : BufTy).Contents (Elt F)) : (⟨S32768x4x4, .f32⟩ : BufTy).Contents (Elt F) :=
  fun i => shapeCast S32768x4x4 (v_main_v54 (F := F) tm) shapeCasts_S32768x1x4x4_S32768x4x4 i
def v_main_v56 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v47 (F := F) tm) (v_main_v55 (F := F) tm)
def v_main_v57 (tm : (⟨S32768x55x4x4, .f32⟩ : BufTy).Contents (Elt F)) : (⟨S32768x1x4x4, .f32⟩ : BufTy).Contents (Elt F) :=
  ((extractStridedSlice S32768x1x4x4 ![0, 12, 0, 0] · slices_S32768x55x4x4_S32768x1x4x4_0_12_0_0) : (⟨S32768x55x4x4, .f32⟩ : BufTy).Contents (Elt F) → (⟨S32768x1x4x4, .f32⟩ : BufTy).Contents (Elt F)) (tm)
def v_main_v58 (tm : (⟨S32768x55x4x4, .f32⟩ : BufTy).Contents (Elt F)) : (⟨S32768x4x4, .f32⟩ : BufTy).Contents (Elt F) :=
  fun i => shapeCast S32768x4x4 (v_main_v57 (F := F) tm) shapeCasts_S32768x1x4x4_S32768x4x4 i
def v_main_v59 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v50 (F := F) tm) (v_main_v58 (F := F) tm)
def v_main_v60 (tm : (⟨S32768x55x4x4, .f32⟩ : BufTy).Contents (Elt F)) : (⟨S32768x1x4x4, .f32⟩ : BufTy).Contents (Elt F) :=
  ((extractStridedSlice S32768x1x4x4 ![0, 13, 0, 0] · slices_S32768x55x4x4_S32768x1x4x4_0_13_0_0) : (⟨S32768x55x4x4, .f32⟩ : BufTy).Contents (Elt F) → (⟨S32768x1x4x4, .f32⟩ : BufTy).Contents (Elt F)) (tm)
def v_main_v61 (tm : (⟨S32768x55x4x4, .f32⟩ : BufTy).Contents (Elt F)) : (⟨S32768x4x4, .f32⟩ : BufTy).Contents (Elt F) :=
  fun i => shapeCast S32768x4x4 (v_main_v60 (F := F) tm) shapeCasts_S32768x1x4x4_S32768x4x4 i
def v_main_v62 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v50 (F := F) tm) (v_main_v61 (F := F) tm)
def v_main_v63 (tm : (⟨S32768x55x4x4, .f32⟩ : BufTy).Contents (Elt F)) : (⟨S32768x1x4x4, .f32⟩ : BufTy).Contents (Elt F) :=
  ((extractStridedSlice S32768x1x4x4 ![0, 14, 0, 0] · slices_S32768x55x4x4_S32768x1x4x4_0_14_0_0) : (⟨S32768x55x4x4, .f32⟩ : BufTy).Contents (Elt F) → (⟨S32768x1x4x4, .f32⟩ : BufTy).Contents (Elt F)) (tm)
def v_main_v64 (tm : (⟨S32768x55x4x4, .f32⟩ : BufTy).Contents (Elt F)) : (⟨S32768x4x4, .f32⟩ : BufTy).Contents (Elt F) :=
  fun i => shapeCast S32768x4x4 (v_main_v63 (F := F) tm) shapeCasts_S32768x1x4x4_S32768x4x4 i
def v_main_v65 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v50 (F := F) tm) (v_main_v64 (F := F) tm)
def v_main_v66 (tm : (⟨S32768x55x4x4, .f32⟩ : BufTy).Contents (Elt F)) : (⟨S32768x1x4x4, .f32⟩ : BufTy).Contents (Elt F) :=
  ((extractStridedSlice S32768x1x4x4 ![0, 15, 0, 0] · slices_S32768x55x4x4_S32768x1x4x4_0_15_0_0) : (⟨S32768x55x4x4, .f32⟩ : BufTy).Contents (Elt F) → (⟨S32768x1x4x4, .f32⟩ : BufTy).Contents (Elt F)) (tm)
def v_main_v67 (tm : (⟨S32768x55x4x4, .f32⟩ : BufTy).Contents (Elt F)) : (⟨S32768x4x4, .f32⟩ : BufTy).Contents (Elt F) :=
  fun i => shapeCast S32768x4x4 (v_main_v66 (F := F) tm) shapeCasts_S32768x1x4x4_S32768x4x4 i
def v_main_v68 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v59 (F := F) tm) (v_main_v67 (F := F) tm)
def v_main_v69 (tm : (⟨S32768x55x4x4, .f32⟩ : BufTy).Contents (Elt F)) : (⟨S32768x1x4x4, .f32⟩ : BufTy).Contents (Elt F) :=
  ((extractStridedSlice S32768x1x4x4 ![0, 16, 0, 0] · slices_S32768x55x4x4_S32768x1x4x4_0_16_0_0) : (⟨S32768x55x4x4, .f32⟩ : BufTy).Contents (Elt F) → (⟨S32768x1x4x4, .f32⟩ : BufTy).Contents (Elt F)) (tm)
def v_main_v70 (tm : (⟨S32768x55x4x4, .f32⟩ : BufTy).Contents (Elt F)) : (⟨S32768x4x4, .f32⟩ : BufTy).Contents (Elt F) :=
  fun i => shapeCast S32768x4x4 (v_main_v69 (F := F) tm) shapeCasts_S32768x1x4x4_S32768x4x4 i
def v_main_v71 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v62 (F := F) tm) (v_main_v70 (F := F) tm)
def v_main_v72 (tm : (⟨S32768x55x4x4, .f32⟩ : BufTy).Contents (Elt F)) : (⟨S32768x1x4x4, .f32⟩ : BufTy).Contents (Elt F) :=
  ((extractStridedSlice S32768x1x4x4 ![0, 17, 0, 0] · slices_S32768x55x4x4_S32768x1x4x4_0_17_0_0) : (⟨S32768x55x4x4, .f32⟩ : BufTy).Contents (Elt F) → (⟨S32768x1x4x4, .f32⟩ : BufTy).Contents (Elt F)) (tm)
def v_main_v73 (tm : (⟨S32768x55x4x4, .f32⟩ : BufTy).Contents (Elt F)) : (⟨S32768x4x4, .f32⟩ : BufTy).Contents (Elt F) :=
  fun i => shapeCast S32768x4x4 (v_main_v72 (F := F) tm) shapeCasts_S32768x1x4x4_S32768x4x4 i
def v_main_v74 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v65 (F := F) tm) (v_main_v73 (F := F) tm)
def v_main_v75 (tm : (⟨S32768x55x4x4, .f32⟩ : BufTy).Contents (Elt F)) : (⟨S32768x1x4x4, .f32⟩ : BufTy).Contents (Elt F) :=
  ((extractStridedSlice S32768x1x4x4 ![0, 18, 0, 0] · slices_S32768x55x4x4_S32768x1x4x4_0_18_0_0) : (⟨S32768x55x4x4, .f32⟩ : BufTy).Contents (Elt F) → (⟨S32768x1x4x4, .f32⟩ : BufTy).Contents (Elt F)) (tm)
def v_main_v76 (tm : (⟨S32768x55x4x4, .f32⟩ : BufTy).Contents (Elt F)) : (⟨S32768x4x4, .f32⟩ : BufTy).Contents (Elt F) :=
  fun i => shapeCast S32768x4x4 (v_main_v75 (F := F) tm) shapeCasts_S32768x1x4x4_S32768x4x4 i
def v_main_v77 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v71 (F := F) tm) (v_main_v76 (F := F) tm)
def v_main_v78 (tm : (⟨S32768x55x4x4, .f32⟩ : BufTy).Contents (Elt F)) : (⟨S32768x1x4x4, .f32⟩ : BufTy).Contents (Elt F) :=
  ((extractStridedSlice S32768x1x4x4 ![0, 19, 0, 0] · slices_S32768x55x4x4_S32768x1x4x4_0_19_0_0) : (⟨S32768x55x4x4, .f32⟩ : BufTy).Contents (Elt F) → (⟨S32768x1x4x4, .f32⟩ : BufTy).Contents (Elt F)) (tm)
def v_main_v79 (tm : (⟨S32768x55x4x4, .f32⟩ : BufTy).Contents (Elt F)) : (⟨S32768x4x4, .f32⟩ : BufTy).Contents (Elt F) :=
  fun i => shapeCast S32768x4x4 (v_main_v78 (F := F) tm) shapeCasts_S32768x1x4x4_S32768x4x4 i
def v_main_v80 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v74 (F := F) tm) (v_main_v79 (F := F) tm)
def v_main_v81 (tm : (⟨S32768x55x4x4, .f32⟩ : BufTy).Contents (Elt F)) : (⟨S32768x1x4x4, .f32⟩ : BufTy).Contents (Elt F) :=
  ((extractStridedSlice S32768x1x4x4 ![0, 20, 0, 0] · slices_S32768x55x4x4_S32768x1x4x4_0_20_0_0) : (⟨S32768x55x4x4, .f32⟩ : BufTy).Contents (Elt F) → (⟨S32768x1x4x4, .f32⟩ : BufTy).Contents (Elt F)) (tm)
def v_main_v82 (tm : (⟨S32768x55x4x4, .f32⟩ : BufTy).Contents (Elt F)) : (⟨S32768x4x4, .f32⟩ : BufTy).Contents (Elt F) :=
  fun i => shapeCast S32768x4x4 (v_main_v81 (F := F) tm) shapeCasts_S32768x1x4x4_S32768x4x4 i
def v_main_v83 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v77 (F := F) tm) (v_main_v82 (F := F) tm)
def v_main_v84 (tm : (⟨S32768x55x4x4, .f32⟩ : BufTy).Contents (Elt F)) : (⟨S32768x1x4x4, .f32⟩ : BufTy).Contents (Elt F) :=
  ((extractStridedSlice S32768x1x4x4 ![0, 21, 0, 0] · slices_S32768x55x4x4_S32768x1x4x4_0_21_0_0) : (⟨S32768x55x4x4, .f32⟩ : BufTy).Contents (Elt F) → (⟨S32768x1x4x4, .f32⟩ : BufTy).Contents (Elt F)) (tm)
def v_main_v85 (tm : (⟨S32768x55x4x4, .f32⟩ : BufTy).Contents (Elt F)) : (⟨S32768x4x4, .f32⟩ : BufTy).Contents (Elt F) :=
  fun i => shapeCast S32768x4x4 (v_main_v84 (F := F) tm) shapeCasts_S32768x1x4x4_S32768x4x4 i
def v_main_v86 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v80 (F := F) tm) (v_main_v85 (F := F) tm)
def v_main_v87 (tm : (⟨S32768x55x4x4, .f32⟩ : BufTy).Contents (Elt F)) : (⟨S32768x1x4x4, .f32⟩ : BufTy).Contents (Elt F) :=
  ((extractStridedSlice S32768x1x4x4 ![0, 22, 0, 0] · slices_S32768x55x4x4_S32768x1x4x4_0_22_0_0) : (⟨S32768x55x4x4, .f32⟩ : BufTy).Contents (Elt F) → (⟨S32768x1x4x4, .f32⟩ : BufTy).Contents (Elt F)) (tm)
def v_main_v88 (tm : (⟨S32768x55x4x4, .f32⟩ : BufTy).Contents (Elt F)) : (⟨S32768x4x4, .f32⟩ : BufTy).Contents (Elt F) :=
  fun i => shapeCast S32768x4x4 (v_main_v87 (F := F) tm) shapeCasts_S32768x1x4x4_S32768x4x4 i
def v_main_v89 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v68 (F := F) tm) (v_main_v88 (F := F) tm)
def v_main_v90 (tm : (⟨S32768x55x4x4, .f32⟩ : BufTy).Contents (Elt F)) : (⟨S32768x1x4x4, .f32⟩ : BufTy).Contents (Elt F) :=
  ((extractStridedSlice S32768x1x4x4 ![0, 23, 0, 0] · slices_S32768x55x4x4_S32768x1x4x4_0_23_0_0) : (⟨S32768x55x4x4, .f32⟩ : BufTy).Contents (Elt F) → (⟨S32768x1x4x4, .f32⟩ : BufTy).Contents (Elt F)) (tm)
def v_main_v91 (tm : (⟨S32768x55x4x4, .f32⟩ : BufTy).Contents (Elt F)) : (⟨S32768x4x4, .f32⟩ : BufTy).Contents (Elt F) :=
  fun i => shapeCast S32768x4x4 (v_main_v90 (F := F) tm) shapeCasts_S32768x1x4x4_S32768x4x4 i
def v_main_v92 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v68 (F := F) tm) (v_main_v91 (F := F) tm)
def v_main_v93 (tm : (⟨S32768x55x4x4, .f32⟩ : BufTy).Contents (Elt F)) : (⟨S32768x1x4x4, .f32⟩ : BufTy).Contents (Elt F) :=
  ((extractStridedSlice S32768x1x4x4 ![0, 24, 0, 0] · slices_S32768x55x4x4_S32768x1x4x4_0_24_0_0) : (⟨S32768x55x4x4, .f32⟩ : BufTy).Contents (Elt F) → (⟨S32768x1x4x4, .f32⟩ : BufTy).Contents (Elt F)) (tm)
def v_main_v94 (tm : (⟨S32768x55x4x4, .f32⟩ : BufTy).Contents (Elt F)) : (⟨S32768x4x4, .f32⟩ : BufTy).Contents (Elt F) :=
  fun i => shapeCast S32768x4x4 (v_main_v93 (F := F) tm) shapeCasts_S32768x1x4x4_S32768x4x4 i
def v_main_v95 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v68 (F := F) tm) (v_main_v94 (F := F) tm)
def v_main_v96 (tm : (⟨S32768x55x4x4, .f32⟩ : BufTy).Contents (Elt F)) : (⟨S32768x1x4x4, .f32⟩ : BufTy).Contents (Elt F) :=
  ((extractStridedSlice S32768x1x4x4 ![0, 25, 0, 0] · slices_S32768x55x4x4_S32768x1x4x4_0_25_0_0) : (⟨S32768x55x4x4, .f32⟩ : BufTy).Contents (Elt F) → (⟨S32768x1x4x4, .f32⟩ : BufTy).Contents (Elt F)) (tm)
def v_main_v97 (tm : (⟨S32768x55x4x4, .f32⟩ : BufTy).Contents (Elt F)) : (⟨S32768x4x4, .f32⟩ : BufTy).Contents (Elt F) :=
  fun i => shapeCast S32768x4x4 (v_main_v96 (F := F) tm) shapeCasts_S32768x1x4x4_S32768x4x4 i
def v_main_v98 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v83 (F := F) tm) (v_main_v97 (F := F) tm)
def v_main_v99 (tm : (⟨S32768x55x4x4, .f32⟩ : BufTy).Contents (Elt F)) : (⟨S32768x1x4x4, .f32⟩ : BufTy).Contents (Elt F) :=
  ((extractStridedSlice S32768x1x4x4 ![0, 26, 0, 0] · slices_S32768x55x4x4_S32768x1x4x4_0_26_0_0) : (⟨S32768x55x4x4, .f32⟩ : BufTy).Contents (Elt F) → (⟨S32768x1x4x4, .f32⟩ : BufTy).Contents (Elt F)) (tm)
def v_main_v100 (tm : (⟨S32768x55x4x4, .f32⟩ : BufTy).Contents (Elt F)) : (⟨S32768x4x4, .f32⟩ : BufTy).Contents (Elt F) :=
  fun i => shapeCast S32768x4x4 (v_main_v99 (F := F) tm) shapeCasts_S32768x1x4x4_S32768x4x4 i
def v_main_v101 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v98 (F := F) tm) (v_main_v100 (F := F) tm)
def v_main_v102 (tm : (⟨S32768x55x4x4, .f32⟩ : BufTy).Contents (Elt F)) : (⟨S32768x1x4x4, .f32⟩ : BufTy).Contents (Elt F) :=
  ((extractStridedSlice S32768x1x4x4 ![0, 27, 0, 0] · slices_S32768x55x4x4_S32768x1x4x4_0_27_0_0) : (⟨S32768x55x4x4, .f32⟩ : BufTy).Contents (Elt F) → (⟨S32768x1x4x4, .f32⟩ : BufTy).Contents (Elt F)) (tm)
def v_main_v103 (tm : (⟨S32768x55x4x4, .f32⟩ : BufTy).Contents (Elt F)) : (⟨S32768x4x4, .f32⟩ : BufTy).Contents (Elt F) :=
  fun i => shapeCast S32768x4x4 (v_main_v102 (F := F) tm) shapeCasts_S32768x1x4x4_S32768x4x4 i
def v_main_v104 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v101 (F := F) tm) (v_main_v103 (F := F) tm)
def v_main_v105 (tm : (⟨S32768x55x4x4, .f32⟩ : BufTy).Contents (Elt F)) : (⟨S32768x1x4x4, .f32⟩ : BufTy).Contents (Elt F) :=
  ((extractStridedSlice S32768x1x4x4 ![0, 28, 0, 0] · slices_S32768x55x4x4_S32768x1x4x4_0_28_0_0) : (⟨S32768x55x4x4, .f32⟩ : BufTy).Contents (Elt F) → (⟨S32768x1x4x4, .f32⟩ : BufTy).Contents (Elt F)) (tm)
def v_main_v106 (tm : (⟨S32768x55x4x4, .f32⟩ : BufTy).Contents (Elt F)) : (⟨S32768x4x4, .f32⟩ : BufTy).Contents (Elt F) :=
  fun i => shapeCast S32768x4x4 (v_main_v105 (F := F) tm) shapeCasts_S32768x1x4x4_S32768x4x4 i
def v_main_v107 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v83 (F := F) tm) (v_main_v106 (F := F) tm)
def v_main_v108 (tm : (⟨S32768x55x4x4, .f32⟩ : BufTy).Contents (Elt F)) : (⟨S32768x1x4x4, .f32⟩ : BufTy).Contents (Elt F) :=
  ((extractStridedSlice S32768x1x4x4 ![0, 29, 0, 0] · slices_S32768x55x4x4_S32768x1x4x4_0_29_0_0) : (⟨S32768x55x4x4, .f32⟩ : BufTy).Contents (Elt F) → (⟨S32768x1x4x4, .f32⟩ : BufTy).Contents (Elt F)) (tm)
def v_main_v109 (tm : (⟨S32768x55x4x4, .f32⟩ : BufTy).Contents (Elt F)) : (⟨S32768x4x4, .f32⟩ : BufTy).Contents (Elt F) :=
  fun i => shapeCast S32768x4x4 (v_main_v108 (F := F) tm) shapeCasts_S32768x1x4x4_S32768x4x4 i
def v_main_v110 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v107 (F := F) tm) (v_main_v109 (F := F) tm)
def v_main_v111 (tm : (⟨S32768x55x4x4, .f32⟩ : BufTy).Contents (Elt F)) : (⟨S32768x1x4x4, .f32⟩ : BufTy).Contents (Elt F) :=
  ((extractStridedSlice S32768x1x4x4 ![0, 30, 0, 0] · slices_S32768x55x4x4_S32768x1x4x4_0_30_0_0) : (⟨S32768x55x4x4, .f32⟩ : BufTy).Contents (Elt F) → (⟨S32768x1x4x4, .f32⟩ : BufTy).Contents (Elt F)) (tm)
def v_main_v112 (tm : (⟨S32768x55x4x4, .f32⟩ : BufTy).Contents (Elt F)) : (⟨S32768x4x4, .f32⟩ : BufTy).Contents (Elt F) :=
  fun i => shapeCast S32768x4x4 (v_main_v111 (F := F) tm) shapeCasts_S32768x1x4x4_S32768x4x4 i
def v_main_v113 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v110 (F := F) tm) (v_main_v112 (F := F) tm)
def v_main_v114 (tm : (⟨S32768x55x4x4, .f32⟩ : BufTy).Contents (Elt F)) : (⟨S32768x1x4x4, .f32⟩ : BufTy).Contents (Elt F) :=
  ((extractStridedSlice S32768x1x4x4 ![0, 31, 0, 0] · slices_S32768x55x4x4_S32768x1x4x4_0_31_0_0) : (⟨S32768x55x4x4, .f32⟩ : BufTy).Contents (Elt F) → (⟨S32768x1x4x4, .f32⟩ : BufTy).Contents (Elt F)) (tm)
def v_main_v115 (tm : (⟨S32768x55x4x4, .f32⟩ : BufTy).Contents (Elt F)) : (⟨S32768x4x4, .f32⟩ : BufTy).Contents (Elt F) :=
  fun i => shapeCast S32768x4x4 (v_main_v114 (F := F) tm) shapeCasts_S32768x1x4x4_S32768x4x4 i
def v_main_v116 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v83 (F := F) tm) (v_main_v115 (F := F) tm)
def v_main_v117 (tm : (⟨S32768x55x4x4, .f32⟩ : BufTy).Contents (Elt F)) : (⟨S32768x1x4x4, .f32⟩ : BufTy).Contents (Elt F) :=
  ((extractStridedSlice S32768x1x4x4 ![0, 32, 0, 0] · slices_S32768x55x4x4_S32768x1x4x4_0_32_0_0) : (⟨S32768x55x4x4, .f32⟩ : BufTy).Contents (Elt F) → (⟨S32768x1x4x4, .f32⟩ : BufTy).Contents (Elt F)) (tm)
def v_main_v118 (tm : (⟨S32768x55x4x4, .f32⟩ : BufTy).Contents (Elt F)) : (⟨S32768x4x4, .f32⟩ : BufTy).Contents (Elt F) :=
  fun i => shapeCast S32768x4x4 (v_main_v117 (F := F) tm) shapeCasts_S32768x1x4x4_S32768x4x4 i
def v_main_v119 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v116 (F := F) tm) (v_main_v118 (F := F) tm)
def v_main_v120 (tm : (⟨S32768x55x4x4, .f32⟩ : BufTy).Contents (Elt F)) : (⟨S32768x1x4x4, .f32⟩ : BufTy).Contents (Elt F) :=
  ((extractStridedSlice S32768x1x4x4 ![0, 33, 0, 0] · slices_S32768x55x4x4_S32768x1x4x4_0_33_0_0) : (⟨S32768x55x4x4, .f32⟩ : BufTy).Contents (Elt F) → (⟨S32768x1x4x4, .f32⟩ : BufTy).Contents (Elt F)) (tm)
def v_main_v121 (tm : (⟨S32768x55x4x4, .f32⟩ : BufTy).Contents (Elt F)) : (⟨S32768x4x4, .f32⟩ : BufTy).Contents (Elt F) :=
  fun i => shapeCast S32768x4x4 (v_main_v120 (F := F) tm) shapeCasts_S32768x1x4x4_S32768x4x4 i
def v_main_v122 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v119 (F := F) tm) (v_main_v121 (F := F) tm)
def v_main_v123 (tm : (⟨S32768x55x4x4, .f32⟩ : BufTy).Contents (Elt F)) : (⟨S32768x1x4x4, .f32⟩ : BufTy).Contents (Elt F) :=
  ((extractStridedSlice S32768x1x4x4 ![0, 34, 0, 0] · slices_S32768x55x4x4_S32768x1x4x4_0_34_0_0) : (⟨S32768x55x4x4, .f32⟩ : BufTy).Contents (Elt F) → (⟨S32768x1x4x4, .f32⟩ : BufTy).Contents (Elt F)) (tm)
def v_main_v124 (tm : (⟨S32768x55x4x4, .f32⟩ : BufTy).Contents (Elt F)) : (⟨S32768x4x4, .f32⟩ : BufTy).Contents (Elt F) :=
  fun i => shapeCast S32768x4x4 (v_main_v123 (F := F) tm) shapeCasts_S32768x1x4x4_S32768x4x4 i
def v_main_v125 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v83 (F := F) tm) (v_main_v124 (F := F) tm)
def v_main_v126 (tm : (⟨S32768x55x4x4, .f32⟩ : BufTy).Contents (Elt F)) : (⟨S32768x1x4x4, .f32⟩ : BufTy).Contents (Elt F) :=
  ((extractStridedSlice S32768x1x4x4 ![0, 35, 0, 0] · slices_S32768x55x4x4_S32768x1x4x4_0_35_0_0) : (⟨S32768x55x4x4, .f32⟩ : BufTy).Contents (Elt F) → (⟨S32768x1x4x4, .f32⟩ : BufTy).Contents (Elt F)) (tm)
def v_main_v127 (tm : (⟨S32768x55x4x4, .f32⟩ : BufTy).Contents (Elt F)) : (⟨S32768x4x4, .f32⟩ : BufTy).Contents (Elt F) :=
  fun i => shapeCast S32768x4x4 (v_main_v126 (F := F) tm) shapeCasts_S32768x1x4x4_S32768x4x4 i
def v_main_v128 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v125 (F := F) tm) (v_main_v127 (F := F) tm)
def v_main_v129 (tm : (⟨S32768x55x4x4, .f32⟩ : BufTy).Contents (Elt F)) : (⟨S32768x1x4x4, .f32⟩ : BufTy).Contents (Elt F) :=
  ((extractStridedSlice S32768x1x4x4 ![0, 36, 0, 0] · slices_S32768x55x4x4_S32768x1x4x4_0_36_0_0) : (⟨S32768x55x4x4, .f32⟩ : BufTy).Contents (Elt F) → (⟨S32768x1x4x4, .f32⟩ : BufTy).Contents (Elt F)) (tm)
def v_main_v130 (tm : (⟨S32768x55x4x4, .f32⟩ : BufTy).Contents (Elt F)) : (⟨S32768x4x4, .f32⟩ : BufTy).Contents (Elt F) :=
  fun i => shapeCast S32768x4x4 (v_main_v129 (F := F) tm) shapeCasts_S32768x1x4x4_S32768x4x4 i
def v_main_v131 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v128 (F := F) tm) (v_main_v130 (F := F) tm)
def v_main_v132 (tm : (⟨S32768x55x4x4, .f32⟩ : BufTy).Contents (Elt F)) : (⟨S32768x1x4x4, .f32⟩ : BufTy).Contents (Elt F) :=
  ((extractStridedSlice S32768x1x4x4 ![0, 37, 0, 0] · slices_S32768x55x4x4_S32768x1x4x4_0_37_0_0) : (⟨S32768x55x4x4, .f32⟩ : BufTy).Contents (Elt F) → (⟨S32768x1x4x4, .f32⟩ : BufTy).Contents (Elt F)) (tm)
def v_main_v133 (tm : (⟨S32768x55x4x4, .f32⟩ : BufTy).Contents (Elt F)) : (⟨S32768x4x4, .f32⟩ : BufTy).Contents (Elt F) :=
  fun i => shapeCast S32768x4x4 (v_main_v132 (F := F) tm) shapeCasts_S32768x1x4x4_S32768x4x4 i
def v_main_v134 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v83 (F := F) tm) (v_main_v133 (F := F) tm)
def v_main_v135 (tm : (⟨S32768x55x4x4, .f32⟩ : BufTy).Contents (Elt F)) : (⟨S32768x1x4x4, .f32⟩ : BufTy).Contents (Elt F) :=
  ((extractStridedSlice S32768x1x4x4 ![0, 38, 0, 0] · slices_S32768x55x4x4_S32768x1x4x4_0_38_0_0) : (⟨S32768x55x4x4, .f32⟩ : BufTy).Contents (Elt F) → (⟨S32768x1x4x4, .f32⟩ : BufTy).Contents (Elt F)) (tm)
def v_main_v136 (tm : (⟨S32768x55x4x4, .f32⟩ : BufTy).Contents (Elt F)) : (⟨S32768x4x4, .f32⟩ : BufTy).Contents (Elt F) :=
  fun i => shapeCast S32768x4x4 (v_main_v135 (F := F) tm) shapeCasts_S32768x1x4x4_S32768x4x4 i
def v_main_v137 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v134 (F := F) tm) (v_main_v136 (F := F) tm)
def v_main_v138 (tm : (⟨S32768x55x4x4, .f32⟩ : BufTy).Contents (Elt F)) : (⟨S32768x1x4x4, .f32⟩ : BufTy).Contents (Elt F) :=
  ((extractStridedSlice S32768x1x4x4 ![0, 39, 0, 0] · slices_S32768x55x4x4_S32768x1x4x4_0_39_0_0) : (⟨S32768x55x4x4, .f32⟩ : BufTy).Contents (Elt F) → (⟨S32768x1x4x4, .f32⟩ : BufTy).Contents (Elt F)) (tm)
def v_main_v139 (tm : (⟨S32768x55x4x4, .f32⟩ : BufTy).Contents (Elt F)) : (⟨S32768x4x4, .f32⟩ : BufTy).Contents (Elt F) :=
  fun i => shapeCast S32768x4x4 (v_main_v138 (F := F) tm) shapeCasts_S32768x1x4x4_S32768x4x4 i
def v_main_v140 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v137 (F := F) tm) (v_main_v139 (F := F) tm)
def v_main_v141 (tm : (⟨S32768x55x4x4, .f32⟩ : BufTy).Contents (Elt F)) : (⟨S32768x1x4x4, .f32⟩ : BufTy).Contents (Elt F) :=
  ((extractStridedSlice S32768x1x4x4 ![0, 40, 0, 0] · slices_S32768x55x4x4_S32768x1x4x4_0_40_0_0) : (⟨S32768x55x4x4, .f32⟩ : BufTy).Contents (Elt F) → (⟨S32768x1x4x4, .f32⟩ : BufTy).Contents (Elt F)) (tm)
def v_main_v142 (tm : (⟨S32768x55x4x4, .f32⟩ : BufTy).Contents (Elt F)) : (⟨S32768x4x4, .f32⟩ : BufTy).Contents (Elt F) :=
  fun i => shapeCast S32768x4x4 (v_main_v141 (F := F) tm) shapeCasts_S32768x1x4x4_S32768x4x4 i
def v_main_v143 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v86 (F := F) tm) (v_main_v142 (F := F) tm)
def v_main_v144 (tm : (⟨S32768x55x4x4, .f32⟩ : BufTy).Contents (Elt F)) : (⟨S32768x1x4x4, .f32⟩ : BufTy).Contents (Elt F) :=
  ((extractStridedSlice S32768x1x4x4 ![0, 41, 0, 0] · slices_S32768x55x4x4_S32768x1x4x4_0_41_0_0) : (⟨S32768x55x4x4, .f32⟩ : BufTy).Contents (Elt F) → (⟨S32768x1x4x4, .f32⟩ : BufTy).Contents (Elt F)) (tm)
def v_main_v145 (tm : (⟨S32768x55x4x4, .f32⟩ : BufTy).Contents (Elt F)) : (⟨S32768x4x4, .f32⟩ : BufTy).Contents (Elt F) :=
  fun i => shapeCast S32768x4x4 (v_main_v144 (F := F) tm) shapeCasts_S32768x1x4x4_S32768x4x4 i
def v_main_v146 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v143 (F := F) tm) (v_main_v145 (F := F) tm)
def v_main_v147 (tm : (⟨S32768x55x4x4, .f32⟩ : BufTy).Contents (Elt F)) : (⟨S32768x1x4x4, .f32⟩ : BufTy).Contents (Elt F) :=
  ((extractStridedSlice S32768x1x4x4 ![0, 42, 0, 0] · slices_S32768x55x4x4_S32768x1x4x4_0_42_0_0) : (⟨S32768x55x4x4, .f32⟩ : BufTy).Contents (Elt F) → (⟨S32768x1x4x4, .f32⟩ : BufTy).Contents (Elt F)) (tm)
def v_main_v148 (tm : (⟨S32768x55x4x4, .f32⟩ : BufTy).Contents (Elt F)) : (⟨S32768x4x4, .f32⟩ : BufTy).Contents (Elt F) :=
  fun i => shapeCast S32768x4x4 (v_main_v147 (F := F) tm) shapeCasts_S32768x1x4x4_S32768x4x4 i
def v_main_v149 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v146 (F := F) tm) (v_main_v148 (F := F) tm)
def v_main_v150 (tm : (⟨S32768x55x4x4, .f32⟩ : BufTy).Contents (Elt F)) : (⟨S32768x1x4x4, .f32⟩ : BufTy).Contents (Elt F) :=
  ((extractStridedSlice S32768x1x4x4 ![0, 43, 0, 0] · slices_S32768x55x4x4_S32768x1x4x4_0_43_0_0) : (⟨S32768x55x4x4, .f32⟩ : BufTy).Contents (Elt F) → (⟨S32768x1x4x4, .f32⟩ : BufTy).Contents (Elt F)) (tm)
def v_main_v151 (tm : (⟨S32768x55x4x4, .f32⟩ : BufTy).Contents (Elt F)) : (⟨S32768x4x4, .f32⟩ : BufTy).Contents (Elt F) :=
  fun i => shapeCast S32768x4x4 (v_main_v150 (F := F) tm) shapeCasts_S32768x1x4x4_S32768x4x4 i
def v_main_v152 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v86 (F := F) tm) (v_main_v151 (F := F) tm)
def v_main_v153 (tm : (⟨S32768x55x4x4, .f32⟩ : BufTy).Contents (Elt F)) : (⟨S32768x1x4x4, .f32⟩ : BufTy).Contents (Elt F) :=
  ((extractStridedSlice S32768x1x4x4 ![0, 44, 0, 0] · slices_S32768x55x4x4_S32768x1x4x4_0_44_0_0) : (⟨S32768x55x4x4, .f32⟩ : BufTy).Contents (Elt F) → (⟨S32768x1x4x4, .f32⟩ : BufTy).Contents (Elt F)) (tm)
def v_main_v154 (tm : (⟨S32768x55x4x4, .f32⟩ : BufTy).Contents (Elt F)) : (⟨S32768x4x4, .f32⟩ : BufTy).Contents (Elt F) :=
  fun i => shapeCast S32768x4x4 (v_main_v153 (F := F) tm) shapeCasts_S32768x1x4x4_S32768x4x4 i
def v_main_v155 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v152 (F := F) tm) (v_main_v154 (F := F) tm)
def v_main_v156 (tm : (⟨S32768x55x4x4, .f32⟩ : BufTy).Contents (Elt F)) : (⟨S32768x1x4x4, .f32⟩ : BufTy).Contents (Elt F) :=
  ((extractStridedSlice S32768x1x4x4 ![0, 45, 0, 0] · slices_S32768x55x4x4_S32768x1x4x4_0_45_0_0) : (⟨S32768x55x4x4, .f32⟩ : BufTy).Contents (Elt F) → (⟨S32768x1x4x4, .f32⟩ : BufTy).Contents (Elt F)) (tm)
def v_main_v157 (tm : (⟨S32768x55x4x4, .f32⟩ : BufTy).Contents (Elt F)) : (⟨S32768x4x4, .f32⟩ : BufTy).Contents (Elt F) :=
  fun i => shapeCast S32768x4x4 (v_main_v156 (F := F) tm) shapeCasts_S32768x1x4x4_S32768x4x4 i
def v_main_v158 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v155 (F := F) tm) (v_main_v157 (F := F) tm)
def v_main_v159 (tm : (⟨S32768x55x4x4, .f32⟩ : BufTy).Contents (Elt F)) : (⟨S32768x1x4x4, .f32⟩ : BufTy).Contents (Elt F) :=
  ((extractStridedSlice S32768x1x4x4 ![0, 46, 0, 0] · slices_S32768x55x4x4_S32768x1x4x4_0_46_0_0) : (⟨S32768x55x4x4, .f32⟩ : BufTy).Contents (Elt F) → (⟨S32768x1x4x4, .f32⟩ : BufTy).Contents (Elt F)) (tm)
def v_main_v160 (tm : (⟨S32768x55x4x4, .f32⟩ : BufTy).Contents (Elt F)) : (⟨S32768x4x4, .f32⟩ : BufTy).Contents (Elt F) :=
  fun i => shapeCast S32768x4x4 (v_main_v159 (F := F) tm) shapeCasts_S32768x1x4x4_S32768x4x4 i
def v_main_v161 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v86 (F := F) tm) (v_main_v160 (F := F) tm)
def v_main_v162 (tm : (⟨S32768x55x4x4, .f32⟩ : BufTy).Contents (Elt F)) : (⟨S32768x1x4x4, .f32⟩ : BufTy).Contents (Elt F) :=
  ((extractStridedSlice S32768x1x4x4 ![0, 47, 0, 0] · slices_S32768x55x4x4_S32768x1x4x4_0_47_0_0) : (⟨S32768x55x4x4, .f32⟩ : BufTy).Contents (Elt F) → (⟨S32768x1x4x4, .f32⟩ : BufTy).Contents (Elt F)) (tm)
def v_main_v163 (tm : (⟨S32768x55x4x4, .f32⟩ : BufTy).Contents (Elt F)) : (⟨S32768x4x4, .f32⟩ : BufTy).Contents (Elt F) :=
  fun i => shapeCast S32768x4x4 (v_main_v162 (F := F) tm) shapeCasts_S32768x1x4x4_S32768x4x4 i
def v_main_v164 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v161 (F := F) tm) (v_main_v163 (F := F) tm)
def v_main_v165 (tm : (⟨S32768x55x4x4, .f32⟩ : BufTy).Contents (Elt F)) : (⟨S32768x1x4x4, .f32⟩ : BufTy).Contents (Elt F) :=
  ((extractStridedSlice S32768x1x4x4 ![0, 48, 0, 0] · slices_S32768x55x4x4_S32768x1x4x4_0_48_0_0) : (⟨S32768x55x4x4, .f32⟩ : BufTy).Contents (Elt F) → (⟨S32768x1x4x4, .f32⟩ : BufTy).Contents (Elt F)) (tm)
def v_main_v166 (tm : (⟨S32768x55x4x4, .f32⟩ : BufTy).Contents (Elt F)) : (⟨S32768x4x4, .f32⟩ : BufTy).Contents (Elt F) :=
  fun i => shapeCast S32768x4x4 (v_main_v165 (F := F) tm) shapeCasts_S32768x1x4x4_S32768x4x4 i
def v_main_v167 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v164 (F := F) tm) (v_main_v166 (F := F) tm)
def v_main_v168 (tm : (⟨S32768x55x4x4, .f32⟩ : BufTy).Contents (Elt F)) : (⟨S32768x1x4x4, .f32⟩ : BufTy).Contents (Elt F) :=
  ((extractStridedSlice S32768x1x4x4 ![0, 49, 0, 0] · slices_S32768x55x4x4_S32768x1x4x4_0_49_0_0) : (⟨S32768x55x4x4, .f32⟩ : BufTy).Contents (Elt F) → (⟨S32768x1x4x4, .f32⟩ : BufTy).Contents (Elt F)) (tm)
def v_main_v169 (tm : (⟨S32768x55x4x4, .f32⟩ : BufTy).Contents (Elt F)) : (⟨S32768x4x4, .f32⟩ : BufTy).Contents (Elt F) :=
  fun i => shapeCast S32768x4x4 (v_main_v168 (F := F) tm) shapeCasts_S32768x1x4x4_S32768x4x4 i
def v_main_v170 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v86 (F := F) tm) (v_main_v169 (F := F) tm)
def v_main_v171 (tm : (⟨S32768x55x4x4, .f32⟩ : BufTy).Contents (Elt F)) : (⟨S32768x1x4x4, .f32⟩ : BufTy).Contents (Elt F) :=
  ((extractStridedSlice S32768x1x4x4 ![0, 50, 0, 0] · slices_S32768x55x4x4_S32768x1x4x4_0_50_0_0) : (⟨S32768x55x4x4, .f32⟩ : BufTy).Contents (Elt F) → (⟨S32768x1x4x4, .f32⟩ : BufTy).Contents (Elt F)) (tm)
def v_main_v172 (tm : (⟨S32768x55x4x4, .f32⟩ : BufTy).Contents (Elt F)) : (⟨S32768x4x4, .f32⟩ : BufTy).Contents (Elt F) :=
  fun i => shapeCast S32768x4x4 (v_main_v171 (F := F) tm) shapeCasts_S32768x1x4x4_S32768x4x4 i
def v_main_v173 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v170 (F := F) tm) (v_main_v172 (F := F) tm)
def v_main_v174 (tm : (⟨S32768x55x4x4, .f32⟩ : BufTy).Contents (Elt F)) : (⟨S32768x1x4x4, .f32⟩ : BufTy).Contents (Elt F) :=
  ((extractStridedSlice S32768x1x4x4 ![0, 51, 0, 0] · slices_S32768x55x4x4_S32768x1x4x4_0_51_0_0) : (⟨S32768x55x4x4, .f32⟩ : BufTy).Contents (Elt F) → (⟨S32768x1x4x4, .f32⟩ : BufTy).Contents (Elt F)) (tm)
def v_main_v175 (tm : (⟨S32768x55x4x4, .f32⟩ : BufTy).Contents (Elt F)) : (⟨S32768x4x4, .f32⟩ : BufTy).Contents (Elt F) :=
  fun i => shapeCast S32768x4x4 (v_main_v174 (F := F) tm) shapeCasts_S32768x1x4x4_S32768x4x4 i
def v_main_v176 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v173 (F := F) tm) (v_main_v175 (F := F) tm)
def v_main_v177 (tm : (⟨S32768x55x4x4, .f32⟩ : BufTy).Contents (Elt F)) : (⟨S32768x1x4x4, .f32⟩ : BufTy).Contents (Elt F) :=
  ((extractStridedSlice S32768x1x4x4 ![0, 52, 0, 0] · slices_S32768x55x4x4_S32768x1x4x4_0_52_0_0) : (⟨S32768x55x4x4, .f32⟩ : BufTy).Contents (Elt F) → (⟨S32768x1x4x4, .f32⟩ : BufTy).Contents (Elt F)) (tm)
def v_main_v178 (tm : (⟨S32768x55x4x4, .f32⟩ : BufTy).Contents (Elt F)) : (⟨S32768x4x4, .f32⟩ : BufTy).Contents (Elt F) :=
  fun i => shapeCast S32768x4x4 (v_main_v177 (F := F) tm) shapeCasts_S32768x1x4x4_S32768x4x4 i
def v_main_v179 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v86 (F := F) tm) (v_main_v178 (F := F) tm)
def v_main_v180 (tm : (⟨S32768x55x4x4, .f32⟩ : BufTy).Contents (Elt F)) : (⟨S32768x1x4x4, .f32⟩ : BufTy).Contents (Elt F) :=
  ((extractStridedSlice S32768x1x4x4 ![0, 53, 0, 0] · slices_S32768x55x4x4_S32768x1x4x4_0_53_0_0) : (⟨S32768x55x4x4, .f32⟩ : BufTy).Contents (Elt F) → (⟨S32768x1x4x4, .f32⟩ : BufTy).Contents (Elt F)) (tm)
def v_main_v181 (tm : (⟨S32768x55x4x4, .f32⟩ : BufTy).Contents (Elt F)) : (⟨S32768x4x4, .f32⟩ : BufTy).Contents (Elt F) :=
  fun i => shapeCast S32768x4x4 (v_main_v180 (F := F) tm) shapeCasts_S32768x1x4x4_S32768x4x4 i
def v_main_v182 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v179 (F := F) tm) (v_main_v181 (F := F) tm)
def v_main_v183 (tm : (⟨S32768x55x4x4, .f32⟩ : BufTy).Contents (Elt F)) : (⟨S32768x1x4x4, .f32⟩ : BufTy).Contents (Elt F) :=
  ((extractStridedSlice S32768x1x4x4 ![0, 54, 0, 0] · slices_S32768x55x4x4_S32768x1x4x4_0_54_0_0) : (⟨S32768x55x4x4, .f32⟩ : BufTy).Contents (Elt F) → (⟨S32768x1x4x4, .f32⟩ : BufTy).Contents (Elt F)) (tm)
def v_main_v184 (tm : (⟨S32768x55x4x4, .f32⟩ : BufTy).Contents (Elt F)) : (⟨S32768x4x4, .f32⟩ : BufTy).Contents (Elt F) :=
  fun i => shapeCast S32768x4x4 (v_main_v183 (F := F) tm) shapeCasts_S32768x1x4x4_S32768x4x4 i
def v_main_v185 (tm : (⟨S32768x55x4x4, .f32⟩ : BufTy).Contents (Elt F)) : (⟨S32768x4x4, .f32⟩ : BufTy).Contents (Elt F) :=
  ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) (v_main_v182 (F := F) tm) (v_main_v184 (F := F) tm)
def v_main_v186 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v23 (F := F) tm)
def v_main_v187 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v26 (F := F) tm)
def v_main_v188 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v29 (F := F) tm)
def v_main_v189 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v32 (F := F) tm)
def v_main_v190 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v35 (F := F) tm)
def v_main_v191 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v38 (F := F) tm)
def v_main_v192 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v41 (F := F) tm)
def v_main_v193 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v44 (F := F) tm)
def v_main_v194 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v47 (F := F) tm)
def v_main_v195 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v50 (F := F) tm)
def v_main_v196 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v53 (F := F) tm)
def v_main_v197 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v56 (F := F) tm)
def v_main_v198 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v59 (F := F) tm)
def v_main_v199 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v62 (F := F) tm)
def v_main_v200 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v65 (F := F) tm)
def v_main_v201 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v68 (F := F) tm)
def v_main_v202 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v71 (F := F) tm)
def v_main_v203 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v74 (F := F) tm)
def v_main_v204 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v77 (F := F) tm)
def v_main_v205 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v80 (F := F) tm)
def v_main_v206 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v83 (F := F) tm)
def v_main_v207 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v86 (F := F) tm)
def v_main_v208 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v89 (F := F) tm)
def v_main_v209 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v92 (F := F) tm)
def v_main_v210 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v95 (F := F) tm)
def v_main_v211 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v98 (F := F) tm)
def v_main_v212 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v101 (F := F) tm)
def v_main_v213 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v104 (F := F) tm)
def v_main_v214 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v107 (F := F) tm)
def v_main_v215 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v110 (F := F) tm)
def v_main_v216 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v113 (F := F) tm)
def v_main_v217 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v116 (F := F) tm)
def v_main_v218 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v119 (F := F) tm)
def v_main_v219 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v122 (F := F) tm)
def v_main_v220 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v125 (F := F) tm)
def v_main_v221 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v128 (F := F) tm)
def v_main_v222 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v131 (F := F) tm)
def v_main_v223 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v134 (F := F) tm)
def v_main_v224 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v137 (F := F) tm)
def v_main_v225 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v140 (F := F) tm)
def v_main_v226 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v143 (F := F) tm)
def v_main_v227 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v146 (F := F) tm)
def v_main_v228 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v149 (F := F) tm)
def v_main_v229 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v152 (F := F) tm)
def v_main_v230 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v155 (F := F) tm)
def v_main_v231 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v158 (F := F) tm)
def v_main_v232 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v161 (F := F) tm)
def v_main_v233 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v164 (F := F) tm)
def v_main_v234 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v167 (F := F) tm)
def v_main_v235 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v170 (F := F) tm)
def v_main_v236 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v173 (F := F) tm)
def v_main_v237 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v176 (F := F) tm)
def v_main_v238 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v179 (F := F) tm)
def v_main_v239 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v182 (F := F) tm)
def v_main_v240 (tm : (⟨S32768x55x4x4, .f32⟩ : BufTy).Contents (Elt F)) : (⟨S32768x1x4x4, .f32⟩ : BufTy).Contents (Elt F) :=
  (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) (v_main_v185 (F := F) tm)
def v_main_v241 (tm : (⟨S32768x55x4x4, .f32⟩ : BufTy).Contents (Elt F)) : (⟨S32768x16x4x4, .f32⟩ : BufTy).Contents (Elt F) :=
  concatenate S32768x16x4x4 1 [⟨S32768x1x4x4, v_main_v186 (F := F) tm⟩, ⟨S32768x1x4x4, v_main_v187 (F := F) tm⟩, ⟨S32768x1x4x4, v_main_v188 (F := F) tm⟩, ⟨S32768x1x4x4, v_main_v189 (F := F) tm⟩, ⟨S32768x1x4x4, v_main_v190 (F := F) tm⟩, ⟨S32768x1x4x4, v_main_v191 (F := F) tm⟩, ⟨S32768x1x4x4, v_main_v192 (F := F) tm⟩, ⟨S32768x1x4x4, v_main_v193 (F := F) tm⟩, ⟨S32768x1x4x4, v_main_v194 (F := F) tm⟩, ⟨S32768x1x4x4, v_main_v195 (F := F) tm⟩, ⟨S32768x1x4x4, v_main_v196 (F := F) tm⟩, ⟨S32768x1x4x4, v_main_v197 (F := F) tm⟩, ⟨S32768x1x4x4, v_main_v198 (F := F) tm⟩, ⟨S32768x1x4x4, v_main_v199 (F := F) tm⟩, ⟨S32768x1x4x4, v_main_v200 (F := F) tm⟩, ⟨S32768x1x4x4, v_main_v201 (F := F) tm⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1
def v_main_v242 (tm : (⟨S32768x55x4x4, .f32⟩ : BufTy).Contents (Elt F)) : (⟨S32768x16x4x4, .f32⟩ : BufTy).Contents (Elt F) :=
  concatenate S32768x16x4x4 1 [⟨S32768x1x4x4, v_main_v202 (F := F) tm⟩, ⟨S32768x1x4x4, v_main_v203 (F := F) tm⟩, ⟨S32768x1x4x4, v_main_v204 (F := F) tm⟩, ⟨S32768x1x4x4, v_main_v205 (F := F) tm⟩, ⟨S32768x1x4x4, v_main_v206 (F := F) tm⟩, ⟨S32768x1x4x4, v_main_v207 (F := F) tm⟩, ⟨S32768x1x4x4, v_main_v208 (F := F) tm⟩, ⟨S32768x1x4x4, v_main_v209 (F := F) tm⟩, ⟨S32768x1x4x4, v_main_v210 (F := F) tm⟩, ⟨S32768x1x4x4, v_main_v211 (F := F) tm⟩, ⟨S32768x1x4x4, v_main_v212 (F := F) tm⟩, ⟨S32768x1x4x4, v_main_v213 (F := F) tm⟩, ⟨S32768x1x4x4, v_main_v214 (F := F) tm⟩, ⟨S32768x1x4x4, v_main_v215 (F := F) tm⟩, ⟨S32768x1x4x4, v_main_v216 (F := F) tm⟩, ⟨S32768x1x4x4, v_main_v217 (F := F) tm⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1
def v_main_v243 (tm : (⟨S32768x55x4x4, .f32⟩ : BufTy).Contents (Elt F)) : (⟨S32768x16x4x4, .f32⟩ : BufTy).Contents (Elt F) :=
  concatenate S32768x16x4x4 1 [⟨S32768x1x4x4, v_main_v218 (F := F) tm⟩, ⟨S32768x1x4x4, v_main_v219 (F := F) tm⟩, ⟨S32768x1x4x4, v_main_v220 (F := F) tm⟩, ⟨S32768x1x4x4, v_main_v221 (F := F) tm⟩, ⟨S32768x1x4x4, v_main_v222 (F := F) tm⟩, ⟨S32768x1x4x4, v_main_v223 (F := F) tm⟩, ⟨S32768x1x4x4, v_main_v224 (F := F) tm⟩, ⟨S32768x1x4x4, v_main_v225 (F := F) tm⟩, ⟨S32768x1x4x4, v_main_v226 (F := F) tm⟩, ⟨S32768x1x4x4, v_main_v227 (F := F) tm⟩, ⟨S32768x1x4x4, v_main_v228 (F := F) tm⟩, ⟨S32768x1x4x4, v_main_v229 (F := F) tm⟩, ⟨S32768x1x4x4, v_main_v230 (F := F) tm⟩, ⟨S32768x1x4x4, v_main_v231 (F := F) tm⟩, ⟨S32768x1x4x4, v_main_v232 (F := F) tm⟩, ⟨S32768x1x4x4, v_main_v233 (F := F) tm⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1
def v_main_v244 (tm : (⟨S32768x55x4x4, .f32⟩ : BufTy).Contents (Elt F)) : (⟨S32768x7x4x4, .f32⟩ : BufTy).Contents (Elt F) :=
  concatenate S32768x7x4x4 1 [⟨S32768x1x4x4, v_main_v234 (F := F) tm⟩, ⟨S32768x1x4x4, v_main_v235 (F := F) tm⟩, ⟨S32768x1x4x4, v_main_v236 (F := F) tm⟩, ⟨S32768x1x4x4, v_main_v237 (F := F) tm⟩, ⟨S32768x1x4x4, v_main_v238 (F := F) tm⟩, ⟨S32768x1x4x4, v_main_v239 (F := F) tm⟩, ⟨S32768x1x4x4, v_main_v240 (F := F) tm⟩] concatenates_S32768x1x4x4_S32768x1x4x4_S32768x1x4x4_S32768x1x4x4_S32768x1x4x4_S32768x1x4x4_S32768x1x4x4_S32768x7x4x4_d1
def v_main_v245 (tm : (⟨S32768x55x4x4, .f32⟩ : BufTy).Contents (Elt F)) : (⟨S32768x55x4x4, .f32⟩ : BufTy).Contents (Elt F) :=
  concatenate S32768x55x4x4 1 [⟨S32768x16x4x4, v_main_v241 (F := F) tm⟩, ⟨S32768x16x4x4, v_main_v242 (F := F) tm⟩, ⟨S32768x16x4x4, v_main_v243 (F := F) tm⟩, ⟨S32768x7x4x4, v_main_v244 (F := F) tm⟩] concatenates_S32768x16x4x4_S32768x16x4x4_S32768x16x4x4_S32768x7x4x4_S32768x55x4x4_d1
def v_main_v246 (tm : (⟨S32768x55x4x4, .f32⟩ : BufTy).Contents (Elt F)) : (⟨S32768x55x3x1, .f32⟩ : BufTy).Contents (Elt F) :=
  ((extractStridedSlice S32768x55x3x1 ![0, 0, 0, 3] · slices_S32768x55x4x4_S32768x55x3x1_0_0_0_3) : (⟨S32768x55x4x4, .f32⟩ : BufTy).Contents (Elt F) → (⟨S32768x55x3x1, .f32⟩ : BufTy).Contents (Elt F)) (v_main_v245 (F := F) tm)
def v_main_v247 (tm : (⟨S32768x55x4x4, .f32⟩ : BufTy).Contents (Elt F)) : (⟨S32768x55x3, .f32⟩ : BufTy).Contents (Elt F) :=
  fun i => shapeCast S32768x55x3 (v_main_v246 (F := F) tm) shapeCasts_S32768x55x3x1_S32768x55x3 i
def v_main_v248 (tm : (⟨S32768x55x4x4, .f32⟩ : BufTy).Contents (Elt F)) : (⟨S16x2048x55x3, .f32⟩ : BufTy).Contents (Elt F) :=
  fun i => shapeCast S16x2048x55x3 (v_main_v247 (F := F) tm) shapeCasts_S32768x55x3_S16x2048x55x3 i

/-- Joint `j`'s global transform of every sample (joint 0: its local one). -/
def ch (j : Fin 55) (tm : (⟨S32768x55x4x4, .f32⟩ : BufTy).Contents (Elt F)) : (⟨S32768x4x4, .f32⟩ : BufTy).Contents (Elt F) :=
  match j with
  | ⟨0, _⟩ => v_main_v23 tm
  | ⟨1, _⟩ => v_main_v26 tm
  | ⟨2, _⟩ => v_main_v29 tm
  | ⟨3, _⟩ => v_main_v32 tm
  | ⟨4, _⟩ => v_main_v35 tm
  | ⟨5, _⟩ => v_main_v38 tm
  | ⟨6, _⟩ => v_main_v41 tm
  | ⟨7, _⟩ => v_main_v44 tm
  | ⟨8, _⟩ => v_main_v47 tm
  | ⟨9, _⟩ => v_main_v50 tm
  | ⟨10, _⟩ => v_main_v53 tm
  | ⟨11, _⟩ => v_main_v56 tm
  | ⟨12, _⟩ => v_main_v59 tm
  | ⟨13, _⟩ => v_main_v62 tm
  | ⟨14, _⟩ => v_main_v65 tm
  | ⟨15, _⟩ => v_main_v68 tm
  | ⟨16, _⟩ => v_main_v71 tm
  | ⟨17, _⟩ => v_main_v74 tm
  | ⟨18, _⟩ => v_main_v77 tm
  | ⟨19, _⟩ => v_main_v80 tm
  | ⟨20, _⟩ => v_main_v83 tm
  | ⟨21, _⟩ => v_main_v86 tm
  | ⟨22, _⟩ => v_main_v89 tm
  | ⟨23, _⟩ => v_main_v92 tm
  | ⟨24, _⟩ => v_main_v95 tm
  | ⟨25, _⟩ => v_main_v98 tm
  | ⟨26, _⟩ => v_main_v101 tm
  | ⟨27, _⟩ => v_main_v104 tm
  | ⟨28, _⟩ => v_main_v107 tm
  | ⟨29, _⟩ => v_main_v110 tm
  | ⟨30, _⟩ => v_main_v113 tm
  | ⟨31, _⟩ => v_main_v116 tm
  | ⟨32, _⟩ => v_main_v119 tm
  | ⟨33, _⟩ => v_main_v122 tm
  | ⟨34, _⟩ => v_main_v125 tm
  | ⟨35, _⟩ => v_main_v128 tm
  | ⟨36, _⟩ => v_main_v131 tm
  | ⟨37, _⟩ => v_main_v134 tm
  | ⟨38, _⟩ => v_main_v137 tm
  | ⟨39, _⟩ => v_main_v140 tm
  | ⟨40, _⟩ => v_main_v143 tm
  | ⟨41, _⟩ => v_main_v146 tm
  | ⟨42, _⟩ => v_main_v149 tm
  | ⟨43, _⟩ => v_main_v152 tm
  | ⟨44, _⟩ => v_main_v155 tm
  | ⟨45, _⟩ => v_main_v158 tm
  | ⟨46, _⟩ => v_main_v161 tm
  | ⟨47, _⟩ => v_main_v164 tm
  | ⟨48, _⟩ => v_main_v167 tm
  | ⟨49, _⟩ => v_main_v170 tm
  | ⟨50, _⟩ => v_main_v173 tm
  | ⟨51, _⟩ => v_main_v176 tm
  | ⟨52, _⟩ => v_main_v179 tm
  | ⟨53, _⟩ => v_main_v182 tm
  | ⟨54, _⟩ => v_main_v185 tm
  | ⟨_ + 55, h⟩ => absurd h (Nat.not_lt.2 (Nat.le_add_left _ _))

/-- The result: the posed joints, from the local transforms. -/
def outOf (tm : (⟨S32768x55x4x4, .f32⟩ : BufTy).Contents (Elt F)) : (⟨S16x2048x55x3, .f32⟩ : BufTy).Contents (Elt F) := v_main_v248 tm

end Cert.ReferenceIdeal.Term

end
-- ==== Proof.RefRunLib.lean ====
/-
  What the rows of the reference program's run share.

  The program is a straight line of operations, each writing one buffer of its own from buffers written before it.
  Its run is read block by block: after a block, a buffer the block does not write holds what it held, and a buffer
  it writes holds its operation's function of the contents, before the block, of the buffers read — which, the
  buffers read being themselves at their stages, is the buffer's stage.
-/
import proofs.«163241_j18760417149409_2_alg».proof.Proof.Gen.ReferenceIdeal
import proofs.«163241_j18760417149409_2_alg».proof.Proof.RefTerm
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The array of every sample's local transforms, from the two arguments' contents. -/
def tmOf (V0 : Valuation τ sig (Elt F)) : (⟨S32768x55x4x4, .f32⟩ : BufTy).Contents (Elt F) :=
  Term.v_main_v21 (F := F) (V0 (Proc.devRef .tc main_arg0)) (V0 (Proc.devRef .tc main_arg1))

/-- One operation writes only its own result buffer, which is in the list of the block's result buffers. -/
macro "writes_row" : tactic =>
  `(tactic| (simp only [nullary_writes, unary_writes, binary_writes, ternary_writes, quaternary_writes, reshape_writes, nary_writes,
      Finset.singleton_subset_iff, List.mem_toFinset]; exact List.mem_map_of_mem (by decide)))

/-- What one pass of simplification leaves — an operation's result read under the list of a concatenation's parts —,
    rewritten one operation and one buffer at a time: at the buffer the operation writes, its function of the contents
    before it; at any other buffer, the contents before it. -/
macro "results_rw" : tactic =>
  `(tactic| repeat (first
      | rw [nullary_result] | rw [unary_result] | rw [binary_result] | rw [ternary_result] | rw [reshape_result]
      | (rw [nary_result]; try dsimp only [Matrix.cons_val])
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-- A buffer of the first block: the fold of the block's operations, read at the buffer, is the composition of the
    operations' functions along the buffers read, down to the arguments — the buffer's stage, unfolded. -/
macro "block_value₀" : tactic =>
  `(tactic| (after_results_simp
             try dsimp only [Matrix.cons_val]
             results_rw
             exact rfl))

/-- A buffer of a later block: the same, down to buffers of earlier blocks, which are at their stages. -/
macro "block_value" "[" ls:Lean.Parser.Tactic.rwRule,* "]" : tactic =>
  `(tactic| (after_results_simp
             try dsimp only [Matrix.cons_val]
             results_rw
             rw [$ls,*]
             exact rfl))

end Cert.ReferenceIdeal.HandRun

end
-- ==== Proof.RefRunTab1.lean ====
/-
  Block 1 of the reference program's operations (operations 1 … 28 of 255, in the program's order), one row per
  operation; and the contents, after the block, of every buffer that a later block reads — the buffer's stage (its
  operation's function applied to the stages of the buffers it reads) at the arguments' contents —, one row per buffer.
-/
import proofs.«163241_j18760417149409_2_alg».proof.Proof.RefRunLib

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 28 of 255. -/
abbrev blk1 : List (HloOp τ sig (Elt F)) :=
  [ nullary main_c (fun i => lit0 (S54.rowMajor i)),
    nullary main_c_0 (constantI S54 1 0#1),
    nullary main_cst (fun i => FloatOps.ofBits .f32 (lit1 (S4.rowMajor i))),
    reshape main_arg0 main_v0 rfl shapeCasts_S16x2048x22x3x3_S32768x22x3x3,
    nullary main_v1 (iotaInDim S3x3 32 0),
    nullary main_v2 (iotaInDim S3x3 32 1),
    nullary main_c_1 (constantI S_ 32 0#32),
    unary main_c_1 main_v3 (broadcastInDim S3x3 ![] bcast_S_S3x3 : (⟨S_, .i32⟩ : BufTy).Contents (Elt F) → (⟨S3x3, .i32⟩ : BufTy).Contents (Elt F)),
    binary main_v1 main_v3 main_v4 (addi : (⟨S3x3, .i32⟩ : BufTy).Contents (Elt F) → (⟨S3x3, .i32⟩ : BufTy).Contents (Elt F) → (⟨S3x3, .i32⟩ : BufTy).Contents (Elt F)),
    binary main_v4 main_v2 main_v5 (cmpi .eq : (⟨S3x3, .i32⟩ : BufTy).Contents (Elt F) → (⟨S3x3, .i32⟩ : BufTy).Contents (Elt F) → (⟨S3x3, .i1⟩ : BufTy).Contents (Elt F)),
    unary main_v5 main_v6 (uitofp .f32 : (⟨S3x3, .i1⟩ : BufTy).Contents (Elt F) → (⟨S3x3, .f32⟩ : BufTy).Contents (Elt F)),
    unary main_v6 main_v7 (broadcastInDim S32768x33x3x3 ![2, 3] bcast_S3x3_S32768x33x3x3_2_3 : (⟨S3x3, .f32⟩ : BufTy).Contents (Elt F) → (⟨S32768x33x3x3, .f32⟩ : BufTy).Contents (Elt F)),
    binary main_v0 main_v7 main_v8 ((fun a b => concatenate S32768x55x3x3 1 [⟨S32768x22x3x3, a⟩, ⟨S32768x33x3x3, b⟩] concatenates_S32768x22x3x3_S32768x33x3x3_S32768x55x3x3_d1) : (⟨S32768x22x3x3, .f32⟩ : BufTy).Contents (Elt F) → (⟨S32768x33x3x3, .f32⟩ : BufTy).Contents (Elt F) → (⟨S32768x55x3x3, .f32⟩ : BufTy).Contents (Elt F)),
    unary main_arg1 main_v9 (broadcastInDim S32768x55x3 ![1, 2] bcast_S55x3_S32768x55x3_1_2 : (⟨S55x3, .f32⟩ : BufTy).Contents (Elt F) → (⟨S32768x55x3, .f32⟩ : BufTy).Contents (Elt F)),
    nullary main_c_2 (constantI S_ 32 55#32),
    unary main_c_2 main_v10 (broadcastInDim S54 ![] bcast_S_S54 : (⟨S_, .i32⟩ : BufTy).Contents (Elt F) → (⟨S54, .i32⟩ : BufTy).Contents (Elt F)),
    binary main_c main_v10 main_v11 (addi : (⟨S54, .i32⟩ : BufTy).Contents (Elt F) → (⟨S54, .i32⟩ : BufTy).Contents (Elt F) → (⟨S54, .i32⟩ : BufTy).Contents (Elt F)),
    ternary main_c_0 main_v11 main_c main_v12 (select : (⟨S54, .i1⟩ : BufTy).Contents (Elt F) → (⟨S54, .i32⟩ : BufTy).Contents (Elt F) → (⟨S54, .i32⟩ : BufTy).Contents (Elt F) → (⟨S54, .i32⟩ : BufTy).Contents (Elt F)),
    unary main_v12 main_v13 (broadcastInDim S54x1 ![0] bcast_S54_S54x1_0 : (⟨S54, .i32⟩ : BufTy).Contents (Elt F) → (⟨S54x1, .i32⟩ : BufTy).Contents (Elt F)),
    binary main_v9 main_v13 main_v14 ((fun x i => Host.gather gather_S32768x55x3_S54x1_S32768x54x3_02_1_n_n_1_1_3276813 x i) : (⟨S32768x55x3, .f32⟩ : BufTy).Contents (Elt F) → (⟨S54x1, .i32⟩ : BufTy).Contents (Elt F) → (⟨S32768x54x3, .f32⟩ : BufTy).Contents (Elt F)),
    unary main_v14 main_v15 (Host.negf : (⟨S32768x54x3, .f32⟩ : BufTy).Contents (Elt F) → (⟨S32768x54x3, .f32⟩ : BufTy).Contents (Elt F)),
    nullary main_c_3 (constantI S_ 32 1#32),
    unary main_c_3 main_v16 (broadcastInDim S1 ![] bcast_S_S1 : (⟨S_, .i32⟩ : BufTy).Contents (Elt F) → (⟨S1, .i32⟩ : BufTy).Contents (Elt F)),
    ternary main_v9 main_v16 main_v15 main_v17 ((fun x i u => Host.scatter scatter_S32768x55x3_S1_S32768x54x3_012_n_1_0 FloatOps.addf x i u) : (⟨S32768x55x3, .f32⟩ : BufTy).Contents (Elt F) → (⟨S1, .i32⟩ : BufTy).Contents (Elt F) → (⟨S32768x54x3, .f32⟩ : BufTy).Contents (Elt F) → (⟨S32768x55x3, .f32⟩ : BufTy).Contents (Elt F)),
    unary main_v17 main_v18 (broadcastInDim S32768x55x3x1 ![0, 1, 2] bcast_S32768x55x3_S32768x55x3x1_0_1_2 : (⟨S32768x55x3, .f32⟩ : BufTy).Contents (Elt F) → (⟨S32768x55x3x1, .f32⟩ : BufTy).Contents (Elt F)),
    binary main_v8 main_v18 main_v19 ((fun a b => concatenate S32768x55x3x4 3 [⟨S32768x55x3x3, a⟩, ⟨S32768x55x3x1, b⟩] concatenates_S32768x55x3x3_S32768x55x3x1_S32768x55x3x4_d3) : (⟨S32768x55x3x3, .f32⟩ : BufTy).Contents (Elt F) → (⟨S32768x55x3x1, .f32⟩ : BufTy).Contents (Elt F) → (⟨S32768x55x3x4, .f32⟩ : BufTy).Contents (Elt F)),
    unary main_cst main_v20 (broadcastInDim S32768x55x1x4 ![3] bcast_S4_S32768x55x1x4_3 : (⟨S4, .f32⟩ : BufTy).Contents (Elt F) → (⟨S32768x55x1x4, .f32⟩ : BufTy).Contents (Elt F)),
    binary main_v19 main_v20 main_v21 ((fun a b => concatenate S32768x55x4x4 2 [⟨S32768x55x3x4, a⟩, ⟨S32768x55x1x4, b⟩] concatenates_S32768x55x3x4_S32768x55x1x4_S32768x55x4x4_d2) : (⟨S32768x55x3x4, .f32⟩ : BufTy).Contents (Elt F) → (⟨S32768x55x1x4, .f32⟩ : BufTy).Contents (Elt F) → (⟨S32768x55x4x4, .f32⟩ : BufTy).Contents (Elt F)) ]

set_option maxRecDepth 8192 in
theorem blk1_sub : (blk1 : List (HloOp τ sig (Elt F))).Forall fun op => op.bufs ⊆ tcRefs τ sig :=
  ⟨nullary_bufs_sub .., nullary_bufs_sub .., nullary_bufs_sub .., reshape_bufs_sub .., nullary_bufs_sub .., nullary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., ternary_bufs_sub .., unary_bufs_sub .., binary_bufs_sub .., unary_bufs_sub .., nullary_bufs_sub .., unary_bufs_sub .., ternary_bufs_sub .., unary_bufs_sub .., binary_bufs_sub .., unary_bufs_sub .., binary_bufs_sub ..⟩

/-- The buffers block 1 writes. -/
abbrev blk1_W : List (Ref sig .tc) := [main_c, main_c_0, main_cst, main_v0, main_v1, main_v2, main_c_1, main_v3, main_v4, main_v5, main_v6, main_v7, main_v8, main_v9, main_c_2, main_v10, main_v11, main_v12, main_v13, main_v14, main_v15, main_c_3, main_v16, main_v17, main_v18, main_v19, main_v20, main_v21]
set_option maxRecDepth 8192 in
theorem blk1_writes : (blk1 : List (HloOp τ sig (Elt F))).Forall fun op => op.writes ⊆ (blk1_W.map (Proc.devRef (τ := τ) .tc)).toFinset := by
  simp only [List.Forall]; exact ⟨by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row⟩

/-- The buffers' contents after the first 1 blocks. -/
def val1 (V0 : Valuation τ sig (Elt F)) : Valuation τ sig (Elt F) := after blk1 V0
theorem val1_keep (V0 : Valuation τ sig (Elt F)) (r : Ref sig .tc) (h : r ∉ blk1_W) :
    val1 V0 (Proc.devRef .tc r) = V0 (Proc.devRef .tc r) :=
  after_of_writes_sub blk1 _ blk1_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
set_option maxRecDepth 8192 in
set_option maxHeartbeats 4000000 in
theorem val1_main_v21 (V0 : Valuation τ sig (Elt F)) : val1 V0 (no_index (Proc.devRef .tc main_v21)) = tmOf V0 := by
  unfold val1
  simp only [blk1]
  block_value₀

end Cert.ReferenceIdeal.HandRun

end
-- ==== Proof.RefRunTab2.lean ====
/-
  Block 2 of the reference program's operations (operations 29 … 60 of 255, in the program's order), one row per
  operation; and the contents, after the block, of every buffer that a later block reads — the buffer's stage (its
  operation's function applied to the stages of the buffers it reads) at the arguments' contents —, one row per buffer.
-/
import proofs.«163241_j18760417149409_2_alg».proof.Proof.RefRunTab1

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 29 … 60 of 255. -/
abbrev blk2 : List (HloOp τ sig (Elt F)) :=
  [ unary main_v21 main_v22 ((extractStridedSlice S32768x1x4x4 ![0, 0, 0, 0] · slices_S32768x55x4x4_S32768x1x4x4_0_0_0_0) : (⟨S32768x55x4x4, .f32⟩ : BufTy).Contents (Elt F) → (⟨S32768x1x4x4, .f32⟩ : BufTy).Contents (Elt F)),
    reshape main_v22 main_v23 rfl shapeCasts_S32768x1x4x4_S32768x4x4,
    unary main_v21 main_v24 ((extractStridedSlice S32768x1x4x4 ![0, 1, 0, 0] · slices_S32768x55x4x4_S32768x1x4x4_0_1_0_0) : (⟨S32768x55x4x4, .f32⟩ : BufTy).Contents (Elt F) → (⟨S32768x1x4x4, .f32⟩ : BufTy).Contents (Elt F)),
    reshape main_v24 main_v25 rfl shapeCasts_S32768x1x4x4_S32768x4x4,
    binary main_v23 main_v25 main_v26 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v27 ((extractStridedSlice S32768x1x4x4 ![0, 2, 0, 0] · slices_S32768x55x4x4_S32768x1x4x4_0_2_0_0) : (⟨S32768x55x4x4, .f32⟩ : BufTy).Contents (Elt F) → (⟨S32768x1x4x4, .f32⟩ : BufTy).Contents (Elt F)),
    reshape main_v27 main_v28 rfl shapeCasts_S32768x1x4x4_S32768x4x4,
    binary main_v23 main_v28 main_v29 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v30 ((extractStridedSlice S32768x1x4x4 ![0, 3, 0, 0] · slices_S32768x55x4x4_S32768x1x4x4_0_3_0_0) : (⟨S32768x55x4x4, .f32⟩ : BufTy).Contents (Elt F) → (⟨S32768x1x4x4, .f32⟩ : BufTy).Contents (Elt F)),
    reshape main_v30 main_v31 rfl shapeCasts_S32768x1x4x4_S32768x4x4,
    binary main_v23 main_v31 main_v32 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v33 ((extractStridedSlice S32768x1x4x4 ![0, 4, 0, 0] · slices_S32768x55x4x4_S32768x1x4x4_0_4_0_0) : (⟨S32768x55x4x4, .f32⟩ : BufTy).Contents (Elt F) → (⟨S32768x1x4x4, .f32⟩ : BufTy).Contents (Elt F)),
    reshape main_v33 main_v34 rfl shapeCasts_S32768x1x4x4_S32768x4x4,
    binary main_v26 main_v34 main_v35 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v36 ((extractStridedSlice S32768x1x4x4 ![0, 5, 0, 0] · slices_S32768x55x4x4_S32768x1x4x4_0_5_0_0) : (⟨S32768x55x4x4, .f32⟩ : BufTy).Contents (Elt F) → (⟨S32768x1x4x4, .f32⟩ : BufTy).Contents (Elt F)),
    reshape main_v36 main_v37 rfl shapeCasts_S32768x1x4x4_S32768x4x4,
    binary main_v29 main_v37 main_v38 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v39 ((extractStridedSlice S32768x1x4x4 ![0, 6, 0, 0] · slices_S32768x55x4x4_S32768x1x4x4_0_6_0_0) : (⟨S32768x55x4x4, .f32⟩ : BufTy).Contents (Elt F) → (⟨S32768x1x4x4, .f32⟩ : BufTy).Contents (Elt F)),
    reshape main_v39 main_v40 rfl shapeCasts_S32768x1x4x4_S32768x4x4,
    binary main_v32 main_v40 main_v41 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v42 ((extractStridedSlice S32768x1x4x4 ![0, 7, 0, 0] · slices_S32768x55x4x4_S32768x1x4x4_0_7_0_0) : (⟨S32768x55x4x4, .f32⟩ : BufTy).Contents (Elt F) → (⟨S32768x1x4x4, .f32⟩ : BufTy).Contents (Elt F)),
    reshape main_v42 main_v43 rfl shapeCasts_S32768x1x4x4_S32768x4x4,
    binary main_v35 main_v43 main_v44 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v45 ((extractStridedSlice S32768x1x4x4 ![0, 8, 0, 0] · slices_S32768x55x4x4_S32768x1x4x4_0_8_0_0) : (⟨S32768x55x4x4, .f32⟩ : BufTy).Contents (Elt F) → (⟨S32768x1x4x4, .f32⟩ : BufTy).Contents (Elt F)),
    reshape main_v45 main_v46 rfl shapeCasts_S32768x1x4x4_S32768x4x4,
    binary main_v38 main_v46 main_v47 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v48 ((extractStridedSlice S32768x1x4x4 ![0, 9, 0, 0] · slices_S32768x55x4x4_S32768x1x4x4_0_9_0_0) : (⟨S32768x55x4x4, .f32⟩ : BufTy).Contents (Elt F) → (⟨S32768x1x4x4, .f32⟩ : BufTy).Contents (Elt F)),
    reshape main_v48 main_v49 rfl shapeCasts_S32768x1x4x4_S32768x4x4,
    binary main_v41 main_v49 main_v50 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v51 ((extractStridedSlice S32768x1x4x4 ![0, 10, 0, 0] · slices_S32768x55x4x4_S32768x1x4x4_0_10_0_0) : (⟨S32768x55x4x4, .f32⟩ : BufTy).Contents (Elt F) → (⟨S32768x1x4x4, .f32⟩ : BufTy).Contents (Elt F)),
    reshape main_v51 main_v52 rfl shapeCasts_S32768x1x4x4_S32768x4x4,
    binary main_v44 main_v52 main_v53 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) ]

set_option maxRecDepth 8192 in
theorem blk2_sub : (blk2 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩

/-- The buffers block 2 writes. -/
abbrev blk2_W : List (Ref sig .tc) := [main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53]
set_option maxRecDepth 8192 in
theorem blk2_writes : (blk2 : List (HloOp τ sig (Elt F))).Forall fun op => op.writes ⊆ (blk2_W.map (Proc.devRef (τ := τ) .tc)).toFinset := by
  simp only [List.Forall]; exact ⟨by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row⟩

/-- The buffers' contents after the first 2 blocks. -/
def val2 (V0 : Valuation τ sig (Elt F)) : Valuation τ sig (Elt F) := after blk2 (val1 V0)
theorem val2_keep (V0 : Valuation τ sig (Elt F)) (r : Ref sig .tc) (h : r ∉ blk2_W) :
    val2 V0 (Proc.devRef .tc r) = val1 V0 (Proc.devRef .tc r) :=
  after_of_writes_sub blk2 _ blk2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_v21 (V0 : Valuation τ sig (Elt F)) : val2 V0 (no_index (Proc.devRef .tc main_v21)) = tmOf V0 :=
  (val2_keep V0 main_v21 (by decide)).trans (val1_main_v21 V0)
set_option maxRecDepth 8192 in
set_option maxHeartbeats 4000000 in
theorem val2_main_v23 (V0 : Valuation τ sig (Elt F)) : val2 V0 (no_index (Proc.devRef .tc main_v23)) = Term.v_main_v23 (F := F) (tmOf V0) := by
  unfold val2
  simp only [blk2]
  block_value [val1_main_v21]
set_option maxRecDepth 8192 in
set_option maxHeartbeats 4000000 in
theorem val2_main_v26 (V0 : Valuation τ sig (Elt F)) : val2 V0 (no_index (Proc.devRef .tc main_v26)) = Term.v_main_v26 (F := F) (tmOf V0) := by
  unfold val2
  simp only [blk2]
  block_value [val1_main_v21]
set_option maxRecDepth 8192 in
set_option maxHeartbeats 4000000 in
theorem val2_main_v29 (V0 : Valuation τ sig (Elt F)) : val2 V0 (no_index (Proc.devRef .tc main_v29)) = Term.v_main_v29 (F := F) (tmOf V0) := by
  unfold val2
  simp only [blk2]
  block_value [val1_main_v21]
set_option maxRecDepth 8192 in
set_option maxHeartbeats 4000000 in
theorem val2_main_v32 (V0 : Valuation τ sig (Elt F)) : val2 V0 (no_index (Proc.devRef .tc main_v32)) = Term.v_main_v32 (F := F) (tmOf V0) := by
  unfold val2
  simp only [blk2]
  block_value [val1_main_v21]
set_option maxRecDepth 8192 in
set_option maxHeartbeats 4000000 in
theorem val2_main_v35 (V0 : Valuation τ sig (Elt F)) : val2 V0 (no_index (Proc.devRef .tc main_v35)) = Term.v_main_v35 (F := F) (tmOf V0) := by
  unfold val2
  simp only [blk2]
  block_value [val1_main_v21]
set_option maxRecDepth 8192 in
set_option maxHeartbeats 4000000 in
theorem val2_main_v38 (V0 : Valuation τ sig (Elt F)) : val2 V0 (no_index (Proc.devRef .tc main_v38)) = Term.v_main_v38 (F := F) (tmOf V0) := by
  unfold val2
  simp only [blk2]
  block_value [val1_main_v21]
set_option maxRecDepth 8192 in
set_option maxHeartbeats 4000000 in
theorem val2_main_v41 (V0 : Valuation τ sig (Elt F)) : val2 V0 (no_index (Proc.devRef .tc main_v41)) = Term.v_main_v41 (F := F) (tmOf V0) := by
  unfold val2
  simp only [blk2]
  block_value [val1_main_v21]
set_option maxRecDepth 8192 in
set_option maxHeartbeats 4000000 in
theorem val2_main_v44 (V0 : Valuation τ sig (Elt F)) : val2 V0 (no_index (Proc.devRef .tc main_v44)) = Term.v_main_v44 (F := F) (tmOf V0) := by
  unfold val2
  simp only [blk2]
  block_value [val1_main_v21]
set_option maxRecDepth 8192 in
set_option maxHeartbeats 4000000 in
theorem val2_main_v47 (V0 : Valuation τ sig (Elt F)) : val2 V0 (no_index (Proc.devRef .tc main_v47)) = Term.v_main_v47 (F := F) (tmOf V0) := by
  unfold val2
  simp only [blk2]
  block_value [val1_main_v21]
set_option maxRecDepth 8192 in
set_option maxHeartbeats 4000000 in
theorem val2_main_v50 (V0 : Valuation τ sig (Elt F)) : val2 V0 (no_index (Proc.devRef .tc main_v50)) = Term.v_main_v50 (F := F) (tmOf V0) := by
  unfold val2
  simp only [blk2]
  block_value [val1_main_v21]
set_option maxRecDepth 8192 in
set_option maxHeartbeats 4000000 in
theorem val2_main_v53 (V0 : Valuation τ sig (Elt F)) : val2 V0 (no_index (Proc.devRef .tc main_v53)) = Term.v_main_v53 (F := F) (tmOf V0) := by
  unfold val2
  simp only [blk2]
  block_value [val1_main_v21]

end Cert.ReferenceIdeal.HandRun

end
-- ==== Proof.RefRunTab3.lean ====
/-
  Block 3 of the reference program's operations (operations 61 … 120 of 255, in the program's order), one row per
  operation; and the contents, after the block, of every buffer that a later block reads — the buffer's stage (its
  operation's function applied to the stages of the buffers it reads) at the arguments' contents —, one row per buffer.
-/
import proofs.«163241_j18760417149409_2_alg».proof.Proof.RefRunTab2

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 61 … 120 of 255. -/
abbrev blk3 : List (HloOp τ sig (Elt F)) :=
  [ unary main_v21 main_v54 ((extractStridedSlice S32768x1x4x4 ![0, 11, 0, 0] · slices_S32768x55x4x4_S32768x1x4x4_0_11_0_0) : (⟨S32768x55x4x4, .f32⟩ : BufTy).Contents (Elt F) → (⟨S32768x1x4x4, .f32⟩ : BufTy).Contents (Elt F)),
    reshape main_v54 main_v55 rfl shapeCasts_S32768x1x4x4_S32768x4x4,
    binary main_v47 main_v55 main_v56 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v57 ((extractStridedSlice S32768x1x4x4 ![0, 12, 0, 0] · slices_S32768x55x4x4_S32768x1x4x4_0_12_0_0) : (⟨S32768x55x4x4, .f32⟩ : BufTy).Contents (Elt F) → (⟨S32768x1x4x4, .f32⟩ : BufTy).Contents (Elt F)),
    reshape main_v57 main_v58 rfl shapeCasts_S32768x1x4x4_S32768x4x4,
    binary main_v50 main_v58 main_v59 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v60 ((extractStridedSlice S32768x1x4x4 ![0, 13, 0, 0] · slices_S32768x55x4x4_S32768x1x4x4_0_13_0_0) : (⟨S32768x55x4x4, .f32⟩ : BufTy).Contents (Elt F) → (⟨S32768x1x4x4, .f32⟩ : BufTy).Contents (Elt F)),
    reshape main_v60 main_v61 rfl shapeCasts_S32768x1x4x4_S32768x4x4,
    binary main_v50 main_v61 main_v62 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v63 ((extractStridedSlice S32768x1x4x4 ![0, 14, 0, 0] · slices_S32768x55x4x4_S32768x1x4x4_0_14_0_0) : (⟨S32768x55x4x4, .f32⟩ : BufTy).Contents (Elt F) → (⟨S32768x1x4x4, .f32⟩ : BufTy).Contents (Elt F)),
    reshape main_v63 main_v64 rfl shapeCasts_S32768x1x4x4_S32768x4x4,
    binary main_v50 main_v64 main_v65 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v66 ((extractStridedSlice S32768x1x4x4 ![0, 15, 0, 0] · slices_S32768x55x4x4_S32768x1x4x4_0_15_0_0) : (⟨S32768x55x4x4, .f32⟩ : BufTy).Contents (Elt F) → (⟨S32768x1x4x4, .f32⟩ : BufTy).Contents (Elt F)),
    reshape main_v66 main_v67 rfl shapeCasts_S32768x1x4x4_S32768x4x4,
    binary main_v59 main_v67 main_v68 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v69 ((extractStridedSlice S32768x1x4x4 ![0, 16, 0, 0] · slices_S32768x55x4x4_S32768x1x4x4_0_16_0_0) : (⟨S32768x55x4x4, .f32⟩ : BufTy).Contents (Elt F) → (⟨S32768x1x4x4, .f32⟩ : BufTy).Contents (Elt F)),
    reshape main_v69 main_v70 rfl shapeCasts_S32768x1x4x4_S32768x4x4,
    binary main_v62 main_v70 main_v71 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v72 ((extractStridedSlice S32768x1x4x4 ![0, 17, 0, 0] · slices_S32768x55x4x4_S32768x1x4x4_0_17_0_0) : (⟨S32768x55x4x4, .f32⟩ : BufTy).Contents (Elt F) → (⟨S32768x1x4x4, .f32⟩ : BufTy).Contents (Elt F)),
    reshape main_v72 main_v73 rfl shapeCasts_S32768x1x4x4_S32768x4x4,
    binary main_v65 main_v73 main_v74 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v75 ((extractStridedSlice S32768x1x4x4 ![0, 18, 0, 0] · slices_S32768x55x4x4_S32768x1x4x4_0_18_0_0) : (⟨S32768x55x4x4, .f32⟩ : BufTy).Contents (Elt F) → (⟨S32768x1x4x4, .f32⟩ : BufTy).Contents (Elt F)),
    reshape main_v75 main_v76 rfl shapeCasts_S32768x1x4x4_S32768x4x4,
    binary main_v71 main_v76 main_v77 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v78 ((extractStridedSlice S32768x1x4x4 ![0, 19, 0, 0] · slices_S32768x55x4x4_S32768x1x4x4_0_19_0_0) : (⟨S32768x55x4x4, .f32⟩ : BufTy).Contents (Elt F) → (⟨S32768x1x4x4, .f32⟩ : BufTy).Contents (Elt F)),
    reshape main_v78 main_v79 rfl shapeCasts_S32768x1x4x4_S32768x4x4,
    binary main_v74 main_v79 main_v80 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v81 ((extractStridedSlice S32768x1x4x4 ![0, 20, 0, 0] · slices_S32768x55x4x4_S32768x1x4x4_0_20_0_0) : (⟨S32768x55x4x4, .f32⟩ : BufTy).Contents (Elt F) → (⟨S32768x1x4x4, .f32⟩ : BufTy).Contents (Elt F)),
    reshape main_v81 main_v82 rfl shapeCasts_S32768x1x4x4_S32768x4x4,
    binary main_v77 main_v82 main_v83 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v84 ((extractStridedSlice S32768x1x4x4 ![0, 21, 0, 0] · slices_S32768x55x4x4_S32768x1x4x4_0_21_0_0) : (⟨S32768x55x4x4, .f32⟩ : BufTy).Contents (Elt F) → (⟨S32768x1x4x4, .f32⟩ : BufTy).Contents (Elt F)),
    reshape main_v84 main_v85 rfl shapeCasts_S32768x1x4x4_S32768x4x4,
    binary main_v80 main_v85 main_v86 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v87 ((extractStridedSlice S32768x1x4x4 ![0, 22, 0, 0] · slices_S32768x55x4x4_S32768x1x4x4_0_22_0_0) : (⟨S32768x55x4x4, .f32⟩ : BufTy).Contents (Elt F) → (⟨S32768x1x4x4, .f32⟩ : BufTy).Contents (Elt F)),
    reshape main_v87 main_v88 rfl shapeCasts_S32768x1x4x4_S32768x4x4,
    binary main_v68 main_v88 main_v89 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v90 ((extractStridedSlice S32768x1x4x4 ![0, 23, 0, 0] · slices_S32768x55x4x4_S32768x1x4x4_0_23_0_0) : (⟨S32768x55x4x4, .f32⟩ : BufTy).Contents (Elt F) → (⟨S32768x1x4x4, .f32⟩ : BufTy).Contents (Elt F)),
    reshape main_v90 main_v91 rfl shapeCasts_S32768x1x4x4_S32768x4x4,
    binary main_v68 main_v91 main_v92 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v93 ((extractStridedSlice S32768x1x4x4 ![0, 24, 0, 0] · slices_S32768x55x4x4_S32768x1x4x4_0_24_0_0) : (⟨S32768x55x4x4, .f32⟩ : BufTy).Contents (Elt F) → (⟨S32768x1x4x4, .f32⟩ : BufTy).Contents (Elt F)),
    reshape main_v93 main_v94 rfl shapeCasts_S32768x1x4x4_S32768x4x4,
    binary main_v68 main_v94 main_v95 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v96 ((extractStridedSlice S32768x1x4x4 ![0, 25, 0, 0] · slices_S32768x55x4x4_S32768x1x4x4_0_25_0_0) : (⟨S32768x55x4x4, .f32⟩ : BufTy).Contents (Elt F) → (⟨S32768x1x4x4, .f32⟩ : BufTy).Contents (Elt F)),
    reshape main_v96 main_v97 rfl shapeCasts_S32768x1x4x4_S32768x4x4,
    binary main_v83 main_v97 main_v98 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v99 ((extractStridedSlice S32768x1x4x4 ![0, 26, 0, 0] · slices_S32768x55x4x4_S32768x1x4x4_0_26_0_0) : (⟨S32768x55x4x4, .f32⟩ : BufTy).Contents (Elt F) → (⟨S32768x1x4x4, .f32⟩ : BufTy).Contents (Elt F)),
    reshape main_v99 main_v100 rfl shapeCasts_S32768x1x4x4_S32768x4x4,
    binary main_v98 main_v100 main_v101 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v102 ((extractStridedSlice S32768x1x4x4 ![0, 27, 0, 0] · slices_S32768x55x4x4_S32768x1x4x4_0_27_0_0) : (⟨S32768x55x4x4, .f32⟩ : BufTy).Contents (Elt F) → (⟨S32768x1x4x4, .f32⟩ : BufTy).Contents (Elt F)),
    reshape main_v102 main_v103 rfl shapeCasts_S32768x1x4x4_S32768x4x4,
    binary main_v101 main_v103 main_v104 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v105 ((extractStridedSlice S32768x1x4x4 ![0, 28, 0, 0] · slices_S32768x55x4x4_S32768x1x4x4_0_28_0_0) : (⟨S32768x55x4x4, .f32⟩ : BufTy).Contents (Elt F) → (⟨S32768x1x4x4, .f32⟩ : BufTy).Contents (Elt F)),
    reshape main_v105 main_v106 rfl shapeCasts_S32768x1x4x4_S32768x4x4,
    binary main_v83 main_v106 main_v107 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v108 ((extractStridedSlice S32768x1x4x4 ![0, 29, 0, 0] · slices_S32768x55x4x4_S32768x1x4x4_0_29_0_0) : (⟨S32768x55x4x4, .f32⟩ : BufTy).Contents (Elt F) → (⟨S32768x1x4x4, .f32⟩ : BufTy).Contents (Elt F)),
    reshape main_v108 main_v109 rfl shapeCasts_S32768x1x4x4_S32768x4x4,
    binary main_v107 main_v109 main_v110 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v111 ((extractStridedSlice S32768x1x4x4 ![0, 30, 0, 0] · slices_S32768x55x4x4_S32768x1x4x4_0_30_0_0) : (⟨S32768x55x4x4, .f32⟩ : BufTy).Contents (Elt F) → (⟨S32768x1x4x4, .f32⟩ : BufTy).Contents (Elt F)),
    reshape main_v111 main_v112 rfl shapeCasts_S32768x1x4x4_S32768x4x4,
    binary main_v110 main_v112 main_v113 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) ]

set_option maxRecDepth 8192 in
theorem blk3_sub : (blk3 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩

/-- The buffers block 3 writes. -/
abbrev blk3_W : List (Ref sig .tc) := [main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113]
set_option maxRecDepth 8192 in
theorem blk3_writes : (blk3 : List (HloOp τ sig (Elt F))).Forall fun op => op.writes ⊆ (blk3_W.map (Proc.devRef (τ := τ) .tc)).toFinset := by
  simp only [List.Forall]; exact ⟨by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row⟩

/-- The buffers' contents after the first 3 blocks. -/
def val3 (V0 : Valuation τ sig (Elt F)) : Valuation τ sig (Elt F) := after blk3 (val2 V0)
theorem val3_keep (V0 : Valuation τ sig (Elt F)) (r : Ref sig .tc) (h : r ∉ blk3_W) :
    val3 V0 (Proc.devRef .tc r) = val2 V0 (Proc.devRef .tc r) :=
  after_of_writes_sub blk3 _ blk3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_v21 (V0 : Valuation τ sig (Elt F)) : val3 V0 (no_index (Proc.devRef .tc main_v21)) = tmOf V0 :=
  (val3_keep V0 main_v21 (by decide)).trans (val2_main_v21 V0)
theorem val3_main_v23 (V0 : Valuation τ sig (Elt F)) : val3 V0 (no_index (Proc.devRef .tc main_v23)) = Term.v_main_v23 (F := F) (tmOf V0) :=
  (val3_keep V0 main_v23 (by decide)).trans (val2_main_v23 V0)
theorem val3_main_v26 (V0 : Valuation τ sig (Elt F)) : val3 V0 (no_index (Proc.devRef .tc main_v26)) = Term.v_main_v26 (F := F) (tmOf V0) :=
  (val3_keep V0 main_v26 (by decide)).trans (val2_main_v26 V0)
theorem val3_main_v29 (V0 : Valuation τ sig (Elt F)) : val3 V0 (no_index (Proc.devRef .tc main_v29)) = Term.v_main_v29 (F := F) (tmOf V0) :=
  (val3_keep V0 main_v29 (by decide)).trans (val2_main_v29 V0)
theorem val3_main_v32 (V0 : Valuation τ sig (Elt F)) : val3 V0 (no_index (Proc.devRef .tc main_v32)) = Term.v_main_v32 (F := F) (tmOf V0) :=
  (val3_keep V0 main_v32 (by decide)).trans (val2_main_v32 V0)
theorem val3_main_v35 (V0 : Valuation τ sig (Elt F)) : val3 V0 (no_index (Proc.devRef .tc main_v35)) = Term.v_main_v35 (F := F) (tmOf V0) :=
  (val3_keep V0 main_v35 (by decide)).trans (val2_main_v35 V0)
theorem val3_main_v38 (V0 : Valuation τ sig (Elt F)) : val3 V0 (no_index (Proc.devRef .tc main_v38)) = Term.v_main_v38 (F := F) (tmOf V0) :=
  (val3_keep V0 main_v38 (by decide)).trans (val2_main_v38 V0)
theorem val3_main_v41 (V0 : Valuation τ sig (Elt F)) : val3 V0 (no_index (Proc.devRef .tc main_v41)) = Term.v_main_v41 (F := F) (tmOf V0) :=
  (val3_keep V0 main_v41 (by decide)).trans (val2_main_v41 V0)
theorem val3_main_v44 (V0 : Valuation τ sig (Elt F)) : val3 V0 (no_index (Proc.devRef .tc main_v44)) = Term.v_main_v44 (F := F) (tmOf V0) :=
  (val3_keep V0 main_v44 (by decide)).trans (val2_main_v44 V0)
theorem val3_main_v47 (V0 : Valuation τ sig (Elt F)) : val3 V0 (no_index (Proc.devRef .tc main_v47)) = Term.v_main_v47 (F := F) (tmOf V0) :=
  (val3_keep V0 main_v47 (by decide)).trans (val2_main_v47 V0)
theorem val3_main_v50 (V0 : Valuation τ sig (Elt F)) : val3 V0 (no_index (Proc.devRef .tc main_v50)) = Term.v_main_v50 (F := F) (tmOf V0) :=
  (val3_keep V0 main_v50 (by decide)).trans (val2_main_v50 V0)
theorem val3_main_v53 (V0 : Valuation τ sig (Elt F)) : val3 V0 (no_index (Proc.devRef .tc main_v53)) = Term.v_main_v53 (F := F) (tmOf V0) :=
  (val3_keep V0 main_v53 (by decide)).trans (val2_main_v53 V0)
set_option maxRecDepth 8192 in
set_option maxHeartbeats 4000000 in
theorem val3_main_v56 (V0 : Valuation τ sig (Elt F)) : val3 V0 (no_index (Proc.devRef .tc main_v56)) = Term.v_main_v56 (F := F) (tmOf V0) := by
  unfold val3
  simp only [blk3]
  block_value [val2_main_v47, val2_main_v21]
set_option maxRecDepth 8192 in
set_option maxHeartbeats 4000000 in
theorem val3_main_v59 (V0 : Valuation τ sig (Elt F)) : val3 V0 (no_index (Proc.devRef .tc main_v59)) = Term.v_main_v59 (F := F) (tmOf V0) := by
  unfold val3
  simp only [blk3]
  block_value [val2_main_v50, val2_main_v21]
set_option maxRecDepth 8192 in
set_option maxHeartbeats 4000000 in
theorem val3_main_v62 (V0 : Valuation τ sig (Elt F)) : val3 V0 (no_index (Proc.devRef .tc main_v62)) = Term.v_main_v62 (F := F) (tmOf V0) := by
  unfold val3
  simp only [blk3]
  block_value [val2_main_v50, val2_main_v21]
set_option maxRecDepth 8192 in
set_option maxHeartbeats 4000000 in
theorem val3_main_v65 (V0 : Valuation τ sig (Elt F)) : val3 V0 (no_index (Proc.devRef .tc main_v65)) = Term.v_main_v65 (F := F) (tmOf V0) := by
  unfold val3
  simp only [blk3]
  block_value [val2_main_v50, val2_main_v21]
set_option maxRecDepth 8192 in
set_option maxHeartbeats 4000000 in
theorem val3_main_v68 (V0 : Valuation τ sig (Elt F)) : val3 V0 (no_index (Proc.devRef .tc main_v68)) = Term.v_main_v68 (F := F) (tmOf V0) := by
  unfold val3
  simp only [blk3]
  block_value [val2_main_v50, val2_main_v21]
set_option maxRecDepth 8192 in
set_option maxHeartbeats 4000000 in
theorem val3_main_v71 (V0 : Valuation τ sig (Elt F)) : val3 V0 (no_index (Proc.devRef .tc main_v71)) = Term.v_main_v71 (F := F) (tmOf V0) := by
  unfold val3
  simp only [blk3]
  block_value [val2_main_v50, val2_main_v21]
set_option maxRecDepth 8192 in
set_option maxHeartbeats 4000000 in
theorem val3_main_v74 (V0 : Valuation τ sig (Elt F)) : val3 V0 (no_index (Proc.devRef .tc main_v74)) = Term.v_main_v74 (F := F) (tmOf V0) := by
  unfold val3
  simp only [blk3]
  block_value [val2_main_v50, val2_main_v21]
set_option maxRecDepth 8192 in
set_option maxHeartbeats 4000000 in
theorem val3_main_v77 (V0 : Valuation τ sig (Elt F)) : val3 V0 (no_index (Proc.devRef .tc main_v77)) = Term.v_main_v77 (F := F) (tmOf V0) := by
  unfold val3
  simp only [blk3]
  block_value [val2_main_v50, val2_main_v21]
set_option maxRecDepth 8192 in
set_option maxHeartbeats 4000000 in
theorem val3_main_v80 (V0 : Valuation τ sig (Elt F)) : val3 V0 (no_index (Proc.devRef .tc main_v80)) = Term.v_main_v80 (F := F) (tmOf V0) := by
  unfold val3
  simp only [blk3]
  block_value [val2_main_v50, val2_main_v21]
set_option maxRecDepth 8192 in
set_option maxHeartbeats 4000000 in
theorem val3_main_v83 (V0 : Valuation τ sig (Elt F)) : val3 V0 (no_index (Proc.devRef .tc main_v83)) = Term.v_main_v83 (F := F) (tmOf V0) := by
  unfold val3
  simp only [blk3]
  block_value [val2_main_v50, val2_main_v21]
set_option maxRecDepth 8192 in
set_option maxHeartbeats 4000000 in
theorem val3_main_v86 (V0 : Valuation τ sig (Elt F)) : val3 V0 (no_index (Proc.devRef .tc main_v86)) = Term.v_main_v86 (F := F) (tmOf V0) := by
  unfold val3
  simp only [blk3]
  block_value [val2_main_v50, val2_main_v21]
set_option maxRecDepth 8192 in
set_option maxHeartbeats 4000000 in
theorem val3_main_v89 (V0 : Valuation τ sig (Elt F)) : val3 V0 (no_index (Proc.devRef .tc main_v89)) = Term.v_main_v89 (F := F) (tmOf V0) := by
  unfold val3
  simp only [blk3]
  block_value [val2_main_v50, val2_main_v21]
set_option maxRecDepth 8192 in
set_option maxHeartbeats 4000000 in
theorem val3_main_v92 (V0 : Valuation τ sig (Elt F)) : val3 V0 (no_index (Proc.devRef .tc main_v92)) = Term.v_main_v92 (F := F) (tmOf V0) := by
  unfold val3
  simp only [blk3]
  block_value [val2_main_v50, val2_main_v21]
set_option maxRecDepth 8192 in
set_option maxHeartbeats 4000000 in
theorem val3_main_v95 (V0 : Valuation τ sig (Elt F)) : val3 V0 (no_index (Proc.devRef .tc main_v95)) = Term.v_main_v95 (F := F) (tmOf V0) := by
  unfold val3
  simp only [blk3]
  block_value [val2_main_v50, val2_main_v21]
set_option maxRecDepth 8192 in
set_option maxHeartbeats 4000000 in
theorem val3_main_v98 (V0 : Valuation τ sig (Elt F)) : val3 V0 (no_index (Proc.devRef .tc main_v98)) = Term.v_main_v98 (F := F) (tmOf V0) := by
  unfold val3
  simp only [blk3]
  block_value [val2_main_v50, val2_main_v21]
set_option maxRecDepth 8192 in
set_option maxHeartbeats 4000000 in
theorem val3_main_v101 (V0 : Valuation τ sig (Elt F)) : val3 V0 (no_index (Proc.devRef .tc main_v101)) = Term.v_main_v101 (F := F) (tmOf V0) := by
  unfold val3
  simp only [blk3]
  block_value [val2_main_v50, val2_main_v21]
set_option maxRecDepth 8192 in
set_option maxHeartbeats 4000000 in
theorem val3_main_v104 (V0 : Valuation τ sig (Elt F)) : val3 V0 (no_index (Proc.devRef .tc main_v104)) = Term.v_main_v104 (F := F) (tmOf V0) := by
  unfold val3
  simp only [blk3]
  block_value [val2_main_v50, val2_main_v21]
set_option maxRecDepth 8192 in
set_option maxHeartbeats 4000000 in
theorem val3_main_v107 (V0 : Valuation τ sig (Elt F)) : val3 V0 (no_index (Proc.devRef .tc main_v107)) = Term.v_main_v107 (F := F) (tmOf V0) := by
  unfold val3
  simp only [blk3]
  block_value [val2_main_v50, val2_main_v21]
set_option maxRecDepth 8192 in
set_option maxHeartbeats 4000000 in
theorem val3_main_v110 (V0 : Valuation τ sig (Elt F)) : val3 V0 (no_index (Proc.devRef .tc main_v110)) = Term.v_main_v110 (F := F) (tmOf V0) := by
  unfold val3
  simp only [blk3]
  block_value [val2_main_v50, val2_main_v21]
set_option maxRecDepth 8192 in
set_option maxHeartbeats 4000000 in
theorem val3_main_v113 (V0 : Valuation τ sig (Elt F)) : val3 V0 (no_index (Proc.devRef .tc main_v113)) = Term.v_main_v113 (F := F) (tmOf V0) := by
  unfold val3
  simp only [blk3]
  block_value [val2_main_v50, val2_main_v21]

end Cert.ReferenceIdeal.HandRun

end
-- ==== Proof.RefRunTab4.lean ====
/-
  Block 4 of the reference program's operations (operations 121 … 180 of 255, in the program's order), one row per
  operation; and the contents, after the block, of every buffer that a later block reads — the buffer's stage (its
  operation's function applied to the stages of the buffers it reads) at the arguments' contents —, one row per buffer.
-/
import proofs.«163241_j18760417149409_2_alg».proof.Proof.RefRunTab3

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 121 … 180 of 255. -/
abbrev blk4 : List (HloOp τ sig (Elt F)) :=
  [ unary main_v21 main_v114 ((extractStridedSlice S32768x1x4x4 ![0, 31, 0, 0] · slices_S32768x55x4x4_S32768x1x4x4_0_31_0_0) : (⟨S32768x55x4x4, .f32⟩ : BufTy).Contents (Elt F) → (⟨S32768x1x4x4, .f32⟩ : BufTy).Contents (Elt F)),
    reshape main_v114 main_v115 rfl shapeCasts_S32768x1x4x4_S32768x4x4,
    binary main_v83 main_v115 main_v116 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v117 ((extractStridedSlice S32768x1x4x4 ![0, 32, 0, 0] · slices_S32768x55x4x4_S32768x1x4x4_0_32_0_0) : (⟨S32768x55x4x4, .f32⟩ : BufTy).Contents (Elt F) → (⟨S32768x1x4x4, .f32⟩ : BufTy).Contents (Elt F)),
    reshape main_v117 main_v118 rfl shapeCasts_S32768x1x4x4_S32768x4x4,
    binary main_v116 main_v118 main_v119 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v120 ((extractStridedSlice S32768x1x4x4 ![0, 33, 0, 0] · slices_S32768x55x4x4_S32768x1x4x4_0_33_0_0) : (⟨S32768x55x4x4, .f32⟩ : BufTy).Contents (Elt F) → (⟨S32768x1x4x4, .f32⟩ : BufTy).Contents (Elt F)),
    reshape main_v120 main_v121 rfl shapeCasts_S32768x1x4x4_S32768x4x4,
    binary main_v119 main_v121 main_v122 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v123 ((extractStridedSlice S32768x1x4x4 ![0, 34, 0, 0] · slices_S32768x55x4x4_S32768x1x4x4_0_34_0_0) : (⟨S32768x55x4x4, .f32⟩ : BufTy).Contents (Elt F) → (⟨S32768x1x4x4, .f32⟩ : BufTy).Contents (Elt F)),
    reshape main_v123 main_v124 rfl shapeCasts_S32768x1x4x4_S32768x4x4,
    binary main_v83 main_v124 main_v125 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v126 ((extractStridedSlice S32768x1x4x4 ![0, 35, 0, 0] · slices_S32768x55x4x4_S32768x1x4x4_0_35_0_0) : (⟨S32768x55x4x4, .f32⟩ : BufTy).Contents (Elt F) → (⟨S32768x1x4x4, .f32⟩ : BufTy).Contents (Elt F)),
    reshape main_v126 main_v127 rfl shapeCasts_S32768x1x4x4_S32768x4x4,
    binary main_v125 main_v127 main_v128 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v129 ((extractStridedSlice S32768x1x4x4 ![0, 36, 0, 0] · slices_S32768x55x4x4_S32768x1x4x4_0_36_0_0) : (⟨S32768x55x4x4, .f32⟩ : BufTy).Contents (Elt F) → (⟨S32768x1x4x4, .f32⟩ : BufTy).Contents (Elt F)),
    reshape main_v129 main_v130 rfl shapeCasts_S32768x1x4x4_S32768x4x4,
    binary main_v128 main_v130 main_v131 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v132 ((extractStridedSlice S32768x1x4x4 ![0, 37, 0, 0] · slices_S32768x55x4x4_S32768x1x4x4_0_37_0_0) : (⟨S32768x55x4x4, .f32⟩ : BufTy).Contents (Elt F) → (⟨S32768x1x4x4, .f32⟩ : BufTy).Contents (Elt F)),
    reshape main_v132 main_v133 rfl shapeCasts_S32768x1x4x4_S32768x4x4,
    binary main_v83 main_v133 main_v134 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v135 ((extractStridedSlice S32768x1x4x4 ![0, 38, 0, 0] · slices_S32768x55x4x4_S32768x1x4x4_0_38_0_0) : (⟨S32768x55x4x4, .f32⟩ : BufTy).Contents (Elt F) → (⟨S32768x1x4x4, .f32⟩ : BufTy).Contents (Elt F)),
    reshape main_v135 main_v136 rfl shapeCasts_S32768x1x4x4_S32768x4x4,
    binary main_v134 main_v136 main_v137 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v138 ((extractStridedSlice S32768x1x4x4 ![0, 39, 0, 0] · slices_S32768x55x4x4_S32768x1x4x4_0_39_0_0) : (⟨S32768x55x4x4, .f32⟩ : BufTy).Contents (Elt F) → (⟨S32768x1x4x4, .f32⟩ : BufTy).Contents (Elt F)),
    reshape main_v138 main_v139 rfl shapeCasts_S32768x1x4x4_S32768x4x4,
    binary main_v137 main_v139 main_v140 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v141 ((extractStridedSlice S32768x1x4x4 ![0, 40, 0, 0] · slices_S32768x55x4x4_S32768x1x4x4_0_40_0_0) : (⟨S32768x55x4x4, .f32⟩ : BufTy).Contents (Elt F) → (⟨S32768x1x4x4, .f32⟩ : BufTy).Contents (Elt F)),
    reshape main_v141 main_v142 rfl shapeCasts_S32768x1x4x4_S32768x4x4,
    binary main_v86 main_v142 main_v143 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v144 ((extractStridedSlice S32768x1x4x4 ![0, 41, 0, 0] · slices_S32768x55x4x4_S32768x1x4x4_0_41_0_0) : (⟨S32768x55x4x4, .f32⟩ : BufTy).Contents (Elt F) → (⟨S32768x1x4x4, .f32⟩ : BufTy).Contents (Elt F)),
    reshape main_v144 main_v145 rfl shapeCasts_S32768x1x4x4_S32768x4x4,
    binary main_v143 main_v145 main_v146 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v147 ((extractStridedSlice S32768x1x4x4 ![0, 42, 0, 0] · slices_S32768x55x4x4_S32768x1x4x4_0_42_0_0) : (⟨S32768x55x4x4, .f32⟩ : BufTy).Contents (Elt F) → (⟨S32768x1x4x4, .f32⟩ : BufTy).Contents (Elt F)),
    reshape main_v147 main_v148 rfl shapeCasts_S32768x1x4x4_S32768x4x4,
    binary main_v146 main_v148 main_v149 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v150 ((extractStridedSlice S32768x1x4x4 ![0, 43, 0, 0] · slices_S32768x55x4x4_S32768x1x4x4_0_43_0_0) : (⟨S32768x55x4x4, .f32⟩ : BufTy).Contents (Elt F) → (⟨S32768x1x4x4, .f32⟩ : BufTy).Contents (Elt F)),
    reshape main_v150 main_v151 rfl shapeCasts_S32768x1x4x4_S32768x4x4,
    binary main_v86 main_v151 main_v152 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v153 ((extractStridedSlice S32768x1x4x4 ![0, 44, 0, 0] · slices_S32768x55x4x4_S32768x1x4x4_0_44_0_0) : (⟨S32768x55x4x4, .f32⟩ : BufTy).Contents (Elt F) → (⟨S32768x1x4x4, .f32⟩ : BufTy).Contents (Elt F)),
    reshape main_v153 main_v154 rfl shapeCasts_S32768x1x4x4_S32768x4x4,
    binary main_v152 main_v154 main_v155 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v156 ((extractStridedSlice S32768x1x4x4 ![0, 45, 0, 0] · slices_S32768x55x4x4_S32768x1x4x4_0_45_0_0) : (⟨S32768x55x4x4, .f32⟩ : BufTy).Contents (Elt F) → (⟨S32768x1x4x4, .f32⟩ : BufTy).Contents (Elt F)),
    reshape main_v156 main_v157 rfl shapeCasts_S32768x1x4x4_S32768x4x4,
    binary main_v155 main_v157 main_v158 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v159 ((extractStridedSlice S32768x1x4x4 ![0, 46, 0, 0] · slices_S32768x55x4x4_S32768x1x4x4_0_46_0_0) : (⟨S32768x55x4x4, .f32⟩ : BufTy).Contents (Elt F) → (⟨S32768x1x4x4, .f32⟩ : BufTy).Contents (Elt F)),
    reshape main_v159 main_v160 rfl shapeCasts_S32768x1x4x4_S32768x4x4,
    binary main_v86 main_v160 main_v161 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v162 ((extractStridedSlice S32768x1x4x4 ![0, 47, 0, 0] · slices_S32768x55x4x4_S32768x1x4x4_0_47_0_0) : (⟨S32768x55x4x4, .f32⟩ : BufTy).Contents (Elt F) → (⟨S32768x1x4x4, .f32⟩ : BufTy).Contents (Elt F)),
    reshape main_v162 main_v163 rfl shapeCasts_S32768x1x4x4_S32768x4x4,
    binary main_v161 main_v163 main_v164 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v165 ((extractStridedSlice S32768x1x4x4 ![0, 48, 0, 0] · slices_S32768x55x4x4_S32768x1x4x4_0_48_0_0) : (⟨S32768x55x4x4, .f32⟩ : BufTy).Contents (Elt F) → (⟨S32768x1x4x4, .f32⟩ : BufTy).Contents (Elt F)),
    reshape main_v165 main_v166 rfl shapeCasts_S32768x1x4x4_S32768x4x4,
    binary main_v164 main_v166 main_v167 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v168 ((extractStridedSlice S32768x1x4x4 ![0, 49, 0, 0] · slices_S32768x55x4x4_S32768x1x4x4_0_49_0_0) : (⟨S32768x55x4x4, .f32⟩ : BufTy).Contents (Elt F) → (⟨S32768x1x4x4, .f32⟩ : BufTy).Contents (Elt F)),
    reshape main_v168 main_v169 rfl shapeCasts_S32768x1x4x4_S32768x4x4,
    binary main_v86 main_v169 main_v170 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v171 ((extractStridedSlice S32768x1x4x4 ![0, 50, 0, 0] · slices_S32768x55x4x4_S32768x1x4x4_0_50_0_0) : (⟨S32768x55x4x4, .f32⟩ : BufTy).Contents (Elt F) → (⟨S32768x1x4x4, .f32⟩ : BufTy).Contents (Elt F)),
    reshape main_v171 main_v172 rfl shapeCasts_S32768x1x4x4_S32768x4x4,
    binary main_v170 main_v172 main_v173 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)) ]

set_option maxRecDepth 8192 in
theorem blk4_sub : (blk4 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩

/-- The buffers block 4 writes. -/
abbrev blk4_W : List (Ref sig .tc) := [main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173]
set_option maxRecDepth 8192 in
theorem blk4_writes : (blk4 : List (HloOp τ sig (Elt F))).Forall fun op => op.writes ⊆ (blk4_W.map (Proc.devRef (τ := τ) .tc)).toFinset := by
  simp only [List.Forall]; exact ⟨by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row⟩

/-- The buffers' contents after the first 4 blocks. -/
def val4 (V0 : Valuation τ sig (Elt F)) : Valuation τ sig (Elt F) := after blk4 (val3 V0)
theorem val4_keep (V0 : Valuation τ sig (Elt F)) (r : Ref sig .tc) (h : r ∉ blk4_W) :
    val4 V0 (Proc.devRef .tc r) = val3 V0 (Proc.devRef .tc r) :=
  after_of_writes_sub blk4 _ blk4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_v21 (V0 : Valuation τ sig (Elt F)) : val4 V0 (no_index (Proc.devRef .tc main_v21)) = tmOf V0 :=
  (val4_keep V0 main_v21 (by decide)).trans (val3_main_v21 V0)
theorem val4_main_v23 (V0 : Valuation τ sig (Elt F)) : val4 V0 (no_index (Proc.devRef .tc main_v23)) = Term.v_main_v23 (F := F) (tmOf V0) :=
  (val4_keep V0 main_v23 (by decide)).trans (val3_main_v23 V0)
theorem val4_main_v26 (V0 : Valuation τ sig (Elt F)) : val4 V0 (no_index (Proc.devRef .tc main_v26)) = Term.v_main_v26 (F := F) (tmOf V0) :=
  (val4_keep V0 main_v26 (by decide)).trans (val3_main_v26 V0)
theorem val4_main_v29 (V0 : Valuation τ sig (Elt F)) : val4 V0 (no_index (Proc.devRef .tc main_v29)) = Term.v_main_v29 (F := F) (tmOf V0) :=
  (val4_keep V0 main_v29 (by decide)).trans (val3_main_v29 V0)
theorem val4_main_v32 (V0 : Valuation τ sig (Elt F)) : val4 V0 (no_index (Proc.devRef .tc main_v32)) = Term.v_main_v32 (F := F) (tmOf V0) :=
  (val4_keep V0 main_v32 (by decide)).trans (val3_main_v32 V0)
theorem val4_main_v35 (V0 : Valuation τ sig (Elt F)) : val4 V0 (no_index (Proc.devRef .tc main_v35)) = Term.v_main_v35 (F := F) (tmOf V0) :=
  (val4_keep V0 main_v35 (by decide)).trans (val3_main_v35 V0)
theorem val4_main_v38 (V0 : Valuation τ sig (Elt F)) : val4 V0 (no_index (Proc.devRef .tc main_v38)) = Term.v_main_v38 (F := F) (tmOf V0) :=
  (val4_keep V0 main_v38 (by decide)).trans (val3_main_v38 V0)
theorem val4_main_v41 (V0 : Valuation τ sig (Elt F)) : val4 V0 (no_index (Proc.devRef .tc main_v41)) = Term.v_main_v41 (F := F) (tmOf V0) :=
  (val4_keep V0 main_v41 (by decide)).trans (val3_main_v41 V0)
theorem val4_main_v44 (V0 : Valuation τ sig (Elt F)) : val4 V0 (no_index (Proc.devRef .tc main_v44)) = Term.v_main_v44 (F := F) (tmOf V0) :=
  (val4_keep V0 main_v44 (by decide)).trans (val3_main_v44 V0)
theorem val4_main_v47 (V0 : Valuation τ sig (Elt F)) : val4 V0 (no_index (Proc.devRef .tc main_v47)) = Term.v_main_v47 (F := F) (tmOf V0) :=
  (val4_keep V0 main_v47 (by decide)).trans (val3_main_v47 V0)
theorem val4_main_v50 (V0 : Valuation τ sig (Elt F)) : val4 V0 (no_index (Proc.devRef .tc main_v50)) = Term.v_main_v50 (F := F) (tmOf V0) :=
  (val4_keep V0 main_v50 (by decide)).trans (val3_main_v50 V0)
theorem val4_main_v53 (V0 : Valuation τ sig (Elt F)) : val4 V0 (no_index (Proc.devRef .tc main_v53)) = Term.v_main_v53 (F := F) (tmOf V0) :=
  (val4_keep V0 main_v53 (by decide)).trans (val3_main_v53 V0)
theorem val4_main_v56 (V0 : Valuation τ sig (Elt F)) : val4 V0 (no_index (Proc.devRef .tc main_v56)) = Term.v_main_v56 (F := F) (tmOf V0) :=
  (val4_keep V0 main_v56 (by decide)).trans (val3_main_v56 V0)
theorem val4_main_v59 (V0 : Valuation τ sig (Elt F)) : val4 V0 (no_index (Proc.devRef .tc main_v59)) = Term.v_main_v59 (F := F) (tmOf V0) :=
  (val4_keep V0 main_v59 (by decide)).trans (val3_main_v59 V0)
theorem val4_main_v62 (V0 : Valuation τ sig (Elt F)) : val4 V0 (no_index (Proc.devRef .tc main_v62)) = Term.v_main_v62 (F := F) (tmOf V0) :=
  (val4_keep V0 main_v62 (by decide)).trans (val3_main_v62 V0)
theorem val4_main_v65 (V0 : Valuation τ sig (Elt F)) : val4 V0 (no_index (Proc.devRef .tc main_v65)) = Term.v_main_v65 (F := F) (tmOf V0) :=
  (val4_keep V0 main_v65 (by decide)).trans (val3_main_v65 V0)
theorem val4_main_v68 (V0 : Valuation τ sig (Elt F)) : val4 V0 (no_index (Proc.devRef .tc main_v68)) = Term.v_main_v68 (F := F) (tmOf V0) :=
  (val4_keep V0 main_v68 (by decide)).trans (val3_main_v68 V0)
theorem val4_main_v71 (V0 : Valuation τ sig (Elt F)) : val4 V0 (no_index (Proc.devRef .tc main_v71)) = Term.v_main_v71 (F := F) (tmOf V0) :=
  (val4_keep V0 main_v71 (by decide)).trans (val3_main_v71 V0)
theorem val4_main_v74 (V0 : Valuation τ sig (Elt F)) : val4 V0 (no_index (Proc.devRef .tc main_v74)) = Term.v_main_v74 (F := F) (tmOf V0) :=
  (val4_keep V0 main_v74 (by decide)).trans (val3_main_v74 V0)
theorem val4_main_v77 (V0 : Valuation τ sig (Elt F)) : val4 V0 (no_index (Proc.devRef .tc main_v77)) = Term.v_main_v77 (F := F) (tmOf V0) :=
  (val4_keep V0 main_v77 (by decide)).trans (val3_main_v77 V0)
theorem val4_main_v80 (V0 : Valuation τ sig (Elt F)) : val4 V0 (no_index (Proc.devRef .tc main_v80)) = Term.v_main_v80 (F := F) (tmOf V0) :=
  (val4_keep V0 main_v80 (by decide)).trans (val3_main_v80 V0)
theorem val4_main_v83 (V0 : Valuation τ sig (Elt F)) : val4 V0 (no_index (Proc.devRef .tc main_v83)) = Term.v_main_v83 (F := F) (tmOf V0) :=
  (val4_keep V0 main_v83 (by decide)).trans (val3_main_v83 V0)
theorem val4_main_v86 (V0 : Valuation τ sig (Elt F)) : val4 V0 (no_index (Proc.devRef .tc main_v86)) = Term.v_main_v86 (F := F) (tmOf V0) :=
  (val4_keep V0 main_v86 (by decide)).trans (val3_main_v86 V0)
theorem val4_main_v89 (V0 : Valuation τ sig (Elt F)) : val4 V0 (no_index (Proc.devRef .tc main_v89)) = Term.v_main_v89 (F := F) (tmOf V0) :=
  (val4_keep V0 main_v89 (by decide)).trans (val3_main_v89 V0)
theorem val4_main_v92 (V0 : Valuation τ sig (Elt F)) : val4 V0 (no_index (Proc.devRef .tc main_v92)) = Term.v_main_v92 (F := F) (tmOf V0) :=
  (val4_keep V0 main_v92 (by decide)).trans (val3_main_v92 V0)
theorem val4_main_v95 (V0 : Valuation τ sig (Elt F)) : val4 V0 (no_index (Proc.devRef .tc main_v95)) = Term.v_main_v95 (F := F) (tmOf V0) :=
  (val4_keep V0 main_v95 (by decide)).trans (val3_main_v95 V0)
theorem val4_main_v98 (V0 : Valuation τ sig (Elt F)) : val4 V0 (no_index (Proc.devRef .tc main_v98)) = Term.v_main_v98 (F := F) (tmOf V0) :=
  (val4_keep V0 main_v98 (by decide)).trans (val3_main_v98 V0)
theorem val4_main_v101 (V0 : Valuation τ sig (Elt F)) : val4 V0 (no_index (Proc.devRef .tc main_v101)) = Term.v_main_v101 (F := F) (tmOf V0) :=
  (val4_keep V0 main_v101 (by decide)).trans (val3_main_v101 V0)
theorem val4_main_v104 (V0 : Valuation τ sig (Elt F)) : val4 V0 (no_index (Proc.devRef .tc main_v104)) = Term.v_main_v104 (F := F) (tmOf V0) :=
  (val4_keep V0 main_v104 (by decide)).trans (val3_main_v104 V0)
theorem val4_main_v107 (V0 : Valuation τ sig (Elt F)) : val4 V0 (no_index (Proc.devRef .tc main_v107)) = Term.v_main_v107 (F := F) (tmOf V0) :=
  (val4_keep V0 main_v107 (by decide)).trans (val3_main_v107 V0)
theorem val4_main_v110 (V0 : Valuation τ sig (Elt F)) : val4 V0 (no_index (Proc.devRef .tc main_v110)) = Term.v_main_v110 (F := F) (tmOf V0) :=
  (val4_keep V0 main_v110 (by decide)).trans (val3_main_v110 V0)
theorem val4_main_v113 (V0 : Valuation τ sig (Elt F)) : val4 V0 (no_index (Proc.devRef .tc main_v113)) = Term.v_main_v113 (F := F) (tmOf V0) :=
  (val4_keep V0 main_v113 (by decide)).trans (val3_main_v113 V0)
set_option maxRecDepth 8192 in
set_option maxHeartbeats 4000000 in
theorem val4_main_v116 (V0 : Valuation τ sig (Elt F)) : val4 V0 (no_index (Proc.devRef .tc main_v116)) = Term.v_main_v116 (F := F) (tmOf V0) := by
  unfold val4
  simp only [blk4]
  block_value [val3_main_v83, val3_main_v21]
set_option maxRecDepth 8192 in
set_option maxHeartbeats 4000000 in
theorem val4_main_v119 (V0 : Valuation τ sig (Elt F)) : val4 V0 (no_index (Proc.devRef .tc main_v119)) = Term.v_main_v119 (F := F) (tmOf V0) := by
  unfold val4
  simp only [blk4]
  block_value [val3_main_v83, val3_main_v21]
set_option maxRecDepth 8192 in
set_option maxHeartbeats 4000000 in
theorem val4_main_v122 (V0 : Valuation τ sig (Elt F)) : val4 V0 (no_index (Proc.devRef .tc main_v122)) = Term.v_main_v122 (F := F) (tmOf V0) := by
  unfold val4
  simp only [blk4]
  block_value [val3_main_v83, val3_main_v21]
set_option maxRecDepth 8192 in
set_option maxHeartbeats 4000000 in
theorem val4_main_v125 (V0 : Valuation τ sig (Elt F)) : val4 V0 (no_index (Proc.devRef .tc main_v125)) = Term.v_main_v125 (F := F) (tmOf V0) := by
  unfold val4
  simp only [blk4]
  block_value [val3_main_v83, val3_main_v21]
set_option maxRecDepth 8192 in
set_option maxHeartbeats 4000000 in
theorem val4_main_v128 (V0 : Valuation τ sig (Elt F)) : val4 V0 (no_index (Proc.devRef .tc main_v128)) = Term.v_main_v128 (F := F) (tmOf V0) := by
  unfold val4
  simp only [blk4]
  block_value [val3_main_v83, val3_main_v21]
set_option maxRecDepth 8192 in
set_option maxHeartbeats 4000000 in
theorem val4_main_v131 (V0 : Valuation τ sig (Elt F)) : val4 V0 (no_index (Proc.devRef .tc main_v131)) = Term.v_main_v131 (F := F) (tmOf V0) := by
  unfold val4
  simp only [blk4]
  block_value [val3_main_v83, val3_main_v21]
set_option maxRecDepth 8192 in
set_option maxHeartbeats 4000000 in
theorem val4_main_v134 (V0 : Valuation τ sig (Elt F)) : val4 V0 (no_index (Proc.devRef .tc main_v134)) = Term.v_main_v134 (F := F) (tmOf V0) := by
  unfold val4
  simp only [blk4]
  block_value [val3_main_v83, val3_main_v21]
set_option maxRecDepth 8192 in
set_option maxHeartbeats 4000000 in
theorem val4_main_v137 (V0 : Valuation τ sig (Elt F)) : val4 V0 (no_index (Proc.devRef .tc main_v137)) = Term.v_main_v137 (F := F) (tmOf V0) := by
  unfold val4
  simp only [blk4]
  block_value [val3_main_v83, val3_main_v21]
set_option maxRecDepth 8192 in
set_option maxHeartbeats 4000000 in
theorem val4_main_v140 (V0 : Valuation τ sig (Elt F)) : val4 V0 (no_index (Proc.devRef .tc main_v140)) = Term.v_main_v140 (F := F) (tmOf V0) := by
  unfold val4
  simp only [blk4]
  block_value [val3_main_v83, val3_main_v21]
set_option maxRecDepth 8192 in
set_option maxHeartbeats 4000000 in
theorem val4_main_v143 (V0 : Valuation τ sig (Elt F)) : val4 V0 (no_index (Proc.devRef .tc main_v143)) = Term.v_main_v143 (F := F) (tmOf V0) := by
  unfold val4
  simp only [blk4]
  block_value [val3_main_v86, val3_main_v21]
set_option maxRecDepth 8192 in
set_option maxHeartbeats 4000000 in
theorem val4_main_v146 (V0 : Valuation τ sig (Elt F)) : val4 V0 (no_index (Proc.devRef .tc main_v146)) = Term.v_main_v146 (F := F) (tmOf V0) := by
  unfold val4
  simp only [blk4]
  block_value [val3_main_v86, val3_main_v21]
set_option maxRecDepth 8192 in
set_option maxHeartbeats 4000000 in
theorem val4_main_v149 (V0 : Valuation τ sig (Elt F)) : val4 V0 (no_index (Proc.devRef .tc main_v149)) = Term.v_main_v149 (F := F) (tmOf V0) := by
  unfold val4
  simp only [blk4]
  block_value [val3_main_v86, val3_main_v21]
set_option maxRecDepth 8192 in
set_option maxHeartbeats 4000000 in
theorem val4_main_v152 (V0 : Valuation τ sig (Elt F)) : val4 V0 (no_index (Proc.devRef .tc main_v152)) = Term.v_main_v152 (F := F) (tmOf V0) := by
  unfold val4
  simp only [blk4]
  block_value [val3_main_v86, val3_main_v21]
set_option maxRecDepth 8192 in
set_option maxHeartbeats 4000000 in
theorem val4_main_v155 (V0 : Valuation τ sig (Elt F)) : val4 V0 (no_index (Proc.devRef .tc main_v155)) = Term.v_main_v155 (F := F) (tmOf V0) := by
  unfold val4
  simp only [blk4]
  block_value [val3_main_v86, val3_main_v21]
set_option maxRecDepth 8192 in
set_option maxHeartbeats 4000000 in
theorem val4_main_v158 (V0 : Valuation τ sig (Elt F)) : val4 V0 (no_index (Proc.devRef .tc main_v158)) = Term.v_main_v158 (F := F) (tmOf V0) := by
  unfold val4
  simp only [blk4]
  block_value [val3_main_v86, val3_main_v21]
set_option maxRecDepth 8192 in
set_option maxHeartbeats 4000000 in
theorem val4_main_v161 (V0 : Valuation τ sig (Elt F)) : val4 V0 (no_index (Proc.devRef .tc main_v161)) = Term.v_main_v161 (F := F) (tmOf V0) := by
  unfold val4
  simp only [blk4]
  block_value [val3_main_v86, val3_main_v21]
set_option maxRecDepth 8192 in
set_option maxHeartbeats 4000000 in
theorem val4_main_v164 (V0 : Valuation τ sig (Elt F)) : val4 V0 (no_index (Proc.devRef .tc main_v164)) = Term.v_main_v164 (F := F) (tmOf V0) := by
  unfold val4
  simp only [blk4]
  block_value [val3_main_v86, val3_main_v21]
set_option maxRecDepth 8192 in
set_option maxHeartbeats 4000000 in
theorem val4_main_v167 (V0 : Valuation τ sig (Elt F)) : val4 V0 (no_index (Proc.devRef .tc main_v167)) = Term.v_main_v167 (F := F) (tmOf V0) := by
  unfold val4
  simp only [blk4]
  block_value [val3_main_v86, val3_main_v21]
set_option maxRecDepth 8192 in
set_option maxHeartbeats 4000000 in
theorem val4_main_v170 (V0 : Valuation τ sig (Elt F)) : val4 V0 (no_index (Proc.devRef .tc main_v170)) = Term.v_main_v170 (F := F) (tmOf V0) := by
  unfold val4
  simp only [blk4]
  block_value [val3_main_v86, val3_main_v21]
set_option maxRecDepth 8192 in
set_option maxHeartbeats 4000000 in
theorem val4_main_v173 (V0 : Valuation τ sig (Elt F)) : val4 V0 (no_index (Proc.devRef .tc main_v173)) = Term.v_main_v173 (F := F) (tmOf V0) := by
  unfold val4
  simp only [blk4]
  block_value [val3_main_v86, val3_main_v21]

end Cert.ReferenceIdeal.HandRun

end
-- ==== Proof.RefRunTab5.lean ====
/-
  Block 5 of the reference program's operations (operations 181 … 240 of 255, in the program's order), one row per
  operation; and the contents, after the block, of every buffer that a later block reads — the buffer's stage (its
  operation's function applied to the stages of the buffers it reads) at the arguments' contents —, one row per buffer.
-/
import proofs.«163241_j18760417149409_2_alg».proof.Proof.RefRunTab4

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 181 … 240 of 255. -/
abbrev blk5 : List (HloOp τ sig (Elt F)) :=
  [ unary main_v21 main_v174 ((extractStridedSlice S32768x1x4x4 ![0, 51, 0, 0] · slices_S32768x55x4x4_S32768x1x4x4_0_51_0_0) : (⟨S32768x55x4x4, .f32⟩ : BufTy).Contents (Elt F) → (⟨S32768x1x4x4, .f32⟩ : BufTy).Contents (Elt F)),
    reshape main_v174 main_v175 rfl shapeCasts_S32768x1x4x4_S32768x4x4,
    binary main_v173 main_v175 main_v176 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v177 ((extractStridedSlice S32768x1x4x4 ![0, 52, 0, 0] · slices_S32768x55x4x4_S32768x1x4x4_0_52_0_0) : (⟨S32768x55x4x4, .f32⟩ : BufTy).Contents (Elt F) → (⟨S32768x1x4x4, .f32⟩ : BufTy).Contents (Elt F)),
    reshape main_v177 main_v178 rfl shapeCasts_S32768x1x4x4_S32768x4x4,
    binary main_v86 main_v178 main_v179 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v180 ((extractStridedSlice S32768x1x4x4 ![0, 53, 0, 0] · slices_S32768x55x4x4_S32768x1x4x4_0_53_0_0) : (⟨S32768x55x4x4, .f32⟩ : BufTy).Contents (Elt F) → (⟨S32768x1x4x4, .f32⟩ : BufTy).Contents (Elt F)),
    reshape main_v180 main_v181 rfl shapeCasts_S32768x1x4x4_S32768x4x4,
    binary main_v179 main_v181 main_v182 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v21 main_v183 ((extractStridedSlice S32768x1x4x4 ![0, 54, 0, 0] · slices_S32768x55x4x4_S32768x1x4x4_0_54_0_0) : (⟨S32768x55x4x4, .f32⟩ : BufTy).Contents (Elt F) → (⟨S32768x1x4x4, .f32⟩ : BufTy).Contents (Elt F)),
    reshape main_v183 main_v184 rfl shapeCasts_S32768x1x4x4_S32768x4x4,
    binary main_v182 main_v184 main_v185 ((fun l r => Host.dotGeneral dot_S32768x4x4_S32768x4x4_S32768x4x4_2_1_1_2_0_0 none l r) : (⟨S32768x4x4, .f32⟩ : BufTy).Contents (Elt F) → (⟨S32768x4x4, .f32⟩ : BufTy).Contents (Elt F) → (⟨S32768x4x4, .f32⟩ : BufTy).Contents (Elt F)),
    unary main_v23 main_v186 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v26 main_v187 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v29 main_v188 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v32 main_v189 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v35 main_v190 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v38 main_v191 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v41 main_v192 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v44 main_v193 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v47 main_v194 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v50 main_v195 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v53 main_v196 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v56 main_v197 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v59 main_v198 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v62 main_v199 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v65 main_v200 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v68 main_v201 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v71 main_v202 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v74 main_v203 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v77 main_v204 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v80 main_v205 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v83 main_v206 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v86 main_v207 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v89 main_v208 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v92 main_v209 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v95 main_v210 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v98 main_v211 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v101 main_v212 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v104 main_v213 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v107 main_v214 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v110 main_v215 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v113 main_v216 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v116 main_v217 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v119 main_v218 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v122 main_v219 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v125 main_v220 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v128 main_v221 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v131 main_v222 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v134 main_v223 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v137 main_v224 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v140 main_v225 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v143 main_v226 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v146 main_v227 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v149 main_v228 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v152 main_v229 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v155 main_v230 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v158 main_v231 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v161 main_v232 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v164 main_v233 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) ]

set_option maxRecDepth 8192 in
theorem blk5_sub : (blk5 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- The buffers block 5 writes. -/
abbrev blk5_W : List (Ref sig .tc) := [main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233]
set_option maxRecDepth 8192 in
theorem blk5_writes : (blk5 : List (HloOp τ sig (Elt F))).Forall fun op => op.writes ⊆ (blk5_W.map (Proc.devRef (τ := τ) .tc)).toFinset := by
  simp only [List.Forall]; exact ⟨by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row, by writes_row⟩

/-- The buffers' contents after the first 5 blocks. -/
def val5 (V0 : Valuation τ sig (Elt F)) : Valuation τ sig (Elt F) := after blk5 (val4 V0)
theorem val5_keep (V0 : Valuation τ sig (Elt F)) (r : Ref sig .tc) (h : r ∉ blk5_W) :
    val5 V0 (Proc.devRef .tc r) = val4 V0 (Proc.devRef .tc r) :=
  after_of_writes_sub blk5 _ blk5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_v167 (V0 : Valuation τ sig (Elt F)) : val5 V0 (no_index (Proc.devRef .tc main_v167)) = Term.v_main_v167 (F := F) (tmOf V0) :=
  (val5_keep V0 main_v167 (by decide)).trans (val4_main_v167 V0)
theorem val5_main_v170 (V0 : Valuation τ sig (Elt F)) : val5 V0 (no_index (Proc.devRef .tc main_v170)) = Term.v_main_v170 (F := F) (tmOf V0) :=
  (val5_keep V0 main_v170 (by decide)).trans (val4_main_v170 V0)
theorem val5_main_v173 (V0 : Valuation τ sig (Elt F)) : val5 V0 (no_index (Proc.devRef .tc main_v173)) = Term.v_main_v173 (F := F) (tmOf V0) :=
  (val5_keep V0 main_v173 (by decide)).trans (val4_main_v173 V0)
set_option maxRecDepth 8192 in
set_option maxHeartbeats 4000000 in
theorem val5_main_v176 (V0 : Valuation τ sig (Elt F)) : val5 V0 (no_index (Proc.devRef .tc main_v176)) = Term.v_main_v176 (F := F) (tmOf V0) := by
  unfold val5
  simp only [blk5]
  block_value [val4_main_v173, val4_main_v21]
set_option maxRecDepth 8192 in
set_option maxHeartbeats 4000000 in
theorem val5_main_v179 (V0 : Valuation τ sig (Elt F)) : val5 V0 (no_index (Proc.devRef .tc main_v179)) = Term.v_main_v179 (F := F) (tmOf V0) := by
  unfold val5
  simp only [blk5]
  block_value [val4_main_v86, val4_main_v21]
set_option maxRecDepth 8192 in
set_option maxHeartbeats 4000000 in
theorem val5_main_v182 (V0 : Valuation τ sig (Elt F)) : val5 V0 (no_index (Proc.devRef .tc main_v182)) = Term.v_main_v182 (F := F) (tmOf V0) := by
  unfold val5
  simp only [blk5]
  block_value [val4_main_v86, val4_main_v21]
set_option maxRecDepth 8192 in
set_option maxHeartbeats 4000000 in
theorem val5_main_v185 (V0 : Valuation τ sig (Elt F)) : val5 V0 (no_index (Proc.devRef .tc main_v185)) = Term.v_main_v185 (F := F) (tmOf V0) := by
  unfold val5
  simp only [blk5]
  block_value [val4_main_v86, val4_main_v21]
set_option maxRecDepth 8192 in
set_option maxHeartbeats 4000000 in
theorem val5_main_v186 (V0 : Valuation τ sig (Elt F)) : val5 V0 (no_index (Proc.devRef .tc main_v186)) = Term.v_main_v186 (F := F) (tmOf V0) := by
  unfold val5
  simp only [blk5]
  block_value [val4_main_v23]
set_option maxRecDepth 8192 in
set_option maxHeartbeats 4000000 in
theorem val5_main_v187 (V0 : Valuation τ sig (Elt F)) : val5 V0 (no_index (Proc.devRef .tc main_v187)) = Term.v_main_v187 (F := F) (tmOf V0) := by
  unfold val5
  simp only [blk5]
  block_value [val4_main_v26]
set_option maxRecDepth 8192 in
set_option maxHeartbeats 4000000 in
theorem val5_main_v188 (V0 : Valuation τ sig (Elt F)) : val5 V0 (no_index (Proc.devRef .tc main_v188)) = Term.v_main_v188 (F := F) (tmOf V0) := by
  unfold val5
  simp only [blk5]
  block_value [val4_main_v29]
set_option maxRecDepth 8192 in
set_option maxHeartbeats 4000000 in
theorem val5_main_v189 (V0 : Valuation τ sig (Elt F)) : val5 V0 (no_index (Proc.devRef .tc main_v189)) = Term.v_main_v189 (F := F) (tmOf V0) := by
  unfold val5
  simp only [blk5]
  block_value [val4_main_v32]
set_option maxRecDepth 8192 in
set_option maxHeartbeats 4000000 in
theorem val5_main_v190 (V0 : Valuation τ sig (Elt F)) : val5 V0 (no_index (Proc.devRef .tc main_v190)) = Term.v_main_v190 (F := F) (tmOf V0) := by
  unfold val5
  simp only [blk5]
  block_value [val4_main_v35]
set_option maxRecDepth 8192 in
set_option maxHeartbeats 4000000 in
theorem val5_main_v191 (V0 : Valuation τ sig (Elt F)) : val5 V0 (no_index (Proc.devRef .tc main_v191)) = Term.v_main_v191 (F := F) (tmOf V0) := by
  unfold val5
  simp only [blk5]
  block_value [val4_main_v38]
set_option maxRecDepth 8192 in
set_option maxHeartbeats 4000000 in
theorem val5_main_v192 (V0 : Valuation τ sig (Elt F)) : val5 V0 (no_index (Proc.devRef .tc main_v192)) = Term.v_main_v192 (F := F) (tmOf V0) := by
  unfold val5
  simp only [blk5]
  block_value [val4_main_v41]
set_option maxRecDepth 8192 in
set_option maxHeartbeats 4000000 in
theorem val5_main_v193 (V0 : Valuation τ sig (Elt F)) : val5 V0 (no_index (Proc.devRef .tc main_v193)) = Term.v_main_v193 (F := F) (tmOf V0) := by
  unfold val5
  simp only [blk5]
  block_value [val4_main_v44]
set_option maxRecDepth 8192 in
set_option maxHeartbeats 4000000 in
theorem val5_main_v194 (V0 : Valuation τ sig (Elt F)) : val5 V0 (no_index (Proc.devRef .tc main_v194)) = Term.v_main_v194 (F := F) (tmOf V0) := by
  unfold val5
  simp only [blk5]
  block_value [val4_main_v47]
set_option maxRecDepth 8192 in
set_option maxHeartbeats 4000000 in
theorem val5_main_v195 (V0 : Valuation τ sig (Elt F)) : val5 V0 (no_index (Proc.devRef .tc main_v195)) = Term.v_main_v195 (F := F) (tmOf V0) := by
  unfold val5
  simp only [blk5]
  block_value [val4_main_v50]
set_option maxRecDepth 8192 in
set_option maxHeartbeats 4000000 in
theorem val5_main_v196 (V0 : Valuation τ sig (Elt F)) : val5 V0 (no_index (Proc.devRef .tc main_v196)) = Term.v_main_v196 (F := F) (tmOf V0) := by
  unfold val5
  simp only [blk5]
  block_value [val4_main_v53]
set_option maxRecDepth 8192 in
set_option maxHeartbeats 4000000 in
theorem val5_main_v197 (V0 : Valuation τ sig (Elt F)) : val5 V0 (no_index (Proc.devRef .tc main_v197)) = Term.v_main_v197 (F := F) (tmOf V0) := by
  unfold val5
  simp only [blk5]
  block_value [val4_main_v56]
set_option maxRecDepth 8192 in
set_option maxHeartbeats 4000000 in
theorem val5_main_v198 (V0 : Valuation τ sig (Elt F)) : val5 V0 (no_index (Proc.devRef .tc main_v198)) = Term.v_main_v198 (F := F) (tmOf V0) := by
  unfold val5
  simp only [blk5]
  block_value [val4_main_v59]
set_option maxRecDepth 8192 in
set_option maxHeartbeats 4000000 in
theorem val5_main_v199 (V0 : Valuation τ sig (Elt F)) : val5 V0 (no_index (Proc.devRef .tc main_v199)) = Term.v_main_v199 (F := F) (tmOf V0) := by
  unfold val5
  simp only [blk5]
  block_value [val4_main_v62]
set_option maxRecDepth 8192 in
set_option maxHeartbeats 4000000 in
theorem val5_main_v200 (V0 : Valuation τ sig (Elt F)) : val5 V0 (no_index (Proc.devRef .tc main_v200)) = Term.v_main_v200 (F := F) (tmOf V0) := by
  unfold val5
  simp only [blk5]
  block_value [val4_main_v65]
set_option maxRecDepth 8192 in
set_option maxHeartbeats 4000000 in
theorem val5_main_v201 (V0 : Valuation τ sig (Elt F)) : val5 V0 (no_index (Proc.devRef .tc main_v201)) = Term.v_main_v201 (F := F) (tmOf V0) := by
  unfold val5
  simp only [blk5]
  block_value [val4_main_v68]
set_option maxRecDepth 8192 in
set_option maxHeartbeats 4000000 in
theorem val5_main_v202 (V0 : Valuation τ sig (Elt F)) : val5 V0 (no_index (Proc.devRef .tc main_v202)) = Term.v_main_v202 (F := F) (tmOf V0) := by
  unfold val5
  simp only [blk5]
  block_value [val4_main_v71]
set_option maxRecDepth 8192 in
set_option maxHeartbeats 4000000 in
theorem val5_main_v203 (V0 : Valuation τ sig (Elt F)) : val5 V0 (no_index (Proc.devRef .tc main_v203)) = Term.v_main_v203 (F := F) (tmOf V0) := by
  unfold val5
  simp only [blk5]
  block_value [val4_main_v74]
set_option maxRecDepth 8192 in
set_option maxHeartbeats 4000000 in
theorem val5_main_v204 (V0 : Valuation τ sig (Elt F)) : val5 V0 (no_index (Proc.devRef .tc main_v204)) = Term.v_main_v204 (F := F) (tmOf V0) := by
  unfold val5
  simp only [blk5]
  block_value [val4_main_v77]
set_option maxRecDepth 8192 in
set_option maxHeartbeats 4000000 in
theorem val5_main_v205 (V0 : Valuation τ sig (Elt F)) : val5 V0 (no_index (Proc.devRef .tc main_v205)) = Term.v_main_v205 (F := F) (tmOf V0) := by
  unfold val5
  simp only [blk5]
  block_value [val4_main_v80]
set_option maxRecDepth 8192 in
set_option maxHeartbeats 4000000 in
theorem val5_main_v206 (V0 : Valuation τ sig (Elt F)) : val5 V0 (no_index (Proc.devRef .tc main_v206)) = Term.v_main_v206 (F := F) (tmOf V0) := by
  unfold val5
  simp only [blk5]
  block_value [val4_main_v83]
set_option maxRecDepth 8192 in
set_option maxHeartbeats 4000000 in
theorem val5_main_v207 (V0 : Valuation τ sig (Elt F)) : val5 V0 (no_index (Proc.devRef .tc main_v207)) = Term.v_main_v207 (F := F) (tmOf V0) := by
  unfold val5
  simp only [blk5]
  block_value [val4_main_v86]
set_option maxRecDepth 8192 in
set_option maxHeartbeats 4000000 in
theorem val5_main_v208 (V0 : Valuation τ sig (Elt F)) : val5 V0 (no_index (Proc.devRef .tc main_v208)) = Term.v_main_v208 (F := F) (tmOf V0) := by
  unfold val5
  simp only [blk5]
  block_value [val4_main_v89]
set_option maxRecDepth 8192 in
set_option maxHeartbeats 4000000 in
theorem val5_main_v209 (V0 : Valuation τ sig (Elt F)) : val5 V0 (no_index (Proc.devRef .tc main_v209)) = Term.v_main_v209 (F := F) (tmOf V0) := by
  unfold val5
  simp only [blk5]
  block_value [val4_main_v92]
set_option maxRecDepth 8192 in
set_option maxHeartbeats 4000000 in
theorem val5_main_v210 (V0 : Valuation τ sig (Elt F)) : val5 V0 (no_index (Proc.devRef .tc main_v210)) = Term.v_main_v210 (F := F) (tmOf V0) := by
  unfold val5
  simp only [blk5]
  block_value [val4_main_v95]
set_option maxRecDepth 8192 in
set_option maxHeartbeats 4000000 in
theorem val5_main_v211 (V0 : Valuation τ sig (Elt F)) : val5 V0 (no_index (Proc.devRef .tc main_v211)) = Term.v_main_v211 (F := F) (tmOf V0) := by
  unfold val5
  simp only [blk5]
  block_value [val4_main_v98]
set_option maxRecDepth 8192 in
set_option maxHeartbeats 4000000 in
theorem val5_main_v212 (V0 : Valuation τ sig (Elt F)) : val5 V0 (no_index (Proc.devRef .tc main_v212)) = Term.v_main_v212 (F := F) (tmOf V0) := by
  unfold val5
  simp only [blk5]
  block_value [val4_main_v101]
set_option maxRecDepth 8192 in
set_option maxHeartbeats 4000000 in
theorem val5_main_v213 (V0 : Valuation τ sig (Elt F)) : val5 V0 (no_index (Proc.devRef .tc main_v213)) = Term.v_main_v213 (F := F) (tmOf V0) := by
  unfold val5
  simp only [blk5]
  block_value [val4_main_v104]
set_option maxRecDepth 8192 in
set_option maxHeartbeats 4000000 in
theorem val5_main_v214 (V0 : Valuation τ sig (Elt F)) : val5 V0 (no_index (Proc.devRef .tc main_v214)) = Term.v_main_v214 (F := F) (tmOf V0) := by
  unfold val5
  simp only [blk5]
  block_value [val4_main_v107]
set_option maxRecDepth 8192 in
set_option maxHeartbeats 4000000 in
theorem val5_main_v215 (V0 : Valuation τ sig (Elt F)) : val5 V0 (no_index (Proc.devRef .tc main_v215)) = Term.v_main_v215 (F := F) (tmOf V0) := by
  unfold val5
  simp only [blk5]
  block_value [val4_main_v110]
set_option maxRecDepth 8192 in
set_option maxHeartbeats 4000000 in
theorem val5_main_v216 (V0 : Valuation τ sig (Elt F)) : val5 V0 (no_index (Proc.devRef .tc main_v216)) = Term.v_main_v216 (F := F) (tmOf V0) := by
  unfold val5
  simp only [blk5]
  block_value [val4_main_v113]
set_option maxRecDepth 8192 in
set_option maxHeartbeats 4000000 in
theorem val5_main_v217 (V0 : Valuation τ sig (Elt F)) : val5 V0 (no_index (Proc.devRef .tc main_v217)) = Term.v_main_v217 (F := F) (tmOf V0) := by
  unfold val5
  simp only [blk5]
  block_value [val4_main_v116]
set_option maxRecDepth 8192 in
set_option maxHeartbeats 4000000 in
theorem val5_main_v218 (V0 : Valuation τ sig (Elt F)) : val5 V0 (no_index (Proc.devRef .tc main_v218)) = Term.v_main_v218 (F := F) (tmOf V0) := by
  unfold val5
  simp only [blk5]
  block_value [val4_main_v119]
set_option maxRecDepth 8192 in
set_option maxHeartbeats 4000000 in
theorem val5_main_v219 (V0 : Valuation τ sig (Elt F)) : val5 V0 (no_index (Proc.devRef .tc main_v219)) = Term.v_main_v219 (F := F) (tmOf V0) := by
  unfold val5
  simp only [blk5]
  block_value [val4_main_v122]
set_option maxRecDepth 8192 in
set_option maxHeartbeats 4000000 in
theorem val5_main_v220 (V0 : Valuation τ sig (Elt F)) : val5 V0 (no_index (Proc.devRef .tc main_v220)) = Term.v_main_v220 (F := F) (tmOf V0) := by
  unfold val5
  simp only [blk5]
  block_value [val4_main_v125]
set_option maxRecDepth 8192 in
set_option maxHeartbeats 4000000 in
theorem val5_main_v221 (V0 : Valuation τ sig (Elt F)) : val5 V0 (no_index (Proc.devRef .tc main_v221)) = Term.v_main_v221 (F := F) (tmOf V0) := by
  unfold val5
  simp only [blk5]
  block_value [val4_main_v128]
set_option maxRecDepth 8192 in
set_option maxHeartbeats 4000000 in
theorem val5_main_v222 (V0 : Valuation τ sig (Elt F)) : val5 V0 (no_index (Proc.devRef .tc main_v222)) = Term.v_main_v222 (F := F) (tmOf V0) := by
  unfold val5
  simp only [blk5]
  block_value [val4_main_v131]
set_option maxRecDepth 8192 in
set_option maxHeartbeats 4000000 in
theorem val5_main_v223 (V0 : Valuation τ sig (Elt F)) : val5 V0 (no_index (Proc.devRef .tc main_v223)) = Term.v_main_v223 (F := F) (tmOf V0) := by
  unfold val5
  simp only [blk5]
  block_value [val4_main_v134]
set_option maxRecDepth 8192 in
set_option maxHeartbeats 4000000 in
theorem val5_main_v224 (V0 : Valuation τ sig (Elt F)) : val5 V0 (no_index (Proc.devRef .tc main_v224)) = Term.v_main_v224 (F := F) (tmOf V0) := by
  unfold val5
  simp only [blk5]
  block_value [val4_main_v137]
set_option maxRecDepth 8192 in
set_option maxHeartbeats 4000000 in
theorem val5_main_v225 (V0 : Valuation τ sig (Elt F)) : val5 V0 (no_index (Proc.devRef .tc main_v225)) = Term.v_main_v225 (F := F) (tmOf V0) := by
  unfold val5
  simp only [blk5]
  block_value [val4_main_v140]
set_option maxRecDepth 8192 in
set_option maxHeartbeats 4000000 in
theorem val5_main_v226 (V0 : Valuation τ sig (Elt F)) : val5 V0 (no_index (Proc.devRef .tc main_v226)) = Term.v_main_v226 (F := F) (tmOf V0) := by
  unfold val5
  simp only [blk5]
  block_value [val4_main_v143]
set_option maxRecDepth 8192 in
set_option maxHeartbeats 4000000 in
theorem val5_main_v227 (V0 : Valuation τ sig (Elt F)) : val5 V0 (no_index (Proc.devRef .tc main_v227)) = Term.v_main_v227 (F := F) (tmOf V0) := by
  unfold val5
  simp only [blk5]
  block_value [val4_main_v146]
set_option maxRecDepth 8192 in
set_option maxHeartbeats 4000000 in
theorem val5_main_v228 (V0 : Valuation τ sig (Elt F)) : val5 V0 (no_index (Proc.devRef .tc main_v228)) = Term.v_main_v228 (F := F) (tmOf V0) := by
  unfold val5
  simp only [blk5]
  block_value [val4_main_v149]
set_option maxRecDepth 8192 in
set_option maxHeartbeats 4000000 in
theorem val5_main_v229 (V0 : Valuation τ sig (Elt F)) : val5 V0 (no_index (Proc.devRef .tc main_v229)) = Term.v_main_v229 (F := F) (tmOf V0) := by
  unfold val5
  simp only [blk5]
  block_value [val4_main_v152]
set_option maxRecDepth 8192 in
set_option maxHeartbeats 4000000 in
theorem val5_main_v230 (V0 : Valuation τ sig (Elt F)) : val5 V0 (no_index (Proc.devRef .tc main_v230)) = Term.v_main_v230 (F := F) (tmOf V0) := by
  unfold val5
  simp only [blk5]
  block_value [val4_main_v155]
set_option maxRecDepth 8192 in
set_option maxHeartbeats 4000000 in
theorem val5_main_v231 (V0 : Valuation τ sig (Elt F)) : val5 V0 (no_index (Proc.devRef .tc main_v231)) = Term.v_main_v231 (F := F) (tmOf V0) := by
  unfold val5
  simp only [blk5]
  block_value [val4_main_v158]
set_option maxRecDepth 8192 in
set_option maxHeartbeats 4000000 in
theorem val5_main_v232 (V0 : Valuation τ sig (Elt F)) : val5 V0 (no_index (Proc.devRef .tc main_v232)) = Term.v_main_v232 (F := F) (tmOf V0) := by
  unfold val5
  simp only [blk5]
  block_value [val4_main_v161]
set_option maxRecDepth 8192 in
set_option maxHeartbeats 4000000 in
theorem val5_main_v233 (V0 : Valuation τ sig (Elt F)) : val5 V0 (no_index (Proc.devRef .tc main_v233)) = Term.v_main_v233 (F := F) (tmOf V0) := by
  unfold val5
  simp only [blk5]
  block_value [val4_main_v164]

end Cert.ReferenceIdeal.HandRun

end
-- ==== Proof.RefRunTab6.lean ====
/-
  Block 6 of the reference program's operations (operations 241 … 247 of 255, in the program's order), one row per
  operation; and the contents, after the block, of every buffer that a later block reads — the buffer's stage (its
  operation's function applied to the stages of the buffers it reads) at the arguments' contents —, one row per buffer.
-/
import proofs.«163241_j18760417149409_2_alg».proof.Proof.RefRunTab5

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 241 … 247 of 255. -/
abbrev blk6 : List (HloOp τ sig (Elt F)) :=
  [ unary main_v167 main_v234 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v170 main_v235 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v173 main_v236 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v176 main_v237 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v179 main_v238 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v182 main_v239 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)),
    unary main_v185 main_v240 (broadcastInDim S32768x1x4x4 ![0, 2, 3] bcast_S32768x4x4_S32768x1x4x4_0_2_3 : (⟨S32768x4x4, .f32⟩ : BufTy).Contents (Elt F) → (⟨S32768x1x4x4, .f32⟩ : BufTy).Contents (Elt F)) ]

set_option maxRecDepth 8192 in
theorem blk6_sub : (blk6 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub ..⟩

/-- The buffers block 6 writes. -/
abbrev blk6_W : List (Ref sig .tc) := [main_v234, main_v235, main_v236, main_v237, main_v238, main_v239, main_v240]
set_option maxRecDepth 8192 in
theorem blk6_writes : (blk6 : List (HloOp τ sig (Elt F))).Forall fun op => op.writes ⊆ (blk6_W.map (Proc.devRef (τ := τ) .tc)).toFinset := by
  simp only [List.Forall]; exact ⟨by writes_row, by writes_row, by writes_row, by writes_row, by writes_row, by writes_row, by writes_row⟩

/-- The buffers' contents after the first 6 blocks. -/
def val6 (V0 : Valuation τ sig (Elt F)) : Valuation τ sig (Elt F) := after blk6 (val5 V0)
theorem val6_keep (V0 : Valuation τ sig (Elt F)) (r : Ref sig .tc) (h : r ∉ blk6_W) :
    val6 V0 (Proc.devRef .tc r) = val5 V0 (Proc.devRef .tc r) :=
  after_of_writes_sub blk6 _ blk6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_v186 (V0 : Valuation τ sig (Elt F)) : val6 V0 (no_index (Proc.devRef .tc main_v186)) = Term.v_main_v186 (F := F) (tmOf V0) :=
  (val6_keep V0 main_v186 (by decide)).trans (val5_main_v186 V0)
theorem val6_main_v187 (V0 : Valuation τ sig (Elt F)) : val6 V0 (no_index (Proc.devRef .tc main_v187)) = Term.v_main_v187 (F := F) (tmOf V0) :=
  (val6_keep V0 main_v187 (by decide)).trans (val5_main_v187 V0)
theorem val6_main_v188 (V0 : Valuation τ sig (Elt F)) : val6 V0 (no_index (Proc.devRef .tc main_v188)) = Term.v_main_v188 (F := F) (tmOf V0) :=
  (val6_keep V0 main_v188 (by decide)).trans (val5_main_v188 V0)
theorem val6_main_v189 (V0 : Valuation τ sig (Elt F)) : val6 V0 (no_index (Proc.devRef .tc main_v189)) = Term.v_main_v189 (F := F) (tmOf V0) :=
  (val6_keep V0 main_v189 (by decide)).trans (val5_main_v189 V0)
theorem val6_main_v190 (V0 : Valuation τ sig (Elt F)) : val6 V0 (no_index (Proc.devRef .tc main_v190)) = Term.v_main_v190 (F := F) (tmOf V0) :=
  (val6_keep V0 main_v190 (by decide)).trans (val5_main_v190 V0)
theorem val6_main_v191 (V0 : Valuation τ sig (Elt F)) : val6 V0 (no_index (Proc.devRef .tc main_v191)) = Term.v_main_v191 (F := F) (tmOf V0) :=
  (val6_keep V0 main_v191 (by decide)).trans (val5_main_v191 V0)
theorem val6_main_v192 (V0 : Valuation τ sig (Elt F)) : val6 V0 (no_index (Proc.devRef .tc main_v192)) = Term.v_main_v192 (F := F) (tmOf V0) :=
  (val6_keep V0 main_v192 (by decide)).trans (val5_main_v192 V0)
theorem val6_main_v193 (V0 : Valuation τ sig (Elt F)) : val6 V0 (no_index (Proc.devRef .tc main_v193)) = Term.v_main_v193 (F := F) (tmOf V0) :=
  (val6_keep V0 main_v193 (by decide)).trans (val5_main_v193 V0)
theorem val6_main_v194 (V0 : Valuation τ sig (Elt F)) : val6 V0 (no_index (Proc.devRef .tc main_v194)) = Term.v_main_v194 (F := F) (tmOf V0) :=
  (val6_keep V0 main_v194 (by decide)).trans (val5_main_v194 V0)
theorem val6_main_v195 (V0 : Valuation τ sig (Elt F)) : val6 V0 (no_index (Proc.devRef .tc main_v195)) = Term.v_main_v195 (F := F) (tmOf V0) :=
  (val6_keep V0 main_v195 (by decide)).trans (val5_main_v195 V0)
theorem val6_main_v196 (V0 : Valuation τ sig (Elt F)) : val6 V0 (no_index (Proc.devRef .tc main_v196)) = Term.v_main_v196 (F := F) (tmOf V0) :=
  (val6_keep V0 main_v196 (by decide)).trans (val5_main_v196 V0)
theorem val6_main_v197 (V0 : Valuation τ sig (Elt F)) : val6 V0 (no_index (Proc.devRef .tc main_v197)) = Term.v_main_v197 (F := F) (tmOf V0) :=
  (val6_keep V0 main_v197 (by decide)).trans (val5_main_v197 V0)
theorem val6_main_v198 (V0 : Valuation τ sig (Elt F)) : val6 V0 (no_index (Proc.devRef .tc main_v198)) = Term.v_main_v198 (F := F) (tmOf V0) :=
  (val6_keep V0 main_v198 (by decide)).trans (val5_main_v198 V0)
theorem val6_main_v199 (V0 : Valuation τ sig (Elt F)) : val6 V0 (no_index (Proc.devRef .tc main_v199)) = Term.v_main_v199 (F := F) (tmOf V0) :=
  (val6_keep V0 main_v199 (by decide)).trans (val5_main_v199 V0)
theorem val6_main_v200 (V0 : Valuation τ sig (Elt F)) : val6 V0 (no_index (Proc.devRef .tc main_v200)) = Term.v_main_v200 (F := F) (tmOf V0) :=
  (val6_keep V0 main_v200 (by decide)).trans (val5_main_v200 V0)
theorem val6_main_v201 (V0 : Valuation τ sig (Elt F)) : val6 V0 (no_index (Proc.devRef .tc main_v201)) = Term.v_main_v201 (F := F) (tmOf V0) :=
  (val6_keep V0 main_v201 (by decide)).trans (val5_main_v201 V0)
theorem val6_main_v202 (V0 : Valuation τ sig (Elt F)) : val6 V0 (no_index (Proc.devRef .tc main_v202)) = Term.v_main_v202 (F := F) (tmOf V0) :=
  (val6_keep V0 main_v202 (by decide)).trans (val5_main_v202 V0)
theorem val6_main_v203 (V0 : Valuation τ sig (Elt F)) : val6 V0 (no_index (Proc.devRef .tc main_v203)) = Term.v_main_v203 (F := F) (tmOf V0) :=
  (val6_keep V0 main_v203 (by decide)).trans (val5_main_v203 V0)
theorem val6_main_v204 (V0 : Valuation τ sig (Elt F)) : val6 V0 (no_index (Proc.devRef .tc main_v204)) = Term.v_main_v204 (F := F) (tmOf V0) :=
  (val6_keep V0 main_v204 (by decide)).trans (val5_main_v204 V0)
theorem val6_main_v205 (V0 : Valuation τ sig (Elt F)) : val6 V0 (no_index (Proc.devRef .tc main_v205)) = Term.v_main_v205 (F := F) (tmOf V0) :=
  (val6_keep V0 main_v205 (by decide)).trans (val5_main_v205 V0)
theorem val6_main_v206 (V0 : Valuation τ sig (Elt F)) : val6 V0 (no_index (Proc.devRef .tc main_v206)) = Term.v_main_v206 (F := F) (tmOf V0) :=
  (val6_keep V0 main_v206 (by decide)).trans (val5_main_v206 V0)
theorem val6_main_v207 (V0 : Valuation τ sig (Elt F)) : val6 V0 (no_index (Proc.devRef .tc main_v207)) = Term.v_main_v207 (F := F) (tmOf V0) :=
  (val6_keep V0 main_v207 (by decide)).trans (val5_main_v207 V0)
theorem val6_main_v208 (V0 : Valuation τ sig (Elt F)) : val6 V0 (no_index (Proc.devRef .tc main_v208)) = Term.v_main_v208 (F := F) (tmOf V0) :=
  (val6_keep V0 main_v208 (by decide)).trans (val5_main_v208 V0)
theorem val6_main_v209 (V0 : Valuation τ sig (Elt F)) : val6 V0 (no_index (Proc.devRef .tc main_v209)) = Term.v_main_v209 (F := F) (tmOf V0) :=
  (val6_keep V0 main_v209 (by decide)).trans (val5_main_v209 V0)
theorem val6_main_v210 (V0 : Valuation τ sig (Elt F)) : val6 V0 (no_index (Proc.devRef .tc main_v210)) = Term.v_main_v210 (F := F) (tmOf V0) :=
  (val6_keep V0 main_v210 (by decide)).trans (val5_main_v210 V0)
theorem val6_main_v211 (V0 : Valuation τ sig (Elt F)) : val6 V0 (no_index (Proc.devRef .tc main_v211)) = Term.v_main_v211 (F := F) (tmOf V0) :=
  (val6_keep V0 main_v211 (by decide)).trans (val5_main_v211 V0)
theorem val6_main_v212 (V0 : Valuation τ sig (Elt F)) : val6 V0 (no_index (Proc.devRef .tc main_v212)) = Term.v_main_v212 (F := F) (tmOf V0) :=
  (val6_keep V0 main_v212 (by decide)).trans (val5_main_v212 V0)
theorem val6_main_v213 (V0 : Valuation τ sig (Elt F)) : val6 V0 (no_index (Proc.devRef .tc main_v213)) = Term.v_main_v213 (F := F) (tmOf V0) :=
  (val6_keep V0 main_v213 (by decide)).trans (val5_main_v213 V0)
theorem val6_main_v214 (V0 : Valuation τ sig (Elt F)) : val6 V0 (no_index (Proc.devRef .tc main_v214)) = Term.v_main_v214 (F := F) (tmOf V0) :=
  (val6_keep V0 main_v214 (by decide)).trans (val5_main_v214 V0)
theorem val6_main_v215 (V0 : Valuation τ sig (Elt F)) : val6 V0 (no_index (Proc.devRef .tc main_v215)) = Term.v_main_v215 (F := F) (tmOf V0) :=
  (val6_keep V0 main_v215 (by decide)).trans (val5_main_v215 V0)
theorem val6_main_v216 (V0 : Valuation τ sig (Elt F)) : val6 V0 (no_index (Proc.devRef .tc main_v216)) = Term.v_main_v216 (F := F) (tmOf V0) :=
  (val6_keep V0 main_v216 (by decide)).trans (val5_main_v216 V0)
theorem val6_main_v217 (V0 : Valuation τ sig (Elt F)) : val6 V0 (no_index (Proc.devRef .tc main_v217)) = Term.v_main_v217 (F := F) (tmOf V0) :=
  (val6_keep V0 main_v217 (by decide)).trans (val5_main_v217 V0)
theorem val6_main_v218 (V0 : Valuation τ sig (Elt F)) : val6 V0 (no_index (Proc.devRef .tc main_v218)) = Term.v_main_v218 (F := F) (tmOf V0) :=
  (val6_keep V0 main_v218 (by decide)).trans (val5_main_v218 V0)
theorem val6_main_v219 (V0 : Valuation τ sig (Elt F)) : val6 V0 (no_index (Proc.devRef .tc main_v219)) = Term.v_main_v219 (F := F) (tmOf V0) :=
  (val6_keep V0 main_v219 (by decide)).trans (val5_main_v219 V0)
theorem val6_main_v220 (V0 : Valuation τ sig (Elt F)) : val6 V0 (no_index (Proc.devRef .tc main_v220)) = Term.v_main_v220 (F := F) (tmOf V0) :=
  (val6_keep V0 main_v220 (by decide)).trans (val5_main_v220 V0)
theorem val6_main_v221 (V0 : Valuation τ sig (Elt F)) : val6 V0 (no_index (Proc.devRef .tc main_v221)) = Term.v_main_v221 (F := F) (tmOf V0) :=
  (val6_keep V0 main_v221 (by decide)).trans (val5_main_v221 V0)
theorem val6_main_v222 (V0 : Valuation τ sig (Elt F)) : val6 V0 (no_index (Proc.devRef .tc main_v222)) = Term.v_main_v222 (F := F) (tmOf V0) :=
  (val6_keep V0 main_v222 (by decide)).trans (val5_main_v222 V0)
theorem val6_main_v223 (V0 : Valuation τ sig (Elt F)) : val6 V0 (no_index (Proc.devRef .tc main_v223)) = Term.v_main_v223 (F := F) (tmOf V0) :=
  (val6_keep V0 main_v223 (by decide)).trans (val5_main_v223 V0)
theorem val6_main_v224 (V0 : Valuation τ sig (Elt F)) : val6 V0 (no_index (Proc.devRef .tc main_v224)) = Term.v_main_v224 (F := F) (tmOf V0) :=
  (val6_keep V0 main_v224 (by decide)).trans (val5_main_v224 V0)
theorem val6_main_v225 (V0 : Valuation τ sig (Elt F)) : val6 V0 (no_index (Proc.devRef .tc main_v225)) = Term.v_main_v225 (F := F) (tmOf V0) :=
  (val6_keep V0 main_v225 (by decide)).trans (val5_main_v225 V0)
theorem val6_main_v226 (V0 : Valuation τ sig (Elt F)) : val6 V0 (no_index (Proc.devRef .tc main_v226)) = Term.v_main_v226 (F := F) (tmOf V0) :=
  (val6_keep V0 main_v226 (by decide)).trans (val5_main_v226 V0)
theorem val6_main_v227 (V0 : Valuation τ sig (Elt F)) : val6 V0 (no_index (Proc.devRef .tc main_v227)) = Term.v_main_v227 (F := F) (tmOf V0) :=
  (val6_keep V0 main_v227 (by decide)).trans (val5_main_v227 V0)
theorem val6_main_v228 (V0 : Valuation τ sig (Elt F)) : val6 V0 (no_index (Proc.devRef .tc main_v228)) = Term.v_main_v228 (F := F) (tmOf V0) :=
  (val6_keep V0 main_v228 (by decide)).trans (val5_main_v228 V0)
theorem val6_main_v229 (V0 : Valuation τ sig (Elt F)) : val6 V0 (no_index (Proc.devRef .tc main_v229)) = Term.v_main_v229 (F := F) (tmOf V0) :=
  (val6_keep V0 main_v229 (by decide)).trans (val5_main_v229 V0)
theorem val6_main_v230 (V0 : Valuation τ sig (Elt F)) : val6 V0 (no_index (Proc.devRef .tc main_v230)) = Term.v_main_v230 (F := F) (tmOf V0) :=
  (val6_keep V0 main_v230 (by decide)).trans (val5_main_v230 V0)
theorem val6_main_v231 (V0 : Valuation τ sig (Elt F)) : val6 V0 (no_index (Proc.devRef .tc main_v231)) = Term.v_main_v231 (F := F) (tmOf V0) :=
  (val6_keep V0 main_v231 (by decide)).trans (val5_main_v231 V0)
theorem val6_main_v232 (V0 : Valuation τ sig (Elt F)) : val6 V0 (no_index (Proc.devRef .tc main_v232)) = Term.v_main_v232 (F := F) (tmOf V0) :=
  (val6_keep V0 main_v232 (by decide)).trans (val5_main_v232 V0)
theorem val6_main_v233 (V0 : Valuation τ sig (Elt F)) : val6 V0 (no_index (Proc.devRef .tc main_v233)) = Term.v_main_v233 (F := F) (tmOf V0) :=
  (val6_keep V0 main_v233 (by decide)).trans (val5_main_v233 V0)
set_option maxRecDepth 8192 in
set_option maxHeartbeats 4000000 in
theorem val6_main_v234 (V0 : Valuation τ sig (Elt F)) : val6 V0 (no_index (Proc.devRef .tc main_v234)) = Term.v_main_v234 (F := F) (tmOf V0) := by
  unfold val6
  simp only [blk6]
  block_value [val5_main_v167]
set_option maxRecDepth 8192 in
set_option maxHeartbeats 4000000 in
theorem val6_main_v235 (V0 : Valuation τ sig (Elt F)) : val6 V0 (no_index (Proc.devRef .tc main_v235)) = Term.v_main_v235 (F := F) (tmOf V0) := by
  unfold val6
  simp only [blk6]
  block_value [val5_main_v170]
set_option maxRecDepth 8192 in
set_option maxHeartbeats 4000000 in
theorem val6_main_v236 (V0 : Valuation τ sig (Elt F)) : val6 V0 (no_index (Proc.devRef .tc main_v236)) = Term.v_main_v236 (F := F) (tmOf V0) := by
  unfold val6
  simp only [blk6]
  block_value [val5_main_v173]
set_option maxRecDepth 8192 in
set_option maxHeartbeats 4000000 in
theorem val6_main_v237 (V0 : Valuation τ sig (Elt F)) : val6 V0 (no_index (Proc.devRef .tc main_v237)) = Term.v_main_v237 (F := F) (tmOf V0) := by
  unfold val6
  simp only [blk6]
  block_value [val5_main_v176]
set_option maxRecDepth 8192 in
set_option maxHeartbeats 4000000 in
theorem val6_main_v238 (V0 : Valuation τ sig (Elt F)) : val6 V0 (no_index (Proc.devRef .tc main_v238)) = Term.v_main_v238 (F := F) (tmOf V0) := by
  unfold val6
  simp only [blk6]
  block_value [val5_main_v179]
set_option maxRecDepth 8192 in
set_option maxHeartbeats 4000000 in
theorem val6_main_v239 (V0 : Valuation τ sig (Elt F)) : val6 V0 (no_index (Proc.devRef .tc main_v239)) = Term.v_main_v239 (F := F) (tmOf V0) := by
  unfold val6
  simp only [blk6]
  block_value [val5_main_v182]
set_option maxRecDepth 8192 in
set_option maxHeartbeats 4000000 in
theorem val6_main_v240 (V0 : Valuation τ sig (Elt F)) : val6 V0 (no_index (Proc.devRef .tc main_v240)) = Term.v_main_v240 (F := F) (tmOf V0) := by
  unfold val6
  simp only [blk6]
  block_value [val5_main_v185]

end Cert.ReferenceIdeal.HandRun

end
-- ==== Proof.RefRunTab7.lean ====
/-
  Block 7 of the reference program's operations (operations 248 … 251 of 255, in the program's order), one row per
  operation; and the contents, after the block, of every buffer that a later block reads — the buffer's stage (its
  operation's function applied to the stages of the buffers it reads) at the arguments' contents —, one row per buffer.
-/
import proofs.«163241_j18760417149409_2_alg».proof.Proof.RefRunTab6

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 248 … 251 of 255. -/
abbrev blk7 : List (HloOp τ sig (Elt F)) :=
  [ nary ![main_v186, main_v187, main_v188, main_v189, main_v190, main_v191, main_v192, main_v193, main_v194, main_v195, main_v196, main_v197, main_v198, main_v199, main_v200, main_v201] main_v241 (fun u => concatenate S32768x16x4x4 1 [⟨S32768x1x4x4, u 0⟩, ⟨S32768x1x4x4, u 1⟩, ⟨S32768x1x4x4, u 2⟩, ⟨S32768x1x4x4, u 3⟩, ⟨S32768x1x4x4, u 4⟩, ⟨S32768x1x4x4, u 5⟩, ⟨S32768x1x4x4, u 6⟩, ⟨S32768x1x4x4, u 7⟩, ⟨S32768x1x4x4, u 8⟩, ⟨S32768x1x4x4, u 9⟩, ⟨S32768x1x4x4, u 10⟩, ⟨S32768x1x4x4, u 11⟩, ⟨S32768x1x4x4, u 12⟩, ⟨S32768x1x4x4, u 13⟩, ⟨S32768x1x4x4, u 14⟩, ⟨S32768x1x4x4, u 15⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1),
    nary ![main_v202, main_v203, main_v204, main_v205, main_v206, main_v207, main_v208, main_v209, main_v210, main_v211, main_v212, main_v213, main_v214, main_v215, main_v216, main_v217] main_v242 (fun u => concatenate S32768x16x4x4 1 [⟨S32768x1x4x4, u 0⟩, ⟨S32768x1x4x4, u 1⟩, ⟨S32768x1x4x4, u 2⟩, ⟨S32768x1x4x4, u 3⟩, ⟨S32768x1x4x4, u 4⟩, ⟨S32768x1x4x4, u 5⟩, ⟨S32768x1x4x4, u 6⟩, ⟨S32768x1x4x4, u 7⟩, ⟨S32768x1x4x4, u 8⟩, ⟨S32768x1x4x4, u 9⟩, ⟨S32768x1x4x4, u 10⟩, ⟨S32768x1x4x4, u 11⟩, ⟨S32768x1x4x4, u 12⟩, ⟨S32768x1x4x4, u 13⟩, ⟨S32768x1x4x4, u 14⟩, ⟨S32768x1x4x4, u 15⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1),
    nary ![main_v218, main_v219, main_v220, main_v221, main_v222, main_v223, main_v224, main_v225, main_v226, main_v227, main_v228, main_v229, main_v230, main_v231, main_v232, main_v233] main_v243 (fun u => concatenate S32768x16x4x4 1 [⟨S32768x1x4x4, u 0⟩, ⟨S32768x1x4x4, u 1⟩, ⟨S32768x1x4x4, u 2⟩, ⟨S32768x1x4x4, u 3⟩, ⟨S32768x1x4x4, u 4⟩, ⟨S32768x1x4x4, u 5⟩, ⟨S32768x1x4x4, u 6⟩, ⟨S32768x1x4x4, u 7⟩, ⟨S32768x1x4x4, u 8⟩, ⟨S32768x1x4x4, u 9⟩, ⟨S32768x1x4x4, u 10⟩, ⟨S32768x1x4x4, u 11⟩, ⟨S32768x1x4x4, u 12⟩, ⟨S32768x1x4x4, u 13⟩, ⟨S32768x1x4x4, u 14⟩, ⟨S32768x1x4x4, u 15⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1),
    nary ![main_v234, main_v235, main_v236, main_v237, main_v238, main_v239, main_v240] main_v244 (fun u => concatenate S32768x7x4x4 1 [⟨S32768x1x4x4, u 0⟩, ⟨S32768x1x4x4, u 1⟩, ⟨S32768x1x4x4, u 2⟩, ⟨S32768x1x4x4, u 3⟩, ⟨S32768x1x4x4, u 4⟩, ⟨S32768x1x4x4, u 5⟩, ⟨S32768x1x4x4, u 6⟩] concatenates_S32768x1x4x4_S32768x1x4x4_S32768x1x4x4_S32768x1x4x4_S32768x1x4x4_S32768x1x4x4_S32768x1x4x4_S32768x7x4x4_d1) ]

set_option maxRecDepth 8192 in
theorem blk7_sub : (blk7 : List (HloOp τ sig (Elt F))).Forall fun op => op.bufs ⊆ tcRefs τ sig :=
  ⟨nary_bufs_sub .., nary_bufs_sub .., nary_bufs_sub .., nary_bufs_sub ..⟩

/-- The buffers block 7 writes. -/
abbrev blk7_W : List (Ref sig .tc) := [main_v241, main_v242, main_v243, main_v244]
set_option maxRecDepth 8192 in
theorem blk7_writes : (blk7 : List (HloOp τ sig (Elt F))).Forall fun op => op.writes ⊆ (blk7_W.map (Proc.devRef (τ := τ) .tc)).toFinset := by
  simp only [List.Forall]; exact ⟨by writes_row, by writes_row, by writes_row, by writes_row⟩

/-- The buffers' contents after the first 7 blocks. -/
def val7 (V0 : Valuation τ sig (Elt F)) : Valuation τ sig (Elt F) := after blk7 (val6 V0)
theorem val7_keep (V0 : Valuation τ sig (Elt F)) (r : Ref sig .tc) (h : r ∉ blk7_W) :
    val7 V0 (Proc.devRef .tc r) = val6 V0 (Proc.devRef .tc r) :=
  after_of_writes_sub blk7 _ blk7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
set_option maxRecDepth 8192 in
set_option maxHeartbeats 4000000 in
theorem val7_main_v241 (V0 : Valuation τ sig (Elt F)) : val7 V0 (no_index (Proc.devRef .tc main_v241)) = Term.v_main_v241 (F := F) (tmOf V0) := by
  unfold val7
  simp only [blk7]
  block_value [val6_main_v186, val6_main_v187, val6_main_v188, val6_main_v189, val6_main_v190, val6_main_v191, val6_main_v192, val6_main_v193, val6_main_v194, val6_main_v195, val6_main_v196, val6_main_v197, val6_main_v198, val6_main_v199, val6_main_v200, val6_main_v201]
set_option maxRecDepth 8192 in
set_option maxHeartbeats 4000000 in
theorem val7_main_v242 (V0 : Valuation τ sig (Elt F)) : val7 V0 (no_index (Proc.devRef .tc main_v242)) = Term.v_main_v242 (F := F) (tmOf V0) := by
  unfold val7
  simp only [blk7]
  block_value [val6_main_v202, val6_main_v203, val6_main_v204, val6_main_v205, val6_main_v206, val6_main_v207, val6_main_v208, val6_main_v209, val6_main_v210, val6_main_v211, val6_main_v212, val6_main_v213, val6_main_v214, val6_main_v215, val6_main_v216, val6_main_v217]
set_option maxRecDepth 8192 in
set_option maxHeartbeats 4000000 in
theorem val7_main_v243 (V0 : Valuation τ sig (Elt F)) : val7 V0 (no_index (Proc.devRef .tc main_v243)) = Term.v_main_v243 (F := F) (tmOf V0) := by
  unfold val7
  simp only [blk7]
  block_value [val6_main_v218, val6_main_v219, val6_main_v220, val6_main_v221, val6_main_v222, val6_main_v223, val6_main_v224, val6_main_v225, val6_main_v226, val6_main_v227, val6_main_v228, val6_main_v229, val6_main_v230, val6_main_v231, val6_main_v232, val6_main_v233]
set_option maxRecDepth 8192 in
set_option maxHeartbeats 4000000 in
theorem val7_main_v244 (V0 : Valuation τ sig (Elt F)) : val7 V0 (no_index (Proc.devRef .tc main_v244)) = Term.v_main_v244 (F := F) (tmOf V0) := by
  unfold val7
  simp only [blk7]
  block_value [val6_main_v234, val6_main_v235, val6_main_v236, val6_main_v237, val6_main_v238, val6_main_v239, val6_main_v240]

end Cert.ReferenceIdeal.HandRun

end
-- ==== Proof.RefRunTab8.lean ====
/-
  Block 8 of the reference program's operations (operations 252 … 255 of 255, in the program's order), one row per
  operation; and the contents, after the block, of every buffer that a later block reads — the buffer's stage (its
  operation's function applied to the stages of the buffers it reads) at the arguments' contents —, one row per buffer.
-/
import proofs.«163241_j18760417149409_2_alg».proof.Proof.RefRunTab7

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 252 … 255 of 255. -/
abbrev blk8 : List (HloOp τ sig (Elt F)) :=
  [ nary ![main_v241, main_v242, main_v243, main_v244] main_v245 (fun u => concatenate S32768x55x4x4 1 [⟨S32768x16x4x4, u 0⟩, ⟨S32768x16x4x4, u 1⟩, ⟨S32768x16x4x4, u 2⟩, ⟨S32768x7x4x4, u 3⟩] concatenates_S32768x16x4x4_S32768x16x4x4_S32768x16x4x4_S32768x7x4x4_S32768x55x4x4_d1),
    unary main_v245 main_v246 ((extractStridedSlice S32768x55x3x1 ![0, 0, 0, 3] · slices_S32768x55x4x4_S32768x55x3x1_0_0_0_3) : (⟨S32768x55x4x4, .f32⟩ : BufTy).Contents (Elt F) → (⟨S32768x55x3x1, .f32⟩ : BufTy).Contents (Elt F)),
    reshape main_v246 main_v247 rfl shapeCasts_S32768x55x3x1_S32768x55x3,
    reshape main_v247 main_v248 rfl shapeCasts_S32768x55x3_S16x2048x55x3 ]

set_option maxRecDepth 8192 in
theorem blk8_sub : (blk8 : List (HloOp τ sig (Elt F))).Forall fun op => op.bufs ⊆ tcRefs τ sig :=
  ⟨nary_bufs_sub .., unary_bufs_sub .., reshape_bufs_sub .., reshape_bufs_sub ..⟩

/-- The buffers block 8 writes. -/
abbrev blk8_W : List (Ref sig .tc) := [main_v245, main_v246, main_v247, main_v248]
set_option maxRecDepth 8192 in
theorem blk8_writes : (blk8 : List (HloOp τ sig (Elt F))).Forall fun op => op.writes ⊆ (blk8_W.map (Proc.devRef (τ := τ) .tc)).toFinset := by
  simp only [List.Forall]; exact ⟨by writes_row, by writes_row, by writes_row, by writes_row⟩

/-- The buffers' contents after the first 8 blocks. -/
def val8 (V0 : Valuation τ sig (Elt F)) : Valuation τ sig (Elt F) := after blk8 (val7 V0)
theorem val8_keep (V0 : Valuation τ sig (Elt F)) (r : Ref sig .tc) (h : r ∉ blk8_W) :
    val8 V0 (Proc.devRef .tc r) = val7 V0 (Proc.devRef .tc r) :=
  after_of_writes_sub blk8 _ blk8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
set_option maxRecDepth 8192 in
set_option maxHeartbeats 4000000 in
theorem val8_main_v248 (V0 : Valuation τ sig (Elt F)) : val8 V0 (no_index (Proc.devRef .tc main_v248)) = Term.v_main_v248 (F := F) (tmOf V0) := by
  unfold val8
  simp only [blk8]
  block_value [val7_main_v241, val7_main_v242, val7_main_v243, val7_main_v244]

end Cert.ReferenceIdeal.HandRun

end
-- ==== Proof.RefRunTab.lean ====
/-
  The reference program's windows as lists of operations — each window the blocks it is cut into, in order — and the
  whole program as the windows in order; one row per window.
-/
import proofs.«163241_j18760417149409_2_alg».proof.Proof.RefRunTab8

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of the printed program. -/
abbrev ops_part0 : List (HloOp τ sig (Elt F)) := blk1 ++ (blk2)
/-- The operations of window 1 of the printed program. -/
abbrev ops_part1 : List (HloOp τ sig (Elt F)) := blk3
/-- The operations of window 2 of the printed program. -/
abbrev ops_part2 : List (HloOp τ sig (Elt F)) := blk4
/-- The operations of window 3 of the printed program. -/
abbrev ops_part3 : List (HloOp τ sig (Elt F)) := blk5
/-- The operations of window 4 of the printed program. -/
abbrev ops_part4 : List (HloOp τ sig (Elt F)) := blk6 ++ (blk7 ++ (blk8))

/-- All 255 operations, in order. -/
abbrev ops : List (HloOp τ sig (Elt F)) := ops_part0 ++ (ops_part1 ++ (ops_part2 ++ (ops_part3 ++ (ops_part4))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl

end Cert.ReferenceIdeal.HandRun

end
-- ==== Proof.RefRun.lean ====
/-
  The reference program's run.

  The program is a straight line of 255 operations on the device's buffers.  Every weakly fair execution of it
  terminates, and leaves each buffer at the fold of the operations' results over the contents at the start; read
  block by block, that fold leaves the result buffer at its stage — the posed joints as a function of the array of
  local transforms, itself a function of the two argument arrays — and the argument buffers as they were.
-/
import proofs.«163241_j18760417149409_2_alg».proof.Proof.RefRunTab

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program is its operations run in order: window by window, then the windows in order. -/
theorem main_eq (c : Dev nD) : main (F := F) c = seq ops := by
  simp only [ops, seq_append, ← main_part0_eq c, ← main_part1_eq c, ← main_part2_eq c, ← main_part3_eq c, ← main_part4_eq c]
  rfl

/-- No buffer of the program is scoped. -/
theorem scopedRefs_eq : (Finset.univ.filter fun b : Ref sig .tc => b.isScoped) = ∅ := by decide
/-- Nor is any semaphore. -/
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  List.forall_iff_forall_mem.mpr fun op h => by
    simp only [ops, ops_part0, ops_part1, ops_part2, ops_part3, ops_part4, List.mem_append] at h
    rcases h with (h | h) | h | h | h | h | h | h
    exacts [List.forall_iff_forall_mem.mp blk1_sub op h, List.forall_iff_forall_mem.mp blk2_sub op h,
      List.forall_iff_forall_mem.mp blk3_sub op h, List.forall_iff_forall_mem.mp blk4_sub op h,
      List.forall_iff_forall_mem.mp blk5_sub op h, List.forall_iff_forall_mem.mp blk6_sub op h,
      List.forall_iff_forall_mem.mp blk7_sub op h, List.forall_iff_forall_mem.mp blk8_sub op h]

/-- The fold of all the operations is the fold of the blocks, one after the other. -/
theorem after_ops (V0 : Valuation τ sig (Elt F)) : after ops V0 = val8 V0 := by
  simp only [ops, ops_part0, ops_part1, ops_part2, ops_part3, ops_part4, after_append]
  rfl

/-- On every device, from any memory with zero counters: every weakly fair execution of the program terminates with
    the result buffer at the posed joints of the local transforms of the two arguments' contents, and the three
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v248)
          = Cert.ReferenceIdeal.Term.outOf (Cert.ReferenceIdeal.Term.tmats (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v248).trans (by rw [after_ops]; exact val8_main_v248 (launchContents m c)),
      (h c main_arg0).trans (by rw [after_ops]; exact val8_main_arg0 (launchContents m c)),
      (h c main_arg1).trans (by rw [after_ops]; exact val8_main_arg1 (launchContents m c)),
      (h c main_arg2).trans (by rw [after_ops]; exact val8_main_arg2 (launchContents m c))⟩)
    (run_seq scopedRefs_eq scopedSems_eq defs main (fun _ => ops) main_eq (fun _ => ops_sub) m ρ)

end Cert.ReferenceIdeal.HandRun

end
-- ==== Proof.Chain.lean ====
/-
  The kinematic chain, on the extended reals.

  A skeleton of 55 joints is a rooted tree: joint 0 is the root and every other joint `j` has a parent
  `parent j < j`.  Each joint carries a local rotation (a 3×3 matrix: given for the first 22 joints, the identity
  for the remaining 33) and a local offset (for the root its rest position, for any other joint its rest position
  minus its parent's).  Walking the tree from the root, joint `j`'s global rotation is its parent's global rotation
  times its own local rotation, and its global position is its parent's global rotation applied to its local offset,
  plus its parent's global position:

      C 0 = R 0,                 P 0 = rel 0,
      C j = C (parent j) · R j,  P j = C (parent j) · rel j + P (parent j).

  Every product is a sum of three terms written in the fixed order k = 0, 1, 2, so the recurrence is a definite
  expression in `+` and `*` of the extended reals; nothing below uses more of them than that they form a commutative
  monoid under each operation with `0 * x = 0`, `1 * x = x` and `x + 0 = x` — laws that hold at the infinities too.

  `posed` is the result as ONE function of the two argument arrays: sample `(b, t)`, joint `j`, coordinate `r`
  ↦ `P j r` for the rotations `motion[b, t, ·, ·, ·]` and the rest positions `J`.
-/
import Idealize.ShloMosaic.PureOps.Ideal
import Idealize.ShloMosaic.Lib.ValueIdx

noncomputable section

namespace Cert.Chain

open Idealize.ShloMosaic Idealize.ShloMosaic.ValueIdx

/-- The parent of each joint, joint 0 (the root) listed as its own parent. -/
def parentList : List ℕ :=
  [0, 0, 0, 0, 1, 2, 3, 4, 5, 6, 7, 8, 9, 9, 9, 12, 13, 14, 16, 17, 18, 19, 15, 15, 15, 20, 25, 26, 20, 28, 29, 20, 31, 32, 20, 34, 35, 20, 37, 38, 21, 40, 41, 21, 43, 44, 21, 46, 47, 21, 49, 50, 21, 52, 53]

/-- The parent of joint `j` (`0` for the root and beyond the last joint). -/
def parent (j : ℕ) : ℕ := parentList.getD j 0

/-- A joint other than the root comes after its parent. -/
theorem parent_lt (j : ℕ) : parent (j + 1) < j + 1 := by
  by_cases h : j < 54
  · have : ∀ i : Fin 54, parentList.getD (i.val + 1) 0 < i.val + 1 := by decide
    exact this ⟨j, h⟩
  · have hlen : parentList.length ≤ j + 1 := by
      have : parentList.length = 55 := rfl
      omega
    unfold parent
    rw [List.getD_eq_getElem?_getD, List.getElem?_eq_none hlen]
    simp

variable (M : ℕ → Fin 3 → Fin 3 → EReal) (L : ℕ → Fin 3 → EReal)

/-- A joint's local rotation: the given matrix for the first 22 joints, the identity after them. -/
def rot (j : ℕ) (a b : Fin 3) : EReal := if j < 22 then M j a b else if a = b then 1 else 0

/-- A joint's local offset from the rest positions `J`: the root's rest position, any other joint's rest position
    minus its parent's. -/
def rel (J : ℕ → Fin 3 → EReal) (j : ℕ) (k : Fin 3) : EReal := if j = 0 then J 0 k else J j k - J (parent j) k

/-- Global rotation and global position of joint `j` for local rotations `rot M` and local offsets `L`, walking the
    tree from the root. -/
def glob : ℕ → (Fin 3 → Fin 3 → EReal) × (Fin 3 → EReal)
  | 0 => (rot M 0, L 0)
  | j + 1 =>
    have := parent_lt j
    let g := glob (parent (j + 1))
    (fun r c => g.1 r 0 * rot M (j + 1) 0 c + g.1 r 1 * rot M (j + 1) 1 c + g.1 r 2 * rot M (j + 1) 2 c,
     fun r => g.1 r 0 * L (j + 1) 0 + g.1 r 1 * L (j + 1) 1 + g.1 r 2 * L (j + 1) 2 + g.2 r)
termination_by j => j

/-- The root: its own rotation and its rest position. -/
theorem glob_zero : glob M L 0 = (rot M 0, L 0) := by
  rw [glob]

/-- A joint other than the root, from its parent. -/
theorem glob_succ (j : ℕ) : glob M L (j + 1) =
    (fun r c => (glob M L (parent (j + 1))).1 r 0 * rot M (j + 1) 0 c + (glob M L (parent (j + 1))).1 r 1 * rot M (j + 1) 1 c
        + (glob M L (parent (j + 1))).1 r 2 * rot M (j + 1) 2 c,
     fun r => (glob M L (parent (j + 1))).1 r 0 * L (j + 1) 0 + (glob M L (parent (j + 1))).1 r 1 * L (j + 1) 1
        + (glob M L (parent (j + 1))).1 r 2 * L (j + 1) 2 + (glob M L (parent (j + 1))).2 r) := by
  rw [glob]

/-- The global rotation of joint `j + 1` at an entry. -/
theorem glob_succ_rot (j : ℕ) (r c : Fin 3) : (glob M L (j + 1)).1 r c =
    (glob M L (parent (j + 1))).1 r 0 * rot M (j + 1) 0 c + (glob M L (parent (j + 1))).1 r 1 * rot M (j + 1) 1 c
      + (glob M L (parent (j + 1))).1 r 2 * rot M (j + 1) 2 c := by
  rw [glob_succ]

/-- The global position of joint `j + 1` at a coordinate. -/
theorem glob_succ_pos (j : ℕ) (r : Fin 3) : (glob M L (j + 1)).2 r =
    (glob M L (parent (j + 1))).1 r 0 * L (j + 1) 0 + (glob M L (parent (j + 1))).1 r 1 * L (j + 1) 1
      + (glob M L (parent (j + 1))).1 r 2 * L (j + 1) 2 + (glob M L (parent (j + 1))).2 r := by
  rw [glob_succ]

/-- A joint whose local rotation is the identity has its parent's global rotation: in each sum two products are with
    `0` and one with `1`. -/
theorem glob_succ_rot_of_ge (j : ℕ) (h : 22 ≤ j + 1) (r c : Fin 3) :
    (glob M L (j + 1)).1 r c = (glob M L (parent (j + 1))).1 r c := by
  rw [glob_succ_rot]
  have hn : ¬ j + 1 < 22 := by omega
  simp only [rot, hn, if_false]
  fin_cases c <;> simp

/-- Joint `j`'s local transform in homogeneous form, the 4×4 matrix with the local rotation in its upper left 3×3
    block, the local offset in its last column and `(0, 0, 0, 1)` as its last row. -/
def tmat (j : ℕ) (a b : Fin 4) : EReal :=
  if ha : a.val < 3 then
    (if hb : b.val < 3 then rot M j ⟨a.val, ha⟩ ⟨b.val, hb⟩ else L j ⟨a.val, ha⟩)
  else (if b.val = 3 then 1 else 0)

/-- The arrays' shapes. -/
abbrev SMotion : Shape := ⟨5, ![16, 2048, 22, 3, 3]⟩
abbrev SRest : Shape := ⟨2, ![55, 3]⟩
abbrev SPosed : Shape := ⟨4, ![16, 2048, 55, 3]⟩

/-- The local rotations of sample `(b, t)` read off the array `motion` (entries beyond joint 21 are never read). -/
def motionAt (x : SMotion.Idx → EReal) (b : Fin 16) (t : Fin 2048) (j : ℕ) (a c : Fin 3) : EReal :=
  if h : j < 22 then x (ix5 b t ⟨j, h⟩ a c) else 0

/-- The rest positions read off the array `J`. -/
def restAt (y : SRest.Idx → EReal) (j : ℕ) (k : Fin 3) : EReal :=
  if h : j < 55 then y (ix2 ⟨j, h⟩ k) else 0

/-- The posed joints as one function of the two argument arrays: entry `(b, t, j, r)` is coordinate `r` of joint
    `j`'s global position for the rotations of sample `(b, t)`. -/
def posed (x : SMotion.Idx → EReal) (y : SRest.Idx → EReal) : SPosed.Idx → EReal := fun i =>
  (glob (motionAt x (i 0) (i 1)) (rel (restAt y)) (i 2).val).2 (i 3)

/-- The same entry by the flat sample number `n = 2048 b + t`. -/
def motionAtN (x : SMotion.Idx → EReal) (n : Fin 32768) : ℕ → Fin 3 → Fin 3 → EReal :=
  motionAt x ⟨n.val / 2048, by have := n.isLt; omega⟩ ⟨n.val % 2048, Nat.mod_lt _ (by norm_num)⟩

/-- One sample's rotations read off a row of the array flattened to 198 columns: entry `(a, c)` of joint `j`'s
    matrix sits at column `9 j + 3 a + c`. -/
def rowRot (row : Fin 198 → EReal) (j : ℕ) (a c : Fin 3) : EReal :=
  if h : 9 * j + 3 * a.val + c.val < 198 then row ⟨9 * j + 3 * a.val + c.val, h⟩ else 0

/-- The local offsets read off a 3 × 55 table whose column `j` is joint `j`'s offset. -/
def colOff (tbl : Fin 3 → Fin 55 → EReal) (j : ℕ) (k : Fin 3) : EReal :=
  if h : j < 55 then tbl k ⟨j, h⟩ else 0

/-- What one block of 4096 samples is mapped to: row `n` of the block of rotations (198 columns) and the table of
    local offsets give, at column `3 j + r`, coordinate `r` of joint `j`'s global position. -/
def bodySpec (x0 : (⟨2, ![4096, 198]⟩ : Shape).Idx → EReal) (x1 : (⟨2, ![3, 55]⟩ : Shape).Idx → EReal) :
    (⟨2, ![4096, 165]⟩ : Shape).Idx → EReal := fun i =>
  (glob (rowRot fun q => x0 (ix2 (i 0) q)) (colOff fun k j => x1 (ix2 k j)) ((i 1).val / 3)).2
    ⟨(i 1).val % 3, Nat.mod_lt _ (by norm_num)⟩

theorem posed_apply (x : SMotion.Idx → EReal) (y : SRest.Idx → EReal) (b : Fin 16) (t : Fin 2048) (j : Fin 55) (r : Fin 3) :
    posed x y (ix4 b t j r) = (glob (motionAt x b t) (rel (restAt y)) j.val).2 r := rfl

end Cert.Chain

end
-- ==== Proof.RefLocal.lean ====
/-
  The reference's local transforms, read at an index.

  From the rotations `x` (16 × 2048 samples, 22 joints, 3 × 3) and the rest positions `y` (55 joints, 3 coordinates) the
  reference first assembles, for every sample `n = 2048 b + t` and every joint `j`, the 4 × 4 homogeneous matrix of the
  joint's local transform: the local rotation in the upper left 3 × 3 block (the given one for the first 22 joints, the
  identity after them), the local offset in the last column (the root's rest position; for any other joint its rest
  position plus the negative of its parent's, which on the extended reals is their difference), and `(0, 0, 0, 1)` as
  the last row.  This file reads that array entry by entry: `tmats_apply`.

  The assembly is a chain of layout operations (a reshape, broadcasts, concatenations), one gather of the parents' rows
  and one accumulating scatter at the single row offset 1.  Each is read at an index by one lemma; the scatter, which is
  defined as a fold over all update positions, by a general fact about folds of point updates in which at most one
  position targets the point read.
-/
import proofs.«163241_j18760417149409_2_alg».proof.Proof.RefTerm
import proofs.«163241_j18760417149409_2_alg».proof.Proof.Chain
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.Local

open Idealize.ShloMosaic Idealize.ShloMosaic.ValueIdx Cert.ReferenceIdeal Cert.ReferenceIdeal.Term

/-! ## A fold of point updates, read at a point

A scatter is a left fold, over the update positions in some order, of the step "replace the element at the position's
target by its combination with the position's update; do nothing when the position has no target".  Read at one point
the fold is easy to describe when at most one position targets the point. -/

section Fold

variable {ι β α : Type} [DecidableEq ι] (g : β → Option ι) (v : β → α) (f : α → α → α)
  (step : (ι → α) → β → (ι → α))
  (hnone : ∀ r n, g n = none → step r n = r)
  (hsome : ∀ r n i, g n = some i → step r n = fun j => if j = i then f (r i) (v n) else r j)

include hnone hsome

/-- No position of the list targets the point: the fold leaves it alone. -/
theorem foldl_update_of_forall_ne (L : List β) (x : ι → α) (i' : ι) (h : ∀ n ∈ L, g n ≠ some i') :
    (L.foldl step x) i' = x i' := by
  induction L generalizing x with
  | nil => rfl
  | cons a L ih =>
    rw [List.foldl_cons, ih _ (fun n hn => h n (List.mem_cons_of_mem _ hn))]
    have ha := h a List.mem_cons_self
    cases hga : g a with
    | none => rw [hnone _ _ hga]
    | some i =>
      have hne : i' ≠ i := fun e => ha (by rw [hga, e])
      rw [hsome _ _ _ hga]
      exact if_neg hne

/-- Exactly one position of a list without repeats targets the point: the fold combines the point's element with that
    position's update, once. -/
theorem foldl_update_of_unique (L : List β) (hL : L.Nodup) (x : ι → α) (i' : ι) (n₀ : β) (h₀ : n₀ ∈ L)
    (hg : g n₀ = some i') (hu : ∀ n ∈ L, g n = some i' → n = n₀) :
    (L.foldl step x) i' = f (x i') (v n₀) := by
  induction L generalizing x with
  | nil => exact absurd h₀ (List.not_mem_nil)
  | cons a L ih =>
    rw [List.foldl_cons]
    have hnd := List.nodup_cons.mp hL
    by_cases ha : a = n₀
    · subst ha
      rw [foldl_update_of_forall_ne g v f step hnone hsome L _ i'
        (fun n hn hgn => hnd.1 (by rw [← hu n (List.mem_cons_of_mem _ hn) hgn]; exact hn))]
      rw [hsome _ _ _ hg]
      exact if_pos rfl
    · have hmem : n₀ ∈ L := by
        rcases List.mem_cons.mp h₀ with e | e
        · exact absurd e.symm ha
        · exact e
      rw [ih hnd.2 _ hmem (fun n hn => hu n (List.mem_cons_of_mem _ hn))]
      congr 1
      cases hga : g a with
      | none => rw [hnone _ _ hga]
      | some i =>
        have hne : i' ≠ i := fun e => ha (hu a List.mem_cons_self (by rw [hga, e]))
        rw [hsome _ _ _ hga]
        exact if_neg hne

end Fold

/-! ## The two index operations of the offsets: a gather of rows and an accumulating scatter at one index -/

section Indexing

variable [Facts₀]
open Facts₀

/-- The gather's dimension numbers. -/
local notation "gd" => gather_S32768x55x3_S54x1_S32768x54x3_02_1_n_n_1_1_3276813
/-- The scatter's dimension numbers. -/
local notation "sd" => scatter_S32768x55x3_S1_S32768x54x3_012_n_1_0

/-- THE ROW GATHER READ AT `(n, e, k)`: the operand at sample `n`, coordinate `k`, and the row the start index
    `idx[e, 0]` names, read signed and clamped into `[0, 54]`. -/
theorem gather_rows_apply {α : Type} {w : Nat} (X : S32768x55x3.Idx → α) (idx : IVec S54x1 w)
    (n : Fin 32768) (e : Fin 54) (k : Fin 3) :
    Host.gather gd X idx (ix3 n e k)
      = X (ix3 n (⟨min (idx (ix2 e (0 : Fin 1))).toInt.toNat 54, by omega⟩ : Fin 55) k) := by
  unfold Host.gather
  congr 1
  funext a
  refine Fin.ext ?_
  show (gd).start (ix3 n e k) idx a + (gd).batchCoord (ix3 n e k) a + (gd).offCoord (ix3 n e k) a = _
  rw [GatherDims.batchCoord_eq_zero _ _ _ List.not_mem_nil]
  match a with
  | ⟨0, h0⟩ =>
    have hs : (gd).start (ix3 n e k) idx ⟨0, h0⟩ = 0 := by
      unfold GatherDims.start
      split
      · rename_i ha
        exact absurd (congrArg Fin.val (List.mem_singleton.mp ha) : (0 : ℕ) = 1) Nat.zero_ne_one
      · rfl
    have ho : (gd).offCoord (ix3 n e k) ⟨0, h0⟩ = n.val := by
      unfold GatherDims.offCoord
      split
      · rfl
      · rename_i ha
        exact absurd ((GatherDims.mem_sKept _ _).mpr
          ⟨fun hm => absurd (congrArg Fin.val (List.mem_singleton.mp hm) : (0 : ℕ) = 1) Nat.zero_ne_one, List.not_mem_nil⟩) ha
    rw [hs, ho]; show 0 + 0 + n.val = n.val; omega
  | ⟨1, h1⟩ =>
    rw [GatherDims.offCoord_eq_zero _ _ _ (fun h => ((GatherDims.mem_sKept _ _).mp h).1 (List.mem_singleton.mpr rfl))]
    simp only [Nat.add_zero]
    unfold GatherDims.start
    split
    · rename_i ha
      have hsi : (gd).siIdx (ix3 n e k) ⟨List.idxOf (⟨1, h1⟩ : Fin 3) (gd).startIndexMap,
          List.idxOf_lt_length_iff.2 ha⟩ = ix2 e (0 : Fin 1) := by
        funext b; refine Fin.ext ?_
        match b with
        | ⟨0, _⟩ => rfl
        | ⟨1, _⟩ => rfl
      rw [hsi]
      rfl
    · rename_i ha
      exact absurd (List.mem_singleton.mpr rfl) ha
  | ⟨2, h2⟩ =>
    have hs : (gd).start (ix3 n e k) idx ⟨2, h2⟩ = 0 := by
      unfold GatherDims.start
      split
      · rename_i ha
        have h21 : (2 : ℕ) = 1 := congrArg Fin.val (List.mem_singleton.mp ha)
        exact absurd h21 (by decide)
      · rfl
    have ho : (gd).offCoord (ix3 n e k) ⟨2, h2⟩ = k.val := by
      unfold GatherDims.offCoord
      split
      · rfl
      · rename_i ha
        exact absurd ((GatherDims.mem_sKept _ _).mpr
          ⟨fun hm => by
            have h21 : (2 : ℕ) = 1 := congrArg Fin.val (List.mem_singleton.mp hm)
            exact absurd h21 (by decide), List.not_mem_nil⟩) ha
    rw [hs, ho]; show 0 + 0 + k.val = k.val; omega

end Indexing

section Scatter

variable [Facts₀]
open Facts₀

local notation "sd" => scatter_S32768x55x3_S1_S32768x54x3_012_n_1_0

variable {w : Nat} (idx : IVec S1 w) (j : S32768x54x3.Idx)

/-- Only the joint axis has a start: the one scatter index, read signed. -/
theorem scatter_start (a : Fin 3) : (sd).start j idx a = if a = 1 then (idx (ix1 (0 : Fin 1))).toInt else 0 := by
  match a with
  | ⟨0, h0⟩ =>
    unfold ScatterDims.start
    split
    · rename_i ha
      exact absurd (congrArg Fin.val (List.mem_singleton.mp ha) : (0 : ℕ) = 1) Nat.zero_ne_one
    · rfl
  | ⟨1, h1⟩ =>
    unfold ScatterDims.start
    split
    · rename_i ha
      have hsi : (sd).siIdx j ⟨List.idxOf (⟨1, h1⟩ : Fin 3) (sd).scatterDimsToOperandDims,
          List.idxOf_lt_length_iff.2 ha⟩ = ix1 (0 : Fin 1) := by
        funext b; refine Fin.ext ?_
        match b with
        | ⟨0, _⟩ => rfl
      rw [hsi]; rfl
    · rename_i ha
      exact absurd (List.mem_singleton.mpr rfl) ha
  | ⟨2, h2⟩ =>
    unfold ScatterDims.start
    split
    · rename_i ha
      have h21 : (2 : ℕ) = 1 := congrArg Fin.val (List.mem_singleton.mp ha)
      exact absurd h21 (by decide)
    · rfl

/-- Every axis is a window axis: the update's own coordinate. -/
theorem scatter_window (a : Fin 3) : (sd).window j a = (j a).val := by
  have hk : ∀ a : Fin 3, a ∈ (sd).sKept := by
    intro a
    simp [ScatterDims.sKept, Shape.kept, List.mem_filter, List.mem_finRange, scatter_S32768x55x3_S1_S32768x54x3_012_n_1_0]
  match a with
  | ⟨0, h0⟩ =>
    unfold ScatterDims.window
    split
    · rfl
    · rename_i ha; exact absurd (hk _) ha
  | ⟨1, h1⟩ =>
    unfold ScatterDims.window
    split
    · rfl
    · rename_i ha; exact absurd (hk _) ha
  | ⟨2, h2⟩ =>
    unfold ScatterDims.window
    split
    · rfl
    · rename_i ha; exact absurd (hk _) ha

/-- WHERE AN UPDATE LANDS when the scatter index is one: update entry `(n, e, k)` lands on operand entry
    `(n, e + 1, k)`, always inside the operand. -/
theorem scatter_resultIdx?_eq_some_iff (h1 : (idx (ix1 (0 : Fin 1))).toInt = 1) (i : S32768x55x3.Idx) :
    (sd).resultIdx? j idx = some i ↔ (j 0).val = (i 0).val ∧ (j 1).val + 1 = (i 1).val ∧ (j 2).val = (i 2).val := by
  have hj0 : (j 0).val < 32768 := (j 0).isLt
  have hj1 : (j 1).val < 54 := (j 1).isLt
  have hj2 : (j 2).val < 3 := (j 2).isLt
  unfold ScatterDims.resultIdx?
  split
  · rename_i h
    constructor
    · intro he
      have he' := congrFun (Option.some.inj he)
      have e0 := congrArg Fin.val (he' 0)
      have e1 := congrArg Fin.val (he' 1)
      have e2 := congrArg Fin.val (he' 2)
      simp only [scatter_start, scatter_window, h1] at e0 e1 e2
      simp at e0 e1 e2
      refine ⟨by omega, by omega, by omega⟩
    · rintro ⟨e0, e1, e2⟩
      refine congrArg some (funext fun a => Fin.ext ?_)
      show ((sd).start j idx a + ((sd).window j a : ℤ)).toNat = (i a).val
      rw [scatter_start, scatter_window, h1]
      match a with
      | ⟨0, _⟩ => simp; exact e0
      | ⟨1, _⟩ => simp; omega
      | ⟨2, _⟩ => simp; exact e2
  · rename_i h
    have hs0 : (sd).start j idx 0 = 0 := by rw [scatter_start]; rfl
    have hs1 : (sd).start j idx 1 = 1 := by rw [scatter_start, h1]; rfl
    have hs2 : (sd).start j idx 2 = 0 := by rw [scatter_start]; rfl
    refine absurd (fun a => ?_) h
    match a with
    | ⟨0, _⟩ =>
      show 0 ≤ (sd).start j idx 0 + ((sd).window j 0 : ℤ) ∧ (sd).start j idx 0 + ((sd).window j 0 : ℤ) < (32768 : ℤ)
      rw [hs0, scatter_window]; omega
    | ⟨1, _⟩ =>
      show 0 ≤ (sd).start j idx 1 + ((sd).window j 1 : ℤ) ∧ (sd).start j idx 1 + ((sd).window j 1 : ℤ) < (55 : ℤ)
      rw [hs1, scatter_window]; omega
    | ⟨2, _⟩ =>
      show 0 ≤ (sd).start j idx 2 + ((sd).window j 2 : ℤ) ∧ (sd).start j idx 2 + ((sd).window j 2 : ℤ) < (3 : ℤ)
      rw [hs2, scatter_window]; omega

end Scatter

section ScatterApply

variable [Facts₀]
open Facts₀

local notation "sd" => scatter_S32768x55x3_S1_S32768x54x3_012_n_1_0

/-- THE SCATTER AT THE ONE INDEX `1`, READ AT `(n, j, k)`: row `0` of the operand is left alone, row `j ≥ 1` is
    combined with row `j - 1` of the updates. -/
theorem scatter_one_apply {α : Type} {w : Nat} (f : α → α → α) (X : S32768x55x3.Idx → α) (idx : IVec S1 w)
    (upd : S32768x54x3.Idx → α) (h1 : (idx (ix1 (0 : Fin 1))).toInt = 1) (n : Fin 32768) (jj : Fin 55) (k : Fin 3) :
    Host.scatter sd f X idx upd (ix3 n jj k)
      = if h : jj.val = 0 then X (ix3 n jj k)
        else f (X (ix3 n jj k)) (upd (ix3 n (⟨jj.val - 1, by omega⟩ : Fin 54) k)) := by
  unfold Host.scatter
  split
  · rename_i h0
    refine foldl_update_of_forall_ne (fun m => (sd).resultIdx? (S32768x54x3.rowMajor.symm m) idx)
      (fun m => upd (S32768x54x3.rowMajor.symm m)) f _
      (fun r m h => by beta_reduce at h; rw [h]) (fun r m i h => by beta_reduce at h; rw [h])
      (List.finRange S32768x54x3.numel) X _ (fun m _ hm => ?_)
    have h := ((scatter_resultIdx?_eq_some_iff idx _ h1 _).mp hm).2.1
    have h' : (S32768x54x3.rowMajor.symm m 1).val + 1 = jj.val := h
    omega
  · rename_i h0
    refine (foldl_update_of_unique (fun m => (sd).resultIdx? (S32768x54x3.rowMajor.symm m) idx)
      (fun m => upd (S32768x54x3.rowMajor.symm m)) f _
      (fun r m h => by beta_reduce at h; rw [h]) (fun r m i h => by beta_reduce at h; rw [h])
      (List.finRange S32768x54x3.numel) (List.nodup_finRange _) X _
      (S32768x54x3.rowMajor (ix3 n (⟨jj.val - 1, by omega⟩ : Fin 54) k)) (List.mem_finRange _) ?_ ?_).trans ?_
    · show (sd).resultIdx? (S32768x54x3.rowMajor.symm (S32768x54x3.rowMajor _)) idx = some _
      rw [Equiv.symm_apply_apply]
      refine (scatter_resultIdx?_eq_some_iff idx _ h1 _).mpr ⟨rfl, ?_, rfl⟩
      show jj.val - 1 + 1 = jj.val
      omega
    · intro m _ hm
      have h := (scatter_resultIdx?_eq_some_iff idx _ h1 _).mp hm
      have e0 : (S32768x54x3.rowMajor.symm m 0).val = n.val := h.1
      have e1 : (S32768x54x3.rowMajor.symm m 1).val + 1 = jj.val := h.2.1
      have e2 : (S32768x54x3.rowMajor.symm m 2).val = k.val := h.2.2
      rw [← Equiv.symm_apply_eq]
      funext a
      refine Fin.ext ?_
      match a with
      | ⟨0, _⟩ => exact e0
      | ⟨1, _⟩ => show (S32768x54x3.rowMajor.symm m 1).val = jj.val - 1; omega
      | ⟨2, _⟩ => exact e2
    · show f _ (upd (S32768x54x3.rowMajor.symm (S32768x54x3.rowMajor _))) = _
      rw [Equiv.symm_apply_apply]

end ScatterApply

/-! ## The stages, read at an index -/

section Stages

variable [Facts]
open Facts₀ Facts

/-- The rotations reshaped to one sample axis: sample `n` is `(n / 2048, n % 2048)`. -/
theorem v0_apply (x : FVec Ideal S16x2048x22x3x3 .f32) (n : Fin 32768) (j : Fin 22) (a c : Fin 3) :
    v_main_v0 (F := Ideal) x (ix4 n j a c)
      = x (ix5 (⟨n.val / 2048, by have := n.isLt; omega⟩ : Fin 16)
          (⟨n.val % 2048, Nat.mod_lt _ (by norm_num)⟩ : Fin 2048) j a c) := by
  unfold v_main_v0
  refine shapeCast_apply _ _ _ _ ?_
  rw [Shape.rowMajor_val_five, Shape.rowMajor_val_four]
  show ((((n.val / 2048) * 2048 + n.val % 2048) * 22 + j.val) * 3 + a.val) * 3 + c.val
    = ((n.val * 22 + j.val) * 3 + a.val) * 3 + c.val
  rw [Nat.div_add_mod']

/-- The 3×3 identity: the word of `row = column` read as an unsigned integer. -/
theorem v6_apply (a c : Fin 3) : v_main_v6 (F := Ideal) (ix2 a c) = if a = c then 1 else 0 := by
  have hw : ∀ a c : Fin 3, IntOp.cmpi .eq (IntOp.addi (BitVec.ofNat 32 a.val) 0#32) (BitVec.ofNat 32 c.val)
      = if a = c then 1#1 else 0#1 := by decide
  show (((IntOp.cmpi .eq (IntOp.addi (BitVec.ofNat 32 a.val) 0#32) (BitVec.ofNat 32 c.val)).toNat : ℝ) : EReal) = _
  rw [hw]
  split <;> simp

/-- The identity broadcast over samples and the last 33 joints. -/
theorem v7_apply (n : Fin 32768) (j : Fin 33) (a c : Fin 3) :
    v_main_v7 (F := Ideal) (ix4 n j a c) = if a = c then 1 else 0 := by
  unfold v_main_v7
  rw [broadcastInDim_apply _ _ _ (ix4 n j a c) (ix2 a c) (fun b => by
    match b with
    | ⟨0, _⟩ => rfl
    | ⟨1, _⟩ => rfl)]
  exact v6_apply a c

/-- All 55 local rotations: the given ones, then identities. -/
theorem v8_apply (x : FVec Ideal S16x2048x22x3x3 .f32) (n : Fin 32768) (j : Fin 55) (a c : Fin 3) :
    v_main_v8 (F := Ideal) x (ix4 n j a c) = Cert.Chain.rot (Cert.Chain.motionAtN x n) j.val a c := by
  unfold v_main_v8 Cert.Chain.rot
  beta_reduce
  by_cases hj : j.val < 22
  · rw [if_pos hj, concatenate_pair_apply_left (t := S32768x55x3x3) (s₁ := S32768x22x3x3) (s₂ := S32768x33x3x3) (1 : Fin 4) _ _ _ (ix4 n j a c) rfl (ix4 n (⟨j.val, hj⟩ : Fin 22) a c)
      (fun b => by
        match b with
        | ⟨0, _⟩ => rfl
        | ⟨1, _⟩ => rfl
        | ⟨2, _⟩ => rfl
        | ⟨3, _⟩ => rfl), v0_apply]
    unfold Cert.Chain.motionAtN Cert.Chain.motionAt
    rw [dif_pos hj]
  · rw [if_neg hj, concatenate_pair_apply_right (t := S32768x55x3x3) (s₁ := S32768x22x3x3) (s₂ := S32768x33x3x3) (1 : Fin 4) _ _ _ (ix4 n j a c) rfl rfl
      (ix4 n (⟨j.val - 22, by have := j.isLt; omega⟩ : Fin 33) a c)
      (fun b hb => by
        match b, hb with
        | ⟨0, _⟩, _ => rfl
        | ⟨1, _⟩, hb => exact absurd rfl hb
        | ⟨2, _⟩, _ => rfl
        | ⟨3, _⟩, _ => rfl)
      (by show j.val - 22 + 22 = j.val; omega)]
    exact v7_apply _ _ a c

/-- The rest positions broadcast over the samples. -/
theorem v9_apply (y : FVec Ideal S55x3 .f32) (n : Fin 32768) (j : Fin 55) (k : Fin 3) :
    v_main_v9 (F := Ideal) y (ix3 n j k) = y (ix2 j k) := by
  unfold v_main_v9
  exact broadcastInDim_apply _ _ _ (ix3 n j k) (ix2 j k) (fun b => by
    match b with
    | ⟨0, _⟩ => rfl
    | ⟨1, _⟩ => rfl)

/-- The table of start indices is the literal one: the mask of the select around it is all false. -/
theorem v13_apply (e : Fin 54) : v_main_v13 (F := Ideal) (ix2 e (0 : Fin 1)) = lit0 e := by
  unfold v_main_v13
  rw [broadcastInDim_apply _ _ _ (ix2 e (0 : Fin 1)) (ix1 e) (fun b => by
    match b with
    | ⟨0, _⟩ => rfl)]
  show Scalar.select (0#1) (v_main_v11 (F := Ideal) (ix1 e)) (lit0 (S54.rowMajor (ix1 e))) = lit0 e
  rw [select_zero]
  exact congrArg lit0 (Fin.ext (Shape.rowMajor_val_one _))

/-- The literal table lists the parents of joints 1 … 54. -/
theorem lit0_parent : ∀ e : Fin 54, min (lit0 e).toInt.toNat 54 = Cert.Chain.parent (e.val + 1) := by decide

/-- A parent is a joint. -/
theorem parent_lt55 (e : Fin 54) : Cert.Chain.parent (e.val + 1) < 55 := by
  have := Cert.Chain.parent_lt e.val
  have := e.isLt
  omega

/-- The gathered rows: joint `e + 1`'s parent's rest position. -/
theorem v14_apply (y : FVec Ideal S55x3 .f32) (n : Fin 32768) (e : Fin 54) (k : Fin 3) :
    v_main_v14 (F := Ideal) y (ix3 n e k) = y (ix2 (⟨Cert.Chain.parent (e.val + 1), parent_lt55 e⟩ : Fin 55) k) := by
  unfold v_main_v14
  beta_reduce
  rw [gather_rows_apply, v9_apply]
  refine congrArg y (congrArg (fun q => ix2 q k) (Fin.ext ?_))
  show min (v_main_v13 (F := Ideal) (ix2 e (0 : Fin 1))).toInt.toNat 54 = _
  rw [v13_apply]
  exact lit0_parent e

/-- The one scatter index is `1`. -/
theorem v16_one : (v_main_v16 (F := Ideal) (ix1 (0 : Fin 1))).toInt = 1 := by
  show (1#32).toInt = 1
  decide

/-- The local offsets: the root's rest position, any other joint's rest position minus its parent's. -/
theorem v17_apply (y : FVec Ideal S55x3 .f32) (n : Fin 32768) (j : Fin 55) (k : Fin 3) :
    v_main_v17 (F := Ideal) y (ix3 n j k) = Cert.Chain.rel (Cert.Chain.restAt y) j.val k := by
  unfold v_main_v17
  beta_reduce
  rw [scatter_one_apply _ _ _ _ v16_one]
  unfold Cert.Chain.rel Cert.Chain.restAt
  split
  · rename_i h0
    rw [v9_apply, dif_pos (by norm_num : 0 < 55)]
    exact congrArg y (congrArg (fun q => ix2 q k) (Fin.ext h0))
  · rename_i h0
    have hj : j.val - 1 + 1 = j.val := by omega
    have hp : Cert.Chain.parent j.val < 55 := by
      have := parent_lt55 (⟨j.val - 1, by have := j.isLt; omega⟩ : Fin 54)
      rw [show (⟨j.val - 1, by have := j.isLt; omega⟩ : Fin 54).val + 1 = j.val from hj] at this
      exact this
    rw [v9_apply, dif_pos j.isLt, dif_pos hp]
    show y (ix2 j k) + -(v_main_v14 (F := Ideal) y (ix3 n (⟨j.val - 1, by have := j.isLt; omega⟩ : Fin 54) k)) = _
    rw [v14_apply, ← sub_eq_add_neg]
    refine congrArg (fun q => y (ix2 j k) - y (ix2 q k)) (Fin.ext ?_)
    show Cert.Chain.parent (j.val - 1 + 1) = Cert.Chain.parent j.val
    rw [hj]

/-- The offsets as a fourth column of height three. -/
theorem v18_apply (y : FVec Ideal S55x3 .f32) (n : Fin 32768) (j : Fin 55) (a : Fin 3) :
    v_main_v18 (F := Ideal) y (ix4 n j a (0 : Fin 1)) = v_main_v17 (F := Ideal) y (ix3 n j a) := by
  unfold v_main_v18
  exact broadcastInDim_apply _ _ _ (ix4 n j a (0 : Fin 1)) (ix3 n j a) (fun b => by
    match b with
    | ⟨0, _⟩ => rfl
    | ⟨1, _⟩ => rfl
    | ⟨2, _⟩ => rfl)

/-- The upper three rows: the rotation, then the offset. -/
theorem v19_apply (x : FVec Ideal S16x2048x22x3x3 .f32) (y : FVec Ideal S55x3 .f32) (n : Fin 32768) (j : Fin 55)
    (a : Fin 3) (b : Fin 4) :
    v_main_v19 (F := Ideal) x y (ix4 n j a b)
      = if hb : b.val < 3 then v_main_v8 (F := Ideal) x (ix4 n j a (⟨b.val, hb⟩ : Fin 3))
        else v_main_v17 (F := Ideal) y (ix3 n j a) := by
  unfold v_main_v19
  beta_reduce
  split
  · rename_i hb
    exact concatenate_pair_apply_left (t := S32768x55x3x4) (s₁ := S32768x55x3x3) (s₂ := S32768x55x3x1) (3 : Fin 4) _ _ _ (ix4 n j a b) rfl (ix4 n j a (⟨b.val, hb⟩ : Fin 3))
      (fun c => by
        match c with
        | ⟨0, _⟩ => rfl
        | ⟨1, _⟩ => rfl
        | ⟨2, _⟩ => rfl
        | ⟨3, _⟩ => rfl)
  · rename_i hb
    rw [concatenate_pair_apply_right (t := S32768x55x3x4) (s₁ := S32768x55x3x3) (s₂ := S32768x55x3x1) (3 : Fin 4) _ _ _ (ix4 n j a b) rfl rfl (ix4 n j a (0 : Fin 1))
      (fun c hc => by
        match c, hc with
        | ⟨0, _⟩, _ => rfl
        | ⟨1, _⟩, _ => rfl
        | ⟨2, _⟩, _ => rfl
        | ⟨3, _⟩, hc => exact absurd rfl hc)
      (by show 0 + 3 = b.val; have := b.isLt; omega)]
    exact v18_apply y n j a

/-- The constant last row `(0, 0, 0, 1)`. -/
theorem v20_apply (n : Fin 32768) (j : Fin 55) (b : Fin 4) :
    v_main_v20 (F := Ideal) (ix4 n j (0 : Fin 1) b) = if b.val = 3 then 1 else 0 := by
  unfold v_main_v20
  rw [broadcastInDim_apply _ _ _ (ix4 n j (0 : Fin 1) b) (ix1 b) (fun c => by
    match c with
    | ⟨0, _⟩ => rfl)]
  show Ideal.ofBits .f32 (lit1 (S4.rowMajor (ix1 b))) = _
  rw [show S4.rowMajor (ix1 b) = b from Fin.ext (Shape.rowMajor_val_one _)]
  fin_cases b
  · exact Ideal.ofBits_zero_f32
  · exact Ideal.ofBits_zero_f32
  · exact Ideal.ofBits_zero_f32
  · exact Ideal.ofBits_one_f32

/-- The 4×4 transform: the upper three rows, then the constant row. -/
theorem v21_apply (x : FVec Ideal S16x2048x22x3x3 .f32) (y : FVec Ideal S55x3 .f32) (n : Fin 32768) (j : Fin 55)
    (a b : Fin 4) :
    v_main_v21 (F := Ideal) x y (ix4 n j a b)
      = if ha : a.val < 3 then v_main_v19 (F := Ideal) x y (ix4 n j (⟨a.val, ha⟩ : Fin 3) b)
        else v_main_v20 (F := Ideal) (ix4 n j (0 : Fin 1) b) := by
  unfold v_main_v21
  beta_reduce
  split
  · rename_i ha
    exact concatenate_pair_apply_left (t := S32768x55x4x4) (s₁ := S32768x55x3x4) (s₂ := S32768x55x1x4) (2 : Fin 4) _ _ _ (ix4 n j a b) rfl (ix4 n j (⟨a.val, ha⟩ : Fin 3) b)
      (fun c => by
        match c with
        | ⟨0, _⟩ => rfl
        | ⟨1, _⟩ => rfl
        | ⟨2, _⟩ => rfl
        | ⟨3, _⟩ => rfl)
  · rename_i ha
    exact concatenate_pair_apply_right (t := S32768x55x4x4) (s₁ := S32768x55x3x4) (s₂ := S32768x55x1x4) (2 : Fin 4) _ _ _ (ix4 n j a b) rfl rfl (ix4 n j (0 : Fin 1) b)
      (fun c hc => by
        match c, hc with
        | ⟨0, _⟩, _ => rfl
        | ⟨1, _⟩, _ => rfl
        | ⟨2, _⟩, hc => exact absurd rfl hc
        | ⟨3, _⟩, _ => rfl)
      (by show 0 + 3 = a.val; have := a.isLt; omega)

/-- THE LOCAL TRANSFORMS READ AT AN INDEX: entry `(a, b)` of joint `j`'s homogeneous local transform for sample `n`. -/
theorem tmats_apply (x : FVec Ideal S16x2048x22x3x3 .f32) (y : FVec Ideal S55x3 .f32) (n : Fin 32768) (j : Fin 55)
    (a b : Fin 4) :
    Cert.ReferenceIdeal.Term.tmats (F := Ideal) x y (ValueIdx.ix4 n j a b)
      = Cert.Chain.tmat (Cert.Chain.motionAtN x n) (Cert.Chain.rel (Cert.Chain.restAt y)) j.val a b := by
  unfold Cert.ReferenceIdeal.Term.tmats Cert.Chain.tmat
  rw [v21_apply]
  split
  · rename_i ha
    rw [v19_apply]
    split
    · exact v8_apply x n j _ _
    · exact v17_apply y n j _
  · exact v20_apply n j b

end Stages

end Cert.ReferenceIdeal.Local

end
-- ==== Proof.RefChainStep.lean ====
/-
  The reference's walk down the tree, and its read-out: the argument, for one joint.

  From the array tm of every sample's 55 local transforms (4×4 homogeneous matrices) the reference forms joint j's
  global transform as its parent's global transform times its own local one — a 4×4 product, a sum of four terms per
  entry — joint by joint from the root, stacks the 55 results, and reads the first three rows of the last column.

  The invariant carried down the tree concerns rows 0, 1, 2 only: in joint j's product, row a holds row a of the global
  rotation C j in its first three columns and coordinate a of the global position P j in its last.  One step: the local
  transform's last row is (0, 0, 0, 1), so in the first three columns the fourth term of each sum is x * 0 = 0 and the
  other three are the entry of C (parent j) · R j; in the last column the fourth term is x * 1 = x and the sum is
  C (parent j) · rel j + P (parent j).  Both laws, and x + 0 = x, hold for every extended real, so nothing is assumed
  finite.  The last row of a product is never read, and nothing is said about it.
-/
import proofs.«163241_j18760417149409_2_alg».proof.Proof.RefTerm
import proofs.«163241_j18760417149409_2_alg».proof.Proof.Chain
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Walk

open Idealize.ShloMosaic Idealize.ShloMosaic.ValueIdx Cert.ReferenceIdeal Cert.ReferenceIdeal.Term Cert.Chain

variable [Facts]
open Facts₀ Facts

/-! ## The layout operations of the walk, read at an index -/

/-- Slice o along the joints' axis, its unit axis then dropped, read at (n, a, c): the array at (n, o, a, c). -/
theorem slice_cast_apply {α : Type} (tm : S32768x55x4x4.Idx → α) (o : ℕ)
    (hs : S32768x55x4x4.Slices ![0, o, 0, 0] S32768x1x4x4) (hc : S32768x1x4x4.ShapeCasts S32768x4x4)
    (j : Fin 55) (hj : j.val = o) (n : Fin 32768) (a c : Fin 4) :
    shapeCast S32768x4x4 (extractStridedSlice S32768x1x4x4 ![0, o, 0, 0] tm hs) hc (ix3 n a c) = tm (ix4 n j a c) := by
  rw [shapeCast_apply _ hc (ix3 n a c) (ix4 n (0 : Fin 1) a c) (by
    rw [Shape.rowMajor_val_four, Shape.rowMajor_val_three]
    show ((n.val * 1 + 0) * 4 + a.val) * 4 + c.val = (n.val * 4 + a.val) * 4 + c.val
    omega)]
  exact slice4_axis1_apply o tm hs n 0 a c j (by rw [hj]; rfl)

/-- A matrix per sample given a unit axis in second place, read at (n, u, a, c): the matrix's entry (a, c). -/
theorem bcast_apply {α : Type} (X : S32768x4x4.Idx → α)
    (hb : S32768x4x4.BroadcastsInDim S32768x1x4x4 (![0, 2, 3] : Fin 3 → Fin S32768x1x4x4.rank))
    (n : Fin 32768) (u : Fin 1) (a c : Fin 4) :
    broadcastInDim S32768x1x4x4 ![0, 2, 3] hb X (ix4 n u a c) = X (ix3 n a c) :=
  broadcastInDim_apply _ hb X _ _ (fun ax => by
    match ax with
    | ⟨0, _⟩ => exact (if_neg (show ¬(32768 : ℕ) = 1 by decide)).symm
    | ⟨1, _⟩ => exact (if_neg (show ¬(4 : ℕ) = 1 by decide)).symm
    | ⟨2, _⟩ => exact (if_neg (show ¬(4 : ℕ) = 1 by decide)).symm)

/-- Pieces laid end to end along the second axis of a rank-4 array, read at (n, j, a, c) with j in piece k, at q
    past the pre positions the earlier pieces take: piece k at (n, q, a, c). -/
theorem cat_axis1_apply {α : Type} {N m : ℕ} (xs : List ((s : Shape) × (s.Idx → α)))
    (h : Shape.Concatenates (xs.map (·.1)) ⟨4, ![32768, N, 4, 4]⟩ 1) (k : ℕ) (hk : k < xs.length)
    (x : (⟨4, ![32768, m, 4, 4]⟩ : Shape).Idx → α) (hxk : xs[k] = ⟨⟨4, ![32768, m, 4, 4]⟩, x⟩) (pre : ℕ)
    (hpre : (((xs.take k).map (·.1)).map fun s : Shape =>
      if h : s.rank = (⟨4, ![32768, N, 4, 4]⟩ : Shape).rank then s.size ((1 : Fin 4).cast h.symm) else 0).sum = pre)
    (n : Fin 32768) (j : Fin N) (q : Fin m) (a c : Fin 4) (hj : pre + q.val = j.val) :
    concatenate ⟨4, ![32768, N, 4, 4]⟩ 1 xs h (ix4 n j a c) = x (ix4 n q a c) :=
  concatenate_apply_piece 1 xs h _ k hk _ x hxk rfl pre hpre (ix4 n q a c)
    (fun b hb => by
      match b, hb with
      | ⟨0, _⟩, _ => rfl
      | ⟨1, _⟩, hb => exact absurd rfl hb
      | ⟨2, _⟩, _ => rfl
      | ⟨3, _⟩, _ => rfl) hj

/-! ## One product of the walk, read at an index -/

/-- The operands' indices at a result index and a contraction position, axis by axis: the left operand reads the
    sample and the row from the result index and its column from the contraction position, the right operand the
    sample and the column from the result index and its row from the contraction position. -/
theorem lhs_0 (i : S32768x4x4.Idx) (q : dot_S32768x4x4_S32768x4x4_S32768x4x4_2_1_1_2_0_0.contr.Idx) : (dot_S32768x4x4_S32768x4x4_S32768x4x4_2_1_1_2_0_0.lhsIdx i q 0).val = (i 0).val := by
  unfold DotDims.lhsIdx
  rw [dif_pos (show (0 : Fin S32768x4x4.rank) ∈ dot_S32768x4x4_S32768x4x4_S32768x4x4_2_1_1_2_0_0.lhsBatch from List.mem_singleton.mpr rfl)]
  rfl
theorem lhs_1 (i : S32768x4x4.Idx) (q : dot_S32768x4x4_S32768x4x4_S32768x4x4_2_1_1_2_0_0.contr.Idx) : (dot_S32768x4x4_S32768x4x4_S32768x4x4_2_1_1_2_0_0.lhsIdx i q 1).val = (i 1).val := by
  unfold DotDims.lhsIdx
  rw [dif_neg (show ¬(1 : Fin S32768x4x4.rank) ∈ dot_S32768x4x4_S32768x4x4_S32768x4x4_2_1_1_2_0_0.lhsBatch by
      show ¬(1 : Fin 3) ∈ [(0 : Fin 3)]
      decide),
    dif_pos (show (1 : Fin S32768x4x4.rank) ∈ dot_S32768x4x4_S32768x4x4_S32768x4x4_2_1_1_2_0_0.lhsNonContracting from List.mem_singleton.mpr rfl)]
  rfl
theorem lhs_2 (i : S32768x4x4.Idx) (q : dot_S32768x4x4_S32768x4x4_S32768x4x4_2_1_1_2_0_0.contr.Idx) : (dot_S32768x4x4_S32768x4x4_S32768x4x4_2_1_1_2_0_0.lhsIdx i q 2).val = (q ⟨0, Nat.one_pos⟩).val :=
  dot_S32768x4x4_S32768x4x4_S32768x4x4_2_1_1_2_0_0.lhsIdx_val_of_single rfl i q
theorem rhs_0 (i : S32768x4x4.Idx) (q : dot_S32768x4x4_S32768x4x4_S32768x4x4_2_1_1_2_0_0.contr.Idx) : (dot_S32768x4x4_S32768x4x4_S32768x4x4_2_1_1_2_0_0.rhsIdx i q 0).val = (i 0).val := by
  unfold DotDims.rhsIdx
  rw [dif_pos (show (0 : Fin S32768x4x4.rank) ∈ dot_S32768x4x4_S32768x4x4_S32768x4x4_2_1_1_2_0_0.rhsBatch from List.mem_singleton.mpr rfl)]
  rfl
theorem rhs_1 (i : S32768x4x4.Idx) (q : dot_S32768x4x4_S32768x4x4_S32768x4x4_2_1_1_2_0_0.contr.Idx) : (dot_S32768x4x4_S32768x4x4_S32768x4x4_2_1_1_2_0_0.rhsIdx i q 1).val = (q ⟨0, Nat.one_pos⟩).val :=
  dot_S32768x4x4_S32768x4x4_S32768x4x4_2_1_1_2_0_0.rhsIdx_val_of_single rfl i q
theorem rhs_2 (i : S32768x4x4.Idx) (q : dot_S32768x4x4_S32768x4x4_S32768x4x4_2_1_1_2_0_0.contr.Idx) : (dot_S32768x4x4_S32768x4x4_S32768x4x4_2_1_1_2_0_0.rhsIdx i q 2).val = (i 2).val := by
  unfold DotDims.rhsIdx
  rw [dif_neg (show ¬(2 : Fin S32768x4x4.rank) ∈ dot_S32768x4x4_S32768x4x4_S32768x4x4_2_1_1_2_0_0.rhsBatch by
      show ¬(2 : Fin 3) ∈ [(0 : Fin 3)]
      decide),
    dif_pos (show (2 : Fin S32768x4x4.rank) ∈ dot_S32768x4x4_S32768x4x4_S32768x4x4_2_1_1_2_0_0.rhsNonContracting from List.mem_singleton.mpr rfl)]
  rfl

/-- The batched 4×4 product at entry (a, c) of sample n: the sum over k of X (n, a, k) * Y (n, k, c), its four terms
    in the order k = 0, 1, 2, 3. -/
theorem dot_apply (X Y : FVec Ideal S32768x4x4 .f32) (n : Fin 32768) (a c : Fin 4) :
    Host.dotGeneral dot_S32768x4x4_S32768x4x4_S32768x4x4_2_1_1_2_0_0 none X Y (ix3 n a c)
      = X (ix3 n a 0) * Y (ix3 n 0 c) + X (ix3 n a 1) * Y (ix3 n 1 c) + X (ix3 n a 2) * Y (ix3 n 2 c)
        + X (ix3 n a 3) * Y (ix3 n 3 c) := by
  simp only [Host.dotGeneral]
  rw [Ideal.dotGeneral_apply, ← Equiv.sum_comp (contrEquiv1 dot_S32768x4x4_S32768x4x4_S32768x4x4_2_1_1_2_0_0 4 rfl rfl).symm, Fin.sum_univ_four]
  have el : ∀ k : Fin 4, dot_S32768x4x4_S32768x4x4_S32768x4x4_2_1_1_2_0_0.lhsIdx (ix3 n a c) ((contrEquiv1 dot_S32768x4x4_S32768x4x4_S32768x4x4_2_1_1_2_0_0 4 rfl rfl).symm k) = ix3 n a k := fun k =>
    funext fun ax => Fin.ext (by
      have hk := contrEquiv1_symm_val dot_S32768x4x4_S32768x4x4_S32768x4x4_2_1_1_2_0_0 4 rfl rfl k
      match ax with
      | ⟨0, _⟩ => exact lhs_0 _ _
      | ⟨1, _⟩ => exact lhs_1 _ _
      | ⟨2, _⟩ => exact (lhs_2 _ _).trans hk)
  have er : ∀ k : Fin 4, dot_S32768x4x4_S32768x4x4_S32768x4x4_2_1_1_2_0_0.rhsIdx (ix3 n a c) ((contrEquiv1 dot_S32768x4x4_S32768x4x4_S32768x4x4_2_1_1_2_0_0 4 rfl rfl).symm k) = ix3 n k c := fun k =>
    funext fun ax => Fin.ext (by
      have hk := contrEquiv1_symm_val dot_S32768x4x4_S32768x4x4_S32768x4x4_2_1_1_2_0_0 4 rfl rfl k
      match ax with
      | ⟨0, _⟩ => exact rhs_0 _ _
      | ⟨1, _⟩ => exact (rhs_1 _ _).trans hk
      | ⟨2, _⟩ => exact rhs_2 _ _)
  rw [el, el, el, el, er, er, er, er]

/-! ## The invariant and one step down the tree -/

variable (Mn : Fin 32768 → ℕ → Fin 3 → Fin 3 → EReal) (L : ℕ → Fin 3 → EReal)

/-- The rows 0, 1, 2 of X are, sample by sample, joint j's global transform: row a holds row a of the global rotation
    in columns 0, 1, 2 and coordinate a of the global position in column 3. -/
def Holds (j : ℕ) (X : FVec Ideal S32768x4x4 .f32) : Prop :=
  ∀ (n : Fin 32768) (a : Fin 3),
    X (ix3 n a.castSucc 0) = (glob (Mn n) L j).1 a 0 ∧ X (ix3 n a.castSucc 1) = (glob (Mn n) L j).1 a 1
      ∧ X (ix3 n a.castSucc 2) = (glob (Mn n) L j).1 a 2 ∧ X (ix3 n a.castSucc 3) = (glob (Mn n) L j).2 a

/-- Y is, sample by sample, joint j's local transform. -/
def Local (j : ℕ) (Y : FVec Ideal S32768x4x4 .f32) : Prop :=
  ∀ (n : Fin 32768) (k c : Fin 4), Y (ix3 n k c) = tmat (Mn n) L j k c

/-- The root: its local transform is its global one. -/
theorem holds_root (X : FVec Ideal S32768x4x4 .f32) (hX : Local Mn L 0 X) : Holds Mn L 0 X := by
  intro n a
  rw [hX, hX, hX, hX, glob_zero]
  refine ⟨?_, ?_, ?_, ?_⟩ <;> simp [tmat]

/-- One step: the parent's global transform times the joint's local one is the joint's global transform. In columns
    0, 1, 2 the fourth term of the sum is a product with the 0 of the local transform's last row; in column 3 it is a
    product with its 1, the parent's global position. -/
theorem holds_step (p j : ℕ) (hp : parent (j + 1) = p) (X Y : FVec Ideal S32768x4x4 .f32)
    (hX : Holds Mn L p X) (hY : Local Mn L (j + 1) Y) :
    Holds Mn L (j + 1) (Host.dotGeneral dot_S32768x4x4_S32768x4x4_S32768x4x4_2_1_1_2_0_0 none X Y) := by
  intro n a
  obtain ⟨h0, h1, h2, h3⟩ := hX n a
  have e : ∀ c : Fin 4, Host.dotGeneral dot_S32768x4x4_S32768x4x4_S32768x4x4_2_1_1_2_0_0 none X Y (ix3 n a.castSucc c)
      = (glob (Mn n) L p).1 a 0 * tmat (Mn n) L (j + 1) 0 c + (glob (Mn n) L p).1 a 1 * tmat (Mn n) L (j + 1) 1 c
        + (glob (Mn n) L p).1 a 2 * tmat (Mn n) L (j + 1) 2 c + (glob (Mn n) L p).2 a * tmat (Mn n) L (j + 1) 3 c :=
    fun c => by rw [dot_apply, h0, h1, h2, h3, hY, hY, hY, hY]
  have z : ∀ c : Fin 3, tmat (Mn n) L (j + 1) 3 c.castSucc = 0 := fun c => by
    have hc := c.isLt
    simp [tmat]
    omega
  have o : tmat (Mn n) L (j + 1) 3 3 = 1 := by simp [tmat]
  have r : ∀ k c : Fin 3, tmat (Mn n) L (j + 1) k.castSucc c.castSucc = rot (Mn n) (j + 1) k c := fun k c => by
    simp [tmat]
  have l : ∀ k : Fin 3, tmat (Mn n) L (j + 1) k.castSucc 3 = L (j + 1) k := fun k => by simp [tmat]
  refine ⟨?_, ?_, ?_, ?_⟩
  · rw [e, glob_succ_rot, hp]
    exact (congrArg₂ (· + ·) (congrArg₂ (· + ·) (congrArg₂ (· + ·) (congrArg _ (r 0 0)) (congrArg _ (r 1 0)))
      (congrArg _ (r 2 0))) ((congrArg _ (z 0)).trans (mul_zero _))).trans (add_zero _)
  · rw [e, glob_succ_rot, hp]
    exact (congrArg₂ (· + ·) (congrArg₂ (· + ·) (congrArg₂ (· + ·) (congrArg _ (r 0 1)) (congrArg _ (r 1 1)))
      (congrArg _ (r 2 1))) ((congrArg _ (z 1)).trans (mul_zero _))).trans (add_zero _)
  · rw [e, glob_succ_rot, hp]
    exact (congrArg₂ (· + ·) (congrArg₂ (· + ·) (congrArg₂ (· + ·) (congrArg _ (r 0 2)) (congrArg _ (r 1 2)))
      (congrArg _ (r 2 2))) ((congrArg _ (z 2)).trans (mul_zero _))).trans (add_zero _)
  · rw [e, glob_succ_pos, hp]
    exact congrArg₂ (· + ·) (congrArg₂ (· + ·) (congrArg₂ (· + ·) (congrArg _ (l 0)) (congrArg _ (l 1)))
      (congrArg _ (l 2))) ((congrArg _ o).trans (mul_one _))

/-! ## The walk, joint by joint -/

/-- The array tm holds, sample by sample and joint by joint, the local transforms for the rotations Mn n and the
    offsets L. -/
def IsLocal (tm : FVec Ideal S32768x55x4x4 .f32) : Prop :=
  ∀ (n : Fin 32768) (j : Fin 55) (a b : Fin 4), tm (ix4 n j a b) = tmat (Mn n) L j.val a b

/-- Slice o of the array of local transforms, its unit axis dropped, is joint o's local transform. -/
theorem local_of (tm : FVec Ideal S32768x55x4x4 .f32) (h : IsLocal Mn L tm) (o : ℕ) (ho : o < 55)
    (hs : S32768x55x4x4.Slices ![0, o, 0, 0] S32768x1x4x4) (hc : S32768x1x4x4.ShapeCasts S32768x4x4) :
    Local Mn L o (fun i => shapeCast S32768x4x4 (extractStridedSlice S32768x1x4x4 ![0, o, 0, 0] tm hs) hc i) :=
  fun n k c => (slice_cast_apply tm o hs hc ⟨o, ho⟩ rfl n k c).trans (h n ⟨o, ho⟩ k c)

/-- The read-out from the stack of global transforms: entry (b, t, j, r) of the result is entry (r, 3) of joint j's
    matrix in the stack at sample 2048 b + t, so coordinate r of joint j's global position once that matrix is
    known to hold joint j's global transform in its rows 0, 1, 2. -/
theorem out_of_read (tm : FVec Ideal S32768x55x4x4 .f32) (j : Fin 55) (X : FVec Ideal S32768x4x4 .f32)
    (hH : Holds Mn L j.val X)
    (hR : ∀ (n : Fin 32768) (a c : Fin 4), v_main_v245 (F := Ideal) tm (ix4 n j a c) = X (ix3 n a c))
    (b : Fin 16) (t : Fin 2048) (r : Fin 3) :
    outOf (F := Ideal) tm (ix4 b t j r)
      = (glob (Mn ⟨2048 * b.val + t.val, by have := b.isLt; have := t.isLt; omega⟩) L j.val).2 r := by
  have e1 : outOf (F := Ideal) tm (ix4 b t j r) = v_main_v247 (F := Ideal) tm
      (ix3 (⟨2048 * b.val + t.val, by have := b.isLt; have := t.isLt; omega⟩ : Fin 32768) j r) :=
    shapeCast_apply _ _ _ _ (by
      rw [Shape.rowMajor_val_three, Shape.rowMajor_val_four]
      show ((2048 * b.val + t.val) * 55 + j.val) * 3 + r.val = ((b.val * 2048 + t.val) * 55 + j.val) * 3 + r.val
      omega)
  have e2 : ∀ n : Fin 32768, v_main_v247 (F := Ideal) tm (ix3 n j r)
      = v_main_v246 (F := Ideal) tm (ix4 n j r (0 : Fin 1)) := fun n =>
    shapeCast_apply _ _ _ _ (by
      rw [Shape.rowMajor_val_three, Shape.rowMajor_val_four]
      show ((n.val * 55 + j.val) * 3 + r.val) * 1 + 0 = (n.val * 55 + j.val) * 3 + r.val
      omega)
  have e3 : ∀ n : Fin 32768, v_main_v246 (F := Ideal) tm (ix4 n j r (0 : Fin 1))
      = v_main_v245 (F := Ideal) tm (ix4 n j r.castSucc 3) := fun n => by
    show extractStridedSlice S32768x55x3x1 ![0, 0, 0, 3] (v_main_v245 (F := Ideal) tm)
      slices_S32768x55x4x4_S32768x55x3x1_0_0_0_3 (ix4 n j r (0 : Fin 1)) = _
    exact extractStridedSlice_apply _ _ _ (ix4 n j r (0 : Fin 1)) (ix4 n j r.castSucc 3) (fun ax => by
      match ax with
      | ⟨0, _⟩ => exact (Nat.zero_add _).symm
      | ⟨1, _⟩ => exact (Nat.zero_add _).symm
      | ⟨2, _⟩ => exact (Nat.zero_add _).symm
      | ⟨3, _⟩ => rfl)
  rw [e1, e2, e3, hR]
  exact (hH _ r).2.2.2

end Cert.ReferenceIdeal.Walk

end
-- ==== Proof.RefChain.lean ====
/-
  The reference's walk down the tree, joint by joint: the table of cases.

  For each of the 55 joints, in the order the reference computes them: the invariant of the walk (rows 0, 1, 2 of
  joint j's product hold joint j's global rotation and position) from the same invariant at its parent, by the one
  step lemma, the parent read off the tree; and joint j's matrix in the stack of the 55 products, found in the piece
  of 16 (or, last, 7) consecutive joints that holds it and then in that piece.  The result at joint j follows from
  the two by the read-out lemma.
-/
import proofs.«163241_j18760417149409_2_alg».proof.Proof.RefChainStep

noncomputable section

namespace Cert.ReferenceIdeal.Walk

open Idealize.ShloMosaic Idealize.ShloMosaic.ValueIdx Cert.ReferenceIdeal Cert.ReferenceIdeal.Term Cert.Chain

variable [Facts]
open Facts₀ Facts

section Joints
variable (Mn : Fin 32768 → ℕ → Fin 3 → Fin 3 → EReal) (L : ℕ → Fin 3 → EReal)

/-! ## The invariant at every joint -/

theorem inv0 (tm : FVec Ideal S32768x55x4x4 .f32) (h : IsLocal Mn L tm) : Holds Mn L 0 (v_main_v23 (F := Ideal) tm) :=
  holds_root Mn L _ (local_of Mn L tm h 0 (by decide) slices_S32768x55x4x4_S32768x1x4x4_0_0_0_0 shapeCasts_S32768x1x4x4_S32768x4x4)
theorem inv1 (tm : FVec Ideal S32768x55x4x4 .f32) (h : IsLocal Mn L tm) : Holds Mn L 1 (v_main_v26 (F := Ideal) tm) :=
  holds_step Mn L 0 0 rfl (v_main_v23 (F := Ideal) tm) (v_main_v25 (F := Ideal) tm) (inv0 Mn L tm h)
    (local_of Mn L tm h 1 (by decide) slices_S32768x55x4x4_S32768x1x4x4_0_1_0_0 shapeCasts_S32768x1x4x4_S32768x4x4)
theorem inv2 (tm : FVec Ideal S32768x55x4x4 .f32) (h : IsLocal Mn L tm) : Holds Mn L 2 (v_main_v29 (F := Ideal) tm) :=
  holds_step Mn L 0 1 rfl (v_main_v23 (F := Ideal) tm) (v_main_v28 (F := Ideal) tm) (inv0 Mn L tm h)
    (local_of Mn L tm h 2 (by decide) slices_S32768x55x4x4_S32768x1x4x4_0_2_0_0 shapeCasts_S32768x1x4x4_S32768x4x4)
theorem inv3 (tm : FVec Ideal S32768x55x4x4 .f32) (h : IsLocal Mn L tm) : Holds Mn L 3 (v_main_v32 (F := Ideal) tm) :=
  holds_step Mn L 0 2 rfl (v_main_v23 (F := Ideal) tm) (v_main_v31 (F := Ideal) tm) (inv0 Mn L tm h)
    (local_of Mn L tm h 3 (by decide) slices_S32768x55x4x4_S32768x1x4x4_0_3_0_0 shapeCasts_S32768x1x4x4_S32768x4x4)
theorem inv4 (tm : FVec Ideal S32768x55x4x4 .f32) (h : IsLocal Mn L tm) : Holds Mn L 4 (v_main_v35 (F := Ideal) tm) :=
  holds_step Mn L 1 3 rfl (v_main_v26 (F := Ideal) tm) (v_main_v34 (F := Ideal) tm) (inv1 Mn L tm h)
    (local_of Mn L tm h 4 (by decide) slices_S32768x55x4x4_S32768x1x4x4_0_4_0_0 shapeCasts_S32768x1x4x4_S32768x4x4)
theorem inv5 (tm : FVec Ideal S32768x55x4x4 .f32) (h : IsLocal Mn L tm) : Holds Mn L 5 (v_main_v38 (F := Ideal) tm) :=
  holds_step Mn L 2 4 rfl (v_main_v29 (F := Ideal) tm) (v_main_v37 (F := Ideal) tm) (inv2 Mn L tm h)
    (local_of Mn L tm h 5 (by decide) slices_S32768x55x4x4_S32768x1x4x4_0_5_0_0 shapeCasts_S32768x1x4x4_S32768x4x4)
theorem inv6 (tm : FVec Ideal S32768x55x4x4 .f32) (h : IsLocal Mn L tm) : Holds Mn L 6 (v_main_v41 (F := Ideal) tm) :=
  holds_step Mn L 3 5 rfl (v_main_v32 (F := Ideal) tm) (v_main_v40 (F := Ideal) tm) (inv3 Mn L tm h)
    (local_of Mn L tm h 6 (by decide) slices_S32768x55x4x4_S32768x1x4x4_0_6_0_0 shapeCasts_S32768x1x4x4_S32768x4x4)
theorem inv7 (tm : FVec Ideal S32768x55x4x4 .f32) (h : IsLocal Mn L tm) : Holds Mn L 7 (v_main_v44 (F := Ideal) tm) :=
  holds_step Mn L 4 6 rfl (v_main_v35 (F := Ideal) tm) (v_main_v43 (F := Ideal) tm) (inv4 Mn L tm h)
    (local_of Mn L tm h 7 (by decide) slices_S32768x55x4x4_S32768x1x4x4_0_7_0_0 shapeCasts_S32768x1x4x4_S32768x4x4)
theorem inv8 (tm : FVec Ideal S32768x55x4x4 .f32) (h : IsLocal Mn L tm) : Holds Mn L 8 (v_main_v47 (F := Ideal) tm) :=
  holds_step Mn L 5 7 rfl (v_main_v38 (F := Ideal) tm) (v_main_v46 (F := Ideal) tm) (inv5 Mn L tm h)
    (local_of Mn L tm h 8 (by decide) slices_S32768x55x4x4_S32768x1x4x4_0_8_0_0 shapeCasts_S32768x1x4x4_S32768x4x4)
theorem inv9 (tm : FVec Ideal S32768x55x4x4 .f32) (h : IsLocal Mn L tm) : Holds Mn L 9 (v_main_v50 (F := Ideal) tm) :=
  holds_step Mn L 6 8 rfl (v_main_v41 (F := Ideal) tm) (v_main_v49 (F := Ideal) tm) (inv6 Mn L tm h)
    (local_of Mn L tm h 9 (by decide) slices_S32768x55x4x4_S32768x1x4x4_0_9_0_0 shapeCasts_S32768x1x4x4_S32768x4x4)
theorem inv10 (tm : FVec Ideal S32768x55x4x4 .f32) (h : IsLocal Mn L tm) : Holds Mn L 10 (v_main_v53 (F := Ideal) tm) :=
  holds_step Mn L 7 9 rfl (v_main_v44 (F := Ideal) tm) (v_main_v52 (F := Ideal) tm) (inv7 Mn L tm h)
    (local_of Mn L tm h 10 (by decide) slices_S32768x55x4x4_S32768x1x4x4_0_10_0_0 shapeCasts_S32768x1x4x4_S32768x4x4)
theorem inv11 (tm : FVec Ideal S32768x55x4x4 .f32) (h : IsLocal Mn L tm) : Holds Mn L 11 (v_main_v56 (F := Ideal) tm) :=
  holds_step Mn L 8 10 rfl (v_main_v47 (F := Ideal) tm) (v_main_v55 (F := Ideal) tm) (inv8 Mn L tm h)
    (local_of Mn L tm h 11 (by decide) slices_S32768x55x4x4_S32768x1x4x4_0_11_0_0 shapeCasts_S32768x1x4x4_S32768x4x4)
theorem inv12 (tm : FVec Ideal S32768x55x4x4 .f32) (h : IsLocal Mn L tm) : Holds Mn L 12 (v_main_v59 (F := Ideal) tm) :=
  holds_step Mn L 9 11 rfl (v_main_v50 (F := Ideal) tm) (v_main_v58 (F := Ideal) tm) (inv9 Mn L tm h)
    (local_of Mn L tm h 12 (by decide) slices_S32768x55x4x4_S32768x1x4x4_0_12_0_0 shapeCasts_S32768x1x4x4_S32768x4x4)
theorem inv13 (tm : FVec Ideal S32768x55x4x4 .f32) (h : IsLocal Mn L tm) : Holds Mn L 13 (v_main_v62 (F := Ideal) tm) :=
  holds_step Mn L 9 12 rfl (v_main_v50 (F := Ideal) tm) (v_main_v61 (F := Ideal) tm) (inv9 Mn L tm h)
    (local_of Mn L tm h 13 (by decide) slices_S32768x55x4x4_S32768x1x4x4_0_13_0_0 shapeCasts_S32768x1x4x4_S32768x4x4)
theorem inv14 (tm : FVec Ideal S32768x55x4x4 .f32) (h : IsLocal Mn L tm) : Holds Mn L 14 (v_main_v65 (F := Ideal) tm) :=
  holds_step Mn L 9 13 rfl (v_main_v50 (F := Ideal) tm) (v_main_v64 (F := Ideal) tm) (inv9 Mn L tm h)
    (local_of Mn L tm h 14 (by decide) slices_S32768x55x4x4_S32768x1x4x4_0_14_0_0 shapeCasts_S32768x1x4x4_S32768x4x4)
theorem inv15 (tm : FVec Ideal S32768x55x4x4 .f32) (h : IsLocal Mn L tm) : Holds Mn L 15 (v_main_v68 (F := Ideal) tm) :=
  holds_step Mn L 12 14 rfl (v_main_v59 (F := Ideal) tm) (v_main_v67 (F := Ideal) tm) (inv12 Mn L tm h)
    (local_of Mn L tm h 15 (by decide) slices_S32768x55x4x4_S32768x1x4x4_0_15_0_0 shapeCasts_S32768x1x4x4_S32768x4x4)
theorem inv16 (tm : FVec Ideal S32768x55x4x4 .f32) (h : IsLocal Mn L tm) : Holds Mn L 16 (v_main_v71 (F := Ideal) tm) :=
  holds_step Mn L 13 15 rfl (v_main_v62 (F := Ideal) tm) (v_main_v70 (F := Ideal) tm) (inv13 Mn L tm h)
    (local_of Mn L tm h 16 (by decide) slices_S32768x55x4x4_S32768x1x4x4_0_16_0_0 shapeCasts_S32768x1x4x4_S32768x4x4)
theorem inv17 (tm : FVec Ideal S32768x55x4x4 .f32) (h : IsLocal Mn L tm) : Holds Mn L 17 (v_main_v74 (F := Ideal) tm) :=
  holds_step Mn L 14 16 rfl (v_main_v65 (F := Ideal) tm) (v_main_v73 (F := Ideal) tm) (inv14 Mn L tm h)
    (local_of Mn L tm h 17 (by decide) slices_S32768x55x4x4_S32768x1x4x4_0_17_0_0 shapeCasts_S32768x1x4x4_S32768x4x4)
theorem inv18 (tm : FVec Ideal S32768x55x4x4 .f32) (h : IsLocal Mn L tm) : Holds Mn L 18 (v_main_v77 (F := Ideal) tm) :=
  holds_step Mn L 16 17 rfl (v_main_v71 (F := Ideal) tm) (v_main_v76 (F := Ideal) tm) (inv16 Mn L tm h)
    (local_of Mn L tm h 18 (by decide) slices_S32768x55x4x4_S32768x1x4x4_0_18_0_0 shapeCasts_S32768x1x4x4_S32768x4x4)
theorem inv19 (tm : FVec Ideal S32768x55x4x4 .f32) (h : IsLocal Mn L tm) : Holds Mn L 19 (v_main_v80 (F := Ideal) tm) :=
  holds_step Mn L 17 18 rfl (v_main_v74 (F := Ideal) tm) (v_main_v79 (F := Ideal) tm) (inv17 Mn L tm h)
    (local_of Mn L tm h 19 (by decide) slices_S32768x55x4x4_S32768x1x4x4_0_19_0_0 shapeCasts_S32768x1x4x4_S32768x4x4)
theorem inv20 (tm : FVec Ideal S32768x55x4x4 .f32) (h : IsLocal Mn L tm) : Holds Mn L 20 (v_main_v83 (F := Ideal) tm) :=
  holds_step Mn L 18 19 rfl (v_main_v77 (F := Ideal) tm) (v_main_v82 (F := Ideal) tm) (inv18 Mn L tm h)
    (local_of Mn L tm h 20 (by decide) slices_S32768x55x4x4_S32768x1x4x4_0_20_0_0 shapeCasts_S32768x1x4x4_S32768x4x4)
theorem inv21 (tm : FVec Ideal S32768x55x4x4 .f32) (h : IsLocal Mn L tm) : Holds Mn L 21 (v_main_v86 (F := Ideal) tm) :=
  holds_step Mn L 19 20 rfl (v_main_v80 (F := Ideal) tm) (v_main_v85 (F := Ideal) tm) (inv19 Mn L tm h)
    (local_of Mn L tm h 21 (by decide) slices_S32768x55x4x4_S32768x1x4x4_0_21_0_0 shapeCasts_S32768x1x4x4_S32768x4x4)
theorem inv22 (tm : FVec Ideal S32768x55x4x4 .f32) (h : IsLocal Mn L tm) : Holds Mn L 22 (v_main_v89 (F := Ideal) tm) :=
  holds_step Mn L 15 21 rfl (v_main_v68 (F := Ideal) tm) (v_main_v88 (F := Ideal) tm) (inv15 Mn L tm h)
    (local_of Mn L tm h 22 (by decide) slices_S32768x55x4x4_S32768x1x4x4_0_22_0_0 shapeCasts_S32768x1x4x4_S32768x4x4)
theorem inv23 (tm : FVec Ideal S32768x55x4x4 .f32) (h : IsLocal Mn L tm) : Holds Mn L 23 (v_main_v92 (F := Ideal) tm) :=
  holds_step Mn L 15 22 rfl (v_main_v68 (F := Ideal) tm) (v_main_v91 (F := Ideal) tm) (inv15 Mn L tm h)
    (local_of Mn L tm h 23 (by decide) slices_S32768x55x4x4_S32768x1x4x4_0_23_0_0 shapeCasts_S32768x1x4x4_S32768x4x4)
theorem inv24 (tm : FVec Ideal S32768x55x4x4 .f32) (h : IsLocal Mn L tm) : Holds Mn L 24 (v_main_v95 (F := Ideal) tm) :=
  holds_step Mn L 15 23 rfl (v_main_v68 (F := Ideal) tm) (v_main_v94 (F := Ideal) tm) (inv15 Mn L tm h)
    (local_of Mn L tm h 24 (by decide) slices_S32768x55x4x4_S32768x1x4x4_0_24_0_0 shapeCasts_S32768x1x4x4_S32768x4x4)
theorem inv25 (tm : FVec Ideal S32768x55x4x4 .f32) (h : IsLocal Mn L tm) : Holds Mn L 25 (v_main_v98 (F := Ideal) tm) :=
  holds_step Mn L 20 24 rfl (v_main_v83 (F := Ideal) tm) (v_main_v97 (F := Ideal) tm) (inv20 Mn L tm h)
    (local_of Mn L tm h 25 (by decide) slices_S32768x55x4x4_S32768x1x4x4_0_25_0_0 shapeCasts_S32768x1x4x4_S32768x4x4)
theorem inv26 (tm : FVec Ideal S32768x55x4x4 .f32) (h : IsLocal Mn L tm) : Holds Mn L 26 (v_main_v101 (F := Ideal) tm) :=
  holds_step Mn L 25 25 rfl (v_main_v98 (F := Ideal) tm) (v_main_v100 (F := Ideal) tm) (inv25 Mn L tm h)
    (local_of Mn L tm h 26 (by decide) slices_S32768x55x4x4_S32768x1x4x4_0_26_0_0 shapeCasts_S32768x1x4x4_S32768x4x4)
theorem inv27 (tm : FVec Ideal S32768x55x4x4 .f32) (h : IsLocal Mn L tm) : Holds Mn L 27 (v_main_v104 (F := Ideal) tm) :=
  holds_step Mn L 26 26 rfl (v_main_v101 (F := Ideal) tm) (v_main_v103 (F := Ideal) tm) (inv26 Mn L tm h)
    (local_of Mn L tm h 27 (by decide) slices_S32768x55x4x4_S32768x1x4x4_0_27_0_0 shapeCasts_S32768x1x4x4_S32768x4x4)
theorem inv28 (tm : FVec Ideal S32768x55x4x4 .f32) (h : IsLocal Mn L tm) : Holds Mn L 28 (v_main_v107 (F := Ideal) tm) :=
  holds_step Mn L 20 27 rfl (v_main_v83 (F := Ideal) tm) (v_main_v106 (F := Ideal) tm) (inv20 Mn L tm h)
    (local_of Mn L tm h 28 (by decide) slices_S32768x55x4x4_S32768x1x4x4_0_28_0_0 shapeCasts_S32768x1x4x4_S32768x4x4)
theorem inv29 (tm : FVec Ideal S32768x55x4x4 .f32) (h : IsLocal Mn L tm) : Holds Mn L 29 (v_main_v110 (F := Ideal) tm) :=
  holds_step Mn L 28 28 rfl (v_main_v107 (F := Ideal) tm) (v_main_v109 (F := Ideal) tm) (inv28 Mn L tm h)
    (local_of Mn L tm h 29 (by decide) slices_S32768x55x4x4_S32768x1x4x4_0_29_0_0 shapeCasts_S32768x1x4x4_S32768x4x4)
theorem inv30 (tm : FVec Ideal S32768x55x4x4 .f32) (h : IsLocal Mn L tm) : Holds Mn L 30 (v_main_v113 (F := Ideal) tm) :=
  holds_step Mn L 29 29 rfl (v_main_v110 (F := Ideal) tm) (v_main_v112 (F := Ideal) tm) (inv29 Mn L tm h)
    (local_of Mn L tm h 30 (by decide) slices_S32768x55x4x4_S32768x1x4x4_0_30_0_0 shapeCasts_S32768x1x4x4_S32768x4x4)
theorem inv31 (tm : FVec Ideal S32768x55x4x4 .f32) (h : IsLocal Mn L tm) : Holds Mn L 31 (v_main_v116 (F := Ideal) tm) :=
  holds_step Mn L 20 30 rfl (v_main_v83 (F := Ideal) tm) (v_main_v115 (F := Ideal) tm) (inv20 Mn L tm h)
    (local_of Mn L tm h 31 (by decide) slices_S32768x55x4x4_S32768x1x4x4_0_31_0_0 shapeCasts_S32768x1x4x4_S32768x4x4)
theorem inv32 (tm : FVec Ideal S32768x55x4x4 .f32) (h : IsLocal Mn L tm) : Holds Mn L 32 (v_main_v119 (F := Ideal) tm) :=
  holds_step Mn L 31 31 rfl (v_main_v116 (F := Ideal) tm) (v_main_v118 (F := Ideal) tm) (inv31 Mn L tm h)
    (local_of Mn L tm h 32 (by decide) slices_S32768x55x4x4_S32768x1x4x4_0_32_0_0 shapeCasts_S32768x1x4x4_S32768x4x4)
theorem inv33 (tm : FVec Ideal S32768x55x4x4 .f32) (h : IsLocal Mn L tm) : Holds Mn L 33 (v_main_v122 (F := Ideal) tm) :=
  holds_step Mn L 32 32 rfl (v_main_v119 (F := Ideal) tm) (v_main_v121 (F := Ideal) tm) (inv32 Mn L tm h)
    (local_of Mn L tm h 33 (by decide) slices_S32768x55x4x4_S32768x1x4x4_0_33_0_0 shapeCasts_S32768x1x4x4_S32768x4x4)
theorem inv34 (tm : FVec Ideal S32768x55x4x4 .f32) (h : IsLocal Mn L tm) : Holds Mn L 34 (v_main_v125 (F := Ideal) tm) :=
  holds_step Mn L 20 33 rfl (v_main_v83 (F := Ideal) tm) (v_main_v124 (F := Ideal) tm) (inv20 Mn L tm h)
    (local_of Mn L tm h 34 (by decide) slices_S32768x55x4x4_S32768x1x4x4_0_34_0_0 shapeCasts_S32768x1x4x4_S32768x4x4)
theorem inv35 (tm : FVec Ideal S32768x55x4x4 .f32) (h : IsLocal Mn L tm) : Holds Mn L 35 (v_main_v128 (F := Ideal) tm) :=
  holds_step Mn L 34 34 rfl (v_main_v125 (F := Ideal) tm) (v_main_v127 (F := Ideal) tm) (inv34 Mn L tm h)
    (local_of Mn L tm h 35 (by decide) slices_S32768x55x4x4_S32768x1x4x4_0_35_0_0 shapeCasts_S32768x1x4x4_S32768x4x4)
theorem inv36 (tm : FVec Ideal S32768x55x4x4 .f32) (h : IsLocal Mn L tm) : Holds Mn L 36 (v_main_v131 (F := Ideal) tm) :=
  holds_step Mn L 35 35 rfl (v_main_v128 (F := Ideal) tm) (v_main_v130 (F := Ideal) tm) (inv35 Mn L tm h)
    (local_of Mn L tm h 36 (by decide) slices_S32768x55x4x4_S32768x1x4x4_0_36_0_0 shapeCasts_S32768x1x4x4_S32768x4x4)
theorem inv37 (tm : FVec Ideal S32768x55x4x4 .f32) (h : IsLocal Mn L tm) : Holds Mn L 37 (v_main_v134 (F := Ideal) tm) :=
  holds_step Mn L 20 36 rfl (v_main_v83 (F := Ideal) tm) (v_main_v133 (F := Ideal) tm) (inv20 Mn L tm h)
    (local_of Mn L tm h 37 (by decide) slices_S32768x55x4x4_S32768x1x4x4_0_37_0_0 shapeCasts_S32768x1x4x4_S32768x4x4)
theorem inv38 (tm : FVec Ideal S32768x55x4x4 .f32) (h : IsLocal Mn L tm) : Holds Mn L 38 (v_main_v137 (F := Ideal) tm) :=
  holds_step Mn L 37 37 rfl (v_main_v134 (F := Ideal) tm) (v_main_v136 (F := Ideal) tm) (inv37 Mn L tm h)
    (local_of Mn L tm h 38 (by decide) slices_S32768x55x4x4_S32768x1x4x4_0_38_0_0 shapeCasts_S32768x1x4x4_S32768x4x4)
theorem inv39 (tm : FVec Ideal S32768x55x4x4 .f32) (h : IsLocal Mn L tm) : Holds Mn L 39 (v_main_v140 (F := Ideal) tm) :=
  holds_step Mn L 38 38 rfl (v_main_v137 (F := Ideal) tm) (v_main_v139 (F := Ideal) tm) (inv38 Mn L tm h)
    (local_of Mn L tm h 39 (by decide) slices_S32768x55x4x4_S32768x1x4x4_0_39_0_0 shapeCasts_S32768x1x4x4_S32768x4x4)
theorem inv40 (tm : FVec Ideal S32768x55x4x4 .f32) (h : IsLocal Mn L tm) : Holds Mn L 40 (v_main_v143 (F := Ideal) tm) :=
  holds_step Mn L 21 39 rfl (v_main_v86 (F := Ideal) tm) (v_main_v142 (F := Ideal) tm) (inv21 Mn L tm h)
    (local_of Mn L tm h 40 (by decide) slices_S32768x55x4x4_S32768x1x4x4_0_40_0_0 shapeCasts_S32768x1x4x4_S32768x4x4)
theorem inv41 (tm : FVec Ideal S32768x55x4x4 .f32) (h : IsLocal Mn L tm) : Holds Mn L 41 (v_main_v146 (F := Ideal) tm) :=
  holds_step Mn L 40 40 rfl (v_main_v143 (F := Ideal) tm) (v_main_v145 (F := Ideal) tm) (inv40 Mn L tm h)
    (local_of Mn L tm h 41 (by decide) slices_S32768x55x4x4_S32768x1x4x4_0_41_0_0 shapeCasts_S32768x1x4x4_S32768x4x4)
theorem inv42 (tm : FVec Ideal S32768x55x4x4 .f32) (h : IsLocal Mn L tm) : Holds Mn L 42 (v_main_v149 (F := Ideal) tm) :=
  holds_step Mn L 41 41 rfl (v_main_v146 (F := Ideal) tm) (v_main_v148 (F := Ideal) tm) (inv41 Mn L tm h)
    (local_of Mn L tm h 42 (by decide) slices_S32768x55x4x4_S32768x1x4x4_0_42_0_0 shapeCasts_S32768x1x4x4_S32768x4x4)
theorem inv43 (tm : FVec Ideal S32768x55x4x4 .f32) (h : IsLocal Mn L tm) : Holds Mn L 43 (v_main_v152 (F := Ideal) tm) :=
  holds_step Mn L 21 42 rfl (v_main_v86 (F := Ideal) tm) (v_main_v151 (F := Ideal) tm) (inv21 Mn L tm h)
    (local_of Mn L tm h 43 (by decide) slices_S32768x55x4x4_S32768x1x4x4_0_43_0_0 shapeCasts_S32768x1x4x4_S32768x4x4)
theorem inv44 (tm : FVec Ideal S32768x55x4x4 .f32) (h : IsLocal Mn L tm) : Holds Mn L 44 (v_main_v155 (F := Ideal) tm) :=
  holds_step Mn L 43 43 rfl (v_main_v152 (F := Ideal) tm) (v_main_v154 (F := Ideal) tm) (inv43 Mn L tm h)
    (local_of Mn L tm h 44 (by decide) slices_S32768x55x4x4_S32768x1x4x4_0_44_0_0 shapeCasts_S32768x1x4x4_S32768x4x4)
theorem inv45 (tm : FVec Ideal S32768x55x4x4 .f32) (h : IsLocal Mn L tm) : Holds Mn L 45 (v_main_v158 (F := Ideal) tm) :=
  holds_step Mn L 44 44 rfl (v_main_v155 (F := Ideal) tm) (v_main_v157 (F := Ideal) tm) (inv44 Mn L tm h)
    (local_of Mn L tm h 45 (by decide) slices_S32768x55x4x4_S32768x1x4x4_0_45_0_0 shapeCasts_S32768x1x4x4_S32768x4x4)
theorem inv46 (tm : FVec Ideal S32768x55x4x4 .f32) (h : IsLocal Mn L tm) : Holds Mn L 46 (v_main_v161 (F := Ideal) tm) :=
  holds_step Mn L 21 45 rfl (v_main_v86 (F := Ideal) tm) (v_main_v160 (F := Ideal) tm) (inv21 Mn L tm h)
    (local_of Mn L tm h 46 (by decide) slices_S32768x55x4x4_S32768x1x4x4_0_46_0_0 shapeCasts_S32768x1x4x4_S32768x4x4)
theorem inv47 (tm : FVec Ideal S32768x55x4x4 .f32) (h : IsLocal Mn L tm) : Holds Mn L 47 (v_main_v164 (F := Ideal) tm) :=
  holds_step Mn L 46 46 rfl (v_main_v161 (F := Ideal) tm) (v_main_v163 (F := Ideal) tm) (inv46 Mn L tm h)
    (local_of Mn L tm h 47 (by decide) slices_S32768x55x4x4_S32768x1x4x4_0_47_0_0 shapeCasts_S32768x1x4x4_S32768x4x4)
theorem inv48 (tm : FVec Ideal S32768x55x4x4 .f32) (h : IsLocal Mn L tm) : Holds Mn L 48 (v_main_v167 (F := Ideal) tm) :=
  holds_step Mn L 47 47 rfl (v_main_v164 (F := Ideal) tm) (v_main_v166 (F := Ideal) tm) (inv47 Mn L tm h)
    (local_of Mn L tm h 48 (by decide) slices_S32768x55x4x4_S32768x1x4x4_0_48_0_0 shapeCasts_S32768x1x4x4_S32768x4x4)
theorem inv49 (tm : FVec Ideal S32768x55x4x4 .f32) (h : IsLocal Mn L tm) : Holds Mn L 49 (v_main_v170 (F := Ideal) tm) :=
  holds_step Mn L 21 48 rfl (v_main_v86 (F := Ideal) tm) (v_main_v169 (F := Ideal) tm) (inv21 Mn L tm h)
    (local_of Mn L tm h 49 (by decide) slices_S32768x55x4x4_S32768x1x4x4_0_49_0_0 shapeCasts_S32768x1x4x4_S32768x4x4)
theorem inv50 (tm : FVec Ideal S32768x55x4x4 .f32) (h : IsLocal Mn L tm) : Holds Mn L 50 (v_main_v173 (F := Ideal) tm) :=
  holds_step Mn L 49 49 rfl (v_main_v170 (F := Ideal) tm) (v_main_v172 (F := Ideal) tm) (inv49 Mn L tm h)
    (local_of Mn L tm h 50 (by decide) slices_S32768x55x4x4_S32768x1x4x4_0_50_0_0 shapeCasts_S32768x1x4x4_S32768x4x4)
theorem inv51 (tm : FVec Ideal S32768x55x4x4 .f32) (h : IsLocal Mn L tm) : Holds Mn L 51 (v_main_v176 (F := Ideal) tm) :=
  holds_step Mn L 50 50 rfl (v_main_v173 (F := Ideal) tm) (v_main_v175 (F := Ideal) tm) (inv50 Mn L tm h)
    (local_of Mn L tm h 51 (by decide) slices_S32768x55x4x4_S32768x1x4x4_0_51_0_0 shapeCasts_S32768x1x4x4_S32768x4x4)
theorem inv52 (tm : FVec Ideal S32768x55x4x4 .f32) (h : IsLocal Mn L tm) : Holds Mn L 52 (v_main_v179 (F := Ideal) tm) :=
  holds_step Mn L 21 51 rfl (v_main_v86 (F := Ideal) tm) (v_main_v178 (F := Ideal) tm) (inv21 Mn L tm h)
    (local_of Mn L tm h 52 (by decide) slices_S32768x55x4x4_S32768x1x4x4_0_52_0_0 shapeCasts_S32768x1x4x4_S32768x4x4)
theorem inv53 (tm : FVec Ideal S32768x55x4x4 .f32) (h : IsLocal Mn L tm) : Holds Mn L 53 (v_main_v182 (F := Ideal) tm) :=
  holds_step Mn L 52 52 rfl (v_main_v179 (F := Ideal) tm) (v_main_v181 (F := Ideal) tm) (inv52 Mn L tm h)
    (local_of Mn L tm h 53 (by decide) slices_S32768x55x4x4_S32768x1x4x4_0_53_0_0 shapeCasts_S32768x1x4x4_S32768x4x4)
theorem inv54 (tm : FVec Ideal S32768x55x4x4 .f32) (h : IsLocal Mn L tm) : Holds Mn L 54 (v_main_v185 (F := Ideal) tm) :=
  holds_step Mn L 53 53 rfl (v_main_v182 (F := Ideal) tm) (v_main_v184 (F := Ideal) tm) (inv53 Mn L tm h)
    (local_of Mn L tm h 54 (by decide) slices_S32768x55x4x4_S32768x1x4x4_0_54_0_0 shapeCasts_S32768x1x4x4_S32768x4x4)

end Joints

/-! ## Every joint's matrix in the stack -/

theorem read0 (tm : FVec Ideal S32768x55x4x4 .f32) (n : Fin 32768) (a c : Fin 4) :
    v_main_v245 (F := Ideal) tm (ix4 n ⟨0, by decide⟩ a c) = v_main_v23 (F := Ideal) tm (ix3 n a c) :=
  (cat_axis1_apply _ _ 0 (by simp) (v_main_v241 (F := Ideal) tm) rfl 0 (by simp) n ⟨0, by decide⟩ ⟨0, by decide⟩ a c rfl).trans
    ((cat_axis1_apply _ _ 0 (by simp) (v_main_v186 (F := Ideal) tm) rfl 0 (by simp) n ⟨0, by decide⟩ ⟨0, by decide⟩ a c rfl).trans
      (bcast_apply (v_main_v23 (F := Ideal) tm) _ n ⟨0, by decide⟩ a c))
theorem read1 (tm : FVec Ideal S32768x55x4x4 .f32) (n : Fin 32768) (a c : Fin 4) :
    v_main_v245 (F := Ideal) tm (ix4 n ⟨1, by decide⟩ a c) = v_main_v26 (F := Ideal) tm (ix3 n a c) :=
  (cat_axis1_apply _ _ 0 (by simp) (v_main_v241 (F := Ideal) tm) rfl 0 (by simp) n ⟨1, by decide⟩ ⟨1, by decide⟩ a c rfl).trans
    ((cat_axis1_apply _ _ 1 (by simp) (v_main_v187 (F := Ideal) tm) rfl 1 (by simp) n ⟨1, by decide⟩ ⟨0, by decide⟩ a c rfl).trans
      (bcast_apply (v_main_v26 (F := Ideal) tm) _ n ⟨0, by decide⟩ a c))
theorem read2 (tm : FVec Ideal S32768x55x4x4 .f32) (n : Fin 32768) (a c : Fin 4) :
    v_main_v245 (F := Ideal) tm (ix4 n ⟨2, by decide⟩ a c) = v_main_v29 (F := Ideal) tm (ix3 n a c) :=
  (cat_axis1_apply _ _ 0 (by simp) (v_main_v241 (F := Ideal) tm) rfl 0 (by simp) n ⟨2, by decide⟩ ⟨2, by decide⟩ a c rfl).trans
    ((cat_axis1_apply _ _ 2 (by simp) (v_main_v188 (F := Ideal) tm) rfl 2 (by simp) n ⟨2, by decide⟩ ⟨0, by decide⟩ a c rfl).trans
      (bcast_apply (v_main_v29 (F := Ideal) tm) _ n ⟨0, by decide⟩ a c))
theorem read3 (tm : FVec Ideal S32768x55x4x4 .f32) (n : Fin 32768) (a c : Fin 4) :
    v_main_v245 (F := Ideal) tm (ix4 n ⟨3, by decide⟩ a c) = v_main_v32 (F := Ideal) tm (ix3 n a c) :=
  (cat_axis1_apply _ _ 0 (by simp) (v_main_v241 (F := Ideal) tm) rfl 0 (by simp) n ⟨3, by decide⟩ ⟨3, by decide⟩ a c rfl).trans
    ((cat_axis1_apply _ _ 3 (by simp) (v_main_v189 (F := Ideal) tm) rfl 3 (by simp) n ⟨3, by decide⟩ ⟨0, by decide⟩ a c rfl).trans
      (bcast_apply (v_main_v32 (F := Ideal) tm) _ n ⟨0, by decide⟩ a c))
theorem read4 (tm : FVec Ideal S32768x55x4x4 .f32) (n : Fin 32768) (a c : Fin 4) :
    v_main_v245 (F := Ideal) tm (ix4 n ⟨4, by decide⟩ a c) = v_main_v35 (F := Ideal) tm (ix3 n a c) :=
  (cat_axis1_apply _ _ 0 (by simp) (v_main_v241 (F := Ideal) tm) rfl 0 (by simp) n ⟨4, by decide⟩ ⟨4, by decide⟩ a c rfl).trans
    ((cat_axis1_apply _ _ 4 (by simp) (v_main_v190 (F := Ideal) tm) rfl 4 (by simp) n ⟨4, by decide⟩ ⟨0, by decide⟩ a c rfl).trans
      (bcast_apply (v_main_v35 (F := Ideal) tm) _ n ⟨0, by decide⟩ a c))
theorem read5 (tm : FVec Ideal S32768x55x4x4 .f32) (n : Fin 32768) (a c : Fin 4) :
    v_main_v245 (F := Ideal) tm (ix4 n ⟨5, by decide⟩ a c) = v_main_v38 (F := Ideal) tm (ix3 n a c) :=
  (cat_axis1_apply _ _ 0 (by simp) (v_main_v241 (F := Ideal) tm) rfl 0 (by simp) n ⟨5, by decide⟩ ⟨5, by decide⟩ a c rfl).trans
    ((cat_axis1_apply _ _ 5 (by simp) (v_main_v191 (F := Ideal) tm) rfl 5 (by simp) n ⟨5, by decide⟩ ⟨0, by decide⟩ a c rfl).trans
      (bcast_apply (v_main_v38 (F := Ideal) tm) _ n ⟨0, by decide⟩ a c))
theorem read6 (tm : FVec Ideal S32768x55x4x4 .f32) (n : Fin 32768) (a c : Fin 4) :
    v_main_v245 (F := Ideal) tm (ix4 n ⟨6, by decide⟩ a c) = v_main_v41 (F := Ideal) tm (ix3 n a c) :=
  (cat_axis1_apply _ _ 0 (by simp) (v_main_v241 (F := Ideal) tm) rfl 0 (by simp) n ⟨6, by decide⟩ ⟨6, by decide⟩ a c rfl).trans
    ((cat_axis1_apply _ _ 6 (by simp) (v_main_v192 (F := Ideal) tm) rfl 6 (by simp) n ⟨6, by decide⟩ ⟨0, by decide⟩ a c rfl).trans
      (bcast_apply (v_main_v41 (F := Ideal) tm) _ n ⟨0, by decide⟩ a c))
theorem read7 (tm : FVec Ideal S32768x55x4x4 .f32) (n : Fin 32768) (a c : Fin 4) :
    v_main_v245 (F := Ideal) tm (ix4 n ⟨7, by decide⟩ a c) = v_main_v44 (F := Ideal) tm (ix3 n a c) :=
  (cat_axis1_apply _ _ 0 (by simp) (v_main_v241 (F := Ideal) tm) rfl 0 (by simp) n ⟨7, by decide⟩ ⟨7, by decide⟩ a c rfl).trans
    ((cat_axis1_apply _ _ 7 (by simp) (v_main_v193 (F := Ideal) tm) rfl 7 (by simp) n ⟨7, by decide⟩ ⟨0, by decide⟩ a c rfl).trans
      (bcast_apply (v_main_v44 (F := Ideal) tm) _ n ⟨0, by decide⟩ a c))
theorem read8 (tm : FVec Ideal S32768x55x4x4 .f32) (n : Fin 32768) (a c : Fin 4) :
    v_main_v245 (F := Ideal) tm (ix4 n ⟨8, by decide⟩ a c) = v_main_v47 (F := Ideal) tm (ix3 n a c) :=
  (cat_axis1_apply _ _ 0 (by simp) (v_main_v241 (F := Ideal) tm) rfl 0 (by simp) n ⟨8, by decide⟩ ⟨8, by decide⟩ a c rfl).trans
    ((cat_axis1_apply _ _ 8 (by simp) (v_main_v194 (F := Ideal) tm) rfl 8 (by simp) n ⟨8, by decide⟩ ⟨0, by decide⟩ a c rfl).trans
      (bcast_apply (v_main_v47 (F := Ideal) tm) _ n ⟨0, by decide⟩ a c))
theorem read9 (tm : FVec Ideal S32768x55x4x4 .f32) (n : Fin 32768) (a c : Fin 4) :
    v_main_v245 (F := Ideal) tm (ix4 n ⟨9, by decide⟩ a c) = v_main_v50 (F := Ideal) tm (ix3 n a c) :=
  (cat_axis1_apply _ _ 0 (by simp) (v_main_v241 (F := Ideal) tm) rfl 0 (by simp) n ⟨9, by decide⟩ ⟨9, by decide⟩ a c rfl).trans
    ((cat_axis1_apply _ _ 9 (by simp) (v_main_v195 (F := Ideal) tm) rfl 9 (by simp) n ⟨9, by decide⟩ ⟨0, by decide⟩ a c rfl).trans
      (bcast_apply (v_main_v50 (F := Ideal) tm) _ n ⟨0, by decide⟩ a c))
theorem read10 (tm : FVec Ideal S32768x55x4x4 .f32) (n : Fin 32768) (a c : Fin 4) :
    v_main_v245 (F := Ideal) tm (ix4 n ⟨10, by decide⟩ a c) = v_main_v53 (F := Ideal) tm (ix3 n a c) :=
  (cat_axis1_apply _ _ 0 (by simp) (v_main_v241 (F := Ideal) tm) rfl 0 (by simp) n ⟨10, by decide⟩ ⟨10, by decide⟩ a c rfl).trans
    ((cat_axis1_apply _ _ 10 (by simp) (v_main_v196 (F := Ideal) tm) rfl 10 (by simp) n ⟨10, by decide⟩ ⟨0, by decide⟩ a c rfl).trans
      (bcast_apply (v_main_v53 (F := Ideal) tm) _ n ⟨0, by decide⟩ a c))
theorem read11 (tm : FVec Ideal S32768x55x4x4 .f32) (n : Fin 32768) (a c : Fin 4) :
    v_main_v245 (F := Ideal) tm (ix4 n ⟨11, by decide⟩ a c) = v_main_v56 (F := Ideal) tm (ix3 n a c) :=
  (cat_axis1_apply _ _ 0 (by simp) (v_main_v241 (F := Ideal) tm) rfl 0 (by simp) n ⟨11, by decide⟩ ⟨11, by decide⟩ a c rfl).trans
    ((cat_axis1_apply _ _ 11 (by simp) (v_main_v197 (F := Ideal) tm) rfl 11 (by simp) n ⟨11, by decide⟩ ⟨0, by decide⟩ a c rfl).trans
      (bcast_apply (v_main_v56 (F := Ideal) tm) _ n ⟨0, by decide⟩ a c))
theorem read12 (tm : FVec Ideal S32768x55x4x4 .f32) (n : Fin 32768) (a c : Fin 4) :
    v_main_v245 (F := Ideal) tm (ix4 n ⟨12, by decide⟩ a c) = v_main_v59 (F := Ideal) tm (ix3 n a c) :=
  (cat_axis1_apply _ _ 0 (by simp) (v_main_v241 (F := Ideal) tm) rfl 0 (by simp) n ⟨12, by decide⟩ ⟨12, by decide⟩ a c rfl).trans
    ((cat_axis1_apply _ _ 12 (by simp) (v_main_v198 (F := Ideal) tm) rfl 12 (by simp) n ⟨12, by decide⟩ ⟨0, by decide⟩ a c rfl).trans
      (bcast_apply (v_main_v59 (F := Ideal) tm) _ n ⟨0, by decide⟩ a c))
theorem read13 (tm : FVec Ideal S32768x55x4x4 .f32) (n : Fin 32768) (a c : Fin 4) :
    v_main_v245 (F := Ideal) tm (ix4 n ⟨13, by decide⟩ a c) = v_main_v62 (F := Ideal) tm (ix3 n a c) :=
  (cat_axis1_apply _ _ 0 (by simp) (v_main_v241 (F := Ideal) tm) rfl 0 (by simp) n ⟨13, by decide⟩ ⟨13, by decide⟩ a c rfl).trans
    ((cat_axis1_apply _ _ 13 (by simp) (v_main_v199 (F := Ideal) tm) rfl 13 (by simp) n ⟨13, by decide⟩ ⟨0, by decide⟩ a c rfl).trans
      (bcast_apply (v_main_v62 (F := Ideal) tm) _ n ⟨0, by decide⟩ a c))
theorem read14 (tm : FVec Ideal S32768x55x4x4 .f32) (n : Fin 32768) (a c : Fin 4) :
    v_main_v245 (F := Ideal) tm (ix4 n ⟨14, by decide⟩ a c) = v_main_v65 (F := Ideal) tm (ix3 n a c) :=
  (cat_axis1_apply _ _ 0 (by simp) (v_main_v241 (F := Ideal) tm) rfl 0 (by simp) n ⟨14, by decide⟩ ⟨14, by decide⟩ a c rfl).trans
    ((cat_axis1_apply _ _ 14 (by simp) (v_main_v200 (F := Ideal) tm) rfl 14 (by simp) n ⟨14, by decide⟩ ⟨0, by decide⟩ a c rfl).trans
      (bcast_apply (v_main_v65 (F := Ideal) tm) _ n ⟨0, by decide⟩ a c))
theorem read15 (tm : FVec Ideal S32768x55x4x4 .f32) (n : Fin 32768) (a c : Fin 4) :
    v_main_v245 (F := Ideal) tm (ix4 n ⟨15, by decide⟩ a c) = v_main_v68 (F := Ideal) tm (ix3 n a c) :=
  (cat_axis1_apply _ _ 0 (by simp) (v_main_v241 (F := Ideal) tm) rfl 0 (by simp) n ⟨15, by decide⟩ ⟨15, by decide⟩ a c rfl).trans
    ((cat_axis1_apply _ _ 15 (by simp) (v_main_v201 (F := Ideal) tm) rfl 15 (by simp) n ⟨15, by decide⟩ ⟨0, by decide⟩ a c rfl).trans
      (bcast_apply (v_main_v68 (F := Ideal) tm) _ n ⟨0, by decide⟩ a c))
theorem read16 (tm : FVec Ideal S32768x55x4x4 .f32) (n : Fin 32768) (a c : Fin 4) :
    v_main_v245 (F := Ideal) tm (ix4 n ⟨16, by decide⟩ a c) = v_main_v71 (F := Ideal) tm (ix3 n a c) :=
  (cat_axis1_apply _ _ 1 (by simp) (v_main_v242 (F := Ideal) tm) rfl 16 (by simp) n ⟨16, by decide⟩ ⟨0, by decide⟩ a c rfl).trans
    ((cat_axis1_apply _ _ 0 (by simp) (v_main_v202 (F := Ideal) tm) rfl 0 (by simp) n ⟨0, by decide⟩ ⟨0, by decide⟩ a c rfl).trans
      (bcast_apply (v_main_v71 (F := Ideal) tm) _ n ⟨0, by decide⟩ a c))
theorem read17 (tm : FVec Ideal S32768x55x4x4 .f32) (n : Fin 32768) (a c : Fin 4) :
    v_main_v245 (F := Ideal) tm (ix4 n ⟨17, by decide⟩ a c) = v_main_v74 (F := Ideal) tm (ix3 n a c) :=
  (cat_axis1_apply _ _ 1 (by simp) (v_main_v242 (F := Ideal) tm) rfl 16 (by simp) n ⟨17, by decide⟩ ⟨1, by decide⟩ a c rfl).trans
    ((cat_axis1_apply _ _ 1 (by simp) (v_main_v203 (F := Ideal) tm) rfl 1 (by simp) n ⟨1, by decide⟩ ⟨0, by decide⟩ a c rfl).trans
      (bcast_apply (v_main_v74 (F := Ideal) tm) _ n ⟨0, by decide⟩ a c))
theorem read18 (tm : FVec Ideal S32768x55x4x4 .f32) (n : Fin 32768) (a c : Fin 4) :
    v_main_v245 (F := Ideal) tm (ix4 n ⟨18, by decide⟩ a c) = v_main_v77 (F := Ideal) tm (ix3 n a c) :=
  (cat_axis1_apply _ _ 1 (by simp) (v_main_v242 (F := Ideal) tm) rfl 16 (by simp) n ⟨18, by decide⟩ ⟨2, by decide⟩ a c rfl).trans
    ((cat_axis1_apply _ _ 2 (by simp) (v_main_v204 (F := Ideal) tm) rfl 2 (by simp) n ⟨2, by decide⟩ ⟨0, by decide⟩ a c rfl).trans
      (bcast_apply (v_main_v77 (F := Ideal) tm) _ n ⟨0, by decide⟩ a c))
theorem read19 (tm : FVec Ideal S32768x55x4x4 .f32) (n : Fin 32768) (a c : Fin 4) :
    v_main_v245 (F := Ideal) tm (ix4 n ⟨19, by decide⟩ a c) = v_main_v80 (F := Ideal) tm (ix3 n a c) :=
  (cat_axis1_apply _ _ 1 (by simp) (v_main_v242 (F := Ideal) tm) rfl 16 (by simp) n ⟨19, by decide⟩ ⟨3, by decide⟩ a c rfl).trans
    ((cat_axis1_apply _ _ 3 (by simp) (v_main_v205 (F := Ideal) tm) rfl 3 (by simp) n ⟨3, by decide⟩ ⟨0, by decide⟩ a c rfl).trans
      (bcast_apply (v_main_v80 (F := Ideal) tm) _ n ⟨0, by decide⟩ a c))
theorem read20 (tm : FVec Ideal S32768x55x4x4 .f32) (n : Fin 32768) (a c : Fin 4) :
    v_main_v245 (F := Ideal) tm (ix4 n ⟨20, by decide⟩ a c) = v_main_v83 (F := Ideal) tm (ix3 n a c) :=
  (cat_axis1_apply _ _ 1 (by simp) (v_main_v242 (F := Ideal) tm) rfl 16 (by simp) n ⟨20, by decide⟩ ⟨4, by decide⟩ a c rfl).trans
    ((cat_axis1_apply _ _ 4 (by simp) (v_main_v206 (F := Ideal) tm) rfl 4 (by simp) n ⟨4, by decide⟩ ⟨0, by decide⟩ a c rfl).trans
      (bcast_apply (v_main_v83 (F := Ideal) tm) _ n ⟨0, by decide⟩ a c))
theorem read21 (tm : FVec Ideal S32768x55x4x4 .f32) (n : Fin 32768) (a c : Fin 4) :
    v_main_v245 (F := Ideal) tm (ix4 n ⟨21, by decide⟩ a c) = v_main_v86 (F := Ideal) tm (ix3 n a c) :=
  (cat_axis1_apply _ _ 1 (by simp) (v_main_v242 (F := Ideal) tm) rfl 16 (by simp) n ⟨21, by decide⟩ ⟨5, by decide⟩ a c rfl).trans
    ((cat_axis1_apply _ _ 5 (by simp) (v_main_v207 (F := Ideal) tm) rfl 5 (by simp) n ⟨5, by decide⟩ ⟨0, by decide⟩ a c rfl).trans
      (bcast_apply (v_main_v86 (F := Ideal) tm) _ n ⟨0, by decide⟩ a c))
theorem read22 (tm : FVec Ideal S32768x55x4x4 .f32) (n : Fin 32768) (a c : Fin 4) :
    v_main_v245 (F := Ideal) tm (ix4 n ⟨22, by decide⟩ a c) = v_main_v89 (F := Ideal) tm (ix3 n a c) :=
  (cat_axis1_apply _ _ 1 (by simp) (v_main_v242 (F := Ideal) tm) rfl 16 (by simp) n ⟨22, by decide⟩ ⟨6, by decide⟩ a c rfl).trans
    ((cat_axis1_apply _ _ 6 (by simp) (v_main_v208 (F := Ideal) tm) rfl 6 (by simp) n ⟨6, by decide⟩ ⟨0, by decide⟩ a c rfl).trans
      (bcast_apply (v_main_v89 (F := Ideal) tm) _ n ⟨0, by decide⟩ a c))
theorem read23 (tm : FVec Ideal S32768x55x4x4 .f32) (n : Fin 32768) (a c : Fin 4) :
    v_main_v245 (F := Ideal) tm (ix4 n ⟨23, by decide⟩ a c) = v_main_v92 (F := Ideal) tm (ix3 n a c) :=
  (cat_axis1_apply _ _ 1 (by simp) (v_main_v242 (F := Ideal) tm) rfl 16 (by simp) n ⟨23, by decide⟩ ⟨7, by decide⟩ a c rfl).trans
    ((cat_axis1_apply _ _ 7 (by simp) (v_main_v209 (F := Ideal) tm) rfl 7 (by simp) n ⟨7, by decide⟩ ⟨0, by decide⟩ a c rfl).trans
      (bcast_apply (v_main_v92 (F := Ideal) tm) _ n ⟨0, by decide⟩ a c))
theorem read24 (tm : FVec Ideal S32768x55x4x4 .f32) (n : Fin 32768) (a c : Fin 4) :
    v_main_v245 (F := Ideal) tm (ix4 n ⟨24, by decide⟩ a c) = v_main_v95 (F := Ideal) tm (ix3 n a c) :=
  (cat_axis1_apply _ _ 1 (by simp) (v_main_v242 (F := Ideal) tm) rfl 16 (by simp) n ⟨24, by decide⟩ ⟨8, by decide⟩ a c rfl).trans
    ((cat_axis1_apply _ _ 8 (by simp) (v_main_v210 (F := Ideal) tm) rfl 8 (by simp) n ⟨8, by decide⟩ ⟨0, by decide⟩ a c rfl).trans
      (bcast_apply (v_main_v95 (F := Ideal) tm) _ n ⟨0, by decide⟩ a c))
theorem read25 (tm : FVec Ideal S32768x55x4x4 .f32) (n : Fin 32768) (a c : Fin 4) :
    v_main_v245 (F := Ideal) tm (ix4 n ⟨25, by decide⟩ a c) = v_main_v98 (F := Ideal) tm (ix3 n a c) :=
  (cat_axis1_apply _ _ 1 (by simp) (v_main_v242 (F := Ideal) tm) rfl 16 (by simp) n ⟨25, by decide⟩ ⟨9, by decide⟩ a c rfl).trans
    ((cat_axis1_apply _ _ 9 (by simp) (v_main_v211 (F := Ideal) tm) rfl 9 (by simp) n ⟨9, by decide⟩ ⟨0, by decide⟩ a c rfl).trans
      (bcast_apply (v_main_v98 (F := Ideal) tm) _ n ⟨0, by decide⟩ a c))
theorem read26 (tm : FVec Ideal S32768x55x4x4 .f32) (n : Fin 32768) (a c : Fin 4) :
    v_main_v245 (F := Ideal) tm (ix4 n ⟨26, by decide⟩ a c) = v_main_v101 (F := Ideal) tm (ix3 n a c) :=
  (cat_axis1_apply _ _ 1 (by simp) (v_main_v242 (F := Ideal) tm) rfl 16 (by simp) n ⟨26, by decide⟩ ⟨10, by decide⟩ a c rfl).trans
    ((cat_axis1_apply _ _ 10 (by simp) (v_main_v212 (F := Ideal) tm) rfl 10 (by simp) n ⟨10, by decide⟩ ⟨0, by decide⟩ a c rfl).trans
      (bcast_apply (v_main_v101 (F := Ideal) tm) _ n ⟨0, by decide⟩ a c))
theorem read27 (tm : FVec Ideal S32768x55x4x4 .f32) (n : Fin 32768) (a c : Fin 4) :
    v_main_v245 (F := Ideal) tm (ix4 n ⟨27, by decide⟩ a c) = v_main_v104 (F := Ideal) tm (ix3 n a c) :=
  (cat_axis1_apply _ _ 1 (by simp) (v_main_v242 (F := Ideal) tm) rfl 16 (by simp) n ⟨27, by decide⟩ ⟨11, by decide⟩ a c rfl).trans
    ((cat_axis1_apply _ _ 11 (by simp) (v_main_v213 (F := Ideal) tm) rfl 11 (by simp) n ⟨11, by decide⟩ ⟨0, by decide⟩ a c rfl).trans
      (bcast_apply (v_main_v104 (F := Ideal) tm) _ n ⟨0, by decide⟩ a c))
theorem read28 (tm : FVec Ideal S32768x55x4x4 .f32) (n : Fin 32768) (a c : Fin 4) :
    v_main_v245 (F := Ideal) tm (ix4 n ⟨28, by decide⟩ a c) = v_main_v107 (F := Ideal) tm (ix3 n a c) :=
  (cat_axis1_apply _ _ 1 (by simp) (v_main_v242 (F := Ideal) tm) rfl 16 (by simp) n ⟨28, by decide⟩ ⟨12, by decide⟩ a c rfl).trans
    ((cat_axis1_apply _ _ 12 (by simp) (v_main_v214 (F := Ideal) tm) rfl 12 (by simp) n ⟨12, by decide⟩ ⟨0, by decide⟩ a c rfl).trans
      (bcast_apply (v_main_v107 (F := Ideal) tm) _ n ⟨0, by decide⟩ a c))
theorem read29 (tm : FVec Ideal S32768x55x4x4 .f32) (n : Fin 32768) (a c : Fin 4) :
    v_main_v245 (F := Ideal) tm (ix4 n ⟨29, by decide⟩ a c) = v_main_v110 (F := Ideal) tm (ix3 n a c) :=
  (cat_axis1_apply _ _ 1 (by simp) (v_main_v242 (F := Ideal) tm) rfl 16 (by simp) n ⟨29, by decide⟩ ⟨13, by decide⟩ a c rfl).trans
    ((cat_axis1_apply _ _ 13 (by simp) (v_main_v215 (F := Ideal) tm) rfl 13 (by simp) n ⟨13, by decide⟩ ⟨0, by decide⟩ a c rfl).trans
      (bcast_apply (v_main_v110 (F := Ideal) tm) _ n ⟨0, by decide⟩ a c))
theorem read30 (tm : FVec Ideal S32768x55x4x4 .f32) (n : Fin 32768) (a c : Fin 4) :
    v_main_v245 (F := Ideal) tm (ix4 n ⟨30, by decide⟩ a c) = v_main_v113 (F := Ideal) tm (ix3 n a c) :=
  (cat_axis1_apply _ _ 1 (by simp) (v_main_v242 (F := Ideal) tm) rfl 16 (by simp) n ⟨30, by decide⟩ ⟨14, by decide⟩ a c rfl).trans
    ((cat_axis1_apply _ _ 14 (by simp) (v_main_v216 (F := Ideal) tm) rfl 14 (by simp) n ⟨14, by decide⟩ ⟨0, by decide⟩ a c rfl).trans
      (bcast_apply (v_main_v113 (F := Ideal) tm) _ n ⟨0, by decide⟩ a c))
theorem read31 (tm : FVec Ideal S32768x55x4x4 .f32) (n : Fin 32768) (a c : Fin 4) :
    v_main_v245 (F := Ideal) tm (ix4 n ⟨31, by decide⟩ a c) = v_main_v116 (F := Ideal) tm (ix3 n a c) :=
  (cat_axis1_apply _ _ 1 (by simp) (v_main_v242 (F := Ideal) tm) rfl 16 (by simp) n ⟨31, by decide⟩ ⟨15, by decide⟩ a c rfl).trans
    ((cat_axis1_apply _ _ 15 (by simp) (v_main_v217 (F := Ideal) tm) rfl 15 (by simp) n ⟨15, by decide⟩ ⟨0, by decide⟩ a c rfl).trans
      (bcast_apply (v_main_v116 (F := Ideal) tm) _ n ⟨0, by decide⟩ a c))
theorem read32 (tm : FVec Ideal S32768x55x4x4 .f32) (n : Fin 32768) (a c : Fin 4) :
    v_main_v245 (F := Ideal) tm (ix4 n ⟨32, by decide⟩ a c) = v_main_v119 (F := Ideal) tm (ix3 n a c) :=
  (cat_axis1_apply _ _ 2 (by simp) (v_main_v243 (F := Ideal) tm) rfl 32 (by simp) n ⟨32, by decide⟩ ⟨0, by decide⟩ a c rfl).trans
    ((cat_axis1_apply _ _ 0 (by simp) (v_main_v218 (F := Ideal) tm) rfl 0 (by simp) n ⟨0, by decide⟩ ⟨0, by decide⟩ a c rfl).trans
      (bcast_apply (v_main_v119 (F := Ideal) tm) _ n ⟨0, by decide⟩ a c))
theorem read33 (tm : FVec Ideal S32768x55x4x4 .f32) (n : Fin 32768) (a c : Fin 4) :
    v_main_v245 (F := Ideal) tm (ix4 n ⟨33, by decide⟩ a c) = v_main_v122 (F := Ideal) tm (ix3 n a c) :=
  (cat_axis1_apply _ _ 2 (by simp) (v_main_v243 (F := Ideal) tm) rfl 32 (by simp) n ⟨33, by decide⟩ ⟨1, by decide⟩ a c rfl).trans
    ((cat_axis1_apply _ _ 1 (by simp) (v_main_v219 (F := Ideal) tm) rfl 1 (by simp) n ⟨1, by decide⟩ ⟨0, by decide⟩ a c rfl).trans
      (bcast_apply (v_main_v122 (F := Ideal) tm) _ n ⟨0, by decide⟩ a c))
theorem read34 (tm : FVec Ideal S32768x55x4x4 .f32) (n : Fin 32768) (a c : Fin 4) :
    v_main_v245 (F := Ideal) tm (ix4 n ⟨34, by decide⟩ a c) = v_main_v125 (F := Ideal) tm (ix3 n a c) :=
  (cat_axis1_apply _ _ 2 (by simp) (v_main_v243 (F := Ideal) tm) rfl 32 (by simp) n ⟨34, by decide⟩ ⟨2, by decide⟩ a c rfl).trans
    ((cat_axis1_apply _ _ 2 (by simp) (v_main_v220 (F := Ideal) tm) rfl 2 (by simp) n ⟨2, by decide⟩ ⟨0, by decide⟩ a c rfl).trans
      (bcast_apply (v_main_v125 (F := Ideal) tm) _ n ⟨0, by decide⟩ a c))
theorem read35 (tm : FVec Ideal S32768x55x4x4 .f32) (n : Fin 32768) (a c : Fin 4) :
    v_main_v245 (F := Ideal) tm (ix4 n ⟨35, by decide⟩ a c) = v_main_v128 (F := Ideal) tm (ix3 n a c) :=
  (cat_axis1_apply _ _ 2 (by simp) (v_main_v243 (F := Ideal) tm) rfl 32 (by simp) n ⟨35, by decide⟩ ⟨3, by decide⟩ a c rfl).trans
    ((cat_axis1_apply _ _ 3 (by simp) (v_main_v221 (F := Ideal) tm) rfl 3 (by simp) n ⟨3, by decide⟩ ⟨0, by decide⟩ a c rfl).trans
      (bcast_apply (v_main_v128 (F := Ideal) tm) _ n ⟨0, by decide⟩ a c))
theorem read36 (tm : FVec Ideal S32768x55x4x4 .f32) (n : Fin 32768) (a c : Fin 4) :
    v_main_v245 (F := Ideal) tm (ix4 n ⟨36, by decide⟩ a c) = v_main_v131 (F := Ideal) tm (ix3 n a c) :=
  (cat_axis1_apply _ _ 2 (by simp) (v_main_v243 (F := Ideal) tm) rfl 32 (by simp) n ⟨36, by decide⟩ ⟨4, by decide⟩ a c rfl).trans
    ((cat_axis1_apply _ _ 4 (by simp) (v_main_v222 (F := Ideal) tm) rfl 4 (by simp) n ⟨4, by decide⟩ ⟨0, by decide⟩ a c rfl).trans
      (bcast_apply (v_main_v131 (F := Ideal) tm) _ n ⟨0, by decide⟩ a c))
theorem read37 (tm : FVec Ideal S32768x55x4x4 .f32) (n : Fin 32768) (a c : Fin 4) :
    v_main_v245 (F := Ideal) tm (ix4 n ⟨37, by decide⟩ a c) = v_main_v134 (F := Ideal) tm (ix3 n a c) :=
  (cat_axis1_apply _ _ 2 (by simp) (v_main_v243 (F := Ideal) tm) rfl 32 (by simp) n ⟨37, by decide⟩ ⟨5, by decide⟩ a c rfl).trans
    ((cat_axis1_apply _ _ 5 (by simp) (v_main_v223 (F := Ideal) tm) rfl 5 (by simp) n ⟨5, by decide⟩ ⟨0, by decide⟩ a c rfl).trans
      (bcast_apply (v_main_v134 (F := Ideal) tm) _ n ⟨0, by decide⟩ a c))
theorem read38 (tm : FVec Ideal S32768x55x4x4 .f32) (n : Fin 32768) (a c : Fin 4) :
    v_main_v245 (F := Ideal) tm (ix4 n ⟨38, by decide⟩ a c) = v_main_v137 (F := Ideal) tm (ix3 n a c) :=
  (cat_axis1_apply _ _ 2 (by simp) (v_main_v243 (F := Ideal) tm) rfl 32 (by simp) n ⟨38, by decide⟩ ⟨6, by decide⟩ a c rfl).trans
    ((cat_axis1_apply _ _ 6 (by simp) (v_main_v224 (F := Ideal) tm) rfl 6 (by simp) n ⟨6, by decide⟩ ⟨0, by decide⟩ a c rfl).trans
      (bcast_apply (v_main_v137 (F := Ideal) tm) _ n ⟨0, by decide⟩ a c))
theorem read39 (tm : FVec Ideal S32768x55x4x4 .f32) (n : Fin 32768) (a c : Fin 4) :
    v_main_v245 (F := Ideal) tm (ix4 n ⟨39, by decide⟩ a c) = v_main_v140 (F := Ideal) tm (ix3 n a c) :=
  (cat_axis1_apply _ _ 2 (by simp) (v_main_v243 (F := Ideal) tm) rfl 32 (by simp) n ⟨39, by decide⟩ ⟨7, by decide⟩ a c rfl).trans
    ((cat_axis1_apply _ _ 7 (by simp) (v_main_v225 (F := Ideal) tm) rfl 7 (by simp) n ⟨7, by decide⟩ ⟨0, by decide⟩ a c rfl).trans
      (bcast_apply (v_main_v140 (F := Ideal) tm) _ n ⟨0, by decide⟩ a c))
theorem read40 (tm : FVec Ideal S32768x55x4x4 .f32) (n : Fin 32768) (a c : Fin 4) :
    v_main_v245 (F := Ideal) tm (ix4 n ⟨40, by decide⟩ a c) = v_main_v143 (F := Ideal) tm (ix3 n a c) :=
  (cat_axis1_apply _ _ 2 (by simp) (v_main_v243 (F := Ideal) tm) rfl 32 (by simp) n ⟨40, by decide⟩ ⟨8, by decide⟩ a c rfl).trans
    ((cat_axis1_apply _ _ 8 (by simp) (v_main_v226 (F := Ideal) tm) rfl 8 (by simp) n ⟨8, by decide⟩ ⟨0, by decide⟩ a c rfl).trans
      (bcast_apply (v_main_v143 (F := Ideal) tm) _ n ⟨0, by decide⟩ a c))
theorem read41 (tm : FVec Ideal S32768x55x4x4 .f32) (n : Fin 32768) (a c : Fin 4) :
    v_main_v245 (F := Ideal) tm (ix4 n ⟨41, by decide⟩ a c) = v_main_v146 (F := Ideal) tm (ix3 n a c) :=
  (cat_axis1_apply _ _ 2 (by simp) (v_main_v243 (F := Ideal) tm) rfl 32 (by simp) n ⟨41, by decide⟩ ⟨9, by decide⟩ a c rfl).trans
    ((cat_axis1_apply _ _ 9 (by simp) (v_main_v227 (F := Ideal) tm) rfl 9 (by simp) n ⟨9, by decide⟩ ⟨0, by decide⟩ a c rfl).trans
      (bcast_apply (v_main_v146 (F := Ideal) tm) _ n ⟨0, by decide⟩ a c))
theorem read42 (tm : FVec Ideal S32768x55x4x4 .f32) (n : Fin 32768) (a c : Fin 4) :
    v_main_v245 (F := Ideal) tm (ix4 n ⟨42, by decide⟩ a c) = v_main_v149 (F := Ideal) tm (ix3 n a c) :=
  (cat_axis1_apply _ _ 2 (by simp) (v_main_v243 (F := Ideal) tm) rfl 32 (by simp) n ⟨42, by decide⟩ ⟨10, by decide⟩ a c rfl).trans
    ((cat_axis1_apply _ _ 10 (by simp) (v_main_v228 (F := Ideal) tm) rfl 10 (by simp) n ⟨10, by decide⟩ ⟨0, by decide⟩ a c rfl).trans
      (bcast_apply (v_main_v149 (F := Ideal) tm) _ n ⟨0, by decide⟩ a c))
theorem read43 (tm : FVec Ideal S32768x55x4x4 .f32) (n : Fin 32768) (a c : Fin 4) :
    v_main_v245 (F := Ideal) tm (ix4 n ⟨43, by decide⟩ a c) = v_main_v152 (F := Ideal) tm (ix3 n a c) :=
  (cat_axis1_apply _ _ 2 (by simp) (v_main_v243 (F := Ideal) tm) rfl 32 (by simp) n ⟨43, by decide⟩ ⟨11, by decide⟩ a c rfl).trans
    ((cat_axis1_apply _ _ 11 (by simp) (v_main_v229 (F := Ideal) tm) rfl 11 (by simp) n ⟨11, by decide⟩ ⟨0, by decide⟩ a c rfl).trans
      (bcast_apply (v_main_v152 (F := Ideal) tm) _ n ⟨0, by decide⟩ a c))
theorem read44 (tm : FVec Ideal S32768x55x4x4 .f32) (n : Fin 32768) (a c : Fin 4) :
    v_main_v245 (F := Ideal) tm (ix4 n ⟨44, by decide⟩ a c) = v_main_v155 (F := Ideal) tm (ix3 n a c) :=
  (cat_axis1_apply _ _ 2 (by simp) (v_main_v243 (F := Ideal) tm) rfl 32 (by simp) n ⟨44, by decide⟩ ⟨12, by decide⟩ a c rfl).trans
    ((cat_axis1_apply _ _ 12 (by simp) (v_main_v230 (F := Ideal) tm) rfl 12 (by simp) n ⟨12, by decide⟩ ⟨0, by decide⟩ a c rfl).trans
      (bcast_apply (v_main_v155 (F := Ideal) tm) _ n ⟨0, by decide⟩ a c))
theorem read45 (tm : FVec Ideal S32768x55x4x4 .f32) (n : Fin 32768) (a c : Fin 4) :
    v_main_v245 (F := Ideal) tm (ix4 n ⟨45, by decide⟩ a c) = v_main_v158 (F := Ideal) tm (ix3 n a c) :=
  (cat_axis1_apply _ _ 2 (by simp) (v_main_v243 (F := Ideal) tm) rfl 32 (by simp) n ⟨45, by decide⟩ ⟨13, by decide⟩ a c rfl).trans
    ((cat_axis1_apply _ _ 13 (by simp) (v_main_v231 (F := Ideal) tm) rfl 13 (by simp) n ⟨13, by decide⟩ ⟨0, by decide⟩ a c rfl).trans
      (bcast_apply (v_main_v158 (F := Ideal) tm) _ n ⟨0, by decide⟩ a c))
theorem read46 (tm : FVec Ideal S32768x55x4x4 .f32) (n : Fin 32768) (a c : Fin 4) :
    v_main_v245 (F := Ideal) tm (ix4 n ⟨46, by decide⟩ a c) = v_main_v161 (F := Ideal) tm (ix3 n a c) :=
  (cat_axis1_apply _ _ 2 (by simp) (v_main_v243 (F := Ideal) tm) rfl 32 (by simp) n ⟨46, by decide⟩ ⟨14, by decide⟩ a c rfl).trans
    ((cat_axis1_apply _ _ 14 (by simp) (v_main_v232 (F := Ideal) tm) rfl 14 (by simp) n ⟨14, by decide⟩ ⟨0, by decide⟩ a c rfl).trans
      (bcast_apply (v_main_v161 (F := Ideal) tm) _ n ⟨0, by decide⟩ a c))
theorem read47 (tm : FVec Ideal S32768x55x4x4 .f32) (n : Fin 32768) (a c : Fin 4) :
    v_main_v245 (F := Ideal) tm (ix4 n ⟨47, by decide⟩ a c) = v_main_v164 (F := Ideal) tm (ix3 n a c) :=
  (cat_axis1_apply _ _ 2 (by simp) (v_main_v243 (F := Ideal) tm) rfl 32 (by simp) n ⟨47, by decide⟩ ⟨15, by decide⟩ a c rfl).trans
    ((cat_axis1_apply _ _ 15 (by simp) (v_main_v233 (F := Ideal) tm) rfl 15 (by simp) n ⟨15, by decide⟩ ⟨0, by decide⟩ a c rfl).trans
      (bcast_apply (v_main_v164 (F := Ideal) tm) _ n ⟨0, by decide⟩ a c))
theorem read48 (tm : FVec Ideal S32768x55x4x4 .f32) (n : Fin 32768) (a c : Fin 4) :
    v_main_v245 (F := Ideal) tm (ix4 n ⟨48, by decide⟩ a c) = v_main_v167 (F := Ideal) tm (ix3 n a c) :=
  (cat_axis1_apply _ _ 3 (by simp) (v_main_v244 (F := Ideal) tm) rfl 48 (by simp) n ⟨48, by decide⟩ ⟨0, by decide⟩ a c rfl).trans
    ((cat_axis1_apply _ _ 0 (by simp) (v_main_v234 (F := Ideal) tm) rfl 0 (by simp) n ⟨0, by decide⟩ ⟨0, by decide⟩ a c rfl).trans
      (bcast_apply (v_main_v167 (F := Ideal) tm) _ n ⟨0, by decide⟩ a c))
theorem read49 (tm : FVec Ideal S32768x55x4x4 .f32) (n : Fin 32768) (a c : Fin 4) :
    v_main_v245 (F := Ideal) tm (ix4 n ⟨49, by decide⟩ a c) = v_main_v170 (F := Ideal) tm (ix3 n a c) :=
  (cat_axis1_apply _ _ 3 (by simp) (v_main_v244 (F := Ideal) tm) rfl 48 (by simp) n ⟨49, by decide⟩ ⟨1, by decide⟩ a c rfl).trans
    ((cat_axis1_apply _ _ 1 (by simp) (v_main_v235 (F := Ideal) tm) rfl 1 (by simp) n ⟨1, by decide⟩ ⟨0, by decide⟩ a c rfl).trans
      (bcast_apply (v_main_v170 (F := Ideal) tm) _ n ⟨0, by decide⟩ a c))
theorem read50 (tm : FVec Ideal S32768x55x4x4 .f32) (n : Fin 32768) (a c : Fin 4) :
    v_main_v245 (F := Ideal) tm (ix4 n ⟨50, by decide⟩ a c) = v_main_v173 (F := Ideal) tm (ix3 n a c) :=
  (cat_axis1_apply _ _ 3 (by simp) (v_main_v244 (F := Ideal) tm) rfl 48 (by simp) n ⟨50, by decide⟩ ⟨2, by decide⟩ a c rfl).trans
    ((cat_axis1_apply _ _ 2 (by simp) (v_main_v236 (F := Ideal) tm) rfl 2 (by simp) n ⟨2, by decide⟩ ⟨0, by decide⟩ a c rfl).trans
      (bcast_apply (v_main_v173 (F := Ideal) tm) _ n ⟨0, by decide⟩ a c))
theorem read51 (tm : FVec Ideal S32768x55x4x4 .f32) (n : Fin 32768) (a c : Fin 4) :
    v_main_v245 (F := Ideal) tm (ix4 n ⟨51, by decide⟩ a c) = v_main_v176 (F := Ideal) tm (ix3 n a c) :=
  (cat_axis1_apply _ _ 3 (by simp) (v_main_v244 (F := Ideal) tm) rfl 48 (by simp) n ⟨51, by decide⟩ ⟨3, by decide⟩ a c rfl).trans
    ((cat_axis1_apply _ _ 3 (by simp) (v_main_v237 (F := Ideal) tm) rfl 3 (by simp) n ⟨3, by decide⟩ ⟨0, by decide⟩ a c rfl).trans
      (bcast_apply (v_main_v176 (F := Ideal) tm) _ n ⟨0, by decide⟩ a c))
theorem read52 (tm : FVec Ideal S32768x55x4x4 .f32) (n : Fin 32768) (a c : Fin 4) :
    v_main_v245 (F := Ideal) tm (ix4 n ⟨52, by decide⟩ a c) = v_main_v179 (F := Ideal) tm (ix3 n a c) :=
  (cat_axis1_apply _ _ 3 (by simp) (v_main_v244 (F := Ideal) tm) rfl 48 (by simp) n ⟨52, by decide⟩ ⟨4, by decide⟩ a c rfl).trans
    ((cat_axis1_apply _ _ 4 (by simp) (v_main_v238 (F := Ideal) tm) rfl 4 (by simp) n ⟨4, by decide⟩ ⟨0, by decide⟩ a c rfl).trans
      (bcast_apply (v_main_v179 (F := Ideal) tm) _ n ⟨0, by decide⟩ a c))
theorem read53 (tm : FVec Ideal S32768x55x4x4 .f32) (n : Fin 32768) (a c : Fin 4) :
    v_main_v245 (F := Ideal) tm (ix4 n ⟨53, by decide⟩ a c) = v_main_v182 (F := Ideal) tm (ix3 n a c) :=
  (cat_axis1_apply _ _ 3 (by simp) (v_main_v244 (F := Ideal) tm) rfl 48 (by simp) n ⟨53, by decide⟩ ⟨5, by decide⟩ a c rfl).trans
    ((cat_axis1_apply _ _ 5 (by simp) (v_main_v239 (F := Ideal) tm) rfl 5 (by simp) n ⟨5, by decide⟩ ⟨0, by decide⟩ a c rfl).trans
      (bcast_apply (v_main_v182 (F := Ideal) tm) _ n ⟨0, by decide⟩ a c))
theorem read54 (tm : FVec Ideal S32768x55x4x4 .f32) (n : Fin 32768) (a c : Fin 4) :
    v_main_v245 (F := Ideal) tm (ix4 n ⟨54, by decide⟩ a c) = v_main_v185 (F := Ideal) tm (ix3 n a c) :=
  (cat_axis1_apply _ _ 3 (by simp) (v_main_v244 (F := Ideal) tm) rfl 48 (by simp) n ⟨54, by decide⟩ ⟨6, by decide⟩ a c rfl).trans
    ((cat_axis1_apply _ _ 6 (by simp) (v_main_v240 (F := Ideal) tm) rfl 6 (by simp) n ⟨6, by decide⟩ ⟨0, by decide⟩ a c rfl).trans
      (bcast_apply (v_main_v185 (F := Ideal) tm) _ n ⟨0, by decide⟩ a c))

/-! ## The result -/

/-- The reference's result from the array of local transforms: entry (b, t, j, r) is coordinate r of joint j's global
    position for the rotations of sample 2048 b + t. -/
theorem outOf_apply (tm : FVec Ideal S32768x55x4x4 .f32) (Mn : Fin 32768 → ℕ → Fin 3 → Fin 3 → EReal) (L : ℕ → Fin 3 → EReal)
    (h : ∀ (n : Fin 32768) (j : Fin 55) (a b : Fin 4), tm (ValueIdx.ix4 n j a b) = Cert.Chain.tmat (Mn n) L j.val a b)
    (b : Fin 16) (t : Fin 2048) (j : Fin 55) (r : Fin 3) :
    Cert.ReferenceIdeal.Term.outOf (F := Ideal) tm (ValueIdx.ix4 b t j r)
      = (Cert.Chain.glob (Mn ⟨2048 * b.val + t.val, by have := b.isLt; have := t.isLt; omega⟩) L j.val).2 r :=
  match j with
  | ⟨0, _⟩ => out_of_read Mn L tm ⟨0, by decide⟩ _ (inv0 Mn L tm h) (read0 tm) b t r
  | ⟨1, _⟩ => out_of_read Mn L tm ⟨1, by decide⟩ _ (inv1 Mn L tm h) (read1 tm) b t r
  | ⟨2, _⟩ => out_of_read Mn L tm ⟨2, by decide⟩ _ (inv2 Mn L tm h) (read2 tm) b t r
  | ⟨3, _⟩ => out_of_read Mn L tm ⟨3, by decide⟩ _ (inv3 Mn L tm h) (read3 tm) b t r
  | ⟨4, _⟩ => out_of_read Mn L tm ⟨4, by decide⟩ _ (inv4 Mn L tm h) (read4 tm) b t r
  | ⟨5, _⟩ => out_of_read Mn L tm ⟨5, by decide⟩ _ (inv5 Mn L tm h) (read5 tm) b t r
  | ⟨6, _⟩ => out_of_read Mn L tm ⟨6, by decide⟩ _ (inv6 Mn L tm h) (read6 tm) b t r
  | ⟨7, _⟩ => out_of_read Mn L tm ⟨7, by decide⟩ _ (inv7 Mn L tm h) (read7 tm) b t r
  | ⟨8, _⟩ => out_of_read Mn L tm ⟨8, by decide⟩ _ (inv8 Mn L tm h) (read8 tm) b t r
  | ⟨9, _⟩ => out_of_read Mn L tm ⟨9, by decide⟩ _ (inv9 Mn L tm h) (read9 tm) b t r
  | ⟨10, _⟩ => out_of_read Mn L tm ⟨10, by decide⟩ _ (inv10 Mn L tm h) (read10 tm) b t r
  | ⟨11, _⟩ => out_of_read Mn L tm ⟨11, by decide⟩ _ (inv11 Mn L tm h) (read11 tm) b t r
  | ⟨12, _⟩ => out_of_read Mn L tm ⟨12, by decide⟩ _ (inv12 Mn L tm h) (read12 tm) b t r
  | ⟨13, _⟩ => out_of_read Mn L tm ⟨13, by decide⟩ _ (inv13 Mn L tm h) (read13 tm) b t r
  | ⟨14, _⟩ => out_of_read Mn L tm ⟨14, by decide⟩ _ (inv14 Mn L tm h) (read14 tm) b t r
  | ⟨15, _⟩ => out_of_read Mn L tm ⟨15, by decide⟩ _ (inv15 Mn L tm h) (read15 tm) b t r
  | ⟨16, _⟩ => out_of_read Mn L tm ⟨16, by decide⟩ _ (inv16 Mn L tm h) (read16 tm) b t r
  | ⟨17, _⟩ => out_of_read Mn L tm ⟨17, by decide⟩ _ (inv17 Mn L tm h) (read17 tm) b t r
  | ⟨18, _⟩ => out_of_read Mn L tm ⟨18, by decide⟩ _ (inv18 Mn L tm h) (read18 tm) b t r
  | ⟨19, _⟩ => out_of_read Mn L tm ⟨19, by decide⟩ _ (inv19 Mn L tm h) (read19 tm) b t r
  | ⟨20, _⟩ => out_of_read Mn L tm ⟨20, by decide⟩ _ (inv20 Mn L tm h) (read20 tm) b t r
  | ⟨21, _⟩ => out_of_read Mn L tm ⟨21, by decide⟩ _ (inv21 Mn L tm h) (read21 tm) b t r
  | ⟨22, _⟩ => out_of_read Mn L tm ⟨22, by decide⟩ _ (inv22 Mn L tm h) (read22 tm) b t r
  | ⟨23, _⟩ => out_of_read Mn L tm ⟨23, by decide⟩ _ (inv23 Mn L tm h) (read23 tm) b t r
  | ⟨24, _⟩ => out_of_read Mn L tm ⟨24, by decide⟩ _ (inv24 Mn L tm h) (read24 tm) b t r
  | ⟨25, _⟩ => out_of_read Mn L tm ⟨25, by decide⟩ _ (inv25 Mn L tm h) (read25 tm) b t r
  | ⟨26, _⟩ => out_of_read Mn L tm ⟨26, by decide⟩ _ (inv26 Mn L tm h) (read26 tm) b t r
  | ⟨27, _⟩ => out_of_read Mn L tm ⟨27, by decide⟩ _ (inv27 Mn L tm h) (read27 tm) b t r
  | ⟨28, _⟩ => out_of_read Mn L tm ⟨28, by decide⟩ _ (inv28 Mn L tm h) (read28 tm) b t r
  | ⟨29, _⟩ => out_of_read Mn L tm ⟨29, by decide⟩ _ (inv29 Mn L tm h) (read29 tm) b t r
  | ⟨30, _⟩ => out_of_read Mn L tm ⟨30, by decide⟩ _ (inv30 Mn L tm h) (read30 tm) b t r
  | ⟨31, _⟩ => out_of_read Mn L tm ⟨31, by decide⟩ _ (inv31 Mn L tm h) (read31 tm) b t r
  | ⟨32, _⟩ => out_of_read Mn L tm ⟨32, by decide⟩ _ (inv32 Mn L tm h) (read32 tm) b t r
  | ⟨33, _⟩ => out_of_read Mn L tm ⟨33, by decide⟩ _ (inv33 Mn L tm h) (read33 tm) b t r
  | ⟨34, _⟩ => out_of_read Mn L tm ⟨34, by decide⟩ _ (inv34 Mn L tm h) (read34 tm) b t r
  | ⟨35, _⟩ => out_of_read Mn L tm ⟨35, by decide⟩ _ (inv35 Mn L tm h) (read35 tm) b t r
  | ⟨36, _⟩ => out_of_read Mn L tm ⟨36, by decide⟩ _ (inv36 Mn L tm h) (read36 tm) b t r
  | ⟨37, _⟩ => out_of_read Mn L tm ⟨37, by decide⟩ _ (inv37 Mn L tm h) (read37 tm) b t r
  | ⟨38, _⟩ => out_of_read Mn L tm ⟨38, by decide⟩ _ (inv38 Mn L tm h) (read38 tm) b t r
  | ⟨39, _⟩ => out_of_read Mn L tm ⟨39, by decide⟩ _ (inv39 Mn L tm h) (read39 tm) b t r
  | ⟨40, _⟩ => out_of_read Mn L tm ⟨40, by decide⟩ _ (inv40 Mn L tm h) (read40 tm) b t r
  | ⟨41, _⟩ => out_of_read Mn L tm ⟨41, by decide⟩ _ (inv41 Mn L tm h) (read41 tm) b t r
  | ⟨42, _⟩ => out_of_read Mn L tm ⟨42, by decide⟩ _ (inv42 Mn L tm h) (read42 tm) b t r
  | ⟨43, _⟩ => out_of_read Mn L tm ⟨43, by decide⟩ _ (inv43 Mn L tm h) (read43 tm) b t r
  | ⟨44, _⟩ => out_of_read Mn L tm ⟨44, by decide⟩ _ (inv44 Mn L tm h) (read44 tm) b t r
  | ⟨45, _⟩ => out_of_read Mn L tm ⟨45, by decide⟩ _ (inv45 Mn L tm h) (read45 tm) b t r
  | ⟨46, _⟩ => out_of_read Mn L tm ⟨46, by decide⟩ _ (inv46 Mn L tm h) (read46 tm) b t r
  | ⟨47, _⟩ => out_of_read Mn L tm ⟨47, by decide⟩ _ (inv47 Mn L tm h) (read47 tm) b t r
  | ⟨48, _⟩ => out_of_read Mn L tm ⟨48, by decide⟩ _ (inv48 Mn L tm h) (read48 tm) b t r
  | ⟨49, _⟩ => out_of_read Mn L tm ⟨49, by decide⟩ _ (inv49 Mn L tm h) (read49 tm) b t r
  | ⟨50, _⟩ => out_of_read Mn L tm ⟨50, by decide⟩ _ (inv50 Mn L tm h) (read50 tm) b t r
  | ⟨51, _⟩ => out_of_read Mn L tm ⟨51, by decide⟩ _ (inv51 Mn L tm h) (read51 tm) b t r
  | ⟨52, _⟩ => out_of_read Mn L tm ⟨52, by decide⟩ _ (inv52 Mn L tm h) (read52 tm) b t r
  | ⟨53, _⟩ => out_of_read Mn L tm ⟨53, by decide⟩ _ (inv53 Mn L tm h) (read53 tm) b t r
  | ⟨54, _⟩ => out_of_read Mn L tm ⟨54, by decide⟩ _ (inv54 Mn L tm h) (read54 tm) b t r
  | ⟨_ + 55, hj⟩ => absurd hj (Nat.not_lt.2 (Nat.le_add_left _ _))

end Cert.ReferenceIdeal.Walk

end
-- ==== Proof.RefValue.lean ====
/-
  The reference's result is the posed joints.

  The reference program builds every sample's local transforms as 4×4 homogeneous matrices (`tmats`), multiplies them
  down the tree and reads the last column off (`outOf`).  Entry `(n, j, a, b)` of the local transforms is the matrix
  `Chain.tmat` of sample `n`'s rotations and of the offsets `rel` of the rest positions; the walk of such matrices ends,
  at entry `(b, t, j, r)`, in coordinate `r` of joint `j`'s global position for sample `2048 b + t`; and sample
  `2048 b + t` of the flattened array is sample `(b, t)` of the given one.  Together: the reference's result is
  `Chain.posed` of its two arguments.
-/
import proofs.«163241_j18760417149409_2_alg».proof.Proof.RefLocal
import proofs.«163241_j18760417149409_2_alg».proof.Proof.RefChain

noncomputable section

namespace Cert.ReferenceIdeal.RefValue

open Idealize.ShloMosaic Idealize.ShloMosaic.ValueIdx Cert.ReferenceIdeal

variable [Cert.ReferenceIdeal.Facts]

/-- Sample `2048 b + t` of the flattened array is sample `(b, t)`: the quotient and the remainder by 2048. -/
theorem motionAtN_mk (x : Cert.Chain.SMotion.Idx → EReal) (b : Fin 16) (t : Fin 2048) (h : 2048 * b.val + t.val < 32768) :
    Cert.Chain.motionAtN x ⟨2048 * b.val + t.val, h⟩ = Cert.Chain.motionAt x b t := by
  unfold Cert.Chain.motionAtN
  have hb : (2048 * b.val + t.val) / 2048 = b.val := by have := t.isLt; omega
  have ht : (2048 * b.val + t.val) % 2048 = t.val := by have := t.isLt; omega
  congr 1
  · exact Fin.ext hb
  · exact Fin.ext ht

/-- The reference's result, as a function of its arguments, is the posed joints. -/
theorem result_eq (x : FVec Ideal S16x2048x22x3x3 .f32) (y : FVec Ideal S55x3 .f32) :
    Cert.ReferenceIdeal.Term.outOf (F := Ideal) (Cert.ReferenceIdeal.Term.tmats (F := Ideal) x y) = Cert.Chain.posed x y := by
  funext i
  obtain ⟨b, t, j, r, rfl⟩ : ∃ (b : Fin 16) (t : Fin 2048) (j : Fin 55) (r : Fin 3), i = ix4 b t j r :=
    ⟨i 0, i 1, i 2, i 3, eq_ix4 i⟩
  rw [Cert.ReferenceIdeal.Walk.outOf_apply (Cert.ReferenceIdeal.Term.tmats (F := Ideal) x y) (Cert.Chain.motionAtN x)
      (Cert.Chain.rel (Cert.Chain.restAt y)) (Cert.ReferenceIdeal.Local.tmats_apply x y) b t j r,
    Cert.Chain.posed_apply, motionAtN_mk]

end Cert.ReferenceIdeal.RefValue

end
-- ==== Proof.KernelBodyBase.lean ====
import proofs.«163241_j18760417149409_2_alg».proof.Proof.Gen.KernelIdeal.Frame
import proofs.«163241_j18760417149409_2_alg».proof.Proof.Chain
import Idealize.ShloMosaic.Lib.Pipeline.Value
import Idealize.ShloMosaic.Lib.ValueLayout
import Idealize.ShloMosaic.Lib.ValueIdx
import Idealize.ShloMosaic.Lib.Tactic

/-!
  The kernel body's arithmetic, one sample at a time.

  The body works on vectors of 4096 samples (one sample per lane).  At a fixed lane `n` every vector it computes is an
  entry of a global rotation or a coordinate of a global position of the kinematic chain, for the local rotations
  read off row `n` of the block of rotations and the local offsets read off the table.  This module names those numbers
  (`Cn`, `Pn`), states the chain's recurrence on them in the form the body computes it, and reads the body's layout
  operations (transpose, row slices, unit-axis casts, 1×1 loads) at an index.
-/

noncomputable section

open Idealize.ShloMosaic Idealize.ShloMosaic.TcCoe Idealize.SL.Sem
open Idealize.ShloMosaic.ValueIdx

namespace Cert.KernelIdeal.Body

open Cert.KernelIdeal Cert.KernelIdeal.Gen Cert.Chain

variable (x0 : Vec Ideal S4096x198 .f32) (x1 : Vec Ideal S3x55 .f32)

/-- The local rotations of the sample in lane `n`: row `n` of the block of rotations. -/
def Rw (n : Fin 4096) : ℕ → Fin 3 → Fin 3 → EReal := rowRot fun q => x0 (ix2 n q)

/-- The local offsets: the table's columns. -/
def Of : ℕ → Fin 3 → EReal := colOff fun k j => x1 (ix2 k j)

/-- Entry `(r, c)` of joint `j`'s global rotation for the sample in lane `n`. -/
def Cn (n : Fin 4096) (j : ℕ) (r c : Fin 3) : EReal := (glob (Rw x0 n) (Of x1) j).1 r c

/-- Coordinate `r` of joint `j`'s global position for the sample in lane `n`. -/
def Pn (n : Fin 4096) (j : ℕ) (r : Fin 3) : EReal := (glob (Rw x0 n) (Of x1) j).2 r

/-- Entry `(a, c)` of joint `j`'s local rotation sits at column `9 j + 3 a + c` of the row. -/
theorem Rw_eq (n : Fin 4096) (j : ℕ) (a c : Fin 3) (q : Fin 198) (hq : q.val = 9 * j + 3 * a.val + c.val) :
    x0 (ix2 n q) = Rw x0 n j a c := by
  unfold Rw rowRot
  rw [dif_pos (by rw [← hq]; exact q.isLt)]
  exact congrArg (fun q => x0 (ix2 n q)) (Fin.ext hq)

/-- Coordinate `k` of joint `j`'s local offset is entry `(k, j)` of the table. -/
theorem Of_eq (j : Fin 55) (k : Fin 3) : x1 (ix2 k j) = Of x1 j.val k := by
  unfold Of colOff
  rw [dif_pos j.isLt]

/-- The root's global rotation is its local rotation. -/
theorem Cn_zero (n : Fin 4096) (r c : Fin 3) : Cn x0 x1 n 0 r c = Rw x0 n 0 r c := by
  unfold Cn
  rw [glob_zero]
  simp [rot]

/-- The root's global position is its local offset. -/
theorem Pn_zero (n : Fin 4096) (r : Fin 3) : Pn x0 x1 n 0 r = Of x1 0 r := by
  unfold Pn
  rw [glob_zero]

/-- A joint with a rotation of its own: its global rotation is its parent's times its local one. -/
theorem Cn_step (n : Fin 4096) (j p : ℕ) (h0 : j ≠ 0) (hp : parent j = p) (hj : j < 22) (r c : Fin 3) :
    Cn x0 x1 n j r c = Cn x0 x1 n p r 0 * Rw x0 n j 0 c + Cn x0 x1 n p r 1 * Rw x0 n j 1 c
      + Cn x0 x1 n p r 2 * Rw x0 n j 2 c := by
  obtain ⟨k, rfl⟩ := Nat.exists_eq_succ_of_ne_zero h0
  unfold Cn
  rw [glob_succ_rot, hp]
  simp only [rot, if_pos hj]

/-- A joint whose local rotation is the identity has its parent's global rotation. -/
theorem Cn_ge (n : Fin 4096) (j p : ℕ) (hp : parent j = p) (hj : 22 ≤ j) (r c : Fin 3) :
    Cn x0 x1 n j r c = Cn x0 x1 n p r c := by
  obtain ⟨k, rfl⟩ := Nat.exists_eq_succ_of_ne_zero (by omega : j ≠ 0)
  unfold Cn
  rw [glob_succ_rot_of_ge _ _ k hj, hp]

/-- A joint's global position: its parent's global rotation applied to its local offset, plus its parent's global
    position. -/
theorem Pn_step (n : Fin 4096) (j p : ℕ) (h0 : j ≠ 0) (hp : parent j = p) (r : Fin 3) :
    Pn x0 x1 n j r = Cn x0 x1 n p r 0 * Of x1 j 0 + Cn x0 x1 n p r 1 * Of x1 j 1 + Cn x0 x1 n p r 2 * Of x1 j 2
      + Pn x0 x1 n p r := by
  obtain ⟨k, rfl⟩ := Nat.exists_eq_succ_of_ne_zero h0
  unfold Cn Pn
  rw [glob_succ_pos, hp]

/-! ## The layout operations read at an index -/

theorem hz : (![0, 0] : Fin 2 → Nat) = fun _ => 0 := funext fun a => by fin_cases a <;> rfl

/-- The block of rotations as the body loads it. -/
theorem load_x0 (arg1 : Memref sig .tc .vmem S4096x198 .f32) (harg1 : arg1.IsWhole) (inb) (h) :
    shapeCast S4096x198 (View.readAt (Elt Ideal) arg1.view (Rect.unit ![0, 0] S4096x198.size inb).toLoadRect (harg1.unread x0)) h
      = x0 := by
  rw [View.readAt_eq_ld, harg1.read_unread, View.ld_unit_zero (S := S4096x198) hz]
  exact shapeCast_self (s := S4096x198) x0 h

/-- The transposed block read at row `q`, lane `n`. -/
theorem transpose_read (v : Vec Ideal S4096x198 .f32) (h) (q : Fin 198) (n : Fin 4096) :
    transpose S198x4096 [1, 0] v h (ix2 q n) = v (ix2 n q) :=
  transpose_apply _ v h _ _ (fun b => by match b with | ⟨0, _⟩ => rfl | ⟨1, _⟩ => rfl)

/-- A row of the transposed block, cut out as a 1 × 4096 slice. -/
theorem slice_row (q : ℕ) (q' : Fin 198) (hq : q'.val = q) (v : FVec Ideal S198x4096 .f32) (h) (u : Fin 1) (n : Fin 4096) :
    extractStridedSlice S1x4096 ![q, 0] v h (ix2 u n) = v (ix2 q' n) :=
  extractStridedSlice_apply _ v h _ _ (fun a => by
    have hu : u.val = 0 := by omega
    match a with
    | ⟨0, _⟩ => show q'.val = q + u.val; omega
    | ⟨1, _⟩ => show n.val = 0 + n.val; omega)

/-- One entry of the table of offsets, loaded as a 1 × 1 block and extracted. -/
theorem rel_read (arg2 : Memref sig .tc .vmem S3x55 .f32) (harg2 : arg2.IsWhole) (k j : ℕ) (k' : Fin 3) (hk : k'.val = k) (hj : j < 55) (inb) (h) :
    extractAt ![0, 0] (View.readAt (Elt Ideal) arg2.view (Rect.unit (s := S3x55) ![k, j] S1x1.size inb).toLoadRect (harg2.unread x1)) h
      = Of x1 j k' := by
  rw [View.readAt_eq_ld, harg2.read_unread]
  refine Eq.trans ?_ (Of_eq x1 ⟨j, hj⟩ k')
  unfold extractAt View.ld
  refine congrArg x1 (funext fun a => Fin.ext ?_)
  match a with
  | ⟨0, _⟩ => show k + 1 * 0 = k'.val; omega
  | ⟨1, _⟩ => show j + 1 * 0 = j; omega

end Cert.KernelIdeal.Body

end
-- ==== Proof.KernelBodyRows.lean ====
/-
  From the rows of the scratch to what one block of samples is mapped to.

  The body fills a scratch of 165 rows by 4096 lanes one row at a time: row `3 j + r`, lane `n`, is coordinate `r` of
  joint `j`'s global position for the sample in lane `n`.  Its last step reads the whole scratch back and stores its
  transpose as the block's output.  So once every row piece is known to hold the right numbers, the output at row
  `n`, column `3 j + r` is that coordinate, which is what one block of samples is mapped to.
-/
import proofs.«163241_j18760417149409_2_alg».proof.Proof.KernelBodyBase

set_option maxRecDepth 16384

noncomputable section

open Idealize.ShloMosaic Idealize.ShloMosaic.TcCoe Idealize.SL.Sem
open Idealize.ShloMosaic.ValueIdx

namespace Cert.KernelIdeal.Body

open Cert.KernelIdeal Cert.KernelIdeal.Gen Cert.Chain

variable (x0 : Vec Ideal S4096x198 .f32) (x1 : Vec Ideal S3x55 .f32)

/-- What the scratch holds at row `3 j + r`, lane `n`. -/
def G : S165x4096.Idx → EReal := fun y =>
  Pn x0 x1 (y 1) ((y 0).val / 3) ⟨(y 0).val % 3, Nat.mod_lt _ (by norm_num)⟩

/-- A coordinate of a global position named by its row number `3 j + r`. -/
theorem Pn_row (n n' : Fin 4096) (hn : n.val = n'.val) (a j : ℕ) (r : Fin 3) (ha : a = 3 * j + r.val) (h : a % 3 < 3) :
    Pn x0 x1 n (a / 3) ⟨a % 3, h⟩ = Pn x0 x1 n' j r := by
  obtain rfl : n = n' := Fin.ext hn
  have hr := r.isLt
  have e1 : a / 3 = j := by omega
  have e2 : (⟨a % 3, h⟩ : Fin 3) = r := Fin.ext (by show a % 3 = r.val; omega)
  rw [e1, e2]

/-- A row piece whose lanes hold coordinate `r` of joint `j`'s global position, stored at row `3 j + r`, agrees with
    `G` on its rectangle. -/
theorem piece_of_row (ρ j : ℕ) (r : Fin 3) (hρ : ρ = 3 * j + r.val)
    (inb : ∀ a, (![ρ, 0] : Fin 2 → ℕ) a + S1x4096.size a ≤ S165x4096.size a) (w : FVec Ideal S1x4096 .f32)
    (hw : ∀ (u : Fin 1) (n : Fin 4096), w (ix2 u n) = Pn x0 x1 n j r) :
    ∀ x : (Rect.unit (s := S165x4096) ![ρ, 0] S1x4096.size inb).shape.Idx,
      w x = G x0 x1 ((Rect.unit (s := S165x4096) ![ρ, 0] S1x4096.size inb).emb x) := by
  intro x
  obtain ⟨u, n, rfl⟩ : ∃ (u : Fin 1) (n : Fin 4096), x = ix2 u n := ⟨x 0, x 1, eq_ix2 (n0 := 1) (n1 := 4096) x⟩
  rw [hw u n]
  have hu : u.val = 0 := by omega
  unfold G
  refine (Pn_row x0 x1 _ n ?_ _ j r ?_ _).symm
  · show 0 + 1 * n.val = n.val; omega
  · show ρ + 1 * u.val = 3 * j + r.val; omega

/-- THE BLOCK'S OUTPUT from the scratch's rows: if every row piece of the scratch agrees with `G`, the output is what one
    block of samples is mapped to. -/
theorem out_of_pieces (c : Dev nD) (i : grid0.Coords) (arg1 : Memref sig .tc .vmem S4096x198 .f32) (harg1 : arg1.IsWhole) (arg2 : Memref sig .tc .vmem S3x55 .f32) (harg2 : arg2.IsWhole) (arg3 : Memref sig .tc .vmem S4096x165 .f32) (harg3 : arg3.IsWhole) (arg4 : Memref sig .tc .vmem S165x4096 .f32) (harg4 : arg4.IsWhole) (x0 : Vec Ideal S4096x198 .f32) (x1 : Vec Ideal S3x55 .f32)
    (hpieces : ∀ p ∈ kernelRun0_A.sl.HS0_165 c arg1 harg1 arg2 harg2 x0 x1, ∀ x : p.1.shape.Idx, p.2 x = G x0 x1 (p.1.emb x)) :
    Cert.KernelIdeal.Gen.out0_A_2 (F := Ideal) c i arg1 harg1 arg2 harg2 arg3 harg3 arg4 harg4 x0 x1 = Cert.Chain.bodySpec x0 x1 := by
  unfold out0_A_2
  rw [View.read_writes_eq_canon _ _ _ (cover0_A_2 c i arg1 harg1 arg2 harg2 arg3 harg3 arg4 harg4 x0 x1)]
  unfold kernelRun0_A
  dsimp only
  rw [View.canon_unit_zero hz]
  unfold k0_pay3
  funext i'
  obtain ⟨n, q, rfl⟩ : ∃ (n : Fin 4096) (q : Fin 165), i' = ix2 n q := ⟨i' 0, i' 1, eq_ix2 i'⟩
  refine (transpose_apply [1, 0] _ _ (ix2 n q) (ix2 q n) (fun b => by match b with | ⟨0, _⟩ => rfl | ⟨1, _⟩ => rfl)).trans ?_
  delta kernelRun0_A.sl.v3504
  rw [View.readCov_eq_canon']
  refine (congrFun (View.ld_unit_zero (S := S165x4096) hz inb_S165x4096_S165x4096_0_0
    (View.canon (kernelRun0_A.sl.HS0_165 c arg1 harg1 arg2 harg2 x0 x1))) (ix2 q n)).trans ?_
  refine (View.canon_apply_of_pieces (G x0 x1) _ hpieces (ix2 q n)
    (View.cover_of_tiledL (kernelRun0_A.sl.HS0_165 c arg1 harg1 arg2 harg2 x0 x1) S1x4096.size (by sl_kernel_rfl) _)).trans ?_
  unfold G Pn Rw Of bodySpec
  rfl

end Cert.KernelIdeal.Body

end
-- ==== Proof.KernelBodyTable.lean ====
import proofs.«163241_j18760417149409_2_alg».proof.Proof.KernelBodyBase
import proofs.«163241_j18760417149409_2_alg».proof.Proof.KernelBodyRows

/-!
  The kernel body's intermediates, one by one.

  Every vector the body computes is, at lane `n`, an entry `Cn` of a joint's global rotation, a coordinate `Pn` of a joint's
  global position, an entry of a local rotation or offset, or a partial sum of the recurrence's three-term products.  The
  lemmas below say which, in the order the body computes them; each is the recurrence's step (`Cn_step`, `Pn_step`) read
  against the operations that compute the vector from earlier ones.  The last lemma collects the 165 rows the body stores.
-/

set_option maxRecDepth 65536

noncomputable section

open Idealize.ShloMosaic Idealize.ShloMosaic.TcCoe Idealize.SL.Sem
open Idealize.ShloMosaic.ValueIdx

namespace Cert.KernelIdeal.Body

open Cert.KernelIdeal Cert.KernelIdeal.Gen Cert.Chain

theorem Cn_anc_25 (x0 : Vec Ideal S4096x198 .f32) (x1 : Vec Ideal S3x55 .f32) (n : Fin 4096) (r c : Fin 3) :
    Cn x0 x1 n 25 r c = Cn x0 x1 n 20 r c := by
  rw [Cn_ge x0 x1 n 25 20 rfl (by decide)]

theorem Cn_anc_26 (x0 : Vec Ideal S4096x198 .f32) (x1 : Vec Ideal S3x55 .f32) (n : Fin 4096) (r c : Fin 3) :
    Cn x0 x1 n 26 r c = Cn x0 x1 n 20 r c := by
  rw [Cn_ge x0 x1 n 26 25 rfl (by decide), Cn_anc_25]

theorem Cn_anc_28 (x0 : Vec Ideal S4096x198 .f32) (x1 : Vec Ideal S3x55 .f32) (n : Fin 4096) (r c : Fin 3) :
    Cn x0 x1 n 28 r c = Cn x0 x1 n 20 r c := by
  rw [Cn_ge x0 x1 n 28 20 rfl (by decide)]

theorem Cn_anc_29 (x0 : Vec Ideal S4096x198 .f32) (x1 : Vec Ideal S3x55 .f32) (n : Fin 4096) (r c : Fin 3) :
    Cn x0 x1 n 29 r c = Cn x0 x1 n 20 r c := by
  rw [Cn_ge x0 x1 n 29 28 rfl (by decide), Cn_anc_28]

theorem Cn_anc_31 (x0 : Vec Ideal S4096x198 .f32) (x1 : Vec Ideal S3x55 .f32) (n : Fin 4096) (r c : Fin 3) :
    Cn x0 x1 n 31 r c = Cn x0 x1 n 20 r c := by
  rw [Cn_ge x0 x1 n 31 20 rfl (by decide)]

theorem Cn_anc_32 (x0 : Vec Ideal S4096x198 .f32) (x1 : Vec Ideal S3x55 .f32) (n : Fin 4096) (r c : Fin 3) :
    Cn x0 x1 n 32 r c = Cn x0 x1 n 20 r c := by
  rw [Cn_ge x0 x1 n 32 31 rfl (by decide), Cn_anc_31]

theorem Cn_anc_34 (x0 : Vec Ideal S4096x198 .f32) (x1 : Vec Ideal S3x55 .f32) (n : Fin 4096) (r c : Fin 3) :
    Cn x0 x1 n 34 r c = Cn x0 x1 n 20 r c := by
  rw [Cn_ge x0 x1 n 34 20 rfl (by decide)]

theorem Cn_anc_35 (x0 : Vec Ideal S4096x198 .f32) (x1 : Vec Ideal S3x55 .f32) (n : Fin 4096) (r c : Fin 3) :
    Cn x0 x1 n 35 r c = Cn x0 x1 n 20 r c := by
  rw [Cn_ge x0 x1 n 35 34 rfl (by decide), Cn_anc_34]

theorem Cn_anc_37 (x0 : Vec Ideal S4096x198 .f32) (x1 : Vec Ideal S3x55 .f32) (n : Fin 4096) (r c : Fin 3) :
    Cn x0 x1 n 37 r c = Cn x0 x1 n 20 r c := by
  rw [Cn_ge x0 x1 n 37 20 rfl (by decide)]

theorem Cn_anc_38 (x0 : Vec Ideal S4096x198 .f32) (x1 : Vec Ideal S3x55 .f32) (n : Fin 4096) (r c : Fin 3) :
    Cn x0 x1 n 38 r c = Cn x0 x1 n 20 r c := by
  rw [Cn_ge x0 x1 n 38 37 rfl (by decide), Cn_anc_37]

theorem Cn_anc_40 (x0 : Vec Ideal S4096x198 .f32) (x1 : Vec Ideal S3x55 .f32) (n : Fin 4096) (r c : Fin 3) :
    Cn x0 x1 n 40 r c = Cn x0 x1 n 21 r c := by
  rw [Cn_ge x0 x1 n 40 21 rfl (by decide)]

theorem Cn_anc_41 (x0 : Vec Ideal S4096x198 .f32) (x1 : Vec Ideal S3x55 .f32) (n : Fin 4096) (r c : Fin 3) :
    Cn x0 x1 n 41 r c = Cn x0 x1 n 21 r c := by
  rw [Cn_ge x0 x1 n 41 40 rfl (by decide), Cn_anc_40]

theorem Cn_anc_43 (x0 : Vec Ideal S4096x198 .f32) (x1 : Vec Ideal S3x55 .f32) (n : Fin 4096) (r c : Fin 3) :
    Cn x0 x1 n 43 r c = Cn x0 x1 n 21 r c := by
  rw [Cn_ge x0 x1 n 43 21 rfl (by decide)]

theorem Cn_anc_44 (x0 : Vec Ideal S4096x198 .f32) (x1 : Vec Ideal S3x55 .f32) (n : Fin 4096) (r c : Fin 3) :
    Cn x0 x1 n 44 r c = Cn x0 x1 n 21 r c := by
  rw [Cn_ge x0 x1 n 44 43 rfl (by decide), Cn_anc_43]

theorem Cn_anc_46 (x0 : Vec Ideal S4096x198 .f32) (x1 : Vec Ideal S3x55 .f32) (n : Fin 4096) (r c : Fin 3) :
    Cn x0 x1 n 46 r c = Cn x0 x1 n 21 r c := by
  rw [Cn_ge x0 x1 n 46 21 rfl (by decide)]

theorem Cn_anc_47 (x0 : Vec Ideal S4096x198 .f32) (x1 : Vec Ideal S3x55 .f32) (n : Fin 4096) (r c : Fin 3) :
    Cn x0 x1 n 47 r c = Cn x0 x1 n 21 r c := by
  rw [Cn_ge x0 x1 n 47 46 rfl (by decide), Cn_anc_46]

theorem Cn_anc_49 (x0 : Vec Ideal S4096x198 .f32) (x1 : Vec Ideal S3x55 .f32) (n : Fin 4096) (r c : Fin 3) :
    Cn x0 x1 n 49 r c = Cn x0 x1 n 21 r c := by
  rw [Cn_ge x0 x1 n 49 21 rfl (by decide)]

theorem Cn_anc_50 (x0 : Vec Ideal S4096x198 .f32) (x1 : Vec Ideal S3x55 .f32) (n : Fin 4096) (r c : Fin 3) :
    Cn x0 x1 n 50 r c = Cn x0 x1 n 21 r c := by
  rw [Cn_ge x0 x1 n 50 49 rfl (by decide), Cn_anc_49]

theorem Cn_anc_52 (x0 : Vec Ideal S4096x198 .f32) (x1 : Vec Ideal S3x55 .f32) (n : Fin 4096) (r c : Fin 3) :
    Cn x0 x1 n 52 r c = Cn x0 x1 n 21 r c := by
  rw [Cn_ge x0 x1 n 52 21 rfl (by decide)]

theorem Cn_anc_53 (x0 : Vec Ideal S4096x198 .f32) (x1 : Vec Ideal S3x55 .f32) (n : Fin 4096) (r c : Fin 3) :
    Cn x0 x1 n 53 r c = Cn x0 x1 n 21 r c := by
  rw [Cn_ge x0 x1 n 53 52 rfl (by decide), Cn_anc_52]

theorem v1_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.v1 c arg1 harg1 x0 = x0 := by
  delta kernelRun0_A.sl.v1
  simp only [load_x0 x0 arg1 harg1]

theorem v2_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (q : Fin 198) (n : Fin 4096) :
    kernelRun0_A.sl.v2 c arg1 harg1 x0 (ix2 q n) = x0 (ix2 n q) := by
  delta kernelRun0_A.sl.v2
  simp only [v1_apply c arg1 harg1 arg2 harg2 x0 x1]
  exact transpose_read _ _ q n

theorem v15_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v15 c arg1 harg1 x0 (ix2 u n) = Cn x0 x1 n 0 2 0 := by
  refine Eq.trans ?_ (Cn_zero x0 x1 n 2 0).symm
  delta kernelRun0_A.sl.v15
  simp only [slice_row 6 (6 : Fin 198) rfl, v2_apply c arg1 harg1 arg2 harg2 x0 x1, Rw_eq x0 n 0 2 0 (6 : Fin 198) (by decide)]

theorem v16_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v16 c arg1 harg1 x0 (ix1 n) = Cn x0 x1 n 0 2 0 := by
  delta kernelRun0_A.sl.v16
  simp only [shapeCast_1a_a_apply, v15_apply c arg1 harg1 arg2 harg2 x0 x1]

theorem v17_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v17 c arg1 harg1 x0 (ix2 u n) = Cn x0 x1 n 0 2 1 := by
  refine Eq.trans ?_ (Cn_zero x0 x1 n 2 1).symm
  delta kernelRun0_A.sl.v17
  simp only [slice_row 7 (7 : Fin 198) rfl, v2_apply c arg1 harg1 arg2 harg2 x0 x1, Rw_eq x0 n 0 2 1 (7 : Fin 198) (by decide)]

theorem v18_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v18 c arg1 harg1 x0 (ix1 n) = Cn x0 x1 n 0 2 1 := by
  delta kernelRun0_A.sl.v18
  simp only [shapeCast_1a_a_apply, v17_apply c arg1 harg1 arg2 harg2 x0 x1]

theorem v19_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v19 c arg1 harg1 x0 (ix2 u n) = Cn x0 x1 n 0 2 2 := by
  refine Eq.trans ?_ (Cn_zero x0 x1 n 2 2).symm
  delta kernelRun0_A.sl.v19
  simp only [slice_row 8 (8 : Fin 198) rfl, v2_apply c arg1 harg1 arg2 harg2 x0 x1, Rw_eq x0 n 0 2 2 (8 : Fin 198) (by decide)]

theorem v20_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v20 c arg1 harg1 x0 (ix1 n) = Cn x0 x1 n 0 2 2 := by
  delta kernelRun0_A.sl.v20
  simp only [shapeCast_1a_a_apply, v19_apply c arg1 harg1 arg2 harg2 x0 x1]

theorem k0_pay76_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay76 (F := Ideal) (kernelRun0_A.sl.v2 c arg1 harg1 x0) (ix1 n) = Rw x0 n 3 0 0 := by
  unfold k0_pay76
  simp only [shapeCast_1a_a_apply, slice_row 27 (27 : Fin 198) rfl, v2_apply c arg1 harg1 arg2 harg2 x0 x1, Rw_eq x0 n 3 0 0 (27 : Fin 198) (by decide)]

theorem r_26_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_26 c arg1 harg1 x0 (ix1 n) = Rw x0 n 3 0 0 := by
  delta kernelRun0_A.sl.r_26
  simp only [k0_pay76_apply c arg1 harg1 arg2 harg2 x0 x1]

theorem k0_pay80_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay80 (F := Ideal) (kernelRun0_A.sl.v2 c arg1 harg1 x0) (ix1 n) = Rw x0 n 3 1 0 := by
  unfold k0_pay80
  simp only [shapeCast_1a_a_apply, slice_row 30 (30 : Fin 198) rfl, v2_apply c arg1 harg1 arg2 harg2 x0 x1, Rw_eq x0 n 3 1 0 (30 : Fin 198) (by decide)]

theorem k0_pay83_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay83 (F := Ideal) (kernelRun0_A.sl.v2 c arg1 harg1 x0) (ix1 n) = Rw x0 n 3 2 0 := by
  unfold k0_pay83
  simp only [shapeCast_1a_a_apply, slice_row 33 (33 : Fin 198) rfl, v2_apply c arg1 harg1 arg2 harg2 x0 x1, Rw_eq x0 n 3 2 0 (33 : Fin 198) (by decide)]

theorem k0_pay92_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay92 (F := Ideal) (kernelRun0_A.sl.v2 c arg1 harg1 x0) (kernelRun0_A.sl.v16 c arg1 harg1 x0) (kernelRun0_A.sl.v18 c arg1 harg1 x0) (kernelRun0_A.sl.v20 c arg1 harg1 x0) (kernelRun0_A.sl.r_26 c arg1 harg1 x0) (ix1 n) = Cn x0 x1 n 3 2 0 := by
  refine Eq.trans ?_ (Cn_step x0 x1 n 3 0 (by decide) rfl (by decide) 2 0).symm
  unfold k0_pay92
  simp only [addf_apply, mulf_apply, v16_apply c arg1 harg1 arg2 harg2 x0 x1, r_26_apply c arg1 harg1 arg2 harg2 x0 x1, v18_apply c arg1 harg1 arg2 harg2 x0 x1, k0_pay80_apply c arg1 harg1 arg2 harg2 x0 x1, v20_apply c arg1 harg1 arg2 harg2 x0 x1, k0_pay83_apply c arg1 harg1 arg2 harg2 x0 x1]

theorem r_34_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_34 c arg1 harg1 x0 (ix1 n) = Cn x0 x1 n 3 2 0 := by
  delta kernelRun0_A.sl.r_34
  simp only [k0_pay92_apply c arg1 harg1 arg2 harg2 x0 x1]

theorem k0_pay77_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay77 (F := Ideal) (kernelRun0_A.sl.v2 c arg1 harg1 x0) (ix2 u n) = Rw x0 n 3 0 1 := by
  unfold k0_pay77
  simp only [slice_row 28 (28 : Fin 198) rfl, v2_apply c arg1 harg1 arg2 harg2 x0 x1, Rw_eq x0 n 3 0 1 (28 : Fin 198) (by decide)]

theorem r_27_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_27 c arg1 harg1 x0 (ix2 u n) = Rw x0 n 3 0 1 := by
  delta kernelRun0_A.sl.r_27
  simp only [k0_pay77_apply c arg1 harg1 arg2 harg2 x0 x1]

theorem k0_pay78_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay78 (F := Ideal) (kernelRun0_A.sl.r_27 c arg1 harg1 x0) (ix1 n) = Rw x0 n 3 0 1 := by
  unfold k0_pay78
  simp only [shapeCast_1a_a_apply, r_27_apply c arg1 harg1 arg2 harg2 x0 x1]

theorem k0_pay81_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay81 (F := Ideal) (kernelRun0_A.sl.v2 c arg1 harg1 x0) (ix1 n) = Rw x0 n 3 1 1 := by
  unfold k0_pay81
  simp only [shapeCast_1a_a_apply, slice_row 31 (31 : Fin 198) rfl, v2_apply c arg1 harg1 arg2 harg2 x0 x1, Rw_eq x0 n 3 1 1 (31 : Fin 198) (by decide)]

theorem k0_pay84_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay84 (F := Ideal) (kernelRun0_A.sl.v2 c arg1 harg1 x0) (ix1 n) = Rw x0 n 3 2 1 := by
  unfold k0_pay84
  simp only [shapeCast_1a_a_apply, slice_row 34 (34 : Fin 198) rfl, v2_apply c arg1 harg1 arg2 harg2 x0 x1, Rw_eq x0 n 3 2 1 (34 : Fin 198) (by decide)]

theorem k0_pay93_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay93 (F := Ideal) (kernelRun0_A.sl.v2 c arg1 harg1 x0) (kernelRun0_A.sl.v16 c arg1 harg1 x0) (kernelRun0_A.sl.v18 c arg1 harg1 x0) (kernelRun0_A.sl.v20 c arg1 harg1 x0) (kernelRun0_A.sl.r_27 c arg1 harg1 x0) (ix1 n) = Cn x0 x1 n 3 2 1 := by
  refine Eq.trans ?_ (Cn_step x0 x1 n 3 0 (by decide) rfl (by decide) 2 1).symm
  unfold k0_pay93
  simp only [addf_apply, mulf_apply, v16_apply c arg1 harg1 arg2 harg2 x0 x1, k0_pay78_apply c arg1 harg1 arg2 harg2 x0 x1, v18_apply c arg1 harg1 arg2 harg2 x0 x1, k0_pay81_apply c arg1 harg1 arg2 harg2 x0 x1, v20_apply c arg1 harg1 arg2 harg2 x0 x1, k0_pay84_apply c arg1 harg1 arg2 harg2 x0 x1]

theorem r_35_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_35 c arg1 harg1 x0 (ix1 n) = Cn x0 x1 n 3 2 1 := by
  delta kernelRun0_A.sl.r_35
  simp only [k0_pay93_apply c arg1 harg1 arg2 harg2 x0 x1]

theorem k0_pay79_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay79 (F := Ideal) (kernelRun0_A.sl.v2 c arg1 harg1 x0) (ix1 n) = Rw x0 n 3 0 2 := by
  unfold k0_pay79
  simp only [shapeCast_1a_a_apply, slice_row 29 (29 : Fin 198) rfl, v2_apply c arg1 harg1 arg2 harg2 x0 x1, Rw_eq x0 n 3 0 2 (29 : Fin 198) (by decide)]

theorem k0_pay82_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay82 (F := Ideal) (kernelRun0_A.sl.v2 c arg1 harg1 x0) (ix1 n) = Rw x0 n 3 1 2 := by
  unfold k0_pay82
  simp only [shapeCast_1a_a_apply, slice_row 32 (32 : Fin 198) rfl, v2_apply c arg1 harg1 arg2 harg2 x0 x1, Rw_eq x0 n 3 1 2 (32 : Fin 198) (by decide)]

theorem k0_pay85_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay85 (F := Ideal) (kernelRun0_A.sl.v2 c arg1 harg1 x0) (ix1 n) = Rw x0 n 3 2 2 := by
  unfold k0_pay85
  simp only [shapeCast_1a_a_apply, slice_row 35 (35 : Fin 198) rfl, v2_apply c arg1 harg1 arg2 harg2 x0 x1, Rw_eq x0 n 3 2 2 (35 : Fin 198) (by decide)]

theorem k0_pay94_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay94 (F := Ideal) (kernelRun0_A.sl.v2 c arg1 harg1 x0) (kernelRun0_A.sl.v16 c arg1 harg1 x0) (kernelRun0_A.sl.v18 c arg1 harg1 x0) (kernelRun0_A.sl.v20 c arg1 harg1 x0) (ix1 n) = Cn x0 x1 n 3 2 2 := by
  refine Eq.trans ?_ (Cn_step x0 x1 n 3 0 (by decide) rfl (by decide) 2 2).symm
  unfold k0_pay94
  simp only [addf_apply, mulf_apply, v16_apply c arg1 harg1 arg2 harg2 x0 x1, k0_pay79_apply c arg1 harg1 arg2 harg2 x0 x1, v18_apply c arg1 harg1 arg2 harg2 x0 x1, k0_pay82_apply c arg1 harg1 arg2 harg2 x0 x1, v20_apply c arg1 harg1 arg2 harg2 x0 x1, k0_pay85_apply c arg1 harg1 arg2 harg2 x0 x1]

theorem r_36_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_36 c arg1 harg1 x0 (ix1 n) = Cn x0 x1 n 3 2 2 := by
  delta kernelRun0_A.sl.r_36
  simp only [k0_pay94_apply c arg1 harg1 arg2 harg2 x0 x1]

theorem k0_pay160_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay160 (F := Ideal) (kernelRun0_A.sl.v2 c arg1 harg1 x0) (ix1 n) = Rw x0 n 6 0 0 := by
  unfold k0_pay160
  simp only [shapeCast_1a_a_apply, slice_row 54 (54 : Fin 198) rfl, v2_apply c arg1 harg1 arg2 harg2 x0 x1, Rw_eq x0 n 6 0 0 (54 : Fin 198) (by decide)]

theorem r_68_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_68 c arg1 harg1 x0 (ix1 n) = Rw x0 n 6 0 0 := by
  delta kernelRun0_A.sl.r_68
  simp only [k0_pay160_apply c arg1 harg1 arg2 harg2 x0 x1]

theorem k0_pay164_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay164 (F := Ideal) (kernelRun0_A.sl.v2 c arg1 harg1 x0) (ix1 n) = Rw x0 n 6 1 0 := by
  unfold k0_pay164
  simp only [shapeCast_1a_a_apply, slice_row 57 (57 : Fin 198) rfl, v2_apply c arg1 harg1 arg2 harg2 x0 x1, Rw_eq x0 n 6 1 0 (57 : Fin 198) (by decide)]

theorem k0_pay167_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay167 (F := Ideal) (kernelRun0_A.sl.v2 c arg1 harg1 x0) (ix1 n) = Rw x0 n 6 2 0 := by
  unfold k0_pay167
  simp only [shapeCast_1a_a_apply, slice_row 60 (60 : Fin 198) rfl, v2_apply c arg1 harg1 arg2 harg2 x0 x1, Rw_eq x0 n 6 2 0 (60 : Fin 198) (by decide)]

theorem k0_pay176_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay176 (F := Ideal) (kernelRun0_A.sl.v2 c arg1 harg1 x0) (kernelRun0_A.sl.r_34 c arg1 harg1 x0) (kernelRun0_A.sl.r_35 c arg1 harg1 x0) (kernelRun0_A.sl.r_36 c arg1 harg1 x0) (kernelRun0_A.sl.r_68 c arg1 harg1 x0) (ix1 n) = Cn x0 x1 n 6 2 0 := by
  refine Eq.trans ?_ (Cn_step x0 x1 n 6 3 (by decide) rfl (by decide) 2 0).symm
  unfold k0_pay176
  simp only [addf_apply, mulf_apply, r_34_apply c arg1 harg1 arg2 harg2 x0 x1, r_68_apply c arg1 harg1 arg2 harg2 x0 x1, r_35_apply c arg1 harg1 arg2 harg2 x0 x1, k0_pay164_apply c arg1 harg1 arg2 harg2 x0 x1, r_36_apply c arg1 harg1 arg2 harg2 x0 x1, k0_pay167_apply c arg1 harg1 arg2 harg2 x0 x1]

theorem r_76_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_76 c arg1 harg1 x0 (ix1 n) = Cn x0 x1 n 6 2 0 := by
  delta kernelRun0_A.sl.r_76
  simp only [k0_pay176_apply c arg1 harg1 arg2 harg2 x0 x1]

theorem k0_pay161_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay161 (F := Ideal) (kernelRun0_A.sl.v2 c arg1 harg1 x0) (ix2 u n) = Rw x0 n 6 0 1 := by
  unfold k0_pay161
  simp only [slice_row 55 (55 : Fin 198) rfl, v2_apply c arg1 harg1 arg2 harg2 x0 x1, Rw_eq x0 n 6 0 1 (55 : Fin 198) (by decide)]

theorem r_69_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_69 c arg1 harg1 x0 (ix2 u n) = Rw x0 n 6 0 1 := by
  delta kernelRun0_A.sl.r_69
  simp only [k0_pay161_apply c arg1 harg1 arg2 harg2 x0 x1]

theorem k0_pay162_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay162 (F := Ideal) (kernelRun0_A.sl.r_69 c arg1 harg1 x0) (ix1 n) = Rw x0 n 6 0 1 := by
  unfold k0_pay162
  simp only [shapeCast_1a_a_apply, r_69_apply c arg1 harg1 arg2 harg2 x0 x1]

theorem k0_pay165_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay165 (F := Ideal) (kernelRun0_A.sl.v2 c arg1 harg1 x0) (ix1 n) = Rw x0 n 6 1 1 := by
  unfold k0_pay165
  simp only [shapeCast_1a_a_apply, slice_row 58 (58 : Fin 198) rfl, v2_apply c arg1 harg1 arg2 harg2 x0 x1, Rw_eq x0 n 6 1 1 (58 : Fin 198) (by decide)]

theorem k0_pay168_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay168 (F := Ideal) (kernelRun0_A.sl.v2 c arg1 harg1 x0) (ix1 n) = Rw x0 n 6 2 1 := by
  unfold k0_pay168
  simp only [shapeCast_1a_a_apply, slice_row 61 (61 : Fin 198) rfl, v2_apply c arg1 harg1 arg2 harg2 x0 x1, Rw_eq x0 n 6 2 1 (61 : Fin 198) (by decide)]

theorem k0_pay177_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay177 (F := Ideal) (kernelRun0_A.sl.v2 c arg1 harg1 x0) (kernelRun0_A.sl.r_34 c arg1 harg1 x0) (kernelRun0_A.sl.r_35 c arg1 harg1 x0) (kernelRun0_A.sl.r_36 c arg1 harg1 x0) (kernelRun0_A.sl.r_69 c arg1 harg1 x0) (ix1 n) = Cn x0 x1 n 6 2 1 := by
  refine Eq.trans ?_ (Cn_step x0 x1 n 6 3 (by decide) rfl (by decide) 2 1).symm
  unfold k0_pay177
  simp only [addf_apply, mulf_apply, r_34_apply c arg1 harg1 arg2 harg2 x0 x1, k0_pay162_apply c arg1 harg1 arg2 harg2 x0 x1, r_35_apply c arg1 harg1 arg2 harg2 x0 x1, k0_pay165_apply c arg1 harg1 arg2 harg2 x0 x1, r_36_apply c arg1 harg1 arg2 harg2 x0 x1, k0_pay168_apply c arg1 harg1 arg2 harg2 x0 x1]

theorem r_77_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_77 c arg1 harg1 x0 (ix1 n) = Cn x0 x1 n 6 2 1 := by
  delta kernelRun0_A.sl.r_77
  simp only [k0_pay177_apply c arg1 harg1 arg2 harg2 x0 x1]

theorem k0_pay163_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay163 (F := Ideal) (kernelRun0_A.sl.v2 c arg1 harg1 x0) (ix1 n) = Rw x0 n 6 0 2 := by
  unfold k0_pay163
  simp only [shapeCast_1a_a_apply, slice_row 56 (56 : Fin 198) rfl, v2_apply c arg1 harg1 arg2 harg2 x0 x1, Rw_eq x0 n 6 0 2 (56 : Fin 198) (by decide)]

theorem k0_pay166_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay166 (F := Ideal) (kernelRun0_A.sl.v2 c arg1 harg1 x0) (ix1 n) = Rw x0 n 6 1 2 := by
  unfold k0_pay166
  simp only [shapeCast_1a_a_apply, slice_row 59 (59 : Fin 198) rfl, v2_apply c arg1 harg1 arg2 harg2 x0 x1, Rw_eq x0 n 6 1 2 (59 : Fin 198) (by decide)]

theorem k0_pay169_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay169 (F := Ideal) (kernelRun0_A.sl.v2 c arg1 harg1 x0) (ix1 n) = Rw x0 n 6 2 2 := by
  unfold k0_pay169
  simp only [shapeCast_1a_a_apply, slice_row 62 (62 : Fin 198) rfl, v2_apply c arg1 harg1 arg2 harg2 x0 x1, Rw_eq x0 n 6 2 2 (62 : Fin 198) (by decide)]

theorem k0_pay178_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay178 (F := Ideal) (kernelRun0_A.sl.v2 c arg1 harg1 x0) (kernelRun0_A.sl.r_34 c arg1 harg1 x0) (kernelRun0_A.sl.r_35 c arg1 harg1 x0) (kernelRun0_A.sl.r_36 c arg1 harg1 x0) (ix1 n) = Cn x0 x1 n 6 2 2 := by
  refine Eq.trans ?_ (Cn_step x0 x1 n 6 3 (by decide) rfl (by decide) 2 2).symm
  unfold k0_pay178
  simp only [addf_apply, mulf_apply, r_34_apply c arg1 harg1 arg2 harg2 x0 x1, k0_pay163_apply c arg1 harg1 arg2 harg2 x0 x1, r_35_apply c arg1 harg1 arg2 harg2 x0 x1, k0_pay166_apply c arg1 harg1 arg2 harg2 x0 x1, r_36_apply c arg1 harg1 arg2 harg2 x0 x1, k0_pay169_apply c arg1 harg1 arg2 harg2 x0 x1]

theorem r_78_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_78 c arg1 harg1 x0 (ix1 n) = Cn x0 x1 n 6 2 2 := by
  delta kernelRun0_A.sl.r_78
  simp only [k0_pay178_apply c arg1 harg1 arg2 harg2 x0 x1]

theorem k0_pay244_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay244 (F := Ideal) (kernelRun0_A.sl.v2 c arg1 harg1 x0) (ix1 n) = Rw x0 n 9 0 0 := by
  unfold k0_pay244
  simp only [shapeCast_1a_a_apply, slice_row 81 (81 : Fin 198) rfl, v2_apply c arg1 harg1 arg2 harg2 x0 x1, Rw_eq x0 n 9 0 0 (81 : Fin 198) (by decide)]

theorem r_110_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_110 c arg1 harg1 x0 (ix1 n) = Rw x0 n 9 0 0 := by
  delta kernelRun0_A.sl.r_110
  simp only [k0_pay244_apply c arg1 harg1 arg2 harg2 x0 x1]

theorem k0_pay248_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay248 (F := Ideal) (kernelRun0_A.sl.v2 c arg1 harg1 x0) (ix1 n) = Rw x0 n 9 1 0 := by
  unfold k0_pay248
  simp only [shapeCast_1a_a_apply, slice_row 84 (84 : Fin 198) rfl, v2_apply c arg1 harg1 arg2 harg2 x0 x1, Rw_eq x0 n 9 1 0 (84 : Fin 198) (by decide)]

theorem k0_pay251_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay251 (F := Ideal) (kernelRun0_A.sl.v2 c arg1 harg1 x0) (ix1 n) = Rw x0 n 9 2 0 := by
  unfold k0_pay251
  simp only [shapeCast_1a_a_apply, slice_row 87 (87 : Fin 198) rfl, v2_apply c arg1 harg1 arg2 harg2 x0 x1, Rw_eq x0 n 9 2 0 (87 : Fin 198) (by decide)]

theorem k0_pay260_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay260 (F := Ideal) (kernelRun0_A.sl.v2 c arg1 harg1 x0) (kernelRun0_A.sl.r_76 c arg1 harg1 x0) (kernelRun0_A.sl.r_77 c arg1 harg1 x0) (kernelRun0_A.sl.r_78 c arg1 harg1 x0) (kernelRun0_A.sl.r_110 c arg1 harg1 x0) (ix1 n) = Cn x0 x1 n 9 2 0 := by
  refine Eq.trans ?_ (Cn_step x0 x1 n 9 6 (by decide) rfl (by decide) 2 0).symm
  unfold k0_pay260
  simp only [addf_apply, mulf_apply, r_76_apply c arg1 harg1 arg2 harg2 x0 x1, r_110_apply c arg1 harg1 arg2 harg2 x0 x1, r_77_apply c arg1 harg1 arg2 harg2 x0 x1, k0_pay248_apply c arg1 harg1 arg2 harg2 x0 x1, r_78_apply c arg1 harg1 arg2 harg2 x0 x1, k0_pay251_apply c arg1 harg1 arg2 harg2 x0 x1]

theorem r_118_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_118 c arg1 harg1 x0 (ix1 n) = Cn x0 x1 n 9 2 0 := by
  delta kernelRun0_A.sl.r_118
  simp only [k0_pay260_apply c arg1 harg1 arg2 harg2 x0 x1]

theorem k0_pay245_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay245 (F := Ideal) (kernelRun0_A.sl.v2 c arg1 harg1 x0) (ix2 u n) = Rw x0 n 9 0 1 := by
  unfold k0_pay245
  simp only [slice_row 82 (82 : Fin 198) rfl, v2_apply c arg1 harg1 arg2 harg2 x0 x1, Rw_eq x0 n 9 0 1 (82 : Fin 198) (by decide)]

theorem r_111_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_111 c arg1 harg1 x0 (ix2 u n) = Rw x0 n 9 0 1 := by
  delta kernelRun0_A.sl.r_111
  simp only [k0_pay245_apply c arg1 harg1 arg2 harg2 x0 x1]

theorem k0_pay246_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay246 (F := Ideal) (kernelRun0_A.sl.r_111 c arg1 harg1 x0) (ix1 n) = Rw x0 n 9 0 1 := by
  unfold k0_pay246
  simp only [shapeCast_1a_a_apply, r_111_apply c arg1 harg1 arg2 harg2 x0 x1]

theorem k0_pay249_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay249 (F := Ideal) (kernelRun0_A.sl.v2 c arg1 harg1 x0) (ix1 n) = Rw x0 n 9 1 1 := by
  unfold k0_pay249
  simp only [shapeCast_1a_a_apply, slice_row 85 (85 : Fin 198) rfl, v2_apply c arg1 harg1 arg2 harg2 x0 x1, Rw_eq x0 n 9 1 1 (85 : Fin 198) (by decide)]

theorem k0_pay252_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay252 (F := Ideal) (kernelRun0_A.sl.v2 c arg1 harg1 x0) (ix1 n) = Rw x0 n 9 2 1 := by
  unfold k0_pay252
  simp only [shapeCast_1a_a_apply, slice_row 88 (88 : Fin 198) rfl, v2_apply c arg1 harg1 arg2 harg2 x0 x1, Rw_eq x0 n 9 2 1 (88 : Fin 198) (by decide)]

theorem k0_pay261_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay261 (F := Ideal) (kernelRun0_A.sl.v2 c arg1 harg1 x0) (kernelRun0_A.sl.r_76 c arg1 harg1 x0) (kernelRun0_A.sl.r_77 c arg1 harg1 x0) (kernelRun0_A.sl.r_78 c arg1 harg1 x0) (kernelRun0_A.sl.r_111 c arg1 harg1 x0) (ix1 n) = Cn x0 x1 n 9 2 1 := by
  refine Eq.trans ?_ (Cn_step x0 x1 n 9 6 (by decide) rfl (by decide) 2 1).symm
  unfold k0_pay261
  simp only [addf_apply, mulf_apply, r_76_apply c arg1 harg1 arg2 harg2 x0 x1, k0_pay246_apply c arg1 harg1 arg2 harg2 x0 x1, r_77_apply c arg1 harg1 arg2 harg2 x0 x1, k0_pay249_apply c arg1 harg1 arg2 harg2 x0 x1, r_78_apply c arg1 harg1 arg2 harg2 x0 x1, k0_pay252_apply c arg1 harg1 arg2 harg2 x0 x1]

theorem r_119_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_119 c arg1 harg1 x0 (ix1 n) = Cn x0 x1 n 9 2 1 := by
  delta kernelRun0_A.sl.r_119
  simp only [k0_pay261_apply c arg1 harg1 arg2 harg2 x0 x1]

theorem k0_pay247_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay247 (F := Ideal) (kernelRun0_A.sl.v2 c arg1 harg1 x0) (ix1 n) = Rw x0 n 9 0 2 := by
  unfold k0_pay247
  simp only [shapeCast_1a_a_apply, slice_row 83 (83 : Fin 198) rfl, v2_apply c arg1 harg1 arg2 harg2 x0 x1, Rw_eq x0 n 9 0 2 (83 : Fin 198) (by decide)]

theorem k0_pay250_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay250 (F := Ideal) (kernelRun0_A.sl.v2 c arg1 harg1 x0) (ix1 n) = Rw x0 n 9 1 2 := by
  unfold k0_pay250
  simp only [shapeCast_1a_a_apply, slice_row 86 (86 : Fin 198) rfl, v2_apply c arg1 harg1 arg2 harg2 x0 x1, Rw_eq x0 n 9 1 2 (86 : Fin 198) (by decide)]

theorem k0_pay253_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay253 (F := Ideal) (kernelRun0_A.sl.v2 c arg1 harg1 x0) (ix1 n) = Rw x0 n 9 2 2 := by
  unfold k0_pay253
  simp only [shapeCast_1a_a_apply, slice_row 89 (89 : Fin 198) rfl, v2_apply c arg1 harg1 arg2 harg2 x0 x1, Rw_eq x0 n 9 2 2 (89 : Fin 198) (by decide)]

theorem k0_pay262_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay262 (F := Ideal) (kernelRun0_A.sl.v2 c arg1 harg1 x0) (kernelRun0_A.sl.r_76 c arg1 harg1 x0) (kernelRun0_A.sl.r_77 c arg1 harg1 x0) (kernelRun0_A.sl.r_78 c arg1 harg1 x0) (ix1 n) = Cn x0 x1 n 9 2 2 := by
  refine Eq.trans ?_ (Cn_step x0 x1 n 9 6 (by decide) rfl (by decide) 2 2).symm
  unfold k0_pay262
  simp only [addf_apply, mulf_apply, r_76_apply c arg1 harg1 arg2 harg2 x0 x1, k0_pay247_apply c arg1 harg1 arg2 harg2 x0 x1, r_77_apply c arg1 harg1 arg2 harg2 x0 x1, k0_pay250_apply c arg1 harg1 arg2 harg2 x0 x1, r_78_apply c arg1 harg1 arg2 harg2 x0 x1, k0_pay253_apply c arg1 harg1 arg2 harg2 x0 x1]

theorem r_120_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_120 c arg1 harg1 x0 (ix1 n) = Cn x0 x1 n 9 2 2 := by
  delta kernelRun0_A.sl.r_120
  simp only [k0_pay262_apply c arg1 harg1 arg2 harg2 x0 x1]

theorem k0_pay340_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay340 (F := Ideal) (kernelRun0_A.sl.v2 c arg1 harg1 x0) (ix1 n) = Rw x0 n 14 0 0 := by
  unfold k0_pay340
  simp only [shapeCast_1a_a_apply, slice_row 126 (126 : Fin 198) rfl, v2_apply c arg1 harg1 arg2 harg2 x0 x1, Rw_eq x0 n 14 0 0 (126 : Fin 198) (by decide)]

theorem r_162_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_162 c arg1 harg1 x0 (ix1 n) = Rw x0 n 14 0 0 := by
  delta kernelRun0_A.sl.r_162
  simp only [k0_pay340_apply c arg1 harg1 arg2 harg2 x0 x1]

theorem k0_pay343_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay343 (F := Ideal) (kernelRun0_A.sl.v2 c arg1 harg1 x0) (ix1 n) = Rw x0 n 14 1 0 := by
  unfold k0_pay343
  simp only [shapeCast_1a_a_apply, slice_row 129 (129 : Fin 198) rfl, v2_apply c arg1 harg1 arg2 harg2 x0 x1, Rw_eq x0 n 14 1 0 (129 : Fin 198) (by decide)]

theorem r_165_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_165 c arg1 harg1 x0 (ix1 n) = Rw x0 n 14 1 0 := by
  delta kernelRun0_A.sl.r_165
  simp only [k0_pay343_apply c arg1 harg1 arg2 harg2 x0 x1]

theorem k0_pay347_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay347 (F := Ideal) (kernelRun0_A.sl.v2 c arg1 harg1 x0) (ix1 n) = Rw x0 n 14 2 0 := by
  unfold k0_pay347
  simp only [shapeCast_1a_a_apply, slice_row 132 (132 : Fin 198) rfl, v2_apply c arg1 harg1 arg2 harg2 x0 x1, Rw_eq x0 n 14 2 0 (132 : Fin 198) (by decide)]

theorem k0_pay356_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay356 (F := Ideal) (kernelRun0_A.sl.v2 c arg1 harg1 x0) (kernelRun0_A.sl.r_118 c arg1 harg1 x0) (kernelRun0_A.sl.r_119 c arg1 harg1 x0) (kernelRun0_A.sl.r_120 c arg1 harg1 x0) (kernelRun0_A.sl.r_162 c arg1 harg1 x0) (kernelRun0_A.sl.r_165 c arg1 harg1 x0) (ix1 n) = Cn x0 x1 n 14 2 0 := by
  refine Eq.trans ?_ (Cn_step x0 x1 n 14 9 (by decide) rfl (by decide) 2 0).symm
  unfold k0_pay356
  simp only [addf_apply, mulf_apply, r_118_apply c arg1 harg1 arg2 harg2 x0 x1, r_162_apply c arg1 harg1 arg2 harg2 x0 x1, r_119_apply c arg1 harg1 arg2 harg2 x0 x1, r_165_apply c arg1 harg1 arg2 harg2 x0 x1, r_120_apply c arg1 harg1 arg2 harg2 x0 x1, k0_pay347_apply c arg1 harg1 arg2 harg2 x0 x1]

theorem r_173_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_173 c arg1 harg1 x0 (ix1 n) = Cn x0 x1 n 14 2 0 := by
  delta kernelRun0_A.sl.r_173
  simp only [k0_pay356_apply c arg1 harg1 arg2 harg2 x0 x1]

theorem k0_pay341_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay341 (F := Ideal) (kernelRun0_A.sl.v2 c arg1 harg1 x0) (ix1 n) = Rw x0 n 14 0 1 := by
  unfold k0_pay341
  simp only [shapeCast_1a_a_apply, slice_row 127 (127 : Fin 198) rfl, v2_apply c arg1 harg1 arg2 harg2 x0 x1, Rw_eq x0 n 14 0 1 (127 : Fin 198) (by decide)]

theorem r_163_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_163 c arg1 harg1 x0 (ix1 n) = Rw x0 n 14 0 1 := by
  delta kernelRun0_A.sl.r_163
  simp only [k0_pay341_apply c arg1 harg1 arg2 harg2 x0 x1]

theorem k0_pay344_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay344 (F := Ideal) (kernelRun0_A.sl.v2 c arg1 harg1 x0) (ix2 u n) = Rw x0 n 14 1 1 := by
  unfold k0_pay344
  simp only [slice_row 130 (130 : Fin 198) rfl, v2_apply c arg1 harg1 arg2 harg2 x0 x1, Rw_eq x0 n 14 1 1 (130 : Fin 198) (by decide)]

theorem r_166_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_166 c arg1 harg1 x0 (ix2 u n) = Rw x0 n 14 1 1 := by
  delta kernelRun0_A.sl.r_166
  simp only [k0_pay344_apply c arg1 harg1 arg2 harg2 x0 x1]

theorem k0_pay345_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay345 (F := Ideal) (kernelRun0_A.sl.r_166 c arg1 harg1 x0) (ix1 n) = Rw x0 n 14 1 1 := by
  unfold k0_pay345
  simp only [shapeCast_1a_a_apply, r_166_apply c arg1 harg1 arg2 harg2 x0 x1]

theorem k0_pay348_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay348 (F := Ideal) (kernelRun0_A.sl.v2 c arg1 harg1 x0) (ix1 n) = Rw x0 n 14 2 1 := by
  unfold k0_pay348
  simp only [shapeCast_1a_a_apply, slice_row 133 (133 : Fin 198) rfl, v2_apply c arg1 harg1 arg2 harg2 x0 x1, Rw_eq x0 n 14 2 1 (133 : Fin 198) (by decide)]

theorem k0_pay357_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay357 (F := Ideal) (kernelRun0_A.sl.v2 c arg1 harg1 x0) (kernelRun0_A.sl.r_118 c arg1 harg1 x0) (kernelRun0_A.sl.r_119 c arg1 harg1 x0) (kernelRun0_A.sl.r_120 c arg1 harg1 x0) (kernelRun0_A.sl.r_163 c arg1 harg1 x0) (kernelRun0_A.sl.r_166 c arg1 harg1 x0) (ix1 n) = Cn x0 x1 n 14 2 1 := by
  refine Eq.trans ?_ (Cn_step x0 x1 n 14 9 (by decide) rfl (by decide) 2 1).symm
  unfold k0_pay357
  simp only [addf_apply, mulf_apply, r_118_apply c arg1 harg1 arg2 harg2 x0 x1, r_163_apply c arg1 harg1 arg2 harg2 x0 x1, r_119_apply c arg1 harg1 arg2 harg2 x0 x1, k0_pay345_apply c arg1 harg1 arg2 harg2 x0 x1, r_120_apply c arg1 harg1 arg2 harg2 x0 x1, k0_pay348_apply c arg1 harg1 arg2 harg2 x0 x1]

theorem r_174_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_174 c arg1 harg1 x0 (ix1 n) = Cn x0 x1 n 14 2 1 := by
  delta kernelRun0_A.sl.r_174
  simp only [k0_pay357_apply c arg1 harg1 arg2 harg2 x0 x1]

theorem k0_pay342_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay342 (F := Ideal) (kernelRun0_A.sl.v2 c arg1 harg1 x0) (ix1 n) = Rw x0 n 14 0 2 := by
  unfold k0_pay342
  simp only [shapeCast_1a_a_apply, slice_row 128 (128 : Fin 198) rfl, v2_apply c arg1 harg1 arg2 harg2 x0 x1, Rw_eq x0 n 14 0 2 (128 : Fin 198) (by decide)]

theorem r_164_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_164 c arg1 harg1 x0 (ix1 n) = Rw x0 n 14 0 2 := by
  delta kernelRun0_A.sl.r_164
  simp only [k0_pay342_apply c arg1 harg1 arg2 harg2 x0 x1]

theorem k0_pay346_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay346 (F := Ideal) (kernelRun0_A.sl.v2 c arg1 harg1 x0) (ix1 n) = Rw x0 n 14 1 2 := by
  unfold k0_pay346
  simp only [shapeCast_1a_a_apply, slice_row 131 (131 : Fin 198) rfl, v2_apply c arg1 harg1 arg2 harg2 x0 x1, Rw_eq x0 n 14 1 2 (131 : Fin 198) (by decide)]

theorem k0_pay349_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay349 (F := Ideal) (kernelRun0_A.sl.v2 c arg1 harg1 x0) (ix1 n) = Rw x0 n 14 2 2 := by
  unfold k0_pay349
  simp only [shapeCast_1a_a_apply, slice_row 134 (134 : Fin 198) rfl, v2_apply c arg1 harg1 arg2 harg2 x0 x1, Rw_eq x0 n 14 2 2 (134 : Fin 198) (by decide)]

theorem k0_pay358_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay358 (F := Ideal) (kernelRun0_A.sl.v2 c arg1 harg1 x0) (kernelRun0_A.sl.r_118 c arg1 harg1 x0) (kernelRun0_A.sl.r_119 c arg1 harg1 x0) (kernelRun0_A.sl.r_120 c arg1 harg1 x0) (kernelRun0_A.sl.r_164 c arg1 harg1 x0) (ix1 n) = Cn x0 x1 n 14 2 2 := by
  refine Eq.trans ?_ (Cn_step x0 x1 n 14 9 (by decide) rfl (by decide) 2 2).symm
  unfold k0_pay358
  simp only [addf_apply, mulf_apply, r_118_apply c arg1 harg1 arg2 harg2 x0 x1, r_164_apply c arg1 harg1 arg2 harg2 x0 x1, r_119_apply c arg1 harg1 arg2 harg2 x0 x1, k0_pay346_apply c arg1 harg1 arg2 harg2 x0 x1, r_120_apply c arg1 harg1 arg2 harg2 x0 x1, k0_pay349_apply c arg1 harg1 arg2 harg2 x0 x1]

theorem r_175_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_175 c arg1 harg1 x0 (ix1 n) = Cn x0 x1 n 14 2 2 := by
  delta kernelRun0_A.sl.r_175
  simp only [k0_pay358_apply c arg1 harg1 arg2 harg2 x0 x1]

theorem k0_pay424_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay424 (F := Ideal) (kernelRun0_A.sl.v2 c arg1 harg1 x0) (ix1 n) = Rw x0 n 17 0 0 := by
  unfold k0_pay424
  simp only [shapeCast_1a_a_apply, slice_row 153 (153 : Fin 198) rfl, v2_apply c arg1 harg1 arg2 harg2 x0 x1, Rw_eq x0 n 17 0 0 (153 : Fin 198) (by decide)]

theorem r_216_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_216 c arg1 harg1 x0 (ix1 n) = Rw x0 n 17 0 0 := by
  delta kernelRun0_A.sl.r_216
  simp only [k0_pay424_apply c arg1 harg1 arg2 harg2 x0 x1]

theorem k0_pay427_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay427 (F := Ideal) (kernelRun0_A.sl.v2 c arg1 harg1 x0) (ix1 n) = Rw x0 n 17 1 0 := by
  unfold k0_pay427
  simp only [shapeCast_1a_a_apply, slice_row 156 (156 : Fin 198) rfl, v2_apply c arg1 harg1 arg2 harg2 x0 x1, Rw_eq x0 n 17 1 0 (156 : Fin 198) (by decide)]

theorem r_219_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_219 c arg1 harg1 x0 (ix1 n) = Rw x0 n 17 1 0 := by
  delta kernelRun0_A.sl.r_219
  simp only [k0_pay427_apply c arg1 harg1 arg2 harg2 x0 x1]

theorem k0_pay431_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay431 (F := Ideal) (kernelRun0_A.sl.v2 c arg1 harg1 x0) (ix1 n) = Rw x0 n 17 2 0 := by
  unfold k0_pay431
  simp only [shapeCast_1a_a_apply, slice_row 159 (159 : Fin 198) rfl, v2_apply c arg1 harg1 arg2 harg2 x0 x1, Rw_eq x0 n 17 2 0 (159 : Fin 198) (by decide)]

theorem k0_pay440_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay440 (F := Ideal) (kernelRun0_A.sl.v2 c arg1 harg1 x0) (kernelRun0_A.sl.r_173 c arg1 harg1 x0) (kernelRun0_A.sl.r_174 c arg1 harg1 x0) (kernelRun0_A.sl.r_175 c arg1 harg1 x0) (kernelRun0_A.sl.r_216 c arg1 harg1 x0) (kernelRun0_A.sl.r_219 c arg1 harg1 x0) (ix1 n) = Cn x0 x1 n 17 2 0 := by
  refine Eq.trans ?_ (Cn_step x0 x1 n 17 14 (by decide) rfl (by decide) 2 0).symm
  unfold k0_pay440
  simp only [addf_apply, mulf_apply, r_173_apply c arg1 harg1 arg2 harg2 x0 x1, r_216_apply c arg1 harg1 arg2 harg2 x0 x1, r_174_apply c arg1 harg1 arg2 harg2 x0 x1, r_219_apply c arg1 harg1 arg2 harg2 x0 x1, r_175_apply c arg1 harg1 arg2 harg2 x0 x1, k0_pay431_apply c arg1 harg1 arg2 harg2 x0 x1]

theorem r_227_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_227 c arg1 harg1 x0 (ix1 n) = Cn x0 x1 n 17 2 0 := by
  delta kernelRun0_A.sl.r_227
  simp only [k0_pay440_apply c arg1 harg1 arg2 harg2 x0 x1]

theorem k0_pay425_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay425 (F := Ideal) (kernelRun0_A.sl.v2 c arg1 harg1 x0) (ix1 n) = Rw x0 n 17 0 1 := by
  unfold k0_pay425
  simp only [shapeCast_1a_a_apply, slice_row 154 (154 : Fin 198) rfl, v2_apply c arg1 harg1 arg2 harg2 x0 x1, Rw_eq x0 n 17 0 1 (154 : Fin 198) (by decide)]

theorem r_217_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_217 c arg1 harg1 x0 (ix1 n) = Rw x0 n 17 0 1 := by
  delta kernelRun0_A.sl.r_217
  simp only [k0_pay425_apply c arg1 harg1 arg2 harg2 x0 x1]

theorem k0_pay428_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay428 (F := Ideal) (kernelRun0_A.sl.v2 c arg1 harg1 x0) (ix2 u n) = Rw x0 n 17 1 1 := by
  unfold k0_pay428
  simp only [slice_row 157 (157 : Fin 198) rfl, v2_apply c arg1 harg1 arg2 harg2 x0 x1, Rw_eq x0 n 17 1 1 (157 : Fin 198) (by decide)]

theorem r_220_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_220 c arg1 harg1 x0 (ix2 u n) = Rw x0 n 17 1 1 := by
  delta kernelRun0_A.sl.r_220
  simp only [k0_pay428_apply c arg1 harg1 arg2 harg2 x0 x1]

theorem k0_pay429_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay429 (F := Ideal) (kernelRun0_A.sl.r_220 c arg1 harg1 x0) (ix1 n) = Rw x0 n 17 1 1 := by
  unfold k0_pay429
  simp only [shapeCast_1a_a_apply, r_220_apply c arg1 harg1 arg2 harg2 x0 x1]

theorem k0_pay432_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay432 (F := Ideal) (kernelRun0_A.sl.v2 c arg1 harg1 x0) (ix1 n) = Rw x0 n 17 2 1 := by
  unfold k0_pay432
  simp only [shapeCast_1a_a_apply, slice_row 160 (160 : Fin 198) rfl, v2_apply c arg1 harg1 arg2 harg2 x0 x1, Rw_eq x0 n 17 2 1 (160 : Fin 198) (by decide)]

theorem k0_pay441_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay441 (F := Ideal) (kernelRun0_A.sl.v2 c arg1 harg1 x0) (kernelRun0_A.sl.r_173 c arg1 harg1 x0) (kernelRun0_A.sl.r_174 c arg1 harg1 x0) (kernelRun0_A.sl.r_175 c arg1 harg1 x0) (kernelRun0_A.sl.r_217 c arg1 harg1 x0) (kernelRun0_A.sl.r_220 c arg1 harg1 x0) (ix1 n) = Cn x0 x1 n 17 2 1 := by
  refine Eq.trans ?_ (Cn_step x0 x1 n 17 14 (by decide) rfl (by decide) 2 1).symm
  unfold k0_pay441
  simp only [addf_apply, mulf_apply, r_173_apply c arg1 harg1 arg2 harg2 x0 x1, r_217_apply c arg1 harg1 arg2 harg2 x0 x1, r_174_apply c arg1 harg1 arg2 harg2 x0 x1, k0_pay429_apply c arg1 harg1 arg2 harg2 x0 x1, r_175_apply c arg1 harg1 arg2 harg2 x0 x1, k0_pay432_apply c arg1 harg1 arg2 harg2 x0 x1]

theorem r_228_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_228 c arg1 harg1 x0 (ix1 n) = Cn x0 x1 n 17 2 1 := by
  delta kernelRun0_A.sl.r_228
  simp only [k0_pay441_apply c arg1 harg1 arg2 harg2 x0 x1]

theorem k0_pay426_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay426 (F := Ideal) (kernelRun0_A.sl.v2 c arg1 harg1 x0) (ix1 n) = Rw x0 n 17 0 2 := by
  unfold k0_pay426
  simp only [shapeCast_1a_a_apply, slice_row 155 (155 : Fin 198) rfl, v2_apply c arg1 harg1 arg2 harg2 x0 x1, Rw_eq x0 n 17 0 2 (155 : Fin 198) (by decide)]

theorem r_218_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_218 c arg1 harg1 x0 (ix1 n) = Rw x0 n 17 0 2 := by
  delta kernelRun0_A.sl.r_218
  simp only [k0_pay426_apply c arg1 harg1 arg2 harg2 x0 x1]

theorem k0_pay430_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay430 (F := Ideal) (kernelRun0_A.sl.v2 c arg1 harg1 x0) (ix1 n) = Rw x0 n 17 1 2 := by
  unfold k0_pay430
  simp only [shapeCast_1a_a_apply, slice_row 158 (158 : Fin 198) rfl, v2_apply c arg1 harg1 arg2 harg2 x0 x1, Rw_eq x0 n 17 1 2 (158 : Fin 198) (by decide)]

theorem k0_pay433_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay433 (F := Ideal) (kernelRun0_A.sl.v2 c arg1 harg1 x0) (ix1 n) = Rw x0 n 17 2 2 := by
  unfold k0_pay433
  simp only [shapeCast_1a_a_apply, slice_row 161 (161 : Fin 198) rfl, v2_apply c arg1 harg1 arg2 harg2 x0 x1, Rw_eq x0 n 17 2 2 (161 : Fin 198) (by decide)]

theorem k0_pay442_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay442 (F := Ideal) (kernelRun0_A.sl.v2 c arg1 harg1 x0) (kernelRun0_A.sl.r_173 c arg1 harg1 x0) (kernelRun0_A.sl.r_174 c arg1 harg1 x0) (kernelRun0_A.sl.r_175 c arg1 harg1 x0) (kernelRun0_A.sl.r_218 c arg1 harg1 x0) (ix1 n) = Cn x0 x1 n 17 2 2 := by
  refine Eq.trans ?_ (Cn_step x0 x1 n 17 14 (by decide) rfl (by decide) 2 2).symm
  unfold k0_pay442
  simp only [addf_apply, mulf_apply, r_173_apply c arg1 harg1 arg2 harg2 x0 x1, r_218_apply c arg1 harg1 arg2 harg2 x0 x1, r_174_apply c arg1 harg1 arg2 harg2 x0 x1, k0_pay430_apply c arg1 harg1 arg2 harg2 x0 x1, r_175_apply c arg1 harg1 arg2 harg2 x0 x1, k0_pay433_apply c arg1 harg1 arg2 harg2 x0 x1]

theorem r_229_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_229 c arg1 harg1 x0 (ix1 n) = Cn x0 x1 n 17 2 2 := by
  delta kernelRun0_A.sl.r_229
  simp only [k0_pay442_apply c arg1 harg1 arg2 harg2 x0 x1]

theorem k0_pay480_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay480 (F := Ideal) (kernelRun0_A.sl.v2 c arg1 harg1 x0) (ix1 n) = Rw x0 n 19 0 0 := by
  unfold k0_pay480
  simp only [shapeCast_1a_a_apply, slice_row 171 (171 : Fin 198) rfl, v2_apply c arg1 harg1 arg2 harg2 x0 x1, Rw_eq x0 n 19 0 0 (171 : Fin 198) (by decide)]

theorem r_252_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_252 c arg1 harg1 x0 (ix1 n) = Rw x0 n 19 0 0 := by
  delta kernelRun0_A.sl.r_252
  simp only [k0_pay480_apply c arg1 harg1 arg2 harg2 x0 x1]

theorem k0_pay483_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay483 (F := Ideal) (kernelRun0_A.sl.v2 c arg1 harg1 x0) (ix1 n) = Rw x0 n 19 1 0 := by
  unfold k0_pay483
  simp only [shapeCast_1a_a_apply, slice_row 174 (174 : Fin 198) rfl, v2_apply c arg1 harg1 arg2 harg2 x0 x1, Rw_eq x0 n 19 1 0 (174 : Fin 198) (by decide)]

theorem r_255_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_255 c arg1 harg1 x0 (ix1 n) = Rw x0 n 19 1 0 := by
  delta kernelRun0_A.sl.r_255
  simp only [k0_pay483_apply c arg1 harg1 arg2 harg2 x0 x1]

theorem k0_pay487_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay487 (F := Ideal) (kernelRun0_A.sl.v2 c arg1 harg1 x0) (ix1 n) = Rw x0 n 19 2 0 := by
  unfold k0_pay487
  simp only [shapeCast_1a_a_apply, slice_row 177 (177 : Fin 198) rfl, v2_apply c arg1 harg1 arg2 harg2 x0 x1, Rw_eq x0 n 19 2 0 (177 : Fin 198) (by decide)]

theorem k0_pay496_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay496 (F := Ideal) (kernelRun0_A.sl.v2 c arg1 harg1 x0) (kernelRun0_A.sl.r_227 c arg1 harg1 x0) (kernelRun0_A.sl.r_228 c arg1 harg1 x0) (kernelRun0_A.sl.r_229 c arg1 harg1 x0) (kernelRun0_A.sl.r_252 c arg1 harg1 x0) (kernelRun0_A.sl.r_255 c arg1 harg1 x0) (ix1 n) = Cn x0 x1 n 19 2 0 := by
  refine Eq.trans ?_ (Cn_step x0 x1 n 19 17 (by decide) rfl (by decide) 2 0).symm
  unfold k0_pay496
  simp only [addf_apply, mulf_apply, r_227_apply c arg1 harg1 arg2 harg2 x0 x1, r_252_apply c arg1 harg1 arg2 harg2 x0 x1, r_228_apply c arg1 harg1 arg2 harg2 x0 x1, r_255_apply c arg1 harg1 arg2 harg2 x0 x1, r_229_apply c arg1 harg1 arg2 harg2 x0 x1, k0_pay487_apply c arg1 harg1 arg2 harg2 x0 x1]

theorem r_263_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_263 c arg1 harg1 x0 (ix1 n) = Cn x0 x1 n 19 2 0 := by
  delta kernelRun0_A.sl.r_263
  simp only [k0_pay496_apply c arg1 harg1 arg2 harg2 x0 x1]

theorem k0_pay481_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay481 (F := Ideal) (kernelRun0_A.sl.v2 c arg1 harg1 x0) (ix1 n) = Rw x0 n 19 0 1 := by
  unfold k0_pay481
  simp only [shapeCast_1a_a_apply, slice_row 172 (172 : Fin 198) rfl, v2_apply c arg1 harg1 arg2 harg2 x0 x1, Rw_eq x0 n 19 0 1 (172 : Fin 198) (by decide)]

theorem r_253_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_253 c arg1 harg1 x0 (ix1 n) = Rw x0 n 19 0 1 := by
  delta kernelRun0_A.sl.r_253
  simp only [k0_pay481_apply c arg1 harg1 arg2 harg2 x0 x1]

theorem k0_pay484_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay484 (F := Ideal) (kernelRun0_A.sl.v2 c arg1 harg1 x0) (ix2 u n) = Rw x0 n 19 1 1 := by
  unfold k0_pay484
  simp only [slice_row 175 (175 : Fin 198) rfl, v2_apply c arg1 harg1 arg2 harg2 x0 x1, Rw_eq x0 n 19 1 1 (175 : Fin 198) (by decide)]

theorem r_256_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_256 c arg1 harg1 x0 (ix2 u n) = Rw x0 n 19 1 1 := by
  delta kernelRun0_A.sl.r_256
  simp only [k0_pay484_apply c arg1 harg1 arg2 harg2 x0 x1]

theorem k0_pay485_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay485 (F := Ideal) (kernelRun0_A.sl.r_256 c arg1 harg1 x0) (ix1 n) = Rw x0 n 19 1 1 := by
  unfold k0_pay485
  simp only [shapeCast_1a_a_apply, r_256_apply c arg1 harg1 arg2 harg2 x0 x1]

theorem k0_pay488_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay488 (F := Ideal) (kernelRun0_A.sl.v2 c arg1 harg1 x0) (ix1 n) = Rw x0 n 19 2 1 := by
  unfold k0_pay488
  simp only [shapeCast_1a_a_apply, slice_row 178 (178 : Fin 198) rfl, v2_apply c arg1 harg1 arg2 harg2 x0 x1, Rw_eq x0 n 19 2 1 (178 : Fin 198) (by decide)]

theorem k0_pay497_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay497 (F := Ideal) (kernelRun0_A.sl.v2 c arg1 harg1 x0) (kernelRun0_A.sl.r_227 c arg1 harg1 x0) (kernelRun0_A.sl.r_228 c arg1 harg1 x0) (kernelRun0_A.sl.r_229 c arg1 harg1 x0) (kernelRun0_A.sl.r_253 c arg1 harg1 x0) (kernelRun0_A.sl.r_256 c arg1 harg1 x0) (ix1 n) = Cn x0 x1 n 19 2 1 := by
  refine Eq.trans ?_ (Cn_step x0 x1 n 19 17 (by decide) rfl (by decide) 2 1).symm
  unfold k0_pay497
  simp only [addf_apply, mulf_apply, r_227_apply c arg1 harg1 arg2 harg2 x0 x1, r_253_apply c arg1 harg1 arg2 harg2 x0 x1, r_228_apply c arg1 harg1 arg2 harg2 x0 x1, k0_pay485_apply c arg1 harg1 arg2 harg2 x0 x1, r_229_apply c arg1 harg1 arg2 harg2 x0 x1, k0_pay488_apply c arg1 harg1 arg2 harg2 x0 x1]

theorem r_264_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_264 c arg1 harg1 x0 (ix1 n) = Cn x0 x1 n 19 2 1 := by
  delta kernelRun0_A.sl.r_264
  simp only [k0_pay497_apply c arg1 harg1 arg2 harg2 x0 x1]

theorem k0_pay482_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay482 (F := Ideal) (kernelRun0_A.sl.v2 c arg1 harg1 x0) (ix1 n) = Rw x0 n 19 0 2 := by
  unfold k0_pay482
  simp only [shapeCast_1a_a_apply, slice_row 173 (173 : Fin 198) rfl, v2_apply c arg1 harg1 arg2 harg2 x0 x1, Rw_eq x0 n 19 0 2 (173 : Fin 198) (by decide)]

theorem r_254_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_254 c arg1 harg1 x0 (ix1 n) = Rw x0 n 19 0 2 := by
  delta kernelRun0_A.sl.r_254
  simp only [k0_pay482_apply c arg1 harg1 arg2 harg2 x0 x1]

theorem k0_pay486_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay486 (F := Ideal) (kernelRun0_A.sl.v2 c arg1 harg1 x0) (ix1 n) = Rw x0 n 19 1 2 := by
  unfold k0_pay486
  simp only [shapeCast_1a_a_apply, slice_row 176 (176 : Fin 198) rfl, v2_apply c arg1 harg1 arg2 harg2 x0 x1, Rw_eq x0 n 19 1 2 (176 : Fin 198) (by decide)]

theorem k0_pay489_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay489 (F := Ideal) (kernelRun0_A.sl.v2 c arg1 harg1 x0) (ix1 n) = Rw x0 n 19 2 2 := by
  unfold k0_pay489
  simp only [shapeCast_1a_a_apply, slice_row 179 (179 : Fin 198) rfl, v2_apply c arg1 harg1 arg2 harg2 x0 x1, Rw_eq x0 n 19 2 2 (179 : Fin 198) (by decide)]

theorem k0_pay498_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay498 (F := Ideal) (kernelRun0_A.sl.v2 c arg1 harg1 x0) (kernelRun0_A.sl.r_227 c arg1 harg1 x0) (kernelRun0_A.sl.r_228 c arg1 harg1 x0) (kernelRun0_A.sl.r_229 c arg1 harg1 x0) (kernelRun0_A.sl.r_254 c arg1 harg1 x0) (ix1 n) = Cn x0 x1 n 19 2 2 := by
  refine Eq.trans ?_ (Cn_step x0 x1 n 19 17 (by decide) rfl (by decide) 2 2).symm
  unfold k0_pay498
  simp only [addf_apply, mulf_apply, r_227_apply c arg1 harg1 arg2 harg2 x0 x1, r_254_apply c arg1 harg1 arg2 harg2 x0 x1, r_228_apply c arg1 harg1 arg2 harg2 x0 x1, k0_pay486_apply c arg1 harg1 arg2 harg2 x0 x1, r_229_apply c arg1 harg1 arg2 harg2 x0 x1, k0_pay489_apply c arg1 harg1 arg2 harg2 x0 x1]

theorem r_265_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_265 c arg1 harg1 x0 (ix1 n) = Cn x0 x1 n 19 2 2 := by
  delta kernelRun0_A.sl.r_265
  simp only [k0_pay498_apply c arg1 harg1 arg2 harg2 x0 x1]

theorem k0_pay536_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay536 (F := Ideal) (kernelRun0_A.sl.v2 c arg1 harg1 x0) (ix1 n) = Rw x0 n 21 0 0 := by
  unfold k0_pay536
  simp only [shapeCast_1a_a_apply, slice_row 189 (189 : Fin 198) rfl, v2_apply c arg1 harg1 arg2 harg2 x0 x1, Rw_eq x0 n 21 0 0 (189 : Fin 198) (by decide)]

theorem r_288_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_288 c arg1 harg1 x0 (ix1 n) = Rw x0 n 21 0 0 := by
  delta kernelRun0_A.sl.r_288
  simp only [k0_pay536_apply c arg1 harg1 arg2 harg2 x0 x1]

theorem k0_pay539_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay539 (F := Ideal) (kernelRun0_A.sl.v2 c arg1 harg1 x0) (ix1 n) = Rw x0 n 21 1 0 := by
  unfold k0_pay539
  simp only [shapeCast_1a_a_apply, slice_row 192 (192 : Fin 198) rfl, v2_apply c arg1 harg1 arg2 harg2 x0 x1, Rw_eq x0 n 21 1 0 (192 : Fin 198) (by decide)]

theorem r_291_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_291 c arg1 harg1 x0 (ix1 n) = Rw x0 n 21 1 0 := by
  delta kernelRun0_A.sl.r_291
  simp only [k0_pay539_apply c arg1 harg1 arg2 harg2 x0 x1]

theorem k0_pay543_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay543 (F := Ideal) (kernelRun0_A.sl.v2 c arg1 harg1 x0) (ix1 n) = Rw x0 n 21 2 0 := by
  unfold k0_pay543
  simp only [shapeCast_1a_a_apply, slice_row 195 (195 : Fin 198) rfl, v2_apply c arg1 harg1 arg2 harg2 x0 x1, Rw_eq x0 n 21 2 0 (195 : Fin 198) (by decide)]

theorem k0_pay552_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay552 (F := Ideal) (kernelRun0_A.sl.v2 c arg1 harg1 x0) (kernelRun0_A.sl.r_263 c arg1 harg1 x0) (kernelRun0_A.sl.r_264 c arg1 harg1 x0) (kernelRun0_A.sl.r_265 c arg1 harg1 x0) (kernelRun0_A.sl.r_288 c arg1 harg1 x0) (kernelRun0_A.sl.r_291 c arg1 harg1 x0) (ix1 n) = Cn x0 x1 n 21 2 0 := by
  refine Eq.trans ?_ (Cn_step x0 x1 n 21 19 (by decide) rfl (by decide) 2 0).symm
  unfold k0_pay552
  simp only [addf_apply, mulf_apply, r_263_apply c arg1 harg1 arg2 harg2 x0 x1, r_288_apply c arg1 harg1 arg2 harg2 x0 x1, r_264_apply c arg1 harg1 arg2 harg2 x0 x1, r_291_apply c arg1 harg1 arg2 harg2 x0 x1, r_265_apply c arg1 harg1 arg2 harg2 x0 x1, k0_pay543_apply c arg1 harg1 arg2 harg2 x0 x1]

theorem r_299_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_299 c arg1 harg1 x0 (ix1 n) = Cn x0 x1 n 21 2 0 := by
  delta kernelRun0_A.sl.r_299
  simp only [k0_pay552_apply c arg1 harg1 arg2 harg2 x0 x1]

theorem k0_pay537_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay537 (F := Ideal) (kernelRun0_A.sl.v2 c arg1 harg1 x0) (ix1 n) = Rw x0 n 21 0 1 := by
  unfold k0_pay537
  simp only [shapeCast_1a_a_apply, slice_row 190 (190 : Fin 198) rfl, v2_apply c arg1 harg1 arg2 harg2 x0 x1, Rw_eq x0 n 21 0 1 (190 : Fin 198) (by decide)]

theorem r_289_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_289 c arg1 harg1 x0 (ix1 n) = Rw x0 n 21 0 1 := by
  delta kernelRun0_A.sl.r_289
  simp only [k0_pay537_apply c arg1 harg1 arg2 harg2 x0 x1]

theorem k0_pay540_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay540 (F := Ideal) (kernelRun0_A.sl.v2 c arg1 harg1 x0) (ix2 u n) = Rw x0 n 21 1 1 := by
  unfold k0_pay540
  simp only [slice_row 193 (193 : Fin 198) rfl, v2_apply c arg1 harg1 arg2 harg2 x0 x1, Rw_eq x0 n 21 1 1 (193 : Fin 198) (by decide)]

theorem r_292_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_292 c arg1 harg1 x0 (ix2 u n) = Rw x0 n 21 1 1 := by
  delta kernelRun0_A.sl.r_292
  simp only [k0_pay540_apply c arg1 harg1 arg2 harg2 x0 x1]

theorem k0_pay541_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay541 (F := Ideal) (kernelRun0_A.sl.r_292 c arg1 harg1 x0) (ix1 n) = Rw x0 n 21 1 1 := by
  unfold k0_pay541
  simp only [shapeCast_1a_a_apply, r_292_apply c arg1 harg1 arg2 harg2 x0 x1]

theorem k0_pay544_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay544 (F := Ideal) (kernelRun0_A.sl.v2 c arg1 harg1 x0) (ix1 n) = Rw x0 n 21 2 1 := by
  unfold k0_pay544
  simp only [shapeCast_1a_a_apply, slice_row 196 (196 : Fin 198) rfl, v2_apply c arg1 harg1 arg2 harg2 x0 x1, Rw_eq x0 n 21 2 1 (196 : Fin 198) (by decide)]

theorem k0_pay553_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay553 (F := Ideal) (kernelRun0_A.sl.v2 c arg1 harg1 x0) (kernelRun0_A.sl.r_263 c arg1 harg1 x0) (kernelRun0_A.sl.r_264 c arg1 harg1 x0) (kernelRun0_A.sl.r_265 c arg1 harg1 x0) (kernelRun0_A.sl.r_289 c arg1 harg1 x0) (kernelRun0_A.sl.r_292 c arg1 harg1 x0) (ix1 n) = Cn x0 x1 n 21 2 1 := by
  refine Eq.trans ?_ (Cn_step x0 x1 n 21 19 (by decide) rfl (by decide) 2 1).symm
  unfold k0_pay553
  simp only [addf_apply, mulf_apply, r_263_apply c arg1 harg1 arg2 harg2 x0 x1, r_289_apply c arg1 harg1 arg2 harg2 x0 x1, r_264_apply c arg1 harg1 arg2 harg2 x0 x1, k0_pay541_apply c arg1 harg1 arg2 harg2 x0 x1, r_265_apply c arg1 harg1 arg2 harg2 x0 x1, k0_pay544_apply c arg1 harg1 arg2 harg2 x0 x1]

theorem r_300_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_300 c arg1 harg1 x0 (ix1 n) = Cn x0 x1 n 21 2 1 := by
  delta kernelRun0_A.sl.r_300
  simp only [k0_pay553_apply c arg1 harg1 arg2 harg2 x0 x1]

theorem k0_pay538_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay538 (F := Ideal) (kernelRun0_A.sl.v2 c arg1 harg1 x0) (ix1 n) = Rw x0 n 21 0 2 := by
  unfold k0_pay538
  simp only [shapeCast_1a_a_apply, slice_row 191 (191 : Fin 198) rfl, v2_apply c arg1 harg1 arg2 harg2 x0 x1, Rw_eq x0 n 21 0 2 (191 : Fin 198) (by decide)]

theorem r_290_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_290 c arg1 harg1 x0 (ix1 n) = Rw x0 n 21 0 2 := by
  delta kernelRun0_A.sl.r_290
  simp only [k0_pay538_apply c arg1 harg1 arg2 harg2 x0 x1]

theorem k0_pay542_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay542 (F := Ideal) (kernelRun0_A.sl.v2 c arg1 harg1 x0) (ix1 n) = Rw x0 n 21 1 2 := by
  unfold k0_pay542
  simp only [shapeCast_1a_a_apply, slice_row 194 (194 : Fin 198) rfl, v2_apply c arg1 harg1 arg2 harg2 x0 x1, Rw_eq x0 n 21 1 2 (194 : Fin 198) (by decide)]

theorem k0_pay545_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay545 (F := Ideal) (kernelRun0_A.sl.v2 c arg1 harg1 x0) (ix1 n) = Rw x0 n 21 2 2 := by
  unfold k0_pay545
  simp only [shapeCast_1a_a_apply, slice_row 197 (197 : Fin 198) rfl, v2_apply c arg1 harg1 arg2 harg2 x0 x1, Rw_eq x0 n 21 2 2 (197 : Fin 198) (by decide)]

theorem k0_pay554_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay554 (F := Ideal) (kernelRun0_A.sl.v2 c arg1 harg1 x0) (kernelRun0_A.sl.r_263 c arg1 harg1 x0) (kernelRun0_A.sl.r_264 c arg1 harg1 x0) (kernelRun0_A.sl.r_265 c arg1 harg1 x0) (kernelRun0_A.sl.r_290 c arg1 harg1 x0) (ix1 n) = Cn x0 x1 n 21 2 2 := by
  refine Eq.trans ?_ (Cn_step x0 x1 n 21 19 (by decide) rfl (by decide) 2 2).symm
  unfold k0_pay554
  simp only [addf_apply, mulf_apply, r_263_apply c arg1 harg1 arg2 harg2 x0 x1, r_290_apply c arg1 harg1 arg2 harg2 x0 x1, r_264_apply c arg1 harg1 arg2 harg2 x0 x1, k0_pay542_apply c arg1 harg1 arg2 harg2 x0 x1, r_265_apply c arg1 harg1 arg2 harg2 x0 x1, k0_pay545_apply c arg1 harg1 arg2 harg2 x0 x1]

theorem r_301_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_301 c arg1 harg1 x0 (ix1 n) = Cn x0 x1 n 21 2 2 := by
  delta kernelRun0_A.sl.r_301
  simp only [k0_pay554_apply c arg1 harg1 arg2 harg2 x0 x1]

theorem v28_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.v28 c arg2 harg2 x1 = Of x1 0 2 := by
  delta kernelRun0_A.sl.v28
  simp only [rel_read x1 arg2 harg2 2 0 (2 : Fin 3) rfl (by decide)]

theorem v29_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v29 c arg2 harg2 x1 (ix1 n) = Pn x0 x1 n 0 2 := by
  refine Eq.trans ?_ (Pn_zero x0 x1 n 2).symm
  delta kernelRun0_A.sl.v29
  simp only [broadcast_apply, v28_apply c arg1 harg1 arg2 harg2 x0 x1]

theorem k0_pay95_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay95 (F := Ideal) (View.readAt (Elt Ideal) arg2.view (Rect.unit (s := S3x55) ![0, 3] S1x1.size inb_S3x55_S1x1_0_3).toLoadRect (harg2.unread x1)) = Of x1 3 0 := by
  unfold k0_pay95
  simp only [rel_read x1 arg2 harg2 0 3 (0 : Fin 3) rfl (by decide)]

theorem k0_pay96_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay96 (F := Ideal) (View.readAt (Elt Ideal) arg2.view (Rect.unit (s := S3x55) ![1, 3] S1x1.size inb_S3x55_S1x1_1_3).toLoadRect (harg2.unread x1)) = Of x1 3 1 := by
  unfold k0_pay96
  simp only [rel_read x1 arg2 harg2 1 3 (1 : Fin 3) rfl (by decide)]

theorem k0_pay97_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay97 (F := Ideal) (View.readAt (Elt Ideal) arg2.view (Rect.unit (s := S3x55) ![2, 3] S1x1.size inb_S3x55_S1x1_2_3).toLoadRect (harg2.unread x1)) = Of x1 3 2 := by
  unfold k0_pay97
  simp only [rel_read x1 arg2 harg2 2 3 (2 : Fin 3) rfl (by decide)]

theorem k0_pay100_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay100 (F := Ideal) (kernelRun0_A.sl.v16 c arg1 harg1 x0) (kernelRun0_A.sl.v18 c arg1 harg1 x0) (kernelRun0_A.sl.v20 c arg1 harg1 x0) (kernelRun0_A.sl.v29 c arg2 harg2 x1) (View.readAt (Elt Ideal) arg2.view (Rect.unit (s := S3x55) ![0, 3] S1x1.size inb_S3x55_S1x1_0_3).toLoadRect (harg2.unread x1)) (View.readAt (Elt Ideal) arg2.view (Rect.unit (s := S3x55) ![1, 3] S1x1.size inb_S3x55_S1x1_1_3).toLoadRect (harg2.unread x1)) (View.readAt (Elt Ideal) arg2.view (Rect.unit (s := S3x55) ![2, 3] S1x1.size inb_S3x55_S1x1_2_3).toLoadRect (harg2.unread x1)) (ix1 n) = Pn x0 x1 n 3 2 := by
  refine Eq.trans ?_ (Pn_step x0 x1 n 3 0 (by decide) rfl 2).symm
  unfold k0_pay100
  simp only [addf_apply, mulf_apply, v16_apply c arg1 harg1 arg2 harg2 x0 x1, broadcast_apply, k0_pay95_apply c arg1 harg1 arg2 harg2 x0 x1, v18_apply c arg1 harg1 arg2 harg2 x0 x1, k0_pay96_apply c arg1 harg1 arg2 harg2 x0 x1, v20_apply c arg1 harg1 arg2 harg2 x0 x1, k0_pay97_apply c arg1 harg1 arg2 harg2 x0 x1, v29_apply c arg1 harg1 arg2 harg2 x0 x1]

theorem r_39_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_39 c arg1 harg1 arg2 harg2 x0 x1 (ix1 n) = Pn x0 x1 n 3 2 := by
  delta kernelRun0_A.sl.r_39
  simp only [k0_pay100_apply c arg1 harg1 arg2 harg2 x0 x1]

theorem k0_pay179_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay179 (F := Ideal) (View.readAt (Elt Ideal) arg2.view (Rect.unit (s := S3x55) ![0, 6] S1x1.size inb_S3x55_S1x1_0_6).toLoadRect (harg2.unread x1)) = Of x1 6 0 := by
  unfold k0_pay179
  simp only [rel_read x1 arg2 harg2 0 6 (0 : Fin 3) rfl (by decide)]

theorem k0_pay180_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay180 (F := Ideal) (View.readAt (Elt Ideal) arg2.view (Rect.unit (s := S3x55) ![1, 6] S1x1.size inb_S3x55_S1x1_1_6).toLoadRect (harg2.unread x1)) = Of x1 6 1 := by
  unfold k0_pay180
  simp only [rel_read x1 arg2 harg2 1 6 (1 : Fin 3) rfl (by decide)]

theorem k0_pay181_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay181 (F := Ideal) (View.readAt (Elt Ideal) arg2.view (Rect.unit (s := S3x55) ![2, 6] S1x1.size inb_S3x55_S1x1_2_6).toLoadRect (harg2.unread x1)) = Of x1 6 2 := by
  unfold k0_pay181
  simp only [rel_read x1 arg2 harg2 2 6 (2 : Fin 3) rfl (by decide)]

theorem k0_pay184_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay184 (F := Ideal) (kernelRun0_A.sl.r_34 c arg1 harg1 x0) (kernelRun0_A.sl.r_35 c arg1 harg1 x0) (kernelRun0_A.sl.r_36 c arg1 harg1 x0) (kernelRun0_A.sl.r_39 c arg1 harg1 arg2 harg2 x0 x1) (View.readAt (Elt Ideal) arg2.view (Rect.unit (s := S3x55) ![0, 6] S1x1.size inb_S3x55_S1x1_0_6).toLoadRect (harg2.unread x1)) (View.readAt (Elt Ideal) arg2.view (Rect.unit (s := S3x55) ![1, 6] S1x1.size inb_S3x55_S1x1_1_6).toLoadRect (harg2.unread x1)) (View.readAt (Elt Ideal) arg2.view (Rect.unit (s := S3x55) ![2, 6] S1x1.size inb_S3x55_S1x1_2_6).toLoadRect (harg2.unread x1)) (ix1 n) = Pn x0 x1 n 6 2 := by
  refine Eq.trans ?_ (Pn_step x0 x1 n 6 3 (by decide) rfl 2).symm
  unfold k0_pay184
  simp only [addf_apply, mulf_apply, r_34_apply c arg1 harg1 arg2 harg2 x0 x1, broadcast_apply, k0_pay179_apply c arg1 harg1 arg2 harg2 x0 x1, r_35_apply c arg1 harg1 arg2 harg2 x0 x1, k0_pay180_apply c arg1 harg1 arg2 harg2 x0 x1, r_36_apply c arg1 harg1 arg2 harg2 x0 x1, k0_pay181_apply c arg1 harg1 arg2 harg2 x0 x1, r_39_apply c arg1 harg1 arg2 harg2 x0 x1]

theorem r_81_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_81 c arg1 harg1 arg2 harg2 x0 x1 (ix1 n) = Pn x0 x1 n 6 2 := by
  delta kernelRun0_A.sl.r_81
  simp only [k0_pay184_apply c arg1 harg1 arg2 harg2 x0 x1]

theorem k0_pay263_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay263 (F := Ideal) (View.readAt (Elt Ideal) arg2.view (Rect.unit (s := S3x55) ![0, 9] S1x1.size inb_S3x55_S1x1_0_9).toLoadRect (harg2.unread x1)) = Of x1 9 0 := by
  unfold k0_pay263
  simp only [rel_read x1 arg2 harg2 0 9 (0 : Fin 3) rfl (by decide)]

theorem k0_pay264_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay264 (F := Ideal) (View.readAt (Elt Ideal) arg2.view (Rect.unit (s := S3x55) ![1, 9] S1x1.size inb_S3x55_S1x1_1_9).toLoadRect (harg2.unread x1)) = Of x1 9 1 := by
  unfold k0_pay264
  simp only [rel_read x1 arg2 harg2 1 9 (1 : Fin 3) rfl (by decide)]

theorem k0_pay265_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay265 (F := Ideal) (View.readAt (Elt Ideal) arg2.view (Rect.unit (s := S3x55) ![2, 9] S1x1.size inb_S3x55_S1x1_2_9).toLoadRect (harg2.unread x1)) = Of x1 9 2 := by
  unfold k0_pay265
  simp only [rel_read x1 arg2 harg2 2 9 (2 : Fin 3) rfl (by decide)]

theorem k0_pay268_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay268 (F := Ideal) (kernelRun0_A.sl.r_76 c arg1 harg1 x0) (kernelRun0_A.sl.r_77 c arg1 harg1 x0) (kernelRun0_A.sl.r_78 c arg1 harg1 x0) (kernelRun0_A.sl.r_81 c arg1 harg1 arg2 harg2 x0 x1) (View.readAt (Elt Ideal) arg2.view (Rect.unit (s := S3x55) ![0, 9] S1x1.size inb_S3x55_S1x1_0_9).toLoadRect (harg2.unread x1)) (View.readAt (Elt Ideal) arg2.view (Rect.unit (s := S3x55) ![1, 9] S1x1.size inb_S3x55_S1x1_1_9).toLoadRect (harg2.unread x1)) (View.readAt (Elt Ideal) arg2.view (Rect.unit (s := S3x55) ![2, 9] S1x1.size inb_S3x55_S1x1_2_9).toLoadRect (harg2.unread x1)) (ix1 n) = Pn x0 x1 n 9 2 := by
  refine Eq.trans ?_ (Pn_step x0 x1 n 9 6 (by decide) rfl 2).symm
  unfold k0_pay268
  simp only [addf_apply, mulf_apply, r_76_apply c arg1 harg1 arg2 harg2 x0 x1, broadcast_apply, k0_pay263_apply c arg1 harg1 arg2 harg2 x0 x1, r_77_apply c arg1 harg1 arg2 harg2 x0 x1, k0_pay264_apply c arg1 harg1 arg2 harg2 x0 x1, r_78_apply c arg1 harg1 arg2 harg2 x0 x1, k0_pay265_apply c arg1 harg1 arg2 harg2 x0 x1, r_81_apply c arg1 harg1 arg2 harg2 x0 x1]

theorem r_123_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_123 c arg1 harg1 arg2 harg2 x0 x1 (ix1 n) = Pn x0 x1 n 9 2 := by
  delta kernelRun0_A.sl.r_123
  simp only [k0_pay268_apply c arg1 harg1 arg2 harg2 x0 x1]

theorem k0_pay359_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay359 (F := Ideal) (View.readAt (Elt Ideal) arg2.view (Rect.unit (s := S3x55) ![0, 14] S1x1.size inb_S3x55_S1x1_0_14).toLoadRect (harg2.unread x1)) = Of x1 14 0 := by
  unfold k0_pay359
  simp only [rel_read x1 arg2 harg2 0 14 (0 : Fin 3) rfl (by decide)]

theorem r_176_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_176 c arg2 harg2 x1 = Of x1 14 0 := by
  delta kernelRun0_A.sl.r_176
  simp only [k0_pay359_apply c arg1 harg1 arg2 harg2 x0 x1]

theorem k0_pay360_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay360 (F := Ideal) (View.readAt (Elt Ideal) arg2.view (Rect.unit (s := S3x55) ![1, 14] S1x1.size inb_S3x55_S1x1_1_14).toLoadRect (harg2.unread x1)) = Of x1 14 1 := by
  unfold k0_pay360
  simp only [rel_read x1 arg2 harg2 1 14 (1 : Fin 3) rfl (by decide)]

theorem k0_pay361_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay361 (F := Ideal) (View.readAt (Elt Ideal) arg2.view (Rect.unit (s := S3x55) ![2, 14] S1x1.size inb_S3x55_S1x1_2_14).toLoadRect (harg2.unread x1)) = Of x1 14 2 := by
  unfold k0_pay361
  simp only [rel_read x1 arg2 harg2 2 14 (2 : Fin 3) rfl (by decide)]

theorem k0_pay364_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay364 (F := Ideal) (kernelRun0_A.sl.r_118 c arg1 harg1 x0) (kernelRun0_A.sl.r_119 c arg1 harg1 x0) (kernelRun0_A.sl.r_120 c arg1 harg1 x0) (kernelRun0_A.sl.r_123 c arg1 harg1 arg2 harg2 x0 x1) (kernelRun0_A.sl.r_176 c arg2 harg2 x1) (View.readAt (Elt Ideal) arg2.view (Rect.unit (s := S3x55) ![1, 14] S1x1.size inb_S3x55_S1x1_1_14).toLoadRect (harg2.unread x1)) (View.readAt (Elt Ideal) arg2.view (Rect.unit (s := S3x55) ![2, 14] S1x1.size inb_S3x55_S1x1_2_14).toLoadRect (harg2.unread x1)) (ix1 n) = Pn x0 x1 n 14 2 := by
  refine Eq.trans ?_ (Pn_step x0 x1 n 14 9 (by decide) rfl 2).symm
  unfold k0_pay364
  simp only [addf_apply, mulf_apply, r_118_apply c arg1 harg1 arg2 harg2 x0 x1, broadcast_apply, r_176_apply c arg1 harg1 arg2 harg2 x0 x1, r_119_apply c arg1 harg1 arg2 harg2 x0 x1, k0_pay360_apply c arg1 harg1 arg2 harg2 x0 x1, r_120_apply c arg1 harg1 arg2 harg2 x0 x1, k0_pay361_apply c arg1 harg1 arg2 harg2 x0 x1, r_123_apply c arg1 harg1 arg2 harg2 x0 x1]

theorem r_179_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_179 c arg1 harg1 arg2 harg2 x0 x1 (ix1 n) = Pn x0 x1 n 14 2 := by
  delta kernelRun0_A.sl.r_179
  simp only [k0_pay364_apply c arg1 harg1 arg2 harg2 x0 x1]

theorem k0_pay443_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay443 (F := Ideal) (View.readAt (Elt Ideal) arg2.view (Rect.unit (s := S3x55) ![0, 17] S1x1.size inb_S3x55_S1x1_0_17).toLoadRect (harg2.unread x1)) = Of x1 17 0 := by
  unfold k0_pay443
  simp only [rel_read x1 arg2 harg2 0 17 (0 : Fin 3) rfl (by decide)]

theorem r_230_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_230 c arg2 harg2 x1 = Of x1 17 0 := by
  delta kernelRun0_A.sl.r_230
  simp only [k0_pay443_apply c arg1 harg1 arg2 harg2 x0 x1]

theorem k0_pay444_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay444 (F := Ideal) (View.readAt (Elt Ideal) arg2.view (Rect.unit (s := S3x55) ![1, 17] S1x1.size inb_S3x55_S1x1_1_17).toLoadRect (harg2.unread x1)) = Of x1 17 1 := by
  unfold k0_pay444
  simp only [rel_read x1 arg2 harg2 1 17 (1 : Fin 3) rfl (by decide)]

theorem k0_pay445_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay445 (F := Ideal) (View.readAt (Elt Ideal) arg2.view (Rect.unit (s := S3x55) ![2, 17] S1x1.size inb_S3x55_S1x1_2_17).toLoadRect (harg2.unread x1)) = Of x1 17 2 := by
  unfold k0_pay445
  simp only [rel_read x1 arg2 harg2 2 17 (2 : Fin 3) rfl (by decide)]

theorem k0_pay448_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay448 (F := Ideal) (kernelRun0_A.sl.r_173 c arg1 harg1 x0) (kernelRun0_A.sl.r_174 c arg1 harg1 x0) (kernelRun0_A.sl.r_175 c arg1 harg1 x0) (kernelRun0_A.sl.r_179 c arg1 harg1 arg2 harg2 x0 x1) (kernelRun0_A.sl.r_230 c arg2 harg2 x1) (View.readAt (Elt Ideal) arg2.view (Rect.unit (s := S3x55) ![1, 17] S1x1.size inb_S3x55_S1x1_1_17).toLoadRect (harg2.unread x1)) (View.readAt (Elt Ideal) arg2.view (Rect.unit (s := S3x55) ![2, 17] S1x1.size inb_S3x55_S1x1_2_17).toLoadRect (harg2.unread x1)) (ix1 n) = Pn x0 x1 n 17 2 := by
  refine Eq.trans ?_ (Pn_step x0 x1 n 17 14 (by decide) rfl 2).symm
  unfold k0_pay448
  simp only [addf_apply, mulf_apply, r_173_apply c arg1 harg1 arg2 harg2 x0 x1, broadcast_apply, r_230_apply c arg1 harg1 arg2 harg2 x0 x1, r_174_apply c arg1 harg1 arg2 harg2 x0 x1, k0_pay444_apply c arg1 harg1 arg2 harg2 x0 x1, r_175_apply c arg1 harg1 arg2 harg2 x0 x1, k0_pay445_apply c arg1 harg1 arg2 harg2 x0 x1, r_179_apply c arg1 harg1 arg2 harg2 x0 x1]

theorem r_233_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_233 c arg1 harg1 arg2 harg2 x0 x1 (ix1 n) = Pn x0 x1 n 17 2 := by
  delta kernelRun0_A.sl.r_233
  simp only [k0_pay448_apply c arg1 harg1 arg2 harg2 x0 x1]

theorem k0_pay499_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay499 (F := Ideal) (View.readAt (Elt Ideal) arg2.view (Rect.unit (s := S3x55) ![0, 19] S1x1.size inb_S3x55_S1x1_0_19).toLoadRect (harg2.unread x1)) = Of x1 19 0 := by
  unfold k0_pay499
  simp only [rel_read x1 arg2 harg2 0 19 (0 : Fin 3) rfl (by decide)]

theorem r_266_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_266 c arg2 harg2 x1 = Of x1 19 0 := by
  delta kernelRun0_A.sl.r_266
  simp only [k0_pay499_apply c arg1 harg1 arg2 harg2 x0 x1]

theorem k0_pay500_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay500 (F := Ideal) (View.readAt (Elt Ideal) arg2.view (Rect.unit (s := S3x55) ![1, 19] S1x1.size inb_S3x55_S1x1_1_19).toLoadRect (harg2.unread x1)) = Of x1 19 1 := by
  unfold k0_pay500
  simp only [rel_read x1 arg2 harg2 1 19 (1 : Fin 3) rfl (by decide)]

theorem k0_pay501_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay501 (F := Ideal) (View.readAt (Elt Ideal) arg2.view (Rect.unit (s := S3x55) ![2, 19] S1x1.size inb_S3x55_S1x1_2_19).toLoadRect (harg2.unread x1)) = Of x1 19 2 := by
  unfold k0_pay501
  simp only [rel_read x1 arg2 harg2 2 19 (2 : Fin 3) rfl (by decide)]

theorem k0_pay504_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay504 (F := Ideal) (kernelRun0_A.sl.r_227 c arg1 harg1 x0) (kernelRun0_A.sl.r_228 c arg1 harg1 x0) (kernelRun0_A.sl.r_229 c arg1 harg1 x0) (kernelRun0_A.sl.r_233 c arg1 harg1 arg2 harg2 x0 x1) (kernelRun0_A.sl.r_266 c arg2 harg2 x1) (View.readAt (Elt Ideal) arg2.view (Rect.unit (s := S3x55) ![1, 19] S1x1.size inb_S3x55_S1x1_1_19).toLoadRect (harg2.unread x1)) (View.readAt (Elt Ideal) arg2.view (Rect.unit (s := S3x55) ![2, 19] S1x1.size inb_S3x55_S1x1_2_19).toLoadRect (harg2.unread x1)) (ix1 n) = Pn x0 x1 n 19 2 := by
  refine Eq.trans ?_ (Pn_step x0 x1 n 19 17 (by decide) rfl 2).symm
  unfold k0_pay504
  simp only [addf_apply, mulf_apply, r_227_apply c arg1 harg1 arg2 harg2 x0 x1, broadcast_apply, r_266_apply c arg1 harg1 arg2 harg2 x0 x1, r_228_apply c arg1 harg1 arg2 harg2 x0 x1, k0_pay500_apply c arg1 harg1 arg2 harg2 x0 x1, r_229_apply c arg1 harg1 arg2 harg2 x0 x1, k0_pay501_apply c arg1 harg1 arg2 harg2 x0 x1, r_233_apply c arg1 harg1 arg2 harg2 x0 x1]

theorem r_269_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_269 c arg1 harg1 arg2 harg2 x0 x1 (ix1 n) = Pn x0 x1 n 19 2 := by
  delta kernelRun0_A.sl.r_269
  simp only [k0_pay504_apply c arg1 harg1 arg2 harg2 x0 x1]

theorem k0_pay555_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay555 (F := Ideal) (View.readAt (Elt Ideal) arg2.view (Rect.unit (s := S3x55) ![0, 21] S1x1.size inb_S3x55_S1x1_0_21).toLoadRect (harg2.unread x1)) = Of x1 21 0 := by
  unfold k0_pay555
  simp only [rel_read x1 arg2 harg2 0 21 (0 : Fin 3) rfl (by decide)]

theorem r_302_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_302 c arg2 harg2 x1 = Of x1 21 0 := by
  delta kernelRun0_A.sl.r_302
  simp only [k0_pay555_apply c arg1 harg1 arg2 harg2 x0 x1]

theorem k0_pay556_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay556 (F := Ideal) (View.readAt (Elt Ideal) arg2.view (Rect.unit (s := S3x55) ![1, 21] S1x1.size inb_S3x55_S1x1_1_21).toLoadRect (harg2.unread x1)) = Of x1 21 1 := by
  unfold k0_pay556
  simp only [rel_read x1 arg2 harg2 1 21 (1 : Fin 3) rfl (by decide)]

theorem k0_pay557_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay557 (F := Ideal) (View.readAt (Elt Ideal) arg2.view (Rect.unit (s := S3x55) ![2, 21] S1x1.size inb_S3x55_S1x1_2_21).toLoadRect (harg2.unread x1)) = Of x1 21 2 := by
  unfold k0_pay557
  simp only [rel_read x1 arg2 harg2 2 21 (2 : Fin 3) rfl (by decide)]

theorem k0_pay560_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay560 (F := Ideal) (kernelRun0_A.sl.r_263 c arg1 harg1 x0) (kernelRun0_A.sl.r_264 c arg1 harg1 x0) (kernelRun0_A.sl.r_265 c arg1 harg1 x0) (kernelRun0_A.sl.r_269 c arg1 harg1 arg2 harg2 x0 x1) (kernelRun0_A.sl.r_302 c arg2 harg2 x1) (View.readAt (Elt Ideal) arg2.view (Rect.unit (s := S3x55) ![1, 21] S1x1.size inb_S3x55_S1x1_1_21).toLoadRect (harg2.unread x1)) (View.readAt (Elt Ideal) arg2.view (Rect.unit (s := S3x55) ![2, 21] S1x1.size inb_S3x55_S1x1_2_21).toLoadRect (harg2.unread x1)) (ix1 n) = Pn x0 x1 n 21 2 := by
  refine Eq.trans ?_ (Pn_step x0 x1 n 21 19 (by decide) rfl 2).symm
  unfold k0_pay560
  simp only [addf_apply, mulf_apply, r_263_apply c arg1 harg1 arg2 harg2 x0 x1, broadcast_apply, r_302_apply c arg1 harg1 arg2 harg2 x0 x1, r_264_apply c arg1 harg1 arg2 harg2 x0 x1, k0_pay556_apply c arg1 harg1 arg2 harg2 x0 x1, r_265_apply c arg1 harg1 arg2 harg2 x0 x1, k0_pay557_apply c arg1 harg1 arg2 harg2 x0 x1, r_269_apply c arg1 harg1 arg2 harg2 x0 x1]

theorem r_305_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_305 c arg1 harg1 arg2 harg2 x0 x1 (ix1 n) = Pn x0 x1 n 21 2 := by
  delta kernelRun0_A.sl.r_305
  simp only [k0_pay560_apply c arg1 harg1 arg2 harg2 x0 x1]

theorem k0_pay832_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay832 (F := Ideal) (View.readAt (Elt Ideal) arg2.view (Rect.unit (s := S3x55) ![0, 52] S1x1.size inb_S3x55_S1x1_0_52).toLoadRect (harg2.unread x1)) = Of x1 52 0 := by
  unfold k0_pay832
  simp only [rel_read x1 arg2 harg2 0 52 (0 : Fin 3) rfl (by decide)]

theorem k0_pay833_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay833 (F := Ideal) (View.readAt (Elt Ideal) arg2.view (Rect.unit (s := S3x55) ![1, 52] S1x1.size inb_S3x55_S1x1_1_52).toLoadRect (harg2.unread x1)) = Of x1 52 1 := by
  unfold k0_pay833
  simp only [rel_read x1 arg2 harg2 1 52 (1 : Fin 3) rfl (by decide)]

theorem k0_pay834_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay834 (F := Ideal) (View.readAt (Elt Ideal) arg2.view (Rect.unit (s := S3x55) ![2, 52] S1x1.size inb_S3x55_S1x1_2_52).toLoadRect (harg2.unread x1)) = Of x1 52 2 := by
  unfold k0_pay834
  simp only [rel_read x1 arg2 harg2 2 52 (2 : Fin 3) rfl (by decide)]

theorem k0_pay837_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay837 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (View.readAt (Elt Ideal) arg2.view (Rect.unit (s := S3x55) ![0, 52] S1x1.size inb_S3x55_S1x1_0_52).toLoadRect (harg2.unread x1)) (View.readAt (Elt Ideal) arg2.view (Rect.unit (s := S3x55) ![1, 52] S1x1.size inb_S3x55_S1x1_1_52).toLoadRect (harg2.unread x1)) (View.readAt (Elt Ideal) arg2.view (Rect.unit (s := S3x55) ![2, 52] S1x1.size inb_S3x55_S1x1_2_52).toLoadRect (harg2.unread x1)) (ix1 n) = Pn x0 x1 n 52 2 := by
  refine Eq.trans ?_ (Pn_step x0 x1 n 52 21 (by decide) rfl 2).symm
  unfold k0_pay837
  simp only [addf_apply, mulf_apply, r_299_apply c arg1 harg1 arg2 harg2 x0 x1, broadcast_apply, k0_pay832_apply c arg1 harg1 arg2 harg2 x0 x1, r_300_apply c arg1 harg1 arg2 harg2 x0 x1, k0_pay833_apply c arg1 harg1 arg2 harg2 x0 x1, r_301_apply c arg1 harg1 arg2 harg2 x0 x1, k0_pay834_apply c arg1 harg1 arg2 harg2 x0 x1, r_305_apply c arg1 harg1 arg2 harg2 x0 x1]

theorem r_443_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_443 c arg1 harg1 arg2 harg2 x0 x1 (ix1 n) = Pn x0 x1 n 52 2 := by
  delta kernelRun0_A.sl.r_443
  simp only [k0_pay837_apply c arg1 harg1 arg2 harg2 x0 x1]

theorem k0_pay841_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay841 (F := Ideal) (View.readAt (Elt Ideal) arg2.view (Rect.unit (s := S3x55) ![0, 53] S1x1.size inb_S3x55_S1x1_0_53).toLoadRect (harg2.unread x1)) = Of x1 53 0 := by
  unfold k0_pay841
  simp only [rel_read x1 arg2 harg2 0 53 (0 : Fin 3) rfl (by decide)]

theorem k0_pay842_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay842 (F := Ideal) (View.readAt (Elt Ideal) arg2.view (Rect.unit (s := S3x55) ![1, 53] S1x1.size inb_S3x55_S1x1_1_53).toLoadRect (harg2.unread x1)) = Of x1 53 1 := by
  unfold k0_pay842
  simp only [rel_read x1 arg2 harg2 1 53 (1 : Fin 3) rfl (by decide)]

theorem k0_pay843_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay843 (F := Ideal) (View.readAt (Elt Ideal) arg2.view (Rect.unit (s := S3x55) ![2, 53] S1x1.size inb_S3x55_S1x1_2_53).toLoadRect (harg2.unread x1)) = Of x1 53 2 := by
  unfold k0_pay843
  simp only [rel_read x1 arg2 harg2 2 53 (2 : Fin 3) rfl (by decide)]

theorem k0_pay846_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay846 (F := Ideal) (kernelRun0_A.sl.r_299 c arg1 harg1 x0) (kernelRun0_A.sl.r_300 c arg1 harg1 x0) (kernelRun0_A.sl.r_301 c arg1 harg1 x0) (kernelRun0_A.sl.r_443 c arg1 harg1 arg2 harg2 x0 x1) (View.readAt (Elt Ideal) arg2.view (Rect.unit (s := S3x55) ![0, 53] S1x1.size inb_S3x55_S1x1_0_53).toLoadRect (harg2.unread x1)) (View.readAt (Elt Ideal) arg2.view (Rect.unit (s := S3x55) ![1, 53] S1x1.size inb_S3x55_S1x1_1_53).toLoadRect (harg2.unread x1)) (View.readAt (Elt Ideal) arg2.view (Rect.unit (s := S3x55) ![2, 53] S1x1.size inb_S3x55_S1x1_2_53).toLoadRect (harg2.unread x1)) (ix1 n) = Pn x0 x1 n 53 2 := by
  refine Eq.trans ?_ (Pn_step x0 x1 n 53 52 (by decide) rfl 2).symm
  unfold k0_pay846
  simp only [addf_apply, mulf_apply, r_299_apply c arg1 harg1 arg2 harg2 x0 x1, broadcast_apply, k0_pay841_apply c arg1 harg1 arg2 harg2 x0 x1, r_300_apply c arg1 harg1 arg2 harg2 x0 x1, k0_pay842_apply c arg1 harg1 arg2 harg2 x0 x1, r_301_apply c arg1 harg1 arg2 harg2 x0 x1, k0_pay843_apply c arg1 harg1 arg2 harg2 x0 x1, r_443_apply c arg1 harg1 arg2 harg2 x0 x1, Cn_anc_52 x0 x1 n]

theorem r_446_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_446 c arg1 harg1 arg2 harg2 x0 x1 (ix1 n) = Pn x0 x1 n 53 2 := by
  delta kernelRun0_A.sl.r_446
  simp only [k0_pay846_apply c arg1 harg1 arg2 harg2 x0 x1]

theorem k0_pay850_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay850 (F := Ideal) (View.readAt (Elt Ideal) arg2.view (Rect.unit (s := S3x55) ![0, 54] S1x1.size inb_S3x55_S1x1_0_54).toLoadRect (harg2.unread x1)) = Of x1 54 0 := by
  unfold k0_pay850
  simp only [rel_read x1 arg2 harg2 0 54 (0 : Fin 3) rfl (by decide)]

theorem k0_pay851_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay851 (F := Ideal) (View.readAt (Elt Ideal) arg2.view (Rect.unit (s := S3x55) ![1, 54] S1x1.size inb_S3x55_S1x1_1_54).toLoadRect (harg2.unread x1)) = Of x1 54 1 := by
  unfold k0_pay851
  simp only [rel_read x1 arg2 harg2 1 54 (1 : Fin 3) rfl (by decide)]

theorem k0_pay852_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay852 (F := Ideal) (View.readAt (Elt Ideal) arg2.view (Rect.unit (s := S3x55) ![2, 54] S1x1.size inb_S3x55_S1x1_2_54).toLoadRect (harg2.unread x1)) = Of x1 54 2 := by
  unfold k0_pay852
  simp only [rel_read x1 arg2 harg2 2 54 (2 : Fin 3) rfl (by decide)]

theorem k0_pay854_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay854 (F := Ideal) (kernelRun0_A.sl.r_299 c arg1 harg1 x0) (kernelRun0_A.sl.r_300 c arg1 harg1 x0) (kernelRun0_A.sl.r_301 c arg1 harg1 x0) (kernelRun0_A.sl.r_446 c arg1 harg1 arg2 harg2 x0 x1) (View.readAt (Elt Ideal) arg2.view (Rect.unit (s := S3x55) ![0, 54] S1x1.size inb_S3x55_S1x1_0_54).toLoadRect (harg2.unread x1)) (View.readAt (Elt Ideal) arg2.view (Rect.unit (s := S3x55) ![1, 54] S1x1.size inb_S3x55_S1x1_1_54).toLoadRect (harg2.unread x1)) (View.readAt (Elt Ideal) arg2.view (Rect.unit (s := S3x55) ![2, 54] S1x1.size inb_S3x55_S1x1_2_54).toLoadRect (harg2.unread x1)) (ix1 n) = Pn x0 x1 n 54 2 := by
  refine Eq.trans ?_ (Pn_step x0 x1 n 54 53 (by decide) rfl 2).symm
  unfold k0_pay854
  simp only [addf_apply, mulf_apply, r_299_apply c arg1 harg1 arg2 harg2 x0 x1, broadcast_apply, k0_pay850_apply c arg1 harg1 arg2 harg2 x0 x1, r_300_apply c arg1 harg1 arg2 harg2 x0 x1, k0_pay851_apply c arg1 harg1 arg2 harg2 x0 x1, r_301_apply c arg1 harg1 arg2 harg2 x0 x1, k0_pay852_apply c arg1 harg1 arg2 harg2 x0 x1, r_446_apply c arg1 harg1 arg2 harg2 x0 x1, Cn_anc_53 x0 x1 n]

theorem r_448_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_448 c arg1 harg1 arg2 harg2 x0 x1 (ix1 n) = Pn x0 x1 n 54 2 := by
  delta kernelRun0_A.sl.r_448
  simp only [k0_pay854_apply c arg1 harg1 arg2 harg2 x0 x1]

theorem k0_pay2_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay2 (F := Ideal) (kernelRun0_A.sl.r_448 c arg1 harg1 arg2 harg2 x0 x1) (ix2 u n) = Pn x0 x1 n 54 2 := by
  unfold k0_pay2
  simp only [shapeCast_a_1a_apply, r_448_apply c arg1 harg1 arg2 harg2 x0 x1]

theorem v9_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v9 c arg1 harg1 x0 (ix2 u n) = Cn x0 x1 n 0 1 0 := by
  refine Eq.trans ?_ (Cn_zero x0 x1 n 1 0).symm
  delta kernelRun0_A.sl.v9
  simp only [slice_row 3 (3 : Fin 198) rfl, v2_apply c arg1 harg1 arg2 harg2 x0 x1, Rw_eq x0 n 0 1 0 (3 : Fin 198) (by decide)]

theorem v10_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v10 c arg1 harg1 x0 (ix1 n) = Cn x0 x1 n 0 1 0 := by
  delta kernelRun0_A.sl.v10
  simp only [shapeCast_1a_a_apply, v9_apply c arg1 harg1 arg2 harg2 x0 x1]

theorem v11_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v11 c arg1 harg1 x0 (ix2 u n) = Cn x0 x1 n 0 1 1 := by
  refine Eq.trans ?_ (Cn_zero x0 x1 n 1 1).symm
  delta kernelRun0_A.sl.v11
  simp only [slice_row 4 (4 : Fin 198) rfl, v2_apply c arg1 harg1 arg2 harg2 x0 x1, Rw_eq x0 n 0 1 1 (4 : Fin 198) (by decide)]

theorem v12_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v12 c arg1 harg1 x0 (ix1 n) = Cn x0 x1 n 0 1 1 := by
  delta kernelRun0_A.sl.v12
  simp only [shapeCast_1a_a_apply, v11_apply c arg1 harg1 arg2 harg2 x0 x1]

theorem v13_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v13 c arg1 harg1 x0 (ix2 u n) = Cn x0 x1 n 0 1 2 := by
  refine Eq.trans ?_ (Cn_zero x0 x1 n 1 2).symm
  delta kernelRun0_A.sl.v13
  simp only [slice_row 5 (5 : Fin 198) rfl, v2_apply c arg1 harg1 arg2 harg2 x0 x1, Rw_eq x0 n 0 1 2 (5 : Fin 198) (by decide)]

theorem v14_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v14 c arg1 harg1 x0 (ix1 n) = Cn x0 x1 n 0 1 2 := by
  delta kernelRun0_A.sl.v14
  simp only [shapeCast_1a_a_apply, v13_apply c arg1 harg1 arg2 harg2 x0 x1]

theorem k0_pay89_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay89 (F := Ideal) (kernelRun0_A.sl.v2 c arg1 harg1 x0) (kernelRun0_A.sl.v10 c arg1 harg1 x0) (kernelRun0_A.sl.v12 c arg1 harg1 x0) (kernelRun0_A.sl.v14 c arg1 harg1 x0) (kernelRun0_A.sl.r_26 c arg1 harg1 x0) (ix1 n) = Cn x0 x1 n 3 1 0 := by
  refine Eq.trans ?_ (Cn_step x0 x1 n 3 0 (by decide) rfl (by decide) 1 0).symm
  unfold k0_pay89
  simp only [addf_apply, mulf_apply, v10_apply c arg1 harg1 arg2 harg2 x0 x1, r_26_apply c arg1 harg1 arg2 harg2 x0 x1, v12_apply c arg1 harg1 arg2 harg2 x0 x1, k0_pay80_apply c arg1 harg1 arg2 harg2 x0 x1, v14_apply c arg1 harg1 arg2 harg2 x0 x1, k0_pay83_apply c arg1 harg1 arg2 harg2 x0 x1]

theorem r_31_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_31 c arg1 harg1 x0 (ix1 n) = Cn x0 x1 n 3 1 0 := by
  delta kernelRun0_A.sl.r_31
  simp only [k0_pay89_apply c arg1 harg1 arg2 harg2 x0 x1]

theorem k0_pay90_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay90 (F := Ideal) (kernelRun0_A.sl.v2 c arg1 harg1 x0) (kernelRun0_A.sl.v10 c arg1 harg1 x0) (kernelRun0_A.sl.v12 c arg1 harg1 x0) (kernelRun0_A.sl.v14 c arg1 harg1 x0) (kernelRun0_A.sl.r_27 c arg1 harg1 x0) (ix1 n) = Cn x0 x1 n 3 1 1 := by
  refine Eq.trans ?_ (Cn_step x0 x1 n 3 0 (by decide) rfl (by decide) 1 1).symm
  unfold k0_pay90
  simp only [addf_apply, mulf_apply, v10_apply c arg1 harg1 arg2 harg2 x0 x1, k0_pay78_apply c arg1 harg1 arg2 harg2 x0 x1, v12_apply c arg1 harg1 arg2 harg2 x0 x1, k0_pay81_apply c arg1 harg1 arg2 harg2 x0 x1, v14_apply c arg1 harg1 arg2 harg2 x0 x1, k0_pay84_apply c arg1 harg1 arg2 harg2 x0 x1]

theorem r_32_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_32 c arg1 harg1 x0 (ix1 n) = Cn x0 x1 n 3 1 1 := by
  delta kernelRun0_A.sl.r_32
  simp only [k0_pay90_apply c arg1 harg1 arg2 harg2 x0 x1]

theorem k0_pay91_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay91 (F := Ideal) (kernelRun0_A.sl.v2 c arg1 harg1 x0) (kernelRun0_A.sl.v10 c arg1 harg1 x0) (kernelRun0_A.sl.v12 c arg1 harg1 x0) (kernelRun0_A.sl.v14 c arg1 harg1 x0) (ix1 n) = Cn x0 x1 n 3 1 2 := by
  refine Eq.trans ?_ (Cn_step x0 x1 n 3 0 (by decide) rfl (by decide) 1 2).symm
  unfold k0_pay91
  simp only [addf_apply, mulf_apply, v10_apply c arg1 harg1 arg2 harg2 x0 x1, k0_pay79_apply c arg1 harg1 arg2 harg2 x0 x1, v12_apply c arg1 harg1 arg2 harg2 x0 x1, k0_pay82_apply c arg1 harg1 arg2 harg2 x0 x1, v14_apply c arg1 harg1 arg2 harg2 x0 x1, k0_pay85_apply c arg1 harg1 arg2 harg2 x0 x1]

theorem r_33_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_33 c arg1 harg1 x0 (ix1 n) = Cn x0 x1 n 3 1 2 := by
  delta kernelRun0_A.sl.r_33
  simp only [k0_pay91_apply c arg1 harg1 arg2 harg2 x0 x1]

theorem k0_pay173_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay173 (F := Ideal) (kernelRun0_A.sl.v2 c arg1 harg1 x0) (kernelRun0_A.sl.r_31 c arg1 harg1 x0) (kernelRun0_A.sl.r_32 c arg1 harg1 x0) (kernelRun0_A.sl.r_33 c arg1 harg1 x0) (kernelRun0_A.sl.r_68 c arg1 harg1 x0) (ix1 n) = Cn x0 x1 n 6 1 0 := by
  refine Eq.trans ?_ (Cn_step x0 x1 n 6 3 (by decide) rfl (by decide) 1 0).symm
  unfold k0_pay173
  simp only [addf_apply, mulf_apply, r_31_apply c arg1 harg1 arg2 harg2 x0 x1, r_68_apply c arg1 harg1 arg2 harg2 x0 x1, r_32_apply c arg1 harg1 arg2 harg2 x0 x1, k0_pay164_apply c arg1 harg1 arg2 harg2 x0 x1, r_33_apply c arg1 harg1 arg2 harg2 x0 x1, k0_pay167_apply c arg1 harg1 arg2 harg2 x0 x1]

theorem r_73_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_73 c arg1 harg1 x0 (ix1 n) = Cn x0 x1 n 6 1 0 := by
  delta kernelRun0_A.sl.r_73
  simp only [k0_pay173_apply c arg1 harg1 arg2 harg2 x0 x1]

theorem k0_pay174_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay174 (F := Ideal) (kernelRun0_A.sl.v2 c arg1 harg1 x0) (kernelRun0_A.sl.r_31 c arg1 harg1 x0) (kernelRun0_A.sl.r_32 c arg1 harg1 x0) (kernelRun0_A.sl.r_33 c arg1 harg1 x0) (kernelRun0_A.sl.r_69 c arg1 harg1 x0) (ix1 n) = Cn x0 x1 n 6 1 1 := by
  refine Eq.trans ?_ (Cn_step x0 x1 n 6 3 (by decide) rfl (by decide) 1 1).symm
  unfold k0_pay174
  simp only [addf_apply, mulf_apply, r_31_apply c arg1 harg1 arg2 harg2 x0 x1, k0_pay162_apply c arg1 harg1 arg2 harg2 x0 x1, r_32_apply c arg1 harg1 arg2 harg2 x0 x1, k0_pay165_apply c arg1 harg1 arg2 harg2 x0 x1, r_33_apply c arg1 harg1 arg2 harg2 x0 x1, k0_pay168_apply c arg1 harg1 arg2 harg2 x0 x1]

theorem r_74_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_74 c arg1 harg1 x0 (ix1 n) = Cn x0 x1 n 6 1 1 := by
  delta kernelRun0_A.sl.r_74
  simp only [k0_pay174_apply c arg1 harg1 arg2 harg2 x0 x1]

theorem k0_pay175_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay175 (F := Ideal) (kernelRun0_A.sl.v2 c arg1 harg1 x0) (kernelRun0_A.sl.r_31 c arg1 harg1 x0) (kernelRun0_A.sl.r_32 c arg1 harg1 x0) (kernelRun0_A.sl.r_33 c arg1 harg1 x0) (ix1 n) = Cn x0 x1 n 6 1 2 := by
  refine Eq.trans ?_ (Cn_step x0 x1 n 6 3 (by decide) rfl (by decide) 1 2).symm
  unfold k0_pay175
  simp only [addf_apply, mulf_apply, r_31_apply c arg1 harg1 arg2 harg2 x0 x1, k0_pay163_apply c arg1 harg1 arg2 harg2 x0 x1, r_32_apply c arg1 harg1 arg2 harg2 x0 x1, k0_pay166_apply c arg1 harg1 arg2 harg2 x0 x1, r_33_apply c arg1 harg1 arg2 harg2 x0 x1, k0_pay169_apply c arg1 harg1 arg2 harg2 x0 x1]

theorem r_75_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_75 c arg1 harg1 x0 (ix1 n) = Cn x0 x1 n 6 1 2 := by
  delta kernelRun0_A.sl.r_75
  simp only [k0_pay175_apply c arg1 harg1 arg2 harg2 x0 x1]

theorem k0_pay257_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay257 (F := Ideal) (kernelRun0_A.sl.v2 c arg1 harg1 x0) (kernelRun0_A.sl.r_73 c arg1 harg1 x0) (kernelRun0_A.sl.r_74 c arg1 harg1 x0) (kernelRun0_A.sl.r_75 c arg1 harg1 x0) (kernelRun0_A.sl.r_110 c arg1 harg1 x0) (ix1 n) = Cn x0 x1 n 9 1 0 := by
  refine Eq.trans ?_ (Cn_step x0 x1 n 9 6 (by decide) rfl (by decide) 1 0).symm
  unfold k0_pay257
  simp only [addf_apply, mulf_apply, r_73_apply c arg1 harg1 arg2 harg2 x0 x1, r_110_apply c arg1 harg1 arg2 harg2 x0 x1, r_74_apply c arg1 harg1 arg2 harg2 x0 x1, k0_pay248_apply c arg1 harg1 arg2 harg2 x0 x1, r_75_apply c arg1 harg1 arg2 harg2 x0 x1, k0_pay251_apply c arg1 harg1 arg2 harg2 x0 x1]

theorem r_115_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_115 c arg1 harg1 x0 (ix1 n) = Cn x0 x1 n 9 1 0 := by
  delta kernelRun0_A.sl.r_115
  simp only [k0_pay257_apply c arg1 harg1 arg2 harg2 x0 x1]

theorem k0_pay258_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay258 (F := Ideal) (kernelRun0_A.sl.v2 c arg1 harg1 x0) (kernelRun0_A.sl.r_73 c arg1 harg1 x0) (kernelRun0_A.sl.r_74 c arg1 harg1 x0) (kernelRun0_A.sl.r_75 c arg1 harg1 x0) (kernelRun0_A.sl.r_111 c arg1 harg1 x0) (ix1 n) = Cn x0 x1 n 9 1 1 := by
  refine Eq.trans ?_ (Cn_step x0 x1 n 9 6 (by decide) rfl (by decide) 1 1).symm
  unfold k0_pay258
  simp only [addf_apply, mulf_apply, r_73_apply c arg1 harg1 arg2 harg2 x0 x1, k0_pay246_apply c arg1 harg1 arg2 harg2 x0 x1, r_74_apply c arg1 harg1 arg2 harg2 x0 x1, k0_pay249_apply c arg1 harg1 arg2 harg2 x0 x1, r_75_apply c arg1 harg1 arg2 harg2 x0 x1, k0_pay252_apply c arg1 harg1 arg2 harg2 x0 x1]

theorem r_116_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_116 c arg1 harg1 x0 (ix1 n) = Cn x0 x1 n 9 1 1 := by
  delta kernelRun0_A.sl.r_116
  simp only [k0_pay258_apply c arg1 harg1 arg2 harg2 x0 x1]

theorem k0_pay259_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay259 (F := Ideal) (kernelRun0_A.sl.v2 c arg1 harg1 x0) (kernelRun0_A.sl.r_73 c arg1 harg1 x0) (kernelRun0_A.sl.r_74 c arg1 harg1 x0) (kernelRun0_A.sl.r_75 c arg1 harg1 x0) (ix1 n) = Cn x0 x1 n 9 1 2 := by
  refine Eq.trans ?_ (Cn_step x0 x1 n 9 6 (by decide) rfl (by decide) 1 2).symm
  unfold k0_pay259
  simp only [addf_apply, mulf_apply, r_73_apply c arg1 harg1 arg2 harg2 x0 x1, k0_pay247_apply c arg1 harg1 arg2 harg2 x0 x1, r_74_apply c arg1 harg1 arg2 harg2 x0 x1, k0_pay250_apply c arg1 harg1 arg2 harg2 x0 x1, r_75_apply c arg1 harg1 arg2 harg2 x0 x1, k0_pay253_apply c arg1 harg1 arg2 harg2 x0 x1]

theorem r_117_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_117 c arg1 harg1 x0 (ix1 n) = Cn x0 x1 n 9 1 2 := by
  delta kernelRun0_A.sl.r_117
  simp only [k0_pay259_apply c arg1 harg1 arg2 harg2 x0 x1]

theorem k0_pay353_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay353 (F := Ideal) (kernelRun0_A.sl.v2 c arg1 harg1 x0) (kernelRun0_A.sl.r_115 c arg1 harg1 x0) (kernelRun0_A.sl.r_116 c arg1 harg1 x0) (kernelRun0_A.sl.r_117 c arg1 harg1 x0) (kernelRun0_A.sl.r_162 c arg1 harg1 x0) (kernelRun0_A.sl.r_165 c arg1 harg1 x0) (ix1 n) = Cn x0 x1 n 14 1 0 := by
  refine Eq.trans ?_ (Cn_step x0 x1 n 14 9 (by decide) rfl (by decide) 1 0).symm
  unfold k0_pay353
  simp only [addf_apply, mulf_apply, r_115_apply c arg1 harg1 arg2 harg2 x0 x1, r_162_apply c arg1 harg1 arg2 harg2 x0 x1, r_116_apply c arg1 harg1 arg2 harg2 x0 x1, r_165_apply c arg1 harg1 arg2 harg2 x0 x1, r_117_apply c arg1 harg1 arg2 harg2 x0 x1, k0_pay347_apply c arg1 harg1 arg2 harg2 x0 x1]

theorem r_170_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_170 c arg1 harg1 x0 (ix1 n) = Cn x0 x1 n 14 1 0 := by
  delta kernelRun0_A.sl.r_170
  simp only [k0_pay353_apply c arg1 harg1 arg2 harg2 x0 x1]

theorem k0_pay354_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay354 (F := Ideal) (kernelRun0_A.sl.v2 c arg1 harg1 x0) (kernelRun0_A.sl.r_115 c arg1 harg1 x0) (kernelRun0_A.sl.r_116 c arg1 harg1 x0) (kernelRun0_A.sl.r_117 c arg1 harg1 x0) (kernelRun0_A.sl.r_163 c arg1 harg1 x0) (kernelRun0_A.sl.r_166 c arg1 harg1 x0) (ix1 n) = Cn x0 x1 n 14 1 1 := by
  refine Eq.trans ?_ (Cn_step x0 x1 n 14 9 (by decide) rfl (by decide) 1 1).symm
  unfold k0_pay354
  simp only [addf_apply, mulf_apply, r_115_apply c arg1 harg1 arg2 harg2 x0 x1, r_163_apply c arg1 harg1 arg2 harg2 x0 x1, r_116_apply c arg1 harg1 arg2 harg2 x0 x1, k0_pay345_apply c arg1 harg1 arg2 harg2 x0 x1, r_117_apply c arg1 harg1 arg2 harg2 x0 x1, k0_pay348_apply c arg1 harg1 arg2 harg2 x0 x1]

theorem r_171_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_171 c arg1 harg1 x0 (ix1 n) = Cn x0 x1 n 14 1 1 := by
  delta kernelRun0_A.sl.r_171
  simp only [k0_pay354_apply c arg1 harg1 arg2 harg2 x0 x1]

theorem k0_pay355_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay355 (F := Ideal) (kernelRun0_A.sl.v2 c arg1 harg1 x0) (kernelRun0_A.sl.r_115 c arg1 harg1 x0) (kernelRun0_A.sl.r_116 c arg1 harg1 x0) (kernelRun0_A.sl.r_117 c arg1 harg1 x0) (kernelRun0_A.sl.r_164 c arg1 harg1 x0) (ix1 n) = Cn x0 x1 n 14 1 2 := by
  refine Eq.trans ?_ (Cn_step x0 x1 n 14 9 (by decide) rfl (by decide) 1 2).symm
  unfold k0_pay355
  simp only [addf_apply, mulf_apply, r_115_apply c arg1 harg1 arg2 harg2 x0 x1, r_164_apply c arg1 harg1 arg2 harg2 x0 x1, r_116_apply c arg1 harg1 arg2 harg2 x0 x1, k0_pay346_apply c arg1 harg1 arg2 harg2 x0 x1, r_117_apply c arg1 harg1 arg2 harg2 x0 x1, k0_pay349_apply c arg1 harg1 arg2 harg2 x0 x1]

theorem r_172_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_172 c arg1 harg1 x0 (ix1 n) = Cn x0 x1 n 14 1 2 := by
  delta kernelRun0_A.sl.r_172
  simp only [k0_pay355_apply c arg1 harg1 arg2 harg2 x0 x1]

theorem k0_pay437_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay437 (F := Ideal) (kernelRun0_A.sl.v2 c arg1 harg1 x0) (kernelRun0_A.sl.r_170 c arg1 harg1 x0) (kernelRun0_A.sl.r_171 c arg1 harg1 x0) (kernelRun0_A.sl.r_172 c arg1 harg1 x0) (kernelRun0_A.sl.r_216 c arg1 harg1 x0) (kernelRun0_A.sl.r_219 c arg1 harg1 x0) (ix1 n) = Cn x0 x1 n 17 1 0 := by
  refine Eq.trans ?_ (Cn_step x0 x1 n 17 14 (by decide) rfl (by decide) 1 0).symm
  unfold k0_pay437
  simp only [addf_apply, mulf_apply, r_170_apply c arg1 harg1 arg2 harg2 x0 x1, r_216_apply c arg1 harg1 arg2 harg2 x0 x1, r_171_apply c arg1 harg1 arg2 harg2 x0 x1, r_219_apply c arg1 harg1 arg2 harg2 x0 x1, r_172_apply c arg1 harg1 arg2 harg2 x0 x1, k0_pay431_apply c arg1 harg1 arg2 harg2 x0 x1]

theorem r_224_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_224 c arg1 harg1 x0 (ix1 n) = Cn x0 x1 n 17 1 0 := by
  delta kernelRun0_A.sl.r_224
  simp only [k0_pay437_apply c arg1 harg1 arg2 harg2 x0 x1]

theorem k0_pay438_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay438 (F := Ideal) (kernelRun0_A.sl.v2 c arg1 harg1 x0) (kernelRun0_A.sl.r_170 c arg1 harg1 x0) (kernelRun0_A.sl.r_171 c arg1 harg1 x0) (kernelRun0_A.sl.r_172 c arg1 harg1 x0) (kernelRun0_A.sl.r_217 c arg1 harg1 x0) (kernelRun0_A.sl.r_220 c arg1 harg1 x0) (ix1 n) = Cn x0 x1 n 17 1 1 := by
  refine Eq.trans ?_ (Cn_step x0 x1 n 17 14 (by decide) rfl (by decide) 1 1).symm
  unfold k0_pay438
  simp only [addf_apply, mulf_apply, r_170_apply c arg1 harg1 arg2 harg2 x0 x1, r_217_apply c arg1 harg1 arg2 harg2 x0 x1, r_171_apply c arg1 harg1 arg2 harg2 x0 x1, k0_pay429_apply c arg1 harg1 arg2 harg2 x0 x1, r_172_apply c arg1 harg1 arg2 harg2 x0 x1, k0_pay432_apply c arg1 harg1 arg2 harg2 x0 x1]

theorem r_225_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_225 c arg1 harg1 x0 (ix1 n) = Cn x0 x1 n 17 1 1 := by
  delta kernelRun0_A.sl.r_225
  simp only [k0_pay438_apply c arg1 harg1 arg2 harg2 x0 x1]

theorem k0_pay439_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay439 (F := Ideal) (kernelRun0_A.sl.v2 c arg1 harg1 x0) (kernelRun0_A.sl.r_170 c arg1 harg1 x0) (kernelRun0_A.sl.r_171 c arg1 harg1 x0) (kernelRun0_A.sl.r_172 c arg1 harg1 x0) (kernelRun0_A.sl.r_218 c arg1 harg1 x0) (ix1 n) = Cn x0 x1 n 17 1 2 := by
  refine Eq.trans ?_ (Cn_step x0 x1 n 17 14 (by decide) rfl (by decide) 1 2).symm
  unfold k0_pay439
  simp only [addf_apply, mulf_apply, r_170_apply c arg1 harg1 arg2 harg2 x0 x1, r_218_apply c arg1 harg1 arg2 harg2 x0 x1, r_171_apply c arg1 harg1 arg2 harg2 x0 x1, k0_pay430_apply c arg1 harg1 arg2 harg2 x0 x1, r_172_apply c arg1 harg1 arg2 harg2 x0 x1, k0_pay433_apply c arg1 harg1 arg2 harg2 x0 x1]

theorem r_226_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_226 c arg1 harg1 x0 (ix1 n) = Cn x0 x1 n 17 1 2 := by
  delta kernelRun0_A.sl.r_226
  simp only [k0_pay439_apply c arg1 harg1 arg2 harg2 x0 x1]

theorem k0_pay493_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay493 (F := Ideal) (kernelRun0_A.sl.v2 c arg1 harg1 x0) (kernelRun0_A.sl.r_224 c arg1 harg1 x0) (kernelRun0_A.sl.r_225 c arg1 harg1 x0) (kernelRun0_A.sl.r_226 c arg1 harg1 x0) (kernelRun0_A.sl.r_252 c arg1 harg1 x0) (kernelRun0_A.sl.r_255 c arg1 harg1 x0) (ix1 n) = Cn x0 x1 n 19 1 0 := by
  refine Eq.trans ?_ (Cn_step x0 x1 n 19 17 (by decide) rfl (by decide) 1 0).symm
  unfold k0_pay493
  simp only [addf_apply, mulf_apply, r_224_apply c arg1 harg1 arg2 harg2 x0 x1, r_252_apply c arg1 harg1 arg2 harg2 x0 x1, r_225_apply c arg1 harg1 arg2 harg2 x0 x1, r_255_apply c arg1 harg1 arg2 harg2 x0 x1, r_226_apply c arg1 harg1 arg2 harg2 x0 x1, k0_pay487_apply c arg1 harg1 arg2 harg2 x0 x1]

theorem r_260_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_260 c arg1 harg1 x0 (ix1 n) = Cn x0 x1 n 19 1 0 := by
  delta kernelRun0_A.sl.r_260
  simp only [k0_pay493_apply c arg1 harg1 arg2 harg2 x0 x1]

theorem k0_pay494_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay494 (F := Ideal) (kernelRun0_A.sl.v2 c arg1 harg1 x0) (kernelRun0_A.sl.r_224 c arg1 harg1 x0) (kernelRun0_A.sl.r_225 c arg1 harg1 x0) (kernelRun0_A.sl.r_226 c arg1 harg1 x0) (kernelRun0_A.sl.r_253 c arg1 harg1 x0) (kernelRun0_A.sl.r_256 c arg1 harg1 x0) (ix1 n) = Cn x0 x1 n 19 1 1 := by
  refine Eq.trans ?_ (Cn_step x0 x1 n 19 17 (by decide) rfl (by decide) 1 1).symm
  unfold k0_pay494
  simp only [addf_apply, mulf_apply, r_224_apply c arg1 harg1 arg2 harg2 x0 x1, r_253_apply c arg1 harg1 arg2 harg2 x0 x1, r_225_apply c arg1 harg1 arg2 harg2 x0 x1, k0_pay485_apply c arg1 harg1 arg2 harg2 x0 x1, r_226_apply c arg1 harg1 arg2 harg2 x0 x1, k0_pay488_apply c arg1 harg1 arg2 harg2 x0 x1]

theorem r_261_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_261 c arg1 harg1 x0 (ix1 n) = Cn x0 x1 n 19 1 1 := by
  delta kernelRun0_A.sl.r_261
  simp only [k0_pay494_apply c arg1 harg1 arg2 harg2 x0 x1]

theorem k0_pay495_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay495 (F := Ideal) (kernelRun0_A.sl.v2 c arg1 harg1 x0) (kernelRun0_A.sl.r_224 c arg1 harg1 x0) (kernelRun0_A.sl.r_225 c arg1 harg1 x0) (kernelRun0_A.sl.r_226 c arg1 harg1 x0) (kernelRun0_A.sl.r_254 c arg1 harg1 x0) (ix1 n) = Cn x0 x1 n 19 1 2 := by
  refine Eq.trans ?_ (Cn_step x0 x1 n 19 17 (by decide) rfl (by decide) 1 2).symm
  unfold k0_pay495
  simp only [addf_apply, mulf_apply, r_224_apply c arg1 harg1 arg2 harg2 x0 x1, r_254_apply c arg1 harg1 arg2 harg2 x0 x1, r_225_apply c arg1 harg1 arg2 harg2 x0 x1, k0_pay486_apply c arg1 harg1 arg2 harg2 x0 x1, r_226_apply c arg1 harg1 arg2 harg2 x0 x1, k0_pay489_apply c arg1 harg1 arg2 harg2 x0 x1]

theorem r_262_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_262 c arg1 harg1 x0 (ix1 n) = Cn x0 x1 n 19 1 2 := by
  delta kernelRun0_A.sl.r_262
  simp only [k0_pay495_apply c arg1 harg1 arg2 harg2 x0 x1]

theorem k0_pay549_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay549 (F := Ideal) (kernelRun0_A.sl.v2 c arg1 harg1 x0) (kernelRun0_A.sl.r_260 c arg1 harg1 x0) (kernelRun0_A.sl.r_261 c arg1 harg1 x0) (kernelRun0_A.sl.r_262 c arg1 harg1 x0) (kernelRun0_A.sl.r_288 c arg1 harg1 x0) (kernelRun0_A.sl.r_291 c arg1 harg1 x0) (ix1 n) = Cn x0 x1 n 21 1 0 := by
  refine Eq.trans ?_ (Cn_step x0 x1 n 21 19 (by decide) rfl (by decide) 1 0).symm
  unfold k0_pay549
  simp only [addf_apply, mulf_apply, r_260_apply c arg1 harg1 arg2 harg2 x0 x1, r_288_apply c arg1 harg1 arg2 harg2 x0 x1, r_261_apply c arg1 harg1 arg2 harg2 x0 x1, r_291_apply c arg1 harg1 arg2 harg2 x0 x1, r_262_apply c arg1 harg1 arg2 harg2 x0 x1, k0_pay543_apply c arg1 harg1 arg2 harg2 x0 x1]

theorem r_296_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_296 c arg1 harg1 x0 (ix1 n) = Cn x0 x1 n 21 1 0 := by
  delta kernelRun0_A.sl.r_296
  simp only [k0_pay549_apply c arg1 harg1 arg2 harg2 x0 x1]

theorem k0_pay550_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay550 (F := Ideal) (kernelRun0_A.sl.v2 c arg1 harg1 x0) (kernelRun0_A.sl.r_260 c arg1 harg1 x0) (kernelRun0_A.sl.r_261 c arg1 harg1 x0) (kernelRun0_A.sl.r_262 c arg1 harg1 x0) (kernelRun0_A.sl.r_289 c arg1 harg1 x0) (kernelRun0_A.sl.r_292 c arg1 harg1 x0) (ix1 n) = Cn x0 x1 n 21 1 1 := by
  refine Eq.trans ?_ (Cn_step x0 x1 n 21 19 (by decide) rfl (by decide) 1 1).symm
  unfold k0_pay550
  simp only [addf_apply, mulf_apply, r_260_apply c arg1 harg1 arg2 harg2 x0 x1, r_289_apply c arg1 harg1 arg2 harg2 x0 x1, r_261_apply c arg1 harg1 arg2 harg2 x0 x1, k0_pay541_apply c arg1 harg1 arg2 harg2 x0 x1, r_262_apply c arg1 harg1 arg2 harg2 x0 x1, k0_pay544_apply c arg1 harg1 arg2 harg2 x0 x1]

theorem r_297_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_297 c arg1 harg1 x0 (ix1 n) = Cn x0 x1 n 21 1 1 := by
  delta kernelRun0_A.sl.r_297
  simp only [k0_pay550_apply c arg1 harg1 arg2 harg2 x0 x1]

theorem k0_pay551_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay551 (F := Ideal) (kernelRun0_A.sl.v2 c arg1 harg1 x0) (kernelRun0_A.sl.r_260 c arg1 harg1 x0) (kernelRun0_A.sl.r_261 c arg1 harg1 x0) (kernelRun0_A.sl.r_262 c arg1 harg1 x0) (kernelRun0_A.sl.r_290 c arg1 harg1 x0) (ix1 n) = Cn x0 x1 n 21 1 2 := by
  refine Eq.trans ?_ (Cn_step x0 x1 n 21 19 (by decide) rfl (by decide) 1 2).symm
  unfold k0_pay551
  simp only [addf_apply, mulf_apply, r_260_apply c arg1 harg1 arg2 harg2 x0 x1, r_290_apply c arg1 harg1 arg2 harg2 x0 x1, r_261_apply c arg1 harg1 arg2 harg2 x0 x1, k0_pay542_apply c arg1 harg1 arg2 harg2 x0 x1, r_262_apply c arg1 harg1 arg2 harg2 x0 x1, k0_pay545_apply c arg1 harg1 arg2 harg2 x0 x1]

theorem r_298_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_298 c arg1 harg1 x0 (ix1 n) = Cn x0 x1 n 21 1 2 := by
  delta kernelRun0_A.sl.r_298
  simp only [k0_pay551_apply c arg1 harg1 arg2 harg2 x0 x1]

theorem v25_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.v25 c arg2 harg2 x1 = Of x1 0 1 := by
  delta kernelRun0_A.sl.v25
  simp only [rel_read x1 arg2 harg2 1 0 (1 : Fin 3) rfl (by decide)]

theorem v26_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v26 c arg2 harg2 x1 (ix1 n) = Pn x0 x1 n 0 1 := by
  refine Eq.trans ?_ (Pn_zero x0 x1 n 1).symm
  delta kernelRun0_A.sl.v26
  simp only [broadcast_apply, v25_apply c arg1 harg1 arg2 harg2 x0 x1]

theorem k0_pay99_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay99 (F := Ideal) (kernelRun0_A.sl.v10 c arg1 harg1 x0) (kernelRun0_A.sl.v12 c arg1 harg1 x0) (kernelRun0_A.sl.v14 c arg1 harg1 x0) (kernelRun0_A.sl.v26 c arg2 harg2 x1) (View.readAt (Elt Ideal) arg2.view (Rect.unit (s := S3x55) ![0, 3] S1x1.size inb_S3x55_S1x1_0_3).toLoadRect (harg2.unread x1)) (View.readAt (Elt Ideal) arg2.view (Rect.unit (s := S3x55) ![1, 3] S1x1.size inb_S3x55_S1x1_1_3).toLoadRect (harg2.unread x1)) (View.readAt (Elt Ideal) arg2.view (Rect.unit (s := S3x55) ![2, 3] S1x1.size inb_S3x55_S1x1_2_3).toLoadRect (harg2.unread x1)) (ix1 n) = Pn x0 x1 n 3 1 := by
  refine Eq.trans ?_ (Pn_step x0 x1 n 3 0 (by decide) rfl 1).symm
  unfold k0_pay99
  simp only [addf_apply, mulf_apply, v10_apply c arg1 harg1 arg2 harg2 x0 x1, broadcast_apply, k0_pay95_apply c arg1 harg1 arg2 harg2 x0 x1, v12_apply c arg1 harg1 arg2 harg2 x0 x1, k0_pay96_apply c arg1 harg1 arg2 harg2 x0 x1, v14_apply c arg1 harg1 arg2 harg2 x0 x1, k0_pay97_apply c arg1 harg1 arg2 harg2 x0 x1, v26_apply c arg1 harg1 arg2 harg2 x0 x1]

theorem r_38_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_38 c arg1 harg1 arg2 harg2 x0 x1 (ix1 n) = Pn x0 x1 n 3 1 := by
  delta kernelRun0_A.sl.r_38
  simp only [k0_pay99_apply c arg1 harg1 arg2 harg2 x0 x1]

theorem k0_pay183_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay183 (F := Ideal) (kernelRun0_A.sl.r_31 c arg1 harg1 x0) (kernelRun0_A.sl.r_32 c arg1 harg1 x0) (kernelRun0_A.sl.r_33 c arg1 harg1 x0) (kernelRun0_A.sl.r_38 c arg1 harg1 arg2 harg2 x0 x1) (View.readAt (Elt Ideal) arg2.view (Rect.unit (s := S3x55) ![0, 6] S1x1.size inb_S3x55_S1x1_0_6).toLoadRect (harg2.unread x1)) (View.readAt (Elt Ideal) arg2.view (Rect.unit (s := S3x55) ![1, 6] S1x1.size inb_S3x55_S1x1_1_6).toLoadRect (harg2.unread x1)) (View.readAt (Elt Ideal) arg2.view (Rect.unit (s := S3x55) ![2, 6] S1x1.size inb_S3x55_S1x1_2_6).toLoadRect (harg2.unread x1)) (ix1 n) = Pn x0 x1 n 6 1 := by
  refine Eq.trans ?_ (Pn_step x0 x1 n 6 3 (by decide) rfl 1).symm
  unfold k0_pay183
  simp only [addf_apply, mulf_apply, r_31_apply c arg1 harg1 arg2 harg2 x0 x1, broadcast_apply, k0_pay179_apply c arg1 harg1 arg2 harg2 x0 x1, r_32_apply c arg1 harg1 arg2 harg2 x0 x1, k0_pay180_apply c arg1 harg1 arg2 harg2 x0 x1, r_33_apply c arg1 harg1 arg2 harg2 x0 x1, k0_pay181_apply c arg1 harg1 arg2 harg2 x0 x1, r_38_apply c arg1 harg1 arg2 harg2 x0 x1]

theorem r_80_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_80 c arg1 harg1 arg2 harg2 x0 x1 (ix1 n) = Pn x0 x1 n 6 1 := by
  delta kernelRun0_A.sl.r_80
  simp only [k0_pay183_apply c arg1 harg1 arg2 harg2 x0 x1]

theorem k0_pay267_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay267 (F := Ideal) (kernelRun0_A.sl.r_73 c arg1 harg1 x0) (kernelRun0_A.sl.r_74 c arg1 harg1 x0) (kernelRun0_A.sl.r_75 c arg1 harg1 x0) (kernelRun0_A.sl.r_80 c arg1 harg1 arg2 harg2 x0 x1) (View.readAt (Elt Ideal) arg2.view (Rect.unit (s := S3x55) ![0, 9] S1x1.size inb_S3x55_S1x1_0_9).toLoadRect (harg2.unread x1)) (View.readAt (Elt Ideal) arg2.view (Rect.unit (s := S3x55) ![1, 9] S1x1.size inb_S3x55_S1x1_1_9).toLoadRect (harg2.unread x1)) (View.readAt (Elt Ideal) arg2.view (Rect.unit (s := S3x55) ![2, 9] S1x1.size inb_S3x55_S1x1_2_9).toLoadRect (harg2.unread x1)) (ix1 n) = Pn x0 x1 n 9 1 := by
  refine Eq.trans ?_ (Pn_step x0 x1 n 9 6 (by decide) rfl 1).symm
  unfold k0_pay267
  simp only [addf_apply, mulf_apply, r_73_apply c arg1 harg1 arg2 harg2 x0 x1, broadcast_apply, k0_pay263_apply c arg1 harg1 arg2 harg2 x0 x1, r_74_apply c arg1 harg1 arg2 harg2 x0 x1, k0_pay264_apply c arg1 harg1 arg2 harg2 x0 x1, r_75_apply c arg1 harg1 arg2 harg2 x0 x1, k0_pay265_apply c arg1 harg1 arg2 harg2 x0 x1, r_80_apply c arg1 harg1 arg2 harg2 x0 x1]

theorem r_122_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_122 c arg1 harg1 arg2 harg2 x0 x1 (ix1 n) = Pn x0 x1 n 9 1 := by
  delta kernelRun0_A.sl.r_122
  simp only [k0_pay267_apply c arg1 harg1 arg2 harg2 x0 x1]

theorem k0_pay363_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay363 (F := Ideal) (kernelRun0_A.sl.r_115 c arg1 harg1 x0) (kernelRun0_A.sl.r_116 c arg1 harg1 x0) (kernelRun0_A.sl.r_117 c arg1 harg1 x0) (kernelRun0_A.sl.r_122 c arg1 harg1 arg2 harg2 x0 x1) (kernelRun0_A.sl.r_176 c arg2 harg2 x1) (View.readAt (Elt Ideal) arg2.view (Rect.unit (s := S3x55) ![1, 14] S1x1.size inb_S3x55_S1x1_1_14).toLoadRect (harg2.unread x1)) (View.readAt (Elt Ideal) arg2.view (Rect.unit (s := S3x55) ![2, 14] S1x1.size inb_S3x55_S1x1_2_14).toLoadRect (harg2.unread x1)) (ix1 n) = Pn x0 x1 n 14 1 := by
  refine Eq.trans ?_ (Pn_step x0 x1 n 14 9 (by decide) rfl 1).symm
  unfold k0_pay363
  simp only [addf_apply, mulf_apply, r_115_apply c arg1 harg1 arg2 harg2 x0 x1, broadcast_apply, r_176_apply c arg1 harg1 arg2 harg2 x0 x1, r_116_apply c arg1 harg1 arg2 harg2 x0 x1, k0_pay360_apply c arg1 harg1 arg2 harg2 x0 x1, r_117_apply c arg1 harg1 arg2 harg2 x0 x1, k0_pay361_apply c arg1 harg1 arg2 harg2 x0 x1, r_122_apply c arg1 harg1 arg2 harg2 x0 x1]

theorem r_178_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_178 c arg1 harg1 arg2 harg2 x0 x1 (ix1 n) = Pn x0 x1 n 14 1 := by
  delta kernelRun0_A.sl.r_178
  simp only [k0_pay363_apply c arg1 harg1 arg2 harg2 x0 x1]

theorem k0_pay447_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay447 (F := Ideal) (kernelRun0_A.sl.r_170 c arg1 harg1 x0) (kernelRun0_A.sl.r_171 c arg1 harg1 x0) (kernelRun0_A.sl.r_172 c arg1 harg1 x0) (kernelRun0_A.sl.r_178 c arg1 harg1 arg2 harg2 x0 x1) (kernelRun0_A.sl.r_230 c arg2 harg2 x1) (View.readAt (Elt Ideal) arg2.view (Rect.unit (s := S3x55) ![1, 17] S1x1.size inb_S3x55_S1x1_1_17).toLoadRect (harg2.unread x1)) (View.readAt (Elt Ideal) arg2.view (Rect.unit (s := S3x55) ![2, 17] S1x1.size inb_S3x55_S1x1_2_17).toLoadRect (harg2.unread x1)) (ix1 n) = Pn x0 x1 n 17 1 := by
  refine Eq.trans ?_ (Pn_step x0 x1 n 17 14 (by decide) rfl 1).symm
  unfold k0_pay447
  simp only [addf_apply, mulf_apply, r_170_apply c arg1 harg1 arg2 harg2 x0 x1, broadcast_apply, r_230_apply c arg1 harg1 arg2 harg2 x0 x1, r_171_apply c arg1 harg1 arg2 harg2 x0 x1, k0_pay444_apply c arg1 harg1 arg2 harg2 x0 x1, r_172_apply c arg1 harg1 arg2 harg2 x0 x1, k0_pay445_apply c arg1 harg1 arg2 harg2 x0 x1, r_178_apply c arg1 harg1 arg2 harg2 x0 x1]

theorem r_232_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_232 c arg1 harg1 arg2 harg2 x0 x1 (ix1 n) = Pn x0 x1 n 17 1 := by
  delta kernelRun0_A.sl.r_232
  simp only [k0_pay447_apply c arg1 harg1 arg2 harg2 x0 x1]

theorem k0_pay503_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay503 (F := Ideal) (kernelRun0_A.sl.r_224 c arg1 harg1 x0) (kernelRun0_A.sl.r_225 c arg1 harg1 x0) (kernelRun0_A.sl.r_226 c arg1 harg1 x0) (kernelRun0_A.sl.r_232 c arg1 harg1 arg2 harg2 x0 x1) (kernelRun0_A.sl.r_266 c arg2 harg2 x1) (View.readAt (Elt Ideal) arg2.view (Rect.unit (s := S3x55) ![1, 19] S1x1.size inb_S3x55_S1x1_1_19).toLoadRect (harg2.unread x1)) (View.readAt (Elt Ideal) arg2.view (Rect.unit (s := S3x55) ![2, 19] S1x1.size inb_S3x55_S1x1_2_19).toLoadRect (harg2.unread x1)) (ix1 n) = Pn x0 x1 n 19 1 := by
  refine Eq.trans ?_ (Pn_step x0 x1 n 19 17 (by decide) rfl 1).symm
  unfold k0_pay503
  simp only [addf_apply, mulf_apply, r_224_apply c arg1 harg1 arg2 harg2 x0 x1, broadcast_apply, r_266_apply c arg1 harg1 arg2 harg2 x0 x1, r_225_apply c arg1 harg1 arg2 harg2 x0 x1, k0_pay500_apply c arg1 harg1 arg2 harg2 x0 x1, r_226_apply c arg1 harg1 arg2 harg2 x0 x1, k0_pay501_apply c arg1 harg1 arg2 harg2 x0 x1, r_232_apply c arg1 harg1 arg2 harg2 x0 x1]

theorem r_268_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_268 c arg1 harg1 arg2 harg2 x0 x1 (ix1 n) = Pn x0 x1 n 19 1 := by
  delta kernelRun0_A.sl.r_268
  simp only [k0_pay503_apply c arg1 harg1 arg2 harg2 x0 x1]

theorem k0_pay559_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay559 (F := Ideal) (kernelRun0_A.sl.r_260 c arg1 harg1 x0) (kernelRun0_A.sl.r_261 c arg1 harg1 x0) (kernelRun0_A.sl.r_262 c arg1 harg1 x0) (kernelRun0_A.sl.r_268 c arg1 harg1 arg2 harg2 x0 x1) (kernelRun0_A.sl.r_302 c arg2 harg2 x1) (View.readAt (Elt Ideal) arg2.view (Rect.unit (s := S3x55) ![1, 21] S1x1.size inb_S3x55_S1x1_1_21).toLoadRect (harg2.unread x1)) (View.readAt (Elt Ideal) arg2.view (Rect.unit (s := S3x55) ![2, 21] S1x1.size inb_S3x55_S1x1_2_21).toLoadRect (harg2.unread x1)) (ix1 n) = Pn x0 x1 n 21 1 := by
  refine Eq.trans ?_ (Pn_step x0 x1 n 21 19 (by decide) rfl 1).symm
  unfold k0_pay559
  simp only [addf_apply, mulf_apply, r_260_apply c arg1 harg1 arg2 harg2 x0 x1, broadcast_apply, r_302_apply c arg1 harg1 arg2 harg2 x0 x1, r_261_apply c arg1 harg1 arg2 harg2 x0 x1, k0_pay556_apply c arg1 harg1 arg2 harg2 x0 x1, r_262_apply c arg1 harg1 arg2 harg2 x0 x1, k0_pay557_apply c arg1 harg1 arg2 harg2 x0 x1, r_268_apply c arg1 harg1 arg2 harg2 x0 x1]

theorem r_304_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_304 c arg1 harg1 arg2 harg2 x0 x1 (ix1 n) = Pn x0 x1 n 21 1 := by
  delta kernelRun0_A.sl.r_304
  simp only [k0_pay559_apply c arg1 harg1 arg2 harg2 x0 x1]

theorem k0_pay836_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay836 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (View.readAt (Elt Ideal) arg2.view (Rect.unit (s := S3x55) ![0, 52] S1x1.size inb_S3x55_S1x1_0_52).toLoadRect (harg2.unread x1)) (View.readAt (Elt Ideal) arg2.view (Rect.unit (s := S3x55) ![1, 52] S1x1.size inb_S3x55_S1x1_1_52).toLoadRect (harg2.unread x1)) (View.readAt (Elt Ideal) arg2.view (Rect.unit (s := S3x55) ![2, 52] S1x1.size inb_S3x55_S1x1_2_52).toLoadRect (harg2.unread x1)) (ix1 n) = Pn x0 x1 n 52 1 := by
  refine Eq.trans ?_ (Pn_step x0 x1 n 52 21 (by decide) rfl 1).symm
  unfold k0_pay836
  simp only [addf_apply, mulf_apply, r_296_apply c arg1 harg1 arg2 harg2 x0 x1, broadcast_apply, k0_pay832_apply c arg1 harg1 arg2 harg2 x0 x1, r_297_apply c arg1 harg1 arg2 harg2 x0 x1, k0_pay833_apply c arg1 harg1 arg2 harg2 x0 x1, r_298_apply c arg1 harg1 arg2 harg2 x0 x1, k0_pay834_apply c arg1 harg1 arg2 harg2 x0 x1, r_304_apply c arg1 harg1 arg2 harg2 x0 x1]

theorem r_442_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_442 c arg1 harg1 arg2 harg2 x0 x1 (ix1 n) = Pn x0 x1 n 52 1 := by
  delta kernelRun0_A.sl.r_442
  simp only [k0_pay836_apply c arg1 harg1 arg2 harg2 x0 x1]

theorem k0_pay845_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay845 (F := Ideal) (kernelRun0_A.sl.r_296 c arg1 harg1 x0) (kernelRun0_A.sl.r_297 c arg1 harg1 x0) (kernelRun0_A.sl.r_298 c arg1 harg1 x0) (kernelRun0_A.sl.r_442 c arg1 harg1 arg2 harg2 x0 x1) (View.readAt (Elt Ideal) arg2.view (Rect.unit (s := S3x55) ![0, 53] S1x1.size inb_S3x55_S1x1_0_53).toLoadRect (harg2.unread x1)) (View.readAt (Elt Ideal) arg2.view (Rect.unit (s := S3x55) ![1, 53] S1x1.size inb_S3x55_S1x1_1_53).toLoadRect (harg2.unread x1)) (View.readAt (Elt Ideal) arg2.view (Rect.unit (s := S3x55) ![2, 53] S1x1.size inb_S3x55_S1x1_2_53).toLoadRect (harg2.unread x1)) (ix1 n) = Pn x0 x1 n 53 1 := by
  refine Eq.trans ?_ (Pn_step x0 x1 n 53 52 (by decide) rfl 1).symm
  unfold k0_pay845
  simp only [addf_apply, mulf_apply, r_296_apply c arg1 harg1 arg2 harg2 x0 x1, broadcast_apply, k0_pay841_apply c arg1 harg1 arg2 harg2 x0 x1, r_297_apply c arg1 harg1 arg2 harg2 x0 x1, k0_pay842_apply c arg1 harg1 arg2 harg2 x0 x1, r_298_apply c arg1 harg1 arg2 harg2 x0 x1, k0_pay843_apply c arg1 harg1 arg2 harg2 x0 x1, r_442_apply c arg1 harg1 arg2 harg2 x0 x1, Cn_anc_52 x0 x1 n]

theorem r_445_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_445 c arg1 harg1 arg2 harg2 x0 x1 (ix1 n) = Pn x0 x1 n 53 1 := by
  delta kernelRun0_A.sl.r_445
  simp only [k0_pay845_apply c arg1 harg1 arg2 harg2 x0 x1]

theorem k0_pay853_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay853 (F := Ideal) (kernelRun0_A.sl.r_296 c arg1 harg1 x0) (kernelRun0_A.sl.r_297 c arg1 harg1 x0) (kernelRun0_A.sl.r_298 c arg1 harg1 x0) (kernelRun0_A.sl.r_445 c arg1 harg1 arg2 harg2 x0 x1) (View.readAt (Elt Ideal) arg2.view (Rect.unit (s := S3x55) ![0, 54] S1x1.size inb_S3x55_S1x1_0_54).toLoadRect (harg2.unread x1)) (View.readAt (Elt Ideal) arg2.view (Rect.unit (s := S3x55) ![1, 54] S1x1.size inb_S3x55_S1x1_1_54).toLoadRect (harg2.unread x1)) (View.readAt (Elt Ideal) arg2.view (Rect.unit (s := S3x55) ![2, 54] S1x1.size inb_S3x55_S1x1_2_54).toLoadRect (harg2.unread x1)) (ix1 n) = Pn x0 x1 n 54 1 := by
  refine Eq.trans ?_ (Pn_step x0 x1 n 54 53 (by decide) rfl 1).symm
  unfold k0_pay853
  simp only [addf_apply, mulf_apply, r_296_apply c arg1 harg1 arg2 harg2 x0 x1, broadcast_apply, k0_pay850_apply c arg1 harg1 arg2 harg2 x0 x1, r_297_apply c arg1 harg1 arg2 harg2 x0 x1, k0_pay851_apply c arg1 harg1 arg2 harg2 x0 x1, r_298_apply c arg1 harg1 arg2 harg2 x0 x1, k0_pay852_apply c arg1 harg1 arg2 harg2 x0 x1, r_445_apply c arg1 harg1 arg2 harg2 x0 x1, Cn_anc_53 x0 x1 n]

theorem r_447_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_447 c arg1 harg1 arg2 harg2 x0 x1 (ix1 n) = Pn x0 x1 n 54 1 := by
  delta kernelRun0_A.sl.r_447
  simp only [k0_pay853_apply c arg1 harg1 arg2 harg2 x0 x1]

theorem k0_pay1_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay1 (F := Ideal) (kernelRun0_A.sl.r_447 c arg1 harg1 arg2 harg2 x0 x1) (ix2 u n) = Pn x0 x1 n 54 1 := by
  unfold k0_pay1
  simp only [shapeCast_a_1a_apply, r_447_apply c arg1 harg1 arg2 harg2 x0 x1]

theorem v3_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v3 c arg1 harg1 x0 (ix2 u n) = Cn x0 x1 n 0 0 0 := by
  refine Eq.trans ?_ (Cn_zero x0 x1 n 0 0).symm
  delta kernelRun0_A.sl.v3
  simp only [slice_row 0 (0 : Fin 198) rfl, v2_apply c arg1 harg1 arg2 harg2 x0 x1, Rw_eq x0 n 0 0 0 (0 : Fin 198) (by decide)]

theorem v4_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v4 c arg1 harg1 x0 (ix1 n) = Cn x0 x1 n 0 0 0 := by
  delta kernelRun0_A.sl.v4
  simp only [shapeCast_1a_a_apply, v3_apply c arg1 harg1 arg2 harg2 x0 x1]

theorem v5_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v5 c arg1 harg1 x0 (ix2 u n) = Cn x0 x1 n 0 0 1 := by
  refine Eq.trans ?_ (Cn_zero x0 x1 n 0 1).symm
  delta kernelRun0_A.sl.v5
  simp only [slice_row 1 (1 : Fin 198) rfl, v2_apply c arg1 harg1 arg2 harg2 x0 x1, Rw_eq x0 n 0 0 1 (1 : Fin 198) (by decide)]

theorem v6_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v6 c arg1 harg1 x0 (ix1 n) = Cn x0 x1 n 0 0 1 := by
  delta kernelRun0_A.sl.v6
  simp only [shapeCast_1a_a_apply, v5_apply c arg1 harg1 arg2 harg2 x0 x1]

theorem v7_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v7 c arg1 harg1 x0 (ix2 u n) = Cn x0 x1 n 0 0 2 := by
  refine Eq.trans ?_ (Cn_zero x0 x1 n 0 2).symm
  delta kernelRun0_A.sl.v7
  simp only [slice_row 2 (2 : Fin 198) rfl, v2_apply c arg1 harg1 arg2 harg2 x0 x1, Rw_eq x0 n 0 0 2 (2 : Fin 198) (by decide)]

theorem v8_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v8 c arg1 harg1 x0 (ix1 n) = Cn x0 x1 n 0 0 2 := by
  delta kernelRun0_A.sl.v8
  simp only [shapeCast_1a_a_apply, v7_apply c arg1 harg1 arg2 harg2 x0 x1]

theorem k0_pay86_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay86 (F := Ideal) (kernelRun0_A.sl.v2 c arg1 harg1 x0) (kernelRun0_A.sl.v4 c arg1 harg1 x0) (kernelRun0_A.sl.v6 c arg1 harg1 x0) (kernelRun0_A.sl.v8 c arg1 harg1 x0) (kernelRun0_A.sl.r_26 c arg1 harg1 x0) (ix1 n) = Cn x0 x1 n 3 0 0 := by
  refine Eq.trans ?_ (Cn_step x0 x1 n 3 0 (by decide) rfl (by decide) 0 0).symm
  unfold k0_pay86
  simp only [addf_apply, mulf_apply, v4_apply c arg1 harg1 arg2 harg2 x0 x1, r_26_apply c arg1 harg1 arg2 harg2 x0 x1, v6_apply c arg1 harg1 arg2 harg2 x0 x1, k0_pay80_apply c arg1 harg1 arg2 harg2 x0 x1, v8_apply c arg1 harg1 arg2 harg2 x0 x1, k0_pay83_apply c arg1 harg1 arg2 harg2 x0 x1]

theorem r_28_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_28 c arg1 harg1 x0 (ix1 n) = Cn x0 x1 n 3 0 0 := by
  delta kernelRun0_A.sl.r_28
  simp only [k0_pay86_apply c arg1 harg1 arg2 harg2 x0 x1]

theorem k0_pay87_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay87 (F := Ideal) (kernelRun0_A.sl.v2 c arg1 harg1 x0) (kernelRun0_A.sl.v4 c arg1 harg1 x0) (kernelRun0_A.sl.v6 c arg1 harg1 x0) (kernelRun0_A.sl.v8 c arg1 harg1 x0) (kernelRun0_A.sl.r_27 c arg1 harg1 x0) (ix1 n) = Cn x0 x1 n 3 0 1 := by
  refine Eq.trans ?_ (Cn_step x0 x1 n 3 0 (by decide) rfl (by decide) 0 1).symm
  unfold k0_pay87
  simp only [addf_apply, mulf_apply, v4_apply c arg1 harg1 arg2 harg2 x0 x1, k0_pay78_apply c arg1 harg1 arg2 harg2 x0 x1, v6_apply c arg1 harg1 arg2 harg2 x0 x1, k0_pay81_apply c arg1 harg1 arg2 harg2 x0 x1, v8_apply c arg1 harg1 arg2 harg2 x0 x1, k0_pay84_apply c arg1 harg1 arg2 harg2 x0 x1]

theorem r_29_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_29 c arg1 harg1 x0 (ix1 n) = Cn x0 x1 n 3 0 1 := by
  delta kernelRun0_A.sl.r_29
  simp only [k0_pay87_apply c arg1 harg1 arg2 harg2 x0 x1]

theorem k0_pay88_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay88 (F := Ideal) (kernelRun0_A.sl.v2 c arg1 harg1 x0) (kernelRun0_A.sl.v4 c arg1 harg1 x0) (kernelRun0_A.sl.v6 c arg1 harg1 x0) (kernelRun0_A.sl.v8 c arg1 harg1 x0) (ix1 n) = Cn x0 x1 n 3 0 2 := by
  refine Eq.trans ?_ (Cn_step x0 x1 n 3 0 (by decide) rfl (by decide) 0 2).symm
  unfold k0_pay88
  simp only [addf_apply, mulf_apply, v4_apply c arg1 harg1 arg2 harg2 x0 x1, k0_pay79_apply c arg1 harg1 arg2 harg2 x0 x1, v6_apply c arg1 harg1 arg2 harg2 x0 x1, k0_pay82_apply c arg1 harg1 arg2 harg2 x0 x1, v8_apply c arg1 harg1 arg2 harg2 x0 x1, k0_pay85_apply c arg1 harg1 arg2 harg2 x0 x1]

theorem r_30_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_30 c arg1 harg1 x0 (ix1 n) = Cn x0 x1 n 3 0 2 := by
  delta kernelRun0_A.sl.r_30
  simp only [k0_pay88_apply c arg1 harg1 arg2 harg2 x0 x1]

theorem k0_pay170_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay170 (F := Ideal) (kernelRun0_A.sl.v2 c arg1 harg1 x0) (kernelRun0_A.sl.r_28 c arg1 harg1 x0) (kernelRun0_A.sl.r_29 c arg1 harg1 x0) (kernelRun0_A.sl.r_30 c arg1 harg1 x0) (kernelRun0_A.sl.r_68 c arg1 harg1 x0) (ix1 n) = Cn x0 x1 n 6 0 0 := by
  refine Eq.trans ?_ (Cn_step x0 x1 n 6 3 (by decide) rfl (by decide) 0 0).symm
  unfold k0_pay170
  simp only [addf_apply, mulf_apply, r_28_apply c arg1 harg1 arg2 harg2 x0 x1, r_68_apply c arg1 harg1 arg2 harg2 x0 x1, r_29_apply c arg1 harg1 arg2 harg2 x0 x1, k0_pay164_apply c arg1 harg1 arg2 harg2 x0 x1, r_30_apply c arg1 harg1 arg2 harg2 x0 x1, k0_pay167_apply c arg1 harg1 arg2 harg2 x0 x1]

theorem r_70_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_70 c arg1 harg1 x0 (ix1 n) = Cn x0 x1 n 6 0 0 := by
  delta kernelRun0_A.sl.r_70
  simp only [k0_pay170_apply c arg1 harg1 arg2 harg2 x0 x1]

theorem k0_pay171_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay171 (F := Ideal) (kernelRun0_A.sl.v2 c arg1 harg1 x0) (kernelRun0_A.sl.r_28 c arg1 harg1 x0) (kernelRun0_A.sl.r_29 c arg1 harg1 x0) (kernelRun0_A.sl.r_30 c arg1 harg1 x0) (kernelRun0_A.sl.r_69 c arg1 harg1 x0) (ix1 n) = Cn x0 x1 n 6 0 1 := by
  refine Eq.trans ?_ (Cn_step x0 x1 n 6 3 (by decide) rfl (by decide) 0 1).symm
  unfold k0_pay171
  simp only [addf_apply, mulf_apply, r_28_apply c arg1 harg1 arg2 harg2 x0 x1, k0_pay162_apply c arg1 harg1 arg2 harg2 x0 x1, r_29_apply c arg1 harg1 arg2 harg2 x0 x1, k0_pay165_apply c arg1 harg1 arg2 harg2 x0 x1, r_30_apply c arg1 harg1 arg2 harg2 x0 x1, k0_pay168_apply c arg1 harg1 arg2 harg2 x0 x1]

theorem r_71_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_71 c arg1 harg1 x0 (ix1 n) = Cn x0 x1 n 6 0 1 := by
  delta kernelRun0_A.sl.r_71
  simp only [k0_pay171_apply c arg1 harg1 arg2 harg2 x0 x1]

theorem k0_pay172_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay172 (F := Ideal) (kernelRun0_A.sl.v2 c arg1 harg1 x0) (kernelRun0_A.sl.r_28 c arg1 harg1 x0) (kernelRun0_A.sl.r_29 c arg1 harg1 x0) (kernelRun0_A.sl.r_30 c arg1 harg1 x0) (ix1 n) = Cn x0 x1 n 6 0 2 := by
  refine Eq.trans ?_ (Cn_step x0 x1 n 6 3 (by decide) rfl (by decide) 0 2).symm
  unfold k0_pay172
  simp only [addf_apply, mulf_apply, r_28_apply c arg1 harg1 arg2 harg2 x0 x1, k0_pay163_apply c arg1 harg1 arg2 harg2 x0 x1, r_29_apply c arg1 harg1 arg2 harg2 x0 x1, k0_pay166_apply c arg1 harg1 arg2 harg2 x0 x1, r_30_apply c arg1 harg1 arg2 harg2 x0 x1, k0_pay169_apply c arg1 harg1 arg2 harg2 x0 x1]

theorem r_72_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_72 c arg1 harg1 x0 (ix1 n) = Cn x0 x1 n 6 0 2 := by
  delta kernelRun0_A.sl.r_72
  simp only [k0_pay172_apply c arg1 harg1 arg2 harg2 x0 x1]

theorem k0_pay254_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay254 (F := Ideal) (kernelRun0_A.sl.v2 c arg1 harg1 x0) (kernelRun0_A.sl.r_70 c arg1 harg1 x0) (kernelRun0_A.sl.r_71 c arg1 harg1 x0) (kernelRun0_A.sl.r_72 c arg1 harg1 x0) (kernelRun0_A.sl.r_110 c arg1 harg1 x0) (ix1 n) = Cn x0 x1 n 9 0 0 := by
  refine Eq.trans ?_ (Cn_step x0 x1 n 9 6 (by decide) rfl (by decide) 0 0).symm
  unfold k0_pay254
  simp only [addf_apply, mulf_apply, r_70_apply c arg1 harg1 arg2 harg2 x0 x1, r_110_apply c arg1 harg1 arg2 harg2 x0 x1, r_71_apply c arg1 harg1 arg2 harg2 x0 x1, k0_pay248_apply c arg1 harg1 arg2 harg2 x0 x1, r_72_apply c arg1 harg1 arg2 harg2 x0 x1, k0_pay251_apply c arg1 harg1 arg2 harg2 x0 x1]

theorem r_112_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_112 c arg1 harg1 x0 (ix1 n) = Cn x0 x1 n 9 0 0 := by
  delta kernelRun0_A.sl.r_112
  simp only [k0_pay254_apply c arg1 harg1 arg2 harg2 x0 x1]

theorem k0_pay255_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay255 (F := Ideal) (kernelRun0_A.sl.v2 c arg1 harg1 x0) (kernelRun0_A.sl.r_70 c arg1 harg1 x0) (kernelRun0_A.sl.r_71 c arg1 harg1 x0) (kernelRun0_A.sl.r_72 c arg1 harg1 x0) (kernelRun0_A.sl.r_111 c arg1 harg1 x0) (ix1 n) = Cn x0 x1 n 9 0 1 := by
  refine Eq.trans ?_ (Cn_step x0 x1 n 9 6 (by decide) rfl (by decide) 0 1).symm
  unfold k0_pay255
  simp only [addf_apply, mulf_apply, r_70_apply c arg1 harg1 arg2 harg2 x0 x1, k0_pay246_apply c arg1 harg1 arg2 harg2 x0 x1, r_71_apply c arg1 harg1 arg2 harg2 x0 x1, k0_pay249_apply c arg1 harg1 arg2 harg2 x0 x1, r_72_apply c arg1 harg1 arg2 harg2 x0 x1, k0_pay252_apply c arg1 harg1 arg2 harg2 x0 x1]

theorem r_113_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_113 c arg1 harg1 x0 (ix1 n) = Cn x0 x1 n 9 0 1 := by
  delta kernelRun0_A.sl.r_113
  simp only [k0_pay255_apply c arg1 harg1 arg2 harg2 x0 x1]

theorem k0_pay256_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay256 (F := Ideal) (kernelRun0_A.sl.v2 c arg1 harg1 x0) (kernelRun0_A.sl.r_70 c arg1 harg1 x0) (kernelRun0_A.sl.r_71 c arg1 harg1 x0) (kernelRun0_A.sl.r_72 c arg1 harg1 x0) (ix1 n) = Cn x0 x1 n 9 0 2 := by
  refine Eq.trans ?_ (Cn_step x0 x1 n 9 6 (by decide) rfl (by decide) 0 2).symm
  unfold k0_pay256
  simp only [addf_apply, mulf_apply, r_70_apply c arg1 harg1 arg2 harg2 x0 x1, k0_pay247_apply c arg1 harg1 arg2 harg2 x0 x1, r_71_apply c arg1 harg1 arg2 harg2 x0 x1, k0_pay250_apply c arg1 harg1 arg2 harg2 x0 x1, r_72_apply c arg1 harg1 arg2 harg2 x0 x1, k0_pay253_apply c arg1 harg1 arg2 harg2 x0 x1]

theorem r_114_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_114 c arg1 harg1 x0 (ix1 n) = Cn x0 x1 n 9 0 2 := by
  delta kernelRun0_A.sl.r_114
  simp only [k0_pay256_apply c arg1 harg1 arg2 harg2 x0 x1]

theorem k0_pay350_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay350 (F := Ideal) (kernelRun0_A.sl.v2 c arg1 harg1 x0) (kernelRun0_A.sl.r_112 c arg1 harg1 x0) (kernelRun0_A.sl.r_113 c arg1 harg1 x0) (kernelRun0_A.sl.r_114 c arg1 harg1 x0) (kernelRun0_A.sl.r_162 c arg1 harg1 x0) (kernelRun0_A.sl.r_165 c arg1 harg1 x0) (ix1 n) = Cn x0 x1 n 14 0 0 := by
  refine Eq.trans ?_ (Cn_step x0 x1 n 14 9 (by decide) rfl (by decide) 0 0).symm
  unfold k0_pay350
  simp only [addf_apply, mulf_apply, r_112_apply c arg1 harg1 arg2 harg2 x0 x1, r_162_apply c arg1 harg1 arg2 harg2 x0 x1, r_113_apply c arg1 harg1 arg2 harg2 x0 x1, r_165_apply c arg1 harg1 arg2 harg2 x0 x1, r_114_apply c arg1 harg1 arg2 harg2 x0 x1, k0_pay347_apply c arg1 harg1 arg2 harg2 x0 x1]

theorem r_167_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_167 c arg1 harg1 x0 (ix1 n) = Cn x0 x1 n 14 0 0 := by
  delta kernelRun0_A.sl.r_167
  simp only [k0_pay350_apply c arg1 harg1 arg2 harg2 x0 x1]

theorem k0_pay351_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay351 (F := Ideal) (kernelRun0_A.sl.v2 c arg1 harg1 x0) (kernelRun0_A.sl.r_112 c arg1 harg1 x0) (kernelRun0_A.sl.r_113 c arg1 harg1 x0) (kernelRun0_A.sl.r_114 c arg1 harg1 x0) (kernelRun0_A.sl.r_163 c arg1 harg1 x0) (kernelRun0_A.sl.r_166 c arg1 harg1 x0) (ix1 n) = Cn x0 x1 n 14 0 1 := by
  refine Eq.trans ?_ (Cn_step x0 x1 n 14 9 (by decide) rfl (by decide) 0 1).symm
  unfold k0_pay351
  simp only [addf_apply, mulf_apply, r_112_apply c arg1 harg1 arg2 harg2 x0 x1, r_163_apply c arg1 harg1 arg2 harg2 x0 x1, r_113_apply c arg1 harg1 arg2 harg2 x0 x1, k0_pay345_apply c arg1 harg1 arg2 harg2 x0 x1, r_114_apply c arg1 harg1 arg2 harg2 x0 x1, k0_pay348_apply c arg1 harg1 arg2 harg2 x0 x1]

theorem r_168_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_168 c arg1 harg1 x0 (ix1 n) = Cn x0 x1 n 14 0 1 := by
  delta kernelRun0_A.sl.r_168
  simp only [k0_pay351_apply c arg1 harg1 arg2 harg2 x0 x1]

theorem k0_pay352_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay352 (F := Ideal) (kernelRun0_A.sl.v2 c arg1 harg1 x0) (kernelRun0_A.sl.r_112 c arg1 harg1 x0) (kernelRun0_A.sl.r_113 c arg1 harg1 x0) (kernelRun0_A.sl.r_114 c arg1 harg1 x0) (kernelRun0_A.sl.r_164 c arg1 harg1 x0) (ix1 n) = Cn x0 x1 n 14 0 2 := by
  refine Eq.trans ?_ (Cn_step x0 x1 n 14 9 (by decide) rfl (by decide) 0 2).symm
  unfold k0_pay352
  simp only [addf_apply, mulf_apply, r_112_apply c arg1 harg1 arg2 harg2 x0 x1, r_164_apply c arg1 harg1 arg2 harg2 x0 x1, r_113_apply c arg1 harg1 arg2 harg2 x0 x1, k0_pay346_apply c arg1 harg1 arg2 harg2 x0 x1, r_114_apply c arg1 harg1 arg2 harg2 x0 x1, k0_pay349_apply c arg1 harg1 arg2 harg2 x0 x1]

theorem r_169_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_169 c arg1 harg1 x0 (ix1 n) = Cn x0 x1 n 14 0 2 := by
  delta kernelRun0_A.sl.r_169
  simp only [k0_pay352_apply c arg1 harg1 arg2 harg2 x0 x1]

theorem k0_pay434_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay434 (F := Ideal) (kernelRun0_A.sl.v2 c arg1 harg1 x0) (kernelRun0_A.sl.r_167 c arg1 harg1 x0) (kernelRun0_A.sl.r_168 c arg1 harg1 x0) (kernelRun0_A.sl.r_169 c arg1 harg1 x0) (kernelRun0_A.sl.r_216 c arg1 harg1 x0) (kernelRun0_A.sl.r_219 c arg1 harg1 x0) (ix1 n) = Cn x0 x1 n 17 0 0 := by
  refine Eq.trans ?_ (Cn_step x0 x1 n 17 14 (by decide) rfl (by decide) 0 0).symm
  unfold k0_pay434
  simp only [addf_apply, mulf_apply, r_167_apply c arg1 harg1 arg2 harg2 x0 x1, r_216_apply c arg1 harg1 arg2 harg2 x0 x1, r_168_apply c arg1 harg1 arg2 harg2 x0 x1, r_219_apply c arg1 harg1 arg2 harg2 x0 x1, r_169_apply c arg1 harg1 arg2 harg2 x0 x1, k0_pay431_apply c arg1 harg1 arg2 harg2 x0 x1]

theorem r_221_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_221 c arg1 harg1 x0 (ix1 n) = Cn x0 x1 n 17 0 0 := by
  delta kernelRun0_A.sl.r_221
  simp only [k0_pay434_apply c arg1 harg1 arg2 harg2 x0 x1]

theorem k0_pay435_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay435 (F := Ideal) (kernelRun0_A.sl.v2 c arg1 harg1 x0) (kernelRun0_A.sl.r_167 c arg1 harg1 x0) (kernelRun0_A.sl.r_168 c arg1 harg1 x0) (kernelRun0_A.sl.r_169 c arg1 harg1 x0) (kernelRun0_A.sl.r_217 c arg1 harg1 x0) (kernelRun0_A.sl.r_220 c arg1 harg1 x0) (ix1 n) = Cn x0 x1 n 17 0 1 := by
  refine Eq.trans ?_ (Cn_step x0 x1 n 17 14 (by decide) rfl (by decide) 0 1).symm
  unfold k0_pay435
  simp only [addf_apply, mulf_apply, r_167_apply c arg1 harg1 arg2 harg2 x0 x1, r_217_apply c arg1 harg1 arg2 harg2 x0 x1, r_168_apply c arg1 harg1 arg2 harg2 x0 x1, k0_pay429_apply c arg1 harg1 arg2 harg2 x0 x1, r_169_apply c arg1 harg1 arg2 harg2 x0 x1, k0_pay432_apply c arg1 harg1 arg2 harg2 x0 x1]

theorem r_222_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_222 c arg1 harg1 x0 (ix1 n) = Cn x0 x1 n 17 0 1 := by
  delta kernelRun0_A.sl.r_222
  simp only [k0_pay435_apply c arg1 harg1 arg2 harg2 x0 x1]

theorem k0_pay436_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay436 (F := Ideal) (kernelRun0_A.sl.v2 c arg1 harg1 x0) (kernelRun0_A.sl.r_167 c arg1 harg1 x0) (kernelRun0_A.sl.r_168 c arg1 harg1 x0) (kernelRun0_A.sl.r_169 c arg1 harg1 x0) (kernelRun0_A.sl.r_218 c arg1 harg1 x0) (ix1 n) = Cn x0 x1 n 17 0 2 := by
  refine Eq.trans ?_ (Cn_step x0 x1 n 17 14 (by decide) rfl (by decide) 0 2).symm
  unfold k0_pay436
  simp only [addf_apply, mulf_apply, r_167_apply c arg1 harg1 arg2 harg2 x0 x1, r_218_apply c arg1 harg1 arg2 harg2 x0 x1, r_168_apply c arg1 harg1 arg2 harg2 x0 x1, k0_pay430_apply c arg1 harg1 arg2 harg2 x0 x1, r_169_apply c arg1 harg1 arg2 harg2 x0 x1, k0_pay433_apply c arg1 harg1 arg2 harg2 x0 x1]

theorem r_223_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_223 c arg1 harg1 x0 (ix1 n) = Cn x0 x1 n 17 0 2 := by
  delta kernelRun0_A.sl.r_223
  simp only [k0_pay436_apply c arg1 harg1 arg2 harg2 x0 x1]

theorem k0_pay490_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay490 (F := Ideal) (kernelRun0_A.sl.v2 c arg1 harg1 x0) (kernelRun0_A.sl.r_221 c arg1 harg1 x0) (kernelRun0_A.sl.r_222 c arg1 harg1 x0) (kernelRun0_A.sl.r_223 c arg1 harg1 x0) (kernelRun0_A.sl.r_252 c arg1 harg1 x0) (kernelRun0_A.sl.r_255 c arg1 harg1 x0) (ix1 n) = Cn x0 x1 n 19 0 0 := by
  refine Eq.trans ?_ (Cn_step x0 x1 n 19 17 (by decide) rfl (by decide) 0 0).symm
  unfold k0_pay490
  simp only [addf_apply, mulf_apply, r_221_apply c arg1 harg1 arg2 harg2 x0 x1, r_252_apply c arg1 harg1 arg2 harg2 x0 x1, r_222_apply c arg1 harg1 arg2 harg2 x0 x1, r_255_apply c arg1 harg1 arg2 harg2 x0 x1, r_223_apply c arg1 harg1 arg2 harg2 x0 x1, k0_pay487_apply c arg1 harg1 arg2 harg2 x0 x1]

theorem r_257_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_257 c arg1 harg1 x0 (ix1 n) = Cn x0 x1 n 19 0 0 := by
  delta kernelRun0_A.sl.r_257
  simp only [k0_pay490_apply c arg1 harg1 arg2 harg2 x0 x1]

theorem k0_pay491_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay491 (F := Ideal) (kernelRun0_A.sl.v2 c arg1 harg1 x0) (kernelRun0_A.sl.r_221 c arg1 harg1 x0) (kernelRun0_A.sl.r_222 c arg1 harg1 x0) (kernelRun0_A.sl.r_223 c arg1 harg1 x0) (kernelRun0_A.sl.r_253 c arg1 harg1 x0) (kernelRun0_A.sl.r_256 c arg1 harg1 x0) (ix1 n) = Cn x0 x1 n 19 0 1 := by
  refine Eq.trans ?_ (Cn_step x0 x1 n 19 17 (by decide) rfl (by decide) 0 1).symm
  unfold k0_pay491
  simp only [addf_apply, mulf_apply, r_221_apply c arg1 harg1 arg2 harg2 x0 x1, r_253_apply c arg1 harg1 arg2 harg2 x0 x1, r_222_apply c arg1 harg1 arg2 harg2 x0 x1, k0_pay485_apply c arg1 harg1 arg2 harg2 x0 x1, r_223_apply c arg1 harg1 arg2 harg2 x0 x1, k0_pay488_apply c arg1 harg1 arg2 harg2 x0 x1]

theorem r_258_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_258 c arg1 harg1 x0 (ix1 n) = Cn x0 x1 n 19 0 1 := by
  delta kernelRun0_A.sl.r_258
  simp only [k0_pay491_apply c arg1 harg1 arg2 harg2 x0 x1]

theorem k0_pay492_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay492 (F := Ideal) (kernelRun0_A.sl.v2 c arg1 harg1 x0) (kernelRun0_A.sl.r_221 c arg1 harg1 x0) (kernelRun0_A.sl.r_222 c arg1 harg1 x0) (kernelRun0_A.sl.r_223 c arg1 harg1 x0) (kernelRun0_A.sl.r_254 c arg1 harg1 x0) (ix1 n) = Cn x0 x1 n 19 0 2 := by
  refine Eq.trans ?_ (Cn_step x0 x1 n 19 17 (by decide) rfl (by decide) 0 2).symm
  unfold k0_pay492
  simp only [addf_apply, mulf_apply, r_221_apply c arg1 harg1 arg2 harg2 x0 x1, r_254_apply c arg1 harg1 arg2 harg2 x0 x1, r_222_apply c arg1 harg1 arg2 harg2 x0 x1, k0_pay486_apply c arg1 harg1 arg2 harg2 x0 x1, r_223_apply c arg1 harg1 arg2 harg2 x0 x1, k0_pay489_apply c arg1 harg1 arg2 harg2 x0 x1]

theorem r_259_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_259 c arg1 harg1 x0 (ix1 n) = Cn x0 x1 n 19 0 2 := by
  delta kernelRun0_A.sl.r_259
  simp only [k0_pay492_apply c arg1 harg1 arg2 harg2 x0 x1]

theorem k0_pay546_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay546 (F := Ideal) (kernelRun0_A.sl.v2 c arg1 harg1 x0) (kernelRun0_A.sl.r_257 c arg1 harg1 x0) (kernelRun0_A.sl.r_258 c arg1 harg1 x0) (kernelRun0_A.sl.r_259 c arg1 harg1 x0) (kernelRun0_A.sl.r_288 c arg1 harg1 x0) (kernelRun0_A.sl.r_291 c arg1 harg1 x0) (ix1 n) = Cn x0 x1 n 21 0 0 := by
  refine Eq.trans ?_ (Cn_step x0 x1 n 21 19 (by decide) rfl (by decide) 0 0).symm
  unfold k0_pay546
  simp only [addf_apply, mulf_apply, r_257_apply c arg1 harg1 arg2 harg2 x0 x1, r_288_apply c arg1 harg1 arg2 harg2 x0 x1, r_258_apply c arg1 harg1 arg2 harg2 x0 x1, r_291_apply c arg1 harg1 arg2 harg2 x0 x1, r_259_apply c arg1 harg1 arg2 harg2 x0 x1, k0_pay543_apply c arg1 harg1 arg2 harg2 x0 x1]

theorem r_293_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_293 c arg1 harg1 x0 (ix1 n) = Cn x0 x1 n 21 0 0 := by
  delta kernelRun0_A.sl.r_293
  simp only [k0_pay546_apply c arg1 harg1 arg2 harg2 x0 x1]

theorem k0_pay547_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay547 (F := Ideal) (kernelRun0_A.sl.v2 c arg1 harg1 x0) (kernelRun0_A.sl.r_257 c arg1 harg1 x0) (kernelRun0_A.sl.r_258 c arg1 harg1 x0) (kernelRun0_A.sl.r_259 c arg1 harg1 x0) (kernelRun0_A.sl.r_289 c arg1 harg1 x0) (kernelRun0_A.sl.r_292 c arg1 harg1 x0) (ix1 n) = Cn x0 x1 n 21 0 1 := by
  refine Eq.trans ?_ (Cn_step x0 x1 n 21 19 (by decide) rfl (by decide) 0 1).symm
  unfold k0_pay547
  simp only [addf_apply, mulf_apply, r_257_apply c arg1 harg1 arg2 harg2 x0 x1, r_289_apply c arg1 harg1 arg2 harg2 x0 x1, r_258_apply c arg1 harg1 arg2 harg2 x0 x1, k0_pay541_apply c arg1 harg1 arg2 harg2 x0 x1, r_259_apply c arg1 harg1 arg2 harg2 x0 x1, k0_pay544_apply c arg1 harg1 arg2 harg2 x0 x1]

theorem r_294_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_294 c arg1 harg1 x0 (ix1 n) = Cn x0 x1 n 21 0 1 := by
  delta kernelRun0_A.sl.r_294
  simp only [k0_pay547_apply c arg1 harg1 arg2 harg2 x0 x1]

theorem k0_pay548_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay548 (F := Ideal) (kernelRun0_A.sl.v2 c arg1 harg1 x0) (kernelRun0_A.sl.r_257 c arg1 harg1 x0) (kernelRun0_A.sl.r_258 c arg1 harg1 x0) (kernelRun0_A.sl.r_259 c arg1 harg1 x0) (kernelRun0_A.sl.r_290 c arg1 harg1 x0) (ix1 n) = Cn x0 x1 n 21 0 2 := by
  refine Eq.trans ?_ (Cn_step x0 x1 n 21 19 (by decide) rfl (by decide) 0 2).symm
  unfold k0_pay548
  simp only [addf_apply, mulf_apply, r_257_apply c arg1 harg1 arg2 harg2 x0 x1, r_290_apply c arg1 harg1 arg2 harg2 x0 x1, r_258_apply c arg1 harg1 arg2 harg2 x0 x1, k0_pay542_apply c arg1 harg1 arg2 harg2 x0 x1, r_259_apply c arg1 harg1 arg2 harg2 x0 x1, k0_pay545_apply c arg1 harg1 arg2 harg2 x0 x1]

theorem r_295_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_295 c arg1 harg1 x0 (ix1 n) = Cn x0 x1 n 21 0 2 := by
  delta kernelRun0_A.sl.r_295
  simp only [k0_pay548_apply c arg1 harg1 arg2 harg2 x0 x1]

theorem v22_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.v22 c arg2 harg2 x1 = Of x1 0 0 := by
  delta kernelRun0_A.sl.v22
  simp only [rel_read x1 arg2 harg2 0 0 (0 : Fin 3) rfl (by decide)]

theorem v23_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v23 c arg2 harg2 x1 (ix1 n) = Pn x0 x1 n 0 0 := by
  refine Eq.trans ?_ (Pn_zero x0 x1 n 0).symm
  delta kernelRun0_A.sl.v23
  simp only [broadcast_apply, v22_apply c arg1 harg1 arg2 harg2 x0 x1]

theorem k0_pay98_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay98 (F := Ideal) (kernelRun0_A.sl.v4 c arg1 harg1 x0) (kernelRun0_A.sl.v6 c arg1 harg1 x0) (kernelRun0_A.sl.v8 c arg1 harg1 x0) (kernelRun0_A.sl.v23 c arg2 harg2 x1) (View.readAt (Elt Ideal) arg2.view (Rect.unit (s := S3x55) ![0, 3] S1x1.size inb_S3x55_S1x1_0_3).toLoadRect (harg2.unread x1)) (View.readAt (Elt Ideal) arg2.view (Rect.unit (s := S3x55) ![1, 3] S1x1.size inb_S3x55_S1x1_1_3).toLoadRect (harg2.unread x1)) (View.readAt (Elt Ideal) arg2.view (Rect.unit (s := S3x55) ![2, 3] S1x1.size inb_S3x55_S1x1_2_3).toLoadRect (harg2.unread x1)) (ix1 n) = Pn x0 x1 n 3 0 := by
  refine Eq.trans ?_ (Pn_step x0 x1 n 3 0 (by decide) rfl 0).symm
  unfold k0_pay98
  simp only [addf_apply, mulf_apply, v4_apply c arg1 harg1 arg2 harg2 x0 x1, broadcast_apply, k0_pay95_apply c arg1 harg1 arg2 harg2 x0 x1, v6_apply c arg1 harg1 arg2 harg2 x0 x1, k0_pay96_apply c arg1 harg1 arg2 harg2 x0 x1, v8_apply c arg1 harg1 arg2 harg2 x0 x1, k0_pay97_apply c arg1 harg1 arg2 harg2 x0 x1, v23_apply c arg1 harg1 arg2 harg2 x0 x1]

theorem r_37_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_37 c arg1 harg1 arg2 harg2 x0 x1 (ix1 n) = Pn x0 x1 n 3 0 := by
  delta kernelRun0_A.sl.r_37
  simp only [k0_pay98_apply c arg1 harg1 arg2 harg2 x0 x1]

theorem k0_pay182_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay182 (F := Ideal) (kernelRun0_A.sl.r_28 c arg1 harg1 x0) (kernelRun0_A.sl.r_29 c arg1 harg1 x0) (kernelRun0_A.sl.r_30 c arg1 harg1 x0) (kernelRun0_A.sl.r_37 c arg1 harg1 arg2 harg2 x0 x1) (View.readAt (Elt Ideal) arg2.view (Rect.unit (s := S3x55) ![0, 6] S1x1.size inb_S3x55_S1x1_0_6).toLoadRect (harg2.unread x1)) (View.readAt (Elt Ideal) arg2.view (Rect.unit (s := S3x55) ![1, 6] S1x1.size inb_S3x55_S1x1_1_6).toLoadRect (harg2.unread x1)) (View.readAt (Elt Ideal) arg2.view (Rect.unit (s := S3x55) ![2, 6] S1x1.size inb_S3x55_S1x1_2_6).toLoadRect (harg2.unread x1)) (ix1 n) = Pn x0 x1 n 6 0 := by
  refine Eq.trans ?_ (Pn_step x0 x1 n 6 3 (by decide) rfl 0).symm
  unfold k0_pay182
  simp only [addf_apply, mulf_apply, r_28_apply c arg1 harg1 arg2 harg2 x0 x1, broadcast_apply, k0_pay179_apply c arg1 harg1 arg2 harg2 x0 x1, r_29_apply c arg1 harg1 arg2 harg2 x0 x1, k0_pay180_apply c arg1 harg1 arg2 harg2 x0 x1, r_30_apply c arg1 harg1 arg2 harg2 x0 x1, k0_pay181_apply c arg1 harg1 arg2 harg2 x0 x1, r_37_apply c arg1 harg1 arg2 harg2 x0 x1]

theorem r_79_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_79 c arg1 harg1 arg2 harg2 x0 x1 (ix1 n) = Pn x0 x1 n 6 0 := by
  delta kernelRun0_A.sl.r_79
  simp only [k0_pay182_apply c arg1 harg1 arg2 harg2 x0 x1]

theorem k0_pay266_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay266 (F := Ideal) (kernelRun0_A.sl.r_70 c arg1 harg1 x0) (kernelRun0_A.sl.r_71 c arg1 harg1 x0) (kernelRun0_A.sl.r_72 c arg1 harg1 x0) (kernelRun0_A.sl.r_79 c arg1 harg1 arg2 harg2 x0 x1) (View.readAt (Elt Ideal) arg2.view (Rect.unit (s := S3x55) ![0, 9] S1x1.size inb_S3x55_S1x1_0_9).toLoadRect (harg2.unread x1)) (View.readAt (Elt Ideal) arg2.view (Rect.unit (s := S3x55) ![1, 9] S1x1.size inb_S3x55_S1x1_1_9).toLoadRect (harg2.unread x1)) (View.readAt (Elt Ideal) arg2.view (Rect.unit (s := S3x55) ![2, 9] S1x1.size inb_S3x55_S1x1_2_9).toLoadRect (harg2.unread x1)) (ix1 n) = Pn x0 x1 n 9 0 := by
  refine Eq.trans ?_ (Pn_step x0 x1 n 9 6 (by decide) rfl 0).symm
  unfold k0_pay266
  simp only [addf_apply, mulf_apply, r_70_apply c arg1 harg1 arg2 harg2 x0 x1, broadcast_apply, k0_pay263_apply c arg1 harg1 arg2 harg2 x0 x1, r_71_apply c arg1 harg1 arg2 harg2 x0 x1, k0_pay264_apply c arg1 harg1 arg2 harg2 x0 x1, r_72_apply c arg1 harg1 arg2 harg2 x0 x1, k0_pay265_apply c arg1 harg1 arg2 harg2 x0 x1, r_79_apply c arg1 harg1 arg2 harg2 x0 x1]

theorem r_121_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_121 c arg1 harg1 arg2 harg2 x0 x1 (ix1 n) = Pn x0 x1 n 9 0 := by
  delta kernelRun0_A.sl.r_121
  simp only [k0_pay266_apply c arg1 harg1 arg2 harg2 x0 x1]

theorem k0_pay362_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay362 (F := Ideal) (kernelRun0_A.sl.r_112 c arg1 harg1 x0) (kernelRun0_A.sl.r_113 c arg1 harg1 x0) (kernelRun0_A.sl.r_114 c arg1 harg1 x0) (kernelRun0_A.sl.r_121 c arg1 harg1 arg2 harg2 x0 x1) (kernelRun0_A.sl.r_176 c arg2 harg2 x1) (View.readAt (Elt Ideal) arg2.view (Rect.unit (s := S3x55) ![1, 14] S1x1.size inb_S3x55_S1x1_1_14).toLoadRect (harg2.unread x1)) (View.readAt (Elt Ideal) arg2.view (Rect.unit (s := S3x55) ![2, 14] S1x1.size inb_S3x55_S1x1_2_14).toLoadRect (harg2.unread x1)) (ix1 n) = Pn x0 x1 n 14 0 := by
  refine Eq.trans ?_ (Pn_step x0 x1 n 14 9 (by decide) rfl 0).symm
  unfold k0_pay362
  simp only [addf_apply, mulf_apply, r_112_apply c arg1 harg1 arg2 harg2 x0 x1, broadcast_apply, r_176_apply c arg1 harg1 arg2 harg2 x0 x1, r_113_apply c arg1 harg1 arg2 harg2 x0 x1, k0_pay360_apply c arg1 harg1 arg2 harg2 x0 x1, r_114_apply c arg1 harg1 arg2 harg2 x0 x1, k0_pay361_apply c arg1 harg1 arg2 harg2 x0 x1, r_121_apply c arg1 harg1 arg2 harg2 x0 x1]

theorem r_177_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_177 c arg1 harg1 arg2 harg2 x0 x1 (ix1 n) = Pn x0 x1 n 14 0 := by
  delta kernelRun0_A.sl.r_177
  simp only [k0_pay362_apply c arg1 harg1 arg2 harg2 x0 x1]

theorem k0_pay446_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay446 (F := Ideal) (kernelRun0_A.sl.r_167 c arg1 harg1 x0) (kernelRun0_A.sl.r_168 c arg1 harg1 x0) (kernelRun0_A.sl.r_169 c arg1 harg1 x0) (kernelRun0_A.sl.r_177 c arg1 harg1 arg2 harg2 x0 x1) (kernelRun0_A.sl.r_230 c arg2 harg2 x1) (View.readAt (Elt Ideal) arg2.view (Rect.unit (s := S3x55) ![1, 17] S1x1.size inb_S3x55_S1x1_1_17).toLoadRect (harg2.unread x1)) (View.readAt (Elt Ideal) arg2.view (Rect.unit (s := S3x55) ![2, 17] S1x1.size inb_S3x55_S1x1_2_17).toLoadRect (harg2.unread x1)) (ix1 n) = Pn x0 x1 n 17 0 := by
  refine Eq.trans ?_ (Pn_step x0 x1 n 17 14 (by decide) rfl 0).symm
  unfold k0_pay446
  simp only [addf_apply, mulf_apply, r_167_apply c arg1 harg1 arg2 harg2 x0 x1, broadcast_apply, r_230_apply c arg1 harg1 arg2 harg2 x0 x1, r_168_apply c arg1 harg1 arg2 harg2 x0 x1, k0_pay444_apply c arg1 harg1 arg2 harg2 x0 x1, r_169_apply c arg1 harg1 arg2 harg2 x0 x1, k0_pay445_apply c arg1 harg1 arg2 harg2 x0 x1, r_177_apply c arg1 harg1 arg2 harg2 x0 x1]

theorem r_231_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_231 c arg1 harg1 arg2 harg2 x0 x1 (ix1 n) = Pn x0 x1 n 17 0 := by
  delta kernelRun0_A.sl.r_231
  simp only [k0_pay446_apply c arg1 harg1 arg2 harg2 x0 x1]

theorem k0_pay502_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay502 (F := Ideal) (kernelRun0_A.sl.r_221 c arg1 harg1 x0) (kernelRun0_A.sl.r_222 c arg1 harg1 x0) (kernelRun0_A.sl.r_223 c arg1 harg1 x0) (kernelRun0_A.sl.r_231 c arg1 harg1 arg2 harg2 x0 x1) (kernelRun0_A.sl.r_266 c arg2 harg2 x1) (View.readAt (Elt Ideal) arg2.view (Rect.unit (s := S3x55) ![1, 19] S1x1.size inb_S3x55_S1x1_1_19).toLoadRect (harg2.unread x1)) (View.readAt (Elt Ideal) arg2.view (Rect.unit (s := S3x55) ![2, 19] S1x1.size inb_S3x55_S1x1_2_19).toLoadRect (harg2.unread x1)) (ix1 n) = Pn x0 x1 n 19 0 := by
  refine Eq.trans ?_ (Pn_step x0 x1 n 19 17 (by decide) rfl 0).symm
  unfold k0_pay502
  simp only [addf_apply, mulf_apply, r_221_apply c arg1 harg1 arg2 harg2 x0 x1, broadcast_apply, r_266_apply c arg1 harg1 arg2 harg2 x0 x1, r_222_apply c arg1 harg1 arg2 harg2 x0 x1, k0_pay500_apply c arg1 harg1 arg2 harg2 x0 x1, r_223_apply c arg1 harg1 arg2 harg2 x0 x1, k0_pay501_apply c arg1 harg1 arg2 harg2 x0 x1, r_231_apply c arg1 harg1 arg2 harg2 x0 x1]

theorem r_267_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_267 c arg1 harg1 arg2 harg2 x0 x1 (ix1 n) = Pn x0 x1 n 19 0 := by
  delta kernelRun0_A.sl.r_267
  simp only [k0_pay502_apply c arg1 harg1 arg2 harg2 x0 x1]

theorem k0_pay558_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay558 (F := Ideal) (kernelRun0_A.sl.r_257 c arg1 harg1 x0) (kernelRun0_A.sl.r_258 c arg1 harg1 x0) (kernelRun0_A.sl.r_259 c arg1 harg1 x0) (kernelRun0_A.sl.r_267 c arg1 harg1 arg2 harg2 x0 x1) (kernelRun0_A.sl.r_302 c arg2 harg2 x1) (View.readAt (Elt Ideal) arg2.view (Rect.unit (s := S3x55) ![1, 21] S1x1.size inb_S3x55_S1x1_1_21).toLoadRect (harg2.unread x1)) (View.readAt (Elt Ideal) arg2.view (Rect.unit (s := S3x55) ![2, 21] S1x1.size inb_S3x55_S1x1_2_21).toLoadRect (harg2.unread x1)) (ix1 n) = Pn x0 x1 n 21 0 := by
  refine Eq.trans ?_ (Pn_step x0 x1 n 21 19 (by decide) rfl 0).symm
  unfold k0_pay558
  simp only [addf_apply, mulf_apply, r_257_apply c arg1 harg1 arg2 harg2 x0 x1, broadcast_apply, r_302_apply c arg1 harg1 arg2 harg2 x0 x1, r_258_apply c arg1 harg1 arg2 harg2 x0 x1, k0_pay556_apply c arg1 harg1 arg2 harg2 x0 x1, r_259_apply c arg1 harg1 arg2 harg2 x0 x1, k0_pay557_apply c arg1 harg1 arg2 harg2 x0 x1, r_267_apply c arg1 harg1 arg2 harg2 x0 x1]

theorem r_303_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_303 c arg1 harg1 arg2 harg2 x0 x1 (ix1 n) = Pn x0 x1 n 21 0 := by
  delta kernelRun0_A.sl.r_303
  simp only [k0_pay558_apply c arg1 harg1 arg2 harg2 x0 x1]

theorem k0_pay835_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay835 (F := Ideal) (kernelRun0_A.sl.r_293 c arg1 harg1 x0) (kernelRun0_A.sl.r_294 c arg1 harg1 x0) (kernelRun0_A.sl.r_295 c arg1 harg1 x0) (kernelRun0_A.sl.r_303 c arg1 harg1 arg2 harg2 x0 x1) (View.readAt (Elt Ideal) arg2.view (Rect.unit (s := S3x55) ![0, 52] S1x1.size inb_S3x55_S1x1_0_52).toLoadRect (harg2.unread x1)) (View.readAt (Elt Ideal) arg2.view (Rect.unit (s := S3x55) ![1, 52] S1x1.size inb_S3x55_S1x1_1_52).toLoadRect (harg2.unread x1)) (View.readAt (Elt Ideal) arg2.view (Rect.unit (s := S3x55) ![2, 52] S1x1.size inb_S3x55_S1x1_2_52).toLoadRect (harg2.unread x1)) (ix1 n) = Pn x0 x1 n 52 0 := by
  refine Eq.trans ?_ (Pn_step x0 x1 n 52 21 (by decide) rfl 0).symm
  unfold k0_pay835
  simp only [addf_apply, mulf_apply, r_293_apply c arg1 harg1 arg2 harg2 x0 x1, broadcast_apply, k0_pay832_apply c arg1 harg1 arg2 harg2 x0 x1, r_294_apply c arg1 harg1 arg2 harg2 x0 x1, k0_pay833_apply c arg1 harg1 arg2 harg2 x0 x1, r_295_apply c arg1 harg1 arg2 harg2 x0 x1, k0_pay834_apply c arg1 harg1 arg2 harg2 x0 x1, r_303_apply c arg1 harg1 arg2 harg2 x0 x1]

theorem r_441_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_441 c arg1 harg1 arg2 harg2 x0 x1 (ix1 n) = Pn x0 x1 n 52 0 := by
  delta kernelRun0_A.sl.r_441
  simp only [k0_pay835_apply c arg1 harg1 arg2 harg2 x0 x1]

theorem k0_pay844_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay844 (F := Ideal) (kernelRun0_A.sl.r_293 c arg1 harg1 x0) (kernelRun0_A.sl.r_294 c arg1 harg1 x0) (kernelRun0_A.sl.r_295 c arg1 harg1 x0) (kernelRun0_A.sl.r_441 c arg1 harg1 arg2 harg2 x0 x1) (View.readAt (Elt Ideal) arg2.view (Rect.unit (s := S3x55) ![0, 53] S1x1.size inb_S3x55_S1x1_0_53).toLoadRect (harg2.unread x1)) (View.readAt (Elt Ideal) arg2.view (Rect.unit (s := S3x55) ![1, 53] S1x1.size inb_S3x55_S1x1_1_53).toLoadRect (harg2.unread x1)) (View.readAt (Elt Ideal) arg2.view (Rect.unit (s := S3x55) ![2, 53] S1x1.size inb_S3x55_S1x1_2_53).toLoadRect (harg2.unread x1)) (ix1 n) = Pn x0 x1 n 53 0 := by
  refine Eq.trans ?_ (Pn_step x0 x1 n 53 52 (by decide) rfl 0).symm
  unfold k0_pay844
  simp only [addf_apply, mulf_apply, r_293_apply c arg1 harg1 arg2 harg2 x0 x1, broadcast_apply, k0_pay841_apply c arg1 harg1 arg2 harg2 x0 x1, r_294_apply c arg1 harg1 arg2 harg2 x0 x1, k0_pay842_apply c arg1 harg1 arg2 harg2 x0 x1, r_295_apply c arg1 harg1 arg2 harg2 x0 x1, k0_pay843_apply c arg1 harg1 arg2 harg2 x0 x1, r_441_apply c arg1 harg1 arg2 harg2 x0 x1, Cn_anc_52 x0 x1 n]

theorem r_444_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_444 c arg1 harg1 arg2 harg2 x0 x1 (ix1 n) = Pn x0 x1 n 53 0 := by
  delta kernelRun0_A.sl.r_444
  simp only [k0_pay844_apply c arg1 harg1 arg2 harg2 x0 x1]

theorem k0_pay855_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay855 (F := Ideal) (kernelRun0_A.sl.r_293 c arg1 harg1 x0) (kernelRun0_A.sl.r_294 c arg1 harg1 x0) (kernelRun0_A.sl.r_295 c arg1 harg1 x0) (kernelRun0_A.sl.r_444 c arg1 harg1 arg2 harg2 x0 x1) (View.readAt (Elt Ideal) arg2.view (Rect.unit (s := S3x55) ![0, 54] S1x1.size inb_S3x55_S1x1_0_54).toLoadRect (harg2.unread x1)) (View.readAt (Elt Ideal) arg2.view (Rect.unit (s := S3x55) ![1, 54] S1x1.size inb_S3x55_S1x1_1_54).toLoadRect (harg2.unread x1)) (View.readAt (Elt Ideal) arg2.view (Rect.unit (s := S3x55) ![2, 54] S1x1.size inb_S3x55_S1x1_2_54).toLoadRect (harg2.unread x1)) (ix2 u n) = Pn x0 x1 n 54 0 := by
  refine Eq.trans ?_ (Pn_step x0 x1 n 54 53 (by decide) rfl 0).symm
  unfold k0_pay855
  simp only [shapeCast_a_1a_apply, addf_apply, mulf_apply, r_293_apply c arg1 harg1 arg2 harg2 x0 x1, broadcast_apply, k0_pay850_apply c arg1 harg1 arg2 harg2 x0 x1, r_294_apply c arg1 harg1 arg2 harg2 x0 x1, k0_pay851_apply c arg1 harg1 arg2 harg2 x0 x1, r_295_apply c arg1 harg1 arg2 harg2 x0 x1, k0_pay852_apply c arg1 harg1 arg2 harg2 x0 x1, r_444_apply c arg1 harg1 arg2 harg2 x0 x1, Cn_anc_53 x0 x1 n]

theorem k0_pay849_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay849 (F := Ideal) (kernelRun0_A.sl.r_446 c arg1 harg1 arg2 harg2 x0 x1) (ix2 u n) = Pn x0 x1 n 53 2 := by
  unfold k0_pay849
  simp only [shapeCast_a_1a_apply, r_446_apply c arg1 harg1 arg2 harg2 x0 x1]

theorem k0_pay848_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay848 (F := Ideal) (kernelRun0_A.sl.r_445 c arg1 harg1 arg2 harg2 x0 x1) (ix2 u n) = Pn x0 x1 n 53 1 := by
  unfold k0_pay848
  simp only [shapeCast_a_1a_apply, r_445_apply c arg1 harg1 arg2 harg2 x0 x1]

theorem k0_pay847_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay847 (F := Ideal) (kernelRun0_A.sl.r_444 c arg1 harg1 arg2 harg2 x0 x1) (ix2 u n) = Pn x0 x1 n 53 0 := by
  unfold k0_pay847
  simp only [shapeCast_a_1a_apply, r_444_apply c arg1 harg1 arg2 harg2 x0 x1]

theorem k0_pay840_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay840 (F := Ideal) (kernelRun0_A.sl.r_443 c arg1 harg1 arg2 harg2 x0 x1) (ix2 u n) = Pn x0 x1 n 52 2 := by
  unfold k0_pay840
  simp only [shapeCast_a_1a_apply, r_443_apply c arg1 harg1 arg2 harg2 x0 x1]

theorem k0_pay839_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay839 (F := Ideal) (kernelRun0_A.sl.r_442 c arg1 harg1 arg2 harg2 x0 x1) (ix2 u n) = Pn x0 x1 n 52 1 := by
  unfold k0_pay839
  simp only [shapeCast_a_1a_apply, r_442_apply c arg1 harg1 arg2 harg2 x0 x1]

theorem k0_pay838_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay838 (F := Ideal) (kernelRun0_A.sl.r_441 c arg1 harg1 arg2 harg2 x0 x1) (ix2 u n) = Pn x0 x1 n 52 0 := by
  unfold k0_pay838
  simp only [shapeCast_a_1a_apply, r_441_apply c arg1 harg1 arg2 harg2 x0 x1]

theorem k0_pay802_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay802 (F := Ideal) (View.readAt (Elt Ideal) arg2.view (Rect.unit (s := S3x55) ![0, 49] S1x1.size inb_S3x55_S1x1_0_49).toLoadRect (harg2.unread x1)) = Of x1 49 0 := by
  unfold k0_pay802
  simp only [rel_read x1 arg2 harg2 0 49 (0 : Fin 3) rfl (by decide)]

theorem r_425_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_425 c arg2 harg2 x1 = Of x1 49 0 := by
  delta kernelRun0_A.sl.r_425
  simp only [k0_pay802_apply c arg1 harg1 arg2 harg2 x0 x1]

theorem k0_pay803_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay803 (F := Ideal) (View.readAt (Elt Ideal) arg2.view (Rect.unit (s := S3x55) ![1, 49] S1x1.size inb_S3x55_S1x1_1_49).toLoadRect (harg2.unread x1)) = Of x1 49 1 := by
  unfold k0_pay803
  simp only [rel_read x1 arg2 harg2 1 49 (1 : Fin 3) rfl (by decide)]

theorem r_426_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_426 c arg2 harg2 x1 = Of x1 49 1 := by
  delta kernelRun0_A.sl.r_426
  simp only [k0_pay803_apply c arg1 harg1 arg2 harg2 x0 x1]

theorem k0_pay804_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay804 (F := Ideal) (View.readAt (Elt Ideal) arg2.view (Rect.unit (s := S3x55) ![2, 49] S1x1.size inb_S3x55_S1x1_2_49).toLoadRect (harg2.unread x1)) = Of x1 49 2 := by
  unfold k0_pay804
  simp only [rel_read x1 arg2 harg2 2 49 (2 : Fin 3) rfl (by decide)]

theorem r_427_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_427 c arg2 harg2 x1 = Of x1 49 2 := by
  delta kernelRun0_A.sl.r_427
  simp only [k0_pay804_apply c arg1 harg1 arg2 harg2 x0 x1]

theorem k0_pay807_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay807 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_425 c arg2 harg2 x1) (kernelRun0_A.sl.r_426 c arg2 harg2 x1) (kernelRun0_A.sl.r_427 c arg2 harg2 x1) (ix1 n) = Pn x0 x1 n 49 2 := by
  refine Eq.trans ?_ (Pn_step x0 x1 n 49 21 (by decide) rfl 2).symm
  unfold k0_pay807
  simp only [addf_apply, mulf_apply, r_299_apply c arg1 harg1 arg2 harg2 x0 x1, broadcast_apply, r_425_apply c arg1 harg1 arg2 harg2 x0 x1, r_300_apply c arg1 harg1 arg2 harg2 x0 x1, r_426_apply c arg1 harg1 arg2 harg2 x0 x1, r_301_apply c arg1 harg1 arg2 harg2 x0 x1, r_427_apply c arg1 harg1 arg2 harg2 x0 x1, r_305_apply c arg1 harg1 arg2 harg2 x0 x1]

theorem r_430_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_430 c arg1 harg1 arg2 harg2 x0 x1 (ix1 n) = Pn x0 x1 n 49 2 := by
  delta kernelRun0_A.sl.r_430
  simp only [k0_pay807_apply c arg1 harg1 arg2 harg2 x0 x1]

theorem k0_pay813_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay813 (F := Ideal) (View.readAt (Elt Ideal) arg2.view (Rect.unit (s := S3x55) ![2, 50] S1x1.size inb_S3x55_S1x1_2_50).toLoadRect (harg2.unread x1)) = Of x1 50 2 := by
  unfold k0_pay813
  simp only [rel_read x1 arg2 harg2 2 50 (2 : Fin 3) rfl (by decide)]

theorem r_431_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_431 c arg2 harg2 x1 = Of x1 50 2 := by
  delta kernelRun0_A.sl.r_431
  simp only [k0_pay813_apply c arg1 harg1 arg2 harg2 x0 x1]

theorem k0_pay811_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay811 (F := Ideal) (View.readAt (Elt Ideal) arg2.view (Rect.unit (s := S3x55) ![0, 50] S1x1.size inb_S3x55_S1x1_0_50).toLoadRect (harg2.unread x1)) = Of x1 50 0 := by
  unfold k0_pay811
  simp only [rel_read x1 arg2 harg2 0 50 (0 : Fin 3) rfl (by decide)]

theorem k0_pay816_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay816 (F := Ideal) (kernelRun0_A.sl.r_299 c arg1 harg1 x0) (View.readAt (Elt Ideal) arg2.view (Rect.unit (s := S3x55) ![0, 50] S1x1.size inb_S3x55_S1x1_0_50).toLoadRect (harg2.unread x1)) (ix1 n) = (Cn x0 x1 n 21 2 0 * Of x1 50 0) := by
  unfold k0_pay816
  simp only [mulf_apply, r_299_apply c arg1 harg1 arg2 harg2 x0 x1, broadcast_apply, k0_pay811_apply c arg1 harg1 arg2 harg2 x0 x1]

theorem r_434_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_434 c arg1 harg1 arg2 harg2 x0 x1 (ix1 n) = (Cn x0 x1 n 21 2 0 * Of x1 50 0) := by
  delta kernelRun0_A.sl.r_434
  simp only [k0_pay816_apply c arg1 harg1 arg2 harg2 x0 x1]

theorem k0_pay812_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay812 (F := Ideal) (View.readAt (Elt Ideal) arg2.view (Rect.unit (s := S3x55) ![1, 50] S1x1.size inb_S3x55_S1x1_1_50).toLoadRect (harg2.unread x1)) = Of x1 50 1 := by
  unfold k0_pay812
  simp only [rel_read x1 arg2 harg2 1 50 (1 : Fin 3) rfl (by decide)]

theorem k0_pay817_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay817 (F := Ideal) (View.readAt (Elt Ideal) arg2.view (Rect.unit (s := S3x55) ![1, 50] S1x1.size inb_S3x55_S1x1_1_50).toLoadRect (harg2.unread x1)) (ix1 n) = Of x1 50 1 := by
  unfold k0_pay817
  simp only [broadcast_apply, k0_pay812_apply c arg1 harg1 arg2 harg2 x0 x1]

theorem r_435_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_435 c arg2 harg2 x1 (ix1 n) = Of x1 50 1 := by
  delta kernelRun0_A.sl.r_435
  simp only [k0_pay817_apply c arg1 harg1 arg2 harg2 x0 x1]

theorem k0_pay818_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay818 (F := Ideal) (kernelRun0_A.sl.r_300 c arg1 harg1 x0) (kernelRun0_A.sl.r_301 c arg1 harg1 x0) (kernelRun0_A.sl.r_430 c arg1 harg1 arg2 harg2 x0 x1) (kernelRun0_A.sl.r_431 c arg2 harg2 x1) (kernelRun0_A.sl.r_434 c arg1 harg1 arg2 harg2 x0 x1) (kernelRun0_A.sl.r_435 c arg2 harg2 x1) (ix1 n) = Pn x0 x1 n 50 2 := by
  refine Eq.trans ?_ (Pn_step x0 x1 n 50 49 (by decide) rfl 2).symm
  unfold k0_pay818
  simp only [addf_apply, r_434_apply c arg1 harg1 arg2 harg2 x0 x1, mulf_apply, r_300_apply c arg1 harg1 arg2 harg2 x0 x1, r_435_apply c arg1 harg1 arg2 harg2 x0 x1, r_301_apply c arg1 harg1 arg2 harg2 x0 x1, broadcast_apply, r_431_apply c arg1 harg1 arg2 harg2 x0 x1, r_430_apply c arg1 harg1 arg2 harg2 x0 x1, Cn_anc_49 x0 x1 n]

theorem r_436_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_436 c arg1 harg1 arg2 harg2 x0 x1 (ix1 n) = Pn x0 x1 n 50 2 := by
  delta kernelRun0_A.sl.r_436
  simp only [k0_pay818_apply c arg1 harg1 arg2 harg2 x0 x1]

theorem k0_pay822_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay822 (F := Ideal) (View.readAt (Elt Ideal) arg2.view (Rect.unit (s := S3x55) ![0, 51] S1x1.size inb_S3x55_S1x1_0_51).toLoadRect (harg2.unread x1)) = Of x1 51 0 := by
  unfold k0_pay822
  simp only [rel_read x1 arg2 harg2 0 51 (0 : Fin 3) rfl (by decide)]

theorem k0_pay823_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay823 (F := Ideal) (View.readAt (Elt Ideal) arg2.view (Rect.unit (s := S3x55) ![1, 51] S1x1.size inb_S3x55_S1x1_1_51).toLoadRect (harg2.unread x1)) = Of x1 51 1 := by
  unfold k0_pay823
  simp only [rel_read x1 arg2 harg2 1 51 (1 : Fin 3) rfl (by decide)]

theorem k0_pay827_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay827 (F := Ideal) (kernelRun0_A.sl.r_299 c arg1 harg1 x0) (kernelRun0_A.sl.r_300 c arg1 harg1 x0) (View.readAt (Elt Ideal) arg2.view (Rect.unit (s := S3x55) ![0, 51] S1x1.size inb_S3x55_S1x1_0_51).toLoadRect (harg2.unread x1)) (View.readAt (Elt Ideal) arg2.view (Rect.unit (s := S3x55) ![1, 51] S1x1.size inb_S3x55_S1x1_1_51).toLoadRect (harg2.unread x1)) (ix1 n) = ((Cn x0 x1 n 21 2 0 * Of x1 51 0) + (Cn x0 x1 n 21 2 1 * Of x1 51 1)) := by
  unfold k0_pay827
  simp only [addf_apply, mulf_apply, r_299_apply c arg1 harg1 arg2 harg2 x0 x1, broadcast_apply, k0_pay822_apply c arg1 harg1 arg2 harg2 x0 x1, r_300_apply c arg1 harg1 arg2 harg2 x0 x1, k0_pay823_apply c arg1 harg1 arg2 harg2 x0 x1]

theorem r_439_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_439 c arg1 harg1 arg2 harg2 x0 x1 (ix1 n) = ((Cn x0 x1 n 21 2 0 * Of x1 51 0) + (Cn x0 x1 n 21 2 1 * Of x1 51 1)) := by
  delta kernelRun0_A.sl.r_439
  simp only [k0_pay827_apply c arg1 harg1 arg2 harg2 x0 x1]

theorem k0_pay824_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay824 (F := Ideal) (View.readAt (Elt Ideal) arg2.view (Rect.unit (s := S3x55) ![2, 51] S1x1.size inb_S3x55_S1x1_2_51).toLoadRect (harg2.unread x1)) = Of x1 51 2 := by
  unfold k0_pay824
  simp only [rel_read x1 arg2 harg2 2 51 (2 : Fin 3) rfl (by decide)]

theorem k0_pay828_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay828 (F := Ideal) (View.readAt (Elt Ideal) arg2.view (Rect.unit (s := S3x55) ![2, 51] S1x1.size inb_S3x55_S1x1_2_51).toLoadRect (harg2.unread x1)) (ix1 n) = Of x1 51 2 := by
  unfold k0_pay828
  simp only [broadcast_apply, k0_pay824_apply c arg1 harg1 arg2 harg2 x0 x1]

theorem r_440_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_440 c arg2 harg2 x1 (ix1 n) = Of x1 51 2 := by
  delta kernelRun0_A.sl.r_440
  simp only [k0_pay828_apply c arg1 harg1 arg2 harg2 x0 x1]

theorem k0_pay831_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay831 (F := Ideal) (kernelRun0_A.sl.r_301 c arg1 harg1 x0) (kernelRun0_A.sl.r_436 c arg1 harg1 arg2 harg2 x0 x1) (kernelRun0_A.sl.r_439 c arg1 harg1 arg2 harg2 x0 x1) (kernelRun0_A.sl.r_440 c arg2 harg2 x1) (ix2 u n) = Pn x0 x1 n 51 2 := by
  refine Eq.trans ?_ (Pn_step x0 x1 n 51 50 (by decide) rfl 2).symm
  unfold k0_pay831
  simp only [shapeCast_a_1a_apply, addf_apply, r_439_apply c arg1 harg1 arg2 harg2 x0 x1, mulf_apply, r_301_apply c arg1 harg1 arg2 harg2 x0 x1, r_440_apply c arg1 harg1 arg2 harg2 x0 x1, r_436_apply c arg1 harg1 arg2 harg2 x0 x1, Cn_anc_50 x0 x1 n]

theorem k0_pay806_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay806 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (View.readAt (Elt Ideal) arg2.view (Rect.unit (s := S3x55) ![0, 49] S1x1.size inb_S3x55_S1x1_0_49).toLoadRect (harg2.unread x1)) (View.readAt (Elt Ideal) arg2.view (Rect.unit (s := S3x55) ![1, 49] S1x1.size inb_S3x55_S1x1_1_49).toLoadRect (harg2.unread x1)) (View.readAt (Elt Ideal) arg2.view (Rect.unit (s := S3x55) ![2, 49] S1x1.size inb_S3x55_S1x1_2_49).toLoadRect (harg2.unread x1)) (ix1 n) = Pn x0 x1 n 49 1 := by
  refine Eq.trans ?_ (Pn_step x0 x1 n 49 21 (by decide) rfl 1).symm
  unfold k0_pay806
  simp only [addf_apply, mulf_apply, r_296_apply c arg1 harg1 arg2 harg2 x0 x1, broadcast_apply, k0_pay802_apply c arg1 harg1 arg2 harg2 x0 x1, r_297_apply c arg1 harg1 arg2 harg2 x0 x1, k0_pay803_apply c arg1 harg1 arg2 harg2 x0 x1, r_298_apply c arg1 harg1 arg2 harg2 x0 x1, k0_pay804_apply c arg1 harg1 arg2 harg2 x0 x1, r_304_apply c arg1 harg1 arg2 harg2 x0 x1]

theorem r_429_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_429 c arg1 harg1 arg2 harg2 x0 x1 (ix1 n) = Pn x0 x1 n 49 1 := by
  delta kernelRun0_A.sl.r_429
  simp only [k0_pay806_apply c arg1 harg1 arg2 harg2 x0 x1]

theorem k0_pay815_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay815 (F := Ideal) (kernelRun0_A.sl.r_296 c arg1 harg1 x0) (kernelRun0_A.sl.r_297 c arg1 harg1 x0) (kernelRun0_A.sl.r_298 c arg1 harg1 x0) (kernelRun0_A.sl.r_429 c arg1 harg1 arg2 harg2 x0 x1) (View.readAt (Elt Ideal) arg2.view (Rect.unit (s := S3x55) ![0, 50] S1x1.size inb_S3x55_S1x1_0_50).toLoadRect (harg2.unread x1)) (View.readAt (Elt Ideal) arg2.view (Rect.unit (s := S3x55) ![1, 50] S1x1.size inb_S3x55_S1x1_1_50).toLoadRect (harg2.unread x1)) (View.readAt (Elt Ideal) arg2.view (Rect.unit (s := S3x55) ![2, 50] S1x1.size inb_S3x55_S1x1_2_50).toLoadRect (harg2.unread x1)) (ix1 n) = Pn x0 x1 n 50 1 := by
  refine Eq.trans ?_ (Pn_step x0 x1 n 50 49 (by decide) rfl 1).symm
  unfold k0_pay815
  simp only [addf_apply, mulf_apply, r_296_apply c arg1 harg1 arg2 harg2 x0 x1, broadcast_apply, k0_pay811_apply c arg1 harg1 arg2 harg2 x0 x1, r_297_apply c arg1 harg1 arg2 harg2 x0 x1, k0_pay812_apply c arg1 harg1 arg2 harg2 x0 x1, r_298_apply c arg1 harg1 arg2 harg2 x0 x1, k0_pay813_apply c arg1 harg1 arg2 harg2 x0 x1, r_429_apply c arg1 harg1 arg2 harg2 x0 x1, Cn_anc_49 x0 x1 n]

theorem r_433_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_433 c arg1 harg1 arg2 harg2 x0 x1 (ix1 n) = Pn x0 x1 n 50 1 := by
  delta kernelRun0_A.sl.r_433
  simp only [k0_pay815_apply c arg1 harg1 arg2 harg2 x0 x1]

theorem k0_pay826_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay826 (F := Ideal) (kernelRun0_A.sl.r_296 c arg1 harg1 x0) (kernelRun0_A.sl.r_297 c arg1 harg1 x0) (kernelRun0_A.sl.r_298 c arg1 harg1 x0) (kernelRun0_A.sl.r_433 c arg1 harg1 arg2 harg2 x0 x1) (View.readAt (Elt Ideal) arg2.view (Rect.unit (s := S3x55) ![0, 51] S1x1.size inb_S3x55_S1x1_0_51).toLoadRect (harg2.unread x1)) (View.readAt (Elt Ideal) arg2.view (Rect.unit (s := S3x55) ![1, 51] S1x1.size inb_S3x55_S1x1_1_51).toLoadRect (harg2.unread x1)) (View.readAt (Elt Ideal) arg2.view (Rect.unit (s := S3x55) ![2, 51] S1x1.size inb_S3x55_S1x1_2_51).toLoadRect (harg2.unread x1)) (ix1 n) = Pn x0 x1 n 51 1 := by
  refine Eq.trans ?_ (Pn_step x0 x1 n 51 50 (by decide) rfl 1).symm
  unfold k0_pay826
  simp only [addf_apply, mulf_apply, r_296_apply c arg1 harg1 arg2 harg2 x0 x1, broadcast_apply, k0_pay822_apply c arg1 harg1 arg2 harg2 x0 x1, r_297_apply c arg1 harg1 arg2 harg2 x0 x1, k0_pay823_apply c arg1 harg1 arg2 harg2 x0 x1, r_298_apply c arg1 harg1 arg2 harg2 x0 x1, k0_pay824_apply c arg1 harg1 arg2 harg2 x0 x1, r_433_apply c arg1 harg1 arg2 harg2 x0 x1, Cn_anc_50 x0 x1 n]

theorem r_438_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_438 c arg1 harg1 arg2 harg2 x0 x1 (ix1 n) = Pn x0 x1 n 51 1 := by
  delta kernelRun0_A.sl.r_438
  simp only [k0_pay826_apply c arg1 harg1 arg2 harg2 x0 x1]

theorem k0_pay830_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay830 (F := Ideal) (kernelRun0_A.sl.r_438 c arg1 harg1 arg2 harg2 x0 x1) (ix2 u n) = Pn x0 x1 n 51 1 := by
  unfold k0_pay830
  simp only [shapeCast_a_1a_apply, r_438_apply c arg1 harg1 arg2 harg2 x0 x1]

theorem k0_pay805_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay805 (F := Ideal) (kernelRun0_A.sl.r_293 c arg1 harg1 x0) (kernelRun0_A.sl.r_294 c arg1 harg1 x0) (kernelRun0_A.sl.r_295 c arg1 harg1 x0) (kernelRun0_A.sl.r_303 c arg1 harg1 arg2 harg2 x0 x1) (View.readAt (Elt Ideal) arg2.view (Rect.unit (s := S3x55) ![0, 49] S1x1.size inb_S3x55_S1x1_0_49).toLoadRect (harg2.unread x1)) (View.readAt (Elt Ideal) arg2.view (Rect.unit (s := S3x55) ![1, 49] S1x1.size inb_S3x55_S1x1_1_49).toLoadRect (harg2.unread x1)) (View.readAt (Elt Ideal) arg2.view (Rect.unit (s := S3x55) ![2, 49] S1x1.size inb_S3x55_S1x1_2_49).toLoadRect (harg2.unread x1)) (ix1 n) = Pn x0 x1 n 49 0 := by
  refine Eq.trans ?_ (Pn_step x0 x1 n 49 21 (by decide) rfl 0).symm
  unfold k0_pay805
  simp only [addf_apply, mulf_apply, r_293_apply c arg1 harg1 arg2 harg2 x0 x1, broadcast_apply, k0_pay802_apply c arg1 harg1 arg2 harg2 x0 x1, r_294_apply c arg1 harg1 arg2 harg2 x0 x1, k0_pay803_apply c arg1 harg1 arg2 harg2 x0 x1, r_295_apply c arg1 harg1 arg2 harg2 x0 x1, k0_pay804_apply c arg1 harg1 arg2 harg2 x0 x1, r_303_apply c arg1 harg1 arg2 harg2 x0 x1]

theorem r_428_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_428 c arg1 harg1 arg2 harg2 x0 x1 (ix1 n) = Pn x0 x1 n 49 0 := by
  delta kernelRun0_A.sl.r_428
  simp only [k0_pay805_apply c arg1 harg1 arg2 harg2 x0 x1]

theorem k0_pay814_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay814 (F := Ideal) (kernelRun0_A.sl.r_293 c arg1 harg1 x0) (kernelRun0_A.sl.r_294 c arg1 harg1 x0) (kernelRun0_A.sl.r_295 c arg1 harg1 x0) (kernelRun0_A.sl.r_428 c arg1 harg1 arg2 harg2 x0 x1) (View.readAt (Elt Ideal) arg2.view (Rect.unit (s := S3x55) ![0, 50] S1x1.size inb_S3x55_S1x1_0_50).toLoadRect (harg2.unread x1)) (View.readAt (Elt Ideal) arg2.view (Rect.unit (s := S3x55) ![1, 50] S1x1.size inb_S3x55_S1x1_1_50).toLoadRect (harg2.unread x1)) (View.readAt (Elt Ideal) arg2.view (Rect.unit (s := S3x55) ![2, 50] S1x1.size inb_S3x55_S1x1_2_50).toLoadRect (harg2.unread x1)) (ix1 n) = Pn x0 x1 n 50 0 := by
  refine Eq.trans ?_ (Pn_step x0 x1 n 50 49 (by decide) rfl 0).symm
  unfold k0_pay814
  simp only [addf_apply, mulf_apply, r_293_apply c arg1 harg1 arg2 harg2 x0 x1, broadcast_apply, k0_pay811_apply c arg1 harg1 arg2 harg2 x0 x1, r_294_apply c arg1 harg1 arg2 harg2 x0 x1, k0_pay812_apply c arg1 harg1 arg2 harg2 x0 x1, r_295_apply c arg1 harg1 arg2 harg2 x0 x1, k0_pay813_apply c arg1 harg1 arg2 harg2 x0 x1, r_428_apply c arg1 harg1 arg2 harg2 x0 x1, Cn_anc_49 x0 x1 n]

theorem r_432_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_432 c arg1 harg1 arg2 harg2 x0 x1 (ix1 n) = Pn x0 x1 n 50 0 := by
  delta kernelRun0_A.sl.r_432
  simp only [k0_pay814_apply c arg1 harg1 arg2 harg2 x0 x1]

theorem k0_pay825_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay825 (F := Ideal) (kernelRun0_A.sl.r_293 c arg1 harg1 x0) (kernelRun0_A.sl.r_294 c arg1 harg1 x0) (kernelRun0_A.sl.r_295 c arg1 harg1 x0) (kernelRun0_A.sl.r_432 c arg1 harg1 arg2 harg2 x0 x1) (View.readAt (Elt Ideal) arg2.view (Rect.unit (s := S3x55) ![0, 51] S1x1.size inb_S3x55_S1x1_0_51).toLoadRect (harg2.unread x1)) (View.readAt (Elt Ideal) arg2.view (Rect.unit (s := S3x55) ![1, 51] S1x1.size inb_S3x55_S1x1_1_51).toLoadRect (harg2.unread x1)) (View.readAt (Elt Ideal) arg2.view (Rect.unit (s := S3x55) ![2, 51] S1x1.size inb_S3x55_S1x1_2_51).toLoadRect (harg2.unread x1)) (ix1 n) = Pn x0 x1 n 51 0 := by
  refine Eq.trans ?_ (Pn_step x0 x1 n 51 50 (by decide) rfl 0).symm
  unfold k0_pay825
  simp only [addf_apply, mulf_apply, r_293_apply c arg1 harg1 arg2 harg2 x0 x1, broadcast_apply, k0_pay822_apply c arg1 harg1 arg2 harg2 x0 x1, r_294_apply c arg1 harg1 arg2 harg2 x0 x1, k0_pay823_apply c arg1 harg1 arg2 harg2 x0 x1, r_295_apply c arg1 harg1 arg2 harg2 x0 x1, k0_pay824_apply c arg1 harg1 arg2 harg2 x0 x1, r_432_apply c arg1 harg1 arg2 harg2 x0 x1, Cn_anc_50 x0 x1 n]

theorem r_437_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_437 c arg1 harg1 arg2 harg2 x0 x1 (ix1 n) = Pn x0 x1 n 51 0 := by
  delta kernelRun0_A.sl.r_437
  simp only [k0_pay825_apply c arg1 harg1 arg2 harg2 x0 x1]

theorem k0_pay829_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay829 (F := Ideal) (kernelRun0_A.sl.r_437 c arg1 harg1 arg2 harg2 x0 x1) (ix2 u n) = Pn x0 x1 n 51 0 := by
  unfold k0_pay829
  simp only [shapeCast_a_1a_apply, r_437_apply c arg1 harg1 arg2 harg2 x0 x1]

theorem k0_pay821_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay821 (F := Ideal) (kernelRun0_A.sl.r_300 c arg1 harg1 x0) (kernelRun0_A.sl.r_301 c arg1 harg1 x0) (kernelRun0_A.sl.r_430 c arg1 harg1 arg2 harg2 x0 x1) (kernelRun0_A.sl.r_431 c arg2 harg2 x1) (kernelRun0_A.sl.r_434 c arg1 harg1 arg2 harg2 x0 x1) (kernelRun0_A.sl.r_435 c arg2 harg2 x1) (ix2 u n) = Pn x0 x1 n 50 2 := by
  unfold k0_pay821
  simp only [shapeCast_a_1a_apply, k0_pay818_apply c arg1 harg1 arg2 harg2 x0 x1]

theorem k0_pay820_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay820 (F := Ideal) (kernelRun0_A.sl.r_433 c arg1 harg1 arg2 harg2 x0 x1) (ix2 u n) = Pn x0 x1 n 50 1 := by
  unfold k0_pay820
  simp only [shapeCast_a_1a_apply, r_433_apply c arg1 harg1 arg2 harg2 x0 x1]

theorem k0_pay819_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay819 (F := Ideal) (kernelRun0_A.sl.r_432 c arg1 harg1 arg2 harg2 x0 x1) (ix2 u n) = Pn x0 x1 n 50 0 := by
  unfold k0_pay819
  simp only [shapeCast_a_1a_apply, r_432_apply c arg1 harg1 arg2 harg2 x0 x1]

theorem k0_pay810_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay810 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_425 c arg2 harg2 x1) (kernelRun0_A.sl.r_426 c arg2 harg2 x1) (kernelRun0_A.sl.r_427 c arg2 harg2 x1) (ix2 u n) = Pn x0 x1 n 49 2 := by
  unfold k0_pay810
  simp only [shapeCast_a_1a_apply, k0_pay807_apply c arg1 harg1 arg2 harg2 x0 x1]

theorem k0_pay809_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay809 (F := Ideal) (kernelRun0_A.sl.r_429 c arg1 harg1 arg2 harg2 x0 x1) (ix2 u n) = Pn x0 x1 n 49 1 := by
  unfold k0_pay809
  simp only [shapeCast_a_1a_apply, r_429_apply c arg1 harg1 arg2 harg2 x0 x1]

theorem k0_pay808_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay808 (F := Ideal) (kernelRun0_A.sl.r_428 c arg1 harg1 arg2 harg2 x0 x1) (ix2 u n) = Pn x0 x1 n 49 0 := by
  unfold k0_pay808
  simp only [shapeCast_a_1a_apply, r_428_apply c arg1 harg1 arg2 harg2 x0 x1]

theorem k0_pay773_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay773 (F := Ideal) (View.readAt (Elt Ideal) arg2.view (Rect.unit (s := S3x55) ![0, 46] S1x1.size inb_S3x55_S1x1_0_46).toLoadRect (harg2.unread x1)) = Of x1 46 0 := by
  unfold k0_pay773
  simp only [rel_read x1 arg2 harg2 0 46 (0 : Fin 3) rfl (by decide)]

theorem r_405_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_405 c arg2 harg2 x1 = Of x1 46 0 := by
  delta kernelRun0_A.sl.r_405
  simp only [k0_pay773_apply c arg1 harg1 arg2 harg2 x0 x1]

theorem k0_pay774_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay774 (F := Ideal) (View.readAt (Elt Ideal) arg2.view (Rect.unit (s := S3x55) ![1, 46] S1x1.size inb_S3x55_S1x1_1_46).toLoadRect (harg2.unread x1)) = Of x1 46 1 := by
  unfold k0_pay774
  simp only [rel_read x1 arg2 harg2 1 46 (1 : Fin 3) rfl (by decide)]

theorem r_406_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_406 c arg2 harg2 x1 = Of x1 46 1 := by
  delta kernelRun0_A.sl.r_406
  simp only [k0_pay774_apply c arg1 harg1 arg2 harg2 x0 x1]

theorem k0_pay775_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay775 (F := Ideal) (View.readAt (Elt Ideal) arg2.view (Rect.unit (s := S3x55) ![2, 46] S1x1.size inb_S3x55_S1x1_2_46).toLoadRect (harg2.unread x1)) = Of x1 46 2 := by
  unfold k0_pay775
  simp only [rel_read x1 arg2 harg2 2 46 (2 : Fin 3) rfl (by decide)]

theorem r_407_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_407 c arg2 harg2 x1 = Of x1 46 2 := by
  delta kernelRun0_A.sl.r_407
  simp only [k0_pay775_apply c arg1 harg1 arg2 harg2 x0 x1]

theorem k0_pay778_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay778 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_405 c arg2 harg2 x1) (kernelRun0_A.sl.r_406 c arg2 harg2 x1) (kernelRun0_A.sl.r_407 c arg2 harg2 x1) (ix1 n) = Pn x0 x1 n 46 2 := by
  refine Eq.trans ?_ (Pn_step x0 x1 n 46 21 (by decide) rfl 2).symm
  unfold k0_pay778
  simp only [addf_apply, mulf_apply, r_299_apply c arg1 harg1 arg2 harg2 x0 x1, broadcast_apply, r_405_apply c arg1 harg1 arg2 harg2 x0 x1, r_300_apply c arg1 harg1 arg2 harg2 x0 x1, r_406_apply c arg1 harg1 arg2 harg2 x0 x1, r_301_apply c arg1 harg1 arg2 harg2 x0 x1, r_407_apply c arg1 harg1 arg2 harg2 x0 x1, r_305_apply c arg1 harg1 arg2 harg2 x0 x1]

theorem r_410_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_410 c arg1 harg1 arg2 harg2 x0 x1 (ix1 n) = Pn x0 x1 n 46 2 := by
  delta kernelRun0_A.sl.r_410
  simp only [k0_pay778_apply c arg1 harg1 arg2 harg2 x0 x1]

theorem k0_pay782_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay782 (F := Ideal) (View.readAt (Elt Ideal) arg2.view (Rect.unit (s := S3x55) ![0, 47] S1x1.size inb_S3x55_S1x1_0_47).toLoadRect (harg2.unread x1)) = Of x1 47 0 := by
  unfold k0_pay782
  simp only [rel_read x1 arg2 harg2 0 47 (0 : Fin 3) rfl (by decide)]

theorem r_411_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_411 c arg2 harg2 x1 = Of x1 47 0 := by
  delta kernelRun0_A.sl.r_411
  simp only [k0_pay782_apply c arg1 harg1 arg2 harg2 x0 x1]

theorem k0_pay783_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay783 (F := Ideal) (View.readAt (Elt Ideal) arg2.view (Rect.unit (s := S3x55) ![1, 47] S1x1.size inb_S3x55_S1x1_1_47).toLoadRect (harg2.unread x1)) = Of x1 47 1 := by
  unfold k0_pay783
  simp only [rel_read x1 arg2 harg2 1 47 (1 : Fin 3) rfl (by decide)]

theorem r_412_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_412 c arg2 harg2 x1 = Of x1 47 1 := by
  delta kernelRun0_A.sl.r_412
  simp only [k0_pay783_apply c arg1 harg1 arg2 harg2 x0 x1]

theorem k0_pay784_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay784 (F := Ideal) (View.readAt (Elt Ideal) arg2.view (Rect.unit (s := S3x55) ![2, 47] S1x1.size inb_S3x55_S1x1_2_47).toLoadRect (harg2.unread x1)) = Of x1 47 2 := by
  unfold k0_pay784
  simp only [rel_read x1 arg2 harg2 2 47 (2 : Fin 3) rfl (by decide)]

theorem r_413_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_413 c arg2 harg2 x1 = Of x1 47 2 := by
  delta kernelRun0_A.sl.r_413
  simp only [k0_pay784_apply c arg1 harg1 arg2 harg2 x0 x1]

theorem k0_pay789_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay789 (F := Ideal) (kernelRun0_A.sl.r_299 c arg1 harg1 x0) (kernelRun0_A.sl.r_300 c arg1 harg1 x0) (kernelRun0_A.sl.r_301 c arg1 harg1 x0) (kernelRun0_A.sl.r_410 c arg1 harg1 arg2 harg2 x0 x1) (kernelRun0_A.sl.r_411 c arg2 harg2 x1) (kernelRun0_A.sl.r_412 c arg2 harg2 x1) (kernelRun0_A.sl.r_413 c arg2 harg2 x1) (ix1 n) = Pn x0 x1 n 47 2 := by
  refine Eq.trans ?_ (Pn_step x0 x1 n 47 46 (by decide) rfl 2).symm
  unfold k0_pay789
  simp only [addf_apply, mulf_apply, r_299_apply c arg1 harg1 arg2 harg2 x0 x1, broadcast_apply, r_411_apply c arg1 harg1 arg2 harg2 x0 x1, r_300_apply c arg1 harg1 arg2 harg2 x0 x1, r_412_apply c arg1 harg1 arg2 harg2 x0 x1, r_301_apply c arg1 harg1 arg2 harg2 x0 x1, r_413_apply c arg1 harg1 arg2 harg2 x0 x1, r_410_apply c arg1 harg1 arg2 harg2 x0 x1, Cn_anc_46 x0 x1 n]

theorem r_418_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_418 c arg1 harg1 arg2 harg2 x0 x1 (ix1 n) = Pn x0 x1 n 47 2 := by
  delta kernelRun0_A.sl.r_418
  simp only [k0_pay789_apply c arg1 harg1 arg2 harg2 x0 x1]

theorem k0_pay793_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay793 (F := Ideal) (View.readAt (Elt Ideal) arg2.view (Rect.unit (s := S3x55) ![0, 48] S1x1.size inb_S3x55_S1x1_0_48).toLoadRect (harg2.unread x1)) = Of x1 48 0 := by
  unfold k0_pay793
  simp only [rel_read x1 arg2 harg2 0 48 (0 : Fin 3) rfl (by decide)]

theorem r_419_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_419 c arg2 harg2 x1 = Of x1 48 0 := by
  delta kernelRun0_A.sl.r_419
  simp only [k0_pay793_apply c arg1 harg1 arg2 harg2 x0 x1]

theorem k0_pay794_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay794 (F := Ideal) (View.readAt (Elt Ideal) arg2.view (Rect.unit (s := S3x55) ![1, 48] S1x1.size inb_S3x55_S1x1_1_48).toLoadRect (harg2.unread x1)) = Of x1 48 1 := by
  unfold k0_pay794
  simp only [rel_read x1 arg2 harg2 1 48 (1 : Fin 3) rfl (by decide)]

theorem r_420_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_420 c arg2 harg2 x1 = Of x1 48 1 := by
  delta kernelRun0_A.sl.r_420
  simp only [k0_pay794_apply c arg1 harg1 arg2 harg2 x0 x1]

theorem k0_pay795_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay795 (F := Ideal) (View.readAt (Elt Ideal) arg2.view (Rect.unit (s := S3x55) ![2, 48] S1x1.size inb_S3x55_S1x1_2_48).toLoadRect (harg2.unread x1)) = Of x1 48 2 := by
  unfold k0_pay795
  simp only [rel_read x1 arg2 harg2 2 48 (2 : Fin 3) rfl (by decide)]

theorem r_421_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_421 c arg2 harg2 x1 = Of x1 48 2 := by
  delta kernelRun0_A.sl.r_421
  simp only [k0_pay795_apply c arg1 harg1 arg2 harg2 x0 x1]

theorem k0_pay801_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay801 (F := Ideal) (kernelRun0_A.sl.r_299 c arg1 harg1 x0) (kernelRun0_A.sl.r_300 c arg1 harg1 x0) (kernelRun0_A.sl.r_301 c arg1 harg1 x0) (kernelRun0_A.sl.r_418 c arg1 harg1 arg2 harg2 x0 x1) (kernelRun0_A.sl.r_419 c arg2 harg2 x1) (kernelRun0_A.sl.r_420 c arg2 harg2 x1) (kernelRun0_A.sl.r_421 c arg2 harg2 x1) (ix2 u n) = Pn x0 x1 n 48 2 := by
  refine Eq.trans ?_ (Pn_step x0 x1 n 48 47 (by decide) rfl 2).symm
  unfold k0_pay801
  simp only [shapeCast_a_1a_apply, addf_apply, mulf_apply, r_299_apply c arg1 harg1 arg2 harg2 x0 x1, broadcast_apply, r_419_apply c arg1 harg1 arg2 harg2 x0 x1, r_300_apply c arg1 harg1 arg2 harg2 x0 x1, r_420_apply c arg1 harg1 arg2 harg2 x0 x1, r_301_apply c arg1 harg1 arg2 harg2 x0 x1, r_421_apply c arg1 harg1 arg2 harg2 x0 x1, r_418_apply c arg1 harg1 arg2 harg2 x0 x1, Cn_anc_47 x0 x1 n]

theorem k0_pay777_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay777 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (kernelRun0_A.sl.r_405 c arg2 harg2 x1) (kernelRun0_A.sl.r_406 c arg2 harg2 x1) (kernelRun0_A.sl.r_407 c arg2 harg2 x1) (ix1 n) = Pn x0 x1 n 46 1 := by
  refine Eq.trans ?_ (Pn_step x0 x1 n 46 21 (by decide) rfl 1).symm
  unfold k0_pay777
  simp only [addf_apply, mulf_apply, r_296_apply c arg1 harg1 arg2 harg2 x0 x1, broadcast_apply, r_405_apply c arg1 harg1 arg2 harg2 x0 x1, r_297_apply c arg1 harg1 arg2 harg2 x0 x1, r_406_apply c arg1 harg1 arg2 harg2 x0 x1, r_298_apply c arg1 harg1 arg2 harg2 x0 x1, r_407_apply c arg1 harg1 arg2 harg2 x0 x1, r_304_apply c arg1 harg1 arg2 harg2 x0 x1]

theorem r_409_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_409 c arg1 harg1 arg2 harg2 x0 x1 (ix1 n) = Pn x0 x1 n 46 1 := by
  delta kernelRun0_A.sl.r_409
  simp only [k0_pay777_apply c arg1 harg1 arg2 harg2 x0 x1]

theorem k0_pay786_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay786 (F := Ideal) (kernelRun0_A.sl.r_296 c arg1 harg1 x0) (View.readAt (Elt Ideal) arg2.view (Rect.unit (s := S3x55) ![0, 47] S1x1.size inb_S3x55_S1x1_0_47).toLoadRect (harg2.unread x1)) (ix1 n) = (Cn x0 x1 n 21 1 0 * Of x1 47 0) := by
  unfold k0_pay786
  simp only [mulf_apply, r_296_apply c arg1 harg1 arg2 harg2 x0 x1, broadcast_apply, k0_pay782_apply c arg1 harg1 arg2 harg2 x0 x1]

theorem r_415_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_415 c arg1 harg1 arg2 harg2 x0 x1 (ix1 n) = (Cn x0 x1 n 21 1 0 * Of x1 47 0) := by
  delta kernelRun0_A.sl.r_415
  simp only [k0_pay786_apply c arg1 harg1 arg2 harg2 x0 x1]

theorem k0_pay787_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay787 (F := Ideal) (View.readAt (Elt Ideal) arg2.view (Rect.unit (s := S3x55) ![1, 47] S1x1.size inb_S3x55_S1x1_1_47).toLoadRect (harg2.unread x1)) (ix1 n) = Of x1 47 1 := by
  unfold k0_pay787
  simp only [broadcast_apply, k0_pay783_apply c arg1 harg1 arg2 harg2 x0 x1]

theorem r_416_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_416 c arg2 harg2 x1 (ix1 n) = Of x1 47 1 := by
  delta kernelRun0_A.sl.r_416
  simp only [k0_pay787_apply c arg1 harg1 arg2 harg2 x0 x1]

theorem k0_pay788_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay788 (F := Ideal) (kernelRun0_A.sl.r_297 c arg1 harg1 x0) (kernelRun0_A.sl.r_298 c arg1 harg1 x0) (kernelRun0_A.sl.r_409 c arg1 harg1 arg2 harg2 x0 x1) (kernelRun0_A.sl.r_413 c arg2 harg2 x1) (kernelRun0_A.sl.r_415 c arg1 harg1 arg2 harg2 x0 x1) (kernelRun0_A.sl.r_416 c arg2 harg2 x1) (ix1 n) = Pn x0 x1 n 47 1 := by
  refine Eq.trans ?_ (Pn_step x0 x1 n 47 46 (by decide) rfl 1).symm
  unfold k0_pay788
  simp only [addf_apply, r_415_apply c arg1 harg1 arg2 harg2 x0 x1, mulf_apply, r_297_apply c arg1 harg1 arg2 harg2 x0 x1, r_416_apply c arg1 harg1 arg2 harg2 x0 x1, r_298_apply c arg1 harg1 arg2 harg2 x0 x1, broadcast_apply, r_413_apply c arg1 harg1 arg2 harg2 x0 x1, r_409_apply c arg1 harg1 arg2 harg2 x0 x1, Cn_anc_46 x0 x1 n]

theorem r_417_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_417 c arg1 harg1 arg2 harg2 x0 x1 (ix1 n) = Pn x0 x1 n 47 1 := by
  delta kernelRun0_A.sl.r_417
  simp only [k0_pay788_apply c arg1 harg1 arg2 harg2 x0 x1]

theorem k0_pay797_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay797 (F := Ideal) (kernelRun0_A.sl.r_296 c arg1 harg1 x0) (kernelRun0_A.sl.r_297 c arg1 harg1 x0) (View.readAt (Elt Ideal) arg2.view (Rect.unit (s := S3x55) ![0, 48] S1x1.size inb_S3x55_S1x1_0_48).toLoadRect (harg2.unread x1)) (View.readAt (Elt Ideal) arg2.view (Rect.unit (s := S3x55) ![1, 48] S1x1.size inb_S3x55_S1x1_1_48).toLoadRect (harg2.unread x1)) (ix1 n) = ((Cn x0 x1 n 21 1 0 * Of x1 48 0) + (Cn x0 x1 n 21 1 1 * Of x1 48 1)) := by
  unfold k0_pay797
  simp only [addf_apply, mulf_apply, r_296_apply c arg1 harg1 arg2 harg2 x0 x1, broadcast_apply, k0_pay793_apply c arg1 harg1 arg2 harg2 x0 x1, r_297_apply c arg1 harg1 arg2 harg2 x0 x1, k0_pay794_apply c arg1 harg1 arg2 harg2 x0 x1]

theorem r_423_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_423 c arg1 harg1 arg2 harg2 x0 x1 (ix1 n) = ((Cn x0 x1 n 21 1 0 * Of x1 48 0) + (Cn x0 x1 n 21 1 1 * Of x1 48 1)) := by
  delta kernelRun0_A.sl.r_423
  simp only [k0_pay797_apply c arg1 harg1 arg2 harg2 x0 x1]

theorem k0_pay798_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay798 (F := Ideal) (View.readAt (Elt Ideal) arg2.view (Rect.unit (s := S3x55) ![2, 48] S1x1.size inb_S3x55_S1x1_2_48).toLoadRect (harg2.unread x1)) (ix1 n) = Of x1 48 2 := by
  unfold k0_pay798
  simp only [broadcast_apply, k0_pay795_apply c arg1 harg1 arg2 harg2 x0 x1]

theorem r_424_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_424 c arg2 harg2 x1 (ix1 n) = Of x1 48 2 := by
  delta kernelRun0_A.sl.r_424
  simp only [k0_pay798_apply c arg1 harg1 arg2 harg2 x0 x1]

theorem k0_pay800_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay800 (F := Ideal) (kernelRun0_A.sl.r_298 c arg1 harg1 x0) (kernelRun0_A.sl.r_417 c arg1 harg1 arg2 harg2 x0 x1) (kernelRun0_A.sl.r_423 c arg1 harg1 arg2 harg2 x0 x1) (kernelRun0_A.sl.r_424 c arg2 harg2 x1) (ix2 u n) = Pn x0 x1 n 48 1 := by
  refine Eq.trans ?_ (Pn_step x0 x1 n 48 47 (by decide) rfl 1).symm
  unfold k0_pay800
  simp only [shapeCast_a_1a_apply, addf_apply, r_423_apply c arg1 harg1 arg2 harg2 x0 x1, mulf_apply, r_298_apply c arg1 harg1 arg2 harg2 x0 x1, r_424_apply c arg1 harg1 arg2 harg2 x0 x1, r_417_apply c arg1 harg1 arg2 harg2 x0 x1, Cn_anc_47 x0 x1 n]

theorem k0_pay776_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay776 (F := Ideal) (kernelRun0_A.sl.r_293 c arg1 harg1 x0) (kernelRun0_A.sl.r_294 c arg1 harg1 x0) (kernelRun0_A.sl.r_295 c arg1 harg1 x0) (kernelRun0_A.sl.r_303 c arg1 harg1 arg2 harg2 x0 x1) (View.readAt (Elt Ideal) arg2.view (Rect.unit (s := S3x55) ![0, 46] S1x1.size inb_S3x55_S1x1_0_46).toLoadRect (harg2.unread x1)) (View.readAt (Elt Ideal) arg2.view (Rect.unit (s := S3x55) ![1, 46] S1x1.size inb_S3x55_S1x1_1_46).toLoadRect (harg2.unread x1)) (View.readAt (Elt Ideal) arg2.view (Rect.unit (s := S3x55) ![2, 46] S1x1.size inb_S3x55_S1x1_2_46).toLoadRect (harg2.unread x1)) (ix1 n) = Pn x0 x1 n 46 0 := by
  refine Eq.trans ?_ (Pn_step x0 x1 n 46 21 (by decide) rfl 0).symm
  unfold k0_pay776
  simp only [addf_apply, mulf_apply, r_293_apply c arg1 harg1 arg2 harg2 x0 x1, broadcast_apply, k0_pay773_apply c arg1 harg1 arg2 harg2 x0 x1, r_294_apply c arg1 harg1 arg2 harg2 x0 x1, k0_pay774_apply c arg1 harg1 arg2 harg2 x0 x1, r_295_apply c arg1 harg1 arg2 harg2 x0 x1, k0_pay775_apply c arg1 harg1 arg2 harg2 x0 x1, r_303_apply c arg1 harg1 arg2 harg2 x0 x1]

theorem r_408_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_408 c arg1 harg1 arg2 harg2 x0 x1 (ix1 n) = Pn x0 x1 n 46 0 := by
  delta kernelRun0_A.sl.r_408
  simp only [k0_pay776_apply c arg1 harg1 arg2 harg2 x0 x1]

theorem k0_pay785_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay785 (F := Ideal) (kernelRun0_A.sl.r_293 c arg1 harg1 x0) (kernelRun0_A.sl.r_294 c arg1 harg1 x0) (kernelRun0_A.sl.r_295 c arg1 harg1 x0) (kernelRun0_A.sl.r_408 c arg1 harg1 arg2 harg2 x0 x1) (View.readAt (Elt Ideal) arg2.view (Rect.unit (s := S3x55) ![0, 47] S1x1.size inb_S3x55_S1x1_0_47).toLoadRect (harg2.unread x1)) (View.readAt (Elt Ideal) arg2.view (Rect.unit (s := S3x55) ![1, 47] S1x1.size inb_S3x55_S1x1_1_47).toLoadRect (harg2.unread x1)) (View.readAt (Elt Ideal) arg2.view (Rect.unit (s := S3x55) ![2, 47] S1x1.size inb_S3x55_S1x1_2_47).toLoadRect (harg2.unread x1)) (ix1 n) = Pn x0 x1 n 47 0 := by
  refine Eq.trans ?_ (Pn_step x0 x1 n 47 46 (by decide) rfl 0).symm
  unfold k0_pay785
  simp only [addf_apply, mulf_apply, r_293_apply c arg1 harg1 arg2 harg2 x0 x1, broadcast_apply, k0_pay782_apply c arg1 harg1 arg2 harg2 x0 x1, r_294_apply c arg1 harg1 arg2 harg2 x0 x1, k0_pay783_apply c arg1 harg1 arg2 harg2 x0 x1, r_295_apply c arg1 harg1 arg2 harg2 x0 x1, k0_pay784_apply c arg1 harg1 arg2 harg2 x0 x1, r_408_apply c arg1 harg1 arg2 harg2 x0 x1, Cn_anc_46 x0 x1 n]

theorem r_414_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_414 c arg1 harg1 arg2 harg2 x0 x1 (ix1 n) = Pn x0 x1 n 47 0 := by
  delta kernelRun0_A.sl.r_414
  simp only [k0_pay785_apply c arg1 harg1 arg2 harg2 x0 x1]

theorem k0_pay796_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay796 (F := Ideal) (kernelRun0_A.sl.r_293 c arg1 harg1 x0) (kernelRun0_A.sl.r_294 c arg1 harg1 x0) (kernelRun0_A.sl.r_295 c arg1 harg1 x0) (kernelRun0_A.sl.r_414 c arg1 harg1 arg2 harg2 x0 x1) (View.readAt (Elt Ideal) arg2.view (Rect.unit (s := S3x55) ![0, 48] S1x1.size inb_S3x55_S1x1_0_48).toLoadRect (harg2.unread x1)) (View.readAt (Elt Ideal) arg2.view (Rect.unit (s := S3x55) ![1, 48] S1x1.size inb_S3x55_S1x1_1_48).toLoadRect (harg2.unread x1)) (View.readAt (Elt Ideal) arg2.view (Rect.unit (s := S3x55) ![2, 48] S1x1.size inb_S3x55_S1x1_2_48).toLoadRect (harg2.unread x1)) (ix1 n) = Pn x0 x1 n 48 0 := by
  refine Eq.trans ?_ (Pn_step x0 x1 n 48 47 (by decide) rfl 0).symm
  unfold k0_pay796
  simp only [addf_apply, mulf_apply, r_293_apply c arg1 harg1 arg2 harg2 x0 x1, broadcast_apply, k0_pay793_apply c arg1 harg1 arg2 harg2 x0 x1, r_294_apply c arg1 harg1 arg2 harg2 x0 x1, k0_pay794_apply c arg1 harg1 arg2 harg2 x0 x1, r_295_apply c arg1 harg1 arg2 harg2 x0 x1, k0_pay795_apply c arg1 harg1 arg2 harg2 x0 x1, r_414_apply c arg1 harg1 arg2 harg2 x0 x1, Cn_anc_47 x0 x1 n]

theorem r_422_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_422 c arg1 harg1 arg2 harg2 x0 x1 (ix1 n) = Pn x0 x1 n 48 0 := by
  delta kernelRun0_A.sl.r_422
  simp only [k0_pay796_apply c arg1 harg1 arg2 harg2 x0 x1]

theorem k0_pay799_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay799 (F := Ideal) (kernelRun0_A.sl.r_422 c arg1 harg1 arg2 harg2 x0 x1) (ix2 u n) = Pn x0 x1 n 48 0 := by
  unfold k0_pay799
  simp only [shapeCast_a_1a_apply, r_422_apply c arg1 harg1 arg2 harg2 x0 x1]

theorem k0_pay792_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay792 (F := Ideal) (kernelRun0_A.sl.r_299 c arg1 harg1 x0) (kernelRun0_A.sl.r_300 c arg1 harg1 x0) (kernelRun0_A.sl.r_301 c arg1 harg1 x0) (kernelRun0_A.sl.r_410 c arg1 harg1 arg2 harg2 x0 x1) (kernelRun0_A.sl.r_411 c arg2 harg2 x1) (kernelRun0_A.sl.r_412 c arg2 harg2 x1) (kernelRun0_A.sl.r_413 c arg2 harg2 x1) (ix2 u n) = Pn x0 x1 n 47 2 := by
  unfold k0_pay792
  simp only [shapeCast_a_1a_apply, k0_pay789_apply c arg1 harg1 arg2 harg2 x0 x1]

theorem k0_pay791_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay791 (F := Ideal) (kernelRun0_A.sl.r_297 c arg1 harg1 x0) (kernelRun0_A.sl.r_298 c arg1 harg1 x0) (kernelRun0_A.sl.r_409 c arg1 harg1 arg2 harg2 x0 x1) (kernelRun0_A.sl.r_413 c arg2 harg2 x1) (kernelRun0_A.sl.r_415 c arg1 harg1 arg2 harg2 x0 x1) (kernelRun0_A.sl.r_416 c arg2 harg2 x1) (ix2 u n) = Pn x0 x1 n 47 1 := by
  unfold k0_pay791
  simp only [shapeCast_a_1a_apply, k0_pay788_apply c arg1 harg1 arg2 harg2 x0 x1]

theorem k0_pay790_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay790 (F := Ideal) (kernelRun0_A.sl.r_414 c arg1 harg1 arg2 harg2 x0 x1) (ix2 u n) = Pn x0 x1 n 47 0 := by
  unfold k0_pay790
  simp only [shapeCast_a_1a_apply, r_414_apply c arg1 harg1 arg2 harg2 x0 x1]

theorem k0_pay781_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay781 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_405 c arg2 harg2 x1) (kernelRun0_A.sl.r_406 c arg2 harg2 x1) (kernelRun0_A.sl.r_407 c arg2 harg2 x1) (ix2 u n) = Pn x0 x1 n 46 2 := by
  unfold k0_pay781
  simp only [shapeCast_a_1a_apply, k0_pay778_apply c arg1 harg1 arg2 harg2 x0 x1]

theorem k0_pay780_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay780 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (kernelRun0_A.sl.r_405 c arg2 harg2 x1) (kernelRun0_A.sl.r_406 c arg2 harg2 x1) (kernelRun0_A.sl.r_407 c arg2 harg2 x1) (ix2 u n) = Pn x0 x1 n 46 1 := by
  unfold k0_pay780
  simp only [shapeCast_a_1a_apply, k0_pay777_apply c arg1 harg1 arg2 harg2 x0 x1]

theorem k0_pay779_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay779 (F := Ideal) (kernelRun0_A.sl.r_408 c arg1 harg1 arg2 harg2 x0 x1) (ix2 u n) = Pn x0 x1 n 46 0 := by
  unfold k0_pay779
  simp only [shapeCast_a_1a_apply, r_408_apply c arg1 harg1 arg2 harg2 x0 x1]

theorem k0_pay745_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay745 (F := Ideal) (View.readAt (Elt Ideal) arg2.view (Rect.unit (s := S3x55) ![0, 43] S1x1.size inb_S3x55_S1x1_0_43).toLoadRect (harg2.unread x1)) = Of x1 43 0 := by
  unfold k0_pay745
  simp only [rel_read x1 arg2 harg2 0 43 (0 : Fin 3) rfl (by decide)]

theorem r_386_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_386 c arg2 harg2 x1 = Of x1 43 0 := by
  delta kernelRun0_A.sl.r_386
  simp only [k0_pay745_apply c arg1 harg1 arg2 harg2 x0 x1]

theorem k0_pay746_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay746 (F := Ideal) (View.readAt (Elt Ideal) arg2.view (Rect.unit (s := S3x55) ![1, 43] S1x1.size inb_S3x55_S1x1_1_43).toLoadRect (harg2.unread x1)) = Of x1 43 1 := by
  unfold k0_pay746
  simp only [rel_read x1 arg2 harg2 1 43 (1 : Fin 3) rfl (by decide)]

theorem r_387_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_387 c arg2 harg2 x1 = Of x1 43 1 := by
  delta kernelRun0_A.sl.r_387
  simp only [k0_pay746_apply c arg1 harg1 arg2 harg2 x0 x1]

theorem k0_pay747_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay747 (F := Ideal) (View.readAt (Elt Ideal) arg2.view (Rect.unit (s := S3x55) ![2, 43] S1x1.size inb_S3x55_S1x1_2_43).toLoadRect (harg2.unread x1)) = Of x1 43 2 := by
  unfold k0_pay747
  simp only [rel_read x1 arg2 harg2 2 43 (2 : Fin 3) rfl (by decide)]

theorem r_388_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_388 c arg2 harg2 x1 = Of x1 43 2 := by
  delta kernelRun0_A.sl.r_388
  simp only [k0_pay747_apply c arg1 harg1 arg2 harg2 x0 x1]

theorem k0_pay750_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay750 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_386 c arg2 harg2 x1) (kernelRun0_A.sl.r_387 c arg2 harg2 x1) (kernelRun0_A.sl.r_388 c arg2 harg2 x1) (ix1 n) = Pn x0 x1 n 43 2 := by
  refine Eq.trans ?_ (Pn_step x0 x1 n 43 21 (by decide) rfl 2).symm
  unfold k0_pay750
  simp only [addf_apply, mulf_apply, r_299_apply c arg1 harg1 arg2 harg2 x0 x1, broadcast_apply, r_386_apply c arg1 harg1 arg2 harg2 x0 x1, r_300_apply c arg1 harg1 arg2 harg2 x0 x1, r_387_apply c arg1 harg1 arg2 harg2 x0 x1, r_301_apply c arg1 harg1 arg2 harg2 x0 x1, r_388_apply c arg1 harg1 arg2 harg2 x0 x1, r_305_apply c arg1 harg1 arg2 harg2 x0 x1]

theorem r_391_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_391 c arg1 harg1 arg2 harg2 x0 x1 (ix1 n) = Pn x0 x1 n 43 2 := by
  delta kernelRun0_A.sl.r_391
  simp only [k0_pay750_apply c arg1 harg1 arg2 harg2 x0 x1]

theorem k0_pay754_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay754 (F := Ideal) (View.readAt (Elt Ideal) arg2.view (Rect.unit (s := S3x55) ![0, 44] S1x1.size inb_S3x55_S1x1_0_44).toLoadRect (harg2.unread x1)) = Of x1 44 0 := by
  unfold k0_pay754
  simp only [rel_read x1 arg2 harg2 0 44 (0 : Fin 3) rfl (by decide)]

theorem r_392_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_392 c arg2 harg2 x1 = Of x1 44 0 := by
  delta kernelRun0_A.sl.r_392
  simp only [k0_pay754_apply c arg1 harg1 arg2 harg2 x0 x1]

theorem k0_pay755_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay755 (F := Ideal) (View.readAt (Elt Ideal) arg2.view (Rect.unit (s := S3x55) ![1, 44] S1x1.size inb_S3x55_S1x1_1_44).toLoadRect (harg2.unread x1)) = Of x1 44 1 := by
  unfold k0_pay755
  simp only [rel_read x1 arg2 harg2 1 44 (1 : Fin 3) rfl (by decide)]

theorem r_393_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_393 c arg2 harg2 x1 = Of x1 44 1 := by
  delta kernelRun0_A.sl.r_393
  simp only [k0_pay755_apply c arg1 harg1 arg2 harg2 x0 x1]

theorem k0_pay756_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay756 (F := Ideal) (View.readAt (Elt Ideal) arg2.view (Rect.unit (s := S3x55) ![2, 44] S1x1.size inb_S3x55_S1x1_2_44).toLoadRect (harg2.unread x1)) = Of x1 44 2 := by
  unfold k0_pay756
  simp only [rel_read x1 arg2 harg2 2 44 (2 : Fin 3) rfl (by decide)]

theorem r_394_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_394 c arg2 harg2 x1 = Of x1 44 2 := by
  delta kernelRun0_A.sl.r_394
  simp only [k0_pay756_apply c arg1 harg1 arg2 harg2 x0 x1]

theorem k0_pay761_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay761 (F := Ideal) (kernelRun0_A.sl.r_299 c arg1 harg1 x0) (kernelRun0_A.sl.r_300 c arg1 harg1 x0) (kernelRun0_A.sl.r_301 c arg1 harg1 x0) (kernelRun0_A.sl.r_391 c arg1 harg1 arg2 harg2 x0 x1) (kernelRun0_A.sl.r_392 c arg2 harg2 x1) (kernelRun0_A.sl.r_393 c arg2 harg2 x1) (kernelRun0_A.sl.r_394 c arg2 harg2 x1) (ix1 n) = Pn x0 x1 n 44 2 := by
  refine Eq.trans ?_ (Pn_step x0 x1 n 44 43 (by decide) rfl 2).symm
  unfold k0_pay761
  simp only [addf_apply, mulf_apply, r_299_apply c arg1 harg1 arg2 harg2 x0 x1, broadcast_apply, r_392_apply c arg1 harg1 arg2 harg2 x0 x1, r_300_apply c arg1 harg1 arg2 harg2 x0 x1, r_393_apply c arg1 harg1 arg2 harg2 x0 x1, r_301_apply c arg1 harg1 arg2 harg2 x0 x1, r_394_apply c arg1 harg1 arg2 harg2 x0 x1, r_391_apply c arg1 harg1 arg2 harg2 x0 x1, Cn_anc_43 x0 x1 n]

theorem r_399_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_399 c arg1 harg1 arg2 harg2 x0 x1 (ix1 n) = Pn x0 x1 n 44 2 := by
  delta kernelRun0_A.sl.r_399
  simp only [k0_pay761_apply c arg1 harg1 arg2 harg2 x0 x1]

theorem k0_pay765_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay765 (F := Ideal) (View.readAt (Elt Ideal) arg2.view (Rect.unit (s := S3x55) ![0, 45] S1x1.size inb_S3x55_S1x1_0_45).toLoadRect (harg2.unread x1)) = Of x1 45 0 := by
  unfold k0_pay765
  simp only [rel_read x1 arg2 harg2 0 45 (0 : Fin 3) rfl (by decide)]

theorem r_400_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_400 c arg2 harg2 x1 = Of x1 45 0 := by
  delta kernelRun0_A.sl.r_400
  simp only [k0_pay765_apply c arg1 harg1 arg2 harg2 x0 x1]

theorem k0_pay766_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay766 (F := Ideal) (View.readAt (Elt Ideal) arg2.view (Rect.unit (s := S3x55) ![1, 45] S1x1.size inb_S3x55_S1x1_1_45).toLoadRect (harg2.unread x1)) = Of x1 45 1 := by
  unfold k0_pay766
  simp only [rel_read x1 arg2 harg2 1 45 (1 : Fin 3) rfl (by decide)]

theorem r_401_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_401 c arg2 harg2 x1 = Of x1 45 1 := by
  delta kernelRun0_A.sl.r_401
  simp only [k0_pay766_apply c arg1 harg1 arg2 harg2 x0 x1]

theorem k0_pay767_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay767 (F := Ideal) (View.readAt (Elt Ideal) arg2.view (Rect.unit (s := S3x55) ![2, 45] S1x1.size inb_S3x55_S1x1_2_45).toLoadRect (harg2.unread x1)) = Of x1 45 2 := by
  unfold k0_pay767
  simp only [rel_read x1 arg2 harg2 2 45 (2 : Fin 3) rfl (by decide)]

theorem r_402_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_402 c arg2 harg2 x1 = Of x1 45 2 := by
  delta kernelRun0_A.sl.r_402
  simp only [k0_pay767_apply c arg1 harg1 arg2 harg2 x0 x1]

theorem k0_pay772_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay772 (F := Ideal) (kernelRun0_A.sl.r_299 c arg1 harg1 x0) (kernelRun0_A.sl.r_300 c arg1 harg1 x0) (kernelRun0_A.sl.r_301 c arg1 harg1 x0) (kernelRun0_A.sl.r_399 c arg1 harg1 arg2 harg2 x0 x1) (kernelRun0_A.sl.r_400 c arg2 harg2 x1) (kernelRun0_A.sl.r_401 c arg2 harg2 x1) (kernelRun0_A.sl.r_402 c arg2 harg2 x1) (ix2 u n) = Pn x0 x1 n 45 2 := by
  refine Eq.trans ?_ (Pn_step x0 x1 n 45 44 (by decide) rfl 2).symm
  unfold k0_pay772
  simp only [shapeCast_a_1a_apply, addf_apply, mulf_apply, r_299_apply c arg1 harg1 arg2 harg2 x0 x1, broadcast_apply, r_400_apply c arg1 harg1 arg2 harg2 x0 x1, r_300_apply c arg1 harg1 arg2 harg2 x0 x1, r_401_apply c arg1 harg1 arg2 harg2 x0 x1, r_301_apply c arg1 harg1 arg2 harg2 x0 x1, r_402_apply c arg1 harg1 arg2 harg2 x0 x1, r_399_apply c arg1 harg1 arg2 harg2 x0 x1, Cn_anc_44 x0 x1 n]

theorem k0_pay749_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay749 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (kernelRun0_A.sl.r_386 c arg2 harg2 x1) (kernelRun0_A.sl.r_387 c arg2 harg2 x1) (kernelRun0_A.sl.r_388 c arg2 harg2 x1) (ix1 n) = Pn x0 x1 n 43 1 := by
  refine Eq.trans ?_ (Pn_step x0 x1 n 43 21 (by decide) rfl 1).symm
  unfold k0_pay749
  simp only [addf_apply, mulf_apply, r_296_apply c arg1 harg1 arg2 harg2 x0 x1, broadcast_apply, r_386_apply c arg1 harg1 arg2 harg2 x0 x1, r_297_apply c arg1 harg1 arg2 harg2 x0 x1, r_387_apply c arg1 harg1 arg2 harg2 x0 x1, r_298_apply c arg1 harg1 arg2 harg2 x0 x1, r_388_apply c arg1 harg1 arg2 harg2 x0 x1, r_304_apply c arg1 harg1 arg2 harg2 x0 x1]

theorem r_390_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_390 c arg1 harg1 arg2 harg2 x0 x1 (ix1 n) = Pn x0 x1 n 43 1 := by
  delta kernelRun0_A.sl.r_390
  simp only [k0_pay749_apply c arg1 harg1 arg2 harg2 x0 x1]

theorem k0_pay760_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay760 (F := Ideal) (kernelRun0_A.sl.r_296 c arg1 harg1 x0) (kernelRun0_A.sl.r_297 c arg1 harg1 x0) (kernelRun0_A.sl.r_298 c arg1 harg1 x0) (kernelRun0_A.sl.r_390 c arg1 harg1 arg2 harg2 x0 x1) (kernelRun0_A.sl.r_392 c arg2 harg2 x1) (kernelRun0_A.sl.r_393 c arg2 harg2 x1) (kernelRun0_A.sl.r_394 c arg2 harg2 x1) (ix1 n) = Pn x0 x1 n 44 1 := by
  refine Eq.trans ?_ (Pn_step x0 x1 n 44 43 (by decide) rfl 1).symm
  unfold k0_pay760
  simp only [addf_apply, mulf_apply, r_296_apply c arg1 harg1 arg2 harg2 x0 x1, broadcast_apply, r_392_apply c arg1 harg1 arg2 harg2 x0 x1, r_297_apply c arg1 harg1 arg2 harg2 x0 x1, r_393_apply c arg1 harg1 arg2 harg2 x0 x1, r_298_apply c arg1 harg1 arg2 harg2 x0 x1, r_394_apply c arg1 harg1 arg2 harg2 x0 x1, r_390_apply c arg1 harg1 arg2 harg2 x0 x1, Cn_anc_43 x0 x1 n]

theorem r_398_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_398 c arg1 harg1 arg2 harg2 x0 x1 (ix1 n) = Pn x0 x1 n 44 1 := by
  delta kernelRun0_A.sl.r_398
  simp only [k0_pay760_apply c arg1 harg1 arg2 harg2 x0 x1]

theorem k0_pay771_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay771 (F := Ideal) (kernelRun0_A.sl.r_296 c arg1 harg1 x0) (kernelRun0_A.sl.r_297 c arg1 harg1 x0) (kernelRun0_A.sl.r_298 c arg1 harg1 x0) (kernelRun0_A.sl.r_398 c arg1 harg1 arg2 harg2 x0 x1) (kernelRun0_A.sl.r_400 c arg2 harg2 x1) (kernelRun0_A.sl.r_401 c arg2 harg2 x1) (kernelRun0_A.sl.r_402 c arg2 harg2 x1) (ix2 u n) = Pn x0 x1 n 45 1 := by
  refine Eq.trans ?_ (Pn_step x0 x1 n 45 44 (by decide) rfl 1).symm
  unfold k0_pay771
  simp only [shapeCast_a_1a_apply, addf_apply, mulf_apply, r_296_apply c arg1 harg1 arg2 harg2 x0 x1, broadcast_apply, r_400_apply c arg1 harg1 arg2 harg2 x0 x1, r_297_apply c arg1 harg1 arg2 harg2 x0 x1, r_401_apply c arg1 harg1 arg2 harg2 x0 x1, r_298_apply c arg1 harg1 arg2 harg2 x0 x1, r_402_apply c arg1 harg1 arg2 harg2 x0 x1, r_398_apply c arg1 harg1 arg2 harg2 x0 x1, Cn_anc_44 x0 x1 n]

theorem k0_pay748_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay748 (F := Ideal) (kernelRun0_A.sl.r_293 c arg1 harg1 x0) (kernelRun0_A.sl.r_294 c arg1 harg1 x0) (kernelRun0_A.sl.r_295 c arg1 harg1 x0) (kernelRun0_A.sl.r_303 c arg1 harg1 arg2 harg2 x0 x1) (kernelRun0_A.sl.r_386 c arg2 harg2 x1) (kernelRun0_A.sl.r_387 c arg2 harg2 x1) (kernelRun0_A.sl.r_388 c arg2 harg2 x1) (ix1 n) = Pn x0 x1 n 43 0 := by
  refine Eq.trans ?_ (Pn_step x0 x1 n 43 21 (by decide) rfl 0).symm
  unfold k0_pay748
  simp only [addf_apply, mulf_apply, r_293_apply c arg1 harg1 arg2 harg2 x0 x1, broadcast_apply, r_386_apply c arg1 harg1 arg2 harg2 x0 x1, r_294_apply c arg1 harg1 arg2 harg2 x0 x1, r_387_apply c arg1 harg1 arg2 harg2 x0 x1, r_295_apply c arg1 harg1 arg2 harg2 x0 x1, r_388_apply c arg1 harg1 arg2 harg2 x0 x1, r_303_apply c arg1 harg1 arg2 harg2 x0 x1]

theorem r_389_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_389 c arg1 harg1 arg2 harg2 x0 x1 (ix1 n) = Pn x0 x1 n 43 0 := by
  delta kernelRun0_A.sl.r_389
  simp only [k0_pay748_apply c arg1 harg1 arg2 harg2 x0 x1]

theorem k0_pay757_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay757 (F := Ideal) (kernelRun0_A.sl.r_293 c arg1 harg1 x0) (View.readAt (Elt Ideal) arg2.view (Rect.unit (s := S3x55) ![0, 44] S1x1.size inb_S3x55_S1x1_0_44).toLoadRect (harg2.unread x1)) (ix1 n) = (Cn x0 x1 n 21 0 0 * Of x1 44 0) := by
  unfold k0_pay757
  simp only [mulf_apply, r_293_apply c arg1 harg1 arg2 harg2 x0 x1, broadcast_apply, k0_pay754_apply c arg1 harg1 arg2 harg2 x0 x1]

theorem r_395_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_395 c arg1 harg1 arg2 harg2 x0 x1 (ix1 n) = (Cn x0 x1 n 21 0 0 * Of x1 44 0) := by
  delta kernelRun0_A.sl.r_395
  simp only [k0_pay757_apply c arg1 harg1 arg2 harg2 x0 x1]

theorem k0_pay758_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay758 (F := Ideal) (View.readAt (Elt Ideal) arg2.view (Rect.unit (s := S3x55) ![1, 44] S1x1.size inb_S3x55_S1x1_1_44).toLoadRect (harg2.unread x1)) (ix1 n) = Of x1 44 1 := by
  unfold k0_pay758
  simp only [broadcast_apply, k0_pay755_apply c arg1 harg1 arg2 harg2 x0 x1]

theorem r_396_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_396 c arg2 harg2 x1 (ix1 n) = Of x1 44 1 := by
  delta kernelRun0_A.sl.r_396
  simp only [k0_pay758_apply c arg1 harg1 arg2 harg2 x0 x1]

theorem k0_pay759_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay759 (F := Ideal) (kernelRun0_A.sl.r_294 c arg1 harg1 x0) (kernelRun0_A.sl.r_295 c arg1 harg1 x0) (kernelRun0_A.sl.r_389 c arg1 harg1 arg2 harg2 x0 x1) (kernelRun0_A.sl.r_394 c arg2 harg2 x1) (kernelRun0_A.sl.r_395 c arg1 harg1 arg2 harg2 x0 x1) (kernelRun0_A.sl.r_396 c arg2 harg2 x1) (ix1 n) = Pn x0 x1 n 44 0 := by
  refine Eq.trans ?_ (Pn_step x0 x1 n 44 43 (by decide) rfl 0).symm
  unfold k0_pay759
  simp only [addf_apply, r_395_apply c arg1 harg1 arg2 harg2 x0 x1, mulf_apply, r_294_apply c arg1 harg1 arg2 harg2 x0 x1, r_396_apply c arg1 harg1 arg2 harg2 x0 x1, r_295_apply c arg1 harg1 arg2 harg2 x0 x1, broadcast_apply, r_394_apply c arg1 harg1 arg2 harg2 x0 x1, r_389_apply c arg1 harg1 arg2 harg2 x0 x1, Cn_anc_43 x0 x1 n]

theorem r_397_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_397 c arg1 harg1 arg2 harg2 x0 x1 (ix1 n) = Pn x0 x1 n 44 0 := by
  delta kernelRun0_A.sl.r_397
  simp only [k0_pay759_apply c arg1 harg1 arg2 harg2 x0 x1]

theorem k0_pay768_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay768 (F := Ideal) (kernelRun0_A.sl.r_293 c arg1 harg1 x0) (kernelRun0_A.sl.r_294 c arg1 harg1 x0) (View.readAt (Elt Ideal) arg2.view (Rect.unit (s := S3x55) ![0, 45] S1x1.size inb_S3x55_S1x1_0_45).toLoadRect (harg2.unread x1)) (View.readAt (Elt Ideal) arg2.view (Rect.unit (s := S3x55) ![1, 45] S1x1.size inb_S3x55_S1x1_1_45).toLoadRect (harg2.unread x1)) (ix1 n) = ((Cn x0 x1 n 21 0 0 * Of x1 45 0) + (Cn x0 x1 n 21 0 1 * Of x1 45 1)) := by
  unfold k0_pay768
  simp only [addf_apply, mulf_apply, r_293_apply c arg1 harg1 arg2 harg2 x0 x1, broadcast_apply, k0_pay765_apply c arg1 harg1 arg2 harg2 x0 x1, r_294_apply c arg1 harg1 arg2 harg2 x0 x1, k0_pay766_apply c arg1 harg1 arg2 harg2 x0 x1]

theorem r_403_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_403 c arg1 harg1 arg2 harg2 x0 x1 (ix1 n) = ((Cn x0 x1 n 21 0 0 * Of x1 45 0) + (Cn x0 x1 n 21 0 1 * Of x1 45 1)) := by
  delta kernelRun0_A.sl.r_403
  simp only [k0_pay768_apply c arg1 harg1 arg2 harg2 x0 x1]

theorem k0_pay769_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay769 (F := Ideal) (View.readAt (Elt Ideal) arg2.view (Rect.unit (s := S3x55) ![2, 45] S1x1.size inb_S3x55_S1x1_2_45).toLoadRect (harg2.unread x1)) (ix1 n) = Of x1 45 2 := by
  unfold k0_pay769
  simp only [broadcast_apply, k0_pay767_apply c arg1 harg1 arg2 harg2 x0 x1]

theorem r_404_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_404 c arg2 harg2 x1 (ix1 n) = Of x1 45 2 := by
  delta kernelRun0_A.sl.r_404
  simp only [k0_pay769_apply c arg1 harg1 arg2 harg2 x0 x1]

theorem k0_pay770_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay770 (F := Ideal) (kernelRun0_A.sl.r_295 c arg1 harg1 x0) (kernelRun0_A.sl.r_397 c arg1 harg1 arg2 harg2 x0 x1) (kernelRun0_A.sl.r_403 c arg1 harg1 arg2 harg2 x0 x1) (kernelRun0_A.sl.r_404 c arg2 harg2 x1) (ix2 u n) = Pn x0 x1 n 45 0 := by
  refine Eq.trans ?_ (Pn_step x0 x1 n 45 44 (by decide) rfl 0).symm
  unfold k0_pay770
  simp only [shapeCast_a_1a_apply, addf_apply, r_403_apply c arg1 harg1 arg2 harg2 x0 x1, mulf_apply, r_295_apply c arg1 harg1 arg2 harg2 x0 x1, r_404_apply c arg1 harg1 arg2 harg2 x0 x1, r_397_apply c arg1 harg1 arg2 harg2 x0 x1, Cn_anc_44 x0 x1 n]

theorem k0_pay764_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay764 (F := Ideal) (kernelRun0_A.sl.r_299 c arg1 harg1 x0) (kernelRun0_A.sl.r_300 c arg1 harg1 x0) (kernelRun0_A.sl.r_301 c arg1 harg1 x0) (kernelRun0_A.sl.r_391 c arg1 harg1 arg2 harg2 x0 x1) (kernelRun0_A.sl.r_392 c arg2 harg2 x1) (kernelRun0_A.sl.r_393 c arg2 harg2 x1) (kernelRun0_A.sl.r_394 c arg2 harg2 x1) (ix2 u n) = Pn x0 x1 n 44 2 := by
  unfold k0_pay764
  simp only [shapeCast_a_1a_apply, k0_pay761_apply c arg1 harg1 arg2 harg2 x0 x1]

theorem k0_pay763_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay763 (F := Ideal) (kernelRun0_A.sl.r_296 c arg1 harg1 x0) (kernelRun0_A.sl.r_297 c arg1 harg1 x0) (kernelRun0_A.sl.r_298 c arg1 harg1 x0) (kernelRun0_A.sl.r_390 c arg1 harg1 arg2 harg2 x0 x1) (kernelRun0_A.sl.r_392 c arg2 harg2 x1) (kernelRun0_A.sl.r_393 c arg2 harg2 x1) (kernelRun0_A.sl.r_394 c arg2 harg2 x1) (ix2 u n) = Pn x0 x1 n 44 1 := by
  unfold k0_pay763
  simp only [shapeCast_a_1a_apply, k0_pay760_apply c arg1 harg1 arg2 harg2 x0 x1]

theorem k0_pay762_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay762 (F := Ideal) (kernelRun0_A.sl.r_294 c arg1 harg1 x0) (kernelRun0_A.sl.r_295 c arg1 harg1 x0) (kernelRun0_A.sl.r_389 c arg1 harg1 arg2 harg2 x0 x1) (kernelRun0_A.sl.r_394 c arg2 harg2 x1) (kernelRun0_A.sl.r_395 c arg1 harg1 arg2 harg2 x0 x1) (kernelRun0_A.sl.r_396 c arg2 harg2 x1) (ix2 u n) = Pn x0 x1 n 44 0 := by
  unfold k0_pay762
  simp only [shapeCast_a_1a_apply, k0_pay759_apply c arg1 harg1 arg2 harg2 x0 x1]

theorem k0_pay753_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay753 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_386 c arg2 harg2 x1) (kernelRun0_A.sl.r_387 c arg2 harg2 x1) (kernelRun0_A.sl.r_388 c arg2 harg2 x1) (ix2 u n) = Pn x0 x1 n 43 2 := by
  unfold k0_pay753
  simp only [shapeCast_a_1a_apply, k0_pay750_apply c arg1 harg1 arg2 harg2 x0 x1]

theorem k0_pay752_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay752 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (kernelRun0_A.sl.r_386 c arg2 harg2 x1) (kernelRun0_A.sl.r_387 c arg2 harg2 x1) (kernelRun0_A.sl.r_388 c arg2 harg2 x1) (ix2 u n) = Pn x0 x1 n 43 1 := by
  unfold k0_pay752
  simp only [shapeCast_a_1a_apply, k0_pay749_apply c arg1 harg1 arg2 harg2 x0 x1]

theorem k0_pay751_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay751 (F := Ideal) (kernelRun0_A.sl.r_293 c arg1 harg1 x0) (kernelRun0_A.sl.r_294 c arg1 harg1 x0) (kernelRun0_A.sl.r_295 c arg1 harg1 x0) (kernelRun0_A.sl.r_303 c arg1 harg1 arg2 harg2 x0 x1) (kernelRun0_A.sl.r_386 c arg2 harg2 x1) (kernelRun0_A.sl.r_387 c arg2 harg2 x1) (kernelRun0_A.sl.r_388 c arg2 harg2 x1) (ix2 u n) = Pn x0 x1 n 43 0 := by
  unfold k0_pay751
  simp only [shapeCast_a_1a_apply, k0_pay748_apply c arg1 harg1 arg2 harg2 x0 x1]

theorem k0_pay721_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay721 (F := Ideal) (kernelRun0_A.sl.r_376 c arg2 harg2 x1) = Of x1 40 0 := by
  unfold k0_pay721
  delta kernelRun0_A.sl.r_376
  simp only [rel_read x1 arg2 harg2 0 40 (0 : Fin 3) rfl (by decide)]

theorem k0_pay722_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay722 (F := Ideal) (View.readAt (Elt Ideal) arg2.view (Rect.unit (s := S3x55) ![1, 40] S1x1.size inb_S3x55_S1x1_1_40).toLoadRect (harg2.unread x1)) = Of x1 40 1 := by
  unfold k0_pay722
  simp only [rel_read x1 arg2 harg2 1 40 (1 : Fin 3) rfl (by decide)]

theorem k0_pay723_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay723 (F := Ideal) (View.readAt (Elt Ideal) arg2.view (Rect.unit (s := S3x55) ![2, 40] S1x1.size inb_S3x55_S1x1_2_40).toLoadRect (harg2.unread x1)) = Of x1 40 2 := by
  unfold k0_pay723
  simp only [rel_read x1 arg2 harg2 2 40 (2 : Fin 3) rfl (by decide)]

theorem k0_pay726_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay726 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_376 c arg2 harg2 x1) (View.readAt (Elt Ideal) arg2.view (Rect.unit (s := S3x55) ![1, 40] S1x1.size inb_S3x55_S1x1_1_40).toLoadRect (harg2.unread x1)) (View.readAt (Elt Ideal) arg2.view (Rect.unit (s := S3x55) ![2, 40] S1x1.size inb_S3x55_S1x1_2_40).toLoadRect (harg2.unread x1)) (ix1 n) = Pn x0 x1 n 40 2 := by
  refine Eq.trans ?_ (Pn_step x0 x1 n 40 21 (by decide) rfl 2).symm
  unfold k0_pay726
  simp only [addf_apply, mulf_apply, r_299_apply c arg1 harg1 arg2 harg2 x0 x1, broadcast_apply, k0_pay721_apply c arg1 harg1 arg2 harg2 x0 x1, r_300_apply c arg1 harg1 arg2 harg2 x0 x1, k0_pay722_apply c arg1 harg1 arg2 harg2 x0 x1, r_301_apply c arg1 harg1 arg2 harg2 x0 x1, k0_pay723_apply c arg1 harg1 arg2 harg2 x0 x1, r_305_apply c arg1 harg1 arg2 harg2 x0 x1]

theorem r_379_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_379 c arg1 harg1 arg2 harg2 x0 x1 (ix1 n) = Pn x0 x1 n 40 2 := by
  delta kernelRun0_A.sl.r_379
  simp only [k0_pay726_apply c arg1 harg1 arg2 harg2 x0 x1]

theorem k0_pay730_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay730 (F := Ideal) (View.readAt (Elt Ideal) arg2.view (Rect.unit (s := S3x55) ![0, 41] S1x1.size inb_S3x55_S1x1_0_41).toLoadRect (harg2.unread x1)) = Of x1 41 0 := by
  unfold k0_pay730
  simp only [rel_read x1 arg2 harg2 0 41 (0 : Fin 3) rfl (by decide)]

theorem r_380_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_380 c arg2 harg2 x1 = Of x1 41 0 := by
  delta kernelRun0_A.sl.r_380
  simp only [k0_pay730_apply c arg1 harg1 arg2 harg2 x0 x1]

theorem k0_pay731_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay731 (F := Ideal) (View.readAt (Elt Ideal) arg2.view (Rect.unit (s := S3x55) ![1, 41] S1x1.size inb_S3x55_S1x1_1_41).toLoadRect (harg2.unread x1)) = Of x1 41 1 := by
  unfold k0_pay731
  simp only [rel_read x1 arg2 harg2 1 41 (1 : Fin 3) rfl (by decide)]

theorem k0_pay732_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay732 (F := Ideal) (View.readAt (Elt Ideal) arg2.view (Rect.unit (s := S3x55) ![2, 41] S1x1.size inb_S3x55_S1x1_2_41).toLoadRect (harg2.unread x1)) = Of x1 41 2 := by
  unfold k0_pay732
  simp only [rel_read x1 arg2 harg2 2 41 (2 : Fin 3) rfl (by decide)]

theorem k0_pay735_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay735 (F := Ideal) (kernelRun0_A.sl.r_299 c arg1 harg1 x0) (kernelRun0_A.sl.r_300 c arg1 harg1 x0) (kernelRun0_A.sl.r_301 c arg1 harg1 x0) (kernelRun0_A.sl.r_379 c arg1 harg1 arg2 harg2 x0 x1) (kernelRun0_A.sl.r_380 c arg2 harg2 x1) (View.readAt (Elt Ideal) arg2.view (Rect.unit (s := S3x55) ![1, 41] S1x1.size inb_S3x55_S1x1_1_41).toLoadRect (harg2.unread x1)) (View.readAt (Elt Ideal) arg2.view (Rect.unit (s := S3x55) ![2, 41] S1x1.size inb_S3x55_S1x1_2_41).toLoadRect (harg2.unread x1)) (ix1 n) = Pn x0 x1 n 41 2 := by
  refine Eq.trans ?_ (Pn_step x0 x1 n 41 40 (by decide) rfl 2).symm
  unfold k0_pay735
  simp only [addf_apply, mulf_apply, r_299_apply c arg1 harg1 arg2 harg2 x0 x1, broadcast_apply, r_380_apply c arg1 harg1 arg2 harg2 x0 x1, r_300_apply c arg1 harg1 arg2 harg2 x0 x1, k0_pay731_apply c arg1 harg1 arg2 harg2 x0 x1, r_301_apply c arg1 harg1 arg2 harg2 x0 x1, k0_pay732_apply c arg1 harg1 arg2 harg2 x0 x1, r_379_apply c arg1 harg1 arg2 harg2 x0 x1, Cn_anc_40 x0 x1 n]

theorem r_383_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_383 c arg1 harg1 arg2 harg2 x0 x1 (ix1 n) = Pn x0 x1 n 41 2 := by
  delta kernelRun0_A.sl.r_383
  simp only [k0_pay735_apply c arg1 harg1 arg2 harg2 x0 x1]

theorem k0_pay739_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay739 (F := Ideal) (View.readAt (Elt Ideal) arg2.view (Rect.unit (s := S3x55) ![0, 42] S1x1.size inb_S3x55_S1x1_0_42).toLoadRect (harg2.unread x1)) = Of x1 42 0 := by
  unfold k0_pay739
  simp only [rel_read x1 arg2 harg2 0 42 (0 : Fin 3) rfl (by decide)]

theorem r_384_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_384 c arg2 harg2 x1 = Of x1 42 0 := by
  delta kernelRun0_A.sl.r_384
  simp only [k0_pay739_apply c arg1 harg1 arg2 harg2 x0 x1]

theorem k0_pay740_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay740 (F := Ideal) (View.readAt (Elt Ideal) arg2.view (Rect.unit (s := S3x55) ![1, 42] S1x1.size inb_S3x55_S1x1_1_42).toLoadRect (harg2.unread x1)) = Of x1 42 1 := by
  unfold k0_pay740
  simp only [rel_read x1 arg2 harg2 1 42 (1 : Fin 3) rfl (by decide)]

theorem r_385_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_385 c arg2 harg2 x1 = Of x1 42 1 := by
  delta kernelRun0_A.sl.r_385
  simp only [k0_pay740_apply c arg1 harg1 arg2 harg2 x0 x1]

theorem k0_pay741_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay741 (F := Ideal) (View.readAt (Elt Ideal) arg2.view (Rect.unit (s := S3x55) ![2, 42] S1x1.size inb_S3x55_S1x1_2_42).toLoadRect (harg2.unread x1)) = Of x1 42 2 := by
  unfold k0_pay741
  simp only [rel_read x1 arg2 harg2 2 42 (2 : Fin 3) rfl (by decide)]

theorem k0_pay744_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay744 (F := Ideal) (kernelRun0_A.sl.r_299 c arg1 harg1 x0) (kernelRun0_A.sl.r_300 c arg1 harg1 x0) (kernelRun0_A.sl.r_301 c arg1 harg1 x0) (kernelRun0_A.sl.r_383 c arg1 harg1 arg2 harg2 x0 x1) (kernelRun0_A.sl.r_384 c arg2 harg2 x1) (kernelRun0_A.sl.r_385 c arg2 harg2 x1) (View.readAt (Elt Ideal) arg2.view (Rect.unit (s := S3x55) ![2, 42] S1x1.size inb_S3x55_S1x1_2_42).toLoadRect (harg2.unread x1)) (ix2 u n) = Pn x0 x1 n 42 2 := by
  refine Eq.trans ?_ (Pn_step x0 x1 n 42 41 (by decide) rfl 2).symm
  unfold k0_pay744
  simp only [shapeCast_a_1a_apply, addf_apply, mulf_apply, r_299_apply c arg1 harg1 arg2 harg2 x0 x1, broadcast_apply, r_384_apply c arg1 harg1 arg2 harg2 x0 x1, r_300_apply c arg1 harg1 arg2 harg2 x0 x1, r_385_apply c arg1 harg1 arg2 harg2 x0 x1, r_301_apply c arg1 harg1 arg2 harg2 x0 x1, k0_pay741_apply c arg1 harg1 arg2 harg2 x0 x1, r_383_apply c arg1 harg1 arg2 harg2 x0 x1, Cn_anc_41 x0 x1 n]

theorem k0_pay725_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay725 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (kernelRun0_A.sl.r_376 c arg2 harg2 x1) (View.readAt (Elt Ideal) arg2.view (Rect.unit (s := S3x55) ![1, 40] S1x1.size inb_S3x55_S1x1_1_40).toLoadRect (harg2.unread x1)) (View.readAt (Elt Ideal) arg2.view (Rect.unit (s := S3x55) ![2, 40] S1x1.size inb_S3x55_S1x1_2_40).toLoadRect (harg2.unread x1)) (ix1 n) = Pn x0 x1 n 40 1 := by
  refine Eq.trans ?_ (Pn_step x0 x1 n 40 21 (by decide) rfl 1).symm
  unfold k0_pay725
  simp only [addf_apply, mulf_apply, r_296_apply c arg1 harg1 arg2 harg2 x0 x1, broadcast_apply, k0_pay721_apply c arg1 harg1 arg2 harg2 x0 x1, r_297_apply c arg1 harg1 arg2 harg2 x0 x1, k0_pay722_apply c arg1 harg1 arg2 harg2 x0 x1, r_298_apply c arg1 harg1 arg2 harg2 x0 x1, k0_pay723_apply c arg1 harg1 arg2 harg2 x0 x1, r_304_apply c arg1 harg1 arg2 harg2 x0 x1]

theorem r_378_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_378 c arg1 harg1 arg2 harg2 x0 x1 (ix1 n) = Pn x0 x1 n 40 1 := by
  delta kernelRun0_A.sl.r_378
  simp only [k0_pay725_apply c arg1 harg1 arg2 harg2 x0 x1]

theorem k0_pay734_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay734 (F := Ideal) (kernelRun0_A.sl.r_296 c arg1 harg1 x0) (kernelRun0_A.sl.r_297 c arg1 harg1 x0) (kernelRun0_A.sl.r_298 c arg1 harg1 x0) (kernelRun0_A.sl.r_378 c arg1 harg1 arg2 harg2 x0 x1) (kernelRun0_A.sl.r_380 c arg2 harg2 x1) (View.readAt (Elt Ideal) arg2.view (Rect.unit (s := S3x55) ![1, 41] S1x1.size inb_S3x55_S1x1_1_41).toLoadRect (harg2.unread x1)) (View.readAt (Elt Ideal) arg2.view (Rect.unit (s := S3x55) ![2, 41] S1x1.size inb_S3x55_S1x1_2_41).toLoadRect (harg2.unread x1)) (ix1 n) = Pn x0 x1 n 41 1 := by
  refine Eq.trans ?_ (Pn_step x0 x1 n 41 40 (by decide) rfl 1).symm
  unfold k0_pay734
  simp only [addf_apply, mulf_apply, r_296_apply c arg1 harg1 arg2 harg2 x0 x1, broadcast_apply, r_380_apply c arg1 harg1 arg2 harg2 x0 x1, r_297_apply c arg1 harg1 arg2 harg2 x0 x1, k0_pay731_apply c arg1 harg1 arg2 harg2 x0 x1, r_298_apply c arg1 harg1 arg2 harg2 x0 x1, k0_pay732_apply c arg1 harg1 arg2 harg2 x0 x1, r_378_apply c arg1 harg1 arg2 harg2 x0 x1, Cn_anc_40 x0 x1 n]

theorem r_382_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_382 c arg1 harg1 arg2 harg2 x0 x1 (ix1 n) = Pn x0 x1 n 41 1 := by
  delta kernelRun0_A.sl.r_382
  simp only [k0_pay734_apply c arg1 harg1 arg2 harg2 x0 x1]

theorem k0_pay743_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay743 (F := Ideal) (kernelRun0_A.sl.r_296 c arg1 harg1 x0) (kernelRun0_A.sl.r_297 c arg1 harg1 x0) (kernelRun0_A.sl.r_298 c arg1 harg1 x0) (kernelRun0_A.sl.r_382 c arg1 harg1 arg2 harg2 x0 x1) (kernelRun0_A.sl.r_384 c arg2 harg2 x1) (kernelRun0_A.sl.r_385 c arg2 harg2 x1) (View.readAt (Elt Ideal) arg2.view (Rect.unit (s := S3x55) ![2, 42] S1x1.size inb_S3x55_S1x1_2_42).toLoadRect (harg2.unread x1)) (ix2 u n) = Pn x0 x1 n 42 1 := by
  refine Eq.trans ?_ (Pn_step x0 x1 n 42 41 (by decide) rfl 1).symm
  unfold k0_pay743
  simp only [shapeCast_a_1a_apply, addf_apply, mulf_apply, r_296_apply c arg1 harg1 arg2 harg2 x0 x1, broadcast_apply, r_384_apply c arg1 harg1 arg2 harg2 x0 x1, r_297_apply c arg1 harg1 arg2 harg2 x0 x1, r_385_apply c arg1 harg1 arg2 harg2 x0 x1, r_298_apply c arg1 harg1 arg2 harg2 x0 x1, k0_pay741_apply c arg1 harg1 arg2 harg2 x0 x1, r_382_apply c arg1 harg1 arg2 harg2 x0 x1, Cn_anc_41 x0 x1 n]

theorem k0_pay724_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay724 (F := Ideal) (kernelRun0_A.sl.r_293 c arg1 harg1 x0) (kernelRun0_A.sl.r_294 c arg1 harg1 x0) (kernelRun0_A.sl.r_295 c arg1 harg1 x0) (kernelRun0_A.sl.r_303 c arg1 harg1 arg2 harg2 x0 x1) (kernelRun0_A.sl.r_376 c arg2 harg2 x1) (View.readAt (Elt Ideal) arg2.view (Rect.unit (s := S3x55) ![1, 40] S1x1.size inb_S3x55_S1x1_1_40).toLoadRect (harg2.unread x1)) (View.readAt (Elt Ideal) arg2.view (Rect.unit (s := S3x55) ![2, 40] S1x1.size inb_S3x55_S1x1_2_40).toLoadRect (harg2.unread x1)) (ix1 n) = Pn x0 x1 n 40 0 := by
  refine Eq.trans ?_ (Pn_step x0 x1 n 40 21 (by decide) rfl 0).symm
  unfold k0_pay724
  simp only [addf_apply, mulf_apply, r_293_apply c arg1 harg1 arg2 harg2 x0 x1, broadcast_apply, k0_pay721_apply c arg1 harg1 arg2 harg2 x0 x1, r_294_apply c arg1 harg1 arg2 harg2 x0 x1, k0_pay722_apply c arg1 harg1 arg2 harg2 x0 x1, r_295_apply c arg1 harg1 arg2 harg2 x0 x1, k0_pay723_apply c arg1 harg1 arg2 harg2 x0 x1, r_303_apply c arg1 harg1 arg2 harg2 x0 x1]

theorem r_377_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_377 c arg1 harg1 arg2 harg2 x0 x1 (ix1 n) = Pn x0 x1 n 40 0 := by
  delta kernelRun0_A.sl.r_377
  simp only [k0_pay724_apply c arg1 harg1 arg2 harg2 x0 x1]

theorem k0_pay733_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay733 (F := Ideal) (kernelRun0_A.sl.r_293 c arg1 harg1 x0) (kernelRun0_A.sl.r_294 c arg1 harg1 x0) (kernelRun0_A.sl.r_295 c arg1 harg1 x0) (kernelRun0_A.sl.r_377 c arg1 harg1 arg2 harg2 x0 x1) (kernelRun0_A.sl.r_380 c arg2 harg2 x1) (View.readAt (Elt Ideal) arg2.view (Rect.unit (s := S3x55) ![1, 41] S1x1.size inb_S3x55_S1x1_1_41).toLoadRect (harg2.unread x1)) (View.readAt (Elt Ideal) arg2.view (Rect.unit (s := S3x55) ![2, 41] S1x1.size inb_S3x55_S1x1_2_41).toLoadRect (harg2.unread x1)) (ix1 n) = Pn x0 x1 n 41 0 := by
  refine Eq.trans ?_ (Pn_step x0 x1 n 41 40 (by decide) rfl 0).symm
  unfold k0_pay733
  simp only [addf_apply, mulf_apply, r_293_apply c arg1 harg1 arg2 harg2 x0 x1, broadcast_apply, r_380_apply c arg1 harg1 arg2 harg2 x0 x1, r_294_apply c arg1 harg1 arg2 harg2 x0 x1, k0_pay731_apply c arg1 harg1 arg2 harg2 x0 x1, r_295_apply c arg1 harg1 arg2 harg2 x0 x1, k0_pay732_apply c arg1 harg1 arg2 harg2 x0 x1, r_377_apply c arg1 harg1 arg2 harg2 x0 x1, Cn_anc_40 x0 x1 n]

theorem r_381_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_381 c arg1 harg1 arg2 harg2 x0 x1 (ix1 n) = Pn x0 x1 n 41 0 := by
  delta kernelRun0_A.sl.r_381
  simp only [k0_pay733_apply c arg1 harg1 arg2 harg2 x0 x1]

theorem k0_pay742_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay742 (F := Ideal) (kernelRun0_A.sl.r_293 c arg1 harg1 x0) (kernelRun0_A.sl.r_294 c arg1 harg1 x0) (kernelRun0_A.sl.r_295 c arg1 harg1 x0) (kernelRun0_A.sl.r_381 c arg1 harg1 arg2 harg2 x0 x1) (kernelRun0_A.sl.r_384 c arg2 harg2 x1) (kernelRun0_A.sl.r_385 c arg2 harg2 x1) (View.readAt (Elt Ideal) arg2.view (Rect.unit (s := S3x55) ![2, 42] S1x1.size inb_S3x55_S1x1_2_42).toLoadRect (harg2.unread x1)) (ix2 u n) = Pn x0 x1 n 42 0 := by
  refine Eq.trans ?_ (Pn_step x0 x1 n 42 41 (by decide) rfl 0).symm
  unfold k0_pay742
  simp only [shapeCast_a_1a_apply, addf_apply, mulf_apply, r_293_apply c arg1 harg1 arg2 harg2 x0 x1, broadcast_apply, r_384_apply c arg1 harg1 arg2 harg2 x0 x1, r_294_apply c arg1 harg1 arg2 harg2 x0 x1, r_385_apply c arg1 harg1 arg2 harg2 x0 x1, r_295_apply c arg1 harg1 arg2 harg2 x0 x1, k0_pay741_apply c arg1 harg1 arg2 harg2 x0 x1, r_381_apply c arg1 harg1 arg2 harg2 x0 x1, Cn_anc_41 x0 x1 n]

theorem k0_pay738_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay738 (F := Ideal) (kernelRun0_A.sl.r_299 c arg1 harg1 x0) (kernelRun0_A.sl.r_300 c arg1 harg1 x0) (kernelRun0_A.sl.r_301 c arg1 harg1 x0) (kernelRun0_A.sl.r_379 c arg1 harg1 arg2 harg2 x0 x1) (kernelRun0_A.sl.r_380 c arg2 harg2 x1) (View.readAt (Elt Ideal) arg2.view (Rect.unit (s := S3x55) ![1, 41] S1x1.size inb_S3x55_S1x1_1_41).toLoadRect (harg2.unread x1)) (View.readAt (Elt Ideal) arg2.view (Rect.unit (s := S3x55) ![2, 41] S1x1.size inb_S3x55_S1x1_2_41).toLoadRect (harg2.unread x1)) (ix2 u n) = Pn x0 x1 n 41 2 := by
  unfold k0_pay738
  simp only [shapeCast_a_1a_apply, k0_pay735_apply c arg1 harg1 arg2 harg2 x0 x1]

theorem k0_pay737_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay737 (F := Ideal) (kernelRun0_A.sl.r_296 c arg1 harg1 x0) (kernelRun0_A.sl.r_297 c arg1 harg1 x0) (kernelRun0_A.sl.r_298 c arg1 harg1 x0) (kernelRun0_A.sl.r_378 c arg1 harg1 arg2 harg2 x0 x1) (kernelRun0_A.sl.r_380 c arg2 harg2 x1) (View.readAt (Elt Ideal) arg2.view (Rect.unit (s := S3x55) ![1, 41] S1x1.size inb_S3x55_S1x1_1_41).toLoadRect (harg2.unread x1)) (View.readAt (Elt Ideal) arg2.view (Rect.unit (s := S3x55) ![2, 41] S1x1.size inb_S3x55_S1x1_2_41).toLoadRect (harg2.unread x1)) (ix2 u n) = Pn x0 x1 n 41 1 := by
  unfold k0_pay737
  simp only [shapeCast_a_1a_apply, k0_pay734_apply c arg1 harg1 arg2 harg2 x0 x1]

theorem k0_pay736_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay736 (F := Ideal) (kernelRun0_A.sl.r_293 c arg1 harg1 x0) (kernelRun0_A.sl.r_294 c arg1 harg1 x0) (kernelRun0_A.sl.r_295 c arg1 harg1 x0) (kernelRun0_A.sl.r_377 c arg1 harg1 arg2 harg2 x0 x1) (kernelRun0_A.sl.r_380 c arg2 harg2 x1) (View.readAt (Elt Ideal) arg2.view (Rect.unit (s := S3x55) ![1, 41] S1x1.size inb_S3x55_S1x1_1_41).toLoadRect (harg2.unread x1)) (View.readAt (Elt Ideal) arg2.view (Rect.unit (s := S3x55) ![2, 41] S1x1.size inb_S3x55_S1x1_2_41).toLoadRect (harg2.unread x1)) (ix2 u n) = Pn x0 x1 n 41 0 := by
  unfold k0_pay736
  simp only [shapeCast_a_1a_apply, k0_pay733_apply c arg1 harg1 arg2 harg2 x0 x1]

theorem k0_pay729_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay729 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_376 c arg2 harg2 x1) (View.readAt (Elt Ideal) arg2.view (Rect.unit (s := S3x55) ![1, 40] S1x1.size inb_S3x55_S1x1_1_40).toLoadRect (harg2.unread x1)) (View.readAt (Elt Ideal) arg2.view (Rect.unit (s := S3x55) ![2, 40] S1x1.size inb_S3x55_S1x1_2_40).toLoadRect (harg2.unread x1)) (ix2 u n) = Pn x0 x1 n 40 2 := by
  unfold k0_pay729
  simp only [shapeCast_a_1a_apply, k0_pay726_apply c arg1 harg1 arg2 harg2 x0 x1]

theorem k0_pay728_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay728 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (kernelRun0_A.sl.r_376 c arg2 harg2 x1) (View.readAt (Elt Ideal) arg2.view (Rect.unit (s := S3x55) ![1, 40] S1x1.size inb_S3x55_S1x1_1_40).toLoadRect (harg2.unread x1)) (View.readAt (Elt Ideal) arg2.view (Rect.unit (s := S3x55) ![2, 40] S1x1.size inb_S3x55_S1x1_2_40).toLoadRect (harg2.unread x1)) (ix2 u n) = Pn x0 x1 n 40 1 := by
  unfold k0_pay728
  simp only [shapeCast_a_1a_apply, k0_pay725_apply c arg1 harg1 arg2 harg2 x0 x1]

theorem k0_pay727_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay727 (F := Ideal) (kernelRun0_A.sl.r_293 c arg1 harg1 x0) (kernelRun0_A.sl.r_294 c arg1 harg1 x0) (kernelRun0_A.sl.r_295 c arg1 harg1 x0) (kernelRun0_A.sl.r_303 c arg1 harg1 arg2 harg2 x0 x1) (kernelRun0_A.sl.r_376 c arg2 harg2 x1) (View.readAt (Elt Ideal) arg2.view (Rect.unit (s := S3x55) ![1, 40] S1x1.size inb_S3x55_S1x1_1_40).toLoadRect (harg2.unread x1)) (View.readAt (Elt Ideal) arg2.view (Rect.unit (s := S3x55) ![2, 40] S1x1.size inb_S3x55_S1x1_2_40).toLoadRect (harg2.unread x1)) (ix2 u n) = Pn x0 x1 n 40 0 := by
  unfold k0_pay727
  simp only [shapeCast_a_1a_apply, k0_pay724_apply c arg1 harg1 arg2 harg2 x0 x1]

theorem k0_pay312_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay312 (F := Ideal) (kernelRun0_A.sl.v2 c arg1 harg1 x0) (ix1 n) = Rw x0 n 13 0 0 := by
  unfold k0_pay312
  simp only [shapeCast_1a_a_apply, slice_row 117 (117 : Fin 198) rfl, v2_apply c arg1 harg1 arg2 harg2 x0 x1, Rw_eq x0 n 13 0 0 (117 : Fin 198) (by decide)]

theorem r_144_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_144 c arg1 harg1 x0 (ix1 n) = Rw x0 n 13 0 0 := by
  delta kernelRun0_A.sl.r_144
  simp only [k0_pay312_apply c arg1 harg1 arg2 harg2 x0 x1]

theorem k0_pay315_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay315 (F := Ideal) (kernelRun0_A.sl.v2 c arg1 harg1 x0) (ix1 n) = Rw x0 n 13 1 0 := by
  unfold k0_pay315
  simp only [shapeCast_1a_a_apply, slice_row 120 (120 : Fin 198) rfl, v2_apply c arg1 harg1 arg2 harg2 x0 x1, Rw_eq x0 n 13 1 0 (120 : Fin 198) (by decide)]

theorem r_147_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_147 c arg1 harg1 x0 (ix1 n) = Rw x0 n 13 1 0 := by
  delta kernelRun0_A.sl.r_147
  simp only [k0_pay315_apply c arg1 harg1 arg2 harg2 x0 x1]

theorem k0_pay319_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay319 (F := Ideal) (kernelRun0_A.sl.v2 c arg1 harg1 x0) (ix1 n) = Rw x0 n 13 2 0 := by
  unfold k0_pay319
  simp only [shapeCast_1a_a_apply, slice_row 123 (123 : Fin 198) rfl, v2_apply c arg1 harg1 arg2 harg2 x0 x1, Rw_eq x0 n 13 2 0 (123 : Fin 198) (by decide)]

theorem k0_pay328_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay328 (F := Ideal) (kernelRun0_A.sl.v2 c arg1 harg1 x0) (kernelRun0_A.sl.r_118 c arg1 harg1 x0) (kernelRun0_A.sl.r_119 c arg1 harg1 x0) (kernelRun0_A.sl.r_120 c arg1 harg1 x0) (kernelRun0_A.sl.r_144 c arg1 harg1 x0) (kernelRun0_A.sl.r_147 c arg1 harg1 x0) (ix1 n) = Cn x0 x1 n 13 2 0 := by
  refine Eq.trans ?_ (Cn_step x0 x1 n 13 9 (by decide) rfl (by decide) 2 0).symm
  unfold k0_pay328
  simp only [addf_apply, mulf_apply, r_118_apply c arg1 harg1 arg2 harg2 x0 x1, r_144_apply c arg1 harg1 arg2 harg2 x0 x1, r_119_apply c arg1 harg1 arg2 harg2 x0 x1, r_147_apply c arg1 harg1 arg2 harg2 x0 x1, r_120_apply c arg1 harg1 arg2 harg2 x0 x1, k0_pay319_apply c arg1 harg1 arg2 harg2 x0 x1]

theorem r_155_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_155 c arg1 harg1 x0 (ix1 n) = Cn x0 x1 n 13 2 0 := by
  delta kernelRun0_A.sl.r_155
  simp only [k0_pay328_apply c arg1 harg1 arg2 harg2 x0 x1]

theorem k0_pay313_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay313 (F := Ideal) (kernelRun0_A.sl.v2 c arg1 harg1 x0) (ix1 n) = Rw x0 n 13 0 1 := by
  unfold k0_pay313
  simp only [shapeCast_1a_a_apply, slice_row 118 (118 : Fin 198) rfl, v2_apply c arg1 harg1 arg2 harg2 x0 x1, Rw_eq x0 n 13 0 1 (118 : Fin 198) (by decide)]

theorem r_145_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_145 c arg1 harg1 x0 (ix1 n) = Rw x0 n 13 0 1 := by
  delta kernelRun0_A.sl.r_145
  simp only [k0_pay313_apply c arg1 harg1 arg2 harg2 x0 x1]

theorem k0_pay316_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay316 (F := Ideal) (kernelRun0_A.sl.v2 c arg1 harg1 x0) (ix2 u n) = Rw x0 n 13 1 1 := by
  unfold k0_pay316
  simp only [slice_row 121 (121 : Fin 198) rfl, v2_apply c arg1 harg1 arg2 harg2 x0 x1, Rw_eq x0 n 13 1 1 (121 : Fin 198) (by decide)]

theorem r_148_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_148 c arg1 harg1 x0 (ix2 u n) = Rw x0 n 13 1 1 := by
  delta kernelRun0_A.sl.r_148
  simp only [k0_pay316_apply c arg1 harg1 arg2 harg2 x0 x1]

theorem k0_pay317_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay317 (F := Ideal) (kernelRun0_A.sl.r_148 c arg1 harg1 x0) (ix1 n) = Rw x0 n 13 1 1 := by
  unfold k0_pay317
  simp only [shapeCast_1a_a_apply, r_148_apply c arg1 harg1 arg2 harg2 x0 x1]

theorem k0_pay320_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay320 (F := Ideal) (kernelRun0_A.sl.v2 c arg1 harg1 x0) (ix1 n) = Rw x0 n 13 2 1 := by
  unfold k0_pay320
  simp only [shapeCast_1a_a_apply, slice_row 124 (124 : Fin 198) rfl, v2_apply c arg1 harg1 arg2 harg2 x0 x1, Rw_eq x0 n 13 2 1 (124 : Fin 198) (by decide)]

theorem k0_pay329_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay329 (F := Ideal) (kernelRun0_A.sl.v2 c arg1 harg1 x0) (kernelRun0_A.sl.r_118 c arg1 harg1 x0) (kernelRun0_A.sl.r_119 c arg1 harg1 x0) (kernelRun0_A.sl.r_120 c arg1 harg1 x0) (kernelRun0_A.sl.r_145 c arg1 harg1 x0) (kernelRun0_A.sl.r_148 c arg1 harg1 x0) (ix1 n) = Cn x0 x1 n 13 2 1 := by
  refine Eq.trans ?_ (Cn_step x0 x1 n 13 9 (by decide) rfl (by decide) 2 1).symm
  unfold k0_pay329
  simp only [addf_apply, mulf_apply, r_118_apply c arg1 harg1 arg2 harg2 x0 x1, r_145_apply c arg1 harg1 arg2 harg2 x0 x1, r_119_apply c arg1 harg1 arg2 harg2 x0 x1, k0_pay317_apply c arg1 harg1 arg2 harg2 x0 x1, r_120_apply c arg1 harg1 arg2 harg2 x0 x1, k0_pay320_apply c arg1 harg1 arg2 harg2 x0 x1]

theorem r_156_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_156 c arg1 harg1 x0 (ix1 n) = Cn x0 x1 n 13 2 1 := by
  delta kernelRun0_A.sl.r_156
  simp only [k0_pay329_apply c arg1 harg1 arg2 harg2 x0 x1]

theorem k0_pay314_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay314 (F := Ideal) (kernelRun0_A.sl.v2 c arg1 harg1 x0) (ix1 n) = Rw x0 n 13 0 2 := by
  unfold k0_pay314
  simp only [shapeCast_1a_a_apply, slice_row 119 (119 : Fin 198) rfl, v2_apply c arg1 harg1 arg2 harg2 x0 x1, Rw_eq x0 n 13 0 2 (119 : Fin 198) (by decide)]

theorem r_146_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_146 c arg1 harg1 x0 (ix1 n) = Rw x0 n 13 0 2 := by
  delta kernelRun0_A.sl.r_146
  simp only [k0_pay314_apply c arg1 harg1 arg2 harg2 x0 x1]

theorem k0_pay318_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay318 (F := Ideal) (kernelRun0_A.sl.v2 c arg1 harg1 x0) (ix1 n) = Rw x0 n 13 1 2 := by
  unfold k0_pay318
  simp only [shapeCast_1a_a_apply, slice_row 122 (122 : Fin 198) rfl, v2_apply c arg1 harg1 arg2 harg2 x0 x1, Rw_eq x0 n 13 1 2 (122 : Fin 198) (by decide)]

theorem k0_pay321_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay321 (F := Ideal) (kernelRun0_A.sl.v2 c arg1 harg1 x0) (ix1 n) = Rw x0 n 13 2 2 := by
  unfold k0_pay321
  simp only [shapeCast_1a_a_apply, slice_row 125 (125 : Fin 198) rfl, v2_apply c arg1 harg1 arg2 harg2 x0 x1, Rw_eq x0 n 13 2 2 (125 : Fin 198) (by decide)]

theorem k0_pay330_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay330 (F := Ideal) (kernelRun0_A.sl.v2 c arg1 harg1 x0) (kernelRun0_A.sl.r_118 c arg1 harg1 x0) (kernelRun0_A.sl.r_119 c arg1 harg1 x0) (kernelRun0_A.sl.r_120 c arg1 harg1 x0) (kernelRun0_A.sl.r_146 c arg1 harg1 x0) (ix1 n) = Cn x0 x1 n 13 2 2 := by
  refine Eq.trans ?_ (Cn_step x0 x1 n 13 9 (by decide) rfl (by decide) 2 2).symm
  unfold k0_pay330
  simp only [addf_apply, mulf_apply, r_118_apply c arg1 harg1 arg2 harg2 x0 x1, r_146_apply c arg1 harg1 arg2 harg2 x0 x1, r_119_apply c arg1 harg1 arg2 harg2 x0 x1, k0_pay318_apply c arg1 harg1 arg2 harg2 x0 x1, r_120_apply c arg1 harg1 arg2 harg2 x0 x1, k0_pay321_apply c arg1 harg1 arg2 harg2 x0 x1]

theorem r_157_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_157 c arg1 harg1 x0 (ix1 n) = Cn x0 x1 n 13 2 2 := by
  delta kernelRun0_A.sl.r_157
  simp only [k0_pay330_apply c arg1 harg1 arg2 harg2 x0 x1]

theorem k0_pay396_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay396 (F := Ideal) (kernelRun0_A.sl.v2 c arg1 harg1 x0) (ix1 n) = Rw x0 n 16 0 0 := by
  unfold k0_pay396
  simp only [shapeCast_1a_a_apply, slice_row 144 (144 : Fin 198) rfl, v2_apply c arg1 harg1 arg2 harg2 x0 x1, Rw_eq x0 n 16 0 0 (144 : Fin 198) (by decide)]

theorem r_198_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_198 c arg1 harg1 x0 (ix1 n) = Rw x0 n 16 0 0 := by
  delta kernelRun0_A.sl.r_198
  simp only [k0_pay396_apply c arg1 harg1 arg2 harg2 x0 x1]

theorem k0_pay399_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay399 (F := Ideal) (kernelRun0_A.sl.v2 c arg1 harg1 x0) (ix1 n) = Rw x0 n 16 1 0 := by
  unfold k0_pay399
  simp only [shapeCast_1a_a_apply, slice_row 147 (147 : Fin 198) rfl, v2_apply c arg1 harg1 arg2 harg2 x0 x1, Rw_eq x0 n 16 1 0 (147 : Fin 198) (by decide)]

theorem r_201_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_201 c arg1 harg1 x0 (ix1 n) = Rw x0 n 16 1 0 := by
  delta kernelRun0_A.sl.r_201
  simp only [k0_pay399_apply c arg1 harg1 arg2 harg2 x0 x1]

theorem k0_pay403_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay403 (F := Ideal) (kernelRun0_A.sl.v2 c arg1 harg1 x0) (ix1 n) = Rw x0 n 16 2 0 := by
  unfold k0_pay403
  simp only [shapeCast_1a_a_apply, slice_row 150 (150 : Fin 198) rfl, v2_apply c arg1 harg1 arg2 harg2 x0 x1, Rw_eq x0 n 16 2 0 (150 : Fin 198) (by decide)]

theorem k0_pay412_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay412 (F := Ideal) (kernelRun0_A.sl.v2 c arg1 harg1 x0) (kernelRun0_A.sl.r_155 c arg1 harg1 x0) (kernelRun0_A.sl.r_156 c arg1 harg1 x0) (kernelRun0_A.sl.r_157 c arg1 harg1 x0) (kernelRun0_A.sl.r_198 c arg1 harg1 x0) (kernelRun0_A.sl.r_201 c arg1 harg1 x0) (ix1 n) = Cn x0 x1 n 16 2 0 := by
  refine Eq.trans ?_ (Cn_step x0 x1 n 16 13 (by decide) rfl (by decide) 2 0).symm
  unfold k0_pay412
  simp only [addf_apply, mulf_apply, r_155_apply c arg1 harg1 arg2 harg2 x0 x1, r_198_apply c arg1 harg1 arg2 harg2 x0 x1, r_156_apply c arg1 harg1 arg2 harg2 x0 x1, r_201_apply c arg1 harg1 arg2 harg2 x0 x1, r_157_apply c arg1 harg1 arg2 harg2 x0 x1, k0_pay403_apply c arg1 harg1 arg2 harg2 x0 x1]

theorem r_209_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_209 c arg1 harg1 x0 (ix1 n) = Cn x0 x1 n 16 2 0 := by
  delta kernelRun0_A.sl.r_209
  simp only [k0_pay412_apply c arg1 harg1 arg2 harg2 x0 x1]

theorem k0_pay397_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay397 (F := Ideal) (kernelRun0_A.sl.v2 c arg1 harg1 x0) (ix1 n) = Rw x0 n 16 0 1 := by
  unfold k0_pay397
  simp only [shapeCast_1a_a_apply, slice_row 145 (145 : Fin 198) rfl, v2_apply c arg1 harg1 arg2 harg2 x0 x1, Rw_eq x0 n 16 0 1 (145 : Fin 198) (by decide)]

theorem r_199_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_199 c arg1 harg1 x0 (ix1 n) = Rw x0 n 16 0 1 := by
  delta kernelRun0_A.sl.r_199
  simp only [k0_pay397_apply c arg1 harg1 arg2 harg2 x0 x1]

theorem k0_pay400_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay400 (F := Ideal) (kernelRun0_A.sl.v2 c arg1 harg1 x0) (ix2 u n) = Rw x0 n 16 1 1 := by
  unfold k0_pay400
  simp only [slice_row 148 (148 : Fin 198) rfl, v2_apply c arg1 harg1 arg2 harg2 x0 x1, Rw_eq x0 n 16 1 1 (148 : Fin 198) (by decide)]

theorem r_202_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_202 c arg1 harg1 x0 (ix2 u n) = Rw x0 n 16 1 1 := by
  delta kernelRun0_A.sl.r_202
  simp only [k0_pay400_apply c arg1 harg1 arg2 harg2 x0 x1]

theorem k0_pay401_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay401 (F := Ideal) (kernelRun0_A.sl.r_202 c arg1 harg1 x0) (ix1 n) = Rw x0 n 16 1 1 := by
  unfold k0_pay401
  simp only [shapeCast_1a_a_apply, r_202_apply c arg1 harg1 arg2 harg2 x0 x1]

theorem k0_pay404_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay404 (F := Ideal) (kernelRun0_A.sl.v2 c arg1 harg1 x0) (ix1 n) = Rw x0 n 16 2 1 := by
  unfold k0_pay404
  simp only [shapeCast_1a_a_apply, slice_row 151 (151 : Fin 198) rfl, v2_apply c arg1 harg1 arg2 harg2 x0 x1, Rw_eq x0 n 16 2 1 (151 : Fin 198) (by decide)]

theorem k0_pay413_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay413 (F := Ideal) (kernelRun0_A.sl.v2 c arg1 harg1 x0) (kernelRun0_A.sl.r_155 c arg1 harg1 x0) (kernelRun0_A.sl.r_156 c arg1 harg1 x0) (kernelRun0_A.sl.r_157 c arg1 harg1 x0) (kernelRun0_A.sl.r_199 c arg1 harg1 x0) (kernelRun0_A.sl.r_202 c arg1 harg1 x0) (ix1 n) = Cn x0 x1 n 16 2 1 := by
  refine Eq.trans ?_ (Cn_step x0 x1 n 16 13 (by decide) rfl (by decide) 2 1).symm
  unfold k0_pay413
  simp only [addf_apply, mulf_apply, r_155_apply c arg1 harg1 arg2 harg2 x0 x1, r_199_apply c arg1 harg1 arg2 harg2 x0 x1, r_156_apply c arg1 harg1 arg2 harg2 x0 x1, k0_pay401_apply c arg1 harg1 arg2 harg2 x0 x1, r_157_apply c arg1 harg1 arg2 harg2 x0 x1, k0_pay404_apply c arg1 harg1 arg2 harg2 x0 x1]

theorem r_210_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_210 c arg1 harg1 x0 (ix1 n) = Cn x0 x1 n 16 2 1 := by
  delta kernelRun0_A.sl.r_210
  simp only [k0_pay413_apply c arg1 harg1 arg2 harg2 x0 x1]

theorem k0_pay398_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay398 (F := Ideal) (kernelRun0_A.sl.v2 c arg1 harg1 x0) (ix1 n) = Rw x0 n 16 0 2 := by
  unfold k0_pay398
  simp only [shapeCast_1a_a_apply, slice_row 146 (146 : Fin 198) rfl, v2_apply c arg1 harg1 arg2 harg2 x0 x1, Rw_eq x0 n 16 0 2 (146 : Fin 198) (by decide)]

theorem r_200_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_200 c arg1 harg1 x0 (ix1 n) = Rw x0 n 16 0 2 := by
  delta kernelRun0_A.sl.r_200
  simp only [k0_pay398_apply c arg1 harg1 arg2 harg2 x0 x1]

theorem k0_pay402_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay402 (F := Ideal) (kernelRun0_A.sl.v2 c arg1 harg1 x0) (ix1 n) = Rw x0 n 16 1 2 := by
  unfold k0_pay402
  simp only [shapeCast_1a_a_apply, slice_row 149 (149 : Fin 198) rfl, v2_apply c arg1 harg1 arg2 harg2 x0 x1, Rw_eq x0 n 16 1 2 (149 : Fin 198) (by decide)]

theorem k0_pay405_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay405 (F := Ideal) (kernelRun0_A.sl.v2 c arg1 harg1 x0) (ix1 n) = Rw x0 n 16 2 2 := by
  unfold k0_pay405
  simp only [shapeCast_1a_a_apply, slice_row 152 (152 : Fin 198) rfl, v2_apply c arg1 harg1 arg2 harg2 x0 x1, Rw_eq x0 n 16 2 2 (152 : Fin 198) (by decide)]

theorem k0_pay414_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay414 (F := Ideal) (kernelRun0_A.sl.v2 c arg1 harg1 x0) (kernelRun0_A.sl.r_155 c arg1 harg1 x0) (kernelRun0_A.sl.r_156 c arg1 harg1 x0) (kernelRun0_A.sl.r_157 c arg1 harg1 x0) (kernelRun0_A.sl.r_200 c arg1 harg1 x0) (ix1 n) = Cn x0 x1 n 16 2 2 := by
  refine Eq.trans ?_ (Cn_step x0 x1 n 16 13 (by decide) rfl (by decide) 2 2).symm
  unfold k0_pay414
  simp only [addf_apply, mulf_apply, r_155_apply c arg1 harg1 arg2 harg2 x0 x1, r_200_apply c arg1 harg1 arg2 harg2 x0 x1, r_156_apply c arg1 harg1 arg2 harg2 x0 x1, k0_pay402_apply c arg1 harg1 arg2 harg2 x0 x1, r_157_apply c arg1 harg1 arg2 harg2 x0 x1, k0_pay405_apply c arg1 harg1 arg2 harg2 x0 x1]

theorem r_211_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_211 c arg1 harg1 x0 (ix1 n) = Cn x0 x1 n 16 2 2 := by
  delta kernelRun0_A.sl.r_211
  simp only [k0_pay414_apply c arg1 harg1 arg2 harg2 x0 x1]

theorem k0_pay452_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay452 (F := Ideal) (kernelRun0_A.sl.v2 c arg1 harg1 x0) (ix1 n) = Rw x0 n 18 0 0 := by
  unfold k0_pay452
  simp only [shapeCast_1a_a_apply, slice_row 162 (162 : Fin 198) rfl, v2_apply c arg1 harg1 arg2 harg2 x0 x1, Rw_eq x0 n 18 0 0 (162 : Fin 198) (by decide)]

theorem r_234_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_234 c arg1 harg1 x0 (ix1 n) = Rw x0 n 18 0 0 := by
  delta kernelRun0_A.sl.r_234
  simp only [k0_pay452_apply c arg1 harg1 arg2 harg2 x0 x1]

theorem k0_pay455_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay455 (F := Ideal) (kernelRun0_A.sl.v2 c arg1 harg1 x0) (ix1 n) = Rw x0 n 18 1 0 := by
  unfold k0_pay455
  simp only [shapeCast_1a_a_apply, slice_row 165 (165 : Fin 198) rfl, v2_apply c arg1 harg1 arg2 harg2 x0 x1, Rw_eq x0 n 18 1 0 (165 : Fin 198) (by decide)]

theorem r_237_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_237 c arg1 harg1 x0 (ix1 n) = Rw x0 n 18 1 0 := by
  delta kernelRun0_A.sl.r_237
  simp only [k0_pay455_apply c arg1 harg1 arg2 harg2 x0 x1]

theorem k0_pay459_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay459 (F := Ideal) (kernelRun0_A.sl.v2 c arg1 harg1 x0) (ix1 n) = Rw x0 n 18 2 0 := by
  unfold k0_pay459
  simp only [shapeCast_1a_a_apply, slice_row 168 (168 : Fin 198) rfl, v2_apply c arg1 harg1 arg2 harg2 x0 x1, Rw_eq x0 n 18 2 0 (168 : Fin 198) (by decide)]

theorem k0_pay468_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay468 (F := Ideal) (kernelRun0_A.sl.v2 c arg1 harg1 x0) (kernelRun0_A.sl.r_209 c arg1 harg1 x0) (kernelRun0_A.sl.r_210 c arg1 harg1 x0) (kernelRun0_A.sl.r_211 c arg1 harg1 x0) (kernelRun0_A.sl.r_234 c arg1 harg1 x0) (kernelRun0_A.sl.r_237 c arg1 harg1 x0) (ix1 n) = Cn x0 x1 n 18 2 0 := by
  refine Eq.trans ?_ (Cn_step x0 x1 n 18 16 (by decide) rfl (by decide) 2 0).symm
  unfold k0_pay468
  simp only [addf_apply, mulf_apply, r_209_apply c arg1 harg1 arg2 harg2 x0 x1, r_234_apply c arg1 harg1 arg2 harg2 x0 x1, r_210_apply c arg1 harg1 arg2 harg2 x0 x1, r_237_apply c arg1 harg1 arg2 harg2 x0 x1, r_211_apply c arg1 harg1 arg2 harg2 x0 x1, k0_pay459_apply c arg1 harg1 arg2 harg2 x0 x1]

theorem r_245_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_245 c arg1 harg1 x0 (ix1 n) = Cn x0 x1 n 18 2 0 := by
  delta kernelRun0_A.sl.r_245
  simp only [k0_pay468_apply c arg1 harg1 arg2 harg2 x0 x1]

theorem k0_pay453_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay453 (F := Ideal) (kernelRun0_A.sl.v2 c arg1 harg1 x0) (ix1 n) = Rw x0 n 18 0 1 := by
  unfold k0_pay453
  simp only [shapeCast_1a_a_apply, slice_row 163 (163 : Fin 198) rfl, v2_apply c arg1 harg1 arg2 harg2 x0 x1, Rw_eq x0 n 18 0 1 (163 : Fin 198) (by decide)]

theorem r_235_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_235 c arg1 harg1 x0 (ix1 n) = Rw x0 n 18 0 1 := by
  delta kernelRun0_A.sl.r_235
  simp only [k0_pay453_apply c arg1 harg1 arg2 harg2 x0 x1]

theorem k0_pay456_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay456 (F := Ideal) (kernelRun0_A.sl.v2 c arg1 harg1 x0) (ix2 u n) = Rw x0 n 18 1 1 := by
  unfold k0_pay456
  simp only [slice_row 166 (166 : Fin 198) rfl, v2_apply c arg1 harg1 arg2 harg2 x0 x1, Rw_eq x0 n 18 1 1 (166 : Fin 198) (by decide)]

theorem r_238_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_238 c arg1 harg1 x0 (ix2 u n) = Rw x0 n 18 1 1 := by
  delta kernelRun0_A.sl.r_238
  simp only [k0_pay456_apply c arg1 harg1 arg2 harg2 x0 x1]

theorem k0_pay457_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay457 (F := Ideal) (kernelRun0_A.sl.r_238 c arg1 harg1 x0) (ix1 n) = Rw x0 n 18 1 1 := by
  unfold k0_pay457
  simp only [shapeCast_1a_a_apply, r_238_apply c arg1 harg1 arg2 harg2 x0 x1]

theorem k0_pay460_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay460 (F := Ideal) (kernelRun0_A.sl.v2 c arg1 harg1 x0) (ix1 n) = Rw x0 n 18 2 1 := by
  unfold k0_pay460
  simp only [shapeCast_1a_a_apply, slice_row 169 (169 : Fin 198) rfl, v2_apply c arg1 harg1 arg2 harg2 x0 x1, Rw_eq x0 n 18 2 1 (169 : Fin 198) (by decide)]

theorem k0_pay469_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay469 (F := Ideal) (kernelRun0_A.sl.v2 c arg1 harg1 x0) (kernelRun0_A.sl.r_209 c arg1 harg1 x0) (kernelRun0_A.sl.r_210 c arg1 harg1 x0) (kernelRun0_A.sl.r_211 c arg1 harg1 x0) (kernelRun0_A.sl.r_235 c arg1 harg1 x0) (kernelRun0_A.sl.r_238 c arg1 harg1 x0) (ix1 n) = Cn x0 x1 n 18 2 1 := by
  refine Eq.trans ?_ (Cn_step x0 x1 n 18 16 (by decide) rfl (by decide) 2 1).symm
  unfold k0_pay469
  simp only [addf_apply, mulf_apply, r_209_apply c arg1 harg1 arg2 harg2 x0 x1, r_235_apply c arg1 harg1 arg2 harg2 x0 x1, r_210_apply c arg1 harg1 arg2 harg2 x0 x1, k0_pay457_apply c arg1 harg1 arg2 harg2 x0 x1, r_211_apply c arg1 harg1 arg2 harg2 x0 x1, k0_pay460_apply c arg1 harg1 arg2 harg2 x0 x1]

theorem r_246_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_246 c arg1 harg1 x0 (ix1 n) = Cn x0 x1 n 18 2 1 := by
  delta kernelRun0_A.sl.r_246
  simp only [k0_pay469_apply c arg1 harg1 arg2 harg2 x0 x1]

theorem k0_pay454_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay454 (F := Ideal) (kernelRun0_A.sl.v2 c arg1 harg1 x0) (ix1 n) = Rw x0 n 18 0 2 := by
  unfold k0_pay454
  simp only [shapeCast_1a_a_apply, slice_row 164 (164 : Fin 198) rfl, v2_apply c arg1 harg1 arg2 harg2 x0 x1, Rw_eq x0 n 18 0 2 (164 : Fin 198) (by decide)]

theorem r_236_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_236 c arg1 harg1 x0 (ix1 n) = Rw x0 n 18 0 2 := by
  delta kernelRun0_A.sl.r_236
  simp only [k0_pay454_apply c arg1 harg1 arg2 harg2 x0 x1]

theorem k0_pay458_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay458 (F := Ideal) (kernelRun0_A.sl.v2 c arg1 harg1 x0) (ix1 n) = Rw x0 n 18 1 2 := by
  unfold k0_pay458
  simp only [shapeCast_1a_a_apply, slice_row 167 (167 : Fin 198) rfl, v2_apply c arg1 harg1 arg2 harg2 x0 x1, Rw_eq x0 n 18 1 2 (167 : Fin 198) (by decide)]

theorem k0_pay461_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay461 (F := Ideal) (kernelRun0_A.sl.v2 c arg1 harg1 x0) (ix1 n) = Rw x0 n 18 2 2 := by
  unfold k0_pay461
  simp only [shapeCast_1a_a_apply, slice_row 170 (170 : Fin 198) rfl, v2_apply c arg1 harg1 arg2 harg2 x0 x1, Rw_eq x0 n 18 2 2 (170 : Fin 198) (by decide)]

theorem k0_pay470_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay470 (F := Ideal) (kernelRun0_A.sl.v2 c arg1 harg1 x0) (kernelRun0_A.sl.r_209 c arg1 harg1 x0) (kernelRun0_A.sl.r_210 c arg1 harg1 x0) (kernelRun0_A.sl.r_211 c arg1 harg1 x0) (kernelRun0_A.sl.r_236 c arg1 harg1 x0) (ix1 n) = Cn x0 x1 n 18 2 2 := by
  refine Eq.trans ?_ (Cn_step x0 x1 n 18 16 (by decide) rfl (by decide) 2 2).symm
  unfold k0_pay470
  simp only [addf_apply, mulf_apply, r_209_apply c arg1 harg1 arg2 harg2 x0 x1, r_236_apply c arg1 harg1 arg2 harg2 x0 x1, r_210_apply c arg1 harg1 arg2 harg2 x0 x1, k0_pay458_apply c arg1 harg1 arg2 harg2 x0 x1, r_211_apply c arg1 harg1 arg2 harg2 x0 x1, k0_pay461_apply c arg1 harg1 arg2 harg2 x0 x1]

theorem r_247_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_247 c arg1 harg1 x0 (ix1 n) = Cn x0 x1 n 18 2 2 := by
  delta kernelRun0_A.sl.r_247
  simp only [k0_pay470_apply c arg1 harg1 arg2 harg2 x0 x1]

theorem k0_pay508_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay508 (F := Ideal) (kernelRun0_A.sl.v2 c arg1 harg1 x0) (ix1 n) = Rw x0 n 20 0 0 := by
  unfold k0_pay508
  simp only [shapeCast_1a_a_apply, slice_row 180 (180 : Fin 198) rfl, v2_apply c arg1 harg1 arg2 harg2 x0 x1, Rw_eq x0 n 20 0 0 (180 : Fin 198) (by decide)]

theorem r_270_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_270 c arg1 harg1 x0 (ix1 n) = Rw x0 n 20 0 0 := by
  delta kernelRun0_A.sl.r_270
  simp only [k0_pay508_apply c arg1 harg1 arg2 harg2 x0 x1]

theorem k0_pay511_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay511 (F := Ideal) (kernelRun0_A.sl.v2 c arg1 harg1 x0) (ix1 n) = Rw x0 n 20 1 0 := by
  unfold k0_pay511
  simp only [shapeCast_1a_a_apply, slice_row 183 (183 : Fin 198) rfl, v2_apply c arg1 harg1 arg2 harg2 x0 x1, Rw_eq x0 n 20 1 0 (183 : Fin 198) (by decide)]

theorem r_273_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_273 c arg1 harg1 x0 (ix1 n) = Rw x0 n 20 1 0 := by
  delta kernelRun0_A.sl.r_273
  simp only [k0_pay511_apply c arg1 harg1 arg2 harg2 x0 x1]

theorem k0_pay515_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay515 (F := Ideal) (kernelRun0_A.sl.v2 c arg1 harg1 x0) (ix1 n) = Rw x0 n 20 2 0 := by
  unfold k0_pay515
  simp only [shapeCast_1a_a_apply, slice_row 186 (186 : Fin 198) rfl, v2_apply c arg1 harg1 arg2 harg2 x0 x1, Rw_eq x0 n 20 2 0 (186 : Fin 198) (by decide)]

theorem k0_pay524_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay524 (F := Ideal) (kernelRun0_A.sl.v2 c arg1 harg1 x0) (kernelRun0_A.sl.r_245 c arg1 harg1 x0) (kernelRun0_A.sl.r_246 c arg1 harg1 x0) (kernelRun0_A.sl.r_247 c arg1 harg1 x0) (kernelRun0_A.sl.r_270 c arg1 harg1 x0) (kernelRun0_A.sl.r_273 c arg1 harg1 x0) (ix1 n) = Cn x0 x1 n 20 2 0 := by
  refine Eq.trans ?_ (Cn_step x0 x1 n 20 18 (by decide) rfl (by decide) 2 0).symm
  unfold k0_pay524
  simp only [addf_apply, mulf_apply, r_245_apply c arg1 harg1 arg2 harg2 x0 x1, r_270_apply c arg1 harg1 arg2 harg2 x0 x1, r_246_apply c arg1 harg1 arg2 harg2 x0 x1, r_273_apply c arg1 harg1 arg2 harg2 x0 x1, r_247_apply c arg1 harg1 arg2 harg2 x0 x1, k0_pay515_apply c arg1 harg1 arg2 harg2 x0 x1]

theorem r_281_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_281 c arg1 harg1 x0 (ix1 n) = Cn x0 x1 n 20 2 0 := by
  delta kernelRun0_A.sl.r_281
  simp only [k0_pay524_apply c arg1 harg1 arg2 harg2 x0 x1]

theorem k0_pay509_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay509 (F := Ideal) (kernelRun0_A.sl.v2 c arg1 harg1 x0) (ix1 n) = Rw x0 n 20 0 1 := by
  unfold k0_pay509
  simp only [shapeCast_1a_a_apply, slice_row 181 (181 : Fin 198) rfl, v2_apply c arg1 harg1 arg2 harg2 x0 x1, Rw_eq x0 n 20 0 1 (181 : Fin 198) (by decide)]

theorem r_271_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_271 c arg1 harg1 x0 (ix1 n) = Rw x0 n 20 0 1 := by
  delta kernelRun0_A.sl.r_271
  simp only [k0_pay509_apply c arg1 harg1 arg2 harg2 x0 x1]

theorem k0_pay512_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay512 (F := Ideal) (kernelRun0_A.sl.v2 c arg1 harg1 x0) (ix2 u n) = Rw x0 n 20 1 1 := by
  unfold k0_pay512
  simp only [slice_row 184 (184 : Fin 198) rfl, v2_apply c arg1 harg1 arg2 harg2 x0 x1, Rw_eq x0 n 20 1 1 (184 : Fin 198) (by decide)]

theorem r_274_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_274 c arg1 harg1 x0 (ix2 u n) = Rw x0 n 20 1 1 := by
  delta kernelRun0_A.sl.r_274
  simp only [k0_pay512_apply c arg1 harg1 arg2 harg2 x0 x1]

theorem k0_pay513_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay513 (F := Ideal) (kernelRun0_A.sl.r_274 c arg1 harg1 x0) (ix1 n) = Rw x0 n 20 1 1 := by
  unfold k0_pay513
  simp only [shapeCast_1a_a_apply, r_274_apply c arg1 harg1 arg2 harg2 x0 x1]

theorem k0_pay516_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay516 (F := Ideal) (kernelRun0_A.sl.v2 c arg1 harg1 x0) (ix1 n) = Rw x0 n 20 2 1 := by
  unfold k0_pay516
  simp only [shapeCast_1a_a_apply, slice_row 187 (187 : Fin 198) rfl, v2_apply c arg1 harg1 arg2 harg2 x0 x1, Rw_eq x0 n 20 2 1 (187 : Fin 198) (by decide)]

theorem k0_pay525_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay525 (F := Ideal) (kernelRun0_A.sl.v2 c arg1 harg1 x0) (kernelRun0_A.sl.r_245 c arg1 harg1 x0) (kernelRun0_A.sl.r_246 c arg1 harg1 x0) (kernelRun0_A.sl.r_247 c arg1 harg1 x0) (kernelRun0_A.sl.r_271 c arg1 harg1 x0) (kernelRun0_A.sl.r_274 c arg1 harg1 x0) (ix1 n) = Cn x0 x1 n 20 2 1 := by
  refine Eq.trans ?_ (Cn_step x0 x1 n 20 18 (by decide) rfl (by decide) 2 1).symm
  unfold k0_pay525
  simp only [addf_apply, mulf_apply, r_245_apply c arg1 harg1 arg2 harg2 x0 x1, r_271_apply c arg1 harg1 arg2 harg2 x0 x1, r_246_apply c arg1 harg1 arg2 harg2 x0 x1, k0_pay513_apply c arg1 harg1 arg2 harg2 x0 x1, r_247_apply c arg1 harg1 arg2 harg2 x0 x1, k0_pay516_apply c arg1 harg1 arg2 harg2 x0 x1]

theorem r_282_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_282 c arg1 harg1 x0 (ix1 n) = Cn x0 x1 n 20 2 1 := by
  delta kernelRun0_A.sl.r_282
  simp only [k0_pay525_apply c arg1 harg1 arg2 harg2 x0 x1]

theorem k0_pay510_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay510 (F := Ideal) (kernelRun0_A.sl.v2 c arg1 harg1 x0) (ix1 n) = Rw x0 n 20 0 2 := by
  unfold k0_pay510
  simp only [shapeCast_1a_a_apply, slice_row 182 (182 : Fin 198) rfl, v2_apply c arg1 harg1 arg2 harg2 x0 x1, Rw_eq x0 n 20 0 2 (182 : Fin 198) (by decide)]

theorem r_272_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_272 c arg1 harg1 x0 (ix1 n) = Rw x0 n 20 0 2 := by
  delta kernelRun0_A.sl.r_272
  simp only [k0_pay510_apply c arg1 harg1 arg2 harg2 x0 x1]

theorem k0_pay514_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay514 (F := Ideal) (kernelRun0_A.sl.v2 c arg1 harg1 x0) (ix1 n) = Rw x0 n 20 1 2 := by
  unfold k0_pay514
  simp only [shapeCast_1a_a_apply, slice_row 185 (185 : Fin 198) rfl, v2_apply c arg1 harg1 arg2 harg2 x0 x1, Rw_eq x0 n 20 1 2 (185 : Fin 198) (by decide)]

theorem k0_pay517_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay517 (F := Ideal) (kernelRun0_A.sl.v2 c arg1 harg1 x0) (ix1 n) = Rw x0 n 20 2 2 := by
  unfold k0_pay517
  simp only [shapeCast_1a_a_apply, slice_row 188 (188 : Fin 198) rfl, v2_apply c arg1 harg1 arg2 harg2 x0 x1, Rw_eq x0 n 20 2 2 (188 : Fin 198) (by decide)]

theorem k0_pay526_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay526 (F := Ideal) (kernelRun0_A.sl.v2 c arg1 harg1 x0) (kernelRun0_A.sl.r_245 c arg1 harg1 x0) (kernelRun0_A.sl.r_246 c arg1 harg1 x0) (kernelRun0_A.sl.r_247 c arg1 harg1 x0) (kernelRun0_A.sl.r_272 c arg1 harg1 x0) (ix1 n) = Cn x0 x1 n 20 2 2 := by
  refine Eq.trans ?_ (Cn_step x0 x1 n 20 18 (by decide) rfl (by decide) 2 2).symm
  unfold k0_pay526
  simp only [addf_apply, mulf_apply, r_245_apply c arg1 harg1 arg2 harg2 x0 x1, r_272_apply c arg1 harg1 arg2 harg2 x0 x1, r_246_apply c arg1 harg1 arg2 harg2 x0 x1, k0_pay514_apply c arg1 harg1 arg2 harg2 x0 x1, r_247_apply c arg1 harg1 arg2 harg2 x0 x1, k0_pay517_apply c arg1 harg1 arg2 harg2 x0 x1]

theorem r_283_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_283 c arg1 harg1 x0 (ix1 n) = Cn x0 x1 n 20 2 2 := by
  delta kernelRun0_A.sl.r_283
  simp only [k0_pay526_apply c arg1 harg1 arg2 harg2 x0 x1]

theorem k0_pay331_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay331 (F := Ideal) (View.readAt (Elt Ideal) arg2.view (Rect.unit (s := S3x55) ![0, 13] S1x1.size inb_S3x55_S1x1_0_13).toLoadRect (harg2.unread x1)) = Of x1 13 0 := by
  unfold k0_pay331
  simp only [rel_read x1 arg2 harg2 0 13 (0 : Fin 3) rfl (by decide)]

theorem r_158_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_158 c arg2 harg2 x1 = Of x1 13 0 := by
  delta kernelRun0_A.sl.r_158
  simp only [k0_pay331_apply c arg1 harg1 arg2 harg2 x0 x1]

theorem k0_pay332_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay332 (F := Ideal) (View.readAt (Elt Ideal) arg2.view (Rect.unit (s := S3x55) ![1, 13] S1x1.size inb_S3x55_S1x1_1_13).toLoadRect (harg2.unread x1)) = Of x1 13 1 := by
  unfold k0_pay332
  simp only [rel_read x1 arg2 harg2 1 13 (1 : Fin 3) rfl (by decide)]

theorem k0_pay333_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay333 (F := Ideal) (View.readAt (Elt Ideal) arg2.view (Rect.unit (s := S3x55) ![2, 13] S1x1.size inb_S3x55_S1x1_2_13).toLoadRect (harg2.unread x1)) = Of x1 13 2 := by
  unfold k0_pay333
  simp only [rel_read x1 arg2 harg2 2 13 (2 : Fin 3) rfl (by decide)]

theorem k0_pay336_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay336 (F := Ideal) (kernelRun0_A.sl.r_118 c arg1 harg1 x0) (kernelRun0_A.sl.r_119 c arg1 harg1 x0) (kernelRun0_A.sl.r_120 c arg1 harg1 x0) (kernelRun0_A.sl.r_123 c arg1 harg1 arg2 harg2 x0 x1) (kernelRun0_A.sl.r_158 c arg2 harg2 x1) (View.readAt (Elt Ideal) arg2.view (Rect.unit (s := S3x55) ![1, 13] S1x1.size inb_S3x55_S1x1_1_13).toLoadRect (harg2.unread x1)) (View.readAt (Elt Ideal) arg2.view (Rect.unit (s := S3x55) ![2, 13] S1x1.size inb_S3x55_S1x1_2_13).toLoadRect (harg2.unread x1)) (ix1 n) = Pn x0 x1 n 13 2 := by
  refine Eq.trans ?_ (Pn_step x0 x1 n 13 9 (by decide) rfl 2).symm
  unfold k0_pay336
  simp only [addf_apply, mulf_apply, r_118_apply c arg1 harg1 arg2 harg2 x0 x1, broadcast_apply, r_158_apply c arg1 harg1 arg2 harg2 x0 x1, r_119_apply c arg1 harg1 arg2 harg2 x0 x1, k0_pay332_apply c arg1 harg1 arg2 harg2 x0 x1, r_120_apply c arg1 harg1 arg2 harg2 x0 x1, k0_pay333_apply c arg1 harg1 arg2 harg2 x0 x1, r_123_apply c arg1 harg1 arg2 harg2 x0 x1]

theorem r_161_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_161 c arg1 harg1 arg2 harg2 x0 x1 (ix1 n) = Pn x0 x1 n 13 2 := by
  delta kernelRun0_A.sl.r_161
  simp only [k0_pay336_apply c arg1 harg1 arg2 harg2 x0 x1]

theorem k0_pay415_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay415 (F := Ideal) (View.readAt (Elt Ideal) arg2.view (Rect.unit (s := S3x55) ![0, 16] S1x1.size inb_S3x55_S1x1_0_16).toLoadRect (harg2.unread x1)) = Of x1 16 0 := by
  unfold k0_pay415
  simp only [rel_read x1 arg2 harg2 0 16 (0 : Fin 3) rfl (by decide)]

theorem r_212_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_212 c arg2 harg2 x1 = Of x1 16 0 := by
  delta kernelRun0_A.sl.r_212
  simp only [k0_pay415_apply c arg1 harg1 arg2 harg2 x0 x1]

theorem k0_pay416_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay416 (F := Ideal) (View.readAt (Elt Ideal) arg2.view (Rect.unit (s := S3x55) ![1, 16] S1x1.size inb_S3x55_S1x1_1_16).toLoadRect (harg2.unread x1)) = Of x1 16 1 := by
  unfold k0_pay416
  simp only [rel_read x1 arg2 harg2 1 16 (1 : Fin 3) rfl (by decide)]

theorem k0_pay417_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay417 (F := Ideal) (View.readAt (Elt Ideal) arg2.view (Rect.unit (s := S3x55) ![2, 16] S1x1.size inb_S3x55_S1x1_2_16).toLoadRect (harg2.unread x1)) = Of x1 16 2 := by
  unfold k0_pay417
  simp only [rel_read x1 arg2 harg2 2 16 (2 : Fin 3) rfl (by decide)]

theorem k0_pay420_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay420 (F := Ideal) (kernelRun0_A.sl.r_155 c arg1 harg1 x0) (kernelRun0_A.sl.r_156 c arg1 harg1 x0) (kernelRun0_A.sl.r_157 c arg1 harg1 x0) (kernelRun0_A.sl.r_161 c arg1 harg1 arg2 harg2 x0 x1) (kernelRun0_A.sl.r_212 c arg2 harg2 x1) (View.readAt (Elt Ideal) arg2.view (Rect.unit (s := S3x55) ![1, 16] S1x1.size inb_S3x55_S1x1_1_16).toLoadRect (harg2.unread x1)) (View.readAt (Elt Ideal) arg2.view (Rect.unit (s := S3x55) ![2, 16] S1x1.size inb_S3x55_S1x1_2_16).toLoadRect (harg2.unread x1)) (ix1 n) = Pn x0 x1 n 16 2 := by
  refine Eq.trans ?_ (Pn_step x0 x1 n 16 13 (by decide) rfl 2).symm
  unfold k0_pay420
  simp only [addf_apply, mulf_apply, r_155_apply c arg1 harg1 arg2 harg2 x0 x1, broadcast_apply, r_212_apply c arg1 harg1 arg2 harg2 x0 x1, r_156_apply c arg1 harg1 arg2 harg2 x0 x1, k0_pay416_apply c arg1 harg1 arg2 harg2 x0 x1, r_157_apply c arg1 harg1 arg2 harg2 x0 x1, k0_pay417_apply c arg1 harg1 arg2 harg2 x0 x1, r_161_apply c arg1 harg1 arg2 harg2 x0 x1]

theorem r_215_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_215 c arg1 harg1 arg2 harg2 x0 x1 (ix1 n) = Pn x0 x1 n 16 2 := by
  delta kernelRun0_A.sl.r_215
  simp only [k0_pay420_apply c arg1 harg1 arg2 harg2 x0 x1]

theorem k0_pay471_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay471 (F := Ideal) (View.readAt (Elt Ideal) arg2.view (Rect.unit (s := S3x55) ![0, 18] S1x1.size inb_S3x55_S1x1_0_18).toLoadRect (harg2.unread x1)) = Of x1 18 0 := by
  unfold k0_pay471
  simp only [rel_read x1 arg2 harg2 0 18 (0 : Fin 3) rfl (by decide)]

theorem r_248_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_248 c arg2 harg2 x1 = Of x1 18 0 := by
  delta kernelRun0_A.sl.r_248
  simp only [k0_pay471_apply c arg1 harg1 arg2 harg2 x0 x1]

theorem k0_pay472_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay472 (F := Ideal) (View.readAt (Elt Ideal) arg2.view (Rect.unit (s := S3x55) ![1, 18] S1x1.size inb_S3x55_S1x1_1_18).toLoadRect (harg2.unread x1)) = Of x1 18 1 := by
  unfold k0_pay472
  simp only [rel_read x1 arg2 harg2 1 18 (1 : Fin 3) rfl (by decide)]

theorem k0_pay473_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay473 (F := Ideal) (View.readAt (Elt Ideal) arg2.view (Rect.unit (s := S3x55) ![2, 18] S1x1.size inb_S3x55_S1x1_2_18).toLoadRect (harg2.unread x1)) = Of x1 18 2 := by
  unfold k0_pay473
  simp only [rel_read x1 arg2 harg2 2 18 (2 : Fin 3) rfl (by decide)]

theorem k0_pay476_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay476 (F := Ideal) (kernelRun0_A.sl.r_209 c arg1 harg1 x0) (kernelRun0_A.sl.r_210 c arg1 harg1 x0) (kernelRun0_A.sl.r_211 c arg1 harg1 x0) (kernelRun0_A.sl.r_215 c arg1 harg1 arg2 harg2 x0 x1) (kernelRun0_A.sl.r_248 c arg2 harg2 x1) (View.readAt (Elt Ideal) arg2.view (Rect.unit (s := S3x55) ![1, 18] S1x1.size inb_S3x55_S1x1_1_18).toLoadRect (harg2.unread x1)) (View.readAt (Elt Ideal) arg2.view (Rect.unit (s := S3x55) ![2, 18] S1x1.size inb_S3x55_S1x1_2_18).toLoadRect (harg2.unread x1)) (ix1 n) = Pn x0 x1 n 18 2 := by
  refine Eq.trans ?_ (Pn_step x0 x1 n 18 16 (by decide) rfl 2).symm
  unfold k0_pay476
  simp only [addf_apply, mulf_apply, r_209_apply c arg1 harg1 arg2 harg2 x0 x1, broadcast_apply, r_248_apply c arg1 harg1 arg2 harg2 x0 x1, r_210_apply c arg1 harg1 arg2 harg2 x0 x1, k0_pay472_apply c arg1 harg1 arg2 harg2 x0 x1, r_211_apply c arg1 harg1 arg2 harg2 x0 x1, k0_pay473_apply c arg1 harg1 arg2 harg2 x0 x1, r_215_apply c arg1 harg1 arg2 harg2 x0 x1]

theorem r_251_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_251 c arg1 harg1 arg2 harg2 x0 x1 (ix1 n) = Pn x0 x1 n 18 2 := by
  delta kernelRun0_A.sl.r_251
  simp only [k0_pay476_apply c arg1 harg1 arg2 harg2 x0 x1]

theorem k0_pay527_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay527 (F := Ideal) (View.readAt (Elt Ideal) arg2.view (Rect.unit (s := S3x55) ![0, 20] S1x1.size inb_S3x55_S1x1_0_20).toLoadRect (harg2.unread x1)) = Of x1 20 0 := by
  unfold k0_pay527
  simp only [rel_read x1 arg2 harg2 0 20 (0 : Fin 3) rfl (by decide)]

theorem r_284_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_284 c arg2 harg2 x1 = Of x1 20 0 := by
  delta kernelRun0_A.sl.r_284
  simp only [k0_pay527_apply c arg1 harg1 arg2 harg2 x0 x1]

theorem k0_pay528_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay528 (F := Ideal) (View.readAt (Elt Ideal) arg2.view (Rect.unit (s := S3x55) ![1, 20] S1x1.size inb_S3x55_S1x1_1_20).toLoadRect (harg2.unread x1)) = Of x1 20 1 := by
  unfold k0_pay528
  simp only [rel_read x1 arg2 harg2 1 20 (1 : Fin 3) rfl (by decide)]

theorem k0_pay529_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay529 (F := Ideal) (View.readAt (Elt Ideal) arg2.view (Rect.unit (s := S3x55) ![2, 20] S1x1.size inb_S3x55_S1x1_2_20).toLoadRect (harg2.unread x1)) = Of x1 20 2 := by
  unfold k0_pay529
  simp only [rel_read x1 arg2 harg2 2 20 (2 : Fin 3) rfl (by decide)]

theorem k0_pay532_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay532 (F := Ideal) (kernelRun0_A.sl.r_245 c arg1 harg1 x0) (kernelRun0_A.sl.r_246 c arg1 harg1 x0) (kernelRun0_A.sl.r_247 c arg1 harg1 x0) (kernelRun0_A.sl.r_251 c arg1 harg1 arg2 harg2 x0 x1) (kernelRun0_A.sl.r_284 c arg2 harg2 x1) (View.readAt (Elt Ideal) arg2.view (Rect.unit (s := S3x55) ![1, 20] S1x1.size inb_S3x55_S1x1_1_20).toLoadRect (harg2.unread x1)) (View.readAt (Elt Ideal) arg2.view (Rect.unit (s := S3x55) ![2, 20] S1x1.size inb_S3x55_S1x1_2_20).toLoadRect (harg2.unread x1)) (ix1 n) = Pn x0 x1 n 20 2 := by
  refine Eq.trans ?_ (Pn_step x0 x1 n 20 18 (by decide) rfl 2).symm
  unfold k0_pay532
  simp only [addf_apply, mulf_apply, r_245_apply c arg1 harg1 arg2 harg2 x0 x1, broadcast_apply, r_284_apply c arg1 harg1 arg2 harg2 x0 x1, r_246_apply c arg1 harg1 arg2 harg2 x0 x1, k0_pay528_apply c arg1 harg1 arg2 harg2 x0 x1, r_247_apply c arg1 harg1 arg2 harg2 x0 x1, k0_pay529_apply c arg1 harg1 arg2 harg2 x0 x1, r_251_apply c arg1 harg1 arg2 harg2 x0 x1]

theorem r_287_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_287 c arg1 harg1 arg2 harg2 x0 x1 (ix1 n) = Pn x0 x1 n 20 2 := by
  delta kernelRun0_A.sl.r_287
  simp only [k0_pay532_apply c arg1 harg1 arg2 harg2 x0 x1]

theorem k0_pay697_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay697 (F := Ideal) (View.readAt (Elt Ideal) arg2.view (Rect.unit (s := S3x55) ![0, 37] S1x1.size inb_S3x55_S1x1_0_37).toLoadRect (harg2.unread x1)) = Of x1 37 0 := by
  unfold k0_pay697
  simp only [rel_read x1 arg2 harg2 0 37 (0 : Fin 3) rfl (by decide)]

theorem k0_pay698_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay698 (F := Ideal) (View.readAt (Elt Ideal) arg2.view (Rect.unit (s := S3x55) ![1, 37] S1x1.size inb_S3x55_S1x1_1_37).toLoadRect (harg2.unread x1)) = Of x1 37 1 := by
  unfold k0_pay698
  simp only [rel_read x1 arg2 harg2 1 37 (1 : Fin 3) rfl (by decide)]

theorem k0_pay699_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay699 (F := Ideal) (View.readAt (Elt Ideal) arg2.view (Rect.unit (s := S3x55) ![2, 37] S1x1.size inb_S3x55_S1x1_2_37).toLoadRect (harg2.unread x1)) = Of x1 37 2 := by
  unfold k0_pay699
  simp only [rel_read x1 arg2 harg2 2 37 (2 : Fin 3) rfl (by decide)]

theorem k0_pay702_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay702 (F := Ideal) (kernelRun0_A.sl.r_281 c arg1 harg1 x0) (kernelRun0_A.sl.r_282 c arg1 harg1 x0) (kernelRun0_A.sl.r_283 c arg1 harg1 x0) (kernelRun0_A.sl.r_287 c arg1 harg1 arg2 harg2 x0 x1) (View.readAt (Elt Ideal) arg2.view (Rect.unit (s := S3x55) ![0, 37] S1x1.size inb_S3x55_S1x1_0_37).toLoadRect (harg2.unread x1)) (View.readAt (Elt Ideal) arg2.view (Rect.unit (s := S3x55) ![1, 37] S1x1.size inb_S3x55_S1x1_1_37).toLoadRect (harg2.unread x1)) (View.readAt (Elt Ideal) arg2.view (Rect.unit (s := S3x55) ![2, 37] S1x1.size inb_S3x55_S1x1_2_37).toLoadRect (harg2.unread x1)) (ix1 n) = Pn x0 x1 n 37 2 := by
  refine Eq.trans ?_ (Pn_step x0 x1 n 37 20 (by decide) rfl 2).symm
  unfold k0_pay702
  simp only [addf_apply, mulf_apply, r_281_apply c arg1 harg1 arg2 harg2 x0 x1, broadcast_apply, k0_pay697_apply c arg1 harg1 arg2 harg2 x0 x1, r_282_apply c arg1 harg1 arg2 harg2 x0 x1, k0_pay698_apply c arg1 harg1 arg2 harg2 x0 x1, r_283_apply c arg1 harg1 arg2 harg2 x0 x1, k0_pay699_apply c arg1 harg1 arg2 harg2 x0 x1, r_287_apply c arg1 harg1 arg2 harg2 x0 x1]

theorem r_372_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_372 c arg1 harg1 arg2 harg2 x0 x1 (ix1 n) = Pn x0 x1 n 37 2 := by
  delta kernelRun0_A.sl.r_372
  simp only [k0_pay702_apply c arg1 harg1 arg2 harg2 x0 x1]

theorem k0_pay706_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay706 (F := Ideal) (View.readAt (Elt Ideal) arg2.view (Rect.unit (s := S3x55) ![0, 38] S1x1.size inb_S3x55_S1x1_0_38).toLoadRect (harg2.unread x1)) = Of x1 38 0 := by
  unfold k0_pay706
  simp only [rel_read x1 arg2 harg2 0 38 (0 : Fin 3) rfl (by decide)]

theorem k0_pay707_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay707 (F := Ideal) (View.readAt (Elt Ideal) arg2.view (Rect.unit (s := S3x55) ![1, 38] S1x1.size inb_S3x55_S1x1_1_38).toLoadRect (harg2.unread x1)) = Of x1 38 1 := by
  unfold k0_pay707
  simp only [rel_read x1 arg2 harg2 1 38 (1 : Fin 3) rfl (by decide)]

theorem k0_pay708_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay708 (F := Ideal) (View.readAt (Elt Ideal) arg2.view (Rect.unit (s := S3x55) ![2, 38] S1x1.size inb_S3x55_S1x1_2_38).toLoadRect (harg2.unread x1)) = Of x1 38 2 := by
  unfold k0_pay708
  simp only [rel_read x1 arg2 harg2 2 38 (2 : Fin 3) rfl (by decide)]

theorem k0_pay711_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay711 (F := Ideal) (kernelRun0_A.sl.r_281 c arg1 harg1 x0) (kernelRun0_A.sl.r_282 c arg1 harg1 x0) (kernelRun0_A.sl.r_283 c arg1 harg1 x0) (kernelRun0_A.sl.r_372 c arg1 harg1 arg2 harg2 x0 x1) (View.readAt (Elt Ideal) arg2.view (Rect.unit (s := S3x55) ![0, 38] S1x1.size inb_S3x55_S1x1_0_38).toLoadRect (harg2.unread x1)) (View.readAt (Elt Ideal) arg2.view (Rect.unit (s := S3x55) ![1, 38] S1x1.size inb_S3x55_S1x1_1_38).toLoadRect (harg2.unread x1)) (View.readAt (Elt Ideal) arg2.view (Rect.unit (s := S3x55) ![2, 38] S1x1.size inb_S3x55_S1x1_2_38).toLoadRect (harg2.unread x1)) (ix1 n) = Pn x0 x1 n 38 2 := by
  refine Eq.trans ?_ (Pn_step x0 x1 n 38 37 (by decide) rfl 2).symm
  unfold k0_pay711
  simp only [addf_apply, mulf_apply, r_281_apply c arg1 harg1 arg2 harg2 x0 x1, broadcast_apply, k0_pay706_apply c arg1 harg1 arg2 harg2 x0 x1, r_282_apply c arg1 harg1 arg2 harg2 x0 x1, k0_pay707_apply c arg1 harg1 arg2 harg2 x0 x1, r_283_apply c arg1 harg1 arg2 harg2 x0 x1, k0_pay708_apply c arg1 harg1 arg2 harg2 x0 x1, r_372_apply c arg1 harg1 arg2 harg2 x0 x1, Cn_anc_37 x0 x1 n]

theorem r_375_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_375 c arg1 harg1 arg2 harg2 x0 x1 (ix1 n) = Pn x0 x1 n 38 2 := by
  delta kernelRun0_A.sl.r_375
  simp only [k0_pay711_apply c arg1 harg1 arg2 harg2 x0 x1]

theorem k0_pay715_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay715 (F := Ideal) (View.readAt (Elt Ideal) arg2.view (Rect.unit (s := S3x55) ![0, 39] S1x1.size inb_S3x55_S1x1_0_39).toLoadRect (harg2.unread x1)) = Of x1 39 0 := by
  unfold k0_pay715
  simp only [rel_read x1 arg2 harg2 0 39 (0 : Fin 3) rfl (by decide)]

theorem k0_pay716_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay716 (F := Ideal) (View.readAt (Elt Ideal) arg2.view (Rect.unit (s := S3x55) ![1, 39] S1x1.size inb_S3x55_S1x1_1_39).toLoadRect (harg2.unread x1)) = Of x1 39 1 := by
  unfold k0_pay716
  simp only [rel_read x1 arg2 harg2 1 39 (1 : Fin 3) rfl (by decide)]

theorem k0_pay717_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay717 (F := Ideal) (View.readAt (Elt Ideal) arg2.view (Rect.unit (s := S3x55) ![2, 39] S1x1.size inb_S3x55_S1x1_2_39).toLoadRect (harg2.unread x1)) = Of x1 39 2 := by
  unfold k0_pay717
  simp only [rel_read x1 arg2 harg2 2 39 (2 : Fin 3) rfl (by decide)]

theorem k0_pay720_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay720 (F := Ideal) (kernelRun0_A.sl.r_281 c arg1 harg1 x0) (kernelRun0_A.sl.r_282 c arg1 harg1 x0) (kernelRun0_A.sl.r_283 c arg1 harg1 x0) (kernelRun0_A.sl.r_375 c arg1 harg1 arg2 harg2 x0 x1) (View.readAt (Elt Ideal) arg2.view (Rect.unit (s := S3x55) ![0, 39] S1x1.size inb_S3x55_S1x1_0_39).toLoadRect (harg2.unread x1)) (View.readAt (Elt Ideal) arg2.view (Rect.unit (s := S3x55) ![1, 39] S1x1.size inb_S3x55_S1x1_1_39).toLoadRect (harg2.unread x1)) (View.readAt (Elt Ideal) arg2.view (Rect.unit (s := S3x55) ![2, 39] S1x1.size inb_S3x55_S1x1_2_39).toLoadRect (harg2.unread x1)) (ix2 u n) = Pn x0 x1 n 39 2 := by
  refine Eq.trans ?_ (Pn_step x0 x1 n 39 38 (by decide) rfl 2).symm
  unfold k0_pay720
  simp only [shapeCast_a_1a_apply, addf_apply, mulf_apply, r_281_apply c arg1 harg1 arg2 harg2 x0 x1, broadcast_apply, k0_pay715_apply c arg1 harg1 arg2 harg2 x0 x1, r_282_apply c arg1 harg1 arg2 harg2 x0 x1, k0_pay716_apply c arg1 harg1 arg2 harg2 x0 x1, r_283_apply c arg1 harg1 arg2 harg2 x0 x1, k0_pay717_apply c arg1 harg1 arg2 harg2 x0 x1, r_375_apply c arg1 harg1 arg2 harg2 x0 x1, Cn_anc_38 x0 x1 n]

theorem k0_pay325_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay325 (F := Ideal) (kernelRun0_A.sl.v2 c arg1 harg1 x0) (kernelRun0_A.sl.r_115 c arg1 harg1 x0) (kernelRun0_A.sl.r_116 c arg1 harg1 x0) (kernelRun0_A.sl.r_117 c arg1 harg1 x0) (kernelRun0_A.sl.r_144 c arg1 harg1 x0) (kernelRun0_A.sl.r_147 c arg1 harg1 x0) (ix1 n) = Cn x0 x1 n 13 1 0 := by
  refine Eq.trans ?_ (Cn_step x0 x1 n 13 9 (by decide) rfl (by decide) 1 0).symm
  unfold k0_pay325
  simp only [addf_apply, mulf_apply, r_115_apply c arg1 harg1 arg2 harg2 x0 x1, r_144_apply c arg1 harg1 arg2 harg2 x0 x1, r_116_apply c arg1 harg1 arg2 harg2 x0 x1, r_147_apply c arg1 harg1 arg2 harg2 x0 x1, r_117_apply c arg1 harg1 arg2 harg2 x0 x1, k0_pay319_apply c arg1 harg1 arg2 harg2 x0 x1]

theorem r_152_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_152 c arg1 harg1 x0 (ix1 n) = Cn x0 x1 n 13 1 0 := by
  delta kernelRun0_A.sl.r_152
  simp only [k0_pay325_apply c arg1 harg1 arg2 harg2 x0 x1]

theorem k0_pay326_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay326 (F := Ideal) (kernelRun0_A.sl.v2 c arg1 harg1 x0) (kernelRun0_A.sl.r_115 c arg1 harg1 x0) (kernelRun0_A.sl.r_116 c arg1 harg1 x0) (kernelRun0_A.sl.r_117 c arg1 harg1 x0) (kernelRun0_A.sl.r_145 c arg1 harg1 x0) (kernelRun0_A.sl.r_148 c arg1 harg1 x0) (ix1 n) = Cn x0 x1 n 13 1 1 := by
  refine Eq.trans ?_ (Cn_step x0 x1 n 13 9 (by decide) rfl (by decide) 1 1).symm
  unfold k0_pay326
  simp only [addf_apply, mulf_apply, r_115_apply c arg1 harg1 arg2 harg2 x0 x1, r_145_apply c arg1 harg1 arg2 harg2 x0 x1, r_116_apply c arg1 harg1 arg2 harg2 x0 x1, k0_pay317_apply c arg1 harg1 arg2 harg2 x0 x1, r_117_apply c arg1 harg1 arg2 harg2 x0 x1, k0_pay320_apply c arg1 harg1 arg2 harg2 x0 x1]

theorem r_153_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_153 c arg1 harg1 x0 (ix1 n) = Cn x0 x1 n 13 1 1 := by
  delta kernelRun0_A.sl.r_153
  simp only [k0_pay326_apply c arg1 harg1 arg2 harg2 x0 x1]

theorem k0_pay327_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay327 (F := Ideal) (kernelRun0_A.sl.v2 c arg1 harg1 x0) (kernelRun0_A.sl.r_115 c arg1 harg1 x0) (kernelRun0_A.sl.r_116 c arg1 harg1 x0) (kernelRun0_A.sl.r_117 c arg1 harg1 x0) (kernelRun0_A.sl.r_146 c arg1 harg1 x0) (ix1 n) = Cn x0 x1 n 13 1 2 := by
  refine Eq.trans ?_ (Cn_step x0 x1 n 13 9 (by decide) rfl (by decide) 1 2).symm
  unfold k0_pay327
  simp only [addf_apply, mulf_apply, r_115_apply c arg1 harg1 arg2 harg2 x0 x1, r_146_apply c arg1 harg1 arg2 harg2 x0 x1, r_116_apply c arg1 harg1 arg2 harg2 x0 x1, k0_pay318_apply c arg1 harg1 arg2 harg2 x0 x1, r_117_apply c arg1 harg1 arg2 harg2 x0 x1, k0_pay321_apply c arg1 harg1 arg2 harg2 x0 x1]

theorem r_154_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_154 c arg1 harg1 x0 (ix1 n) = Cn x0 x1 n 13 1 2 := by
  delta kernelRun0_A.sl.r_154
  simp only [k0_pay327_apply c arg1 harg1 arg2 harg2 x0 x1]

theorem k0_pay409_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay409 (F := Ideal) (kernelRun0_A.sl.v2 c arg1 harg1 x0) (kernelRun0_A.sl.r_152 c arg1 harg1 x0) (kernelRun0_A.sl.r_153 c arg1 harg1 x0) (kernelRun0_A.sl.r_154 c arg1 harg1 x0) (kernelRun0_A.sl.r_198 c arg1 harg1 x0) (kernelRun0_A.sl.r_201 c arg1 harg1 x0) (ix1 n) = Cn x0 x1 n 16 1 0 := by
  refine Eq.trans ?_ (Cn_step x0 x1 n 16 13 (by decide) rfl (by decide) 1 0).symm
  unfold k0_pay409
  simp only [addf_apply, mulf_apply, r_152_apply c arg1 harg1 arg2 harg2 x0 x1, r_198_apply c arg1 harg1 arg2 harg2 x0 x1, r_153_apply c arg1 harg1 arg2 harg2 x0 x1, r_201_apply c arg1 harg1 arg2 harg2 x0 x1, r_154_apply c arg1 harg1 arg2 harg2 x0 x1, k0_pay403_apply c arg1 harg1 arg2 harg2 x0 x1]

theorem r_206_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_206 c arg1 harg1 x0 (ix1 n) = Cn x0 x1 n 16 1 0 := by
  delta kernelRun0_A.sl.r_206
  simp only [k0_pay409_apply c arg1 harg1 arg2 harg2 x0 x1]

theorem k0_pay410_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay410 (F := Ideal) (kernelRun0_A.sl.v2 c arg1 harg1 x0) (kernelRun0_A.sl.r_152 c arg1 harg1 x0) (kernelRun0_A.sl.r_153 c arg1 harg1 x0) (kernelRun0_A.sl.r_154 c arg1 harg1 x0) (kernelRun0_A.sl.r_199 c arg1 harg1 x0) (kernelRun0_A.sl.r_202 c arg1 harg1 x0) (ix1 n) = Cn x0 x1 n 16 1 1 := by
  refine Eq.trans ?_ (Cn_step x0 x1 n 16 13 (by decide) rfl (by decide) 1 1).symm
  unfold k0_pay410
  simp only [addf_apply, mulf_apply, r_152_apply c arg1 harg1 arg2 harg2 x0 x1, r_199_apply c arg1 harg1 arg2 harg2 x0 x1, r_153_apply c arg1 harg1 arg2 harg2 x0 x1, k0_pay401_apply c arg1 harg1 arg2 harg2 x0 x1, r_154_apply c arg1 harg1 arg2 harg2 x0 x1, k0_pay404_apply c arg1 harg1 arg2 harg2 x0 x1]

theorem r_207_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_207 c arg1 harg1 x0 (ix1 n) = Cn x0 x1 n 16 1 1 := by
  delta kernelRun0_A.sl.r_207
  simp only [k0_pay410_apply c arg1 harg1 arg2 harg2 x0 x1]

theorem k0_pay411_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay411 (F := Ideal) (kernelRun0_A.sl.v2 c arg1 harg1 x0) (kernelRun0_A.sl.r_152 c arg1 harg1 x0) (kernelRun0_A.sl.r_153 c arg1 harg1 x0) (kernelRun0_A.sl.r_154 c arg1 harg1 x0) (kernelRun0_A.sl.r_200 c arg1 harg1 x0) (ix1 n) = Cn x0 x1 n 16 1 2 := by
  refine Eq.trans ?_ (Cn_step x0 x1 n 16 13 (by decide) rfl (by decide) 1 2).symm
  unfold k0_pay411
  simp only [addf_apply, mulf_apply, r_152_apply c arg1 harg1 arg2 harg2 x0 x1, r_200_apply c arg1 harg1 arg2 harg2 x0 x1, r_153_apply c arg1 harg1 arg2 harg2 x0 x1, k0_pay402_apply c arg1 harg1 arg2 harg2 x0 x1, r_154_apply c arg1 harg1 arg2 harg2 x0 x1, k0_pay405_apply c arg1 harg1 arg2 harg2 x0 x1]

theorem r_208_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_208 c arg1 harg1 x0 (ix1 n) = Cn x0 x1 n 16 1 2 := by
  delta kernelRun0_A.sl.r_208
  simp only [k0_pay411_apply c arg1 harg1 arg2 harg2 x0 x1]

theorem k0_pay465_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay465 (F := Ideal) (kernelRun0_A.sl.v2 c arg1 harg1 x0) (kernelRun0_A.sl.r_206 c arg1 harg1 x0) (kernelRun0_A.sl.r_207 c arg1 harg1 x0) (kernelRun0_A.sl.r_208 c arg1 harg1 x0) (kernelRun0_A.sl.r_234 c arg1 harg1 x0) (kernelRun0_A.sl.r_237 c arg1 harg1 x0) (ix1 n) = Cn x0 x1 n 18 1 0 := by
  refine Eq.trans ?_ (Cn_step x0 x1 n 18 16 (by decide) rfl (by decide) 1 0).symm
  unfold k0_pay465
  simp only [addf_apply, mulf_apply, r_206_apply c arg1 harg1 arg2 harg2 x0 x1, r_234_apply c arg1 harg1 arg2 harg2 x0 x1, r_207_apply c arg1 harg1 arg2 harg2 x0 x1, r_237_apply c arg1 harg1 arg2 harg2 x0 x1, r_208_apply c arg1 harg1 arg2 harg2 x0 x1, k0_pay459_apply c arg1 harg1 arg2 harg2 x0 x1]

theorem r_242_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_242 c arg1 harg1 x0 (ix1 n) = Cn x0 x1 n 18 1 0 := by
  delta kernelRun0_A.sl.r_242
  simp only [k0_pay465_apply c arg1 harg1 arg2 harg2 x0 x1]

theorem k0_pay466_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay466 (F := Ideal) (kernelRun0_A.sl.v2 c arg1 harg1 x0) (kernelRun0_A.sl.r_206 c arg1 harg1 x0) (kernelRun0_A.sl.r_207 c arg1 harg1 x0) (kernelRun0_A.sl.r_208 c arg1 harg1 x0) (kernelRun0_A.sl.r_235 c arg1 harg1 x0) (kernelRun0_A.sl.r_238 c arg1 harg1 x0) (ix1 n) = Cn x0 x1 n 18 1 1 := by
  refine Eq.trans ?_ (Cn_step x0 x1 n 18 16 (by decide) rfl (by decide) 1 1).symm
  unfold k0_pay466
  simp only [addf_apply, mulf_apply, r_206_apply c arg1 harg1 arg2 harg2 x0 x1, r_235_apply c arg1 harg1 arg2 harg2 x0 x1, r_207_apply c arg1 harg1 arg2 harg2 x0 x1, k0_pay457_apply c arg1 harg1 arg2 harg2 x0 x1, r_208_apply c arg1 harg1 arg2 harg2 x0 x1, k0_pay460_apply c arg1 harg1 arg2 harg2 x0 x1]

theorem r_243_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_243 c arg1 harg1 x0 (ix1 n) = Cn x0 x1 n 18 1 1 := by
  delta kernelRun0_A.sl.r_243
  simp only [k0_pay466_apply c arg1 harg1 arg2 harg2 x0 x1]

theorem k0_pay467_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay467 (F := Ideal) (kernelRun0_A.sl.v2 c arg1 harg1 x0) (kernelRun0_A.sl.r_206 c arg1 harg1 x0) (kernelRun0_A.sl.r_207 c arg1 harg1 x0) (kernelRun0_A.sl.r_208 c arg1 harg1 x0) (kernelRun0_A.sl.r_236 c arg1 harg1 x0) (ix1 n) = Cn x0 x1 n 18 1 2 := by
  refine Eq.trans ?_ (Cn_step x0 x1 n 18 16 (by decide) rfl (by decide) 1 2).symm
  unfold k0_pay467
  simp only [addf_apply, mulf_apply, r_206_apply c arg1 harg1 arg2 harg2 x0 x1, r_236_apply c arg1 harg1 arg2 harg2 x0 x1, r_207_apply c arg1 harg1 arg2 harg2 x0 x1, k0_pay458_apply c arg1 harg1 arg2 harg2 x0 x1, r_208_apply c arg1 harg1 arg2 harg2 x0 x1, k0_pay461_apply c arg1 harg1 arg2 harg2 x0 x1]

theorem r_244_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_244 c arg1 harg1 x0 (ix1 n) = Cn x0 x1 n 18 1 2 := by
  delta kernelRun0_A.sl.r_244
  simp only [k0_pay467_apply c arg1 harg1 arg2 harg2 x0 x1]

theorem k0_pay521_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay521 (F := Ideal) (kernelRun0_A.sl.v2 c arg1 harg1 x0) (kernelRun0_A.sl.r_242 c arg1 harg1 x0) (kernelRun0_A.sl.r_243 c arg1 harg1 x0) (kernelRun0_A.sl.r_244 c arg1 harg1 x0) (kernelRun0_A.sl.r_270 c arg1 harg1 x0) (kernelRun0_A.sl.r_273 c arg1 harg1 x0) (ix1 n) = Cn x0 x1 n 20 1 0 := by
  refine Eq.trans ?_ (Cn_step x0 x1 n 20 18 (by decide) rfl (by decide) 1 0).symm
  unfold k0_pay521
  simp only [addf_apply, mulf_apply, r_242_apply c arg1 harg1 arg2 harg2 x0 x1, r_270_apply c arg1 harg1 arg2 harg2 x0 x1, r_243_apply c arg1 harg1 arg2 harg2 x0 x1, r_273_apply c arg1 harg1 arg2 harg2 x0 x1, r_244_apply c arg1 harg1 arg2 harg2 x0 x1, k0_pay515_apply c arg1 harg1 arg2 harg2 x0 x1]

theorem r_278_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_278 c arg1 harg1 x0 (ix1 n) = Cn x0 x1 n 20 1 0 := by
  delta kernelRun0_A.sl.r_278
  simp only [k0_pay521_apply c arg1 harg1 arg2 harg2 x0 x1]

theorem k0_pay522_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay522 (F := Ideal) (kernelRun0_A.sl.v2 c arg1 harg1 x0) (kernelRun0_A.sl.r_242 c arg1 harg1 x0) (kernelRun0_A.sl.r_243 c arg1 harg1 x0) (kernelRun0_A.sl.r_244 c arg1 harg1 x0) (kernelRun0_A.sl.r_271 c arg1 harg1 x0) (kernelRun0_A.sl.r_274 c arg1 harg1 x0) (ix1 n) = Cn x0 x1 n 20 1 1 := by
  refine Eq.trans ?_ (Cn_step x0 x1 n 20 18 (by decide) rfl (by decide) 1 1).symm
  unfold k0_pay522
  simp only [addf_apply, mulf_apply, r_242_apply c arg1 harg1 arg2 harg2 x0 x1, r_271_apply c arg1 harg1 arg2 harg2 x0 x1, r_243_apply c arg1 harg1 arg2 harg2 x0 x1, k0_pay513_apply c arg1 harg1 arg2 harg2 x0 x1, r_244_apply c arg1 harg1 arg2 harg2 x0 x1, k0_pay516_apply c arg1 harg1 arg2 harg2 x0 x1]

theorem r_279_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_279 c arg1 harg1 x0 (ix1 n) = Cn x0 x1 n 20 1 1 := by
  delta kernelRun0_A.sl.r_279
  simp only [k0_pay522_apply c arg1 harg1 arg2 harg2 x0 x1]

theorem k0_pay523_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay523 (F := Ideal) (kernelRun0_A.sl.v2 c arg1 harg1 x0) (kernelRun0_A.sl.r_242 c arg1 harg1 x0) (kernelRun0_A.sl.r_243 c arg1 harg1 x0) (kernelRun0_A.sl.r_244 c arg1 harg1 x0) (kernelRun0_A.sl.r_272 c arg1 harg1 x0) (ix1 n) = Cn x0 x1 n 20 1 2 := by
  refine Eq.trans ?_ (Cn_step x0 x1 n 20 18 (by decide) rfl (by decide) 1 2).symm
  unfold k0_pay523
  simp only [addf_apply, mulf_apply, r_242_apply c arg1 harg1 arg2 harg2 x0 x1, r_272_apply c arg1 harg1 arg2 harg2 x0 x1, r_243_apply c arg1 harg1 arg2 harg2 x0 x1, k0_pay514_apply c arg1 harg1 arg2 harg2 x0 x1, r_244_apply c arg1 harg1 arg2 harg2 x0 x1, k0_pay517_apply c arg1 harg1 arg2 harg2 x0 x1]

theorem r_280_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_280 c arg1 harg1 x0 (ix1 n) = Cn x0 x1 n 20 1 2 := by
  delta kernelRun0_A.sl.r_280
  simp only [k0_pay523_apply c arg1 harg1 arg2 harg2 x0 x1]

theorem k0_pay335_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay335 (F := Ideal) (kernelRun0_A.sl.r_115 c arg1 harg1 x0) (kernelRun0_A.sl.r_116 c arg1 harg1 x0) (kernelRun0_A.sl.r_117 c arg1 harg1 x0) (kernelRun0_A.sl.r_122 c arg1 harg1 arg2 harg2 x0 x1) (kernelRun0_A.sl.r_158 c arg2 harg2 x1) (View.readAt (Elt Ideal) arg2.view (Rect.unit (s := S3x55) ![1, 13] S1x1.size inb_S3x55_S1x1_1_13).toLoadRect (harg2.unread x1)) (View.readAt (Elt Ideal) arg2.view (Rect.unit (s := S3x55) ![2, 13] S1x1.size inb_S3x55_S1x1_2_13).toLoadRect (harg2.unread x1)) (ix1 n) = Pn x0 x1 n 13 1 := by
  refine Eq.trans ?_ (Pn_step x0 x1 n 13 9 (by decide) rfl 1).symm
  unfold k0_pay335
  simp only [addf_apply, mulf_apply, r_115_apply c arg1 harg1 arg2 harg2 x0 x1, broadcast_apply, r_158_apply c arg1 harg1 arg2 harg2 x0 x1, r_116_apply c arg1 harg1 arg2 harg2 x0 x1, k0_pay332_apply c arg1 harg1 arg2 harg2 x0 x1, r_117_apply c arg1 harg1 arg2 harg2 x0 x1, k0_pay333_apply c arg1 harg1 arg2 harg2 x0 x1, r_122_apply c arg1 harg1 arg2 harg2 x0 x1]

theorem r_160_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_160 c arg1 harg1 arg2 harg2 x0 x1 (ix1 n) = Pn x0 x1 n 13 1 := by
  delta kernelRun0_A.sl.r_160
  simp only [k0_pay335_apply c arg1 harg1 arg2 harg2 x0 x1]

theorem k0_pay419_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay419 (F := Ideal) (kernelRun0_A.sl.r_152 c arg1 harg1 x0) (kernelRun0_A.sl.r_153 c arg1 harg1 x0) (kernelRun0_A.sl.r_154 c arg1 harg1 x0) (kernelRun0_A.sl.r_160 c arg1 harg1 arg2 harg2 x0 x1) (kernelRun0_A.sl.r_212 c arg2 harg2 x1) (View.readAt (Elt Ideal) arg2.view (Rect.unit (s := S3x55) ![1, 16] S1x1.size inb_S3x55_S1x1_1_16).toLoadRect (harg2.unread x1)) (View.readAt (Elt Ideal) arg2.view (Rect.unit (s := S3x55) ![2, 16] S1x1.size inb_S3x55_S1x1_2_16).toLoadRect (harg2.unread x1)) (ix1 n) = Pn x0 x1 n 16 1 := by
  refine Eq.trans ?_ (Pn_step x0 x1 n 16 13 (by decide) rfl 1).symm
  unfold k0_pay419
  simp only [addf_apply, mulf_apply, r_152_apply c arg1 harg1 arg2 harg2 x0 x1, broadcast_apply, r_212_apply c arg1 harg1 arg2 harg2 x0 x1, r_153_apply c arg1 harg1 arg2 harg2 x0 x1, k0_pay416_apply c arg1 harg1 arg2 harg2 x0 x1, r_154_apply c arg1 harg1 arg2 harg2 x0 x1, k0_pay417_apply c arg1 harg1 arg2 harg2 x0 x1, r_160_apply c arg1 harg1 arg2 harg2 x0 x1]

theorem r_214_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_214 c arg1 harg1 arg2 harg2 x0 x1 (ix1 n) = Pn x0 x1 n 16 1 := by
  delta kernelRun0_A.sl.r_214
  simp only [k0_pay419_apply c arg1 harg1 arg2 harg2 x0 x1]

theorem k0_pay475_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay475 (F := Ideal) (kernelRun0_A.sl.r_206 c arg1 harg1 x0) (kernelRun0_A.sl.r_207 c arg1 harg1 x0) (kernelRun0_A.sl.r_208 c arg1 harg1 x0) (kernelRun0_A.sl.r_214 c arg1 harg1 arg2 harg2 x0 x1) (kernelRun0_A.sl.r_248 c arg2 harg2 x1) (View.readAt (Elt Ideal) arg2.view (Rect.unit (s := S3x55) ![1, 18] S1x1.size inb_S3x55_S1x1_1_18).toLoadRect (harg2.unread x1)) (View.readAt (Elt Ideal) arg2.view (Rect.unit (s := S3x55) ![2, 18] S1x1.size inb_S3x55_S1x1_2_18).toLoadRect (harg2.unread x1)) (ix1 n) = Pn x0 x1 n 18 1 := by
  refine Eq.trans ?_ (Pn_step x0 x1 n 18 16 (by decide) rfl 1).symm
  unfold k0_pay475
  simp only [addf_apply, mulf_apply, r_206_apply c arg1 harg1 arg2 harg2 x0 x1, broadcast_apply, r_248_apply c arg1 harg1 arg2 harg2 x0 x1, r_207_apply c arg1 harg1 arg2 harg2 x0 x1, k0_pay472_apply c arg1 harg1 arg2 harg2 x0 x1, r_208_apply c arg1 harg1 arg2 harg2 x0 x1, k0_pay473_apply c arg1 harg1 arg2 harg2 x0 x1, r_214_apply c arg1 harg1 arg2 harg2 x0 x1]

theorem r_250_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_250 c arg1 harg1 arg2 harg2 x0 x1 (ix1 n) = Pn x0 x1 n 18 1 := by
  delta kernelRun0_A.sl.r_250
  simp only [k0_pay475_apply c arg1 harg1 arg2 harg2 x0 x1]

theorem k0_pay531_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay531 (F := Ideal) (kernelRun0_A.sl.r_242 c arg1 harg1 x0) (kernelRun0_A.sl.r_243 c arg1 harg1 x0) (kernelRun0_A.sl.r_244 c arg1 harg1 x0) (kernelRun0_A.sl.r_250 c arg1 harg1 arg2 harg2 x0 x1) (kernelRun0_A.sl.r_284 c arg2 harg2 x1) (View.readAt (Elt Ideal) arg2.view (Rect.unit (s := S3x55) ![1, 20] S1x1.size inb_S3x55_S1x1_1_20).toLoadRect (harg2.unread x1)) (View.readAt (Elt Ideal) arg2.view (Rect.unit (s := S3x55) ![2, 20] S1x1.size inb_S3x55_S1x1_2_20).toLoadRect (harg2.unread x1)) (ix1 n) = Pn x0 x1 n 20 1 := by
  refine Eq.trans ?_ (Pn_step x0 x1 n 20 18 (by decide) rfl 1).symm
  unfold k0_pay531
  simp only [addf_apply, mulf_apply, r_242_apply c arg1 harg1 arg2 harg2 x0 x1, broadcast_apply, r_284_apply c arg1 harg1 arg2 harg2 x0 x1, r_243_apply c arg1 harg1 arg2 harg2 x0 x1, k0_pay528_apply c arg1 harg1 arg2 harg2 x0 x1, r_244_apply c arg1 harg1 arg2 harg2 x0 x1, k0_pay529_apply c arg1 harg1 arg2 harg2 x0 x1, r_250_apply c arg1 harg1 arg2 harg2 x0 x1]

theorem r_286_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_286 c arg1 harg1 arg2 harg2 x0 x1 (ix1 n) = Pn x0 x1 n 20 1 := by
  delta kernelRun0_A.sl.r_286
  simp only [k0_pay531_apply c arg1 harg1 arg2 harg2 x0 x1]

theorem k0_pay701_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay701 (F := Ideal) (kernelRun0_A.sl.r_278 c arg1 harg1 x0) (kernelRun0_A.sl.r_279 c arg1 harg1 x0) (kernelRun0_A.sl.r_280 c arg1 harg1 x0) (kernelRun0_A.sl.r_286 c arg1 harg1 arg2 harg2 x0 x1) (View.readAt (Elt Ideal) arg2.view (Rect.unit (s := S3x55) ![0, 37] S1x1.size inb_S3x55_S1x1_0_37).toLoadRect (harg2.unread x1)) (View.readAt (Elt Ideal) arg2.view (Rect.unit (s := S3x55) ![1, 37] S1x1.size inb_S3x55_S1x1_1_37).toLoadRect (harg2.unread x1)) (View.readAt (Elt Ideal) arg2.view (Rect.unit (s := S3x55) ![2, 37] S1x1.size inb_S3x55_S1x1_2_37).toLoadRect (harg2.unread x1)) (ix1 n) = Pn x0 x1 n 37 1 := by
  refine Eq.trans ?_ (Pn_step x0 x1 n 37 20 (by decide) rfl 1).symm
  unfold k0_pay701
  simp only [addf_apply, mulf_apply, r_278_apply c arg1 harg1 arg2 harg2 x0 x1, broadcast_apply, k0_pay697_apply c arg1 harg1 arg2 harg2 x0 x1, r_279_apply c arg1 harg1 arg2 harg2 x0 x1, k0_pay698_apply c arg1 harg1 arg2 harg2 x0 x1, r_280_apply c arg1 harg1 arg2 harg2 x0 x1, k0_pay699_apply c arg1 harg1 arg2 harg2 x0 x1, r_286_apply c arg1 harg1 arg2 harg2 x0 x1]

theorem r_371_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_371 c arg1 harg1 arg2 harg2 x0 x1 (ix1 n) = Pn x0 x1 n 37 1 := by
  delta kernelRun0_A.sl.r_371
  simp only [k0_pay701_apply c arg1 harg1 arg2 harg2 x0 x1]

theorem k0_pay710_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay710 (F := Ideal) (kernelRun0_A.sl.r_278 c arg1 harg1 x0) (kernelRun0_A.sl.r_279 c arg1 harg1 x0) (kernelRun0_A.sl.r_280 c arg1 harg1 x0) (kernelRun0_A.sl.r_371 c arg1 harg1 arg2 harg2 x0 x1) (View.readAt (Elt Ideal) arg2.view (Rect.unit (s := S3x55) ![0, 38] S1x1.size inb_S3x55_S1x1_0_38).toLoadRect (harg2.unread x1)) (View.readAt (Elt Ideal) arg2.view (Rect.unit (s := S3x55) ![1, 38] S1x1.size inb_S3x55_S1x1_1_38).toLoadRect (harg2.unread x1)) (View.readAt (Elt Ideal) arg2.view (Rect.unit (s := S3x55) ![2, 38] S1x1.size inb_S3x55_S1x1_2_38).toLoadRect (harg2.unread x1)) (ix1 n) = Pn x0 x1 n 38 1 := by
  refine Eq.trans ?_ (Pn_step x0 x1 n 38 37 (by decide) rfl 1).symm
  unfold k0_pay710
  simp only [addf_apply, mulf_apply, r_278_apply c arg1 harg1 arg2 harg2 x0 x1, broadcast_apply, k0_pay706_apply c arg1 harg1 arg2 harg2 x0 x1, r_279_apply c arg1 harg1 arg2 harg2 x0 x1, k0_pay707_apply c arg1 harg1 arg2 harg2 x0 x1, r_280_apply c arg1 harg1 arg2 harg2 x0 x1, k0_pay708_apply c arg1 harg1 arg2 harg2 x0 x1, r_371_apply c arg1 harg1 arg2 harg2 x0 x1, Cn_anc_37 x0 x1 n]

theorem r_374_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_374 c arg1 harg1 arg2 harg2 x0 x1 (ix1 n) = Pn x0 x1 n 38 1 := by
  delta kernelRun0_A.sl.r_374
  simp only [k0_pay710_apply c arg1 harg1 arg2 harg2 x0 x1]

theorem k0_pay719_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay719 (F := Ideal) (kernelRun0_A.sl.r_278 c arg1 harg1 x0) (kernelRun0_A.sl.r_279 c arg1 harg1 x0) (kernelRun0_A.sl.r_280 c arg1 harg1 x0) (kernelRun0_A.sl.r_374 c arg1 harg1 arg2 harg2 x0 x1) (View.readAt (Elt Ideal) arg2.view (Rect.unit (s := S3x55) ![0, 39] S1x1.size inb_S3x55_S1x1_0_39).toLoadRect (harg2.unread x1)) (View.readAt (Elt Ideal) arg2.view (Rect.unit (s := S3x55) ![1, 39] S1x1.size inb_S3x55_S1x1_1_39).toLoadRect (harg2.unread x1)) (View.readAt (Elt Ideal) arg2.view (Rect.unit (s := S3x55) ![2, 39] S1x1.size inb_S3x55_S1x1_2_39).toLoadRect (harg2.unread x1)) (ix2 u n) = Pn x0 x1 n 39 1 := by
  refine Eq.trans ?_ (Pn_step x0 x1 n 39 38 (by decide) rfl 1).symm
  unfold k0_pay719
  simp only [shapeCast_a_1a_apply, addf_apply, mulf_apply, r_278_apply c arg1 harg1 arg2 harg2 x0 x1, broadcast_apply, k0_pay715_apply c arg1 harg1 arg2 harg2 x0 x1, r_279_apply c arg1 harg1 arg2 harg2 x0 x1, k0_pay716_apply c arg1 harg1 arg2 harg2 x0 x1, r_280_apply c arg1 harg1 arg2 harg2 x0 x1, k0_pay717_apply c arg1 harg1 arg2 harg2 x0 x1, r_374_apply c arg1 harg1 arg2 harg2 x0 x1, Cn_anc_38 x0 x1 n]

theorem k0_pay322_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay322 (F := Ideal) (kernelRun0_A.sl.v2 c arg1 harg1 x0) (kernelRun0_A.sl.r_112 c arg1 harg1 x0) (kernelRun0_A.sl.r_113 c arg1 harg1 x0) (kernelRun0_A.sl.r_114 c arg1 harg1 x0) (kernelRun0_A.sl.r_144 c arg1 harg1 x0) (kernelRun0_A.sl.r_147 c arg1 harg1 x0) (ix1 n) = Cn x0 x1 n 13 0 0 := by
  refine Eq.trans ?_ (Cn_step x0 x1 n 13 9 (by decide) rfl (by decide) 0 0).symm
  unfold k0_pay322
  simp only [addf_apply, mulf_apply, r_112_apply c arg1 harg1 arg2 harg2 x0 x1, r_144_apply c arg1 harg1 arg2 harg2 x0 x1, r_113_apply c arg1 harg1 arg2 harg2 x0 x1, r_147_apply c arg1 harg1 arg2 harg2 x0 x1, r_114_apply c arg1 harg1 arg2 harg2 x0 x1, k0_pay319_apply c arg1 harg1 arg2 harg2 x0 x1]

theorem r_149_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_149 c arg1 harg1 x0 (ix1 n) = Cn x0 x1 n 13 0 0 := by
  delta kernelRun0_A.sl.r_149
  simp only [k0_pay322_apply c arg1 harg1 arg2 harg2 x0 x1]

theorem k0_pay323_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay323 (F := Ideal) (kernelRun0_A.sl.v2 c arg1 harg1 x0) (kernelRun0_A.sl.r_112 c arg1 harg1 x0) (kernelRun0_A.sl.r_113 c arg1 harg1 x0) (kernelRun0_A.sl.r_114 c arg1 harg1 x0) (kernelRun0_A.sl.r_145 c arg1 harg1 x0) (kernelRun0_A.sl.r_148 c arg1 harg1 x0) (ix1 n) = Cn x0 x1 n 13 0 1 := by
  refine Eq.trans ?_ (Cn_step x0 x1 n 13 9 (by decide) rfl (by decide) 0 1).symm
  unfold k0_pay323
  simp only [addf_apply, mulf_apply, r_112_apply c arg1 harg1 arg2 harg2 x0 x1, r_145_apply c arg1 harg1 arg2 harg2 x0 x1, r_113_apply c arg1 harg1 arg2 harg2 x0 x1, k0_pay317_apply c arg1 harg1 arg2 harg2 x0 x1, r_114_apply c arg1 harg1 arg2 harg2 x0 x1, k0_pay320_apply c arg1 harg1 arg2 harg2 x0 x1]

theorem r_150_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_150 c arg1 harg1 x0 (ix1 n) = Cn x0 x1 n 13 0 1 := by
  delta kernelRun0_A.sl.r_150
  simp only [k0_pay323_apply c arg1 harg1 arg2 harg2 x0 x1]

theorem k0_pay324_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay324 (F := Ideal) (kernelRun0_A.sl.v2 c arg1 harg1 x0) (kernelRun0_A.sl.r_112 c arg1 harg1 x0) (kernelRun0_A.sl.r_113 c arg1 harg1 x0) (kernelRun0_A.sl.r_114 c arg1 harg1 x0) (kernelRun0_A.sl.r_146 c arg1 harg1 x0) (ix1 n) = Cn x0 x1 n 13 0 2 := by
  refine Eq.trans ?_ (Cn_step x0 x1 n 13 9 (by decide) rfl (by decide) 0 2).symm
  unfold k0_pay324
  simp only [addf_apply, mulf_apply, r_112_apply c arg1 harg1 arg2 harg2 x0 x1, r_146_apply c arg1 harg1 arg2 harg2 x0 x1, r_113_apply c arg1 harg1 arg2 harg2 x0 x1, k0_pay318_apply c arg1 harg1 arg2 harg2 x0 x1, r_114_apply c arg1 harg1 arg2 harg2 x0 x1, k0_pay321_apply c arg1 harg1 arg2 harg2 x0 x1]

theorem r_151_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_151 c arg1 harg1 x0 (ix1 n) = Cn x0 x1 n 13 0 2 := by
  delta kernelRun0_A.sl.r_151
  simp only [k0_pay324_apply c arg1 harg1 arg2 harg2 x0 x1]

theorem k0_pay406_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay406 (F := Ideal) (kernelRun0_A.sl.v2 c arg1 harg1 x0) (kernelRun0_A.sl.r_149 c arg1 harg1 x0) (kernelRun0_A.sl.r_150 c arg1 harg1 x0) (kernelRun0_A.sl.r_151 c arg1 harg1 x0) (kernelRun0_A.sl.r_198 c arg1 harg1 x0) (kernelRun0_A.sl.r_201 c arg1 harg1 x0) (ix1 n) = Cn x0 x1 n 16 0 0 := by
  refine Eq.trans ?_ (Cn_step x0 x1 n 16 13 (by decide) rfl (by decide) 0 0).symm
  unfold k0_pay406
  simp only [addf_apply, mulf_apply, r_149_apply c arg1 harg1 arg2 harg2 x0 x1, r_198_apply c arg1 harg1 arg2 harg2 x0 x1, r_150_apply c arg1 harg1 arg2 harg2 x0 x1, r_201_apply c arg1 harg1 arg2 harg2 x0 x1, r_151_apply c arg1 harg1 arg2 harg2 x0 x1, k0_pay403_apply c arg1 harg1 arg2 harg2 x0 x1]

theorem r_203_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_203 c arg1 harg1 x0 (ix1 n) = Cn x0 x1 n 16 0 0 := by
  delta kernelRun0_A.sl.r_203
  simp only [k0_pay406_apply c arg1 harg1 arg2 harg2 x0 x1]

theorem k0_pay407_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay407 (F := Ideal) (kernelRun0_A.sl.v2 c arg1 harg1 x0) (kernelRun0_A.sl.r_149 c arg1 harg1 x0) (kernelRun0_A.sl.r_150 c arg1 harg1 x0) (kernelRun0_A.sl.r_151 c arg1 harg1 x0) (kernelRun0_A.sl.r_199 c arg1 harg1 x0) (kernelRun0_A.sl.r_202 c arg1 harg1 x0) (ix1 n) = Cn x0 x1 n 16 0 1 := by
  refine Eq.trans ?_ (Cn_step x0 x1 n 16 13 (by decide) rfl (by decide) 0 1).symm
  unfold k0_pay407
  simp only [addf_apply, mulf_apply, r_149_apply c arg1 harg1 arg2 harg2 x0 x1, r_199_apply c arg1 harg1 arg2 harg2 x0 x1, r_150_apply c arg1 harg1 arg2 harg2 x0 x1, k0_pay401_apply c arg1 harg1 arg2 harg2 x0 x1, r_151_apply c arg1 harg1 arg2 harg2 x0 x1, k0_pay404_apply c arg1 harg1 arg2 harg2 x0 x1]

theorem r_204_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_204 c arg1 harg1 x0 (ix1 n) = Cn x0 x1 n 16 0 1 := by
  delta kernelRun0_A.sl.r_204
  simp only [k0_pay407_apply c arg1 harg1 arg2 harg2 x0 x1]

theorem k0_pay408_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay408 (F := Ideal) (kernelRun0_A.sl.v2 c arg1 harg1 x0) (kernelRun0_A.sl.r_149 c arg1 harg1 x0) (kernelRun0_A.sl.r_150 c arg1 harg1 x0) (kernelRun0_A.sl.r_151 c arg1 harg1 x0) (kernelRun0_A.sl.r_200 c arg1 harg1 x0) (ix1 n) = Cn x0 x1 n 16 0 2 := by
  refine Eq.trans ?_ (Cn_step x0 x1 n 16 13 (by decide) rfl (by decide) 0 2).symm
  unfold k0_pay408
  simp only [addf_apply, mulf_apply, r_149_apply c arg1 harg1 arg2 harg2 x0 x1, r_200_apply c arg1 harg1 arg2 harg2 x0 x1, r_150_apply c arg1 harg1 arg2 harg2 x0 x1, k0_pay402_apply c arg1 harg1 arg2 harg2 x0 x1, r_151_apply c arg1 harg1 arg2 harg2 x0 x1, k0_pay405_apply c arg1 harg1 arg2 harg2 x0 x1]

theorem r_205_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_205 c arg1 harg1 x0 (ix1 n) = Cn x0 x1 n 16 0 2 := by
  delta kernelRun0_A.sl.r_205
  simp only [k0_pay408_apply c arg1 harg1 arg2 harg2 x0 x1]

theorem k0_pay462_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay462 (F := Ideal) (kernelRun0_A.sl.v2 c arg1 harg1 x0) (kernelRun0_A.sl.r_203 c arg1 harg1 x0) (kernelRun0_A.sl.r_204 c arg1 harg1 x0) (kernelRun0_A.sl.r_205 c arg1 harg1 x0) (kernelRun0_A.sl.r_234 c arg1 harg1 x0) (kernelRun0_A.sl.r_237 c arg1 harg1 x0) (ix1 n) = Cn x0 x1 n 18 0 0 := by
  refine Eq.trans ?_ (Cn_step x0 x1 n 18 16 (by decide) rfl (by decide) 0 0).symm
  unfold k0_pay462
  simp only [addf_apply, mulf_apply, r_203_apply c arg1 harg1 arg2 harg2 x0 x1, r_234_apply c arg1 harg1 arg2 harg2 x0 x1, r_204_apply c arg1 harg1 arg2 harg2 x0 x1, r_237_apply c arg1 harg1 arg2 harg2 x0 x1, r_205_apply c arg1 harg1 arg2 harg2 x0 x1, k0_pay459_apply c arg1 harg1 arg2 harg2 x0 x1]

theorem r_239_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_239 c arg1 harg1 x0 (ix1 n) = Cn x0 x1 n 18 0 0 := by
  delta kernelRun0_A.sl.r_239
  simp only [k0_pay462_apply c arg1 harg1 arg2 harg2 x0 x1]

theorem k0_pay463_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay463 (F := Ideal) (kernelRun0_A.sl.v2 c arg1 harg1 x0) (kernelRun0_A.sl.r_203 c arg1 harg1 x0) (kernelRun0_A.sl.r_204 c arg1 harg1 x0) (kernelRun0_A.sl.r_205 c arg1 harg1 x0) (kernelRun0_A.sl.r_235 c arg1 harg1 x0) (kernelRun0_A.sl.r_238 c arg1 harg1 x0) (ix1 n) = Cn x0 x1 n 18 0 1 := by
  refine Eq.trans ?_ (Cn_step x0 x1 n 18 16 (by decide) rfl (by decide) 0 1).symm
  unfold k0_pay463
  simp only [addf_apply, mulf_apply, r_203_apply c arg1 harg1 arg2 harg2 x0 x1, r_235_apply c arg1 harg1 arg2 harg2 x0 x1, r_204_apply c arg1 harg1 arg2 harg2 x0 x1, k0_pay457_apply c arg1 harg1 arg2 harg2 x0 x1, r_205_apply c arg1 harg1 arg2 harg2 x0 x1, k0_pay460_apply c arg1 harg1 arg2 harg2 x0 x1]

theorem r_240_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_240 c arg1 harg1 x0 (ix1 n) = Cn x0 x1 n 18 0 1 := by
  delta kernelRun0_A.sl.r_240
  simp only [k0_pay463_apply c arg1 harg1 arg2 harg2 x0 x1]

theorem k0_pay464_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay464 (F := Ideal) (kernelRun0_A.sl.v2 c arg1 harg1 x0) (kernelRun0_A.sl.r_203 c arg1 harg1 x0) (kernelRun0_A.sl.r_204 c arg1 harg1 x0) (kernelRun0_A.sl.r_205 c arg1 harg1 x0) (kernelRun0_A.sl.r_236 c arg1 harg1 x0) (ix1 n) = Cn x0 x1 n 18 0 2 := by
  refine Eq.trans ?_ (Cn_step x0 x1 n 18 16 (by decide) rfl (by decide) 0 2).symm
  unfold k0_pay464
  simp only [addf_apply, mulf_apply, r_203_apply c arg1 harg1 arg2 harg2 x0 x1, r_236_apply c arg1 harg1 arg2 harg2 x0 x1, r_204_apply c arg1 harg1 arg2 harg2 x0 x1, k0_pay458_apply c arg1 harg1 arg2 harg2 x0 x1, r_205_apply c arg1 harg1 arg2 harg2 x0 x1, k0_pay461_apply c arg1 harg1 arg2 harg2 x0 x1]

theorem r_241_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_241 c arg1 harg1 x0 (ix1 n) = Cn x0 x1 n 18 0 2 := by
  delta kernelRun0_A.sl.r_241
  simp only [k0_pay464_apply c arg1 harg1 arg2 harg2 x0 x1]

theorem k0_pay518_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay518 (F := Ideal) (kernelRun0_A.sl.v2 c arg1 harg1 x0) (kernelRun0_A.sl.r_239 c arg1 harg1 x0) (kernelRun0_A.sl.r_240 c arg1 harg1 x0) (kernelRun0_A.sl.r_241 c arg1 harg1 x0) (kernelRun0_A.sl.r_270 c arg1 harg1 x0) (kernelRun0_A.sl.r_273 c arg1 harg1 x0) (ix1 n) = Cn x0 x1 n 20 0 0 := by
  refine Eq.trans ?_ (Cn_step x0 x1 n 20 18 (by decide) rfl (by decide) 0 0).symm
  unfold k0_pay518
  simp only [addf_apply, mulf_apply, r_239_apply c arg1 harg1 arg2 harg2 x0 x1, r_270_apply c arg1 harg1 arg2 harg2 x0 x1, r_240_apply c arg1 harg1 arg2 harg2 x0 x1, r_273_apply c arg1 harg1 arg2 harg2 x0 x1, r_241_apply c arg1 harg1 arg2 harg2 x0 x1, k0_pay515_apply c arg1 harg1 arg2 harg2 x0 x1]

theorem r_275_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_275 c arg1 harg1 x0 (ix1 n) = Cn x0 x1 n 20 0 0 := by
  delta kernelRun0_A.sl.r_275
  simp only [k0_pay518_apply c arg1 harg1 arg2 harg2 x0 x1]

theorem k0_pay519_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay519 (F := Ideal) (kernelRun0_A.sl.v2 c arg1 harg1 x0) (kernelRun0_A.sl.r_239 c arg1 harg1 x0) (kernelRun0_A.sl.r_240 c arg1 harg1 x0) (kernelRun0_A.sl.r_241 c arg1 harg1 x0) (kernelRun0_A.sl.r_271 c arg1 harg1 x0) (kernelRun0_A.sl.r_274 c arg1 harg1 x0) (ix1 n) = Cn x0 x1 n 20 0 1 := by
  refine Eq.trans ?_ (Cn_step x0 x1 n 20 18 (by decide) rfl (by decide) 0 1).symm
  unfold k0_pay519
  simp only [addf_apply, mulf_apply, r_239_apply c arg1 harg1 arg2 harg2 x0 x1, r_271_apply c arg1 harg1 arg2 harg2 x0 x1, r_240_apply c arg1 harg1 arg2 harg2 x0 x1, k0_pay513_apply c arg1 harg1 arg2 harg2 x0 x1, r_241_apply c arg1 harg1 arg2 harg2 x0 x1, k0_pay516_apply c arg1 harg1 arg2 harg2 x0 x1]

theorem r_276_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_276 c arg1 harg1 x0 (ix1 n) = Cn x0 x1 n 20 0 1 := by
  delta kernelRun0_A.sl.r_276
  simp only [k0_pay519_apply c arg1 harg1 arg2 harg2 x0 x1]

theorem k0_pay520_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay520 (F := Ideal) (kernelRun0_A.sl.v2 c arg1 harg1 x0) (kernelRun0_A.sl.r_239 c arg1 harg1 x0) (kernelRun0_A.sl.r_240 c arg1 harg1 x0) (kernelRun0_A.sl.r_241 c arg1 harg1 x0) (kernelRun0_A.sl.r_272 c arg1 harg1 x0) (ix1 n) = Cn x0 x1 n 20 0 2 := by
  refine Eq.trans ?_ (Cn_step x0 x1 n 20 18 (by decide) rfl (by decide) 0 2).symm
  unfold k0_pay520
  simp only [addf_apply, mulf_apply, r_239_apply c arg1 harg1 arg2 harg2 x0 x1, r_272_apply c arg1 harg1 arg2 harg2 x0 x1, r_240_apply c arg1 harg1 arg2 harg2 x0 x1, k0_pay514_apply c arg1 harg1 arg2 harg2 x0 x1, r_241_apply c arg1 harg1 arg2 harg2 x0 x1, k0_pay517_apply c arg1 harg1 arg2 harg2 x0 x1]

theorem r_277_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_277 c arg1 harg1 x0 (ix1 n) = Cn x0 x1 n 20 0 2 := by
  delta kernelRun0_A.sl.r_277
  simp only [k0_pay520_apply c arg1 harg1 arg2 harg2 x0 x1]

theorem k0_pay334_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay334 (F := Ideal) (kernelRun0_A.sl.r_112 c arg1 harg1 x0) (kernelRun0_A.sl.r_113 c arg1 harg1 x0) (kernelRun0_A.sl.r_114 c arg1 harg1 x0) (kernelRun0_A.sl.r_121 c arg1 harg1 arg2 harg2 x0 x1) (kernelRun0_A.sl.r_158 c arg2 harg2 x1) (View.readAt (Elt Ideal) arg2.view (Rect.unit (s := S3x55) ![1, 13] S1x1.size inb_S3x55_S1x1_1_13).toLoadRect (harg2.unread x1)) (View.readAt (Elt Ideal) arg2.view (Rect.unit (s := S3x55) ![2, 13] S1x1.size inb_S3x55_S1x1_2_13).toLoadRect (harg2.unread x1)) (ix1 n) = Pn x0 x1 n 13 0 := by
  refine Eq.trans ?_ (Pn_step x0 x1 n 13 9 (by decide) rfl 0).symm
  unfold k0_pay334
  simp only [addf_apply, mulf_apply, r_112_apply c arg1 harg1 arg2 harg2 x0 x1, broadcast_apply, r_158_apply c arg1 harg1 arg2 harg2 x0 x1, r_113_apply c arg1 harg1 arg2 harg2 x0 x1, k0_pay332_apply c arg1 harg1 arg2 harg2 x0 x1, r_114_apply c arg1 harg1 arg2 harg2 x0 x1, k0_pay333_apply c arg1 harg1 arg2 harg2 x0 x1, r_121_apply c arg1 harg1 arg2 harg2 x0 x1]

theorem r_159_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_159 c arg1 harg1 arg2 harg2 x0 x1 (ix1 n) = Pn x0 x1 n 13 0 := by
  delta kernelRun0_A.sl.r_159
  simp only [k0_pay334_apply c arg1 harg1 arg2 harg2 x0 x1]

theorem k0_pay418_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay418 (F := Ideal) (kernelRun0_A.sl.r_149 c arg1 harg1 x0) (kernelRun0_A.sl.r_150 c arg1 harg1 x0) (kernelRun0_A.sl.r_151 c arg1 harg1 x0) (kernelRun0_A.sl.r_159 c arg1 harg1 arg2 harg2 x0 x1) (kernelRun0_A.sl.r_212 c arg2 harg2 x1) (View.readAt (Elt Ideal) arg2.view (Rect.unit (s := S3x55) ![1, 16] S1x1.size inb_S3x55_S1x1_1_16).toLoadRect (harg2.unread x1)) (View.readAt (Elt Ideal) arg2.view (Rect.unit (s := S3x55) ![2, 16] S1x1.size inb_S3x55_S1x1_2_16).toLoadRect (harg2.unread x1)) (ix1 n) = Pn x0 x1 n 16 0 := by
  refine Eq.trans ?_ (Pn_step x0 x1 n 16 13 (by decide) rfl 0).symm
  unfold k0_pay418
  simp only [addf_apply, mulf_apply, r_149_apply c arg1 harg1 arg2 harg2 x0 x1, broadcast_apply, r_212_apply c arg1 harg1 arg2 harg2 x0 x1, r_150_apply c arg1 harg1 arg2 harg2 x0 x1, k0_pay416_apply c arg1 harg1 arg2 harg2 x0 x1, r_151_apply c arg1 harg1 arg2 harg2 x0 x1, k0_pay417_apply c arg1 harg1 arg2 harg2 x0 x1, r_159_apply c arg1 harg1 arg2 harg2 x0 x1]

theorem r_213_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_213 c arg1 harg1 arg2 harg2 x0 x1 (ix1 n) = Pn x0 x1 n 16 0 := by
  delta kernelRun0_A.sl.r_213
  simp only [k0_pay418_apply c arg1 harg1 arg2 harg2 x0 x1]

theorem k0_pay474_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay474 (F := Ideal) (kernelRun0_A.sl.r_203 c arg1 harg1 x0) (kernelRun0_A.sl.r_204 c arg1 harg1 x0) (kernelRun0_A.sl.r_205 c arg1 harg1 x0) (kernelRun0_A.sl.r_213 c arg1 harg1 arg2 harg2 x0 x1) (kernelRun0_A.sl.r_248 c arg2 harg2 x1) (View.readAt (Elt Ideal) arg2.view (Rect.unit (s := S3x55) ![1, 18] S1x1.size inb_S3x55_S1x1_1_18).toLoadRect (harg2.unread x1)) (View.readAt (Elt Ideal) arg2.view (Rect.unit (s := S3x55) ![2, 18] S1x1.size inb_S3x55_S1x1_2_18).toLoadRect (harg2.unread x1)) (ix1 n) = Pn x0 x1 n 18 0 := by
  refine Eq.trans ?_ (Pn_step x0 x1 n 18 16 (by decide) rfl 0).symm
  unfold k0_pay474
  simp only [addf_apply, mulf_apply, r_203_apply c arg1 harg1 arg2 harg2 x0 x1, broadcast_apply, r_248_apply c arg1 harg1 arg2 harg2 x0 x1, r_204_apply c arg1 harg1 arg2 harg2 x0 x1, k0_pay472_apply c arg1 harg1 arg2 harg2 x0 x1, r_205_apply c arg1 harg1 arg2 harg2 x0 x1, k0_pay473_apply c arg1 harg1 arg2 harg2 x0 x1, r_213_apply c arg1 harg1 arg2 harg2 x0 x1]

theorem r_249_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_249 c arg1 harg1 arg2 harg2 x0 x1 (ix1 n) = Pn x0 x1 n 18 0 := by
  delta kernelRun0_A.sl.r_249
  simp only [k0_pay474_apply c arg1 harg1 arg2 harg2 x0 x1]

theorem k0_pay530_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay530 (F := Ideal) (kernelRun0_A.sl.r_239 c arg1 harg1 x0) (kernelRun0_A.sl.r_240 c arg1 harg1 x0) (kernelRun0_A.sl.r_241 c arg1 harg1 x0) (kernelRun0_A.sl.r_249 c arg1 harg1 arg2 harg2 x0 x1) (kernelRun0_A.sl.r_284 c arg2 harg2 x1) (View.readAt (Elt Ideal) arg2.view (Rect.unit (s := S3x55) ![1, 20] S1x1.size inb_S3x55_S1x1_1_20).toLoadRect (harg2.unread x1)) (View.readAt (Elt Ideal) arg2.view (Rect.unit (s := S3x55) ![2, 20] S1x1.size inb_S3x55_S1x1_2_20).toLoadRect (harg2.unread x1)) (ix1 n) = Pn x0 x1 n 20 0 := by
  refine Eq.trans ?_ (Pn_step x0 x1 n 20 18 (by decide) rfl 0).symm
  unfold k0_pay530
  simp only [addf_apply, mulf_apply, r_239_apply c arg1 harg1 arg2 harg2 x0 x1, broadcast_apply, r_284_apply c arg1 harg1 arg2 harg2 x0 x1, r_240_apply c arg1 harg1 arg2 harg2 x0 x1, k0_pay528_apply c arg1 harg1 arg2 harg2 x0 x1, r_241_apply c arg1 harg1 arg2 harg2 x0 x1, k0_pay529_apply c arg1 harg1 arg2 harg2 x0 x1, r_249_apply c arg1 harg1 arg2 harg2 x0 x1]

theorem r_285_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_285 c arg1 harg1 arg2 harg2 x0 x1 (ix1 n) = Pn x0 x1 n 20 0 := by
  delta kernelRun0_A.sl.r_285
  simp only [k0_pay530_apply c arg1 harg1 arg2 harg2 x0 x1]

theorem k0_pay700_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay700 (F := Ideal) (kernelRun0_A.sl.r_275 c arg1 harg1 x0) (kernelRun0_A.sl.r_276 c arg1 harg1 x0) (kernelRun0_A.sl.r_277 c arg1 harg1 x0) (kernelRun0_A.sl.r_285 c arg1 harg1 arg2 harg2 x0 x1) (View.readAt (Elt Ideal) arg2.view (Rect.unit (s := S3x55) ![0, 37] S1x1.size inb_S3x55_S1x1_0_37).toLoadRect (harg2.unread x1)) (View.readAt (Elt Ideal) arg2.view (Rect.unit (s := S3x55) ![1, 37] S1x1.size inb_S3x55_S1x1_1_37).toLoadRect (harg2.unread x1)) (View.readAt (Elt Ideal) arg2.view (Rect.unit (s := S3x55) ![2, 37] S1x1.size inb_S3x55_S1x1_2_37).toLoadRect (harg2.unread x1)) (ix1 n) = Pn x0 x1 n 37 0 := by
  refine Eq.trans ?_ (Pn_step x0 x1 n 37 20 (by decide) rfl 0).symm
  unfold k0_pay700
  simp only [addf_apply, mulf_apply, r_275_apply c arg1 harg1 arg2 harg2 x0 x1, broadcast_apply, k0_pay697_apply c arg1 harg1 arg2 harg2 x0 x1, r_276_apply c arg1 harg1 arg2 harg2 x0 x1, k0_pay698_apply c arg1 harg1 arg2 harg2 x0 x1, r_277_apply c arg1 harg1 arg2 harg2 x0 x1, k0_pay699_apply c arg1 harg1 arg2 harg2 x0 x1, r_285_apply c arg1 harg1 arg2 harg2 x0 x1]

theorem r_370_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_370 c arg1 harg1 arg2 harg2 x0 x1 (ix1 n) = Pn x0 x1 n 37 0 := by
  delta kernelRun0_A.sl.r_370
  simp only [k0_pay700_apply c arg1 harg1 arg2 harg2 x0 x1]

theorem k0_pay709_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay709 (F := Ideal) (kernelRun0_A.sl.r_275 c arg1 harg1 x0) (kernelRun0_A.sl.r_276 c arg1 harg1 x0) (kernelRun0_A.sl.r_277 c arg1 harg1 x0) (kernelRun0_A.sl.r_370 c arg1 harg1 arg2 harg2 x0 x1) (View.readAt (Elt Ideal) arg2.view (Rect.unit (s := S3x55) ![0, 38] S1x1.size inb_S3x55_S1x1_0_38).toLoadRect (harg2.unread x1)) (View.readAt (Elt Ideal) arg2.view (Rect.unit (s := S3x55) ![1, 38] S1x1.size inb_S3x55_S1x1_1_38).toLoadRect (harg2.unread x1)) (View.readAt (Elt Ideal) arg2.view (Rect.unit (s := S3x55) ![2, 38] S1x1.size inb_S3x55_S1x1_2_38).toLoadRect (harg2.unread x1)) (ix1 n) = Pn x0 x1 n 38 0 := by
  refine Eq.trans ?_ (Pn_step x0 x1 n 38 37 (by decide) rfl 0).symm
  unfold k0_pay709
  simp only [addf_apply, mulf_apply, r_275_apply c arg1 harg1 arg2 harg2 x0 x1, broadcast_apply, k0_pay706_apply c arg1 harg1 arg2 harg2 x0 x1, r_276_apply c arg1 harg1 arg2 harg2 x0 x1, k0_pay707_apply c arg1 harg1 arg2 harg2 x0 x1, r_277_apply c arg1 harg1 arg2 harg2 x0 x1, k0_pay708_apply c arg1 harg1 arg2 harg2 x0 x1, r_370_apply c arg1 harg1 arg2 harg2 x0 x1, Cn_anc_37 x0 x1 n]

theorem r_373_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_373 c arg1 harg1 arg2 harg2 x0 x1 (ix1 n) = Pn x0 x1 n 38 0 := by
  delta kernelRun0_A.sl.r_373
  simp only [k0_pay709_apply c arg1 harg1 arg2 harg2 x0 x1]

theorem k0_pay718_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay718 (F := Ideal) (kernelRun0_A.sl.r_275 c arg1 harg1 x0) (kernelRun0_A.sl.r_276 c arg1 harg1 x0) (kernelRun0_A.sl.r_277 c arg1 harg1 x0) (kernelRun0_A.sl.r_373 c arg1 harg1 arg2 harg2 x0 x1) (View.readAt (Elt Ideal) arg2.view (Rect.unit (s := S3x55) ![0, 39] S1x1.size inb_S3x55_S1x1_0_39).toLoadRect (harg2.unread x1)) (View.readAt (Elt Ideal) arg2.view (Rect.unit (s := S3x55) ![1, 39] S1x1.size inb_S3x55_S1x1_1_39).toLoadRect (harg2.unread x1)) (View.readAt (Elt Ideal) arg2.view (Rect.unit (s := S3x55) ![2, 39] S1x1.size inb_S3x55_S1x1_2_39).toLoadRect (harg2.unread x1)) (ix2 u n) = Pn x0 x1 n 39 0 := by
  refine Eq.trans ?_ (Pn_step x0 x1 n 39 38 (by decide) rfl 0).symm
  unfold k0_pay718
  simp only [shapeCast_a_1a_apply, addf_apply, mulf_apply, r_275_apply c arg1 harg1 arg2 harg2 x0 x1, broadcast_apply, k0_pay715_apply c arg1 harg1 arg2 harg2 x0 x1, r_276_apply c arg1 harg1 arg2 harg2 x0 x1, k0_pay716_apply c arg1 harg1 arg2 harg2 x0 x1, r_277_apply c arg1 harg1 arg2 harg2 x0 x1, k0_pay717_apply c arg1 harg1 arg2 harg2 x0 x1, r_373_apply c arg1 harg1 arg2 harg2 x0 x1, Cn_anc_38 x0 x1 n]

theorem k0_pay714_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay714 (F := Ideal) (kernelRun0_A.sl.r_281 c arg1 harg1 x0) (kernelRun0_A.sl.r_282 c arg1 harg1 x0) (kernelRun0_A.sl.r_283 c arg1 harg1 x0) (kernelRun0_A.sl.r_372 c arg1 harg1 arg2 harg2 x0 x1) (View.readAt (Elt Ideal) arg2.view (Rect.unit (s := S3x55) ![0, 38] S1x1.size inb_S3x55_S1x1_0_38).toLoadRect (harg2.unread x1)) (View.readAt (Elt Ideal) arg2.view (Rect.unit (s := S3x55) ![1, 38] S1x1.size inb_S3x55_S1x1_1_38).toLoadRect (harg2.unread x1)) (View.readAt (Elt Ideal) arg2.view (Rect.unit (s := S3x55) ![2, 38] S1x1.size inb_S3x55_S1x1_2_38).toLoadRect (harg2.unread x1)) (ix2 u n) = Pn x0 x1 n 38 2 := by
  unfold k0_pay714
  simp only [shapeCast_a_1a_apply, k0_pay711_apply c arg1 harg1 arg2 harg2 x0 x1]

theorem k0_pay713_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay713 (F := Ideal) (kernelRun0_A.sl.r_278 c arg1 harg1 x0) (kernelRun0_A.sl.r_279 c arg1 harg1 x0) (kernelRun0_A.sl.r_280 c arg1 harg1 x0) (kernelRun0_A.sl.r_371 c arg1 harg1 arg2 harg2 x0 x1) (View.readAt (Elt Ideal) arg2.view (Rect.unit (s := S3x55) ![0, 38] S1x1.size inb_S3x55_S1x1_0_38).toLoadRect (harg2.unread x1)) (View.readAt (Elt Ideal) arg2.view (Rect.unit (s := S3x55) ![1, 38] S1x1.size inb_S3x55_S1x1_1_38).toLoadRect (harg2.unread x1)) (View.readAt (Elt Ideal) arg2.view (Rect.unit (s := S3x55) ![2, 38] S1x1.size inb_S3x55_S1x1_2_38).toLoadRect (harg2.unread x1)) (ix2 u n) = Pn x0 x1 n 38 1 := by
  unfold k0_pay713
  simp only [shapeCast_a_1a_apply, k0_pay710_apply c arg1 harg1 arg2 harg2 x0 x1]

theorem k0_pay712_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay712 (F := Ideal) (kernelRun0_A.sl.r_275 c arg1 harg1 x0) (kernelRun0_A.sl.r_276 c arg1 harg1 x0) (kernelRun0_A.sl.r_277 c arg1 harg1 x0) (kernelRun0_A.sl.r_370 c arg1 harg1 arg2 harg2 x0 x1) (View.readAt (Elt Ideal) arg2.view (Rect.unit (s := S3x55) ![0, 38] S1x1.size inb_S3x55_S1x1_0_38).toLoadRect (harg2.unread x1)) (View.readAt (Elt Ideal) arg2.view (Rect.unit (s := S3x55) ![1, 38] S1x1.size inb_S3x55_S1x1_1_38).toLoadRect (harg2.unread x1)) (View.readAt (Elt Ideal) arg2.view (Rect.unit (s := S3x55) ![2, 38] S1x1.size inb_S3x55_S1x1_2_38).toLoadRect (harg2.unread x1)) (ix2 u n) = Pn x0 x1 n 38 0 := by
  unfold k0_pay712
  simp only [shapeCast_a_1a_apply, k0_pay709_apply c arg1 harg1 arg2 harg2 x0 x1]

theorem k0_pay705_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay705 (F := Ideal) (kernelRun0_A.sl.r_372 c arg1 harg1 arg2 harg2 x0 x1) (ix2 u n) = Pn x0 x1 n 37 2 := by
  unfold k0_pay705
  simp only [shapeCast_a_1a_apply, r_372_apply c arg1 harg1 arg2 harg2 x0 x1]

theorem k0_pay704_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay704 (F := Ideal) (kernelRun0_A.sl.r_278 c arg1 harg1 x0) (kernelRun0_A.sl.r_279 c arg1 harg1 x0) (kernelRun0_A.sl.r_280 c arg1 harg1 x0) (kernelRun0_A.sl.r_286 c arg1 harg1 arg2 harg2 x0 x1) (View.readAt (Elt Ideal) arg2.view (Rect.unit (s := S3x55) ![0, 37] S1x1.size inb_S3x55_S1x1_0_37).toLoadRect (harg2.unread x1)) (View.readAt (Elt Ideal) arg2.view (Rect.unit (s := S3x55) ![1, 37] S1x1.size inb_S3x55_S1x1_1_37).toLoadRect (harg2.unread x1)) (View.readAt (Elt Ideal) arg2.view (Rect.unit (s := S3x55) ![2, 37] S1x1.size inb_S3x55_S1x1_2_37).toLoadRect (harg2.unread x1)) (ix2 u n) = Pn x0 x1 n 37 1 := by
  unfold k0_pay704
  simp only [shapeCast_a_1a_apply, k0_pay701_apply c arg1 harg1 arg2 harg2 x0 x1]

theorem k0_pay703_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay703 (F := Ideal) (kernelRun0_A.sl.r_275 c arg1 harg1 x0) (kernelRun0_A.sl.r_276 c arg1 harg1 x0) (kernelRun0_A.sl.r_277 c arg1 harg1 x0) (kernelRun0_A.sl.r_285 c arg1 harg1 arg2 harg2 x0 x1) (View.readAt (Elt Ideal) arg2.view (Rect.unit (s := S3x55) ![0, 37] S1x1.size inb_S3x55_S1x1_0_37).toLoadRect (harg2.unread x1)) (View.readAt (Elt Ideal) arg2.view (Rect.unit (s := S3x55) ![1, 37] S1x1.size inb_S3x55_S1x1_1_37).toLoadRect (harg2.unread x1)) (View.readAt (Elt Ideal) arg2.view (Rect.unit (s := S3x55) ![2, 37] S1x1.size inb_S3x55_S1x1_2_37).toLoadRect (harg2.unread x1)) (ix2 u n) = Pn x0 x1 n 37 0 := by
  unfold k0_pay703
  simp only [shapeCast_a_1a_apply, k0_pay700_apply c arg1 harg1 arg2 harg2 x0 x1]

theorem k0_pay672_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay672 (F := Ideal) (View.readAt (Elt Ideal) arg2.view (Rect.unit (s := S3x55) ![0, 34] S1x1.size inb_S3x55_S1x1_0_34).toLoadRect (harg2.unread x1)) = Of x1 34 0 := by
  unfold k0_pay672
  simp only [rel_read x1 arg2 harg2 0 34 (0 : Fin 3) rfl (by decide)]

theorem k0_pay673_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay673 (F := Ideal) (View.readAt (Elt Ideal) arg2.view (Rect.unit (s := S3x55) ![1, 34] S1x1.size inb_S3x55_S1x1_1_34).toLoadRect (harg2.unread x1)) = Of x1 34 1 := by
  unfold k0_pay673
  simp only [rel_read x1 arg2 harg2 1 34 (1 : Fin 3) rfl (by decide)]

theorem k0_pay674_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay674 (F := Ideal) (View.readAt (Elt Ideal) arg2.view (Rect.unit (s := S3x55) ![2, 34] S1x1.size inb_S3x55_S1x1_2_34).toLoadRect (harg2.unread x1)) = Of x1 34 2 := by
  unfold k0_pay674
  simp only [rel_read x1 arg2 harg2 2 34 (2 : Fin 3) rfl (by decide)]

theorem k0_pay677_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay677 (F := Ideal) (kernelRun0_A.sl.r_281 c arg1 harg1 x0) (kernelRun0_A.sl.r_282 c arg1 harg1 x0) (kernelRun0_A.sl.r_283 c arg1 harg1 x0) (kernelRun0_A.sl.r_287 c arg1 harg1 arg2 harg2 x0 x1) (View.readAt (Elt Ideal) arg2.view (Rect.unit (s := S3x55) ![0, 34] S1x1.size inb_S3x55_S1x1_0_34).toLoadRect (harg2.unread x1)) (View.readAt (Elt Ideal) arg2.view (Rect.unit (s := S3x55) ![1, 34] S1x1.size inb_S3x55_S1x1_1_34).toLoadRect (harg2.unread x1)) (View.readAt (Elt Ideal) arg2.view (Rect.unit (s := S3x55) ![2, 34] S1x1.size inb_S3x55_S1x1_2_34).toLoadRect (harg2.unread x1)) (ix1 n) = Pn x0 x1 n 34 2 := by
  refine Eq.trans ?_ (Pn_step x0 x1 n 34 20 (by decide) rfl 2).symm
  unfold k0_pay677
  simp only [addf_apply, mulf_apply, r_281_apply c arg1 harg1 arg2 harg2 x0 x1, broadcast_apply, k0_pay672_apply c arg1 harg1 arg2 harg2 x0 x1, r_282_apply c arg1 harg1 arg2 harg2 x0 x1, k0_pay673_apply c arg1 harg1 arg2 harg2 x0 x1, r_283_apply c arg1 harg1 arg2 harg2 x0 x1, k0_pay674_apply c arg1 harg1 arg2 harg2 x0 x1, r_287_apply c arg1 harg1 arg2 harg2 x0 x1]

theorem r_365_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_365 c arg1 harg1 arg2 harg2 x0 x1 (ix1 n) = Pn x0 x1 n 34 2 := by
  delta kernelRun0_A.sl.r_365
  simp only [k0_pay677_apply c arg1 harg1 arg2 harg2 x0 x1]

theorem k0_pay681_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay681 (F := Ideal) (View.readAt (Elt Ideal) arg2.view (Rect.unit (s := S3x55) ![0, 35] S1x1.size inb_S3x55_S1x1_0_35).toLoadRect (harg2.unread x1)) = Of x1 35 0 := by
  unfold k0_pay681
  simp only [rel_read x1 arg2 harg2 0 35 (0 : Fin 3) rfl (by decide)]

theorem k0_pay682_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay682 (F := Ideal) (View.readAt (Elt Ideal) arg2.view (Rect.unit (s := S3x55) ![1, 35] S1x1.size inb_S3x55_S1x1_1_35).toLoadRect (harg2.unread x1)) = Of x1 35 1 := by
  unfold k0_pay682
  simp only [rel_read x1 arg2 harg2 1 35 (1 : Fin 3) rfl (by decide)]

theorem k0_pay683_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay683 (F := Ideal) (View.readAt (Elt Ideal) arg2.view (Rect.unit (s := S3x55) ![2, 35] S1x1.size inb_S3x55_S1x1_2_35).toLoadRect (harg2.unread x1)) = Of x1 35 2 := by
  unfold k0_pay683
  simp only [rel_read x1 arg2 harg2 2 35 (2 : Fin 3) rfl (by decide)]

theorem k0_pay686_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay686 (F := Ideal) (kernelRun0_A.sl.r_281 c arg1 harg1 x0) (kernelRun0_A.sl.r_282 c arg1 harg1 x0) (kernelRun0_A.sl.r_283 c arg1 harg1 x0) (kernelRun0_A.sl.r_365 c arg1 harg1 arg2 harg2 x0 x1) (View.readAt (Elt Ideal) arg2.view (Rect.unit (s := S3x55) ![0, 35] S1x1.size inb_S3x55_S1x1_0_35).toLoadRect (harg2.unread x1)) (View.readAt (Elt Ideal) arg2.view (Rect.unit (s := S3x55) ![1, 35] S1x1.size inb_S3x55_S1x1_1_35).toLoadRect (harg2.unread x1)) (View.readAt (Elt Ideal) arg2.view (Rect.unit (s := S3x55) ![2, 35] S1x1.size inb_S3x55_S1x1_2_35).toLoadRect (harg2.unread x1)) (ix1 n) = Pn x0 x1 n 35 2 := by
  refine Eq.trans ?_ (Pn_step x0 x1 n 35 34 (by decide) rfl 2).symm
  unfold k0_pay686
  simp only [addf_apply, mulf_apply, r_281_apply c arg1 harg1 arg2 harg2 x0 x1, broadcast_apply, k0_pay681_apply c arg1 harg1 arg2 harg2 x0 x1, r_282_apply c arg1 harg1 arg2 harg2 x0 x1, k0_pay682_apply c arg1 harg1 arg2 harg2 x0 x1, r_283_apply c arg1 harg1 arg2 harg2 x0 x1, k0_pay683_apply c arg1 harg1 arg2 harg2 x0 x1, r_365_apply c arg1 harg1 arg2 harg2 x0 x1, Cn_anc_34 x0 x1 n]

theorem r_368_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_368 c arg1 harg1 arg2 harg2 x0 x1 (ix1 n) = Pn x0 x1 n 35 2 := by
  delta kernelRun0_A.sl.r_368
  simp only [k0_pay686_apply c arg1 harg1 arg2 harg2 x0 x1]

theorem k0_pay690_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay690 (F := Ideal) (View.readAt (Elt Ideal) arg2.view (Rect.unit (s := S3x55) ![0, 36] S1x1.size inb_S3x55_S1x1_0_36).toLoadRect (harg2.unread x1)) = Of x1 36 0 := by
  unfold k0_pay690
  simp only [rel_read x1 arg2 harg2 0 36 (0 : Fin 3) rfl (by decide)]

theorem k0_pay691_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay691 (F := Ideal) (View.readAt (Elt Ideal) arg2.view (Rect.unit (s := S3x55) ![1, 36] S1x1.size inb_S3x55_S1x1_1_36).toLoadRect (harg2.unread x1)) = Of x1 36 1 := by
  unfold k0_pay691
  simp only [rel_read x1 arg2 harg2 1 36 (1 : Fin 3) rfl (by decide)]

theorem k0_pay692_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay692 (F := Ideal) (View.readAt (Elt Ideal) arg2.view (Rect.unit (s := S3x55) ![2, 36] S1x1.size inb_S3x55_S1x1_2_36).toLoadRect (harg2.unread x1)) = Of x1 36 2 := by
  unfold k0_pay692
  simp only [rel_read x1 arg2 harg2 2 36 (2 : Fin 3) rfl (by decide)]

theorem k0_pay693_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay693 (F := Ideal) (kernelRun0_A.sl.r_281 c arg1 harg1 x0) (kernelRun0_A.sl.r_282 c arg1 harg1 x0) (kernelRun0_A.sl.r_283 c arg1 harg1 x0) (kernelRun0_A.sl.r_368 c arg1 harg1 arg2 harg2 x0 x1) (View.readAt (Elt Ideal) arg2.view (Rect.unit (s := S3x55) ![0, 36] S1x1.size inb_S3x55_S1x1_0_36).toLoadRect (harg2.unread x1)) (View.readAt (Elt Ideal) arg2.view (Rect.unit (s := S3x55) ![1, 36] S1x1.size inb_S3x55_S1x1_1_36).toLoadRect (harg2.unread x1)) (View.readAt (Elt Ideal) arg2.view (Rect.unit (s := S3x55) ![2, 36] S1x1.size inb_S3x55_S1x1_2_36).toLoadRect (harg2.unread x1)) (ix1 n) = Pn x0 x1 n 36 2 := by
  refine Eq.trans ?_ (Pn_step x0 x1 n 36 35 (by decide) rfl 2).symm
  unfold k0_pay693
  simp only [addf_apply, mulf_apply, r_281_apply c arg1 harg1 arg2 harg2 x0 x1, broadcast_apply, k0_pay690_apply c arg1 harg1 arg2 harg2 x0 x1, r_282_apply c arg1 harg1 arg2 harg2 x0 x1, k0_pay691_apply c arg1 harg1 arg2 harg2 x0 x1, r_283_apply c arg1 harg1 arg2 harg2 x0 x1, k0_pay692_apply c arg1 harg1 arg2 harg2 x0 x1, r_368_apply c arg1 harg1 arg2 harg2 x0 x1, Cn_anc_35 x0 x1 n]

theorem r_369_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_369 c arg1 harg1 arg2 harg2 x0 x1 (ix1 n) = Pn x0 x1 n 36 2 := by
  delta kernelRun0_A.sl.r_369
  simp only [k0_pay693_apply c arg1 harg1 arg2 harg2 x0 x1]

theorem k0_pay696_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay696 (F := Ideal) (kernelRun0_A.sl.r_369 c arg1 harg1 arg2 harg2 x0 x1) (ix2 u n) = Pn x0 x1 n 36 2 := by
  unfold k0_pay696
  simp only [shapeCast_a_1a_apply, r_369_apply c arg1 harg1 arg2 harg2 x0 x1]

theorem k0_pay676_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay676 (F := Ideal) (kernelRun0_A.sl.r_278 c arg1 harg1 x0) (kernelRun0_A.sl.r_279 c arg1 harg1 x0) (kernelRun0_A.sl.r_280 c arg1 harg1 x0) (kernelRun0_A.sl.r_286 c arg1 harg1 arg2 harg2 x0 x1) (View.readAt (Elt Ideal) arg2.view (Rect.unit (s := S3x55) ![0, 34] S1x1.size inb_S3x55_S1x1_0_34).toLoadRect (harg2.unread x1)) (View.readAt (Elt Ideal) arg2.view (Rect.unit (s := S3x55) ![1, 34] S1x1.size inb_S3x55_S1x1_1_34).toLoadRect (harg2.unread x1)) (View.readAt (Elt Ideal) arg2.view (Rect.unit (s := S3x55) ![2, 34] S1x1.size inb_S3x55_S1x1_2_34).toLoadRect (harg2.unread x1)) (ix1 n) = Pn x0 x1 n 34 1 := by
  refine Eq.trans ?_ (Pn_step x0 x1 n 34 20 (by decide) rfl 1).symm
  unfold k0_pay676
  simp only [addf_apply, mulf_apply, r_278_apply c arg1 harg1 arg2 harg2 x0 x1, broadcast_apply, k0_pay672_apply c arg1 harg1 arg2 harg2 x0 x1, r_279_apply c arg1 harg1 arg2 harg2 x0 x1, k0_pay673_apply c arg1 harg1 arg2 harg2 x0 x1, r_280_apply c arg1 harg1 arg2 harg2 x0 x1, k0_pay674_apply c arg1 harg1 arg2 harg2 x0 x1, r_286_apply c arg1 harg1 arg2 harg2 x0 x1]

theorem r_364_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_364 c arg1 harg1 arg2 harg2 x0 x1 (ix1 n) = Pn x0 x1 n 34 1 := by
  delta kernelRun0_A.sl.r_364
  simp only [k0_pay676_apply c arg1 harg1 arg2 harg2 x0 x1]

theorem k0_pay685_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay685 (F := Ideal) (kernelRun0_A.sl.r_278 c arg1 harg1 x0) (kernelRun0_A.sl.r_279 c arg1 harg1 x0) (kernelRun0_A.sl.r_280 c arg1 harg1 x0) (kernelRun0_A.sl.r_364 c arg1 harg1 arg2 harg2 x0 x1) (View.readAt (Elt Ideal) arg2.view (Rect.unit (s := S3x55) ![0, 35] S1x1.size inb_S3x55_S1x1_0_35).toLoadRect (harg2.unread x1)) (View.readAt (Elt Ideal) arg2.view (Rect.unit (s := S3x55) ![1, 35] S1x1.size inb_S3x55_S1x1_1_35).toLoadRect (harg2.unread x1)) (View.readAt (Elt Ideal) arg2.view (Rect.unit (s := S3x55) ![2, 35] S1x1.size inb_S3x55_S1x1_2_35).toLoadRect (harg2.unread x1)) (ix1 n) = Pn x0 x1 n 35 1 := by
  refine Eq.trans ?_ (Pn_step x0 x1 n 35 34 (by decide) rfl 1).symm
  unfold k0_pay685
  simp only [addf_apply, mulf_apply, r_278_apply c arg1 harg1 arg2 harg2 x0 x1, broadcast_apply, k0_pay681_apply c arg1 harg1 arg2 harg2 x0 x1, r_279_apply c arg1 harg1 arg2 harg2 x0 x1, k0_pay682_apply c arg1 harg1 arg2 harg2 x0 x1, r_280_apply c arg1 harg1 arg2 harg2 x0 x1, k0_pay683_apply c arg1 harg1 arg2 harg2 x0 x1, r_364_apply c arg1 harg1 arg2 harg2 x0 x1, Cn_anc_34 x0 x1 n]

theorem r_367_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_367 c arg1 harg1 arg2 harg2 x0 x1 (ix1 n) = Pn x0 x1 n 35 1 := by
  delta kernelRun0_A.sl.r_367
  simp only [k0_pay685_apply c arg1 harg1 arg2 harg2 x0 x1]

theorem k0_pay695_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay695 (F := Ideal) (kernelRun0_A.sl.r_278 c arg1 harg1 x0) (kernelRun0_A.sl.r_279 c arg1 harg1 x0) (kernelRun0_A.sl.r_280 c arg1 harg1 x0) (kernelRun0_A.sl.r_367 c arg1 harg1 arg2 harg2 x0 x1) (View.readAt (Elt Ideal) arg2.view (Rect.unit (s := S3x55) ![0, 36] S1x1.size inb_S3x55_S1x1_0_36).toLoadRect (harg2.unread x1)) (View.readAt (Elt Ideal) arg2.view (Rect.unit (s := S3x55) ![1, 36] S1x1.size inb_S3x55_S1x1_1_36).toLoadRect (harg2.unread x1)) (View.readAt (Elt Ideal) arg2.view (Rect.unit (s := S3x55) ![2, 36] S1x1.size inb_S3x55_S1x1_2_36).toLoadRect (harg2.unread x1)) (ix2 u n) = Pn x0 x1 n 36 1 := by
  refine Eq.trans ?_ (Pn_step x0 x1 n 36 35 (by decide) rfl 1).symm
  unfold k0_pay695
  simp only [shapeCast_a_1a_apply, addf_apply, mulf_apply, r_278_apply c arg1 harg1 arg2 harg2 x0 x1, broadcast_apply, k0_pay690_apply c arg1 harg1 arg2 harg2 x0 x1, r_279_apply c arg1 harg1 arg2 harg2 x0 x1, k0_pay691_apply c arg1 harg1 arg2 harg2 x0 x1, r_280_apply c arg1 harg1 arg2 harg2 x0 x1, k0_pay692_apply c arg1 harg1 arg2 harg2 x0 x1, r_367_apply c arg1 harg1 arg2 harg2 x0 x1, Cn_anc_35 x0 x1 n]

theorem k0_pay675_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay675 (F := Ideal) (kernelRun0_A.sl.r_275 c arg1 harg1 x0) (kernelRun0_A.sl.r_276 c arg1 harg1 x0) (kernelRun0_A.sl.r_277 c arg1 harg1 x0) (kernelRun0_A.sl.r_285 c arg1 harg1 arg2 harg2 x0 x1) (View.readAt (Elt Ideal) arg2.view (Rect.unit (s := S3x55) ![0, 34] S1x1.size inb_S3x55_S1x1_0_34).toLoadRect (harg2.unread x1)) (View.readAt (Elt Ideal) arg2.view (Rect.unit (s := S3x55) ![1, 34] S1x1.size inb_S3x55_S1x1_1_34).toLoadRect (harg2.unread x1)) (View.readAt (Elt Ideal) arg2.view (Rect.unit (s := S3x55) ![2, 34] S1x1.size inb_S3x55_S1x1_2_34).toLoadRect (harg2.unread x1)) (ix1 n) = Pn x0 x1 n 34 0 := by
  refine Eq.trans ?_ (Pn_step x0 x1 n 34 20 (by decide) rfl 0).symm
  unfold k0_pay675
  simp only [addf_apply, mulf_apply, r_275_apply c arg1 harg1 arg2 harg2 x0 x1, broadcast_apply, k0_pay672_apply c arg1 harg1 arg2 harg2 x0 x1, r_276_apply c arg1 harg1 arg2 harg2 x0 x1, k0_pay673_apply c arg1 harg1 arg2 harg2 x0 x1, r_277_apply c arg1 harg1 arg2 harg2 x0 x1, k0_pay674_apply c arg1 harg1 arg2 harg2 x0 x1, r_285_apply c arg1 harg1 arg2 harg2 x0 x1]

theorem r_363_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_363 c arg1 harg1 arg2 harg2 x0 x1 (ix1 n) = Pn x0 x1 n 34 0 := by
  delta kernelRun0_A.sl.r_363
  simp only [k0_pay675_apply c arg1 harg1 arg2 harg2 x0 x1]

theorem k0_pay684_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay684 (F := Ideal) (kernelRun0_A.sl.r_275 c arg1 harg1 x0) (kernelRun0_A.sl.r_276 c arg1 harg1 x0) (kernelRun0_A.sl.r_277 c arg1 harg1 x0) (kernelRun0_A.sl.r_363 c arg1 harg1 arg2 harg2 x0 x1) (View.readAt (Elt Ideal) arg2.view (Rect.unit (s := S3x55) ![0, 35] S1x1.size inb_S3x55_S1x1_0_35).toLoadRect (harg2.unread x1)) (View.readAt (Elt Ideal) arg2.view (Rect.unit (s := S3x55) ![1, 35] S1x1.size inb_S3x55_S1x1_1_35).toLoadRect (harg2.unread x1)) (View.readAt (Elt Ideal) arg2.view (Rect.unit (s := S3x55) ![2, 35] S1x1.size inb_S3x55_S1x1_2_35).toLoadRect (harg2.unread x1)) (ix1 n) = Pn x0 x1 n 35 0 := by
  refine Eq.trans ?_ (Pn_step x0 x1 n 35 34 (by decide) rfl 0).symm
  unfold k0_pay684
  simp only [addf_apply, mulf_apply, r_275_apply c arg1 harg1 arg2 harg2 x0 x1, broadcast_apply, k0_pay681_apply c arg1 harg1 arg2 harg2 x0 x1, r_276_apply c arg1 harg1 arg2 harg2 x0 x1, k0_pay682_apply c arg1 harg1 arg2 harg2 x0 x1, r_277_apply c arg1 harg1 arg2 harg2 x0 x1, k0_pay683_apply c arg1 harg1 arg2 harg2 x0 x1, r_363_apply c arg1 harg1 arg2 harg2 x0 x1, Cn_anc_34 x0 x1 n]

theorem r_366_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_366 c arg1 harg1 arg2 harg2 x0 x1 (ix1 n) = Pn x0 x1 n 35 0 := by
  delta kernelRun0_A.sl.r_366
  simp only [k0_pay684_apply c arg1 harg1 arg2 harg2 x0 x1]

theorem k0_pay694_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay694 (F := Ideal) (kernelRun0_A.sl.r_275 c arg1 harg1 x0) (kernelRun0_A.sl.r_276 c arg1 harg1 x0) (kernelRun0_A.sl.r_277 c arg1 harg1 x0) (kernelRun0_A.sl.r_366 c arg1 harg1 arg2 harg2 x0 x1) (View.readAt (Elt Ideal) arg2.view (Rect.unit (s := S3x55) ![0, 36] S1x1.size inb_S3x55_S1x1_0_36).toLoadRect (harg2.unread x1)) (View.readAt (Elt Ideal) arg2.view (Rect.unit (s := S3x55) ![1, 36] S1x1.size inb_S3x55_S1x1_1_36).toLoadRect (harg2.unread x1)) (View.readAt (Elt Ideal) arg2.view (Rect.unit (s := S3x55) ![2, 36] S1x1.size inb_S3x55_S1x1_2_36).toLoadRect (harg2.unread x1)) (ix2 u n) = Pn x0 x1 n 36 0 := by
  refine Eq.trans ?_ (Pn_step x0 x1 n 36 35 (by decide) rfl 0).symm
  unfold k0_pay694
  simp only [shapeCast_a_1a_apply, addf_apply, mulf_apply, r_275_apply c arg1 harg1 arg2 harg2 x0 x1, broadcast_apply, k0_pay690_apply c arg1 harg1 arg2 harg2 x0 x1, r_276_apply c arg1 harg1 arg2 harg2 x0 x1, k0_pay691_apply c arg1 harg1 arg2 harg2 x0 x1, r_277_apply c arg1 harg1 arg2 harg2 x0 x1, k0_pay692_apply c arg1 harg1 arg2 harg2 x0 x1, r_366_apply c arg1 harg1 arg2 harg2 x0 x1, Cn_anc_35 x0 x1 n]

theorem k0_pay689_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay689 (F := Ideal) (kernelRun0_A.sl.r_368 c arg1 harg1 arg2 harg2 x0 x1) (ix2 u n) = Pn x0 x1 n 35 2 := by
  unfold k0_pay689
  simp only [shapeCast_a_1a_apply, r_368_apply c arg1 harg1 arg2 harg2 x0 x1]

theorem k0_pay688_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay688 (F := Ideal) (kernelRun0_A.sl.r_367 c arg1 harg1 arg2 harg2 x0 x1) (ix2 u n) = Pn x0 x1 n 35 1 := by
  unfold k0_pay688
  simp only [shapeCast_a_1a_apply, r_367_apply c arg1 harg1 arg2 harg2 x0 x1]

theorem k0_pay687_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay687 (F := Ideal) (kernelRun0_A.sl.r_275 c arg1 harg1 x0) (kernelRun0_A.sl.r_276 c arg1 harg1 x0) (kernelRun0_A.sl.r_277 c arg1 harg1 x0) (kernelRun0_A.sl.r_363 c arg1 harg1 arg2 harg2 x0 x1) (View.readAt (Elt Ideal) arg2.view (Rect.unit (s := S3x55) ![0, 35] S1x1.size inb_S3x55_S1x1_0_35).toLoadRect (harg2.unread x1)) (View.readAt (Elt Ideal) arg2.view (Rect.unit (s := S3x55) ![1, 35] S1x1.size inb_S3x55_S1x1_1_35).toLoadRect (harg2.unread x1)) (View.readAt (Elt Ideal) arg2.view (Rect.unit (s := S3x55) ![2, 35] S1x1.size inb_S3x55_S1x1_2_35).toLoadRect (harg2.unread x1)) (ix2 u n) = Pn x0 x1 n 35 0 := by
  unfold k0_pay687
  simp only [shapeCast_a_1a_apply, k0_pay684_apply c arg1 harg1 arg2 harg2 x0 x1]

theorem k0_pay680_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay680 (F := Ideal) (kernelRun0_A.sl.r_365 c arg1 harg1 arg2 harg2 x0 x1) (ix2 u n) = Pn x0 x1 n 34 2 := by
  unfold k0_pay680
  simp only [shapeCast_a_1a_apply, r_365_apply c arg1 harg1 arg2 harg2 x0 x1]

theorem k0_pay679_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay679 (F := Ideal) (kernelRun0_A.sl.r_364 c arg1 harg1 arg2 harg2 x0 x1) (ix2 u n) = Pn x0 x1 n 34 1 := by
  unfold k0_pay679
  simp only [shapeCast_a_1a_apply, r_364_apply c arg1 harg1 arg2 harg2 x0 x1]

theorem k0_pay678_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay678 (F := Ideal) (kernelRun0_A.sl.r_275 c arg1 harg1 x0) (kernelRun0_A.sl.r_276 c arg1 harg1 x0) (kernelRun0_A.sl.r_277 c arg1 harg1 x0) (kernelRun0_A.sl.r_285 c arg1 harg1 arg2 harg2 x0 x1) (View.readAt (Elt Ideal) arg2.view (Rect.unit (s := S3x55) ![0, 34] S1x1.size inb_S3x55_S1x1_0_34).toLoadRect (harg2.unread x1)) (View.readAt (Elt Ideal) arg2.view (Rect.unit (s := S3x55) ![1, 34] S1x1.size inb_S3x55_S1x1_1_34).toLoadRect (harg2.unread x1)) (View.readAt (Elt Ideal) arg2.view (Rect.unit (s := S3x55) ![2, 34] S1x1.size inb_S3x55_S1x1_2_34).toLoadRect (harg2.unread x1)) (ix2 u n) = Pn x0 x1 n 34 0 := by
  unfold k0_pay678
  simp only [shapeCast_a_1a_apply, k0_pay675_apply c arg1 harg1 arg2 harg2 x0 x1]

theorem k0_pay643_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay643 (F := Ideal) (View.readAt (Elt Ideal) arg2.view (Rect.unit (s := S3x55) ![0, 31] S1x1.size inb_S3x55_S1x1_0_31).toLoadRect (harg2.unread x1)) = Of x1 31 0 := by
  unfold k0_pay643
  simp only [rel_read x1 arg2 harg2 0 31 (0 : Fin 3) rfl (by decide)]

theorem k0_pay644_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay644 (F := Ideal) (View.readAt (Elt Ideal) arg2.view (Rect.unit (s := S3x55) ![1, 31] S1x1.size inb_S3x55_S1x1_1_31).toLoadRect (harg2.unread x1)) = Of x1 31 1 := by
  unfold k0_pay644
  simp only [rel_read x1 arg2 harg2 1 31 (1 : Fin 3) rfl (by decide)]

theorem k0_pay648_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay648 (F := Ideal) (kernelRun0_A.sl.r_281 c arg1 harg1 x0) (kernelRun0_A.sl.r_282 c arg1 harg1 x0) (View.readAt (Elt Ideal) arg2.view (Rect.unit (s := S3x55) ![0, 31] S1x1.size inb_S3x55_S1x1_0_31).toLoadRect (harg2.unread x1)) (View.readAt (Elt Ideal) arg2.view (Rect.unit (s := S3x55) ![1, 31] S1x1.size inb_S3x55_S1x1_1_31).toLoadRect (harg2.unread x1)) (ix1 n) = ((Cn x0 x1 n 20 2 0 * Of x1 31 0) + (Cn x0 x1 n 20 2 1 * Of x1 31 1)) := by
  unfold k0_pay648
  simp only [addf_apply, mulf_apply, r_281_apply c arg1 harg1 arg2 harg2 x0 x1, broadcast_apply, k0_pay643_apply c arg1 harg1 arg2 harg2 x0 x1, r_282_apply c arg1 harg1 arg2 harg2 x0 x1, k0_pay644_apply c arg1 harg1 arg2 harg2 x0 x1]

theorem r_355_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_355 c arg1 harg1 arg2 harg2 x0 x1 (ix1 n) = ((Cn x0 x1 n 20 2 0 * Of x1 31 0) + (Cn x0 x1 n 20 2 1 * Of x1 31 1)) := by
  delta kernelRun0_A.sl.r_355
  simp only [k0_pay648_apply c arg1 harg1 arg2 harg2 x0 x1]

theorem k0_pay645_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay645 (F := Ideal) (View.readAt (Elt Ideal) arg2.view (Rect.unit (s := S3x55) ![2, 31] S1x1.size inb_S3x55_S1x1_2_31).toLoadRect (harg2.unread x1)) = Of x1 31 2 := by
  unfold k0_pay645
  simp only [rel_read x1 arg2 harg2 2 31 (2 : Fin 3) rfl (by decide)]

theorem k0_pay649_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay649 (F := Ideal) (View.readAt (Elt Ideal) arg2.view (Rect.unit (s := S3x55) ![2, 31] S1x1.size inb_S3x55_S1x1_2_31).toLoadRect (harg2.unread x1)) (ix1 n) = Of x1 31 2 := by
  unfold k0_pay649
  simp only [broadcast_apply, k0_pay645_apply c arg1 harg1 arg2 harg2 x0 x1]

theorem r_356_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_356 c arg2 harg2 x1 (ix1 n) = Of x1 31 2 := by
  delta kernelRun0_A.sl.r_356
  simp only [k0_pay649_apply c arg1 harg1 arg2 harg2 x0 x1]

theorem k0_pay654_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay654 (F := Ideal) (View.readAt (Elt Ideal) arg2.view (Rect.unit (s := S3x55) ![0, 32] S1x1.size inb_S3x55_S1x1_0_32).toLoadRect (harg2.unread x1)) = Of x1 32 0 := by
  unfold k0_pay654
  simp only [rel_read x1 arg2 harg2 0 32 (0 : Fin 3) rfl (by decide)]

theorem k0_pay655_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay655 (F := Ideal) (View.readAt (Elt Ideal) arg2.view (Rect.unit (s := S3x55) ![1, 32] S1x1.size inb_S3x55_S1x1_1_32).toLoadRect (harg2.unread x1)) = Of x1 32 1 := by
  unfold k0_pay655
  simp only [rel_read x1 arg2 harg2 1 32 (1 : Fin 3) rfl (by decide)]

theorem k0_pay656_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay656 (F := Ideal) (View.readAt (Elt Ideal) arg2.view (Rect.unit (s := S3x55) ![2, 32] S1x1.size inb_S3x55_S1x1_2_32).toLoadRect (harg2.unread x1)) = Of x1 32 2 := by
  unfold k0_pay656
  simp only [rel_read x1 arg2 harg2 2 32 (2 : Fin 3) rfl (by decide)]

theorem k0_pay650_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay650 (F := Ideal) (kernelRun0_A.sl.r_283 c arg1 harg1 x0) (kernelRun0_A.sl.r_287 c arg1 harg1 arg2 harg2 x0 x1) (kernelRun0_A.sl.r_355 c arg1 harg1 arg2 harg2 x0 x1) (kernelRun0_A.sl.r_356 c arg2 harg2 x1) (ix1 n) = Pn x0 x1 n 31 2 := by
  refine Eq.trans ?_ (Pn_step x0 x1 n 31 20 (by decide) rfl 2).symm
  unfold k0_pay650
  simp only [addf_apply, r_355_apply c arg1 harg1 arg2 harg2 x0 x1, mulf_apply, r_283_apply c arg1 harg1 arg2 harg2 x0 x1, r_356_apply c arg1 harg1 arg2 harg2 x0 x1, r_287_apply c arg1 harg1 arg2 harg2 x0 x1]

theorem k0_pay659_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay659 (F := Ideal) (kernelRun0_A.sl.r_281 c arg1 harg1 x0) (kernelRun0_A.sl.r_282 c arg1 harg1 x0) (kernelRun0_A.sl.r_283 c arg1 harg1 x0) (kernelRun0_A.sl.r_287 c arg1 harg1 arg2 harg2 x0 x1) (kernelRun0_A.sl.r_355 c arg1 harg1 arg2 harg2 x0 x1) (kernelRun0_A.sl.r_356 c arg2 harg2 x1) (View.readAt (Elt Ideal) arg2.view (Rect.unit (s := S3x55) ![0, 32] S1x1.size inb_S3x55_S1x1_0_32).toLoadRect (harg2.unread x1)) (View.readAt (Elt Ideal) arg2.view (Rect.unit (s := S3x55) ![1, 32] S1x1.size inb_S3x55_S1x1_1_32).toLoadRect (harg2.unread x1)) (View.readAt (Elt Ideal) arg2.view (Rect.unit (s := S3x55) ![2, 32] S1x1.size inb_S3x55_S1x1_2_32).toLoadRect (harg2.unread x1)) (ix1 n) = Pn x0 x1 n 32 2 := by
  refine Eq.trans ?_ (Pn_step x0 x1 n 32 31 (by decide) rfl 2).symm
  unfold k0_pay659
  simp only [addf_apply, mulf_apply, r_281_apply c arg1 harg1 arg2 harg2 x0 x1, broadcast_apply, k0_pay654_apply c arg1 harg1 arg2 harg2 x0 x1, r_282_apply c arg1 harg1 arg2 harg2 x0 x1, k0_pay655_apply c arg1 harg1 arg2 harg2 x0 x1, r_283_apply c arg1 harg1 arg2 harg2 x0 x1, k0_pay656_apply c arg1 harg1 arg2 harg2 x0 x1, k0_pay650_apply c arg1 harg1 arg2 harg2 x0 x1, Cn_anc_31 x0 x1 n]

theorem r_359_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_359 c arg1 harg1 arg2 harg2 x0 x1 (ix1 n) = Pn x0 x1 n 32 2 := by
  delta kernelRun0_A.sl.r_359
  simp only [k0_pay659_apply c arg1 harg1 arg2 harg2 x0 x1]

theorem k0_pay663_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay663 (F := Ideal) (View.readAt (Elt Ideal) arg2.view (Rect.unit (s := S3x55) ![0, 33] S1x1.size inb_S3x55_S1x1_0_33).toLoadRect (harg2.unread x1)) = Of x1 33 0 := by
  unfold k0_pay663
  simp only [rel_read x1 arg2 harg2 0 33 (0 : Fin 3) rfl (by decide)]

theorem k0_pay664_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay664 (F := Ideal) (View.readAt (Elt Ideal) arg2.view (Rect.unit (s := S3x55) ![1, 33] S1x1.size inb_S3x55_S1x1_1_33).toLoadRect (harg2.unread x1)) = Of x1 33 1 := by
  unfold k0_pay664
  simp only [rel_read x1 arg2 harg2 1 33 (1 : Fin 3) rfl (by decide)]

theorem k0_pay665_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay665 (F := Ideal) (View.readAt (Elt Ideal) arg2.view (Rect.unit (s := S3x55) ![2, 33] S1x1.size inb_S3x55_S1x1_2_33).toLoadRect (harg2.unread x1)) = Of x1 33 2 := by
  unfold k0_pay665
  simp only [rel_read x1 arg2 harg2 2 33 (2 : Fin 3) rfl (by decide)]

theorem k0_pay668_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay668 (F := Ideal) (kernelRun0_A.sl.r_281 c arg1 harg1 x0) (kernelRun0_A.sl.r_282 c arg1 harg1 x0) (kernelRun0_A.sl.r_283 c arg1 harg1 x0) (kernelRun0_A.sl.r_359 c arg1 harg1 arg2 harg2 x0 x1) (View.readAt (Elt Ideal) arg2.view (Rect.unit (s := S3x55) ![0, 33] S1x1.size inb_S3x55_S1x1_0_33).toLoadRect (harg2.unread x1)) (View.readAt (Elt Ideal) arg2.view (Rect.unit (s := S3x55) ![1, 33] S1x1.size inb_S3x55_S1x1_1_33).toLoadRect (harg2.unread x1)) (View.readAt (Elt Ideal) arg2.view (Rect.unit (s := S3x55) ![2, 33] S1x1.size inb_S3x55_S1x1_2_33).toLoadRect (harg2.unread x1)) (ix1 n) = Pn x0 x1 n 33 2 := by
  refine Eq.trans ?_ (Pn_step x0 x1 n 33 32 (by decide) rfl 2).symm
  unfold k0_pay668
  simp only [addf_apply, mulf_apply, r_281_apply c arg1 harg1 arg2 harg2 x0 x1, broadcast_apply, k0_pay663_apply c arg1 harg1 arg2 harg2 x0 x1, r_282_apply c arg1 harg1 arg2 harg2 x0 x1, k0_pay664_apply c arg1 harg1 arg2 harg2 x0 x1, r_283_apply c arg1 harg1 arg2 harg2 x0 x1, k0_pay665_apply c arg1 harg1 arg2 harg2 x0 x1, r_359_apply c arg1 harg1 arg2 harg2 x0 x1, Cn_anc_32 x0 x1 n]

theorem r_362_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_362 c arg1 harg1 arg2 harg2 x0 x1 (ix1 n) = Pn x0 x1 n 33 2 := by
  delta kernelRun0_A.sl.r_362
  simp only [k0_pay668_apply c arg1 harg1 arg2 harg2 x0 x1]

theorem k0_pay671_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay671 (F := Ideal) (kernelRun0_A.sl.r_362 c arg1 harg1 arg2 harg2 x0 x1) (ix2 u n) = Pn x0 x1 n 33 2 := by
  unfold k0_pay671
  simp only [shapeCast_a_1a_apply, r_362_apply c arg1 harg1 arg2 harg2 x0 x1]

theorem k0_pay647_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay647 (F := Ideal) (kernelRun0_A.sl.r_278 c arg1 harg1 x0) (kernelRun0_A.sl.r_279 c arg1 harg1 x0) (kernelRun0_A.sl.r_280 c arg1 harg1 x0) (kernelRun0_A.sl.r_286 c arg1 harg1 arg2 harg2 x0 x1) (View.readAt (Elt Ideal) arg2.view (Rect.unit (s := S3x55) ![0, 31] S1x1.size inb_S3x55_S1x1_0_31).toLoadRect (harg2.unread x1)) (View.readAt (Elt Ideal) arg2.view (Rect.unit (s := S3x55) ![1, 31] S1x1.size inb_S3x55_S1x1_1_31).toLoadRect (harg2.unread x1)) (View.readAt (Elt Ideal) arg2.view (Rect.unit (s := S3x55) ![2, 31] S1x1.size inb_S3x55_S1x1_2_31).toLoadRect (harg2.unread x1)) (ix1 n) = Pn x0 x1 n 31 1 := by
  refine Eq.trans ?_ (Pn_step x0 x1 n 31 20 (by decide) rfl 1).symm
  unfold k0_pay647
  simp only [addf_apply, mulf_apply, r_278_apply c arg1 harg1 arg2 harg2 x0 x1, broadcast_apply, k0_pay643_apply c arg1 harg1 arg2 harg2 x0 x1, r_279_apply c arg1 harg1 arg2 harg2 x0 x1, k0_pay644_apply c arg1 harg1 arg2 harg2 x0 x1, r_280_apply c arg1 harg1 arg2 harg2 x0 x1, k0_pay645_apply c arg1 harg1 arg2 harg2 x0 x1, r_286_apply c arg1 harg1 arg2 harg2 x0 x1]

theorem r_354_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_354 c arg1 harg1 arg2 harg2 x0 x1 (ix1 n) = Pn x0 x1 n 31 1 := by
  delta kernelRun0_A.sl.r_354
  simp only [k0_pay647_apply c arg1 harg1 arg2 harg2 x0 x1]

theorem k0_pay658_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay658 (F := Ideal) (kernelRun0_A.sl.r_278 c arg1 harg1 x0) (kernelRun0_A.sl.r_279 c arg1 harg1 x0) (kernelRun0_A.sl.r_280 c arg1 harg1 x0) (kernelRun0_A.sl.r_354 c arg1 harg1 arg2 harg2 x0 x1) (View.readAt (Elt Ideal) arg2.view (Rect.unit (s := S3x55) ![0, 32] S1x1.size inb_S3x55_S1x1_0_32).toLoadRect (harg2.unread x1)) (View.readAt (Elt Ideal) arg2.view (Rect.unit (s := S3x55) ![1, 32] S1x1.size inb_S3x55_S1x1_1_32).toLoadRect (harg2.unread x1)) (View.readAt (Elt Ideal) arg2.view (Rect.unit (s := S3x55) ![2, 32] S1x1.size inb_S3x55_S1x1_2_32).toLoadRect (harg2.unread x1)) (ix1 n) = Pn x0 x1 n 32 1 := by
  refine Eq.trans ?_ (Pn_step x0 x1 n 32 31 (by decide) rfl 1).symm
  unfold k0_pay658
  simp only [addf_apply, mulf_apply, r_278_apply c arg1 harg1 arg2 harg2 x0 x1, broadcast_apply, k0_pay654_apply c arg1 harg1 arg2 harg2 x0 x1, r_279_apply c arg1 harg1 arg2 harg2 x0 x1, k0_pay655_apply c arg1 harg1 arg2 harg2 x0 x1, r_280_apply c arg1 harg1 arg2 harg2 x0 x1, k0_pay656_apply c arg1 harg1 arg2 harg2 x0 x1, r_354_apply c arg1 harg1 arg2 harg2 x0 x1, Cn_anc_31 x0 x1 n]

theorem r_358_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_358 c arg1 harg1 arg2 harg2 x0 x1 (ix1 n) = Pn x0 x1 n 32 1 := by
  delta kernelRun0_A.sl.r_358
  simp only [k0_pay658_apply c arg1 harg1 arg2 harg2 x0 x1]

theorem k0_pay667_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay667 (F := Ideal) (kernelRun0_A.sl.r_278 c arg1 harg1 x0) (kernelRun0_A.sl.r_279 c arg1 harg1 x0) (kernelRun0_A.sl.r_280 c arg1 harg1 x0) (kernelRun0_A.sl.r_358 c arg1 harg1 arg2 harg2 x0 x1) (View.readAt (Elt Ideal) arg2.view (Rect.unit (s := S3x55) ![0, 33] S1x1.size inb_S3x55_S1x1_0_33).toLoadRect (harg2.unread x1)) (View.readAt (Elt Ideal) arg2.view (Rect.unit (s := S3x55) ![1, 33] S1x1.size inb_S3x55_S1x1_1_33).toLoadRect (harg2.unread x1)) (View.readAt (Elt Ideal) arg2.view (Rect.unit (s := S3x55) ![2, 33] S1x1.size inb_S3x55_S1x1_2_33).toLoadRect (harg2.unread x1)) (ix1 n) = Pn x0 x1 n 33 1 := by
  refine Eq.trans ?_ (Pn_step x0 x1 n 33 32 (by decide) rfl 1).symm
  unfold k0_pay667
  simp only [addf_apply, mulf_apply, r_278_apply c arg1 harg1 arg2 harg2 x0 x1, broadcast_apply, k0_pay663_apply c arg1 harg1 arg2 harg2 x0 x1, r_279_apply c arg1 harg1 arg2 harg2 x0 x1, k0_pay664_apply c arg1 harg1 arg2 harg2 x0 x1, r_280_apply c arg1 harg1 arg2 harg2 x0 x1, k0_pay665_apply c arg1 harg1 arg2 harg2 x0 x1, r_358_apply c arg1 harg1 arg2 harg2 x0 x1, Cn_anc_32 x0 x1 n]

theorem r_361_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_361 c arg1 harg1 arg2 harg2 x0 x1 (ix1 n) = Pn x0 x1 n 33 1 := by
  delta kernelRun0_A.sl.r_361
  simp only [k0_pay667_apply c arg1 harg1 arg2 harg2 x0 x1]

theorem k0_pay670_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay670 (F := Ideal) (kernelRun0_A.sl.r_361 c arg1 harg1 arg2 harg2 x0 x1) (ix2 u n) = Pn x0 x1 n 33 1 := by
  unfold k0_pay670
  simp only [shapeCast_a_1a_apply, r_361_apply c arg1 harg1 arg2 harg2 x0 x1]

theorem k0_pay646_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay646 (F := Ideal) (kernelRun0_A.sl.r_275 c arg1 harg1 x0) (kernelRun0_A.sl.r_276 c arg1 harg1 x0) (kernelRun0_A.sl.r_277 c arg1 harg1 x0) (kernelRun0_A.sl.r_285 c arg1 harg1 arg2 harg2 x0 x1) (View.readAt (Elt Ideal) arg2.view (Rect.unit (s := S3x55) ![0, 31] S1x1.size inb_S3x55_S1x1_0_31).toLoadRect (harg2.unread x1)) (View.readAt (Elt Ideal) arg2.view (Rect.unit (s := S3x55) ![1, 31] S1x1.size inb_S3x55_S1x1_1_31).toLoadRect (harg2.unread x1)) (View.readAt (Elt Ideal) arg2.view (Rect.unit (s := S3x55) ![2, 31] S1x1.size inb_S3x55_S1x1_2_31).toLoadRect (harg2.unread x1)) (ix1 n) = Pn x0 x1 n 31 0 := by
  refine Eq.trans ?_ (Pn_step x0 x1 n 31 20 (by decide) rfl 0).symm
  unfold k0_pay646
  simp only [addf_apply, mulf_apply, r_275_apply c arg1 harg1 arg2 harg2 x0 x1, broadcast_apply, k0_pay643_apply c arg1 harg1 arg2 harg2 x0 x1, r_276_apply c arg1 harg1 arg2 harg2 x0 x1, k0_pay644_apply c arg1 harg1 arg2 harg2 x0 x1, r_277_apply c arg1 harg1 arg2 harg2 x0 x1, k0_pay645_apply c arg1 harg1 arg2 harg2 x0 x1, r_285_apply c arg1 harg1 arg2 harg2 x0 x1]

theorem r_353_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_353 c arg1 harg1 arg2 harg2 x0 x1 (ix1 n) = Pn x0 x1 n 31 0 := by
  delta kernelRun0_A.sl.r_353
  simp only [k0_pay646_apply c arg1 harg1 arg2 harg2 x0 x1]

theorem k0_pay657_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay657 (F := Ideal) (kernelRun0_A.sl.r_275 c arg1 harg1 x0) (kernelRun0_A.sl.r_276 c arg1 harg1 x0) (kernelRun0_A.sl.r_277 c arg1 harg1 x0) (kernelRun0_A.sl.r_353 c arg1 harg1 arg2 harg2 x0 x1) (View.readAt (Elt Ideal) arg2.view (Rect.unit (s := S3x55) ![0, 32] S1x1.size inb_S3x55_S1x1_0_32).toLoadRect (harg2.unread x1)) (View.readAt (Elt Ideal) arg2.view (Rect.unit (s := S3x55) ![1, 32] S1x1.size inb_S3x55_S1x1_1_32).toLoadRect (harg2.unread x1)) (View.readAt (Elt Ideal) arg2.view (Rect.unit (s := S3x55) ![2, 32] S1x1.size inb_S3x55_S1x1_2_32).toLoadRect (harg2.unread x1)) (ix1 n) = Pn x0 x1 n 32 0 := by
  refine Eq.trans ?_ (Pn_step x0 x1 n 32 31 (by decide) rfl 0).symm
  unfold k0_pay657
  simp only [addf_apply, mulf_apply, r_275_apply c arg1 harg1 arg2 harg2 x0 x1, broadcast_apply, k0_pay654_apply c arg1 harg1 arg2 harg2 x0 x1, r_276_apply c arg1 harg1 arg2 harg2 x0 x1, k0_pay655_apply c arg1 harg1 arg2 harg2 x0 x1, r_277_apply c arg1 harg1 arg2 harg2 x0 x1, k0_pay656_apply c arg1 harg1 arg2 harg2 x0 x1, r_353_apply c arg1 harg1 arg2 harg2 x0 x1, Cn_anc_31 x0 x1 n]

theorem r_357_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_357 c arg1 harg1 arg2 harg2 x0 x1 (ix1 n) = Pn x0 x1 n 32 0 := by
  delta kernelRun0_A.sl.r_357
  simp only [k0_pay657_apply c arg1 harg1 arg2 harg2 x0 x1]

theorem k0_pay666_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay666 (F := Ideal) (kernelRun0_A.sl.r_275 c arg1 harg1 x0) (kernelRun0_A.sl.r_276 c arg1 harg1 x0) (kernelRun0_A.sl.r_277 c arg1 harg1 x0) (kernelRun0_A.sl.r_357 c arg1 harg1 arg2 harg2 x0 x1) (View.readAt (Elt Ideal) arg2.view (Rect.unit (s := S3x55) ![0, 33] S1x1.size inb_S3x55_S1x1_0_33).toLoadRect (harg2.unread x1)) (View.readAt (Elt Ideal) arg2.view (Rect.unit (s := S3x55) ![1, 33] S1x1.size inb_S3x55_S1x1_1_33).toLoadRect (harg2.unread x1)) (View.readAt (Elt Ideal) arg2.view (Rect.unit (s := S3x55) ![2, 33] S1x1.size inb_S3x55_S1x1_2_33).toLoadRect (harg2.unread x1)) (ix1 n) = Pn x0 x1 n 33 0 := by
  refine Eq.trans ?_ (Pn_step x0 x1 n 33 32 (by decide) rfl 0).symm
  unfold k0_pay666
  simp only [addf_apply, mulf_apply, r_275_apply c arg1 harg1 arg2 harg2 x0 x1, broadcast_apply, k0_pay663_apply c arg1 harg1 arg2 harg2 x0 x1, r_276_apply c arg1 harg1 arg2 harg2 x0 x1, k0_pay664_apply c arg1 harg1 arg2 harg2 x0 x1, r_277_apply c arg1 harg1 arg2 harg2 x0 x1, k0_pay665_apply c arg1 harg1 arg2 harg2 x0 x1, r_357_apply c arg1 harg1 arg2 harg2 x0 x1, Cn_anc_32 x0 x1 n]

theorem r_360_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_360 c arg1 harg1 arg2 harg2 x0 x1 (ix1 n) = Pn x0 x1 n 33 0 := by
  delta kernelRun0_A.sl.r_360
  simp only [k0_pay666_apply c arg1 harg1 arg2 harg2 x0 x1]

theorem k0_pay669_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay669 (F := Ideal) (kernelRun0_A.sl.r_360 c arg1 harg1 arg2 harg2 x0 x1) (ix2 u n) = Pn x0 x1 n 33 0 := by
  unfold k0_pay669
  simp only [shapeCast_a_1a_apply, r_360_apply c arg1 harg1 arg2 harg2 x0 x1]

theorem k0_pay662_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay662 (F := Ideal) (kernelRun0_A.sl.r_359 c arg1 harg1 arg2 harg2 x0 x1) (ix2 u n) = Pn x0 x1 n 32 2 := by
  unfold k0_pay662
  simp only [shapeCast_a_1a_apply, r_359_apply c arg1 harg1 arg2 harg2 x0 x1]

theorem k0_pay661_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay661 (F := Ideal) (kernelRun0_A.sl.r_358 c arg1 harg1 arg2 harg2 x0 x1) (ix2 u n) = Pn x0 x1 n 32 1 := by
  unfold k0_pay661
  simp only [shapeCast_a_1a_apply, r_358_apply c arg1 harg1 arg2 harg2 x0 x1]

theorem k0_pay660_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay660 (F := Ideal) (kernelRun0_A.sl.r_357 c arg1 harg1 arg2 harg2 x0 x1) (ix2 u n) = Pn x0 x1 n 32 0 := by
  unfold k0_pay660
  simp only [shapeCast_a_1a_apply, r_357_apply c arg1 harg1 arg2 harg2 x0 x1]

theorem k0_pay653_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay653 (F := Ideal) (kernelRun0_A.sl.r_283 c arg1 harg1 x0) (kernelRun0_A.sl.r_287 c arg1 harg1 arg2 harg2 x0 x1) (kernelRun0_A.sl.r_355 c arg1 harg1 arg2 harg2 x0 x1) (kernelRun0_A.sl.r_356 c arg2 harg2 x1) (ix2 u n) = Pn x0 x1 n 31 2 := by
  unfold k0_pay653
  simp only [shapeCast_a_1a_apply, k0_pay650_apply c arg1 harg1 arg2 harg2 x0 x1]

theorem k0_pay652_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay652 (F := Ideal) (kernelRun0_A.sl.r_354 c arg1 harg1 arg2 harg2 x0 x1) (ix2 u n) = Pn x0 x1 n 31 1 := by
  unfold k0_pay652
  simp only [shapeCast_a_1a_apply, r_354_apply c arg1 harg1 arg2 harg2 x0 x1]

theorem k0_pay651_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay651 (F := Ideal) (kernelRun0_A.sl.r_353 c arg1 harg1 arg2 harg2 x0 x1) (ix2 u n) = Pn x0 x1 n 31 0 := by
  unfold k0_pay651
  simp only [shapeCast_a_1a_apply, r_353_apply c arg1 harg1 arg2 harg2 x0 x1]

theorem k0_pay613_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay613 (F := Ideal) (View.readAt (Elt Ideal) arg2.view (Rect.unit (s := S3x55) ![0, 28] S1x1.size inb_S3x55_S1x1_0_28).toLoadRect (harg2.unread x1)) = Of x1 28 0 := by
  unfold k0_pay613
  simp only [rel_read x1 arg2 harg2 0 28 (0 : Fin 3) rfl (by decide)]

theorem r_335_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_335 c arg2 harg2 x1 = Of x1 28 0 := by
  delta kernelRun0_A.sl.r_335
  simp only [k0_pay613_apply c arg1 harg1 arg2 harg2 x0 x1]

theorem k0_pay614_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay614 (F := Ideal) (View.readAt (Elt Ideal) arg2.view (Rect.unit (s := S3x55) ![1, 28] S1x1.size inb_S3x55_S1x1_1_28).toLoadRect (harg2.unread x1)) = Of x1 28 1 := by
  unfold k0_pay614
  simp only [rel_read x1 arg2 harg2 1 28 (1 : Fin 3) rfl (by decide)]

theorem r_336_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_336 c arg2 harg2 x1 = Of x1 28 1 := by
  delta kernelRun0_A.sl.r_336
  simp only [k0_pay614_apply c arg1 harg1 arg2 harg2 x0 x1]

theorem k0_pay615_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay615 (F := Ideal) (View.readAt (Elt Ideal) arg2.view (Rect.unit (s := S3x55) ![2, 28] S1x1.size inb_S3x55_S1x1_2_28).toLoadRect (harg2.unread x1)) = Of x1 28 2 := by
  unfold k0_pay615
  simp only [rel_read x1 arg2 harg2 2 28 (2 : Fin 3) rfl (by decide)]

theorem r_337_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_337 c arg2 harg2 x1 = Of x1 28 2 := by
  delta kernelRun0_A.sl.r_337
  simp only [k0_pay615_apply c arg1 harg1 arg2 harg2 x0 x1]

theorem k0_pay620_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay620 (F := Ideal) (kernelRun0_A.sl.r_281 c arg1 harg1 x0) (kernelRun0_A.sl.r_282 c arg1 harg1 x0) (kernelRun0_A.sl.r_283 c arg1 harg1 x0) (kernelRun0_A.sl.r_287 c arg1 harg1 arg2 harg2 x0 x1) (kernelRun0_A.sl.r_335 c arg2 harg2 x1) (kernelRun0_A.sl.r_336 c arg2 harg2 x1) (kernelRun0_A.sl.r_337 c arg2 harg2 x1) (ix1 n) = Pn x0 x1 n 28 2 := by
  refine Eq.trans ?_ (Pn_step x0 x1 n 28 20 (by decide) rfl 2).symm
  unfold k0_pay620
  simp only [addf_apply, mulf_apply, r_281_apply c arg1 harg1 arg2 harg2 x0 x1, broadcast_apply, r_335_apply c arg1 harg1 arg2 harg2 x0 x1, r_282_apply c arg1 harg1 arg2 harg2 x0 x1, r_336_apply c arg1 harg1 arg2 harg2 x0 x1, r_283_apply c arg1 harg1 arg2 harg2 x0 x1, r_337_apply c arg1 harg1 arg2 harg2 x0 x1, r_287_apply c arg1 harg1 arg2 harg2 x0 x1]

theorem r_341_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_341 c arg1 harg1 arg2 harg2 x0 x1 (ix1 n) = Pn x0 x1 n 28 2 := by
  delta kernelRun0_A.sl.r_341
  simp only [k0_pay620_apply c arg1 harg1 arg2 harg2 x0 x1]

theorem k0_pay624_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay624 (F := Ideal) (View.readAt (Elt Ideal) arg2.view (Rect.unit (s := S3x55) ![0, 29] S1x1.size inb_S3x55_S1x1_0_29).toLoadRect (harg2.unread x1)) = Of x1 29 0 := by
  unfold k0_pay624
  simp only [rel_read x1 arg2 harg2 0 29 (0 : Fin 3) rfl (by decide)]

theorem r_342_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_342 c arg2 harg2 x1 = Of x1 29 0 := by
  delta kernelRun0_A.sl.r_342
  simp only [k0_pay624_apply c arg1 harg1 arg2 harg2 x0 x1]

theorem k0_pay625_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay625 (F := Ideal) (View.readAt (Elt Ideal) arg2.view (Rect.unit (s := S3x55) ![1, 29] S1x1.size inb_S3x55_S1x1_1_29).toLoadRect (harg2.unread x1)) = Of x1 29 1 := by
  unfold k0_pay625
  simp only [rel_read x1 arg2 harg2 1 29 (1 : Fin 3) rfl (by decide)]

theorem r_343_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_343 c arg2 harg2 x1 = Of x1 29 1 := by
  delta kernelRun0_A.sl.r_343
  simp only [k0_pay625_apply c arg1 harg1 arg2 harg2 x0 x1]

theorem k0_pay626_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay626 (F := Ideal) (View.readAt (Elt Ideal) arg2.view (Rect.unit (s := S3x55) ![2, 29] S1x1.size inb_S3x55_S1x1_2_29).toLoadRect (harg2.unread x1)) = Of x1 29 2 := by
  unfold k0_pay626
  simp only [rel_read x1 arg2 harg2 2 29 (2 : Fin 3) rfl (by decide)]

theorem r_344_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_344 c arg2 harg2 x1 = Of x1 29 2 := by
  delta kernelRun0_A.sl.r_344
  simp only [k0_pay626_apply c arg1 harg1 arg2 harg2 x0 x1]

theorem k0_pay629_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay629 (F := Ideal) (kernelRun0_A.sl.r_281 c arg1 harg1 x0) (kernelRun0_A.sl.r_282 c arg1 harg1 x0) (kernelRun0_A.sl.r_283 c arg1 harg1 x0) (kernelRun0_A.sl.r_341 c arg1 harg1 arg2 harg2 x0 x1) (kernelRun0_A.sl.r_342 c arg2 harg2 x1) (kernelRun0_A.sl.r_343 c arg2 harg2 x1) (kernelRun0_A.sl.r_344 c arg2 harg2 x1) (ix1 n) = Pn x0 x1 n 29 2 := by
  refine Eq.trans ?_ (Pn_step x0 x1 n 29 28 (by decide) rfl 2).symm
  unfold k0_pay629
  simp only [addf_apply, mulf_apply, r_281_apply c arg1 harg1 arg2 harg2 x0 x1, broadcast_apply, r_342_apply c arg1 harg1 arg2 harg2 x0 x1, r_282_apply c arg1 harg1 arg2 harg2 x0 x1, r_343_apply c arg1 harg1 arg2 harg2 x0 x1, r_283_apply c arg1 harg1 arg2 harg2 x0 x1, r_344_apply c arg1 harg1 arg2 harg2 x0 x1, r_341_apply c arg1 harg1 arg2 harg2 x0 x1, Cn_anc_28 x0 x1 n]

theorem r_347_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_347 c arg1 harg1 arg2 harg2 x0 x1 (ix1 n) = Pn x0 x1 n 29 2 := by
  delta kernelRun0_A.sl.r_347
  simp only [k0_pay629_apply c arg1 harg1 arg2 harg2 x0 x1]

theorem k0_pay635_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay635 (F := Ideal) (View.readAt (Elt Ideal) arg2.view (Rect.unit (s := S3x55) ![2, 30] S1x1.size inb_S3x55_S1x1_2_30).toLoadRect (harg2.unread x1)) = Of x1 30 2 := by
  unfold k0_pay635
  simp only [rel_read x1 arg2 harg2 2 30 (2 : Fin 3) rfl (by decide)]

theorem r_348_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_348 c arg2 harg2 x1 = Of x1 30 2 := by
  delta kernelRun0_A.sl.r_348
  simp only [k0_pay635_apply c arg1 harg1 arg2 harg2 x0 x1]

theorem k0_pay633_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay633 (F := Ideal) (View.readAt (Elt Ideal) arg2.view (Rect.unit (s := S3x55) ![0, 30] S1x1.size inb_S3x55_S1x1_0_30).toLoadRect (harg2.unread x1)) = Of x1 30 0 := by
  unfold k0_pay633
  simp only [rel_read x1 arg2 harg2 0 30 (0 : Fin 3) rfl (by decide)]

theorem k0_pay638_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay638 (F := Ideal) (kernelRun0_A.sl.r_281 c arg1 harg1 x0) (View.readAt (Elt Ideal) arg2.view (Rect.unit (s := S3x55) ![0, 30] S1x1.size inb_S3x55_S1x1_0_30).toLoadRect (harg2.unread x1)) (ix1 n) = (Cn x0 x1 n 20 2 0 * Of x1 30 0) := by
  unfold k0_pay638
  simp only [mulf_apply, r_281_apply c arg1 harg1 arg2 harg2 x0 x1, broadcast_apply, k0_pay633_apply c arg1 harg1 arg2 harg2 x0 x1]

theorem r_351_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_351 c arg1 harg1 arg2 harg2 x0 x1 (ix1 n) = (Cn x0 x1 n 20 2 0 * Of x1 30 0) := by
  delta kernelRun0_A.sl.r_351
  simp only [k0_pay638_apply c arg1 harg1 arg2 harg2 x0 x1]

theorem k0_pay634_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay634 (F := Ideal) (View.readAt (Elt Ideal) arg2.view (Rect.unit (s := S3x55) ![1, 30] S1x1.size inb_S3x55_S1x1_1_30).toLoadRect (harg2.unread x1)) = Of x1 30 1 := by
  unfold k0_pay634
  simp only [rel_read x1 arg2 harg2 1 30 (1 : Fin 3) rfl (by decide)]

theorem k0_pay639_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay639 (F := Ideal) (View.readAt (Elt Ideal) arg2.view (Rect.unit (s := S3x55) ![1, 30] S1x1.size inb_S3x55_S1x1_1_30).toLoadRect (harg2.unread x1)) (ix1 n) = Of x1 30 1 := by
  unfold k0_pay639
  simp only [broadcast_apply, k0_pay634_apply c arg1 harg1 arg2 harg2 x0 x1]

theorem r_352_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_352 c arg2 harg2 x1 (ix1 n) = Of x1 30 1 := by
  delta kernelRun0_A.sl.r_352
  simp only [k0_pay639_apply c arg1 harg1 arg2 harg2 x0 x1]

theorem k0_pay642_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay642 (F := Ideal) (kernelRun0_A.sl.r_282 c arg1 harg1 x0) (kernelRun0_A.sl.r_283 c arg1 harg1 x0) (kernelRun0_A.sl.r_347 c arg1 harg1 arg2 harg2 x0 x1) (kernelRun0_A.sl.r_348 c arg2 harg2 x1) (kernelRun0_A.sl.r_351 c arg1 harg1 arg2 harg2 x0 x1) (kernelRun0_A.sl.r_352 c arg2 harg2 x1) (ix2 u n) = Pn x0 x1 n 30 2 := by
  refine Eq.trans ?_ (Pn_step x0 x1 n 30 29 (by decide) rfl 2).symm
  unfold k0_pay642
  simp only [shapeCast_a_1a_apply, addf_apply, r_351_apply c arg1 harg1 arg2 harg2 x0 x1, mulf_apply, r_282_apply c arg1 harg1 arg2 harg2 x0 x1, r_352_apply c arg1 harg1 arg2 harg2 x0 x1, r_283_apply c arg1 harg1 arg2 harg2 x0 x1, broadcast_apply, r_348_apply c arg1 harg1 arg2 harg2 x0 x1, r_347_apply c arg1 harg1 arg2 harg2 x0 x1, Cn_anc_29 x0 x1 n]

theorem k0_pay617_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay617 (F := Ideal) (kernelRun0_A.sl.r_278 c arg1 harg1 x0) (kernelRun0_A.sl.r_279 c arg1 harg1 x0) (View.readAt (Elt Ideal) arg2.view (Rect.unit (s := S3x55) ![0, 28] S1x1.size inb_S3x55_S1x1_0_28).toLoadRect (harg2.unread x1)) (View.readAt (Elt Ideal) arg2.view (Rect.unit (s := S3x55) ![1, 28] S1x1.size inb_S3x55_S1x1_1_28).toLoadRect (harg2.unread x1)) (ix1 n) = ((Cn x0 x1 n 20 1 0 * Of x1 28 0) + (Cn x0 x1 n 20 1 1 * Of x1 28 1)) := by
  unfold k0_pay617
  simp only [addf_apply, mulf_apply, r_278_apply c arg1 harg1 arg2 harg2 x0 x1, broadcast_apply, k0_pay613_apply c arg1 harg1 arg2 harg2 x0 x1, r_279_apply c arg1 harg1 arg2 harg2 x0 x1, k0_pay614_apply c arg1 harg1 arg2 harg2 x0 x1]

theorem r_339_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_339 c arg1 harg1 arg2 harg2 x0 x1 (ix1 n) = ((Cn x0 x1 n 20 1 0 * Of x1 28 0) + (Cn x0 x1 n 20 1 1 * Of x1 28 1)) := by
  delta kernelRun0_A.sl.r_339
  simp only [k0_pay617_apply c arg1 harg1 arg2 harg2 x0 x1]

theorem k0_pay618_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay618 (F := Ideal) (View.readAt (Elt Ideal) arg2.view (Rect.unit (s := S3x55) ![2, 28] S1x1.size inb_S3x55_S1x1_2_28).toLoadRect (harg2.unread x1)) (ix1 n) = Of x1 28 2 := by
  unfold k0_pay618
  simp only [broadcast_apply, k0_pay615_apply c arg1 harg1 arg2 harg2 x0 x1]

theorem r_340_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_340 c arg2 harg2 x1 (ix1 n) = Of x1 28 2 := by
  delta kernelRun0_A.sl.r_340
  simp only [k0_pay618_apply c arg1 harg1 arg2 harg2 x0 x1]

theorem k0_pay619_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay619 (F := Ideal) (kernelRun0_A.sl.r_280 c arg1 harg1 x0) (kernelRun0_A.sl.r_286 c arg1 harg1 arg2 harg2 x0 x1) (kernelRun0_A.sl.r_339 c arg1 harg1 arg2 harg2 x0 x1) (kernelRun0_A.sl.r_340 c arg2 harg2 x1) (ix1 n) = Pn x0 x1 n 28 1 := by
  refine Eq.trans ?_ (Pn_step x0 x1 n 28 20 (by decide) rfl 1).symm
  unfold k0_pay619
  simp only [addf_apply, r_339_apply c arg1 harg1 arg2 harg2 x0 x1, mulf_apply, r_280_apply c arg1 harg1 arg2 harg2 x0 x1, r_340_apply c arg1 harg1 arg2 harg2 x0 x1, r_286_apply c arg1 harg1 arg2 harg2 x0 x1]

theorem k0_pay628_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay628 (F := Ideal) (kernelRun0_A.sl.r_278 c arg1 harg1 x0) (kernelRun0_A.sl.r_279 c arg1 harg1 x0) (kernelRun0_A.sl.r_280 c arg1 harg1 x0) (kernelRun0_A.sl.r_286 c arg1 harg1 arg2 harg2 x0 x1) (kernelRun0_A.sl.r_339 c arg1 harg1 arg2 harg2 x0 x1) (kernelRun0_A.sl.r_340 c arg2 harg2 x1) (View.readAt (Elt Ideal) arg2.view (Rect.unit (s := S3x55) ![0, 29] S1x1.size inb_S3x55_S1x1_0_29).toLoadRect (harg2.unread x1)) (View.readAt (Elt Ideal) arg2.view (Rect.unit (s := S3x55) ![1, 29] S1x1.size inb_S3x55_S1x1_1_29).toLoadRect (harg2.unread x1)) (View.readAt (Elt Ideal) arg2.view (Rect.unit (s := S3x55) ![2, 29] S1x1.size inb_S3x55_S1x1_2_29).toLoadRect (harg2.unread x1)) (ix1 n) = Pn x0 x1 n 29 1 := by
  refine Eq.trans ?_ (Pn_step x0 x1 n 29 28 (by decide) rfl 1).symm
  unfold k0_pay628
  simp only [addf_apply, mulf_apply, r_278_apply c arg1 harg1 arg2 harg2 x0 x1, broadcast_apply, k0_pay624_apply c arg1 harg1 arg2 harg2 x0 x1, r_279_apply c arg1 harg1 arg2 harg2 x0 x1, k0_pay625_apply c arg1 harg1 arg2 harg2 x0 x1, r_280_apply c arg1 harg1 arg2 harg2 x0 x1, k0_pay626_apply c arg1 harg1 arg2 harg2 x0 x1, k0_pay619_apply c arg1 harg1 arg2 harg2 x0 x1, Cn_anc_28 x0 x1 n]

theorem r_346_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_346 c arg1 harg1 arg2 harg2 x0 x1 (ix1 n) = Pn x0 x1 n 29 1 := by
  delta kernelRun0_A.sl.r_346
  simp only [k0_pay628_apply c arg1 harg1 arg2 harg2 x0 x1]

theorem k0_pay637_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay637 (F := Ideal) (kernelRun0_A.sl.r_278 c arg1 harg1 x0) (kernelRun0_A.sl.r_279 c arg1 harg1 x0) (kernelRun0_A.sl.r_280 c arg1 harg1 x0) (kernelRun0_A.sl.r_346 c arg1 harg1 arg2 harg2 x0 x1) (View.readAt (Elt Ideal) arg2.view (Rect.unit (s := S3x55) ![0, 30] S1x1.size inb_S3x55_S1x1_0_30).toLoadRect (harg2.unread x1)) (View.readAt (Elt Ideal) arg2.view (Rect.unit (s := S3x55) ![1, 30] S1x1.size inb_S3x55_S1x1_1_30).toLoadRect (harg2.unread x1)) (View.readAt (Elt Ideal) arg2.view (Rect.unit (s := S3x55) ![2, 30] S1x1.size inb_S3x55_S1x1_2_30).toLoadRect (harg2.unread x1)) (ix1 n) = Pn x0 x1 n 30 1 := by
  refine Eq.trans ?_ (Pn_step x0 x1 n 30 29 (by decide) rfl 1).symm
  unfold k0_pay637
  simp only [addf_apply, mulf_apply, r_278_apply c arg1 harg1 arg2 harg2 x0 x1, broadcast_apply, k0_pay633_apply c arg1 harg1 arg2 harg2 x0 x1, r_279_apply c arg1 harg1 arg2 harg2 x0 x1, k0_pay634_apply c arg1 harg1 arg2 harg2 x0 x1, r_280_apply c arg1 harg1 arg2 harg2 x0 x1, k0_pay635_apply c arg1 harg1 arg2 harg2 x0 x1, r_346_apply c arg1 harg1 arg2 harg2 x0 x1, Cn_anc_29 x0 x1 n]

theorem r_350_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_350 c arg1 harg1 arg2 harg2 x0 x1 (ix1 n) = Pn x0 x1 n 30 1 := by
  delta kernelRun0_A.sl.r_350
  simp only [k0_pay637_apply c arg1 harg1 arg2 harg2 x0 x1]

theorem k0_pay641_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay641 (F := Ideal) (kernelRun0_A.sl.r_350 c arg1 harg1 arg2 harg2 x0 x1) (ix2 u n) = Pn x0 x1 n 30 1 := by
  unfold k0_pay641
  simp only [shapeCast_a_1a_apply, r_350_apply c arg1 harg1 arg2 harg2 x0 x1]

theorem k0_pay616_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay616 (F := Ideal) (kernelRun0_A.sl.r_275 c arg1 harg1 x0) (kernelRun0_A.sl.r_276 c arg1 harg1 x0) (kernelRun0_A.sl.r_277 c arg1 harg1 x0) (kernelRun0_A.sl.r_285 c arg1 harg1 arg2 harg2 x0 x1) (View.readAt (Elt Ideal) arg2.view (Rect.unit (s := S3x55) ![0, 28] S1x1.size inb_S3x55_S1x1_0_28).toLoadRect (harg2.unread x1)) (View.readAt (Elt Ideal) arg2.view (Rect.unit (s := S3x55) ![1, 28] S1x1.size inb_S3x55_S1x1_1_28).toLoadRect (harg2.unread x1)) (View.readAt (Elt Ideal) arg2.view (Rect.unit (s := S3x55) ![2, 28] S1x1.size inb_S3x55_S1x1_2_28).toLoadRect (harg2.unread x1)) (ix1 n) = Pn x0 x1 n 28 0 := by
  refine Eq.trans ?_ (Pn_step x0 x1 n 28 20 (by decide) rfl 0).symm
  unfold k0_pay616
  simp only [addf_apply, mulf_apply, r_275_apply c arg1 harg1 arg2 harg2 x0 x1, broadcast_apply, k0_pay613_apply c arg1 harg1 arg2 harg2 x0 x1, r_276_apply c arg1 harg1 arg2 harg2 x0 x1, k0_pay614_apply c arg1 harg1 arg2 harg2 x0 x1, r_277_apply c arg1 harg1 arg2 harg2 x0 x1, k0_pay615_apply c arg1 harg1 arg2 harg2 x0 x1, r_285_apply c arg1 harg1 arg2 harg2 x0 x1]

theorem r_338_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_338 c arg1 harg1 arg2 harg2 x0 x1 (ix1 n) = Pn x0 x1 n 28 0 := by
  delta kernelRun0_A.sl.r_338
  simp only [k0_pay616_apply c arg1 harg1 arg2 harg2 x0 x1]

theorem k0_pay627_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay627 (F := Ideal) (kernelRun0_A.sl.r_275 c arg1 harg1 x0) (kernelRun0_A.sl.r_276 c arg1 harg1 x0) (kernelRun0_A.sl.r_277 c arg1 harg1 x0) (kernelRun0_A.sl.r_338 c arg1 harg1 arg2 harg2 x0 x1) (View.readAt (Elt Ideal) arg2.view (Rect.unit (s := S3x55) ![0, 29] S1x1.size inb_S3x55_S1x1_0_29).toLoadRect (harg2.unread x1)) (View.readAt (Elt Ideal) arg2.view (Rect.unit (s := S3x55) ![1, 29] S1x1.size inb_S3x55_S1x1_1_29).toLoadRect (harg2.unread x1)) (View.readAt (Elt Ideal) arg2.view (Rect.unit (s := S3x55) ![2, 29] S1x1.size inb_S3x55_S1x1_2_29).toLoadRect (harg2.unread x1)) (ix1 n) = Pn x0 x1 n 29 0 := by
  refine Eq.trans ?_ (Pn_step x0 x1 n 29 28 (by decide) rfl 0).symm
  unfold k0_pay627
  simp only [addf_apply, mulf_apply, r_275_apply c arg1 harg1 arg2 harg2 x0 x1, broadcast_apply, k0_pay624_apply c arg1 harg1 arg2 harg2 x0 x1, r_276_apply c arg1 harg1 arg2 harg2 x0 x1, k0_pay625_apply c arg1 harg1 arg2 harg2 x0 x1, r_277_apply c arg1 harg1 arg2 harg2 x0 x1, k0_pay626_apply c arg1 harg1 arg2 harg2 x0 x1, r_338_apply c arg1 harg1 arg2 harg2 x0 x1, Cn_anc_28 x0 x1 n]

theorem r_345_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_345 c arg1 harg1 arg2 harg2 x0 x1 (ix1 n) = Pn x0 x1 n 29 0 := by
  delta kernelRun0_A.sl.r_345
  simp only [k0_pay627_apply c arg1 harg1 arg2 harg2 x0 x1]

theorem k0_pay636_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay636 (F := Ideal) (kernelRun0_A.sl.r_275 c arg1 harg1 x0) (kernelRun0_A.sl.r_276 c arg1 harg1 x0) (kernelRun0_A.sl.r_277 c arg1 harg1 x0) (kernelRun0_A.sl.r_345 c arg1 harg1 arg2 harg2 x0 x1) (View.readAt (Elt Ideal) arg2.view (Rect.unit (s := S3x55) ![0, 30] S1x1.size inb_S3x55_S1x1_0_30).toLoadRect (harg2.unread x1)) (View.readAt (Elt Ideal) arg2.view (Rect.unit (s := S3x55) ![1, 30] S1x1.size inb_S3x55_S1x1_1_30).toLoadRect (harg2.unread x1)) (View.readAt (Elt Ideal) arg2.view (Rect.unit (s := S3x55) ![2, 30] S1x1.size inb_S3x55_S1x1_2_30).toLoadRect (harg2.unread x1)) (ix1 n) = Pn x0 x1 n 30 0 := by
  refine Eq.trans ?_ (Pn_step x0 x1 n 30 29 (by decide) rfl 0).symm
  unfold k0_pay636
  simp only [addf_apply, mulf_apply, r_275_apply c arg1 harg1 arg2 harg2 x0 x1, broadcast_apply, k0_pay633_apply c arg1 harg1 arg2 harg2 x0 x1, r_276_apply c arg1 harg1 arg2 harg2 x0 x1, k0_pay634_apply c arg1 harg1 arg2 harg2 x0 x1, r_277_apply c arg1 harg1 arg2 harg2 x0 x1, k0_pay635_apply c arg1 harg1 arg2 harg2 x0 x1, r_345_apply c arg1 harg1 arg2 harg2 x0 x1, Cn_anc_29 x0 x1 n]

theorem r_349_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_349 c arg1 harg1 arg2 harg2 x0 x1 (ix1 n) = Pn x0 x1 n 30 0 := by
  delta kernelRun0_A.sl.r_349
  simp only [k0_pay636_apply c arg1 harg1 arg2 harg2 x0 x1]

theorem k0_pay640_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay640 (F := Ideal) (kernelRun0_A.sl.r_349 c arg1 harg1 arg2 harg2 x0 x1) (ix2 u n) = Pn x0 x1 n 30 0 := by
  unfold k0_pay640
  simp only [shapeCast_a_1a_apply, r_349_apply c arg1 harg1 arg2 harg2 x0 x1]

theorem k0_pay632_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay632 (F := Ideal) (kernelRun0_A.sl.r_281 c arg1 harg1 x0) (kernelRun0_A.sl.r_282 c arg1 harg1 x0) (kernelRun0_A.sl.r_283 c arg1 harg1 x0) (kernelRun0_A.sl.r_341 c arg1 harg1 arg2 harg2 x0 x1) (kernelRun0_A.sl.r_342 c arg2 harg2 x1) (kernelRun0_A.sl.r_343 c arg2 harg2 x1) (kernelRun0_A.sl.r_344 c arg2 harg2 x1) (ix2 u n) = Pn x0 x1 n 29 2 := by
  unfold k0_pay632
  simp only [shapeCast_a_1a_apply, k0_pay629_apply c arg1 harg1 arg2 harg2 x0 x1]

theorem k0_pay631_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay631 (F := Ideal) (kernelRun0_A.sl.r_346 c arg1 harg1 arg2 harg2 x0 x1) (ix2 u n) = Pn x0 x1 n 29 1 := by
  unfold k0_pay631
  simp only [shapeCast_a_1a_apply, r_346_apply c arg1 harg1 arg2 harg2 x0 x1]

theorem k0_pay630_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay630 (F := Ideal) (kernelRun0_A.sl.r_345 c arg1 harg1 arg2 harg2 x0 x1) (ix2 u n) = Pn x0 x1 n 29 0 := by
  unfold k0_pay630
  simp only [shapeCast_a_1a_apply, r_345_apply c arg1 harg1 arg2 harg2 x0 x1]

theorem k0_pay623_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay623 (F := Ideal) (kernelRun0_A.sl.r_281 c arg1 harg1 x0) (kernelRun0_A.sl.r_282 c arg1 harg1 x0) (kernelRun0_A.sl.r_283 c arg1 harg1 x0) (kernelRun0_A.sl.r_287 c arg1 harg1 arg2 harg2 x0 x1) (kernelRun0_A.sl.r_335 c arg2 harg2 x1) (kernelRun0_A.sl.r_336 c arg2 harg2 x1) (kernelRun0_A.sl.r_337 c arg2 harg2 x1) (ix2 u n) = Pn x0 x1 n 28 2 := by
  unfold k0_pay623
  simp only [shapeCast_a_1a_apply, k0_pay620_apply c arg1 harg1 arg2 harg2 x0 x1]

theorem k0_pay622_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay622 (F := Ideal) (kernelRun0_A.sl.r_280 c arg1 harg1 x0) (kernelRun0_A.sl.r_286 c arg1 harg1 arg2 harg2 x0 x1) (kernelRun0_A.sl.r_339 c arg1 harg1 arg2 harg2 x0 x1) (kernelRun0_A.sl.r_340 c arg2 harg2 x1) (ix2 u n) = Pn x0 x1 n 28 1 := by
  unfold k0_pay622
  simp only [shapeCast_a_1a_apply, k0_pay619_apply c arg1 harg1 arg2 harg2 x0 x1]

theorem k0_pay621_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay621 (F := Ideal) (kernelRun0_A.sl.r_338 c arg1 harg1 arg2 harg2 x0 x1) (ix2 u n) = Pn x0 x1 n 28 0 := by
  unfold k0_pay621
  simp only [shapeCast_a_1a_apply, r_338_apply c arg1 harg1 arg2 harg2 x0 x1]

theorem k0_pay584_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay584 (F := Ideal) (View.readAt (Elt Ideal) arg2.view (Rect.unit (s := S3x55) ![0, 25] S1x1.size inb_S3x55_S1x1_0_25).toLoadRect (harg2.unread x1)) = Of x1 25 0 := by
  unfold k0_pay584
  simp only [rel_read x1 arg2 harg2 0 25 (0 : Fin 3) rfl (by decide)]

theorem r_316_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_316 c arg2 harg2 x1 = Of x1 25 0 := by
  delta kernelRun0_A.sl.r_316
  simp only [k0_pay584_apply c arg1 harg1 arg2 harg2 x0 x1]

theorem k0_pay585_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay585 (F := Ideal) (View.readAt (Elt Ideal) arg2.view (Rect.unit (s := S3x55) ![1, 25] S1x1.size inb_S3x55_S1x1_1_25).toLoadRect (harg2.unread x1)) = Of x1 25 1 := by
  unfold k0_pay585
  simp only [rel_read x1 arg2 harg2 1 25 (1 : Fin 3) rfl (by decide)]

theorem r_317_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_317 c arg2 harg2 x1 = Of x1 25 1 := by
  delta kernelRun0_A.sl.r_317
  simp only [k0_pay585_apply c arg1 harg1 arg2 harg2 x0 x1]

theorem k0_pay586_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay586 (F := Ideal) (View.readAt (Elt Ideal) arg2.view (Rect.unit (s := S3x55) ![2, 25] S1x1.size inb_S3x55_S1x1_2_25).toLoadRect (harg2.unread x1)) = Of x1 25 2 := by
  unfold k0_pay586
  simp only [rel_read x1 arg2 harg2 2 25 (2 : Fin 3) rfl (by decide)]

theorem r_318_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_318 c arg2 harg2 x1 = Of x1 25 2 := by
  delta kernelRun0_A.sl.r_318
  simp only [k0_pay586_apply c arg1 harg1 arg2 harg2 x0 x1]

theorem k0_pay591_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay591 (F := Ideal) (kernelRun0_A.sl.r_281 c arg1 harg1 x0) (kernelRun0_A.sl.r_282 c arg1 harg1 x0) (kernelRun0_A.sl.r_283 c arg1 harg1 x0) (kernelRun0_A.sl.r_287 c arg1 harg1 arg2 harg2 x0 x1) (kernelRun0_A.sl.r_316 c arg2 harg2 x1) (kernelRun0_A.sl.r_317 c arg2 harg2 x1) (kernelRun0_A.sl.r_318 c arg2 harg2 x1) (ix1 n) = Pn x0 x1 n 25 2 := by
  refine Eq.trans ?_ (Pn_step x0 x1 n 25 20 (by decide) rfl 2).symm
  unfold k0_pay591
  simp only [addf_apply, mulf_apply, r_281_apply c arg1 harg1 arg2 harg2 x0 x1, broadcast_apply, r_316_apply c arg1 harg1 arg2 harg2 x0 x1, r_282_apply c arg1 harg1 arg2 harg2 x0 x1, r_317_apply c arg1 harg1 arg2 harg2 x0 x1, r_283_apply c arg1 harg1 arg2 harg2 x0 x1, r_318_apply c arg1 harg1 arg2 harg2 x0 x1, r_287_apply c arg1 harg1 arg2 harg2 x0 x1]

theorem r_322_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_322 c arg1 harg1 arg2 harg2 x0 x1 (ix1 n) = Pn x0 x1 n 25 2 := by
  delta kernelRun0_A.sl.r_322
  simp only [k0_pay591_apply c arg1 harg1 arg2 harg2 x0 x1]

theorem k0_pay595_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay595 (F := Ideal) (View.readAt (Elt Ideal) arg2.view (Rect.unit (s := S3x55) ![0, 26] S1x1.size inb_S3x55_S1x1_0_26).toLoadRect (harg2.unread x1)) = Of x1 26 0 := by
  unfold k0_pay595
  simp only [rel_read x1 arg2 harg2 0 26 (0 : Fin 3) rfl (by decide)]

theorem r_323_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_323 c arg2 harg2 x1 = Of x1 26 0 := by
  delta kernelRun0_A.sl.r_323
  simp only [k0_pay595_apply c arg1 harg1 arg2 harg2 x0 x1]

theorem k0_pay596_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay596 (F := Ideal) (View.readAt (Elt Ideal) arg2.view (Rect.unit (s := S3x55) ![1, 26] S1x1.size inb_S3x55_S1x1_1_26).toLoadRect (harg2.unread x1)) = Of x1 26 1 := by
  unfold k0_pay596
  simp only [rel_read x1 arg2 harg2 1 26 (1 : Fin 3) rfl (by decide)]

theorem r_324_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_324 c arg2 harg2 x1 = Of x1 26 1 := by
  delta kernelRun0_A.sl.r_324
  simp only [k0_pay596_apply c arg1 harg1 arg2 harg2 x0 x1]

theorem k0_pay597_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay597 (F := Ideal) (View.readAt (Elt Ideal) arg2.view (Rect.unit (s := S3x55) ![2, 26] S1x1.size inb_S3x55_S1x1_2_26).toLoadRect (harg2.unread x1)) = Of x1 26 2 := by
  unfold k0_pay597
  simp only [rel_read x1 arg2 harg2 2 26 (2 : Fin 3) rfl (by decide)]

theorem r_325_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_325 c arg2 harg2 x1 = Of x1 26 2 := by
  delta kernelRun0_A.sl.r_325
  simp only [k0_pay597_apply c arg1 harg1 arg2 harg2 x0 x1]

theorem k0_pay600_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay600 (F := Ideal) (kernelRun0_A.sl.r_281 c arg1 harg1 x0) (kernelRun0_A.sl.r_282 c arg1 harg1 x0) (kernelRun0_A.sl.r_283 c arg1 harg1 x0) (kernelRun0_A.sl.r_322 c arg1 harg1 arg2 harg2 x0 x1) (kernelRun0_A.sl.r_323 c arg2 harg2 x1) (kernelRun0_A.sl.r_324 c arg2 harg2 x1) (kernelRun0_A.sl.r_325 c arg2 harg2 x1) (ix1 n) = Pn x0 x1 n 26 2 := by
  refine Eq.trans ?_ (Pn_step x0 x1 n 26 25 (by decide) rfl 2).symm
  unfold k0_pay600
  simp only [addf_apply, mulf_apply, r_281_apply c arg1 harg1 arg2 harg2 x0 x1, broadcast_apply, r_323_apply c arg1 harg1 arg2 harg2 x0 x1, r_282_apply c arg1 harg1 arg2 harg2 x0 x1, r_324_apply c arg1 harg1 arg2 harg2 x0 x1, r_283_apply c arg1 harg1 arg2 harg2 x0 x1, r_325_apply c arg1 harg1 arg2 harg2 x0 x1, r_322_apply c arg1 harg1 arg2 harg2 x0 x1, Cn_anc_25 x0 x1 n]

theorem r_328_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_328 c arg1 harg1 arg2 harg2 x0 x1 (ix1 n) = Pn x0 x1 n 26 2 := by
  delta kernelRun0_A.sl.r_328
  simp only [k0_pay600_apply c arg1 harg1 arg2 harg2 x0 x1]

theorem k0_pay604_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay604 (F := Ideal) (View.readAt (Elt Ideal) arg2.view (Rect.unit (s := S3x55) ![0, 27] S1x1.size inb_S3x55_S1x1_0_27).toLoadRect (harg2.unread x1)) = Of x1 27 0 := by
  unfold k0_pay604
  simp only [rel_read x1 arg2 harg2 0 27 (0 : Fin 3) rfl (by decide)]

theorem r_329_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_329 c arg2 harg2 x1 = Of x1 27 0 := by
  delta kernelRun0_A.sl.r_329
  simp only [k0_pay604_apply c arg1 harg1 arg2 harg2 x0 x1]

theorem k0_pay605_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay605 (F := Ideal) (View.readAt (Elt Ideal) arg2.view (Rect.unit (s := S3x55) ![1, 27] S1x1.size inb_S3x55_S1x1_1_27).toLoadRect (harg2.unread x1)) = Of x1 27 1 := by
  unfold k0_pay605
  simp only [rel_read x1 arg2 harg2 1 27 (1 : Fin 3) rfl (by decide)]

theorem r_330_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_330 c arg2 harg2 x1 = Of x1 27 1 := by
  delta kernelRun0_A.sl.r_330
  simp only [k0_pay605_apply c arg1 harg1 arg2 harg2 x0 x1]

theorem k0_pay606_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay606 (F := Ideal) (View.readAt (Elt Ideal) arg2.view (Rect.unit (s := S3x55) ![2, 27] S1x1.size inb_S3x55_S1x1_2_27).toLoadRect (harg2.unread x1)) = Of x1 27 2 := by
  unfold k0_pay606
  simp only [rel_read x1 arg2 harg2 2 27 (2 : Fin 3) rfl (by decide)]

theorem r_331_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_331 c arg2 harg2 x1 = Of x1 27 2 := by
  delta kernelRun0_A.sl.r_331
  simp only [k0_pay606_apply c arg1 harg1 arg2 harg2 x0 x1]

theorem k0_pay612_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay612 (F := Ideal) (kernelRun0_A.sl.r_281 c arg1 harg1 x0) (kernelRun0_A.sl.r_282 c arg1 harg1 x0) (kernelRun0_A.sl.r_283 c arg1 harg1 x0) (kernelRun0_A.sl.r_328 c arg1 harg1 arg2 harg2 x0 x1) (kernelRun0_A.sl.r_329 c arg2 harg2 x1) (kernelRun0_A.sl.r_330 c arg2 harg2 x1) (kernelRun0_A.sl.r_331 c arg2 harg2 x1) (ix2 u n) = Pn x0 x1 n 27 2 := by
  refine Eq.trans ?_ (Pn_step x0 x1 n 27 26 (by decide) rfl 2).symm
  unfold k0_pay612
  simp only [shapeCast_a_1a_apply, addf_apply, mulf_apply, r_281_apply c arg1 harg1 arg2 harg2 x0 x1, broadcast_apply, r_329_apply c arg1 harg1 arg2 harg2 x0 x1, r_282_apply c arg1 harg1 arg2 harg2 x0 x1, r_330_apply c arg1 harg1 arg2 harg2 x0 x1, r_283_apply c arg1 harg1 arg2 harg2 x0 x1, r_331_apply c arg1 harg1 arg2 harg2 x0 x1, r_328_apply c arg1 harg1 arg2 harg2 x0 x1, Cn_anc_26 x0 x1 n]

theorem k0_pay590_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay590 (F := Ideal) (kernelRun0_A.sl.r_278 c arg1 harg1 x0) (kernelRun0_A.sl.r_279 c arg1 harg1 x0) (kernelRun0_A.sl.r_280 c arg1 harg1 x0) (kernelRun0_A.sl.r_286 c arg1 harg1 arg2 harg2 x0 x1) (kernelRun0_A.sl.r_316 c arg2 harg2 x1) (kernelRun0_A.sl.r_317 c arg2 harg2 x1) (kernelRun0_A.sl.r_318 c arg2 harg2 x1) (ix1 n) = Pn x0 x1 n 25 1 := by
  refine Eq.trans ?_ (Pn_step x0 x1 n 25 20 (by decide) rfl 1).symm
  unfold k0_pay590
  simp only [addf_apply, mulf_apply, r_278_apply c arg1 harg1 arg2 harg2 x0 x1, broadcast_apply, r_316_apply c arg1 harg1 arg2 harg2 x0 x1, r_279_apply c arg1 harg1 arg2 harg2 x0 x1, r_317_apply c arg1 harg1 arg2 harg2 x0 x1, r_280_apply c arg1 harg1 arg2 harg2 x0 x1, r_318_apply c arg1 harg1 arg2 harg2 x0 x1, r_286_apply c arg1 harg1 arg2 harg2 x0 x1]

theorem r_321_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_321 c arg1 harg1 arg2 harg2 x0 x1 (ix1 n) = Pn x0 x1 n 25 1 := by
  delta kernelRun0_A.sl.r_321
  simp only [k0_pay590_apply c arg1 harg1 arg2 harg2 x0 x1]

theorem k0_pay599_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay599 (F := Ideal) (kernelRun0_A.sl.r_278 c arg1 harg1 x0) (kernelRun0_A.sl.r_279 c arg1 harg1 x0) (kernelRun0_A.sl.r_280 c arg1 harg1 x0) (kernelRun0_A.sl.r_321 c arg1 harg1 arg2 harg2 x0 x1) (kernelRun0_A.sl.r_323 c arg2 harg2 x1) (kernelRun0_A.sl.r_324 c arg2 harg2 x1) (kernelRun0_A.sl.r_325 c arg2 harg2 x1) (ix1 n) = Pn x0 x1 n 26 1 := by
  refine Eq.trans ?_ (Pn_step x0 x1 n 26 25 (by decide) rfl 1).symm
  unfold k0_pay599
  simp only [addf_apply, mulf_apply, r_278_apply c arg1 harg1 arg2 harg2 x0 x1, broadcast_apply, r_323_apply c arg1 harg1 arg2 harg2 x0 x1, r_279_apply c arg1 harg1 arg2 harg2 x0 x1, r_324_apply c arg1 harg1 arg2 harg2 x0 x1, r_280_apply c arg1 harg1 arg2 harg2 x0 x1, r_325_apply c arg1 harg1 arg2 harg2 x0 x1, r_321_apply c arg1 harg1 arg2 harg2 x0 x1, Cn_anc_25 x0 x1 n]

theorem r_327_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_327 c arg1 harg1 arg2 harg2 x0 x1 (ix1 n) = Pn x0 x1 n 26 1 := by
  delta kernelRun0_A.sl.r_327
  simp only [k0_pay599_apply c arg1 harg1 arg2 harg2 x0 x1]

theorem k0_pay608_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay608 (F := Ideal) (kernelRun0_A.sl.r_278 c arg1 harg1 x0) (View.readAt (Elt Ideal) arg2.view (Rect.unit (s := S3x55) ![0, 27] S1x1.size inb_S3x55_S1x1_0_27).toLoadRect (harg2.unread x1)) (ix1 n) = (Cn x0 x1 n 20 1 0 * Of x1 27 0) := by
  unfold k0_pay608
  simp only [mulf_apply, r_278_apply c arg1 harg1 arg2 harg2 x0 x1, broadcast_apply, k0_pay604_apply c arg1 harg1 arg2 harg2 x0 x1]

theorem r_333_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_333 c arg1 harg1 arg2 harg2 x0 x1 (ix1 n) = (Cn x0 x1 n 20 1 0 * Of x1 27 0) := by
  delta kernelRun0_A.sl.r_333
  simp only [k0_pay608_apply c arg1 harg1 arg2 harg2 x0 x1]

theorem k0_pay609_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay609 (F := Ideal) (View.readAt (Elt Ideal) arg2.view (Rect.unit (s := S3x55) ![1, 27] S1x1.size inb_S3x55_S1x1_1_27).toLoadRect (harg2.unread x1)) (ix1 n) = Of x1 27 1 := by
  unfold k0_pay609
  simp only [broadcast_apply, k0_pay605_apply c arg1 harg1 arg2 harg2 x0 x1]

theorem r_334_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_334 c arg2 harg2 x1 (ix1 n) = Of x1 27 1 := by
  delta kernelRun0_A.sl.r_334
  simp only [k0_pay609_apply c arg1 harg1 arg2 harg2 x0 x1]

theorem k0_pay611_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay611 (F := Ideal) (kernelRun0_A.sl.r_279 c arg1 harg1 x0) (kernelRun0_A.sl.r_280 c arg1 harg1 x0) (kernelRun0_A.sl.r_327 c arg1 harg1 arg2 harg2 x0 x1) (kernelRun0_A.sl.r_331 c arg2 harg2 x1) (kernelRun0_A.sl.r_333 c arg1 harg1 arg2 harg2 x0 x1) (kernelRun0_A.sl.r_334 c arg2 harg2 x1) (ix2 u n) = Pn x0 x1 n 27 1 := by
  refine Eq.trans ?_ (Pn_step x0 x1 n 27 26 (by decide) rfl 1).symm
  unfold k0_pay611
  simp only [shapeCast_a_1a_apply, addf_apply, r_333_apply c arg1 harg1 arg2 harg2 x0 x1, mulf_apply, r_279_apply c arg1 harg1 arg2 harg2 x0 x1, r_334_apply c arg1 harg1 arg2 harg2 x0 x1, r_280_apply c arg1 harg1 arg2 harg2 x0 x1, broadcast_apply, r_331_apply c arg1 harg1 arg2 harg2 x0 x1, r_327_apply c arg1 harg1 arg2 harg2 x0 x1, Cn_anc_26 x0 x1 n]

theorem k0_pay587_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay587 (F := Ideal) (kernelRun0_A.sl.r_275 c arg1 harg1 x0) (kernelRun0_A.sl.r_276 c arg1 harg1 x0) (View.readAt (Elt Ideal) arg2.view (Rect.unit (s := S3x55) ![0, 25] S1x1.size inb_S3x55_S1x1_0_25).toLoadRect (harg2.unread x1)) (View.readAt (Elt Ideal) arg2.view (Rect.unit (s := S3x55) ![1, 25] S1x1.size inb_S3x55_S1x1_1_25).toLoadRect (harg2.unread x1)) (ix1 n) = ((Cn x0 x1 n 20 0 0 * Of x1 25 0) + (Cn x0 x1 n 20 0 1 * Of x1 25 1)) := by
  unfold k0_pay587
  simp only [addf_apply, mulf_apply, r_275_apply c arg1 harg1 arg2 harg2 x0 x1, broadcast_apply, k0_pay584_apply c arg1 harg1 arg2 harg2 x0 x1, r_276_apply c arg1 harg1 arg2 harg2 x0 x1, k0_pay585_apply c arg1 harg1 arg2 harg2 x0 x1]

theorem r_319_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_319 c arg1 harg1 arg2 harg2 x0 x1 (ix1 n) = ((Cn x0 x1 n 20 0 0 * Of x1 25 0) + (Cn x0 x1 n 20 0 1 * Of x1 25 1)) := by
  delta kernelRun0_A.sl.r_319
  simp only [k0_pay587_apply c arg1 harg1 arg2 harg2 x0 x1]

theorem k0_pay588_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay588 (F := Ideal) (View.readAt (Elt Ideal) arg2.view (Rect.unit (s := S3x55) ![2, 25] S1x1.size inb_S3x55_S1x1_2_25).toLoadRect (harg2.unread x1)) (ix1 n) = Of x1 25 2 := by
  unfold k0_pay588
  simp only [broadcast_apply, k0_pay586_apply c arg1 harg1 arg2 harg2 x0 x1]

theorem r_320_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_320 c arg2 harg2 x1 (ix1 n) = Of x1 25 2 := by
  delta kernelRun0_A.sl.r_320
  simp only [k0_pay588_apply c arg1 harg1 arg2 harg2 x0 x1]

theorem k0_pay589_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay589 (F := Ideal) (kernelRun0_A.sl.r_277 c arg1 harg1 x0) (kernelRun0_A.sl.r_285 c arg1 harg1 arg2 harg2 x0 x1) (kernelRun0_A.sl.r_319 c arg1 harg1 arg2 harg2 x0 x1) (kernelRun0_A.sl.r_320 c arg2 harg2 x1) (ix1 n) = Pn x0 x1 n 25 0 := by
  refine Eq.trans ?_ (Pn_step x0 x1 n 25 20 (by decide) rfl 0).symm
  unfold k0_pay589
  simp only [addf_apply, r_319_apply c arg1 harg1 arg2 harg2 x0 x1, mulf_apply, r_277_apply c arg1 harg1 arg2 harg2 x0 x1, r_320_apply c arg1 harg1 arg2 harg2 x0 x1, r_285_apply c arg1 harg1 arg2 harg2 x0 x1]

theorem k0_pay598_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay598 (F := Ideal) (kernelRun0_A.sl.r_275 c arg1 harg1 x0) (kernelRun0_A.sl.r_276 c arg1 harg1 x0) (kernelRun0_A.sl.r_277 c arg1 harg1 x0) (kernelRun0_A.sl.r_285 c arg1 harg1 arg2 harg2 x0 x1) (kernelRun0_A.sl.r_319 c arg1 harg1 arg2 harg2 x0 x1) (kernelRun0_A.sl.r_320 c arg2 harg2 x1) (View.readAt (Elt Ideal) arg2.view (Rect.unit (s := S3x55) ![0, 26] S1x1.size inb_S3x55_S1x1_0_26).toLoadRect (harg2.unread x1)) (View.readAt (Elt Ideal) arg2.view (Rect.unit (s := S3x55) ![1, 26] S1x1.size inb_S3x55_S1x1_1_26).toLoadRect (harg2.unread x1)) (View.readAt (Elt Ideal) arg2.view (Rect.unit (s := S3x55) ![2, 26] S1x1.size inb_S3x55_S1x1_2_26).toLoadRect (harg2.unread x1)) (ix1 n) = Pn x0 x1 n 26 0 := by
  refine Eq.trans ?_ (Pn_step x0 x1 n 26 25 (by decide) rfl 0).symm
  unfold k0_pay598
  simp only [addf_apply, mulf_apply, r_275_apply c arg1 harg1 arg2 harg2 x0 x1, broadcast_apply, k0_pay595_apply c arg1 harg1 arg2 harg2 x0 x1, r_276_apply c arg1 harg1 arg2 harg2 x0 x1, k0_pay596_apply c arg1 harg1 arg2 harg2 x0 x1, r_277_apply c arg1 harg1 arg2 harg2 x0 x1, k0_pay597_apply c arg1 harg1 arg2 harg2 x0 x1, k0_pay589_apply c arg1 harg1 arg2 harg2 x0 x1, Cn_anc_25 x0 x1 n]

theorem r_326_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_326 c arg1 harg1 arg2 harg2 x0 x1 (ix1 n) = Pn x0 x1 n 26 0 := by
  delta kernelRun0_A.sl.r_326
  simp only [k0_pay598_apply c arg1 harg1 arg2 harg2 x0 x1]

theorem k0_pay607_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay607 (F := Ideal) (kernelRun0_A.sl.r_275 c arg1 harg1 x0) (kernelRun0_A.sl.r_276 c arg1 harg1 x0) (kernelRun0_A.sl.r_277 c arg1 harg1 x0) (kernelRun0_A.sl.r_326 c arg1 harg1 arg2 harg2 x0 x1) (View.readAt (Elt Ideal) arg2.view (Rect.unit (s := S3x55) ![0, 27] S1x1.size inb_S3x55_S1x1_0_27).toLoadRect (harg2.unread x1)) (View.readAt (Elt Ideal) arg2.view (Rect.unit (s := S3x55) ![1, 27] S1x1.size inb_S3x55_S1x1_1_27).toLoadRect (harg2.unread x1)) (View.readAt (Elt Ideal) arg2.view (Rect.unit (s := S3x55) ![2, 27] S1x1.size inb_S3x55_S1x1_2_27).toLoadRect (harg2.unread x1)) (ix1 n) = Pn x0 x1 n 27 0 := by
  refine Eq.trans ?_ (Pn_step x0 x1 n 27 26 (by decide) rfl 0).symm
  unfold k0_pay607
  simp only [addf_apply, mulf_apply, r_275_apply c arg1 harg1 arg2 harg2 x0 x1, broadcast_apply, k0_pay604_apply c arg1 harg1 arg2 harg2 x0 x1, r_276_apply c arg1 harg1 arg2 harg2 x0 x1, k0_pay605_apply c arg1 harg1 arg2 harg2 x0 x1, r_277_apply c arg1 harg1 arg2 harg2 x0 x1, k0_pay606_apply c arg1 harg1 arg2 harg2 x0 x1, r_326_apply c arg1 harg1 arg2 harg2 x0 x1, Cn_anc_26 x0 x1 n]

theorem r_332_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_332 c arg1 harg1 arg2 harg2 x0 x1 (ix1 n) = Pn x0 x1 n 27 0 := by
  delta kernelRun0_A.sl.r_332
  simp only [k0_pay607_apply c arg1 harg1 arg2 harg2 x0 x1]

theorem k0_pay610_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay610 (F := Ideal) (kernelRun0_A.sl.r_332 c arg1 harg1 arg2 harg2 x0 x1) (ix2 u n) = Pn x0 x1 n 27 0 := by
  unfold k0_pay610
  simp only [shapeCast_a_1a_apply, r_332_apply c arg1 harg1 arg2 harg2 x0 x1]

theorem k0_pay603_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay603 (F := Ideal) (kernelRun0_A.sl.r_281 c arg1 harg1 x0) (kernelRun0_A.sl.r_282 c arg1 harg1 x0) (kernelRun0_A.sl.r_283 c arg1 harg1 x0) (kernelRun0_A.sl.r_322 c arg1 harg1 arg2 harg2 x0 x1) (kernelRun0_A.sl.r_323 c arg2 harg2 x1) (kernelRun0_A.sl.r_324 c arg2 harg2 x1) (kernelRun0_A.sl.r_325 c arg2 harg2 x1) (ix2 u n) = Pn x0 x1 n 26 2 := by
  unfold k0_pay603
  simp only [shapeCast_a_1a_apply, k0_pay600_apply c arg1 harg1 arg2 harg2 x0 x1]

theorem k0_pay602_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay602 (F := Ideal) (kernelRun0_A.sl.r_278 c arg1 harg1 x0) (kernelRun0_A.sl.r_279 c arg1 harg1 x0) (kernelRun0_A.sl.r_280 c arg1 harg1 x0) (kernelRun0_A.sl.r_321 c arg1 harg1 arg2 harg2 x0 x1) (kernelRun0_A.sl.r_323 c arg2 harg2 x1) (kernelRun0_A.sl.r_324 c arg2 harg2 x1) (kernelRun0_A.sl.r_325 c arg2 harg2 x1) (ix2 u n) = Pn x0 x1 n 26 1 := by
  unfold k0_pay602
  simp only [shapeCast_a_1a_apply, k0_pay599_apply c arg1 harg1 arg2 harg2 x0 x1]

theorem k0_pay601_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay601 (F := Ideal) (kernelRun0_A.sl.r_326 c arg1 harg1 arg2 harg2 x0 x1) (ix2 u n) = Pn x0 x1 n 26 0 := by
  unfold k0_pay601
  simp only [shapeCast_a_1a_apply, r_326_apply c arg1 harg1 arg2 harg2 x0 x1]

theorem k0_pay594_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay594 (F := Ideal) (kernelRun0_A.sl.r_281 c arg1 harg1 x0) (kernelRun0_A.sl.r_282 c arg1 harg1 x0) (kernelRun0_A.sl.r_283 c arg1 harg1 x0) (kernelRun0_A.sl.r_287 c arg1 harg1 arg2 harg2 x0 x1) (kernelRun0_A.sl.r_316 c arg2 harg2 x1) (kernelRun0_A.sl.r_317 c arg2 harg2 x1) (kernelRun0_A.sl.r_318 c arg2 harg2 x1) (ix2 u n) = Pn x0 x1 n 25 2 := by
  unfold k0_pay594
  simp only [shapeCast_a_1a_apply, k0_pay591_apply c arg1 harg1 arg2 harg2 x0 x1]

theorem k0_pay593_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay593 (F := Ideal) (kernelRun0_A.sl.r_278 c arg1 harg1 x0) (kernelRun0_A.sl.r_279 c arg1 harg1 x0) (kernelRun0_A.sl.r_280 c arg1 harg1 x0) (kernelRun0_A.sl.r_286 c arg1 harg1 arg2 harg2 x0 x1) (kernelRun0_A.sl.r_316 c arg2 harg2 x1) (kernelRun0_A.sl.r_317 c arg2 harg2 x1) (kernelRun0_A.sl.r_318 c arg2 harg2 x1) (ix2 u n) = Pn x0 x1 n 25 1 := by
  unfold k0_pay593
  simp only [shapeCast_a_1a_apply, k0_pay590_apply c arg1 harg1 arg2 harg2 x0 x1]

theorem k0_pay592_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay592 (F := Ideal) (kernelRun0_A.sl.r_277 c arg1 harg1 x0) (kernelRun0_A.sl.r_285 c arg1 harg1 arg2 harg2 x0 x1) (kernelRun0_A.sl.r_319 c arg1 harg1 arg2 harg2 x0 x1) (kernelRun0_A.sl.r_320 c arg2 harg2 x1) (ix2 u n) = Pn x0 x1 n 25 0 := by
  unfold k0_pay592
  simp only [shapeCast_a_1a_apply, k0_pay589_apply c arg1 harg1 arg2 harg2 x0 x1]

theorem k0_pay284_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay284 (F := Ideal) (kernelRun0_A.sl.v2 c arg1 harg1 x0) (ix1 n) = Rw x0 n 12 0 0 := by
  unfold k0_pay284
  simp only [shapeCast_1a_a_apply, slice_row 108 (108 : Fin 198) rfl, v2_apply c arg1 harg1 arg2 harg2 x0 x1, Rw_eq x0 n 12 0 0 (108 : Fin 198) (by decide)]

theorem r_126_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_126 c arg1 harg1 x0 (ix1 n) = Rw x0 n 12 0 0 := by
  delta kernelRun0_A.sl.r_126
  simp only [k0_pay284_apply c arg1 harg1 arg2 harg2 x0 x1]

theorem k0_pay287_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay287 (F := Ideal) (kernelRun0_A.sl.v2 c arg1 harg1 x0) (ix1 n) = Rw x0 n 12 1 0 := by
  unfold k0_pay287
  simp only [shapeCast_1a_a_apply, slice_row 111 (111 : Fin 198) rfl, v2_apply c arg1 harg1 arg2 harg2 x0 x1, Rw_eq x0 n 12 1 0 (111 : Fin 198) (by decide)]

theorem r_129_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_129 c arg1 harg1 x0 (ix1 n) = Rw x0 n 12 1 0 := by
  delta kernelRun0_A.sl.r_129
  simp only [k0_pay287_apply c arg1 harg1 arg2 harg2 x0 x1]

theorem k0_pay291_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay291 (F := Ideal) (kernelRun0_A.sl.v2 c arg1 harg1 x0) (ix1 n) = Rw x0 n 12 2 0 := by
  unfold k0_pay291
  simp only [shapeCast_1a_a_apply, slice_row 114 (114 : Fin 198) rfl, v2_apply c arg1 harg1 arg2 harg2 x0 x1, Rw_eq x0 n 12 2 0 (114 : Fin 198) (by decide)]

theorem k0_pay300_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay300 (F := Ideal) (kernelRun0_A.sl.v2 c arg1 harg1 x0) (kernelRun0_A.sl.r_118 c arg1 harg1 x0) (kernelRun0_A.sl.r_119 c arg1 harg1 x0) (kernelRun0_A.sl.r_120 c arg1 harg1 x0) (kernelRun0_A.sl.r_126 c arg1 harg1 x0) (kernelRun0_A.sl.r_129 c arg1 harg1 x0) (ix1 n) = Cn x0 x1 n 12 2 0 := by
  refine Eq.trans ?_ (Cn_step x0 x1 n 12 9 (by decide) rfl (by decide) 2 0).symm
  unfold k0_pay300
  simp only [addf_apply, mulf_apply, r_118_apply c arg1 harg1 arg2 harg2 x0 x1, r_126_apply c arg1 harg1 arg2 harg2 x0 x1, r_119_apply c arg1 harg1 arg2 harg2 x0 x1, r_129_apply c arg1 harg1 arg2 harg2 x0 x1, r_120_apply c arg1 harg1 arg2 harg2 x0 x1, k0_pay291_apply c arg1 harg1 arg2 harg2 x0 x1]

theorem r_137_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_137 c arg1 harg1 x0 (ix1 n) = Cn x0 x1 n 12 2 0 := by
  delta kernelRun0_A.sl.r_137
  simp only [k0_pay300_apply c arg1 harg1 arg2 harg2 x0 x1]

theorem k0_pay285_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay285 (F := Ideal) (kernelRun0_A.sl.v2 c arg1 harg1 x0) (ix1 n) = Rw x0 n 12 0 1 := by
  unfold k0_pay285
  simp only [shapeCast_1a_a_apply, slice_row 109 (109 : Fin 198) rfl, v2_apply c arg1 harg1 arg2 harg2 x0 x1, Rw_eq x0 n 12 0 1 (109 : Fin 198) (by decide)]

theorem r_127_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_127 c arg1 harg1 x0 (ix1 n) = Rw x0 n 12 0 1 := by
  delta kernelRun0_A.sl.r_127
  simp only [k0_pay285_apply c arg1 harg1 arg2 harg2 x0 x1]

theorem k0_pay288_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay288 (F := Ideal) (kernelRun0_A.sl.v2 c arg1 harg1 x0) (ix2 u n) = Rw x0 n 12 1 1 := by
  unfold k0_pay288
  simp only [slice_row 112 (112 : Fin 198) rfl, v2_apply c arg1 harg1 arg2 harg2 x0 x1, Rw_eq x0 n 12 1 1 (112 : Fin 198) (by decide)]

theorem r_130_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_130 c arg1 harg1 x0 (ix2 u n) = Rw x0 n 12 1 1 := by
  delta kernelRun0_A.sl.r_130
  simp only [k0_pay288_apply c arg1 harg1 arg2 harg2 x0 x1]

theorem k0_pay289_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay289 (F := Ideal) (kernelRun0_A.sl.r_130 c arg1 harg1 x0) (ix1 n) = Rw x0 n 12 1 1 := by
  unfold k0_pay289
  simp only [shapeCast_1a_a_apply, r_130_apply c arg1 harg1 arg2 harg2 x0 x1]

theorem k0_pay292_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay292 (F := Ideal) (kernelRun0_A.sl.v2 c arg1 harg1 x0) (ix1 n) = Rw x0 n 12 2 1 := by
  unfold k0_pay292
  simp only [shapeCast_1a_a_apply, slice_row 115 (115 : Fin 198) rfl, v2_apply c arg1 harg1 arg2 harg2 x0 x1, Rw_eq x0 n 12 2 1 (115 : Fin 198) (by decide)]

theorem k0_pay301_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay301 (F := Ideal) (kernelRun0_A.sl.v2 c arg1 harg1 x0) (kernelRun0_A.sl.r_118 c arg1 harg1 x0) (kernelRun0_A.sl.r_119 c arg1 harg1 x0) (kernelRun0_A.sl.r_120 c arg1 harg1 x0) (kernelRun0_A.sl.r_127 c arg1 harg1 x0) (kernelRun0_A.sl.r_130 c arg1 harg1 x0) (ix1 n) = Cn x0 x1 n 12 2 1 := by
  refine Eq.trans ?_ (Cn_step x0 x1 n 12 9 (by decide) rfl (by decide) 2 1).symm
  unfold k0_pay301
  simp only [addf_apply, mulf_apply, r_118_apply c arg1 harg1 arg2 harg2 x0 x1, r_127_apply c arg1 harg1 arg2 harg2 x0 x1, r_119_apply c arg1 harg1 arg2 harg2 x0 x1, k0_pay289_apply c arg1 harg1 arg2 harg2 x0 x1, r_120_apply c arg1 harg1 arg2 harg2 x0 x1, k0_pay292_apply c arg1 harg1 arg2 harg2 x0 x1]

theorem r_138_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_138 c arg1 harg1 x0 (ix1 n) = Cn x0 x1 n 12 2 1 := by
  delta kernelRun0_A.sl.r_138
  simp only [k0_pay301_apply c arg1 harg1 arg2 harg2 x0 x1]

theorem k0_pay286_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay286 (F := Ideal) (kernelRun0_A.sl.v2 c arg1 harg1 x0) (ix1 n) = Rw x0 n 12 0 2 := by
  unfold k0_pay286
  simp only [shapeCast_1a_a_apply, slice_row 110 (110 : Fin 198) rfl, v2_apply c arg1 harg1 arg2 harg2 x0 x1, Rw_eq x0 n 12 0 2 (110 : Fin 198) (by decide)]

theorem r_128_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_128 c arg1 harg1 x0 (ix1 n) = Rw x0 n 12 0 2 := by
  delta kernelRun0_A.sl.r_128
  simp only [k0_pay286_apply c arg1 harg1 arg2 harg2 x0 x1]

theorem k0_pay290_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay290 (F := Ideal) (kernelRun0_A.sl.v2 c arg1 harg1 x0) (ix1 n) = Rw x0 n 12 1 2 := by
  unfold k0_pay290
  simp only [shapeCast_1a_a_apply, slice_row 113 (113 : Fin 198) rfl, v2_apply c arg1 harg1 arg2 harg2 x0 x1, Rw_eq x0 n 12 1 2 (113 : Fin 198) (by decide)]

theorem k0_pay293_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay293 (F := Ideal) (kernelRun0_A.sl.v2 c arg1 harg1 x0) (ix1 n) = Rw x0 n 12 2 2 := by
  unfold k0_pay293
  simp only [shapeCast_1a_a_apply, slice_row 116 (116 : Fin 198) rfl, v2_apply c arg1 harg1 arg2 harg2 x0 x1, Rw_eq x0 n 12 2 2 (116 : Fin 198) (by decide)]

theorem k0_pay302_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay302 (F := Ideal) (kernelRun0_A.sl.v2 c arg1 harg1 x0) (kernelRun0_A.sl.r_118 c arg1 harg1 x0) (kernelRun0_A.sl.r_119 c arg1 harg1 x0) (kernelRun0_A.sl.r_120 c arg1 harg1 x0) (kernelRun0_A.sl.r_128 c arg1 harg1 x0) (ix1 n) = Cn x0 x1 n 12 2 2 := by
  refine Eq.trans ?_ (Cn_step x0 x1 n 12 9 (by decide) rfl (by decide) 2 2).symm
  unfold k0_pay302
  simp only [addf_apply, mulf_apply, r_118_apply c arg1 harg1 arg2 harg2 x0 x1, r_128_apply c arg1 harg1 arg2 harg2 x0 x1, r_119_apply c arg1 harg1 arg2 harg2 x0 x1, k0_pay290_apply c arg1 harg1 arg2 harg2 x0 x1, r_120_apply c arg1 harg1 arg2 harg2 x0 x1, k0_pay293_apply c arg1 harg1 arg2 harg2 x0 x1]

theorem r_139_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_139 c arg1 harg1 x0 (ix1 n) = Cn x0 x1 n 12 2 2 := by
  delta kernelRun0_A.sl.r_139
  simp only [k0_pay302_apply c arg1 harg1 arg2 harg2 x0 x1]

theorem k0_pay368_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay368 (F := Ideal) (kernelRun0_A.sl.v2 c arg1 harg1 x0) (ix1 n) = Rw x0 n 15 0 0 := by
  unfold k0_pay368
  simp only [shapeCast_1a_a_apply, slice_row 135 (135 : Fin 198) rfl, v2_apply c arg1 harg1 arg2 harg2 x0 x1, Rw_eq x0 n 15 0 0 (135 : Fin 198) (by decide)]

theorem r_180_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_180 c arg1 harg1 x0 (ix1 n) = Rw x0 n 15 0 0 := by
  delta kernelRun0_A.sl.r_180
  simp only [k0_pay368_apply c arg1 harg1 arg2 harg2 x0 x1]

theorem k0_pay371_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay371 (F := Ideal) (kernelRun0_A.sl.v2 c arg1 harg1 x0) (ix1 n) = Rw x0 n 15 1 0 := by
  unfold k0_pay371
  simp only [shapeCast_1a_a_apply, slice_row 138 (138 : Fin 198) rfl, v2_apply c arg1 harg1 arg2 harg2 x0 x1, Rw_eq x0 n 15 1 0 (138 : Fin 198) (by decide)]

theorem r_183_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_183 c arg1 harg1 x0 (ix1 n) = Rw x0 n 15 1 0 := by
  delta kernelRun0_A.sl.r_183
  simp only [k0_pay371_apply c arg1 harg1 arg2 harg2 x0 x1]

theorem k0_pay375_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay375 (F := Ideal) (kernelRun0_A.sl.v2 c arg1 harg1 x0) (ix1 n) = Rw x0 n 15 2 0 := by
  unfold k0_pay375
  simp only [shapeCast_1a_a_apply, slice_row 141 (141 : Fin 198) rfl, v2_apply c arg1 harg1 arg2 harg2 x0 x1, Rw_eq x0 n 15 2 0 (141 : Fin 198) (by decide)]

theorem k0_pay384_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay384 (F := Ideal) (kernelRun0_A.sl.v2 c arg1 harg1 x0) (kernelRun0_A.sl.r_137 c arg1 harg1 x0) (kernelRun0_A.sl.r_138 c arg1 harg1 x0) (kernelRun0_A.sl.r_139 c arg1 harg1 x0) (kernelRun0_A.sl.r_180 c arg1 harg1 x0) (kernelRun0_A.sl.r_183 c arg1 harg1 x0) (ix1 n) = Cn x0 x1 n 15 2 0 := by
  refine Eq.trans ?_ (Cn_step x0 x1 n 15 12 (by decide) rfl (by decide) 2 0).symm
  unfold k0_pay384
  simp only [addf_apply, mulf_apply, r_137_apply c arg1 harg1 arg2 harg2 x0 x1, r_180_apply c arg1 harg1 arg2 harg2 x0 x1, r_138_apply c arg1 harg1 arg2 harg2 x0 x1, r_183_apply c arg1 harg1 arg2 harg2 x0 x1, r_139_apply c arg1 harg1 arg2 harg2 x0 x1, k0_pay375_apply c arg1 harg1 arg2 harg2 x0 x1]

theorem r_191_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_191 c arg1 harg1 x0 (ix1 n) = Cn x0 x1 n 15 2 0 := by
  delta kernelRun0_A.sl.r_191
  simp only [k0_pay384_apply c arg1 harg1 arg2 harg2 x0 x1]

theorem k0_pay369_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay369 (F := Ideal) (kernelRun0_A.sl.v2 c arg1 harg1 x0) (ix1 n) = Rw x0 n 15 0 1 := by
  unfold k0_pay369
  simp only [shapeCast_1a_a_apply, slice_row 136 (136 : Fin 198) rfl, v2_apply c arg1 harg1 arg2 harg2 x0 x1, Rw_eq x0 n 15 0 1 (136 : Fin 198) (by decide)]

theorem r_181_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_181 c arg1 harg1 x0 (ix1 n) = Rw x0 n 15 0 1 := by
  delta kernelRun0_A.sl.r_181
  simp only [k0_pay369_apply c arg1 harg1 arg2 harg2 x0 x1]

theorem k0_pay372_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay372 (F := Ideal) (kernelRun0_A.sl.v2 c arg1 harg1 x0) (ix2 u n) = Rw x0 n 15 1 1 := by
  unfold k0_pay372
  simp only [slice_row 139 (139 : Fin 198) rfl, v2_apply c arg1 harg1 arg2 harg2 x0 x1, Rw_eq x0 n 15 1 1 (139 : Fin 198) (by decide)]

theorem r_184_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_184 c arg1 harg1 x0 (ix2 u n) = Rw x0 n 15 1 1 := by
  delta kernelRun0_A.sl.r_184
  simp only [k0_pay372_apply c arg1 harg1 arg2 harg2 x0 x1]

theorem k0_pay373_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay373 (F := Ideal) (kernelRun0_A.sl.r_184 c arg1 harg1 x0) (ix1 n) = Rw x0 n 15 1 1 := by
  unfold k0_pay373
  simp only [shapeCast_1a_a_apply, r_184_apply c arg1 harg1 arg2 harg2 x0 x1]

theorem k0_pay376_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay376 (F := Ideal) (kernelRun0_A.sl.v2 c arg1 harg1 x0) (ix1 n) = Rw x0 n 15 2 1 := by
  unfold k0_pay376
  simp only [shapeCast_1a_a_apply, slice_row 142 (142 : Fin 198) rfl, v2_apply c arg1 harg1 arg2 harg2 x0 x1, Rw_eq x0 n 15 2 1 (142 : Fin 198) (by decide)]

theorem k0_pay385_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay385 (F := Ideal) (kernelRun0_A.sl.v2 c arg1 harg1 x0) (kernelRun0_A.sl.r_137 c arg1 harg1 x0) (kernelRun0_A.sl.r_138 c arg1 harg1 x0) (kernelRun0_A.sl.r_139 c arg1 harg1 x0) (kernelRun0_A.sl.r_181 c arg1 harg1 x0) (kernelRun0_A.sl.r_184 c arg1 harg1 x0) (ix1 n) = Cn x0 x1 n 15 2 1 := by
  refine Eq.trans ?_ (Cn_step x0 x1 n 15 12 (by decide) rfl (by decide) 2 1).symm
  unfold k0_pay385
  simp only [addf_apply, mulf_apply, r_137_apply c arg1 harg1 arg2 harg2 x0 x1, r_181_apply c arg1 harg1 arg2 harg2 x0 x1, r_138_apply c arg1 harg1 arg2 harg2 x0 x1, k0_pay373_apply c arg1 harg1 arg2 harg2 x0 x1, r_139_apply c arg1 harg1 arg2 harg2 x0 x1, k0_pay376_apply c arg1 harg1 arg2 harg2 x0 x1]

theorem r_192_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_192 c arg1 harg1 x0 (ix1 n) = Cn x0 x1 n 15 2 1 := by
  delta kernelRun0_A.sl.r_192
  simp only [k0_pay385_apply c arg1 harg1 arg2 harg2 x0 x1]

theorem k0_pay370_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay370 (F := Ideal) (kernelRun0_A.sl.v2 c arg1 harg1 x0) (ix1 n) = Rw x0 n 15 0 2 := by
  unfold k0_pay370
  simp only [shapeCast_1a_a_apply, slice_row 137 (137 : Fin 198) rfl, v2_apply c arg1 harg1 arg2 harg2 x0 x1, Rw_eq x0 n 15 0 2 (137 : Fin 198) (by decide)]

theorem r_182_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_182 c arg1 harg1 x0 (ix1 n) = Rw x0 n 15 0 2 := by
  delta kernelRun0_A.sl.r_182
  simp only [k0_pay370_apply c arg1 harg1 arg2 harg2 x0 x1]

theorem k0_pay374_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay374 (F := Ideal) (kernelRun0_A.sl.v2 c arg1 harg1 x0) (ix1 n) = Rw x0 n 15 1 2 := by
  unfold k0_pay374
  simp only [shapeCast_1a_a_apply, slice_row 140 (140 : Fin 198) rfl, v2_apply c arg1 harg1 arg2 harg2 x0 x1, Rw_eq x0 n 15 1 2 (140 : Fin 198) (by decide)]

theorem k0_pay377_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay377 (F := Ideal) (kernelRun0_A.sl.v2 c arg1 harg1 x0) (ix1 n) = Rw x0 n 15 2 2 := by
  unfold k0_pay377
  simp only [shapeCast_1a_a_apply, slice_row 143 (143 : Fin 198) rfl, v2_apply c arg1 harg1 arg2 harg2 x0 x1, Rw_eq x0 n 15 2 2 (143 : Fin 198) (by decide)]

theorem k0_pay386_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay386 (F := Ideal) (kernelRun0_A.sl.v2 c arg1 harg1 x0) (kernelRun0_A.sl.r_137 c arg1 harg1 x0) (kernelRun0_A.sl.r_138 c arg1 harg1 x0) (kernelRun0_A.sl.r_139 c arg1 harg1 x0) (kernelRun0_A.sl.r_182 c arg1 harg1 x0) (ix1 n) = Cn x0 x1 n 15 2 2 := by
  refine Eq.trans ?_ (Cn_step x0 x1 n 15 12 (by decide) rfl (by decide) 2 2).symm
  unfold k0_pay386
  simp only [addf_apply, mulf_apply, r_137_apply c arg1 harg1 arg2 harg2 x0 x1, r_182_apply c arg1 harg1 arg2 harg2 x0 x1, r_138_apply c arg1 harg1 arg2 harg2 x0 x1, k0_pay374_apply c arg1 harg1 arg2 harg2 x0 x1, r_139_apply c arg1 harg1 arg2 harg2 x0 x1, k0_pay377_apply c arg1 harg1 arg2 harg2 x0 x1]

theorem r_193_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_193 c arg1 harg1 x0 (ix1 n) = Cn x0 x1 n 15 2 2 := by
  delta kernelRun0_A.sl.r_193
  simp only [k0_pay386_apply c arg1 harg1 arg2 harg2 x0 x1]

theorem k0_pay303_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay303 (F := Ideal) (View.readAt (Elt Ideal) arg2.view (Rect.unit (s := S3x55) ![0, 12] S1x1.size inb_S3x55_S1x1_0_12).toLoadRect (harg2.unread x1)) = Of x1 12 0 := by
  unfold k0_pay303
  simp only [rel_read x1 arg2 harg2 0 12 (0 : Fin 3) rfl (by decide)]

theorem r_140_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_140 c arg2 harg2 x1 = Of x1 12 0 := by
  delta kernelRun0_A.sl.r_140
  simp only [k0_pay303_apply c arg1 harg1 arg2 harg2 x0 x1]

theorem k0_pay304_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay304 (F := Ideal) (View.readAt (Elt Ideal) arg2.view (Rect.unit (s := S3x55) ![1, 12] S1x1.size inb_S3x55_S1x1_1_12).toLoadRect (harg2.unread x1)) = Of x1 12 1 := by
  unfold k0_pay304
  simp only [rel_read x1 arg2 harg2 1 12 (1 : Fin 3) rfl (by decide)]

theorem k0_pay305_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay305 (F := Ideal) (View.readAt (Elt Ideal) arg2.view (Rect.unit (s := S3x55) ![2, 12] S1x1.size inb_S3x55_S1x1_2_12).toLoadRect (harg2.unread x1)) = Of x1 12 2 := by
  unfold k0_pay305
  simp only [rel_read x1 arg2 harg2 2 12 (2 : Fin 3) rfl (by decide)]

theorem k0_pay308_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay308 (F := Ideal) (kernelRun0_A.sl.r_118 c arg1 harg1 x0) (kernelRun0_A.sl.r_119 c arg1 harg1 x0) (kernelRun0_A.sl.r_120 c arg1 harg1 x0) (kernelRun0_A.sl.r_123 c arg1 harg1 arg2 harg2 x0 x1) (kernelRun0_A.sl.r_140 c arg2 harg2 x1) (View.readAt (Elt Ideal) arg2.view (Rect.unit (s := S3x55) ![1, 12] S1x1.size inb_S3x55_S1x1_1_12).toLoadRect (harg2.unread x1)) (View.readAt (Elt Ideal) arg2.view (Rect.unit (s := S3x55) ![2, 12] S1x1.size inb_S3x55_S1x1_2_12).toLoadRect (harg2.unread x1)) (ix1 n) = Pn x0 x1 n 12 2 := by
  refine Eq.trans ?_ (Pn_step x0 x1 n 12 9 (by decide) rfl 2).symm
  unfold k0_pay308
  simp only [addf_apply, mulf_apply, r_118_apply c arg1 harg1 arg2 harg2 x0 x1, broadcast_apply, r_140_apply c arg1 harg1 arg2 harg2 x0 x1, r_119_apply c arg1 harg1 arg2 harg2 x0 x1, k0_pay304_apply c arg1 harg1 arg2 harg2 x0 x1, r_120_apply c arg1 harg1 arg2 harg2 x0 x1, k0_pay305_apply c arg1 harg1 arg2 harg2 x0 x1, r_123_apply c arg1 harg1 arg2 harg2 x0 x1]

theorem r_143_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_143 c arg1 harg1 arg2 harg2 x0 x1 (ix1 n) = Pn x0 x1 n 12 2 := by
  delta kernelRun0_A.sl.r_143
  simp only [k0_pay308_apply c arg1 harg1 arg2 harg2 x0 x1]

theorem k0_pay387_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay387 (F := Ideal) (View.readAt (Elt Ideal) arg2.view (Rect.unit (s := S3x55) ![0, 15] S1x1.size inb_S3x55_S1x1_0_15).toLoadRect (harg2.unread x1)) = Of x1 15 0 := by
  unfold k0_pay387
  simp only [rel_read x1 arg2 harg2 0 15 (0 : Fin 3) rfl (by decide)]

theorem r_194_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_194 c arg2 harg2 x1 = Of x1 15 0 := by
  delta kernelRun0_A.sl.r_194
  simp only [k0_pay387_apply c arg1 harg1 arg2 harg2 x0 x1]

theorem k0_pay388_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay388 (F := Ideal) (View.readAt (Elt Ideal) arg2.view (Rect.unit (s := S3x55) ![1, 15] S1x1.size inb_S3x55_S1x1_1_15).toLoadRect (harg2.unread x1)) = Of x1 15 1 := by
  unfold k0_pay388
  simp only [rel_read x1 arg2 harg2 1 15 (1 : Fin 3) rfl (by decide)]

theorem k0_pay389_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay389 (F := Ideal) (View.readAt (Elt Ideal) arg2.view (Rect.unit (s := S3x55) ![2, 15] S1x1.size inb_S3x55_S1x1_2_15).toLoadRect (harg2.unread x1)) = Of x1 15 2 := by
  unfold k0_pay389
  simp only [rel_read x1 arg2 harg2 2 15 (2 : Fin 3) rfl (by decide)]

theorem k0_pay392_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay392 (F := Ideal) (kernelRun0_A.sl.r_137 c arg1 harg1 x0) (kernelRun0_A.sl.r_138 c arg1 harg1 x0) (kernelRun0_A.sl.r_139 c arg1 harg1 x0) (kernelRun0_A.sl.r_143 c arg1 harg1 arg2 harg2 x0 x1) (kernelRun0_A.sl.r_194 c arg2 harg2 x1) (View.readAt (Elt Ideal) arg2.view (Rect.unit (s := S3x55) ![1, 15] S1x1.size inb_S3x55_S1x1_1_15).toLoadRect (harg2.unread x1)) (View.readAt (Elt Ideal) arg2.view (Rect.unit (s := S3x55) ![2, 15] S1x1.size inb_S3x55_S1x1_2_15).toLoadRect (harg2.unread x1)) (ix1 n) = Pn x0 x1 n 15 2 := by
  refine Eq.trans ?_ (Pn_step x0 x1 n 15 12 (by decide) rfl 2).symm
  unfold k0_pay392
  simp only [addf_apply, mulf_apply, r_137_apply c arg1 harg1 arg2 harg2 x0 x1, broadcast_apply, r_194_apply c arg1 harg1 arg2 harg2 x0 x1, r_138_apply c arg1 harg1 arg2 harg2 x0 x1, k0_pay388_apply c arg1 harg1 arg2 harg2 x0 x1, r_139_apply c arg1 harg1 arg2 harg2 x0 x1, k0_pay389_apply c arg1 harg1 arg2 harg2 x0 x1, r_143_apply c arg1 harg1 arg2 harg2 x0 x1]

theorem r_197_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_197 c arg1 harg1 arg2 harg2 x0 x1 (ix1 n) = Pn x0 x1 n 15 2 := by
  delta kernelRun0_A.sl.r_197
  simp only [k0_pay392_apply c arg1 harg1 arg2 harg2 x0 x1]

theorem k0_pay576_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay576 (F := Ideal) (View.readAt (Elt Ideal) arg2.view (Rect.unit (s := S3x55) ![0, 24] S1x1.size inb_S3x55_S1x1_0_24).toLoadRect (harg2.unread x1)) = Of x1 24 0 := by
  unfold k0_pay576
  simp only [rel_read x1 arg2 harg2 0 24 (0 : Fin 3) rfl (by decide)]

theorem r_311_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_311 c arg2 harg2 x1 = Of x1 24 0 := by
  delta kernelRun0_A.sl.r_311
  simp only [k0_pay576_apply c arg1 harg1 arg2 harg2 x0 x1]

theorem k0_pay577_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay577 (F := Ideal) (View.readAt (Elt Ideal) arg2.view (Rect.unit (s := S3x55) ![1, 24] S1x1.size inb_S3x55_S1x1_1_24).toLoadRect (harg2.unread x1)) = Of x1 24 1 := by
  unfold k0_pay577
  simp only [rel_read x1 arg2 harg2 1 24 (1 : Fin 3) rfl (by decide)]

theorem r_312_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_312 c arg2 harg2 x1 = Of x1 24 1 := by
  delta kernelRun0_A.sl.r_312
  simp only [k0_pay577_apply c arg1 harg1 arg2 harg2 x0 x1]

theorem k0_pay578_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay578 (F := Ideal) (View.readAt (Elt Ideal) arg2.view (Rect.unit (s := S3x55) ![2, 24] S1x1.size inb_S3x55_S1x1_2_24).toLoadRect (harg2.unread x1)) = Of x1 24 2 := by
  unfold k0_pay578
  simp only [rel_read x1 arg2 harg2 2 24 (2 : Fin 3) rfl (by decide)]

theorem r_313_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_313 c arg2 harg2 x1 = Of x1 24 2 := by
  delta kernelRun0_A.sl.r_313
  simp only [k0_pay578_apply c arg1 harg1 arg2 harg2 x0 x1]

theorem k0_pay583_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay583 (F := Ideal) (kernelRun0_A.sl.r_191 c arg1 harg1 x0) (kernelRun0_A.sl.r_192 c arg1 harg1 x0) (kernelRun0_A.sl.r_193 c arg1 harg1 x0) (kernelRun0_A.sl.r_197 c arg1 harg1 arg2 harg2 x0 x1) (kernelRun0_A.sl.r_311 c arg2 harg2 x1) (kernelRun0_A.sl.r_312 c arg2 harg2 x1) (kernelRun0_A.sl.r_313 c arg2 harg2 x1) (ix2 u n) = Pn x0 x1 n 24 2 := by
  refine Eq.trans ?_ (Pn_step x0 x1 n 24 15 (by decide) rfl 2).symm
  unfold k0_pay583
  simp only [shapeCast_a_1a_apply, addf_apply, mulf_apply, r_191_apply c arg1 harg1 arg2 harg2 x0 x1, broadcast_apply, r_311_apply c arg1 harg1 arg2 harg2 x0 x1, r_192_apply c arg1 harg1 arg2 harg2 x0 x1, r_312_apply c arg1 harg1 arg2 harg2 x0 x1, r_193_apply c arg1 harg1 arg2 harg2 x0 x1, r_313_apply c arg1 harg1 arg2 harg2 x0 x1, r_197_apply c arg1 harg1 arg2 harg2 x0 x1]

theorem k0_pay297_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay297 (F := Ideal) (kernelRun0_A.sl.v2 c arg1 harg1 x0) (kernelRun0_A.sl.r_115 c arg1 harg1 x0) (kernelRun0_A.sl.r_116 c arg1 harg1 x0) (kernelRun0_A.sl.r_117 c arg1 harg1 x0) (kernelRun0_A.sl.r_126 c arg1 harg1 x0) (kernelRun0_A.sl.r_129 c arg1 harg1 x0) (ix1 n) = Cn x0 x1 n 12 1 0 := by
  refine Eq.trans ?_ (Cn_step x0 x1 n 12 9 (by decide) rfl (by decide) 1 0).symm
  unfold k0_pay297
  simp only [addf_apply, mulf_apply, r_115_apply c arg1 harg1 arg2 harg2 x0 x1, r_126_apply c arg1 harg1 arg2 harg2 x0 x1, r_116_apply c arg1 harg1 arg2 harg2 x0 x1, r_129_apply c arg1 harg1 arg2 harg2 x0 x1, r_117_apply c arg1 harg1 arg2 harg2 x0 x1, k0_pay291_apply c arg1 harg1 arg2 harg2 x0 x1]

theorem r_134_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_134 c arg1 harg1 x0 (ix1 n) = Cn x0 x1 n 12 1 0 := by
  delta kernelRun0_A.sl.r_134
  simp only [k0_pay297_apply c arg1 harg1 arg2 harg2 x0 x1]

theorem k0_pay298_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay298 (F := Ideal) (kernelRun0_A.sl.v2 c arg1 harg1 x0) (kernelRun0_A.sl.r_115 c arg1 harg1 x0) (kernelRun0_A.sl.r_116 c arg1 harg1 x0) (kernelRun0_A.sl.r_117 c arg1 harg1 x0) (kernelRun0_A.sl.r_127 c arg1 harg1 x0) (kernelRun0_A.sl.r_130 c arg1 harg1 x0) (ix1 n) = Cn x0 x1 n 12 1 1 := by
  refine Eq.trans ?_ (Cn_step x0 x1 n 12 9 (by decide) rfl (by decide) 1 1).symm
  unfold k0_pay298
  simp only [addf_apply, mulf_apply, r_115_apply c arg1 harg1 arg2 harg2 x0 x1, r_127_apply c arg1 harg1 arg2 harg2 x0 x1, r_116_apply c arg1 harg1 arg2 harg2 x0 x1, k0_pay289_apply c arg1 harg1 arg2 harg2 x0 x1, r_117_apply c arg1 harg1 arg2 harg2 x0 x1, k0_pay292_apply c arg1 harg1 arg2 harg2 x0 x1]

theorem r_135_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_135 c arg1 harg1 x0 (ix1 n) = Cn x0 x1 n 12 1 1 := by
  delta kernelRun0_A.sl.r_135
  simp only [k0_pay298_apply c arg1 harg1 arg2 harg2 x0 x1]

theorem k0_pay299_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay299 (F := Ideal) (kernelRun0_A.sl.v2 c arg1 harg1 x0) (kernelRun0_A.sl.r_115 c arg1 harg1 x0) (kernelRun0_A.sl.r_116 c arg1 harg1 x0) (kernelRun0_A.sl.r_117 c arg1 harg1 x0) (kernelRun0_A.sl.r_128 c arg1 harg1 x0) (ix1 n) = Cn x0 x1 n 12 1 2 := by
  refine Eq.trans ?_ (Cn_step x0 x1 n 12 9 (by decide) rfl (by decide) 1 2).symm
  unfold k0_pay299
  simp only [addf_apply, mulf_apply, r_115_apply c arg1 harg1 arg2 harg2 x0 x1, r_128_apply c arg1 harg1 arg2 harg2 x0 x1, r_116_apply c arg1 harg1 arg2 harg2 x0 x1, k0_pay290_apply c arg1 harg1 arg2 harg2 x0 x1, r_117_apply c arg1 harg1 arg2 harg2 x0 x1, k0_pay293_apply c arg1 harg1 arg2 harg2 x0 x1]

theorem r_136_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_136 c arg1 harg1 x0 (ix1 n) = Cn x0 x1 n 12 1 2 := by
  delta kernelRun0_A.sl.r_136
  simp only [k0_pay299_apply c arg1 harg1 arg2 harg2 x0 x1]

theorem k0_pay381_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay381 (F := Ideal) (kernelRun0_A.sl.v2 c arg1 harg1 x0) (kernelRun0_A.sl.r_134 c arg1 harg1 x0) (kernelRun0_A.sl.r_135 c arg1 harg1 x0) (kernelRun0_A.sl.r_136 c arg1 harg1 x0) (kernelRun0_A.sl.r_180 c arg1 harg1 x0) (kernelRun0_A.sl.r_183 c arg1 harg1 x0) (ix1 n) = Cn x0 x1 n 15 1 0 := by
  refine Eq.trans ?_ (Cn_step x0 x1 n 15 12 (by decide) rfl (by decide) 1 0).symm
  unfold k0_pay381
  simp only [addf_apply, mulf_apply, r_134_apply c arg1 harg1 arg2 harg2 x0 x1, r_180_apply c arg1 harg1 arg2 harg2 x0 x1, r_135_apply c arg1 harg1 arg2 harg2 x0 x1, r_183_apply c arg1 harg1 arg2 harg2 x0 x1, r_136_apply c arg1 harg1 arg2 harg2 x0 x1, k0_pay375_apply c arg1 harg1 arg2 harg2 x0 x1]

theorem r_188_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_188 c arg1 harg1 x0 (ix1 n) = Cn x0 x1 n 15 1 0 := by
  delta kernelRun0_A.sl.r_188
  simp only [k0_pay381_apply c arg1 harg1 arg2 harg2 x0 x1]

theorem k0_pay382_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay382 (F := Ideal) (kernelRun0_A.sl.v2 c arg1 harg1 x0) (kernelRun0_A.sl.r_134 c arg1 harg1 x0) (kernelRun0_A.sl.r_135 c arg1 harg1 x0) (kernelRun0_A.sl.r_136 c arg1 harg1 x0) (kernelRun0_A.sl.r_181 c arg1 harg1 x0) (kernelRun0_A.sl.r_184 c arg1 harg1 x0) (ix1 n) = Cn x0 x1 n 15 1 1 := by
  refine Eq.trans ?_ (Cn_step x0 x1 n 15 12 (by decide) rfl (by decide) 1 1).symm
  unfold k0_pay382
  simp only [addf_apply, mulf_apply, r_134_apply c arg1 harg1 arg2 harg2 x0 x1, r_181_apply c arg1 harg1 arg2 harg2 x0 x1, r_135_apply c arg1 harg1 arg2 harg2 x0 x1, k0_pay373_apply c arg1 harg1 arg2 harg2 x0 x1, r_136_apply c arg1 harg1 arg2 harg2 x0 x1, k0_pay376_apply c arg1 harg1 arg2 harg2 x0 x1]

theorem r_189_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_189 c arg1 harg1 x0 (ix1 n) = Cn x0 x1 n 15 1 1 := by
  delta kernelRun0_A.sl.r_189
  simp only [k0_pay382_apply c arg1 harg1 arg2 harg2 x0 x1]

theorem k0_pay383_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay383 (F := Ideal) (kernelRun0_A.sl.v2 c arg1 harg1 x0) (kernelRun0_A.sl.r_134 c arg1 harg1 x0) (kernelRun0_A.sl.r_135 c arg1 harg1 x0) (kernelRun0_A.sl.r_136 c arg1 harg1 x0) (kernelRun0_A.sl.r_182 c arg1 harg1 x0) (ix1 n) = Cn x0 x1 n 15 1 2 := by
  refine Eq.trans ?_ (Cn_step x0 x1 n 15 12 (by decide) rfl (by decide) 1 2).symm
  unfold k0_pay383
  simp only [addf_apply, mulf_apply, r_134_apply c arg1 harg1 arg2 harg2 x0 x1, r_182_apply c arg1 harg1 arg2 harg2 x0 x1, r_135_apply c arg1 harg1 arg2 harg2 x0 x1, k0_pay374_apply c arg1 harg1 arg2 harg2 x0 x1, r_136_apply c arg1 harg1 arg2 harg2 x0 x1, k0_pay377_apply c arg1 harg1 arg2 harg2 x0 x1]

theorem r_190_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_190 c arg1 harg1 x0 (ix1 n) = Cn x0 x1 n 15 1 2 := by
  delta kernelRun0_A.sl.r_190
  simp only [k0_pay383_apply c arg1 harg1 arg2 harg2 x0 x1]

theorem k0_pay307_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay307 (F := Ideal) (kernelRun0_A.sl.r_115 c arg1 harg1 x0) (kernelRun0_A.sl.r_116 c arg1 harg1 x0) (kernelRun0_A.sl.r_117 c arg1 harg1 x0) (kernelRun0_A.sl.r_122 c arg1 harg1 arg2 harg2 x0 x1) (kernelRun0_A.sl.r_140 c arg2 harg2 x1) (View.readAt (Elt Ideal) arg2.view (Rect.unit (s := S3x55) ![1, 12] S1x1.size inb_S3x55_S1x1_1_12).toLoadRect (harg2.unread x1)) (View.readAt (Elt Ideal) arg2.view (Rect.unit (s := S3x55) ![2, 12] S1x1.size inb_S3x55_S1x1_2_12).toLoadRect (harg2.unread x1)) (ix1 n) = Pn x0 x1 n 12 1 := by
  refine Eq.trans ?_ (Pn_step x0 x1 n 12 9 (by decide) rfl 1).symm
  unfold k0_pay307
  simp only [addf_apply, mulf_apply, r_115_apply c arg1 harg1 arg2 harg2 x0 x1, broadcast_apply, r_140_apply c arg1 harg1 arg2 harg2 x0 x1, r_116_apply c arg1 harg1 arg2 harg2 x0 x1, k0_pay304_apply c arg1 harg1 arg2 harg2 x0 x1, r_117_apply c arg1 harg1 arg2 harg2 x0 x1, k0_pay305_apply c arg1 harg1 arg2 harg2 x0 x1, r_122_apply c arg1 harg1 arg2 harg2 x0 x1]

theorem r_142_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_142 c arg1 harg1 arg2 harg2 x0 x1 (ix1 n) = Pn x0 x1 n 12 1 := by
  delta kernelRun0_A.sl.r_142
  simp only [k0_pay307_apply c arg1 harg1 arg2 harg2 x0 x1]

theorem k0_pay391_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay391 (F := Ideal) (kernelRun0_A.sl.r_134 c arg1 harg1 x0) (kernelRun0_A.sl.r_135 c arg1 harg1 x0) (kernelRun0_A.sl.r_136 c arg1 harg1 x0) (kernelRun0_A.sl.r_142 c arg1 harg1 arg2 harg2 x0 x1) (kernelRun0_A.sl.r_194 c arg2 harg2 x1) (View.readAt (Elt Ideal) arg2.view (Rect.unit (s := S3x55) ![1, 15] S1x1.size inb_S3x55_S1x1_1_15).toLoadRect (harg2.unread x1)) (View.readAt (Elt Ideal) arg2.view (Rect.unit (s := S3x55) ![2, 15] S1x1.size inb_S3x55_S1x1_2_15).toLoadRect (harg2.unread x1)) (ix1 n) = Pn x0 x1 n 15 1 := by
  refine Eq.trans ?_ (Pn_step x0 x1 n 15 12 (by decide) rfl 1).symm
  unfold k0_pay391
  simp only [addf_apply, mulf_apply, r_134_apply c arg1 harg1 arg2 harg2 x0 x1, broadcast_apply, r_194_apply c arg1 harg1 arg2 harg2 x0 x1, r_135_apply c arg1 harg1 arg2 harg2 x0 x1, k0_pay388_apply c arg1 harg1 arg2 harg2 x0 x1, r_136_apply c arg1 harg1 arg2 harg2 x0 x1, k0_pay389_apply c arg1 harg1 arg2 harg2 x0 x1, r_142_apply c arg1 harg1 arg2 harg2 x0 x1]

theorem r_196_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_196 c arg1 harg1 arg2 harg2 x0 x1 (ix1 n) = Pn x0 x1 n 15 1 := by
  delta kernelRun0_A.sl.r_196
  simp only [k0_pay391_apply c arg1 harg1 arg2 harg2 x0 x1]

theorem k0_pay582_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay582 (F := Ideal) (kernelRun0_A.sl.r_188 c arg1 harg1 x0) (kernelRun0_A.sl.r_189 c arg1 harg1 x0) (kernelRun0_A.sl.r_190 c arg1 harg1 x0) (kernelRun0_A.sl.r_196 c arg1 harg1 arg2 harg2 x0 x1) (kernelRun0_A.sl.r_311 c arg2 harg2 x1) (kernelRun0_A.sl.r_312 c arg2 harg2 x1) (kernelRun0_A.sl.r_313 c arg2 harg2 x1) (ix2 u n) = Pn x0 x1 n 24 1 := by
  refine Eq.trans ?_ (Pn_step x0 x1 n 24 15 (by decide) rfl 1).symm
  unfold k0_pay582
  simp only [shapeCast_a_1a_apply, addf_apply, mulf_apply, r_188_apply c arg1 harg1 arg2 harg2 x0 x1, broadcast_apply, r_311_apply c arg1 harg1 arg2 harg2 x0 x1, r_189_apply c arg1 harg1 arg2 harg2 x0 x1, r_312_apply c arg1 harg1 arg2 harg2 x0 x1, r_190_apply c arg1 harg1 arg2 harg2 x0 x1, r_313_apply c arg1 harg1 arg2 harg2 x0 x1, r_196_apply c arg1 harg1 arg2 harg2 x0 x1]

theorem k0_pay294_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay294 (F := Ideal) (kernelRun0_A.sl.v2 c arg1 harg1 x0) (kernelRun0_A.sl.r_112 c arg1 harg1 x0) (kernelRun0_A.sl.r_113 c arg1 harg1 x0) (kernelRun0_A.sl.r_114 c arg1 harg1 x0) (kernelRun0_A.sl.r_126 c arg1 harg1 x0) (kernelRun0_A.sl.r_129 c arg1 harg1 x0) (ix1 n) = Cn x0 x1 n 12 0 0 := by
  refine Eq.trans ?_ (Cn_step x0 x1 n 12 9 (by decide) rfl (by decide) 0 0).symm
  unfold k0_pay294
  simp only [addf_apply, mulf_apply, r_112_apply c arg1 harg1 arg2 harg2 x0 x1, r_126_apply c arg1 harg1 arg2 harg2 x0 x1, r_113_apply c arg1 harg1 arg2 harg2 x0 x1, r_129_apply c arg1 harg1 arg2 harg2 x0 x1, r_114_apply c arg1 harg1 arg2 harg2 x0 x1, k0_pay291_apply c arg1 harg1 arg2 harg2 x0 x1]

theorem r_131_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_131 c arg1 harg1 x0 (ix1 n) = Cn x0 x1 n 12 0 0 := by
  delta kernelRun0_A.sl.r_131
  simp only [k0_pay294_apply c arg1 harg1 arg2 harg2 x0 x1]

theorem k0_pay295_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay295 (F := Ideal) (kernelRun0_A.sl.v2 c arg1 harg1 x0) (kernelRun0_A.sl.r_112 c arg1 harg1 x0) (kernelRun0_A.sl.r_113 c arg1 harg1 x0) (kernelRun0_A.sl.r_114 c arg1 harg1 x0) (kernelRun0_A.sl.r_127 c arg1 harg1 x0) (kernelRun0_A.sl.r_130 c arg1 harg1 x0) (ix1 n) = Cn x0 x1 n 12 0 1 := by
  refine Eq.trans ?_ (Cn_step x0 x1 n 12 9 (by decide) rfl (by decide) 0 1).symm
  unfold k0_pay295
  simp only [addf_apply, mulf_apply, r_112_apply c arg1 harg1 arg2 harg2 x0 x1, r_127_apply c arg1 harg1 arg2 harg2 x0 x1, r_113_apply c arg1 harg1 arg2 harg2 x0 x1, k0_pay289_apply c arg1 harg1 arg2 harg2 x0 x1, r_114_apply c arg1 harg1 arg2 harg2 x0 x1, k0_pay292_apply c arg1 harg1 arg2 harg2 x0 x1]

theorem r_132_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_132 c arg1 harg1 x0 (ix1 n) = Cn x0 x1 n 12 0 1 := by
  delta kernelRun0_A.sl.r_132
  simp only [k0_pay295_apply c arg1 harg1 arg2 harg2 x0 x1]

theorem k0_pay296_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay296 (F := Ideal) (kernelRun0_A.sl.v2 c arg1 harg1 x0) (kernelRun0_A.sl.r_112 c arg1 harg1 x0) (kernelRun0_A.sl.r_113 c arg1 harg1 x0) (kernelRun0_A.sl.r_114 c arg1 harg1 x0) (kernelRun0_A.sl.r_128 c arg1 harg1 x0) (ix1 n) = Cn x0 x1 n 12 0 2 := by
  refine Eq.trans ?_ (Cn_step x0 x1 n 12 9 (by decide) rfl (by decide) 0 2).symm
  unfold k0_pay296
  simp only [addf_apply, mulf_apply, r_112_apply c arg1 harg1 arg2 harg2 x0 x1, r_128_apply c arg1 harg1 arg2 harg2 x0 x1, r_113_apply c arg1 harg1 arg2 harg2 x0 x1, k0_pay290_apply c arg1 harg1 arg2 harg2 x0 x1, r_114_apply c arg1 harg1 arg2 harg2 x0 x1, k0_pay293_apply c arg1 harg1 arg2 harg2 x0 x1]

theorem r_133_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_133 c arg1 harg1 x0 (ix1 n) = Cn x0 x1 n 12 0 2 := by
  delta kernelRun0_A.sl.r_133
  simp only [k0_pay296_apply c arg1 harg1 arg2 harg2 x0 x1]

theorem k0_pay379_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay379 (F := Ideal) (kernelRun0_A.sl.v2 c arg1 harg1 x0) (kernelRun0_A.sl.r_131 c arg1 harg1 x0) (kernelRun0_A.sl.r_132 c arg1 harg1 x0) (kernelRun0_A.sl.r_133 c arg1 harg1 x0) (kernelRun0_A.sl.r_181 c arg1 harg1 x0) (kernelRun0_A.sl.r_184 c arg1 harg1 x0) (ix1 n) = Cn x0 x1 n 15 0 1 := by
  refine Eq.trans ?_ (Cn_step x0 x1 n 15 12 (by decide) rfl (by decide) 0 1).symm
  unfold k0_pay379
  simp only [addf_apply, mulf_apply, r_131_apply c arg1 harg1 arg2 harg2 x0 x1, r_181_apply c arg1 harg1 arg2 harg2 x0 x1, r_132_apply c arg1 harg1 arg2 harg2 x0 x1, k0_pay373_apply c arg1 harg1 arg2 harg2 x0 x1, r_133_apply c arg1 harg1 arg2 harg2 x0 x1, k0_pay376_apply c arg1 harg1 arg2 harg2 x0 x1]

theorem r_186_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_186 c arg1 harg1 x0 (ix1 n) = Cn x0 x1 n 15 0 1 := by
  delta kernelRun0_A.sl.r_186
  simp only [k0_pay379_apply c arg1 harg1 arg2 harg2 x0 x1]

theorem k0_pay380_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay380 (F := Ideal) (kernelRun0_A.sl.v2 c arg1 harg1 x0) (kernelRun0_A.sl.r_131 c arg1 harg1 x0) (kernelRun0_A.sl.r_132 c arg1 harg1 x0) (kernelRun0_A.sl.r_133 c arg1 harg1 x0) (kernelRun0_A.sl.r_182 c arg1 harg1 x0) (ix1 n) = Cn x0 x1 n 15 0 2 := by
  refine Eq.trans ?_ (Cn_step x0 x1 n 15 12 (by decide) rfl (by decide) 0 2).symm
  unfold k0_pay380
  simp only [addf_apply, mulf_apply, r_131_apply c arg1 harg1 arg2 harg2 x0 x1, r_182_apply c arg1 harg1 arg2 harg2 x0 x1, r_132_apply c arg1 harg1 arg2 harg2 x0 x1, k0_pay374_apply c arg1 harg1 arg2 harg2 x0 x1, r_133_apply c arg1 harg1 arg2 harg2 x0 x1, k0_pay377_apply c arg1 harg1 arg2 harg2 x0 x1]

theorem r_187_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_187 c arg1 harg1 x0 (ix1 n) = Cn x0 x1 n 15 0 2 := by
  delta kernelRun0_A.sl.r_187
  simp only [k0_pay380_apply c arg1 harg1 arg2 harg2 x0 x1]

theorem k0_pay306_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay306 (F := Ideal) (kernelRun0_A.sl.r_112 c arg1 harg1 x0) (kernelRun0_A.sl.r_113 c arg1 harg1 x0) (kernelRun0_A.sl.r_114 c arg1 harg1 x0) (kernelRun0_A.sl.r_121 c arg1 harg1 arg2 harg2 x0 x1) (kernelRun0_A.sl.r_140 c arg2 harg2 x1) (View.readAt (Elt Ideal) arg2.view (Rect.unit (s := S3x55) ![1, 12] S1x1.size inb_S3x55_S1x1_1_12).toLoadRect (harg2.unread x1)) (View.readAt (Elt Ideal) arg2.view (Rect.unit (s := S3x55) ![2, 12] S1x1.size inb_S3x55_S1x1_2_12).toLoadRect (harg2.unread x1)) (ix1 n) = Pn x0 x1 n 12 0 := by
  refine Eq.trans ?_ (Pn_step x0 x1 n 12 9 (by decide) rfl 0).symm
  unfold k0_pay306
  simp only [addf_apply, mulf_apply, r_112_apply c arg1 harg1 arg2 harg2 x0 x1, broadcast_apply, r_140_apply c arg1 harg1 arg2 harg2 x0 x1, r_113_apply c arg1 harg1 arg2 harg2 x0 x1, k0_pay304_apply c arg1 harg1 arg2 harg2 x0 x1, r_114_apply c arg1 harg1 arg2 harg2 x0 x1, k0_pay305_apply c arg1 harg1 arg2 harg2 x0 x1, r_121_apply c arg1 harg1 arg2 harg2 x0 x1]

theorem r_141_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_141 c arg1 harg1 arg2 harg2 x0 x1 (ix1 n) = Pn x0 x1 n 12 0 := by
  delta kernelRun0_A.sl.r_141
  simp only [k0_pay306_apply c arg1 harg1 arg2 harg2 x0 x1]

theorem k0_pay390_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay390 (F := Ideal) (kernelRun0_A.sl.r_131 c arg1 harg1 x0) (kernelRun0_A.sl.r_132 c arg1 harg1 x0) (kernelRun0_A.sl.r_133 c arg1 harg1 x0) (kernelRun0_A.sl.r_141 c arg1 harg1 arg2 harg2 x0 x1) (kernelRun0_A.sl.r_194 c arg2 harg2 x1) (View.readAt (Elt Ideal) arg2.view (Rect.unit (s := S3x55) ![1, 15] S1x1.size inb_S3x55_S1x1_1_15).toLoadRect (harg2.unread x1)) (View.readAt (Elt Ideal) arg2.view (Rect.unit (s := S3x55) ![2, 15] S1x1.size inb_S3x55_S1x1_2_15).toLoadRect (harg2.unread x1)) (ix1 n) = Pn x0 x1 n 15 0 := by
  refine Eq.trans ?_ (Pn_step x0 x1 n 15 12 (by decide) rfl 0).symm
  unfold k0_pay390
  simp only [addf_apply, mulf_apply, r_131_apply c arg1 harg1 arg2 harg2 x0 x1, broadcast_apply, r_194_apply c arg1 harg1 arg2 harg2 x0 x1, r_132_apply c arg1 harg1 arg2 harg2 x0 x1, k0_pay388_apply c arg1 harg1 arg2 harg2 x0 x1, r_133_apply c arg1 harg1 arg2 harg2 x0 x1, k0_pay389_apply c arg1 harg1 arg2 harg2 x0 x1, r_141_apply c arg1 harg1 arg2 harg2 x0 x1]

theorem r_195_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_195 c arg1 harg1 arg2 harg2 x0 x1 (ix1 n) = Pn x0 x1 n 15 0 := by
  delta kernelRun0_A.sl.r_195
  simp only [k0_pay390_apply c arg1 harg1 arg2 harg2 x0 x1]

theorem k0_pay378_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay378 (F := Ideal) (kernelRun0_A.sl.v2 c arg1 harg1 x0) (kernelRun0_A.sl.r_131 c arg1 harg1 x0) (kernelRun0_A.sl.r_132 c arg1 harg1 x0) (kernelRun0_A.sl.r_133 c arg1 harg1 x0) (kernelRun0_A.sl.r_180 c arg1 harg1 x0) (kernelRun0_A.sl.r_183 c arg1 harg1 x0) (ix1 n) = Cn x0 x1 n 15 0 0 := by
  refine Eq.trans ?_ (Cn_step x0 x1 n 15 12 (by decide) rfl (by decide) 0 0).symm
  unfold k0_pay378
  simp only [addf_apply, mulf_apply, r_131_apply c arg1 harg1 arg2 harg2 x0 x1, r_180_apply c arg1 harg1 arg2 harg2 x0 x1, r_132_apply c arg1 harg1 arg2 harg2 x0 x1, r_183_apply c arg1 harg1 arg2 harg2 x0 x1, r_133_apply c arg1 harg1 arg2 harg2 x0 x1, k0_pay375_apply c arg1 harg1 arg2 harg2 x0 x1]

theorem r_185_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_185 c arg1 harg1 x0 (ix1 n) = Cn x0 x1 n 15 0 0 := by
  delta kernelRun0_A.sl.r_185
  simp only [k0_pay378_apply c arg1 harg1 arg2 harg2 x0 x1]

theorem k0_pay579_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay579 (F := Ideal) (kernelRun0_A.sl.r_185 c arg1 harg1 x0) (View.readAt (Elt Ideal) arg2.view (Rect.unit (s := S3x55) ![0, 24] S1x1.size inb_S3x55_S1x1_0_24).toLoadRect (harg2.unread x1)) (ix1 n) = (Cn x0 x1 n 15 0 0 * Of x1 24 0) := by
  unfold k0_pay579
  simp only [mulf_apply, r_185_apply c arg1 harg1 arg2 harg2 x0 x1, broadcast_apply, k0_pay576_apply c arg1 harg1 arg2 harg2 x0 x1]

theorem r_314_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_314 c arg1 harg1 arg2 harg2 x0 x1 (ix1 n) = (Cn x0 x1 n 15 0 0 * Of x1 24 0) := by
  delta kernelRun0_A.sl.r_314
  simp only [k0_pay579_apply c arg1 harg1 arg2 harg2 x0 x1]

theorem k0_pay580_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay580 (F := Ideal) (View.readAt (Elt Ideal) arg2.view (Rect.unit (s := S3x55) ![1, 24] S1x1.size inb_S3x55_S1x1_1_24).toLoadRect (harg2.unread x1)) (ix1 n) = Of x1 24 1 := by
  unfold k0_pay580
  simp only [broadcast_apply, k0_pay577_apply c arg1 harg1 arg2 harg2 x0 x1]

theorem r_315_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_315 c arg2 harg2 x1 (ix1 n) = Of x1 24 1 := by
  delta kernelRun0_A.sl.r_315
  simp only [k0_pay580_apply c arg1 harg1 arg2 harg2 x0 x1]

theorem k0_pay581_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay581 (F := Ideal) (kernelRun0_A.sl.r_186 c arg1 harg1 x0) (kernelRun0_A.sl.r_187 c arg1 harg1 x0) (kernelRun0_A.sl.r_195 c arg1 harg1 arg2 harg2 x0 x1) (kernelRun0_A.sl.r_313 c arg2 harg2 x1) (kernelRun0_A.sl.r_314 c arg1 harg1 arg2 harg2 x0 x1) (kernelRun0_A.sl.r_315 c arg2 harg2 x1) (ix2 u n) = Pn x0 x1 n 24 0 := by
  refine Eq.trans ?_ (Pn_step x0 x1 n 24 15 (by decide) rfl 0).symm
  unfold k0_pay581
  simp only [shapeCast_a_1a_apply, addf_apply, r_314_apply c arg1 harg1 arg2 harg2 x0 x1, mulf_apply, r_186_apply c arg1 harg1 arg2 harg2 x0 x1, r_315_apply c arg1 harg1 arg2 harg2 x0 x1, r_187_apply c arg1 harg1 arg2 harg2 x0 x1, broadcast_apply, r_313_apply c arg1 harg1 arg2 harg2 x0 x1, r_195_apply c arg1 harg1 arg2 harg2 x0 x1]

theorem k0_pay570_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay570 (F := Ideal) (View.readAt (Elt Ideal) arg2.view (Rect.unit (s := S3x55) ![0, 23] S1x1.size inb_S3x55_S1x1_0_23).toLoadRect (harg2.unread x1)) = Of x1 23 0 := by
  unfold k0_pay570
  simp only [rel_read x1 arg2 harg2 0 23 (0 : Fin 3) rfl (by decide)]

theorem r_308_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_308 c arg2 harg2 x1 = Of x1 23 0 := by
  delta kernelRun0_A.sl.r_308
  simp only [k0_pay570_apply c arg1 harg1 arg2 harg2 x0 x1]

theorem k0_pay571_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay571 (F := Ideal) (View.readAt (Elt Ideal) arg2.view (Rect.unit (s := S3x55) ![1, 23] S1x1.size inb_S3x55_S1x1_1_23).toLoadRect (harg2.unread x1)) = Of x1 23 1 := by
  unfold k0_pay571
  simp only [rel_read x1 arg2 harg2 1 23 (1 : Fin 3) rfl (by decide)]

theorem r_309_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_309 c arg2 harg2 x1 = Of x1 23 1 := by
  delta kernelRun0_A.sl.r_309
  simp only [k0_pay571_apply c arg1 harg1 arg2 harg2 x0 x1]

theorem k0_pay572_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay572 (F := Ideal) (View.readAt (Elt Ideal) arg2.view (Rect.unit (s := S3x55) ![2, 23] S1x1.size inb_S3x55_S1x1_2_23).toLoadRect (harg2.unread x1)) = Of x1 23 2 := by
  unfold k0_pay572
  simp only [rel_read x1 arg2 harg2 2 23 (2 : Fin 3) rfl (by decide)]

theorem r_310_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_310 c arg2 harg2 x1 = Of x1 23 2 := by
  delta kernelRun0_A.sl.r_310
  simp only [k0_pay572_apply c arg1 harg1 arg2 harg2 x0 x1]

theorem k0_pay575_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay575 (F := Ideal) (kernelRun0_A.sl.r_191 c arg1 harg1 x0) (kernelRun0_A.sl.r_192 c arg1 harg1 x0) (kernelRun0_A.sl.r_193 c arg1 harg1 x0) (kernelRun0_A.sl.r_197 c arg1 harg1 arg2 harg2 x0 x1) (kernelRun0_A.sl.r_308 c arg2 harg2 x1) (kernelRun0_A.sl.r_309 c arg2 harg2 x1) (kernelRun0_A.sl.r_310 c arg2 harg2 x1) (ix2 u n) = Pn x0 x1 n 23 2 := by
  refine Eq.trans ?_ (Pn_step x0 x1 n 23 15 (by decide) rfl 2).symm
  unfold k0_pay575
  simp only [shapeCast_a_1a_apply, addf_apply, mulf_apply, r_191_apply c arg1 harg1 arg2 harg2 x0 x1, broadcast_apply, r_308_apply c arg1 harg1 arg2 harg2 x0 x1, r_192_apply c arg1 harg1 arg2 harg2 x0 x1, r_309_apply c arg1 harg1 arg2 harg2 x0 x1, r_193_apply c arg1 harg1 arg2 harg2 x0 x1, r_310_apply c arg1 harg1 arg2 harg2 x0 x1, r_197_apply c arg1 harg1 arg2 harg2 x0 x1]

theorem k0_pay574_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay574 (F := Ideal) (kernelRun0_A.sl.r_188 c arg1 harg1 x0) (kernelRun0_A.sl.r_189 c arg1 harg1 x0) (kernelRun0_A.sl.r_190 c arg1 harg1 x0) (kernelRun0_A.sl.r_196 c arg1 harg1 arg2 harg2 x0 x1) (kernelRun0_A.sl.r_308 c arg2 harg2 x1) (kernelRun0_A.sl.r_309 c arg2 harg2 x1) (kernelRun0_A.sl.r_310 c arg2 harg2 x1) (ix2 u n) = Pn x0 x1 n 23 1 := by
  refine Eq.trans ?_ (Pn_step x0 x1 n 23 15 (by decide) rfl 1).symm
  unfold k0_pay574
  simp only [shapeCast_a_1a_apply, addf_apply, mulf_apply, r_188_apply c arg1 harg1 arg2 harg2 x0 x1, broadcast_apply, r_308_apply c arg1 harg1 arg2 harg2 x0 x1, r_189_apply c arg1 harg1 arg2 harg2 x0 x1, r_309_apply c arg1 harg1 arg2 harg2 x0 x1, r_190_apply c arg1 harg1 arg2 harg2 x0 x1, r_310_apply c arg1 harg1 arg2 harg2 x0 x1, r_196_apply c arg1 harg1 arg2 harg2 x0 x1]

theorem k0_pay573_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay573 (F := Ideal) (kernelRun0_A.sl.r_185 c arg1 harg1 x0) (kernelRun0_A.sl.r_186 c arg1 harg1 x0) (kernelRun0_A.sl.r_187 c arg1 harg1 x0) (kernelRun0_A.sl.r_195 c arg1 harg1 arg2 harg2 x0 x1) (kernelRun0_A.sl.r_308 c arg2 harg2 x1) (kernelRun0_A.sl.r_309 c arg2 harg2 x1) (kernelRun0_A.sl.r_310 c arg2 harg2 x1) (ix2 u n) = Pn x0 x1 n 23 0 := by
  refine Eq.trans ?_ (Pn_step x0 x1 n 23 15 (by decide) rfl 0).symm
  unfold k0_pay573
  simp only [shapeCast_a_1a_apply, addf_apply, mulf_apply, r_185_apply c arg1 harg1 arg2 harg2 x0 x1, broadcast_apply, r_308_apply c arg1 harg1 arg2 harg2 x0 x1, r_186_apply c arg1 harg1 arg2 harg2 x0 x1, r_309_apply c arg1 harg1 arg2 harg2 x0 x1, r_187_apply c arg1 harg1 arg2 harg2 x0 x1, r_310_apply c arg1 harg1 arg2 harg2 x0 x1, r_195_apply c arg1 harg1 arg2 harg2 x0 x1]

theorem k0_pay564_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay564 (F := Ideal) (View.readAt (Elt Ideal) arg2.view (Rect.unit (s := S3x55) ![0, 22] S1x1.size inb_S3x55_S1x1_0_22).toLoadRect (harg2.unread x1)) = Of x1 22 0 := by
  unfold k0_pay564
  simp only [rel_read x1 arg2 harg2 0 22 (0 : Fin 3) rfl (by decide)]

theorem r_306_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_306 c arg2 harg2 x1 = Of x1 22 0 := by
  delta kernelRun0_A.sl.r_306
  simp only [k0_pay564_apply c arg1 harg1 arg2 harg2 x0 x1]

theorem k0_pay565_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay565 (F := Ideal) (View.readAt (Elt Ideal) arg2.view (Rect.unit (s := S3x55) ![1, 22] S1x1.size inb_S3x55_S1x1_1_22).toLoadRect (harg2.unread x1)) = Of x1 22 1 := by
  unfold k0_pay565
  simp only [rel_read x1 arg2 harg2 1 22 (1 : Fin 3) rfl (by decide)]

theorem r_307_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_307 c arg2 harg2 x1 = Of x1 22 1 := by
  delta kernelRun0_A.sl.r_307
  simp only [k0_pay565_apply c arg1 harg1 arg2 harg2 x0 x1]

theorem k0_pay566_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay566 (F := Ideal) (View.readAt (Elt Ideal) arg2.view (Rect.unit (s := S3x55) ![2, 22] S1x1.size inb_S3x55_S1x1_2_22).toLoadRect (harg2.unread x1)) = Of x1 22 2 := by
  unfold k0_pay566
  simp only [rel_read x1 arg2 harg2 2 22 (2 : Fin 3) rfl (by decide)]

theorem k0_pay569_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay569 (F := Ideal) (kernelRun0_A.sl.r_191 c arg1 harg1 x0) (kernelRun0_A.sl.r_192 c arg1 harg1 x0) (kernelRun0_A.sl.r_193 c arg1 harg1 x0) (kernelRun0_A.sl.r_197 c arg1 harg1 arg2 harg2 x0 x1) (kernelRun0_A.sl.r_306 c arg2 harg2 x1) (kernelRun0_A.sl.r_307 c arg2 harg2 x1) (View.readAt (Elt Ideal) arg2.view (Rect.unit (s := S3x55) ![2, 22] S1x1.size inb_S3x55_S1x1_2_22).toLoadRect (harg2.unread x1)) (ix2 u n) = Pn x0 x1 n 22 2 := by
  refine Eq.trans ?_ (Pn_step x0 x1 n 22 15 (by decide) rfl 2).symm
  unfold k0_pay569
  simp only [shapeCast_a_1a_apply, addf_apply, mulf_apply, r_191_apply c arg1 harg1 arg2 harg2 x0 x1, broadcast_apply, r_306_apply c arg1 harg1 arg2 harg2 x0 x1, r_192_apply c arg1 harg1 arg2 harg2 x0 x1, r_307_apply c arg1 harg1 arg2 harg2 x0 x1, r_193_apply c arg1 harg1 arg2 harg2 x0 x1, k0_pay566_apply c arg1 harg1 arg2 harg2 x0 x1, r_197_apply c arg1 harg1 arg2 harg2 x0 x1]

theorem k0_pay568_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay568 (F := Ideal) (kernelRun0_A.sl.r_188 c arg1 harg1 x0) (kernelRun0_A.sl.r_189 c arg1 harg1 x0) (kernelRun0_A.sl.r_190 c arg1 harg1 x0) (kernelRun0_A.sl.r_196 c arg1 harg1 arg2 harg2 x0 x1) (kernelRun0_A.sl.r_306 c arg2 harg2 x1) (kernelRun0_A.sl.r_307 c arg2 harg2 x1) (View.readAt (Elt Ideal) arg2.view (Rect.unit (s := S3x55) ![2, 22] S1x1.size inb_S3x55_S1x1_2_22).toLoadRect (harg2.unread x1)) (ix2 u n) = Pn x0 x1 n 22 1 := by
  refine Eq.trans ?_ (Pn_step x0 x1 n 22 15 (by decide) rfl 1).symm
  unfold k0_pay568
  simp only [shapeCast_a_1a_apply, addf_apply, mulf_apply, r_188_apply c arg1 harg1 arg2 harg2 x0 x1, broadcast_apply, r_306_apply c arg1 harg1 arg2 harg2 x0 x1, r_189_apply c arg1 harg1 arg2 harg2 x0 x1, r_307_apply c arg1 harg1 arg2 harg2 x0 x1, r_190_apply c arg1 harg1 arg2 harg2 x0 x1, k0_pay566_apply c arg1 harg1 arg2 harg2 x0 x1, r_196_apply c arg1 harg1 arg2 harg2 x0 x1]

theorem k0_pay567_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay567 (F := Ideal) (kernelRun0_A.sl.r_185 c arg1 harg1 x0) (kernelRun0_A.sl.r_186 c arg1 harg1 x0) (kernelRun0_A.sl.r_187 c arg1 harg1 x0) (kernelRun0_A.sl.r_195 c arg1 harg1 arg2 harg2 x0 x1) (kernelRun0_A.sl.r_306 c arg2 harg2 x1) (kernelRun0_A.sl.r_307 c arg2 harg2 x1) (View.readAt (Elt Ideal) arg2.view (Rect.unit (s := S3x55) ![2, 22] S1x1.size inb_S3x55_S1x1_2_22).toLoadRect (harg2.unread x1)) (ix2 u n) = Pn x0 x1 n 22 0 := by
  refine Eq.trans ?_ (Pn_step x0 x1 n 22 15 (by decide) rfl 0).symm
  unfold k0_pay567
  simp only [shapeCast_a_1a_apply, addf_apply, mulf_apply, r_185_apply c arg1 harg1 arg2 harg2 x0 x1, broadcast_apply, r_306_apply c arg1 harg1 arg2 harg2 x0 x1, r_186_apply c arg1 harg1 arg2 harg2 x0 x1, r_307_apply c arg1 harg1 arg2 harg2 x0 x1, r_187_apply c arg1 harg1 arg2 harg2 x0 x1, k0_pay566_apply c arg1 harg1 arg2 harg2 x0 x1, r_195_apply c arg1 harg1 arg2 harg2 x0 x1]

theorem k0_pay563_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay563 (F := Ideal) (kernelRun0_A.sl.r_263 c arg1 harg1 x0) (kernelRun0_A.sl.r_264 c arg1 harg1 x0) (kernelRun0_A.sl.r_265 c arg1 harg1 x0) (kernelRun0_A.sl.r_269 c arg1 harg1 arg2 harg2 x0 x1) (kernelRun0_A.sl.r_302 c arg2 harg2 x1) (View.readAt (Elt Ideal) arg2.view (Rect.unit (s := S3x55) ![1, 21] S1x1.size inb_S3x55_S1x1_1_21).toLoadRect (harg2.unread x1)) (View.readAt (Elt Ideal) arg2.view (Rect.unit (s := S3x55) ![2, 21] S1x1.size inb_S3x55_S1x1_2_21).toLoadRect (harg2.unread x1)) (ix2 u n) = Pn x0 x1 n 21 2 := by
  unfold k0_pay563
  simp only [shapeCast_a_1a_apply, k0_pay560_apply c arg1 harg1 arg2 harg2 x0 x1]

theorem k0_pay562_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay562 (F := Ideal) (kernelRun0_A.sl.r_260 c arg1 harg1 x0) (kernelRun0_A.sl.r_261 c arg1 harg1 x0) (kernelRun0_A.sl.r_262 c arg1 harg1 x0) (kernelRun0_A.sl.r_268 c arg1 harg1 arg2 harg2 x0 x1) (kernelRun0_A.sl.r_302 c arg2 harg2 x1) (View.readAt (Elt Ideal) arg2.view (Rect.unit (s := S3x55) ![1, 21] S1x1.size inb_S3x55_S1x1_1_21).toLoadRect (harg2.unread x1)) (View.readAt (Elt Ideal) arg2.view (Rect.unit (s := S3x55) ![2, 21] S1x1.size inb_S3x55_S1x1_2_21).toLoadRect (harg2.unread x1)) (ix2 u n) = Pn x0 x1 n 21 1 := by
  unfold k0_pay562
  simp only [shapeCast_a_1a_apply, k0_pay559_apply c arg1 harg1 arg2 harg2 x0 x1]

theorem k0_pay561_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay561 (F := Ideal) (kernelRun0_A.sl.r_257 c arg1 harg1 x0) (kernelRun0_A.sl.r_258 c arg1 harg1 x0) (kernelRun0_A.sl.r_259 c arg1 harg1 x0) (kernelRun0_A.sl.r_267 c arg1 harg1 arg2 harg2 x0 x1) (kernelRun0_A.sl.r_302 c arg2 harg2 x1) (View.readAt (Elt Ideal) arg2.view (Rect.unit (s := S3x55) ![1, 21] S1x1.size inb_S3x55_S1x1_1_21).toLoadRect (harg2.unread x1)) (View.readAt (Elt Ideal) arg2.view (Rect.unit (s := S3x55) ![2, 21] S1x1.size inb_S3x55_S1x1_2_21).toLoadRect (harg2.unread x1)) (ix2 u n) = Pn x0 x1 n 21 0 := by
  unfold k0_pay561
  simp only [shapeCast_a_1a_apply, k0_pay558_apply c arg1 harg1 arg2 harg2 x0 x1]

theorem k0_pay535_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay535 (F := Ideal) (kernelRun0_A.sl.r_245 c arg1 harg1 x0) (kernelRun0_A.sl.r_246 c arg1 harg1 x0) (kernelRun0_A.sl.r_247 c arg1 harg1 x0) (kernelRun0_A.sl.r_251 c arg1 harg1 arg2 harg2 x0 x1) (kernelRun0_A.sl.r_284 c arg2 harg2 x1) (View.readAt (Elt Ideal) arg2.view (Rect.unit (s := S3x55) ![1, 20] S1x1.size inb_S3x55_S1x1_1_20).toLoadRect (harg2.unread x1)) (View.readAt (Elt Ideal) arg2.view (Rect.unit (s := S3x55) ![2, 20] S1x1.size inb_S3x55_S1x1_2_20).toLoadRect (harg2.unread x1)) (ix2 u n) = Pn x0 x1 n 20 2 := by
  unfold k0_pay535
  simp only [shapeCast_a_1a_apply, k0_pay532_apply c arg1 harg1 arg2 harg2 x0 x1]

theorem k0_pay534_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay534 (F := Ideal) (kernelRun0_A.sl.r_242 c arg1 harg1 x0) (kernelRun0_A.sl.r_243 c arg1 harg1 x0) (kernelRun0_A.sl.r_244 c arg1 harg1 x0) (kernelRun0_A.sl.r_250 c arg1 harg1 arg2 harg2 x0 x1) (kernelRun0_A.sl.r_284 c arg2 harg2 x1) (View.readAt (Elt Ideal) arg2.view (Rect.unit (s := S3x55) ![1, 20] S1x1.size inb_S3x55_S1x1_1_20).toLoadRect (harg2.unread x1)) (View.readAt (Elt Ideal) arg2.view (Rect.unit (s := S3x55) ![2, 20] S1x1.size inb_S3x55_S1x1_2_20).toLoadRect (harg2.unread x1)) (ix2 u n) = Pn x0 x1 n 20 1 := by
  unfold k0_pay534
  simp only [shapeCast_a_1a_apply, k0_pay531_apply c arg1 harg1 arg2 harg2 x0 x1]

theorem k0_pay533_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay533 (F := Ideal) (kernelRun0_A.sl.r_239 c arg1 harg1 x0) (kernelRun0_A.sl.r_240 c arg1 harg1 x0) (kernelRun0_A.sl.r_241 c arg1 harg1 x0) (kernelRun0_A.sl.r_249 c arg1 harg1 arg2 harg2 x0 x1) (kernelRun0_A.sl.r_284 c arg2 harg2 x1) (View.readAt (Elt Ideal) arg2.view (Rect.unit (s := S3x55) ![1, 20] S1x1.size inb_S3x55_S1x1_1_20).toLoadRect (harg2.unread x1)) (View.readAt (Elt Ideal) arg2.view (Rect.unit (s := S3x55) ![2, 20] S1x1.size inb_S3x55_S1x1_2_20).toLoadRect (harg2.unread x1)) (ix2 u n) = Pn x0 x1 n 20 0 := by
  unfold k0_pay533
  simp only [shapeCast_a_1a_apply, k0_pay530_apply c arg1 harg1 arg2 harg2 x0 x1]

theorem k0_pay507_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay507 (F := Ideal) (kernelRun0_A.sl.r_227 c arg1 harg1 x0) (kernelRun0_A.sl.r_228 c arg1 harg1 x0) (kernelRun0_A.sl.r_229 c arg1 harg1 x0) (kernelRun0_A.sl.r_233 c arg1 harg1 arg2 harg2 x0 x1) (kernelRun0_A.sl.r_266 c arg2 harg2 x1) (View.readAt (Elt Ideal) arg2.view (Rect.unit (s := S3x55) ![1, 19] S1x1.size inb_S3x55_S1x1_1_19).toLoadRect (harg2.unread x1)) (View.readAt (Elt Ideal) arg2.view (Rect.unit (s := S3x55) ![2, 19] S1x1.size inb_S3x55_S1x1_2_19).toLoadRect (harg2.unread x1)) (ix2 u n) = Pn x0 x1 n 19 2 := by
  unfold k0_pay507
  simp only [shapeCast_a_1a_apply, k0_pay504_apply c arg1 harg1 arg2 harg2 x0 x1]

theorem k0_pay506_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay506 (F := Ideal) (kernelRun0_A.sl.r_224 c arg1 harg1 x0) (kernelRun0_A.sl.r_225 c arg1 harg1 x0) (kernelRun0_A.sl.r_226 c arg1 harg1 x0) (kernelRun0_A.sl.r_232 c arg1 harg1 arg2 harg2 x0 x1) (kernelRun0_A.sl.r_266 c arg2 harg2 x1) (View.readAt (Elt Ideal) arg2.view (Rect.unit (s := S3x55) ![1, 19] S1x1.size inb_S3x55_S1x1_1_19).toLoadRect (harg2.unread x1)) (View.readAt (Elt Ideal) arg2.view (Rect.unit (s := S3x55) ![2, 19] S1x1.size inb_S3x55_S1x1_2_19).toLoadRect (harg2.unread x1)) (ix2 u n) = Pn x0 x1 n 19 1 := by
  unfold k0_pay506
  simp only [shapeCast_a_1a_apply, k0_pay503_apply c arg1 harg1 arg2 harg2 x0 x1]

theorem k0_pay505_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay505 (F := Ideal) (kernelRun0_A.sl.r_221 c arg1 harg1 x0) (kernelRun0_A.sl.r_222 c arg1 harg1 x0) (kernelRun0_A.sl.r_223 c arg1 harg1 x0) (kernelRun0_A.sl.r_231 c arg1 harg1 arg2 harg2 x0 x1) (kernelRun0_A.sl.r_266 c arg2 harg2 x1) (View.readAt (Elt Ideal) arg2.view (Rect.unit (s := S3x55) ![1, 19] S1x1.size inb_S3x55_S1x1_1_19).toLoadRect (harg2.unread x1)) (View.readAt (Elt Ideal) arg2.view (Rect.unit (s := S3x55) ![2, 19] S1x1.size inb_S3x55_S1x1_2_19).toLoadRect (harg2.unread x1)) (ix2 u n) = Pn x0 x1 n 19 0 := by
  unfold k0_pay505
  simp only [shapeCast_a_1a_apply, k0_pay502_apply c arg1 harg1 arg2 harg2 x0 x1]

theorem k0_pay479_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay479 (F := Ideal) (kernelRun0_A.sl.r_209 c arg1 harg1 x0) (kernelRun0_A.sl.r_210 c arg1 harg1 x0) (kernelRun0_A.sl.r_211 c arg1 harg1 x0) (kernelRun0_A.sl.r_215 c arg1 harg1 arg2 harg2 x0 x1) (kernelRun0_A.sl.r_248 c arg2 harg2 x1) (View.readAt (Elt Ideal) arg2.view (Rect.unit (s := S3x55) ![1, 18] S1x1.size inb_S3x55_S1x1_1_18).toLoadRect (harg2.unread x1)) (View.readAt (Elt Ideal) arg2.view (Rect.unit (s := S3x55) ![2, 18] S1x1.size inb_S3x55_S1x1_2_18).toLoadRect (harg2.unread x1)) (ix2 u n) = Pn x0 x1 n 18 2 := by
  unfold k0_pay479
  simp only [shapeCast_a_1a_apply, k0_pay476_apply c arg1 harg1 arg2 harg2 x0 x1]

theorem k0_pay478_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay478 (F := Ideal) (kernelRun0_A.sl.r_206 c arg1 harg1 x0) (kernelRun0_A.sl.r_207 c arg1 harg1 x0) (kernelRun0_A.sl.r_208 c arg1 harg1 x0) (kernelRun0_A.sl.r_214 c arg1 harg1 arg2 harg2 x0 x1) (kernelRun0_A.sl.r_248 c arg2 harg2 x1) (View.readAt (Elt Ideal) arg2.view (Rect.unit (s := S3x55) ![1, 18] S1x1.size inb_S3x55_S1x1_1_18).toLoadRect (harg2.unread x1)) (View.readAt (Elt Ideal) arg2.view (Rect.unit (s := S3x55) ![2, 18] S1x1.size inb_S3x55_S1x1_2_18).toLoadRect (harg2.unread x1)) (ix2 u n) = Pn x0 x1 n 18 1 := by
  unfold k0_pay478
  simp only [shapeCast_a_1a_apply, k0_pay475_apply c arg1 harg1 arg2 harg2 x0 x1]

theorem k0_pay477_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay477 (F := Ideal) (kernelRun0_A.sl.r_203 c arg1 harg1 x0) (kernelRun0_A.sl.r_204 c arg1 harg1 x0) (kernelRun0_A.sl.r_205 c arg1 harg1 x0) (kernelRun0_A.sl.r_213 c arg1 harg1 arg2 harg2 x0 x1) (kernelRun0_A.sl.r_248 c arg2 harg2 x1) (View.readAt (Elt Ideal) arg2.view (Rect.unit (s := S3x55) ![1, 18] S1x1.size inb_S3x55_S1x1_1_18).toLoadRect (harg2.unread x1)) (View.readAt (Elt Ideal) arg2.view (Rect.unit (s := S3x55) ![2, 18] S1x1.size inb_S3x55_S1x1_2_18).toLoadRect (harg2.unread x1)) (ix2 u n) = Pn x0 x1 n 18 0 := by
  unfold k0_pay477
  simp only [shapeCast_a_1a_apply, k0_pay474_apply c arg1 harg1 arg2 harg2 x0 x1]

theorem k0_pay451_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay451 (F := Ideal) (kernelRun0_A.sl.r_173 c arg1 harg1 x0) (kernelRun0_A.sl.r_174 c arg1 harg1 x0) (kernelRun0_A.sl.r_175 c arg1 harg1 x0) (kernelRun0_A.sl.r_179 c arg1 harg1 arg2 harg2 x0 x1) (kernelRun0_A.sl.r_230 c arg2 harg2 x1) (View.readAt (Elt Ideal) arg2.view (Rect.unit (s := S3x55) ![1, 17] S1x1.size inb_S3x55_S1x1_1_17).toLoadRect (harg2.unread x1)) (View.readAt (Elt Ideal) arg2.view (Rect.unit (s := S3x55) ![2, 17] S1x1.size inb_S3x55_S1x1_2_17).toLoadRect (harg2.unread x1)) (ix2 u n) = Pn x0 x1 n 17 2 := by
  unfold k0_pay451
  simp only [shapeCast_a_1a_apply, k0_pay448_apply c arg1 harg1 arg2 harg2 x0 x1]

theorem k0_pay450_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay450 (F := Ideal) (kernelRun0_A.sl.r_170 c arg1 harg1 x0) (kernelRun0_A.sl.r_171 c arg1 harg1 x0) (kernelRun0_A.sl.r_172 c arg1 harg1 x0) (kernelRun0_A.sl.r_178 c arg1 harg1 arg2 harg2 x0 x1) (kernelRun0_A.sl.r_230 c arg2 harg2 x1) (View.readAt (Elt Ideal) arg2.view (Rect.unit (s := S3x55) ![1, 17] S1x1.size inb_S3x55_S1x1_1_17).toLoadRect (harg2.unread x1)) (View.readAt (Elt Ideal) arg2.view (Rect.unit (s := S3x55) ![2, 17] S1x1.size inb_S3x55_S1x1_2_17).toLoadRect (harg2.unread x1)) (ix2 u n) = Pn x0 x1 n 17 1 := by
  unfold k0_pay450
  simp only [shapeCast_a_1a_apply, k0_pay447_apply c arg1 harg1 arg2 harg2 x0 x1]

theorem k0_pay449_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay449 (F := Ideal) (kernelRun0_A.sl.r_167 c arg1 harg1 x0) (kernelRun0_A.sl.r_168 c arg1 harg1 x0) (kernelRun0_A.sl.r_169 c arg1 harg1 x0) (kernelRun0_A.sl.r_177 c arg1 harg1 arg2 harg2 x0 x1) (kernelRun0_A.sl.r_230 c arg2 harg2 x1) (View.readAt (Elt Ideal) arg2.view (Rect.unit (s := S3x55) ![1, 17] S1x1.size inb_S3x55_S1x1_1_17).toLoadRect (harg2.unread x1)) (View.readAt (Elt Ideal) arg2.view (Rect.unit (s := S3x55) ![2, 17] S1x1.size inb_S3x55_S1x1_2_17).toLoadRect (harg2.unread x1)) (ix2 u n) = Pn x0 x1 n 17 0 := by
  unfold k0_pay449
  simp only [shapeCast_a_1a_apply, k0_pay446_apply c arg1 harg1 arg2 harg2 x0 x1]

theorem k0_pay423_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay423 (F := Ideal) (kernelRun0_A.sl.r_155 c arg1 harg1 x0) (kernelRun0_A.sl.r_156 c arg1 harg1 x0) (kernelRun0_A.sl.r_157 c arg1 harg1 x0) (kernelRun0_A.sl.r_161 c arg1 harg1 arg2 harg2 x0 x1) (kernelRun0_A.sl.r_212 c arg2 harg2 x1) (View.readAt (Elt Ideal) arg2.view (Rect.unit (s := S3x55) ![1, 16] S1x1.size inb_S3x55_S1x1_1_16).toLoadRect (harg2.unread x1)) (View.readAt (Elt Ideal) arg2.view (Rect.unit (s := S3x55) ![2, 16] S1x1.size inb_S3x55_S1x1_2_16).toLoadRect (harg2.unread x1)) (ix2 u n) = Pn x0 x1 n 16 2 := by
  unfold k0_pay423
  simp only [shapeCast_a_1a_apply, k0_pay420_apply c arg1 harg1 arg2 harg2 x0 x1]

theorem k0_pay422_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay422 (F := Ideal) (kernelRun0_A.sl.r_152 c arg1 harg1 x0) (kernelRun0_A.sl.r_153 c arg1 harg1 x0) (kernelRun0_A.sl.r_154 c arg1 harg1 x0) (kernelRun0_A.sl.r_160 c arg1 harg1 arg2 harg2 x0 x1) (kernelRun0_A.sl.r_212 c arg2 harg2 x1) (View.readAt (Elt Ideal) arg2.view (Rect.unit (s := S3x55) ![1, 16] S1x1.size inb_S3x55_S1x1_1_16).toLoadRect (harg2.unread x1)) (View.readAt (Elt Ideal) arg2.view (Rect.unit (s := S3x55) ![2, 16] S1x1.size inb_S3x55_S1x1_2_16).toLoadRect (harg2.unread x1)) (ix2 u n) = Pn x0 x1 n 16 1 := by
  unfold k0_pay422
  simp only [shapeCast_a_1a_apply, k0_pay419_apply c arg1 harg1 arg2 harg2 x0 x1]

theorem k0_pay421_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay421 (F := Ideal) (kernelRun0_A.sl.r_149 c arg1 harg1 x0) (kernelRun0_A.sl.r_150 c arg1 harg1 x0) (kernelRun0_A.sl.r_151 c arg1 harg1 x0) (kernelRun0_A.sl.r_159 c arg1 harg1 arg2 harg2 x0 x1) (kernelRun0_A.sl.r_212 c arg2 harg2 x1) (View.readAt (Elt Ideal) arg2.view (Rect.unit (s := S3x55) ![1, 16] S1x1.size inb_S3x55_S1x1_1_16).toLoadRect (harg2.unread x1)) (View.readAt (Elt Ideal) arg2.view (Rect.unit (s := S3x55) ![2, 16] S1x1.size inb_S3x55_S1x1_2_16).toLoadRect (harg2.unread x1)) (ix2 u n) = Pn x0 x1 n 16 0 := by
  unfold k0_pay421
  simp only [shapeCast_a_1a_apply, k0_pay418_apply c arg1 harg1 arg2 harg2 x0 x1]

theorem k0_pay395_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay395 (F := Ideal) (kernelRun0_A.sl.r_137 c arg1 harg1 x0) (kernelRun0_A.sl.r_138 c arg1 harg1 x0) (kernelRun0_A.sl.r_139 c arg1 harg1 x0) (kernelRun0_A.sl.r_143 c arg1 harg1 arg2 harg2 x0 x1) (kernelRun0_A.sl.r_194 c arg2 harg2 x1) (View.readAt (Elt Ideal) arg2.view (Rect.unit (s := S3x55) ![1, 15] S1x1.size inb_S3x55_S1x1_1_15).toLoadRect (harg2.unread x1)) (View.readAt (Elt Ideal) arg2.view (Rect.unit (s := S3x55) ![2, 15] S1x1.size inb_S3x55_S1x1_2_15).toLoadRect (harg2.unread x1)) (ix2 u n) = Pn x0 x1 n 15 2 := by
  unfold k0_pay395
  simp only [shapeCast_a_1a_apply, k0_pay392_apply c arg1 harg1 arg2 harg2 x0 x1]

theorem k0_pay394_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay394 (F := Ideal) (kernelRun0_A.sl.r_134 c arg1 harg1 x0) (kernelRun0_A.sl.r_135 c arg1 harg1 x0) (kernelRun0_A.sl.r_136 c arg1 harg1 x0) (kernelRun0_A.sl.r_142 c arg1 harg1 arg2 harg2 x0 x1) (kernelRun0_A.sl.r_194 c arg2 harg2 x1) (View.readAt (Elt Ideal) arg2.view (Rect.unit (s := S3x55) ![1, 15] S1x1.size inb_S3x55_S1x1_1_15).toLoadRect (harg2.unread x1)) (View.readAt (Elt Ideal) arg2.view (Rect.unit (s := S3x55) ![2, 15] S1x1.size inb_S3x55_S1x1_2_15).toLoadRect (harg2.unread x1)) (ix2 u n) = Pn x0 x1 n 15 1 := by
  unfold k0_pay394
  simp only [shapeCast_a_1a_apply, k0_pay391_apply c arg1 harg1 arg2 harg2 x0 x1]

theorem k0_pay393_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay393 (F := Ideal) (kernelRun0_A.sl.r_131 c arg1 harg1 x0) (kernelRun0_A.sl.r_132 c arg1 harg1 x0) (kernelRun0_A.sl.r_133 c arg1 harg1 x0) (kernelRun0_A.sl.r_141 c arg1 harg1 arg2 harg2 x0 x1) (kernelRun0_A.sl.r_194 c arg2 harg2 x1) (View.readAt (Elt Ideal) arg2.view (Rect.unit (s := S3x55) ![1, 15] S1x1.size inb_S3x55_S1x1_1_15).toLoadRect (harg2.unread x1)) (View.readAt (Elt Ideal) arg2.view (Rect.unit (s := S3x55) ![2, 15] S1x1.size inb_S3x55_S1x1_2_15).toLoadRect (harg2.unread x1)) (ix2 u n) = Pn x0 x1 n 15 0 := by
  unfold k0_pay393
  simp only [shapeCast_a_1a_apply, k0_pay390_apply c arg1 harg1 arg2 harg2 x0 x1]

theorem k0_pay367_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay367 (F := Ideal) (kernelRun0_A.sl.r_118 c arg1 harg1 x0) (kernelRun0_A.sl.r_119 c arg1 harg1 x0) (kernelRun0_A.sl.r_120 c arg1 harg1 x0) (kernelRun0_A.sl.r_123 c arg1 harg1 arg2 harg2 x0 x1) (kernelRun0_A.sl.r_176 c arg2 harg2 x1) (View.readAt (Elt Ideal) arg2.view (Rect.unit (s := S3x55) ![1, 14] S1x1.size inb_S3x55_S1x1_1_14).toLoadRect (harg2.unread x1)) (View.readAt (Elt Ideal) arg2.view (Rect.unit (s := S3x55) ![2, 14] S1x1.size inb_S3x55_S1x1_2_14).toLoadRect (harg2.unread x1)) (ix2 u n) = Pn x0 x1 n 14 2 := by
  unfold k0_pay367
  simp only [shapeCast_a_1a_apply, k0_pay364_apply c arg1 harg1 arg2 harg2 x0 x1]

theorem k0_pay366_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay366 (F := Ideal) (kernelRun0_A.sl.r_115 c arg1 harg1 x0) (kernelRun0_A.sl.r_116 c arg1 harg1 x0) (kernelRun0_A.sl.r_117 c arg1 harg1 x0) (kernelRun0_A.sl.r_122 c arg1 harg1 arg2 harg2 x0 x1) (kernelRun0_A.sl.r_176 c arg2 harg2 x1) (View.readAt (Elt Ideal) arg2.view (Rect.unit (s := S3x55) ![1, 14] S1x1.size inb_S3x55_S1x1_1_14).toLoadRect (harg2.unread x1)) (View.readAt (Elt Ideal) arg2.view (Rect.unit (s := S3x55) ![2, 14] S1x1.size inb_S3x55_S1x1_2_14).toLoadRect (harg2.unread x1)) (ix2 u n) = Pn x0 x1 n 14 1 := by
  unfold k0_pay366
  simp only [shapeCast_a_1a_apply, k0_pay363_apply c arg1 harg1 arg2 harg2 x0 x1]

theorem k0_pay365_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay365 (F := Ideal) (kernelRun0_A.sl.r_112 c arg1 harg1 x0) (kernelRun0_A.sl.r_113 c arg1 harg1 x0) (kernelRun0_A.sl.r_114 c arg1 harg1 x0) (kernelRun0_A.sl.r_121 c arg1 harg1 arg2 harg2 x0 x1) (kernelRun0_A.sl.r_176 c arg2 harg2 x1) (View.readAt (Elt Ideal) arg2.view (Rect.unit (s := S3x55) ![1, 14] S1x1.size inb_S3x55_S1x1_1_14).toLoadRect (harg2.unread x1)) (View.readAt (Elt Ideal) arg2.view (Rect.unit (s := S3x55) ![2, 14] S1x1.size inb_S3x55_S1x1_2_14).toLoadRect (harg2.unread x1)) (ix2 u n) = Pn x0 x1 n 14 0 := by
  unfold k0_pay365
  simp only [shapeCast_a_1a_apply, k0_pay362_apply c arg1 harg1 arg2 harg2 x0 x1]

theorem k0_pay339_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay339 (F := Ideal) (kernelRun0_A.sl.r_118 c arg1 harg1 x0) (kernelRun0_A.sl.r_119 c arg1 harg1 x0) (kernelRun0_A.sl.r_120 c arg1 harg1 x0) (kernelRun0_A.sl.r_123 c arg1 harg1 arg2 harg2 x0 x1) (kernelRun0_A.sl.r_158 c arg2 harg2 x1) (View.readAt (Elt Ideal) arg2.view (Rect.unit (s := S3x55) ![1, 13] S1x1.size inb_S3x55_S1x1_1_13).toLoadRect (harg2.unread x1)) (View.readAt (Elt Ideal) arg2.view (Rect.unit (s := S3x55) ![2, 13] S1x1.size inb_S3x55_S1x1_2_13).toLoadRect (harg2.unread x1)) (ix2 u n) = Pn x0 x1 n 13 2 := by
  unfold k0_pay339
  simp only [shapeCast_a_1a_apply, k0_pay336_apply c arg1 harg1 arg2 harg2 x0 x1]

theorem k0_pay338_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay338 (F := Ideal) (kernelRun0_A.sl.r_115 c arg1 harg1 x0) (kernelRun0_A.sl.r_116 c arg1 harg1 x0) (kernelRun0_A.sl.r_117 c arg1 harg1 x0) (kernelRun0_A.sl.r_122 c arg1 harg1 arg2 harg2 x0 x1) (kernelRun0_A.sl.r_158 c arg2 harg2 x1) (View.readAt (Elt Ideal) arg2.view (Rect.unit (s := S3x55) ![1, 13] S1x1.size inb_S3x55_S1x1_1_13).toLoadRect (harg2.unread x1)) (View.readAt (Elt Ideal) arg2.view (Rect.unit (s := S3x55) ![2, 13] S1x1.size inb_S3x55_S1x1_2_13).toLoadRect (harg2.unread x1)) (ix2 u n) = Pn x0 x1 n 13 1 := by
  unfold k0_pay338
  simp only [shapeCast_a_1a_apply, k0_pay335_apply c arg1 harg1 arg2 harg2 x0 x1]

theorem k0_pay337_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay337 (F := Ideal) (kernelRun0_A.sl.r_112 c arg1 harg1 x0) (kernelRun0_A.sl.r_113 c arg1 harg1 x0) (kernelRun0_A.sl.r_114 c arg1 harg1 x0) (kernelRun0_A.sl.r_121 c arg1 harg1 arg2 harg2 x0 x1) (kernelRun0_A.sl.r_158 c arg2 harg2 x1) (View.readAt (Elt Ideal) arg2.view (Rect.unit (s := S3x55) ![1, 13] S1x1.size inb_S3x55_S1x1_1_13).toLoadRect (harg2.unread x1)) (View.readAt (Elt Ideal) arg2.view (Rect.unit (s := S3x55) ![2, 13] S1x1.size inb_S3x55_S1x1_2_13).toLoadRect (harg2.unread x1)) (ix2 u n) = Pn x0 x1 n 13 0 := by
  unfold k0_pay337
  simp only [shapeCast_a_1a_apply, k0_pay334_apply c arg1 harg1 arg2 harg2 x0 x1]

theorem k0_pay311_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay311 (F := Ideal) (kernelRun0_A.sl.r_118 c arg1 harg1 x0) (kernelRun0_A.sl.r_119 c arg1 harg1 x0) (kernelRun0_A.sl.r_120 c arg1 harg1 x0) (kernelRun0_A.sl.r_123 c arg1 harg1 arg2 harg2 x0 x1) (kernelRun0_A.sl.r_140 c arg2 harg2 x1) (View.readAt (Elt Ideal) arg2.view (Rect.unit (s := S3x55) ![1, 12] S1x1.size inb_S3x55_S1x1_1_12).toLoadRect (harg2.unread x1)) (View.readAt (Elt Ideal) arg2.view (Rect.unit (s := S3x55) ![2, 12] S1x1.size inb_S3x55_S1x1_2_12).toLoadRect (harg2.unread x1)) (ix2 u n) = Pn x0 x1 n 12 2 := by
  unfold k0_pay311
  simp only [shapeCast_a_1a_apply, k0_pay308_apply c arg1 harg1 arg2 harg2 x0 x1]

theorem k0_pay310_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay310 (F := Ideal) (kernelRun0_A.sl.r_115 c arg1 harg1 x0) (kernelRun0_A.sl.r_116 c arg1 harg1 x0) (kernelRun0_A.sl.r_117 c arg1 harg1 x0) (kernelRun0_A.sl.r_122 c arg1 harg1 arg2 harg2 x0 x1) (kernelRun0_A.sl.r_140 c arg2 harg2 x1) (View.readAt (Elt Ideal) arg2.view (Rect.unit (s := S3x55) ![1, 12] S1x1.size inb_S3x55_S1x1_1_12).toLoadRect (harg2.unread x1)) (View.readAt (Elt Ideal) arg2.view (Rect.unit (s := S3x55) ![2, 12] S1x1.size inb_S3x55_S1x1_2_12).toLoadRect (harg2.unread x1)) (ix2 u n) = Pn x0 x1 n 12 1 := by
  unfold k0_pay310
  simp only [shapeCast_a_1a_apply, k0_pay307_apply c arg1 harg1 arg2 harg2 x0 x1]

theorem k0_pay309_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay309 (F := Ideal) (kernelRun0_A.sl.r_112 c arg1 harg1 x0) (kernelRun0_A.sl.r_113 c arg1 harg1 x0) (kernelRun0_A.sl.r_114 c arg1 harg1 x0) (kernelRun0_A.sl.r_121 c arg1 harg1 arg2 harg2 x0 x1) (kernelRun0_A.sl.r_140 c arg2 harg2 x1) (View.readAt (Elt Ideal) arg2.view (Rect.unit (s := S3x55) ![1, 12] S1x1.size inb_S3x55_S1x1_1_12).toLoadRect (harg2.unread x1)) (View.readAt (Elt Ideal) arg2.view (Rect.unit (s := S3x55) ![2, 12] S1x1.size inb_S3x55_S1x1_2_12).toLoadRect (harg2.unread x1)) (ix2 u n) = Pn x0 x1 n 12 0 := by
  unfold k0_pay309
  simp only [shapeCast_a_1a_apply, k0_pay306_apply c arg1 harg1 arg2 harg2 x0 x1]

theorem k0_pay48_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay48 (F := Ideal) (kernelRun0_A.sl.v2 c arg1 harg1 x0) (ix1 n) = Rw x0 n 2 0 0 := by
  unfold k0_pay48
  simp only [shapeCast_1a_a_apply, slice_row 18 (18 : Fin 198) rfl, v2_apply c arg1 harg1 arg2 harg2 x0 x1, Rw_eq x0 n 2 0 0 (18 : Fin 198) (by decide)]

theorem r_12_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_12 c arg1 harg1 x0 (ix1 n) = Rw x0 n 2 0 0 := by
  delta kernelRun0_A.sl.r_12
  simp only [k0_pay48_apply c arg1 harg1 arg2 harg2 x0 x1]

theorem k0_pay52_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay52 (F := Ideal) (kernelRun0_A.sl.v2 c arg1 harg1 x0) (ix1 n) = Rw x0 n 2 1 0 := by
  unfold k0_pay52
  simp only [shapeCast_1a_a_apply, slice_row 21 (21 : Fin 198) rfl, v2_apply c arg1 harg1 arg2 harg2 x0 x1, Rw_eq x0 n 2 1 0 (21 : Fin 198) (by decide)]

theorem k0_pay55_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay55 (F := Ideal) (kernelRun0_A.sl.v2 c arg1 harg1 x0) (ix1 n) = Rw x0 n 2 2 0 := by
  unfold k0_pay55
  simp only [shapeCast_1a_a_apply, slice_row 24 (24 : Fin 198) rfl, v2_apply c arg1 harg1 arg2 harg2 x0 x1, Rw_eq x0 n 2 2 0 (24 : Fin 198) (by decide)]

theorem k0_pay64_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay64 (F := Ideal) (kernelRun0_A.sl.v2 c arg1 harg1 x0) (kernelRun0_A.sl.v16 c arg1 harg1 x0) (kernelRun0_A.sl.v18 c arg1 harg1 x0) (kernelRun0_A.sl.v20 c arg1 harg1 x0) (kernelRun0_A.sl.r_12 c arg1 harg1 x0) (ix1 n) = Cn x0 x1 n 2 2 0 := by
  refine Eq.trans ?_ (Cn_step x0 x1 n 2 0 (by decide) rfl (by decide) 2 0).symm
  unfold k0_pay64
  simp only [addf_apply, mulf_apply, v16_apply c arg1 harg1 arg2 harg2 x0 x1, r_12_apply c arg1 harg1 arg2 harg2 x0 x1, v18_apply c arg1 harg1 arg2 harg2 x0 x1, k0_pay52_apply c arg1 harg1 arg2 harg2 x0 x1, v20_apply c arg1 harg1 arg2 harg2 x0 x1, k0_pay55_apply c arg1 harg1 arg2 harg2 x0 x1]

theorem r_20_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_20 c arg1 harg1 x0 (ix1 n) = Cn x0 x1 n 2 2 0 := by
  delta kernelRun0_A.sl.r_20
  simp only [k0_pay64_apply c arg1 harg1 arg2 harg2 x0 x1]

theorem k0_pay49_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay49 (F := Ideal) (kernelRun0_A.sl.v2 c arg1 harg1 x0) (ix2 u n) = Rw x0 n 2 0 1 := by
  unfold k0_pay49
  simp only [slice_row 19 (19 : Fin 198) rfl, v2_apply c arg1 harg1 arg2 harg2 x0 x1, Rw_eq x0 n 2 0 1 (19 : Fin 198) (by decide)]

theorem r_13_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_13 c arg1 harg1 x0 (ix2 u n) = Rw x0 n 2 0 1 := by
  delta kernelRun0_A.sl.r_13
  simp only [k0_pay49_apply c arg1 harg1 arg2 harg2 x0 x1]

theorem k0_pay50_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay50 (F := Ideal) (kernelRun0_A.sl.r_13 c arg1 harg1 x0) (ix1 n) = Rw x0 n 2 0 1 := by
  unfold k0_pay50
  simp only [shapeCast_1a_a_apply, r_13_apply c arg1 harg1 arg2 harg2 x0 x1]

theorem k0_pay53_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay53 (F := Ideal) (kernelRun0_A.sl.v2 c arg1 harg1 x0) (ix1 n) = Rw x0 n 2 1 1 := by
  unfold k0_pay53
  simp only [shapeCast_1a_a_apply, slice_row 22 (22 : Fin 198) rfl, v2_apply c arg1 harg1 arg2 harg2 x0 x1, Rw_eq x0 n 2 1 1 (22 : Fin 198) (by decide)]

theorem k0_pay56_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay56 (F := Ideal) (kernelRun0_A.sl.v2 c arg1 harg1 x0) (ix1 n) = Rw x0 n 2 2 1 := by
  unfold k0_pay56
  simp only [shapeCast_1a_a_apply, slice_row 25 (25 : Fin 198) rfl, v2_apply c arg1 harg1 arg2 harg2 x0 x1, Rw_eq x0 n 2 2 1 (25 : Fin 198) (by decide)]

theorem k0_pay65_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay65 (F := Ideal) (kernelRun0_A.sl.v2 c arg1 harg1 x0) (kernelRun0_A.sl.v16 c arg1 harg1 x0) (kernelRun0_A.sl.v18 c arg1 harg1 x0) (kernelRun0_A.sl.v20 c arg1 harg1 x0) (kernelRun0_A.sl.r_13 c arg1 harg1 x0) (ix1 n) = Cn x0 x1 n 2 2 1 := by
  refine Eq.trans ?_ (Cn_step x0 x1 n 2 0 (by decide) rfl (by decide) 2 1).symm
  unfold k0_pay65
  simp only [addf_apply, mulf_apply, v16_apply c arg1 harg1 arg2 harg2 x0 x1, k0_pay50_apply c arg1 harg1 arg2 harg2 x0 x1, v18_apply c arg1 harg1 arg2 harg2 x0 x1, k0_pay53_apply c arg1 harg1 arg2 harg2 x0 x1, v20_apply c arg1 harg1 arg2 harg2 x0 x1, k0_pay56_apply c arg1 harg1 arg2 harg2 x0 x1]

theorem r_21_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_21 c arg1 harg1 x0 (ix1 n) = Cn x0 x1 n 2 2 1 := by
  delta kernelRun0_A.sl.r_21
  simp only [k0_pay65_apply c arg1 harg1 arg2 harg2 x0 x1]

theorem k0_pay51_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay51 (F := Ideal) (kernelRun0_A.sl.v2 c arg1 harg1 x0) (ix1 n) = Rw x0 n 2 0 2 := by
  unfold k0_pay51
  simp only [shapeCast_1a_a_apply, slice_row 20 (20 : Fin 198) rfl, v2_apply c arg1 harg1 arg2 harg2 x0 x1, Rw_eq x0 n 2 0 2 (20 : Fin 198) (by decide)]

theorem k0_pay54_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay54 (F := Ideal) (kernelRun0_A.sl.v2 c arg1 harg1 x0) (ix1 n) = Rw x0 n 2 1 2 := by
  unfold k0_pay54
  simp only [shapeCast_1a_a_apply, slice_row 23 (23 : Fin 198) rfl, v2_apply c arg1 harg1 arg2 harg2 x0 x1, Rw_eq x0 n 2 1 2 (23 : Fin 198) (by decide)]

theorem k0_pay57_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay57 (F := Ideal) (kernelRun0_A.sl.v2 c arg1 harg1 x0) (ix1 n) = Rw x0 n 2 2 2 := by
  unfold k0_pay57
  simp only [shapeCast_1a_a_apply, slice_row 26 (26 : Fin 198) rfl, v2_apply c arg1 harg1 arg2 harg2 x0 x1, Rw_eq x0 n 2 2 2 (26 : Fin 198) (by decide)]

theorem k0_pay66_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay66 (F := Ideal) (kernelRun0_A.sl.v2 c arg1 harg1 x0) (kernelRun0_A.sl.v16 c arg1 harg1 x0) (kernelRun0_A.sl.v18 c arg1 harg1 x0) (kernelRun0_A.sl.v20 c arg1 harg1 x0) (ix1 n) = Cn x0 x1 n 2 2 2 := by
  refine Eq.trans ?_ (Cn_step x0 x1 n 2 0 (by decide) rfl (by decide) 2 2).symm
  unfold k0_pay66
  simp only [addf_apply, mulf_apply, v16_apply c arg1 harg1 arg2 harg2 x0 x1, k0_pay51_apply c arg1 harg1 arg2 harg2 x0 x1, v18_apply c arg1 harg1 arg2 harg2 x0 x1, k0_pay54_apply c arg1 harg1 arg2 harg2 x0 x1, v20_apply c arg1 harg1 arg2 harg2 x0 x1, k0_pay57_apply c arg1 harg1 arg2 harg2 x0 x1]

theorem r_22_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_22 c arg1 harg1 x0 (ix1 n) = Cn x0 x1 n 2 2 2 := by
  delta kernelRun0_A.sl.r_22
  simp only [k0_pay66_apply c arg1 harg1 arg2 harg2 x0 x1]

theorem k0_pay132_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay132 (F := Ideal) (kernelRun0_A.sl.v2 c arg1 harg1 x0) (ix1 n) = Rw x0 n 5 0 0 := by
  unfold k0_pay132
  simp only [shapeCast_1a_a_apply, slice_row 45 (45 : Fin 198) rfl, v2_apply c arg1 harg1 arg2 harg2 x0 x1, Rw_eq x0 n 5 0 0 (45 : Fin 198) (by decide)]

theorem r_54_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_54 c arg1 harg1 x0 (ix1 n) = Rw x0 n 5 0 0 := by
  delta kernelRun0_A.sl.r_54
  simp only [k0_pay132_apply c arg1 harg1 arg2 harg2 x0 x1]

theorem k0_pay136_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay136 (F := Ideal) (kernelRun0_A.sl.v2 c arg1 harg1 x0) (ix1 n) = Rw x0 n 5 1 0 := by
  unfold k0_pay136
  simp only [shapeCast_1a_a_apply, slice_row 48 (48 : Fin 198) rfl, v2_apply c arg1 harg1 arg2 harg2 x0 x1, Rw_eq x0 n 5 1 0 (48 : Fin 198) (by decide)]

theorem k0_pay139_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay139 (F := Ideal) (kernelRun0_A.sl.v2 c arg1 harg1 x0) (ix1 n) = Rw x0 n 5 2 0 := by
  unfold k0_pay139
  simp only [shapeCast_1a_a_apply, slice_row 51 (51 : Fin 198) rfl, v2_apply c arg1 harg1 arg2 harg2 x0 x1, Rw_eq x0 n 5 2 0 (51 : Fin 198) (by decide)]

theorem k0_pay148_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay148 (F := Ideal) (kernelRun0_A.sl.v2 c arg1 harg1 x0) (kernelRun0_A.sl.r_20 c arg1 harg1 x0) (kernelRun0_A.sl.r_21 c arg1 harg1 x0) (kernelRun0_A.sl.r_22 c arg1 harg1 x0) (kernelRun0_A.sl.r_54 c arg1 harg1 x0) (ix1 n) = Cn x0 x1 n 5 2 0 := by
  refine Eq.trans ?_ (Cn_step x0 x1 n 5 2 (by decide) rfl (by decide) 2 0).symm
  unfold k0_pay148
  simp only [addf_apply, mulf_apply, r_20_apply c arg1 harg1 arg2 harg2 x0 x1, r_54_apply c arg1 harg1 arg2 harg2 x0 x1, r_21_apply c arg1 harg1 arg2 harg2 x0 x1, k0_pay136_apply c arg1 harg1 arg2 harg2 x0 x1, r_22_apply c arg1 harg1 arg2 harg2 x0 x1, k0_pay139_apply c arg1 harg1 arg2 harg2 x0 x1]

theorem r_62_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_62 c arg1 harg1 x0 (ix1 n) = Cn x0 x1 n 5 2 0 := by
  delta kernelRun0_A.sl.r_62
  simp only [k0_pay148_apply c arg1 harg1 arg2 harg2 x0 x1]

theorem k0_pay133_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay133 (F := Ideal) (kernelRun0_A.sl.v2 c arg1 harg1 x0) (ix2 u n) = Rw x0 n 5 0 1 := by
  unfold k0_pay133
  simp only [slice_row 46 (46 : Fin 198) rfl, v2_apply c arg1 harg1 arg2 harg2 x0 x1, Rw_eq x0 n 5 0 1 (46 : Fin 198) (by decide)]

theorem r_55_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_55 c arg1 harg1 x0 (ix2 u n) = Rw x0 n 5 0 1 := by
  delta kernelRun0_A.sl.r_55
  simp only [k0_pay133_apply c arg1 harg1 arg2 harg2 x0 x1]

theorem k0_pay134_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay134 (F := Ideal) (kernelRun0_A.sl.r_55 c arg1 harg1 x0) (ix1 n) = Rw x0 n 5 0 1 := by
  unfold k0_pay134
  simp only [shapeCast_1a_a_apply, r_55_apply c arg1 harg1 arg2 harg2 x0 x1]

theorem k0_pay137_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay137 (F := Ideal) (kernelRun0_A.sl.v2 c arg1 harg1 x0) (ix1 n) = Rw x0 n 5 1 1 := by
  unfold k0_pay137
  simp only [shapeCast_1a_a_apply, slice_row 49 (49 : Fin 198) rfl, v2_apply c arg1 harg1 arg2 harg2 x0 x1, Rw_eq x0 n 5 1 1 (49 : Fin 198) (by decide)]

theorem k0_pay140_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay140 (F := Ideal) (kernelRun0_A.sl.v2 c arg1 harg1 x0) (ix1 n) = Rw x0 n 5 2 1 := by
  unfold k0_pay140
  simp only [shapeCast_1a_a_apply, slice_row 52 (52 : Fin 198) rfl, v2_apply c arg1 harg1 arg2 harg2 x0 x1, Rw_eq x0 n 5 2 1 (52 : Fin 198) (by decide)]

theorem k0_pay149_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay149 (F := Ideal) (kernelRun0_A.sl.v2 c arg1 harg1 x0) (kernelRun0_A.sl.r_20 c arg1 harg1 x0) (kernelRun0_A.sl.r_21 c arg1 harg1 x0) (kernelRun0_A.sl.r_22 c arg1 harg1 x0) (kernelRun0_A.sl.r_55 c arg1 harg1 x0) (ix1 n) = Cn x0 x1 n 5 2 1 := by
  refine Eq.trans ?_ (Cn_step x0 x1 n 5 2 (by decide) rfl (by decide) 2 1).symm
  unfold k0_pay149
  simp only [addf_apply, mulf_apply, r_20_apply c arg1 harg1 arg2 harg2 x0 x1, k0_pay134_apply c arg1 harg1 arg2 harg2 x0 x1, r_21_apply c arg1 harg1 arg2 harg2 x0 x1, k0_pay137_apply c arg1 harg1 arg2 harg2 x0 x1, r_22_apply c arg1 harg1 arg2 harg2 x0 x1, k0_pay140_apply c arg1 harg1 arg2 harg2 x0 x1]

theorem r_63_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_63 c arg1 harg1 x0 (ix1 n) = Cn x0 x1 n 5 2 1 := by
  delta kernelRun0_A.sl.r_63
  simp only [k0_pay149_apply c arg1 harg1 arg2 harg2 x0 x1]

theorem k0_pay135_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay135 (F := Ideal) (kernelRun0_A.sl.v2 c arg1 harg1 x0) (ix1 n) = Rw x0 n 5 0 2 := by
  unfold k0_pay135
  simp only [shapeCast_1a_a_apply, slice_row 47 (47 : Fin 198) rfl, v2_apply c arg1 harg1 arg2 harg2 x0 x1, Rw_eq x0 n 5 0 2 (47 : Fin 198) (by decide)]

theorem k0_pay138_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay138 (F := Ideal) (kernelRun0_A.sl.v2 c arg1 harg1 x0) (ix1 n) = Rw x0 n 5 1 2 := by
  unfold k0_pay138
  simp only [shapeCast_1a_a_apply, slice_row 50 (50 : Fin 198) rfl, v2_apply c arg1 harg1 arg2 harg2 x0 x1, Rw_eq x0 n 5 1 2 (50 : Fin 198) (by decide)]

theorem k0_pay141_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay141 (F := Ideal) (kernelRun0_A.sl.v2 c arg1 harg1 x0) (ix1 n) = Rw x0 n 5 2 2 := by
  unfold k0_pay141
  simp only [shapeCast_1a_a_apply, slice_row 53 (53 : Fin 198) rfl, v2_apply c arg1 harg1 arg2 harg2 x0 x1, Rw_eq x0 n 5 2 2 (53 : Fin 198) (by decide)]

theorem k0_pay150_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay150 (F := Ideal) (kernelRun0_A.sl.v2 c arg1 harg1 x0) (kernelRun0_A.sl.r_20 c arg1 harg1 x0) (kernelRun0_A.sl.r_21 c arg1 harg1 x0) (kernelRun0_A.sl.r_22 c arg1 harg1 x0) (ix1 n) = Cn x0 x1 n 5 2 2 := by
  refine Eq.trans ?_ (Cn_step x0 x1 n 5 2 (by decide) rfl (by decide) 2 2).symm
  unfold k0_pay150
  simp only [addf_apply, mulf_apply, r_20_apply c arg1 harg1 arg2 harg2 x0 x1, k0_pay135_apply c arg1 harg1 arg2 harg2 x0 x1, r_21_apply c arg1 harg1 arg2 harg2 x0 x1, k0_pay138_apply c arg1 harg1 arg2 harg2 x0 x1, r_22_apply c arg1 harg1 arg2 harg2 x0 x1, k0_pay141_apply c arg1 harg1 arg2 harg2 x0 x1]

theorem r_64_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_64 c arg1 harg1 x0 (ix1 n) = Cn x0 x1 n 5 2 2 := by
  delta kernelRun0_A.sl.r_64
  simp only [k0_pay150_apply c arg1 harg1 arg2 harg2 x0 x1]

theorem k0_pay216_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay216 (F := Ideal) (kernelRun0_A.sl.v2 c arg1 harg1 x0) (ix1 n) = Rw x0 n 8 0 0 := by
  unfold k0_pay216
  simp only [shapeCast_1a_a_apply, slice_row 72 (72 : Fin 198) rfl, v2_apply c arg1 harg1 arg2 harg2 x0 x1, Rw_eq x0 n 8 0 0 (72 : Fin 198) (by decide)]

theorem r_96_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_96 c arg1 harg1 x0 (ix1 n) = Rw x0 n 8 0 0 := by
  delta kernelRun0_A.sl.r_96
  simp only [k0_pay216_apply c arg1 harg1 arg2 harg2 x0 x1]

theorem k0_pay220_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay220 (F := Ideal) (kernelRun0_A.sl.v2 c arg1 harg1 x0) (ix1 n) = Rw x0 n 8 1 0 := by
  unfold k0_pay220
  simp only [shapeCast_1a_a_apply, slice_row 75 (75 : Fin 198) rfl, v2_apply c arg1 harg1 arg2 harg2 x0 x1, Rw_eq x0 n 8 1 0 (75 : Fin 198) (by decide)]

theorem k0_pay223_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay223 (F := Ideal) (kernelRun0_A.sl.v2 c arg1 harg1 x0) (ix1 n) = Rw x0 n 8 2 0 := by
  unfold k0_pay223
  simp only [shapeCast_1a_a_apply, slice_row 78 (78 : Fin 198) rfl, v2_apply c arg1 harg1 arg2 harg2 x0 x1, Rw_eq x0 n 8 2 0 (78 : Fin 198) (by decide)]

theorem k0_pay232_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay232 (F := Ideal) (kernelRun0_A.sl.v2 c arg1 harg1 x0) (kernelRun0_A.sl.r_62 c arg1 harg1 x0) (kernelRun0_A.sl.r_63 c arg1 harg1 x0) (kernelRun0_A.sl.r_64 c arg1 harg1 x0) (kernelRun0_A.sl.r_96 c arg1 harg1 x0) (ix1 n) = Cn x0 x1 n 8 2 0 := by
  refine Eq.trans ?_ (Cn_step x0 x1 n 8 5 (by decide) rfl (by decide) 2 0).symm
  unfold k0_pay232
  simp only [addf_apply, mulf_apply, r_62_apply c arg1 harg1 arg2 harg2 x0 x1, r_96_apply c arg1 harg1 arg2 harg2 x0 x1, r_63_apply c arg1 harg1 arg2 harg2 x0 x1, k0_pay220_apply c arg1 harg1 arg2 harg2 x0 x1, r_64_apply c arg1 harg1 arg2 harg2 x0 x1, k0_pay223_apply c arg1 harg1 arg2 harg2 x0 x1]

theorem r_104_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_104 c arg1 harg1 x0 (ix1 n) = Cn x0 x1 n 8 2 0 := by
  delta kernelRun0_A.sl.r_104
  simp only [k0_pay232_apply c arg1 harg1 arg2 harg2 x0 x1]

theorem k0_pay217_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay217 (F := Ideal) (kernelRun0_A.sl.v2 c arg1 harg1 x0) (ix2 u n) = Rw x0 n 8 0 1 := by
  unfold k0_pay217
  simp only [slice_row 73 (73 : Fin 198) rfl, v2_apply c arg1 harg1 arg2 harg2 x0 x1, Rw_eq x0 n 8 0 1 (73 : Fin 198) (by decide)]

theorem r_97_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_97 c arg1 harg1 x0 (ix2 u n) = Rw x0 n 8 0 1 := by
  delta kernelRun0_A.sl.r_97
  simp only [k0_pay217_apply c arg1 harg1 arg2 harg2 x0 x1]

theorem k0_pay218_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay218 (F := Ideal) (kernelRun0_A.sl.r_97 c arg1 harg1 x0) (ix1 n) = Rw x0 n 8 0 1 := by
  unfold k0_pay218
  simp only [shapeCast_1a_a_apply, r_97_apply c arg1 harg1 arg2 harg2 x0 x1]

theorem k0_pay221_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay221 (F := Ideal) (kernelRun0_A.sl.v2 c arg1 harg1 x0) (ix1 n) = Rw x0 n 8 1 1 := by
  unfold k0_pay221
  simp only [shapeCast_1a_a_apply, slice_row 76 (76 : Fin 198) rfl, v2_apply c arg1 harg1 arg2 harg2 x0 x1, Rw_eq x0 n 8 1 1 (76 : Fin 198) (by decide)]

theorem k0_pay224_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay224 (F := Ideal) (kernelRun0_A.sl.v2 c arg1 harg1 x0) (ix1 n) = Rw x0 n 8 2 1 := by
  unfold k0_pay224
  simp only [shapeCast_1a_a_apply, slice_row 79 (79 : Fin 198) rfl, v2_apply c arg1 harg1 arg2 harg2 x0 x1, Rw_eq x0 n 8 2 1 (79 : Fin 198) (by decide)]

theorem k0_pay233_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay233 (F := Ideal) (kernelRun0_A.sl.v2 c arg1 harg1 x0) (kernelRun0_A.sl.r_62 c arg1 harg1 x0) (kernelRun0_A.sl.r_63 c arg1 harg1 x0) (kernelRun0_A.sl.r_64 c arg1 harg1 x0) (kernelRun0_A.sl.r_97 c arg1 harg1 x0) (ix1 n) = Cn x0 x1 n 8 2 1 := by
  refine Eq.trans ?_ (Cn_step x0 x1 n 8 5 (by decide) rfl (by decide) 2 1).symm
  unfold k0_pay233
  simp only [addf_apply, mulf_apply, r_62_apply c arg1 harg1 arg2 harg2 x0 x1, k0_pay218_apply c arg1 harg1 arg2 harg2 x0 x1, r_63_apply c arg1 harg1 arg2 harg2 x0 x1, k0_pay221_apply c arg1 harg1 arg2 harg2 x0 x1, r_64_apply c arg1 harg1 arg2 harg2 x0 x1, k0_pay224_apply c arg1 harg1 arg2 harg2 x0 x1]

theorem r_105_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_105 c arg1 harg1 x0 (ix1 n) = Cn x0 x1 n 8 2 1 := by
  delta kernelRun0_A.sl.r_105
  simp only [k0_pay233_apply c arg1 harg1 arg2 harg2 x0 x1]

theorem k0_pay219_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay219 (F := Ideal) (kernelRun0_A.sl.v2 c arg1 harg1 x0) (ix1 n) = Rw x0 n 8 0 2 := by
  unfold k0_pay219
  simp only [shapeCast_1a_a_apply, slice_row 74 (74 : Fin 198) rfl, v2_apply c arg1 harg1 arg2 harg2 x0 x1, Rw_eq x0 n 8 0 2 (74 : Fin 198) (by decide)]

theorem k0_pay222_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay222 (F := Ideal) (kernelRun0_A.sl.v2 c arg1 harg1 x0) (ix1 n) = Rw x0 n 8 1 2 := by
  unfold k0_pay222
  simp only [shapeCast_1a_a_apply, slice_row 77 (77 : Fin 198) rfl, v2_apply c arg1 harg1 arg2 harg2 x0 x1, Rw_eq x0 n 8 1 2 (77 : Fin 198) (by decide)]

theorem k0_pay225_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay225 (F := Ideal) (kernelRun0_A.sl.v2 c arg1 harg1 x0) (ix1 n) = Rw x0 n 8 2 2 := by
  unfold k0_pay225
  simp only [shapeCast_1a_a_apply, slice_row 80 (80 : Fin 198) rfl, v2_apply c arg1 harg1 arg2 harg2 x0 x1, Rw_eq x0 n 8 2 2 (80 : Fin 198) (by decide)]

theorem k0_pay234_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay234 (F := Ideal) (kernelRun0_A.sl.v2 c arg1 harg1 x0) (kernelRun0_A.sl.r_62 c arg1 harg1 x0) (kernelRun0_A.sl.r_63 c arg1 harg1 x0) (kernelRun0_A.sl.r_64 c arg1 harg1 x0) (ix1 n) = Cn x0 x1 n 8 2 2 := by
  refine Eq.trans ?_ (Cn_step x0 x1 n 8 5 (by decide) rfl (by decide) 2 2).symm
  unfold k0_pay234
  simp only [addf_apply, mulf_apply, r_62_apply c arg1 harg1 arg2 harg2 x0 x1, k0_pay219_apply c arg1 harg1 arg2 harg2 x0 x1, r_63_apply c arg1 harg1 arg2 harg2 x0 x1, k0_pay222_apply c arg1 harg1 arg2 harg2 x0 x1, r_64_apply c arg1 harg1 arg2 harg2 x0 x1, k0_pay225_apply c arg1 harg1 arg2 harg2 x0 x1]

theorem r_106_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_106 c arg1 harg1 x0 (ix1 n) = Cn x0 x1 n 8 2 2 := by
  delta kernelRun0_A.sl.r_106
  simp only [k0_pay234_apply c arg1 harg1 arg2 harg2 x0 x1]

theorem k0_pay67_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay67 (F := Ideal) (View.readAt (Elt Ideal) arg2.view (Rect.unit (s := S3x55) ![0, 2] S1x1.size inb_S3x55_S1x1_0_2).toLoadRect (harg2.unread x1)) = Of x1 2 0 := by
  unfold k0_pay67
  simp only [rel_read x1 arg2 harg2 0 2 (0 : Fin 3) rfl (by decide)]

theorem k0_pay68_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay68 (F := Ideal) (View.readAt (Elt Ideal) arg2.view (Rect.unit (s := S3x55) ![1, 2] S1x1.size inb_S3x55_S1x1_1_2).toLoadRect (harg2.unread x1)) = Of x1 2 1 := by
  unfold k0_pay68
  simp only [rel_read x1 arg2 harg2 1 2 (1 : Fin 3) rfl (by decide)]

theorem k0_pay69_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay69 (F := Ideal) (View.readAt (Elt Ideal) arg2.view (Rect.unit (s := S3x55) ![2, 2] S1x1.size inb_S3x55_S1x1_2_2).toLoadRect (harg2.unread x1)) = Of x1 2 2 := by
  unfold k0_pay69
  simp only [rel_read x1 arg2 harg2 2 2 (2 : Fin 3) rfl (by decide)]

theorem k0_pay72_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay72 (F := Ideal) (kernelRun0_A.sl.v16 c arg1 harg1 x0) (kernelRun0_A.sl.v18 c arg1 harg1 x0) (kernelRun0_A.sl.v20 c arg1 harg1 x0) (kernelRun0_A.sl.v29 c arg2 harg2 x1) (View.readAt (Elt Ideal) arg2.view (Rect.unit (s := S3x55) ![0, 2] S1x1.size inb_S3x55_S1x1_0_2).toLoadRect (harg2.unread x1)) (View.readAt (Elt Ideal) arg2.view (Rect.unit (s := S3x55) ![1, 2] S1x1.size inb_S3x55_S1x1_1_2).toLoadRect (harg2.unread x1)) (View.readAt (Elt Ideal) arg2.view (Rect.unit (s := S3x55) ![2, 2] S1x1.size inb_S3x55_S1x1_2_2).toLoadRect (harg2.unread x1)) (ix1 n) = Pn x0 x1 n 2 2 := by
  refine Eq.trans ?_ (Pn_step x0 x1 n 2 0 (by decide) rfl 2).symm
  unfold k0_pay72
  simp only [addf_apply, mulf_apply, v16_apply c arg1 harg1 arg2 harg2 x0 x1, broadcast_apply, k0_pay67_apply c arg1 harg1 arg2 harg2 x0 x1, v18_apply c arg1 harg1 arg2 harg2 x0 x1, k0_pay68_apply c arg1 harg1 arg2 harg2 x0 x1, v20_apply c arg1 harg1 arg2 harg2 x0 x1, k0_pay69_apply c arg1 harg1 arg2 harg2 x0 x1, v29_apply c arg1 harg1 arg2 harg2 x0 x1]

theorem r_25_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_25 c arg1 harg1 arg2 harg2 x0 x1 (ix1 n) = Pn x0 x1 n 2 2 := by
  delta kernelRun0_A.sl.r_25
  simp only [k0_pay72_apply c arg1 harg1 arg2 harg2 x0 x1]

theorem k0_pay151_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay151 (F := Ideal) (View.readAt (Elt Ideal) arg2.view (Rect.unit (s := S3x55) ![0, 5] S1x1.size inb_S3x55_S1x1_0_5).toLoadRect (harg2.unread x1)) = Of x1 5 0 := by
  unfold k0_pay151
  simp only [rel_read x1 arg2 harg2 0 5 (0 : Fin 3) rfl (by decide)]

theorem k0_pay152_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay152 (F := Ideal) (View.readAt (Elt Ideal) arg2.view (Rect.unit (s := S3x55) ![1, 5] S1x1.size inb_S3x55_S1x1_1_5).toLoadRect (harg2.unread x1)) = Of x1 5 1 := by
  unfold k0_pay152
  simp only [rel_read x1 arg2 harg2 1 5 (1 : Fin 3) rfl (by decide)]

theorem k0_pay153_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay153 (F := Ideal) (View.readAt (Elt Ideal) arg2.view (Rect.unit (s := S3x55) ![2, 5] S1x1.size inb_S3x55_S1x1_2_5).toLoadRect (harg2.unread x1)) = Of x1 5 2 := by
  unfold k0_pay153
  simp only [rel_read x1 arg2 harg2 2 5 (2 : Fin 3) rfl (by decide)]

theorem k0_pay156_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay156 (F := Ideal) (kernelRun0_A.sl.r_20 c arg1 harg1 x0) (kernelRun0_A.sl.r_21 c arg1 harg1 x0) (kernelRun0_A.sl.r_22 c arg1 harg1 x0) (kernelRun0_A.sl.r_25 c arg1 harg1 arg2 harg2 x0 x1) (View.readAt (Elt Ideal) arg2.view (Rect.unit (s := S3x55) ![0, 5] S1x1.size inb_S3x55_S1x1_0_5).toLoadRect (harg2.unread x1)) (View.readAt (Elt Ideal) arg2.view (Rect.unit (s := S3x55) ![1, 5] S1x1.size inb_S3x55_S1x1_1_5).toLoadRect (harg2.unread x1)) (View.readAt (Elt Ideal) arg2.view (Rect.unit (s := S3x55) ![2, 5] S1x1.size inb_S3x55_S1x1_2_5).toLoadRect (harg2.unread x1)) (ix1 n) = Pn x0 x1 n 5 2 := by
  refine Eq.trans ?_ (Pn_step x0 x1 n 5 2 (by decide) rfl 2).symm
  unfold k0_pay156
  simp only [addf_apply, mulf_apply, r_20_apply c arg1 harg1 arg2 harg2 x0 x1, broadcast_apply, k0_pay151_apply c arg1 harg1 arg2 harg2 x0 x1, r_21_apply c arg1 harg1 arg2 harg2 x0 x1, k0_pay152_apply c arg1 harg1 arg2 harg2 x0 x1, r_22_apply c arg1 harg1 arg2 harg2 x0 x1, k0_pay153_apply c arg1 harg1 arg2 harg2 x0 x1, r_25_apply c arg1 harg1 arg2 harg2 x0 x1]

theorem r_67_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_67 c arg1 harg1 arg2 harg2 x0 x1 (ix1 n) = Pn x0 x1 n 5 2 := by
  delta kernelRun0_A.sl.r_67
  simp only [k0_pay156_apply c arg1 harg1 arg2 harg2 x0 x1]

theorem k0_pay235_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay235 (F := Ideal) (View.readAt (Elt Ideal) arg2.view (Rect.unit (s := S3x55) ![0, 8] S1x1.size inb_S3x55_S1x1_0_8).toLoadRect (harg2.unread x1)) = Of x1 8 0 := by
  unfold k0_pay235
  simp only [rel_read x1 arg2 harg2 0 8 (0 : Fin 3) rfl (by decide)]

theorem k0_pay236_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay236 (F := Ideal) (View.readAt (Elt Ideal) arg2.view (Rect.unit (s := S3x55) ![1, 8] S1x1.size inb_S3x55_S1x1_1_8).toLoadRect (harg2.unread x1)) = Of x1 8 1 := by
  unfold k0_pay236
  simp only [rel_read x1 arg2 harg2 1 8 (1 : Fin 3) rfl (by decide)]

theorem k0_pay237_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay237 (F := Ideal) (View.readAt (Elt Ideal) arg2.view (Rect.unit (s := S3x55) ![2, 8] S1x1.size inb_S3x55_S1x1_2_8).toLoadRect (harg2.unread x1)) = Of x1 8 2 := by
  unfold k0_pay237
  simp only [rel_read x1 arg2 harg2 2 8 (2 : Fin 3) rfl (by decide)]

theorem k0_pay240_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay240 (F := Ideal) (kernelRun0_A.sl.r_62 c arg1 harg1 x0) (kernelRun0_A.sl.r_63 c arg1 harg1 x0) (kernelRun0_A.sl.r_64 c arg1 harg1 x0) (kernelRun0_A.sl.r_67 c arg1 harg1 arg2 harg2 x0 x1) (View.readAt (Elt Ideal) arg2.view (Rect.unit (s := S3x55) ![0, 8] S1x1.size inb_S3x55_S1x1_0_8).toLoadRect (harg2.unread x1)) (View.readAt (Elt Ideal) arg2.view (Rect.unit (s := S3x55) ![1, 8] S1x1.size inb_S3x55_S1x1_1_8).toLoadRect (harg2.unread x1)) (View.readAt (Elt Ideal) arg2.view (Rect.unit (s := S3x55) ![2, 8] S1x1.size inb_S3x55_S1x1_2_8).toLoadRect (harg2.unread x1)) (ix1 n) = Pn x0 x1 n 8 2 := by
  refine Eq.trans ?_ (Pn_step x0 x1 n 8 5 (by decide) rfl 2).symm
  unfold k0_pay240
  simp only [addf_apply, mulf_apply, r_62_apply c arg1 harg1 arg2 harg2 x0 x1, broadcast_apply, k0_pay235_apply c arg1 harg1 arg2 harg2 x0 x1, r_63_apply c arg1 harg1 arg2 harg2 x0 x1, k0_pay236_apply c arg1 harg1 arg2 harg2 x0 x1, r_64_apply c arg1 harg1 arg2 harg2 x0 x1, k0_pay237_apply c arg1 harg1 arg2 harg2 x0 x1, r_67_apply c arg1 harg1 arg2 harg2 x0 x1]

theorem r_109_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_109 c arg1 harg1 arg2 harg2 x0 x1 (ix1 n) = Pn x0 x1 n 8 2 := by
  delta kernelRun0_A.sl.r_109
  simp only [k0_pay240_apply c arg1 harg1 arg2 harg2 x0 x1]

theorem k0_pay278_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay278 (F := Ideal) (View.readAt (Elt Ideal) arg2.view (Rect.unit (s := S3x55) ![0, 11] S1x1.size inb_S3x55_S1x1_0_11).toLoadRect (harg2.unread x1)) = Of x1 11 0 := by
  unfold k0_pay278
  simp only [rel_read x1 arg2 harg2 0 11 (0 : Fin 3) rfl (by decide)]

theorem r_125_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    kernelRun0_A.sl.r_125 c arg2 harg2 x1 = Of x1 11 0 := by
  delta kernelRun0_A.sl.r_125
  simp only [k0_pay278_apply c arg1 harg1 arg2 harg2 x0 x1]

theorem k0_pay279_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay279 (F := Ideal) (View.readAt (Elt Ideal) arg2.view (Rect.unit (s := S3x55) ![1, 11] S1x1.size inb_S3x55_S1x1_1_11).toLoadRect (harg2.unread x1)) = Of x1 11 1 := by
  unfold k0_pay279
  simp only [rel_read x1 arg2 harg2 1 11 (1 : Fin 3) rfl (by decide)]

theorem k0_pay280_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay280 (F := Ideal) (View.readAt (Elt Ideal) arg2.view (Rect.unit (s := S3x55) ![2, 11] S1x1.size inb_S3x55_S1x1_2_11).toLoadRect (harg2.unread x1)) = Of x1 11 2 := by
  unfold k0_pay280
  simp only [rel_read x1 arg2 harg2 2 11 (2 : Fin 3) rfl (by decide)]

theorem k0_pay283_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay283 (F := Ideal) (kernelRun0_A.sl.r_104 c arg1 harg1 x0) (kernelRun0_A.sl.r_105 c arg1 harg1 x0) (kernelRun0_A.sl.r_106 c arg1 harg1 x0) (kernelRun0_A.sl.r_109 c arg1 harg1 arg2 harg2 x0 x1) (kernelRun0_A.sl.r_125 c arg2 harg2 x1) (View.readAt (Elt Ideal) arg2.view (Rect.unit (s := S3x55) ![1, 11] S1x1.size inb_S3x55_S1x1_1_11).toLoadRect (harg2.unread x1)) (View.readAt (Elt Ideal) arg2.view (Rect.unit (s := S3x55) ![2, 11] S1x1.size inb_S3x55_S1x1_2_11).toLoadRect (harg2.unread x1)) (ix2 u n) = Pn x0 x1 n 11 2 := by
  refine Eq.trans ?_ (Pn_step x0 x1 n 11 8 (by decide) rfl 2).symm
  unfold k0_pay283
  simp only [shapeCast_a_1a_apply, addf_apply, mulf_apply, r_104_apply c arg1 harg1 arg2 harg2 x0 x1, broadcast_apply, r_125_apply c arg1 harg1 arg2 harg2 x0 x1, r_105_apply c arg1 harg1 arg2 harg2 x0 x1, k0_pay279_apply c arg1 harg1 arg2 harg2 x0 x1, r_106_apply c arg1 harg1 arg2 harg2 x0 x1, k0_pay280_apply c arg1 harg1 arg2 harg2 x0 x1, r_109_apply c arg1 harg1 arg2 harg2 x0 x1]

theorem k0_pay61_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay61 (F := Ideal) (kernelRun0_A.sl.v2 c arg1 harg1 x0) (kernelRun0_A.sl.v10 c arg1 harg1 x0) (kernelRun0_A.sl.v12 c arg1 harg1 x0) (kernelRun0_A.sl.v14 c arg1 harg1 x0) (kernelRun0_A.sl.r_12 c arg1 harg1 x0) (ix1 n) = Cn x0 x1 n 2 1 0 := by
  refine Eq.trans ?_ (Cn_step x0 x1 n 2 0 (by decide) rfl (by decide) 1 0).symm
  unfold k0_pay61
  simp only [addf_apply, mulf_apply, v10_apply c arg1 harg1 arg2 harg2 x0 x1, r_12_apply c arg1 harg1 arg2 harg2 x0 x1, v12_apply c arg1 harg1 arg2 harg2 x0 x1, k0_pay52_apply c arg1 harg1 arg2 harg2 x0 x1, v14_apply c arg1 harg1 arg2 harg2 x0 x1, k0_pay55_apply c arg1 harg1 arg2 harg2 x0 x1]

theorem r_17_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_17 c arg1 harg1 x0 (ix1 n) = Cn x0 x1 n 2 1 0 := by
  delta kernelRun0_A.sl.r_17
  simp only [k0_pay61_apply c arg1 harg1 arg2 harg2 x0 x1]

theorem k0_pay62_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay62 (F := Ideal) (kernelRun0_A.sl.v2 c arg1 harg1 x0) (kernelRun0_A.sl.v10 c arg1 harg1 x0) (kernelRun0_A.sl.v12 c arg1 harg1 x0) (kernelRun0_A.sl.v14 c arg1 harg1 x0) (kernelRun0_A.sl.r_13 c arg1 harg1 x0) (ix1 n) = Cn x0 x1 n 2 1 1 := by
  refine Eq.trans ?_ (Cn_step x0 x1 n 2 0 (by decide) rfl (by decide) 1 1).symm
  unfold k0_pay62
  simp only [addf_apply, mulf_apply, v10_apply c arg1 harg1 arg2 harg2 x0 x1, k0_pay50_apply c arg1 harg1 arg2 harg2 x0 x1, v12_apply c arg1 harg1 arg2 harg2 x0 x1, k0_pay53_apply c arg1 harg1 arg2 harg2 x0 x1, v14_apply c arg1 harg1 arg2 harg2 x0 x1, k0_pay56_apply c arg1 harg1 arg2 harg2 x0 x1]

theorem r_18_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_18 c arg1 harg1 x0 (ix1 n) = Cn x0 x1 n 2 1 1 := by
  delta kernelRun0_A.sl.r_18
  simp only [k0_pay62_apply c arg1 harg1 arg2 harg2 x0 x1]

theorem k0_pay63_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay63 (F := Ideal) (kernelRun0_A.sl.v2 c arg1 harg1 x0) (kernelRun0_A.sl.v10 c arg1 harg1 x0) (kernelRun0_A.sl.v12 c arg1 harg1 x0) (kernelRun0_A.sl.v14 c arg1 harg1 x0) (ix1 n) = Cn x0 x1 n 2 1 2 := by
  refine Eq.trans ?_ (Cn_step x0 x1 n 2 0 (by decide) rfl (by decide) 1 2).symm
  unfold k0_pay63
  simp only [addf_apply, mulf_apply, v10_apply c arg1 harg1 arg2 harg2 x0 x1, k0_pay51_apply c arg1 harg1 arg2 harg2 x0 x1, v12_apply c arg1 harg1 arg2 harg2 x0 x1, k0_pay54_apply c arg1 harg1 arg2 harg2 x0 x1, v14_apply c arg1 harg1 arg2 harg2 x0 x1, k0_pay57_apply c arg1 harg1 arg2 harg2 x0 x1]

theorem r_19_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_19 c arg1 harg1 x0 (ix1 n) = Cn x0 x1 n 2 1 2 := by
  delta kernelRun0_A.sl.r_19
  simp only [k0_pay63_apply c arg1 harg1 arg2 harg2 x0 x1]

theorem k0_pay145_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay145 (F := Ideal) (kernelRun0_A.sl.v2 c arg1 harg1 x0) (kernelRun0_A.sl.r_17 c arg1 harg1 x0) (kernelRun0_A.sl.r_18 c arg1 harg1 x0) (kernelRun0_A.sl.r_19 c arg1 harg1 x0) (kernelRun0_A.sl.r_54 c arg1 harg1 x0) (ix1 n) = Cn x0 x1 n 5 1 0 := by
  refine Eq.trans ?_ (Cn_step x0 x1 n 5 2 (by decide) rfl (by decide) 1 0).symm
  unfold k0_pay145
  simp only [addf_apply, mulf_apply, r_17_apply c arg1 harg1 arg2 harg2 x0 x1, r_54_apply c arg1 harg1 arg2 harg2 x0 x1, r_18_apply c arg1 harg1 arg2 harg2 x0 x1, k0_pay136_apply c arg1 harg1 arg2 harg2 x0 x1, r_19_apply c arg1 harg1 arg2 harg2 x0 x1, k0_pay139_apply c arg1 harg1 arg2 harg2 x0 x1]

theorem r_59_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_59 c arg1 harg1 x0 (ix1 n) = Cn x0 x1 n 5 1 0 := by
  delta kernelRun0_A.sl.r_59
  simp only [k0_pay145_apply c arg1 harg1 arg2 harg2 x0 x1]

theorem k0_pay146_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay146 (F := Ideal) (kernelRun0_A.sl.v2 c arg1 harg1 x0) (kernelRun0_A.sl.r_17 c arg1 harg1 x0) (kernelRun0_A.sl.r_18 c arg1 harg1 x0) (kernelRun0_A.sl.r_19 c arg1 harg1 x0) (kernelRun0_A.sl.r_55 c arg1 harg1 x0) (ix1 n) = Cn x0 x1 n 5 1 1 := by
  refine Eq.trans ?_ (Cn_step x0 x1 n 5 2 (by decide) rfl (by decide) 1 1).symm
  unfold k0_pay146
  simp only [addf_apply, mulf_apply, r_17_apply c arg1 harg1 arg2 harg2 x0 x1, k0_pay134_apply c arg1 harg1 arg2 harg2 x0 x1, r_18_apply c arg1 harg1 arg2 harg2 x0 x1, k0_pay137_apply c arg1 harg1 arg2 harg2 x0 x1, r_19_apply c arg1 harg1 arg2 harg2 x0 x1, k0_pay140_apply c arg1 harg1 arg2 harg2 x0 x1]

theorem r_60_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_60 c arg1 harg1 x0 (ix1 n) = Cn x0 x1 n 5 1 1 := by
  delta kernelRun0_A.sl.r_60
  simp only [k0_pay146_apply c arg1 harg1 arg2 harg2 x0 x1]

theorem k0_pay147_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay147 (F := Ideal) (kernelRun0_A.sl.v2 c arg1 harg1 x0) (kernelRun0_A.sl.r_17 c arg1 harg1 x0) (kernelRun0_A.sl.r_18 c arg1 harg1 x0) (kernelRun0_A.sl.r_19 c arg1 harg1 x0) (ix1 n) = Cn x0 x1 n 5 1 2 := by
  refine Eq.trans ?_ (Cn_step x0 x1 n 5 2 (by decide) rfl (by decide) 1 2).symm
  unfold k0_pay147
  simp only [addf_apply, mulf_apply, r_17_apply c arg1 harg1 arg2 harg2 x0 x1, k0_pay135_apply c arg1 harg1 arg2 harg2 x0 x1, r_18_apply c arg1 harg1 arg2 harg2 x0 x1, k0_pay138_apply c arg1 harg1 arg2 harg2 x0 x1, r_19_apply c arg1 harg1 arg2 harg2 x0 x1, k0_pay141_apply c arg1 harg1 arg2 harg2 x0 x1]

theorem r_61_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_61 c arg1 harg1 x0 (ix1 n) = Cn x0 x1 n 5 1 2 := by
  delta kernelRun0_A.sl.r_61
  simp only [k0_pay147_apply c arg1 harg1 arg2 harg2 x0 x1]

theorem k0_pay229_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay229 (F := Ideal) (kernelRun0_A.sl.v2 c arg1 harg1 x0) (kernelRun0_A.sl.r_59 c arg1 harg1 x0) (kernelRun0_A.sl.r_60 c arg1 harg1 x0) (kernelRun0_A.sl.r_61 c arg1 harg1 x0) (kernelRun0_A.sl.r_96 c arg1 harg1 x0) (ix1 n) = Cn x0 x1 n 8 1 0 := by
  refine Eq.trans ?_ (Cn_step x0 x1 n 8 5 (by decide) rfl (by decide) 1 0).symm
  unfold k0_pay229
  simp only [addf_apply, mulf_apply, r_59_apply c arg1 harg1 arg2 harg2 x0 x1, r_96_apply c arg1 harg1 arg2 harg2 x0 x1, r_60_apply c arg1 harg1 arg2 harg2 x0 x1, k0_pay220_apply c arg1 harg1 arg2 harg2 x0 x1, r_61_apply c arg1 harg1 arg2 harg2 x0 x1, k0_pay223_apply c arg1 harg1 arg2 harg2 x0 x1]

theorem r_101_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_101 c arg1 harg1 x0 (ix1 n) = Cn x0 x1 n 8 1 0 := by
  delta kernelRun0_A.sl.r_101
  simp only [k0_pay229_apply c arg1 harg1 arg2 harg2 x0 x1]

theorem k0_pay230_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay230 (F := Ideal) (kernelRun0_A.sl.v2 c arg1 harg1 x0) (kernelRun0_A.sl.r_59 c arg1 harg1 x0) (kernelRun0_A.sl.r_60 c arg1 harg1 x0) (kernelRun0_A.sl.r_61 c arg1 harg1 x0) (kernelRun0_A.sl.r_97 c arg1 harg1 x0) (ix1 n) = Cn x0 x1 n 8 1 1 := by
  refine Eq.trans ?_ (Cn_step x0 x1 n 8 5 (by decide) rfl (by decide) 1 1).symm
  unfold k0_pay230
  simp only [addf_apply, mulf_apply, r_59_apply c arg1 harg1 arg2 harg2 x0 x1, k0_pay218_apply c arg1 harg1 arg2 harg2 x0 x1, r_60_apply c arg1 harg1 arg2 harg2 x0 x1, k0_pay221_apply c arg1 harg1 arg2 harg2 x0 x1, r_61_apply c arg1 harg1 arg2 harg2 x0 x1, k0_pay224_apply c arg1 harg1 arg2 harg2 x0 x1]

theorem r_102_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_102 c arg1 harg1 x0 (ix1 n) = Cn x0 x1 n 8 1 1 := by
  delta kernelRun0_A.sl.r_102
  simp only [k0_pay230_apply c arg1 harg1 arg2 harg2 x0 x1]

theorem k0_pay231_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay231 (F := Ideal) (kernelRun0_A.sl.v2 c arg1 harg1 x0) (kernelRun0_A.sl.r_59 c arg1 harg1 x0) (kernelRun0_A.sl.r_60 c arg1 harg1 x0) (kernelRun0_A.sl.r_61 c arg1 harg1 x0) (ix1 n) = Cn x0 x1 n 8 1 2 := by
  refine Eq.trans ?_ (Cn_step x0 x1 n 8 5 (by decide) rfl (by decide) 1 2).symm
  unfold k0_pay231
  simp only [addf_apply, mulf_apply, r_59_apply c arg1 harg1 arg2 harg2 x0 x1, k0_pay219_apply c arg1 harg1 arg2 harg2 x0 x1, r_60_apply c arg1 harg1 arg2 harg2 x0 x1, k0_pay222_apply c arg1 harg1 arg2 harg2 x0 x1, r_61_apply c arg1 harg1 arg2 harg2 x0 x1, k0_pay225_apply c arg1 harg1 arg2 harg2 x0 x1]

theorem r_103_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_103 c arg1 harg1 x0 (ix1 n) = Cn x0 x1 n 8 1 2 := by
  delta kernelRun0_A.sl.r_103
  simp only [k0_pay231_apply c arg1 harg1 arg2 harg2 x0 x1]

theorem k0_pay71_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay71 (F := Ideal) (kernelRun0_A.sl.v10 c arg1 harg1 x0) (kernelRun0_A.sl.v12 c arg1 harg1 x0) (kernelRun0_A.sl.v14 c arg1 harg1 x0) (kernelRun0_A.sl.v26 c arg2 harg2 x1) (View.readAt (Elt Ideal) arg2.view (Rect.unit (s := S3x55) ![0, 2] S1x1.size inb_S3x55_S1x1_0_2).toLoadRect (harg2.unread x1)) (View.readAt (Elt Ideal) arg2.view (Rect.unit (s := S3x55) ![1, 2] S1x1.size inb_S3x55_S1x1_1_2).toLoadRect (harg2.unread x1)) (View.readAt (Elt Ideal) arg2.view (Rect.unit (s := S3x55) ![2, 2] S1x1.size inb_S3x55_S1x1_2_2).toLoadRect (harg2.unread x1)) (ix1 n) = Pn x0 x1 n 2 1 := by
  refine Eq.trans ?_ (Pn_step x0 x1 n 2 0 (by decide) rfl 1).symm
  unfold k0_pay71
  simp only [addf_apply, mulf_apply, v10_apply c arg1 harg1 arg2 harg2 x0 x1, broadcast_apply, k0_pay67_apply c arg1 harg1 arg2 harg2 x0 x1, v12_apply c arg1 harg1 arg2 harg2 x0 x1, k0_pay68_apply c arg1 harg1 arg2 harg2 x0 x1, v14_apply c arg1 harg1 arg2 harg2 x0 x1, k0_pay69_apply c arg1 harg1 arg2 harg2 x0 x1, v26_apply c arg1 harg1 arg2 harg2 x0 x1]

theorem r_24_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_24 c arg1 harg1 arg2 harg2 x0 x1 (ix1 n) = Pn x0 x1 n 2 1 := by
  delta kernelRun0_A.sl.r_24
  simp only [k0_pay71_apply c arg1 harg1 arg2 harg2 x0 x1]

theorem k0_pay155_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay155 (F := Ideal) (kernelRun0_A.sl.r_17 c arg1 harg1 x0) (kernelRun0_A.sl.r_18 c arg1 harg1 x0) (kernelRun0_A.sl.r_19 c arg1 harg1 x0) (kernelRun0_A.sl.r_24 c arg1 harg1 arg2 harg2 x0 x1) (View.readAt (Elt Ideal) arg2.view (Rect.unit (s := S3x55) ![0, 5] S1x1.size inb_S3x55_S1x1_0_5).toLoadRect (harg2.unread x1)) (View.readAt (Elt Ideal) arg2.view (Rect.unit (s := S3x55) ![1, 5] S1x1.size inb_S3x55_S1x1_1_5).toLoadRect (harg2.unread x1)) (View.readAt (Elt Ideal) arg2.view (Rect.unit (s := S3x55) ![2, 5] S1x1.size inb_S3x55_S1x1_2_5).toLoadRect (harg2.unread x1)) (ix1 n) = Pn x0 x1 n 5 1 := by
  refine Eq.trans ?_ (Pn_step x0 x1 n 5 2 (by decide) rfl 1).symm
  unfold k0_pay155
  simp only [addf_apply, mulf_apply, r_17_apply c arg1 harg1 arg2 harg2 x0 x1, broadcast_apply, k0_pay151_apply c arg1 harg1 arg2 harg2 x0 x1, r_18_apply c arg1 harg1 arg2 harg2 x0 x1, k0_pay152_apply c arg1 harg1 arg2 harg2 x0 x1, r_19_apply c arg1 harg1 arg2 harg2 x0 x1, k0_pay153_apply c arg1 harg1 arg2 harg2 x0 x1, r_24_apply c arg1 harg1 arg2 harg2 x0 x1]

theorem r_66_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_66 c arg1 harg1 arg2 harg2 x0 x1 (ix1 n) = Pn x0 x1 n 5 1 := by
  delta kernelRun0_A.sl.r_66
  simp only [k0_pay155_apply c arg1 harg1 arg2 harg2 x0 x1]

theorem k0_pay239_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay239 (F := Ideal) (kernelRun0_A.sl.r_59 c arg1 harg1 x0) (kernelRun0_A.sl.r_60 c arg1 harg1 x0) (kernelRun0_A.sl.r_61 c arg1 harg1 x0) (kernelRun0_A.sl.r_66 c arg1 harg1 arg2 harg2 x0 x1) (View.readAt (Elt Ideal) arg2.view (Rect.unit (s := S3x55) ![0, 8] S1x1.size inb_S3x55_S1x1_0_8).toLoadRect (harg2.unread x1)) (View.readAt (Elt Ideal) arg2.view (Rect.unit (s := S3x55) ![1, 8] S1x1.size inb_S3x55_S1x1_1_8).toLoadRect (harg2.unread x1)) (View.readAt (Elt Ideal) arg2.view (Rect.unit (s := S3x55) ![2, 8] S1x1.size inb_S3x55_S1x1_2_8).toLoadRect (harg2.unread x1)) (ix1 n) = Pn x0 x1 n 8 1 := by
  refine Eq.trans ?_ (Pn_step x0 x1 n 8 5 (by decide) rfl 1).symm
  unfold k0_pay239
  simp only [addf_apply, mulf_apply, r_59_apply c arg1 harg1 arg2 harg2 x0 x1, broadcast_apply, k0_pay235_apply c arg1 harg1 arg2 harg2 x0 x1, r_60_apply c arg1 harg1 arg2 harg2 x0 x1, k0_pay236_apply c arg1 harg1 arg2 harg2 x0 x1, r_61_apply c arg1 harg1 arg2 harg2 x0 x1, k0_pay237_apply c arg1 harg1 arg2 harg2 x0 x1, r_66_apply c arg1 harg1 arg2 harg2 x0 x1]

theorem r_108_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_108 c arg1 harg1 arg2 harg2 x0 x1 (ix1 n) = Pn x0 x1 n 8 1 := by
  delta kernelRun0_A.sl.r_108
  simp only [k0_pay239_apply c arg1 harg1 arg2 harg2 x0 x1]

theorem k0_pay282_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay282 (F := Ideal) (kernelRun0_A.sl.r_101 c arg1 harg1 x0) (kernelRun0_A.sl.r_102 c arg1 harg1 x0) (kernelRun0_A.sl.r_103 c arg1 harg1 x0) (kernelRun0_A.sl.r_108 c arg1 harg1 arg2 harg2 x0 x1) (kernelRun0_A.sl.r_125 c arg2 harg2 x1) (View.readAt (Elt Ideal) arg2.view (Rect.unit (s := S3x55) ![1, 11] S1x1.size inb_S3x55_S1x1_1_11).toLoadRect (harg2.unread x1)) (View.readAt (Elt Ideal) arg2.view (Rect.unit (s := S3x55) ![2, 11] S1x1.size inb_S3x55_S1x1_2_11).toLoadRect (harg2.unread x1)) (ix2 u n) = Pn x0 x1 n 11 1 := by
  refine Eq.trans ?_ (Pn_step x0 x1 n 11 8 (by decide) rfl 1).symm
  unfold k0_pay282
  simp only [shapeCast_a_1a_apply, addf_apply, mulf_apply, r_101_apply c arg1 harg1 arg2 harg2 x0 x1, broadcast_apply, r_125_apply c arg1 harg1 arg2 harg2 x0 x1, r_102_apply c arg1 harg1 arg2 harg2 x0 x1, k0_pay279_apply c arg1 harg1 arg2 harg2 x0 x1, r_103_apply c arg1 harg1 arg2 harg2 x0 x1, k0_pay280_apply c arg1 harg1 arg2 harg2 x0 x1, r_108_apply c arg1 harg1 arg2 harg2 x0 x1]

theorem k0_pay58_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay58 (F := Ideal) (kernelRun0_A.sl.v2 c arg1 harg1 x0) (kernelRun0_A.sl.v4 c arg1 harg1 x0) (kernelRun0_A.sl.v6 c arg1 harg1 x0) (kernelRun0_A.sl.v8 c arg1 harg1 x0) (kernelRun0_A.sl.r_12 c arg1 harg1 x0) (ix1 n) = Cn x0 x1 n 2 0 0 := by
  refine Eq.trans ?_ (Cn_step x0 x1 n 2 0 (by decide) rfl (by decide) 0 0).symm
  unfold k0_pay58
  simp only [addf_apply, mulf_apply, v4_apply c arg1 harg1 arg2 harg2 x0 x1, r_12_apply c arg1 harg1 arg2 harg2 x0 x1, v6_apply c arg1 harg1 arg2 harg2 x0 x1, k0_pay52_apply c arg1 harg1 arg2 harg2 x0 x1, v8_apply c arg1 harg1 arg2 harg2 x0 x1, k0_pay55_apply c arg1 harg1 arg2 harg2 x0 x1]

theorem r_14_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_14 c arg1 harg1 x0 (ix1 n) = Cn x0 x1 n 2 0 0 := by
  delta kernelRun0_A.sl.r_14
  simp only [k0_pay58_apply c arg1 harg1 arg2 harg2 x0 x1]

theorem k0_pay59_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay59 (F := Ideal) (kernelRun0_A.sl.v2 c arg1 harg1 x0) (kernelRun0_A.sl.v4 c arg1 harg1 x0) (kernelRun0_A.sl.v6 c arg1 harg1 x0) (kernelRun0_A.sl.v8 c arg1 harg1 x0) (kernelRun0_A.sl.r_13 c arg1 harg1 x0) (ix1 n) = Cn x0 x1 n 2 0 1 := by
  refine Eq.trans ?_ (Cn_step x0 x1 n 2 0 (by decide) rfl (by decide) 0 1).symm
  unfold k0_pay59
  simp only [addf_apply, mulf_apply, v4_apply c arg1 harg1 arg2 harg2 x0 x1, k0_pay50_apply c arg1 harg1 arg2 harg2 x0 x1, v6_apply c arg1 harg1 arg2 harg2 x0 x1, k0_pay53_apply c arg1 harg1 arg2 harg2 x0 x1, v8_apply c arg1 harg1 arg2 harg2 x0 x1, k0_pay56_apply c arg1 harg1 arg2 harg2 x0 x1]

theorem r_15_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_15 c arg1 harg1 x0 (ix1 n) = Cn x0 x1 n 2 0 1 := by
  delta kernelRun0_A.sl.r_15
  simp only [k0_pay59_apply c arg1 harg1 arg2 harg2 x0 x1]

theorem k0_pay60_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay60 (F := Ideal) (kernelRun0_A.sl.v2 c arg1 harg1 x0) (kernelRun0_A.sl.v4 c arg1 harg1 x0) (kernelRun0_A.sl.v6 c arg1 harg1 x0) (kernelRun0_A.sl.v8 c arg1 harg1 x0) (ix1 n) = Cn x0 x1 n 2 0 2 := by
  refine Eq.trans ?_ (Cn_step x0 x1 n 2 0 (by decide) rfl (by decide) 0 2).symm
  unfold k0_pay60
  simp only [addf_apply, mulf_apply, v4_apply c arg1 harg1 arg2 harg2 x0 x1, k0_pay51_apply c arg1 harg1 arg2 harg2 x0 x1, v6_apply c arg1 harg1 arg2 harg2 x0 x1, k0_pay54_apply c arg1 harg1 arg2 harg2 x0 x1, v8_apply c arg1 harg1 arg2 harg2 x0 x1, k0_pay57_apply c arg1 harg1 arg2 harg2 x0 x1]

theorem r_16_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_16 c arg1 harg1 x0 (ix1 n) = Cn x0 x1 n 2 0 2 := by
  delta kernelRun0_A.sl.r_16
  simp only [k0_pay60_apply c arg1 harg1 arg2 harg2 x0 x1]

theorem k0_pay142_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay142 (F := Ideal) (kernelRun0_A.sl.v2 c arg1 harg1 x0) (kernelRun0_A.sl.r_14 c arg1 harg1 x0) (kernelRun0_A.sl.r_15 c arg1 harg1 x0) (kernelRun0_A.sl.r_16 c arg1 harg1 x0) (kernelRun0_A.sl.r_54 c arg1 harg1 x0) (ix1 n) = Cn x0 x1 n 5 0 0 := by
  refine Eq.trans ?_ (Cn_step x0 x1 n 5 2 (by decide) rfl (by decide) 0 0).symm
  unfold k0_pay142
  simp only [addf_apply, mulf_apply, r_14_apply c arg1 harg1 arg2 harg2 x0 x1, r_54_apply c arg1 harg1 arg2 harg2 x0 x1, r_15_apply c arg1 harg1 arg2 harg2 x0 x1, k0_pay136_apply c arg1 harg1 arg2 harg2 x0 x1, r_16_apply c arg1 harg1 arg2 harg2 x0 x1, k0_pay139_apply c arg1 harg1 arg2 harg2 x0 x1]

theorem r_56_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_56 c arg1 harg1 x0 (ix1 n) = Cn x0 x1 n 5 0 0 := by
  delta kernelRun0_A.sl.r_56
  simp only [k0_pay142_apply c arg1 harg1 arg2 harg2 x0 x1]

theorem k0_pay143_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay143 (F := Ideal) (kernelRun0_A.sl.v2 c arg1 harg1 x0) (kernelRun0_A.sl.r_14 c arg1 harg1 x0) (kernelRun0_A.sl.r_15 c arg1 harg1 x0) (kernelRun0_A.sl.r_16 c arg1 harg1 x0) (kernelRun0_A.sl.r_55 c arg1 harg1 x0) (ix1 n) = Cn x0 x1 n 5 0 1 := by
  refine Eq.trans ?_ (Cn_step x0 x1 n 5 2 (by decide) rfl (by decide) 0 1).symm
  unfold k0_pay143
  simp only [addf_apply, mulf_apply, r_14_apply c arg1 harg1 arg2 harg2 x0 x1, k0_pay134_apply c arg1 harg1 arg2 harg2 x0 x1, r_15_apply c arg1 harg1 arg2 harg2 x0 x1, k0_pay137_apply c arg1 harg1 arg2 harg2 x0 x1, r_16_apply c arg1 harg1 arg2 harg2 x0 x1, k0_pay140_apply c arg1 harg1 arg2 harg2 x0 x1]

theorem r_57_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_57 c arg1 harg1 x0 (ix1 n) = Cn x0 x1 n 5 0 1 := by
  delta kernelRun0_A.sl.r_57
  simp only [k0_pay143_apply c arg1 harg1 arg2 harg2 x0 x1]

theorem k0_pay144_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay144 (F := Ideal) (kernelRun0_A.sl.v2 c arg1 harg1 x0) (kernelRun0_A.sl.r_14 c arg1 harg1 x0) (kernelRun0_A.sl.r_15 c arg1 harg1 x0) (kernelRun0_A.sl.r_16 c arg1 harg1 x0) (ix1 n) = Cn x0 x1 n 5 0 2 := by
  refine Eq.trans ?_ (Cn_step x0 x1 n 5 2 (by decide) rfl (by decide) 0 2).symm
  unfold k0_pay144
  simp only [addf_apply, mulf_apply, r_14_apply c arg1 harg1 arg2 harg2 x0 x1, k0_pay135_apply c arg1 harg1 arg2 harg2 x0 x1, r_15_apply c arg1 harg1 arg2 harg2 x0 x1, k0_pay138_apply c arg1 harg1 arg2 harg2 x0 x1, r_16_apply c arg1 harg1 arg2 harg2 x0 x1, k0_pay141_apply c arg1 harg1 arg2 harg2 x0 x1]

theorem r_58_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_58 c arg1 harg1 x0 (ix1 n) = Cn x0 x1 n 5 0 2 := by
  delta kernelRun0_A.sl.r_58
  simp only [k0_pay144_apply c arg1 harg1 arg2 harg2 x0 x1]

theorem k0_pay226_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay226 (F := Ideal) (kernelRun0_A.sl.v2 c arg1 harg1 x0) (kernelRun0_A.sl.r_56 c arg1 harg1 x0) (kernelRun0_A.sl.r_57 c arg1 harg1 x0) (kernelRun0_A.sl.r_58 c arg1 harg1 x0) (kernelRun0_A.sl.r_96 c arg1 harg1 x0) (ix1 n) = Cn x0 x1 n 8 0 0 := by
  refine Eq.trans ?_ (Cn_step x0 x1 n 8 5 (by decide) rfl (by decide) 0 0).symm
  unfold k0_pay226
  simp only [addf_apply, mulf_apply, r_56_apply c arg1 harg1 arg2 harg2 x0 x1, r_96_apply c arg1 harg1 arg2 harg2 x0 x1, r_57_apply c arg1 harg1 arg2 harg2 x0 x1, k0_pay220_apply c arg1 harg1 arg2 harg2 x0 x1, r_58_apply c arg1 harg1 arg2 harg2 x0 x1, k0_pay223_apply c arg1 harg1 arg2 harg2 x0 x1]

theorem r_98_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_98 c arg1 harg1 x0 (ix1 n) = Cn x0 x1 n 8 0 0 := by
  delta kernelRun0_A.sl.r_98
  simp only [k0_pay226_apply c arg1 harg1 arg2 harg2 x0 x1]

theorem k0_pay227_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay227 (F := Ideal) (kernelRun0_A.sl.v2 c arg1 harg1 x0) (kernelRun0_A.sl.r_56 c arg1 harg1 x0) (kernelRun0_A.sl.r_57 c arg1 harg1 x0) (kernelRun0_A.sl.r_58 c arg1 harg1 x0) (kernelRun0_A.sl.r_97 c arg1 harg1 x0) (ix1 n) = Cn x0 x1 n 8 0 1 := by
  refine Eq.trans ?_ (Cn_step x0 x1 n 8 5 (by decide) rfl (by decide) 0 1).symm
  unfold k0_pay227
  simp only [addf_apply, mulf_apply, r_56_apply c arg1 harg1 arg2 harg2 x0 x1, k0_pay218_apply c arg1 harg1 arg2 harg2 x0 x1, r_57_apply c arg1 harg1 arg2 harg2 x0 x1, k0_pay221_apply c arg1 harg1 arg2 harg2 x0 x1, r_58_apply c arg1 harg1 arg2 harg2 x0 x1, k0_pay224_apply c arg1 harg1 arg2 harg2 x0 x1]

theorem r_99_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_99 c arg1 harg1 x0 (ix1 n) = Cn x0 x1 n 8 0 1 := by
  delta kernelRun0_A.sl.r_99
  simp only [k0_pay227_apply c arg1 harg1 arg2 harg2 x0 x1]

theorem k0_pay228_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay228 (F := Ideal) (kernelRun0_A.sl.v2 c arg1 harg1 x0) (kernelRun0_A.sl.r_56 c arg1 harg1 x0) (kernelRun0_A.sl.r_57 c arg1 harg1 x0) (kernelRun0_A.sl.r_58 c arg1 harg1 x0) (ix1 n) = Cn x0 x1 n 8 0 2 := by
  refine Eq.trans ?_ (Cn_step x0 x1 n 8 5 (by decide) rfl (by decide) 0 2).symm
  unfold k0_pay228
  simp only [addf_apply, mulf_apply, r_56_apply c arg1 harg1 arg2 harg2 x0 x1, k0_pay219_apply c arg1 harg1 arg2 harg2 x0 x1, r_57_apply c arg1 harg1 arg2 harg2 x0 x1, k0_pay222_apply c arg1 harg1 arg2 harg2 x0 x1, r_58_apply c arg1 harg1 arg2 harg2 x0 x1, k0_pay225_apply c arg1 harg1 arg2 harg2 x0 x1]

theorem r_100_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_100 c arg1 harg1 x0 (ix1 n) = Cn x0 x1 n 8 0 2 := by
  delta kernelRun0_A.sl.r_100
  simp only [k0_pay228_apply c arg1 harg1 arg2 harg2 x0 x1]

theorem k0_pay70_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay70 (F := Ideal) (kernelRun0_A.sl.v4 c arg1 harg1 x0) (kernelRun0_A.sl.v6 c arg1 harg1 x0) (kernelRun0_A.sl.v8 c arg1 harg1 x0) (kernelRun0_A.sl.v23 c arg2 harg2 x1) (View.readAt (Elt Ideal) arg2.view (Rect.unit (s := S3x55) ![0, 2] S1x1.size inb_S3x55_S1x1_0_2).toLoadRect (harg2.unread x1)) (View.readAt (Elt Ideal) arg2.view (Rect.unit (s := S3x55) ![1, 2] S1x1.size inb_S3x55_S1x1_1_2).toLoadRect (harg2.unread x1)) (View.readAt (Elt Ideal) arg2.view (Rect.unit (s := S3x55) ![2, 2] S1x1.size inb_S3x55_S1x1_2_2).toLoadRect (harg2.unread x1)) (ix1 n) = Pn x0 x1 n 2 0 := by
  refine Eq.trans ?_ (Pn_step x0 x1 n 2 0 (by decide) rfl 0).symm
  unfold k0_pay70
  simp only [addf_apply, mulf_apply, v4_apply c arg1 harg1 arg2 harg2 x0 x1, broadcast_apply, k0_pay67_apply c arg1 harg1 arg2 harg2 x0 x1, v6_apply c arg1 harg1 arg2 harg2 x0 x1, k0_pay68_apply c arg1 harg1 arg2 harg2 x0 x1, v8_apply c arg1 harg1 arg2 harg2 x0 x1, k0_pay69_apply c arg1 harg1 arg2 harg2 x0 x1, v23_apply c arg1 harg1 arg2 harg2 x0 x1]

theorem r_23_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_23 c arg1 harg1 arg2 harg2 x0 x1 (ix1 n) = Pn x0 x1 n 2 0 := by
  delta kernelRun0_A.sl.r_23
  simp only [k0_pay70_apply c arg1 harg1 arg2 harg2 x0 x1]

theorem k0_pay154_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay154 (F := Ideal) (kernelRun0_A.sl.r_14 c arg1 harg1 x0) (kernelRun0_A.sl.r_15 c arg1 harg1 x0) (kernelRun0_A.sl.r_16 c arg1 harg1 x0) (kernelRun0_A.sl.r_23 c arg1 harg1 arg2 harg2 x0 x1) (View.readAt (Elt Ideal) arg2.view (Rect.unit (s := S3x55) ![0, 5] S1x1.size inb_S3x55_S1x1_0_5).toLoadRect (harg2.unread x1)) (View.readAt (Elt Ideal) arg2.view (Rect.unit (s := S3x55) ![1, 5] S1x1.size inb_S3x55_S1x1_1_5).toLoadRect (harg2.unread x1)) (View.readAt (Elt Ideal) arg2.view (Rect.unit (s := S3x55) ![2, 5] S1x1.size inb_S3x55_S1x1_2_5).toLoadRect (harg2.unread x1)) (ix1 n) = Pn x0 x1 n 5 0 := by
  refine Eq.trans ?_ (Pn_step x0 x1 n 5 2 (by decide) rfl 0).symm
  unfold k0_pay154
  simp only [addf_apply, mulf_apply, r_14_apply c arg1 harg1 arg2 harg2 x0 x1, broadcast_apply, k0_pay151_apply c arg1 harg1 arg2 harg2 x0 x1, r_15_apply c arg1 harg1 arg2 harg2 x0 x1, k0_pay152_apply c arg1 harg1 arg2 harg2 x0 x1, r_16_apply c arg1 harg1 arg2 harg2 x0 x1, k0_pay153_apply c arg1 harg1 arg2 harg2 x0 x1, r_23_apply c arg1 harg1 arg2 harg2 x0 x1]

theorem r_65_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_65 c arg1 harg1 arg2 harg2 x0 x1 (ix1 n) = Pn x0 x1 n 5 0 := by
  delta kernelRun0_A.sl.r_65
  simp only [k0_pay154_apply c arg1 harg1 arg2 harg2 x0 x1]

theorem k0_pay238_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay238 (F := Ideal) (kernelRun0_A.sl.r_56 c arg1 harg1 x0) (kernelRun0_A.sl.r_57 c arg1 harg1 x0) (kernelRun0_A.sl.r_58 c arg1 harg1 x0) (kernelRun0_A.sl.r_65 c arg1 harg1 arg2 harg2 x0 x1) (View.readAt (Elt Ideal) arg2.view (Rect.unit (s := S3x55) ![0, 8] S1x1.size inb_S3x55_S1x1_0_8).toLoadRect (harg2.unread x1)) (View.readAt (Elt Ideal) arg2.view (Rect.unit (s := S3x55) ![1, 8] S1x1.size inb_S3x55_S1x1_1_8).toLoadRect (harg2.unread x1)) (View.readAt (Elt Ideal) arg2.view (Rect.unit (s := S3x55) ![2, 8] S1x1.size inb_S3x55_S1x1_2_8).toLoadRect (harg2.unread x1)) (ix1 n) = Pn x0 x1 n 8 0 := by
  refine Eq.trans ?_ (Pn_step x0 x1 n 8 5 (by decide) rfl 0).symm
  unfold k0_pay238
  simp only [addf_apply, mulf_apply, r_56_apply c arg1 harg1 arg2 harg2 x0 x1, broadcast_apply, k0_pay235_apply c arg1 harg1 arg2 harg2 x0 x1, r_57_apply c arg1 harg1 arg2 harg2 x0 x1, k0_pay236_apply c arg1 harg1 arg2 harg2 x0 x1, r_58_apply c arg1 harg1 arg2 harg2 x0 x1, k0_pay237_apply c arg1 harg1 arg2 harg2 x0 x1, r_65_apply c arg1 harg1 arg2 harg2 x0 x1]

theorem r_107_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_107 c arg1 harg1 arg2 harg2 x0 x1 (ix1 n) = Pn x0 x1 n 8 0 := by
  delta kernelRun0_A.sl.r_107
  simp only [k0_pay238_apply c arg1 harg1 arg2 harg2 x0 x1]

theorem k0_pay281_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay281 (F := Ideal) (kernelRun0_A.sl.r_98 c arg1 harg1 x0) (kernelRun0_A.sl.r_99 c arg1 harg1 x0) (kernelRun0_A.sl.r_100 c arg1 harg1 x0) (kernelRun0_A.sl.r_107 c arg1 harg1 arg2 harg2 x0 x1) (kernelRun0_A.sl.r_125 c arg2 harg2 x1) (View.readAt (Elt Ideal) arg2.view (Rect.unit (s := S3x55) ![1, 11] S1x1.size inb_S3x55_S1x1_1_11).toLoadRect (harg2.unread x1)) (View.readAt (Elt Ideal) arg2.view (Rect.unit (s := S3x55) ![2, 11] S1x1.size inb_S3x55_S1x1_2_11).toLoadRect (harg2.unread x1)) (ix2 u n) = Pn x0 x1 n 11 0 := by
  refine Eq.trans ?_ (Pn_step x0 x1 n 11 8 (by decide) rfl 0).symm
  unfold k0_pay281
  simp only [shapeCast_a_1a_apply, addf_apply, mulf_apply, r_98_apply c arg1 harg1 arg2 harg2 x0 x1, broadcast_apply, r_125_apply c arg1 harg1 arg2 harg2 x0 x1, r_99_apply c arg1 harg1 arg2 harg2 x0 x1, k0_pay279_apply c arg1 harg1 arg2 harg2 x0 x1, r_100_apply c arg1 harg1 arg2 harg2 x0 x1, k0_pay280_apply c arg1 harg1 arg2 harg2 x0 x1, r_107_apply c arg1 harg1 arg2 harg2 x0 x1]

theorem v39_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v39 c arg1 harg1 x0 (ix2 u n) = Rw x0 n 1 0 0 := by
  delta kernelRun0_A.sl.v39
  simp only [slice_row 9 (9 : Fin 198) rfl, v2_apply c arg1 harg1 arg2 harg2 x0 x1, Rw_eq x0 n 1 0 0 (9 : Fin 198) (by decide)]

theorem v40_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.v40 c arg1 harg1 x0 (ix1 n) = Rw x0 n 1 0 0 := by
  delta kernelRun0_A.sl.v40
  simp only [shapeCast_1a_a_apply, v39_apply c arg1 harg1 arg2 harg2 x0 x1]

theorem k0_pay24_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay24 (F := Ideal) (kernelRun0_A.sl.v2 c arg1 harg1 x0) (ix1 n) = Rw x0 n 1 1 0 := by
  unfold k0_pay24
  simp only [shapeCast_1a_a_apply, slice_row 12 (12 : Fin 198) rfl, v2_apply c arg1 harg1 arg2 harg2 x0 x1, Rw_eq x0 n 1 1 0 (12 : Fin 198) (by decide)]

theorem k0_pay27_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay27 (F := Ideal) (kernelRun0_A.sl.v2 c arg1 harg1 x0) (ix1 n) = Rw x0 n 1 2 0 := by
  unfold k0_pay27
  simp only [shapeCast_1a_a_apply, slice_row 15 (15 : Fin 198) rfl, v2_apply c arg1 harg1 arg2 harg2 x0 x1, Rw_eq x0 n 1 2 0 (15 : Fin 198) (by decide)]

theorem k0_pay36_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay36 (F := Ideal) (kernelRun0_A.sl.v2 c arg1 harg1 x0) (kernelRun0_A.sl.v16 c arg1 harg1 x0) (kernelRun0_A.sl.v18 c arg1 harg1 x0) (kernelRun0_A.sl.v20 c arg1 harg1 x0) (kernelRun0_A.sl.v40 c arg1 harg1 x0) (ix1 n) = Cn x0 x1 n 1 2 0 := by
  refine Eq.trans ?_ (Cn_step x0 x1 n 1 0 (by decide) rfl (by decide) 2 0).symm
  unfold k0_pay36
  simp only [addf_apply, mulf_apply, v16_apply c arg1 harg1 arg2 harg2 x0 x1, v40_apply c arg1 harg1 arg2 harg2 x0 x1, v18_apply c arg1 harg1 arg2 harg2 x0 x1, k0_pay24_apply c arg1 harg1 arg2 harg2 x0 x1, v20_apply c arg1 harg1 arg2 harg2 x0 x1, k0_pay27_apply c arg1 harg1 arg2 harg2 x0 x1]

theorem r_6_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_6 c arg1 harg1 x0 (ix1 n) = Cn x0 x1 n 1 2 0 := by
  delta kernelRun0_A.sl.r_6
  simp only [k0_pay36_apply c arg1 harg1 arg2 harg2 x0 x1]

theorem v41_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v41 c arg1 harg1 x0 (ix2 u n) = Rw x0 n 1 0 1 := by
  delta kernelRun0_A.sl.v41
  simp only [slice_row 10 (10 : Fin 198) rfl, v2_apply c arg1 harg1 arg2 harg2 x0 x1, Rw_eq x0 n 1 0 1 (10 : Fin 198) (by decide)]

theorem k0_pay22_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay22 (F := Ideal) (kernelRun0_A.sl.v41 c arg1 harg1 x0) (ix1 n) = Rw x0 n 1 0 1 := by
  unfold k0_pay22
  simp only [shapeCast_1a_a_apply, v41_apply c arg1 harg1 arg2 harg2 x0 x1]

theorem k0_pay25_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay25 (F := Ideal) (kernelRun0_A.sl.v2 c arg1 harg1 x0) (ix1 n) = Rw x0 n 1 1 1 := by
  unfold k0_pay25
  simp only [shapeCast_1a_a_apply, slice_row 13 (13 : Fin 198) rfl, v2_apply c arg1 harg1 arg2 harg2 x0 x1, Rw_eq x0 n 1 1 1 (13 : Fin 198) (by decide)]

theorem k0_pay28_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay28 (F := Ideal) (kernelRun0_A.sl.v2 c arg1 harg1 x0) (ix1 n) = Rw x0 n 1 2 1 := by
  unfold k0_pay28
  simp only [shapeCast_1a_a_apply, slice_row 16 (16 : Fin 198) rfl, v2_apply c arg1 harg1 arg2 harg2 x0 x1, Rw_eq x0 n 1 2 1 (16 : Fin 198) (by decide)]

theorem k0_pay37_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay37 (F := Ideal) (kernelRun0_A.sl.v2 c arg1 harg1 x0) (kernelRun0_A.sl.v16 c arg1 harg1 x0) (kernelRun0_A.sl.v18 c arg1 harg1 x0) (kernelRun0_A.sl.v20 c arg1 harg1 x0) (kernelRun0_A.sl.v41 c arg1 harg1 x0) (ix1 n) = Cn x0 x1 n 1 2 1 := by
  refine Eq.trans ?_ (Cn_step x0 x1 n 1 0 (by decide) rfl (by decide) 2 1).symm
  unfold k0_pay37
  simp only [addf_apply, mulf_apply, v16_apply c arg1 harg1 arg2 harg2 x0 x1, k0_pay22_apply c arg1 harg1 arg2 harg2 x0 x1, v18_apply c arg1 harg1 arg2 harg2 x0 x1, k0_pay25_apply c arg1 harg1 arg2 harg2 x0 x1, v20_apply c arg1 harg1 arg2 harg2 x0 x1, k0_pay28_apply c arg1 harg1 arg2 harg2 x0 x1]

theorem r_7_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_7 c arg1 harg1 x0 (ix1 n) = Cn x0 x1 n 1 2 1 := by
  delta kernelRun0_A.sl.r_7
  simp only [k0_pay37_apply c arg1 harg1 arg2 harg2 x0 x1]

theorem k0_pay23_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay23 (F := Ideal) (kernelRun0_A.sl.v2 c arg1 harg1 x0) (ix1 n) = Rw x0 n 1 0 2 := by
  unfold k0_pay23
  simp only [shapeCast_1a_a_apply, slice_row 11 (11 : Fin 198) rfl, v2_apply c arg1 harg1 arg2 harg2 x0 x1, Rw_eq x0 n 1 0 2 (11 : Fin 198) (by decide)]

theorem k0_pay26_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay26 (F := Ideal) (kernelRun0_A.sl.v2 c arg1 harg1 x0) (ix1 n) = Rw x0 n 1 1 2 := by
  unfold k0_pay26
  simp only [shapeCast_1a_a_apply, slice_row 14 (14 : Fin 198) rfl, v2_apply c arg1 harg1 arg2 harg2 x0 x1, Rw_eq x0 n 1 1 2 (14 : Fin 198) (by decide)]

theorem k0_pay29_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay29 (F := Ideal) (kernelRun0_A.sl.v2 c arg1 harg1 x0) (ix1 n) = Rw x0 n 1 2 2 := by
  unfold k0_pay29
  simp only [shapeCast_1a_a_apply, slice_row 17 (17 : Fin 198) rfl, v2_apply c arg1 harg1 arg2 harg2 x0 x1, Rw_eq x0 n 1 2 2 (17 : Fin 198) (by decide)]

theorem k0_pay38_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay38 (F := Ideal) (kernelRun0_A.sl.v2 c arg1 harg1 x0) (kernelRun0_A.sl.v16 c arg1 harg1 x0) (kernelRun0_A.sl.v18 c arg1 harg1 x0) (kernelRun0_A.sl.v20 c arg1 harg1 x0) (ix1 n) = Cn x0 x1 n 1 2 2 := by
  refine Eq.trans ?_ (Cn_step x0 x1 n 1 0 (by decide) rfl (by decide) 2 2).symm
  unfold k0_pay38
  simp only [addf_apply, mulf_apply, v16_apply c arg1 harg1 arg2 harg2 x0 x1, k0_pay23_apply c arg1 harg1 arg2 harg2 x0 x1, v18_apply c arg1 harg1 arg2 harg2 x0 x1, k0_pay26_apply c arg1 harg1 arg2 harg2 x0 x1, v20_apply c arg1 harg1 arg2 harg2 x0 x1, k0_pay29_apply c arg1 harg1 arg2 harg2 x0 x1]

theorem r_8_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_8 c arg1 harg1 x0 (ix1 n) = Cn x0 x1 n 1 2 2 := by
  delta kernelRun0_A.sl.r_8
  simp only [k0_pay38_apply c arg1 harg1 arg2 harg2 x0 x1]

theorem k0_pay104_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay104 (F := Ideal) (kernelRun0_A.sl.v2 c arg1 harg1 x0) (ix1 n) = Rw x0 n 4 0 0 := by
  unfold k0_pay104
  simp only [shapeCast_1a_a_apply, slice_row 36 (36 : Fin 198) rfl, v2_apply c arg1 harg1 arg2 harg2 x0 x1, Rw_eq x0 n 4 0 0 (36 : Fin 198) (by decide)]

theorem r_40_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_40 c arg1 harg1 x0 (ix1 n) = Rw x0 n 4 0 0 := by
  delta kernelRun0_A.sl.r_40
  simp only [k0_pay104_apply c arg1 harg1 arg2 harg2 x0 x1]

theorem k0_pay108_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay108 (F := Ideal) (kernelRun0_A.sl.v2 c arg1 harg1 x0) (ix1 n) = Rw x0 n 4 1 0 := by
  unfold k0_pay108
  simp only [shapeCast_1a_a_apply, slice_row 39 (39 : Fin 198) rfl, v2_apply c arg1 harg1 arg2 harg2 x0 x1, Rw_eq x0 n 4 1 0 (39 : Fin 198) (by decide)]

theorem k0_pay111_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay111 (F := Ideal) (kernelRun0_A.sl.v2 c arg1 harg1 x0) (ix1 n) = Rw x0 n 4 2 0 := by
  unfold k0_pay111
  simp only [shapeCast_1a_a_apply, slice_row 42 (42 : Fin 198) rfl, v2_apply c arg1 harg1 arg2 harg2 x0 x1, Rw_eq x0 n 4 2 0 (42 : Fin 198) (by decide)]

theorem k0_pay120_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay120 (F := Ideal) (kernelRun0_A.sl.v2 c arg1 harg1 x0) (kernelRun0_A.sl.r_6 c arg1 harg1 x0) (kernelRun0_A.sl.r_7 c arg1 harg1 x0) (kernelRun0_A.sl.r_8 c arg1 harg1 x0) (kernelRun0_A.sl.r_40 c arg1 harg1 x0) (ix1 n) = Cn x0 x1 n 4 2 0 := by
  refine Eq.trans ?_ (Cn_step x0 x1 n 4 1 (by decide) rfl (by decide) 2 0).symm
  unfold k0_pay120
  simp only [addf_apply, mulf_apply, r_6_apply c arg1 harg1 arg2 harg2 x0 x1, r_40_apply c arg1 harg1 arg2 harg2 x0 x1, r_7_apply c arg1 harg1 arg2 harg2 x0 x1, k0_pay108_apply c arg1 harg1 arg2 harg2 x0 x1, r_8_apply c arg1 harg1 arg2 harg2 x0 x1, k0_pay111_apply c arg1 harg1 arg2 harg2 x0 x1]

theorem r_48_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_48 c arg1 harg1 x0 (ix1 n) = Cn x0 x1 n 4 2 0 := by
  delta kernelRun0_A.sl.r_48
  simp only [k0_pay120_apply c arg1 harg1 arg2 harg2 x0 x1]

theorem k0_pay105_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay105 (F := Ideal) (kernelRun0_A.sl.v2 c arg1 harg1 x0) (ix2 u n) = Rw x0 n 4 0 1 := by
  unfold k0_pay105
  simp only [slice_row 37 (37 : Fin 198) rfl, v2_apply c arg1 harg1 arg2 harg2 x0 x1, Rw_eq x0 n 4 0 1 (37 : Fin 198) (by decide)]

theorem r_41_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_41 c arg1 harg1 x0 (ix2 u n) = Rw x0 n 4 0 1 := by
  delta kernelRun0_A.sl.r_41
  simp only [k0_pay105_apply c arg1 harg1 arg2 harg2 x0 x1]

theorem k0_pay106_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay106 (F := Ideal) (kernelRun0_A.sl.r_41 c arg1 harg1 x0) (ix1 n) = Rw x0 n 4 0 1 := by
  unfold k0_pay106
  simp only [shapeCast_1a_a_apply, r_41_apply c arg1 harg1 arg2 harg2 x0 x1]

theorem k0_pay109_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay109 (F := Ideal) (kernelRun0_A.sl.v2 c arg1 harg1 x0) (ix1 n) = Rw x0 n 4 1 1 := by
  unfold k0_pay109
  simp only [shapeCast_1a_a_apply, slice_row 40 (40 : Fin 198) rfl, v2_apply c arg1 harg1 arg2 harg2 x0 x1, Rw_eq x0 n 4 1 1 (40 : Fin 198) (by decide)]

theorem k0_pay112_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay112 (F := Ideal) (kernelRun0_A.sl.v2 c arg1 harg1 x0) (ix1 n) = Rw x0 n 4 2 1 := by
  unfold k0_pay112
  simp only [shapeCast_1a_a_apply, slice_row 43 (43 : Fin 198) rfl, v2_apply c arg1 harg1 arg2 harg2 x0 x1, Rw_eq x0 n 4 2 1 (43 : Fin 198) (by decide)]

theorem k0_pay121_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay121 (F := Ideal) (kernelRun0_A.sl.v2 c arg1 harg1 x0) (kernelRun0_A.sl.r_6 c arg1 harg1 x0) (kernelRun0_A.sl.r_7 c arg1 harg1 x0) (kernelRun0_A.sl.r_8 c arg1 harg1 x0) (kernelRun0_A.sl.r_41 c arg1 harg1 x0) (ix1 n) = Cn x0 x1 n 4 2 1 := by
  refine Eq.trans ?_ (Cn_step x0 x1 n 4 1 (by decide) rfl (by decide) 2 1).symm
  unfold k0_pay121
  simp only [addf_apply, mulf_apply, r_6_apply c arg1 harg1 arg2 harg2 x0 x1, k0_pay106_apply c arg1 harg1 arg2 harg2 x0 x1, r_7_apply c arg1 harg1 arg2 harg2 x0 x1, k0_pay109_apply c arg1 harg1 arg2 harg2 x0 x1, r_8_apply c arg1 harg1 arg2 harg2 x0 x1, k0_pay112_apply c arg1 harg1 arg2 harg2 x0 x1]

theorem r_49_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_49 c arg1 harg1 x0 (ix1 n) = Cn x0 x1 n 4 2 1 := by
  delta kernelRun0_A.sl.r_49
  simp only [k0_pay121_apply c arg1 harg1 arg2 harg2 x0 x1]

theorem k0_pay107_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay107 (F := Ideal) (kernelRun0_A.sl.v2 c arg1 harg1 x0) (ix1 n) = Rw x0 n 4 0 2 := by
  unfold k0_pay107
  simp only [shapeCast_1a_a_apply, slice_row 38 (38 : Fin 198) rfl, v2_apply c arg1 harg1 arg2 harg2 x0 x1, Rw_eq x0 n 4 0 2 (38 : Fin 198) (by decide)]

theorem k0_pay110_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay110 (F := Ideal) (kernelRun0_A.sl.v2 c arg1 harg1 x0) (ix1 n) = Rw x0 n 4 1 2 := by
  unfold k0_pay110
  simp only [shapeCast_1a_a_apply, slice_row 41 (41 : Fin 198) rfl, v2_apply c arg1 harg1 arg2 harg2 x0 x1, Rw_eq x0 n 4 1 2 (41 : Fin 198) (by decide)]

theorem k0_pay113_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay113 (F := Ideal) (kernelRun0_A.sl.v2 c arg1 harg1 x0) (ix1 n) = Rw x0 n 4 2 2 := by
  unfold k0_pay113
  simp only [shapeCast_1a_a_apply, slice_row 44 (44 : Fin 198) rfl, v2_apply c arg1 harg1 arg2 harg2 x0 x1, Rw_eq x0 n 4 2 2 (44 : Fin 198) (by decide)]

theorem k0_pay122_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay122 (F := Ideal) (kernelRun0_A.sl.v2 c arg1 harg1 x0) (kernelRun0_A.sl.r_6 c arg1 harg1 x0) (kernelRun0_A.sl.r_7 c arg1 harg1 x0) (kernelRun0_A.sl.r_8 c arg1 harg1 x0) (ix1 n) = Cn x0 x1 n 4 2 2 := by
  refine Eq.trans ?_ (Cn_step x0 x1 n 4 1 (by decide) rfl (by decide) 2 2).symm
  unfold k0_pay122
  simp only [addf_apply, mulf_apply, r_6_apply c arg1 harg1 arg2 harg2 x0 x1, k0_pay107_apply c arg1 harg1 arg2 harg2 x0 x1, r_7_apply c arg1 harg1 arg2 harg2 x0 x1, k0_pay110_apply c arg1 harg1 arg2 harg2 x0 x1, r_8_apply c arg1 harg1 arg2 harg2 x0 x1, k0_pay113_apply c arg1 harg1 arg2 harg2 x0 x1]

theorem r_50_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_50 c arg1 harg1 x0 (ix1 n) = Cn x0 x1 n 4 2 2 := by
  delta kernelRun0_A.sl.r_50
  simp only [k0_pay122_apply c arg1 harg1 arg2 harg2 x0 x1]

theorem k0_pay188_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay188 (F := Ideal) (kernelRun0_A.sl.v2 c arg1 harg1 x0) (ix1 n) = Rw x0 n 7 0 0 := by
  unfold k0_pay188
  simp only [shapeCast_1a_a_apply, slice_row 63 (63 : Fin 198) rfl, v2_apply c arg1 harg1 arg2 harg2 x0 x1, Rw_eq x0 n 7 0 0 (63 : Fin 198) (by decide)]

theorem r_82_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_82 c arg1 harg1 x0 (ix1 n) = Rw x0 n 7 0 0 := by
  delta kernelRun0_A.sl.r_82
  simp only [k0_pay188_apply c arg1 harg1 arg2 harg2 x0 x1]

theorem k0_pay192_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay192 (F := Ideal) (kernelRun0_A.sl.v2 c arg1 harg1 x0) (ix1 n) = Rw x0 n 7 1 0 := by
  unfold k0_pay192
  simp only [shapeCast_1a_a_apply, slice_row 66 (66 : Fin 198) rfl, v2_apply c arg1 harg1 arg2 harg2 x0 x1, Rw_eq x0 n 7 1 0 (66 : Fin 198) (by decide)]

theorem k0_pay195_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay195 (F := Ideal) (kernelRun0_A.sl.v2 c arg1 harg1 x0) (ix1 n) = Rw x0 n 7 2 0 := by
  unfold k0_pay195
  simp only [shapeCast_1a_a_apply, slice_row 69 (69 : Fin 198) rfl, v2_apply c arg1 harg1 arg2 harg2 x0 x1, Rw_eq x0 n 7 2 0 (69 : Fin 198) (by decide)]

theorem k0_pay204_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay204 (F := Ideal) (kernelRun0_A.sl.v2 c arg1 harg1 x0) (kernelRun0_A.sl.r_48 c arg1 harg1 x0) (kernelRun0_A.sl.r_49 c arg1 harg1 x0) (kernelRun0_A.sl.r_50 c arg1 harg1 x0) (kernelRun0_A.sl.r_82 c arg1 harg1 x0) (ix1 n) = Cn x0 x1 n 7 2 0 := by
  refine Eq.trans ?_ (Cn_step x0 x1 n 7 4 (by decide) rfl (by decide) 2 0).symm
  unfold k0_pay204
  simp only [addf_apply, mulf_apply, r_48_apply c arg1 harg1 arg2 harg2 x0 x1, r_82_apply c arg1 harg1 arg2 harg2 x0 x1, r_49_apply c arg1 harg1 arg2 harg2 x0 x1, k0_pay192_apply c arg1 harg1 arg2 harg2 x0 x1, r_50_apply c arg1 harg1 arg2 harg2 x0 x1, k0_pay195_apply c arg1 harg1 arg2 harg2 x0 x1]

theorem r_90_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_90 c arg1 harg1 x0 (ix1 n) = Cn x0 x1 n 7 2 0 := by
  delta kernelRun0_A.sl.r_90
  simp only [k0_pay204_apply c arg1 harg1 arg2 harg2 x0 x1]

theorem k0_pay189_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay189 (F := Ideal) (kernelRun0_A.sl.v2 c arg1 harg1 x0) (ix2 u n) = Rw x0 n 7 0 1 := by
  unfold k0_pay189
  simp only [slice_row 64 (64 : Fin 198) rfl, v2_apply c arg1 harg1 arg2 harg2 x0 x1, Rw_eq x0 n 7 0 1 (64 : Fin 198) (by decide)]

theorem r_83_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.r_83 c arg1 harg1 x0 (ix2 u n) = Rw x0 n 7 0 1 := by
  delta kernelRun0_A.sl.r_83
  simp only [k0_pay189_apply c arg1 harg1 arg2 harg2 x0 x1]

theorem k0_pay190_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay190 (F := Ideal) (kernelRun0_A.sl.r_83 c arg1 harg1 x0) (ix1 n) = Rw x0 n 7 0 1 := by
  unfold k0_pay190
  simp only [shapeCast_1a_a_apply, r_83_apply c arg1 harg1 arg2 harg2 x0 x1]

theorem k0_pay193_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay193 (F := Ideal) (kernelRun0_A.sl.v2 c arg1 harg1 x0) (ix1 n) = Rw x0 n 7 1 1 := by
  unfold k0_pay193
  simp only [shapeCast_1a_a_apply, slice_row 67 (67 : Fin 198) rfl, v2_apply c arg1 harg1 arg2 harg2 x0 x1, Rw_eq x0 n 7 1 1 (67 : Fin 198) (by decide)]

theorem k0_pay196_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay196 (F := Ideal) (kernelRun0_A.sl.v2 c arg1 harg1 x0) (ix1 n) = Rw x0 n 7 2 1 := by
  unfold k0_pay196
  simp only [shapeCast_1a_a_apply, slice_row 70 (70 : Fin 198) rfl, v2_apply c arg1 harg1 arg2 harg2 x0 x1, Rw_eq x0 n 7 2 1 (70 : Fin 198) (by decide)]

theorem k0_pay205_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay205 (F := Ideal) (kernelRun0_A.sl.v2 c arg1 harg1 x0) (kernelRun0_A.sl.r_48 c arg1 harg1 x0) (kernelRun0_A.sl.r_49 c arg1 harg1 x0) (kernelRun0_A.sl.r_50 c arg1 harg1 x0) (kernelRun0_A.sl.r_83 c arg1 harg1 x0) (ix1 n) = Cn x0 x1 n 7 2 1 := by
  refine Eq.trans ?_ (Cn_step x0 x1 n 7 4 (by decide) rfl (by decide) 2 1).symm
  unfold k0_pay205
  simp only [addf_apply, mulf_apply, r_48_apply c arg1 harg1 arg2 harg2 x0 x1, k0_pay190_apply c arg1 harg1 arg2 harg2 x0 x1, r_49_apply c arg1 harg1 arg2 harg2 x0 x1, k0_pay193_apply c arg1 harg1 arg2 harg2 x0 x1, r_50_apply c arg1 harg1 arg2 harg2 x0 x1, k0_pay196_apply c arg1 harg1 arg2 harg2 x0 x1]

theorem r_91_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_91 c arg1 harg1 x0 (ix1 n) = Cn x0 x1 n 7 2 1 := by
  delta kernelRun0_A.sl.r_91
  simp only [k0_pay205_apply c arg1 harg1 arg2 harg2 x0 x1]

theorem k0_pay191_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay191 (F := Ideal) (kernelRun0_A.sl.v2 c arg1 harg1 x0) (ix1 n) = Rw x0 n 7 0 2 := by
  unfold k0_pay191
  simp only [shapeCast_1a_a_apply, slice_row 65 (65 : Fin 198) rfl, v2_apply c arg1 harg1 arg2 harg2 x0 x1, Rw_eq x0 n 7 0 2 (65 : Fin 198) (by decide)]

theorem k0_pay194_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay194 (F := Ideal) (kernelRun0_A.sl.v2 c arg1 harg1 x0) (ix1 n) = Rw x0 n 7 1 2 := by
  unfold k0_pay194
  simp only [shapeCast_1a_a_apply, slice_row 68 (68 : Fin 198) rfl, v2_apply c arg1 harg1 arg2 harg2 x0 x1, Rw_eq x0 n 7 1 2 (68 : Fin 198) (by decide)]

theorem k0_pay197_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay197 (F := Ideal) (kernelRun0_A.sl.v2 c arg1 harg1 x0) (ix1 n) = Rw x0 n 7 2 2 := by
  unfold k0_pay197
  simp only [shapeCast_1a_a_apply, slice_row 71 (71 : Fin 198) rfl, v2_apply c arg1 harg1 arg2 harg2 x0 x1, Rw_eq x0 n 7 2 2 (71 : Fin 198) (by decide)]

theorem k0_pay206_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay206 (F := Ideal) (kernelRun0_A.sl.v2 c arg1 harg1 x0) (kernelRun0_A.sl.r_48 c arg1 harg1 x0) (kernelRun0_A.sl.r_49 c arg1 harg1 x0) (kernelRun0_A.sl.r_50 c arg1 harg1 x0) (ix1 n) = Cn x0 x1 n 7 2 2 := by
  refine Eq.trans ?_ (Cn_step x0 x1 n 7 4 (by decide) rfl (by decide) 2 2).symm
  unfold k0_pay206
  simp only [addf_apply, mulf_apply, r_48_apply c arg1 harg1 arg2 harg2 x0 x1, k0_pay191_apply c arg1 harg1 arg2 harg2 x0 x1, r_49_apply c arg1 harg1 arg2 harg2 x0 x1, k0_pay194_apply c arg1 harg1 arg2 harg2 x0 x1, r_50_apply c arg1 harg1 arg2 harg2 x0 x1, k0_pay197_apply c arg1 harg1 arg2 harg2 x0 x1]

theorem r_92_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_92 c arg1 harg1 x0 (ix1 n) = Cn x0 x1 n 7 2 2 := by
  delta kernelRun0_A.sl.r_92
  simp only [k0_pay206_apply c arg1 harg1 arg2 harg2 x0 x1]

theorem k0_pay39_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay39 (F := Ideal) (View.readAt (Elt Ideal) arg2.view (Rect.unit (s := S3x55) ![0, 1] S1x1.size inb_S3x55_S1x1_0_1).toLoadRect (harg2.unread x1)) = Of x1 1 0 := by
  unfold k0_pay39
  simp only [rel_read x1 arg2 harg2 0 1 (0 : Fin 3) rfl (by decide)]

theorem k0_pay40_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay40 (F := Ideal) (View.readAt (Elt Ideal) arg2.view (Rect.unit (s := S3x55) ![1, 1] S1x1.size inb_S3x55_S1x1_1_1).toLoadRect (harg2.unread x1)) = Of x1 1 1 := by
  unfold k0_pay40
  simp only [rel_read x1 arg2 harg2 1 1 (1 : Fin 3) rfl (by decide)]

theorem k0_pay41_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay41 (F := Ideal) (View.readAt (Elt Ideal) arg2.view (Rect.unit (s := S3x55) ![2, 1] S1x1.size inb_S3x55_S1x1_2_1).toLoadRect (harg2.unread x1)) = Of x1 1 2 := by
  unfold k0_pay41
  simp only [rel_read x1 arg2 harg2 2 1 (2 : Fin 3) rfl (by decide)]

theorem k0_pay44_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay44 (F := Ideal) (kernelRun0_A.sl.v16 c arg1 harg1 x0) (kernelRun0_A.sl.v18 c arg1 harg1 x0) (kernelRun0_A.sl.v20 c arg1 harg1 x0) (kernelRun0_A.sl.v29 c arg2 harg2 x1) (View.readAt (Elt Ideal) arg2.view (Rect.unit (s := S3x55) ![0, 1] S1x1.size inb_S3x55_S1x1_0_1).toLoadRect (harg2.unread x1)) (View.readAt (Elt Ideal) arg2.view (Rect.unit (s := S3x55) ![1, 1] S1x1.size inb_S3x55_S1x1_1_1).toLoadRect (harg2.unread x1)) (View.readAt (Elt Ideal) arg2.view (Rect.unit (s := S3x55) ![2, 1] S1x1.size inb_S3x55_S1x1_2_1).toLoadRect (harg2.unread x1)) (ix1 n) = Pn x0 x1 n 1 2 := by
  refine Eq.trans ?_ (Pn_step x0 x1 n 1 0 (by decide) rfl 2).symm
  unfold k0_pay44
  simp only [addf_apply, mulf_apply, v16_apply c arg1 harg1 arg2 harg2 x0 x1, broadcast_apply, k0_pay39_apply c arg1 harg1 arg2 harg2 x0 x1, v18_apply c arg1 harg1 arg2 harg2 x0 x1, k0_pay40_apply c arg1 harg1 arg2 harg2 x0 x1, v20_apply c arg1 harg1 arg2 harg2 x0 x1, k0_pay41_apply c arg1 harg1 arg2 harg2 x0 x1, v29_apply c arg1 harg1 arg2 harg2 x0 x1]

theorem r_11_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_11 c arg1 harg1 arg2 harg2 x0 x1 (ix1 n) = Pn x0 x1 n 1 2 := by
  delta kernelRun0_A.sl.r_11
  simp only [k0_pay44_apply c arg1 harg1 arg2 harg2 x0 x1]

theorem k0_pay123_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay123 (F := Ideal) (View.readAt (Elt Ideal) arg2.view (Rect.unit (s := S3x55) ![0, 4] S1x1.size inb_S3x55_S1x1_0_4).toLoadRect (harg2.unread x1)) = Of x1 4 0 := by
  unfold k0_pay123
  simp only [rel_read x1 arg2 harg2 0 4 (0 : Fin 3) rfl (by decide)]

theorem k0_pay124_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay124 (F := Ideal) (View.readAt (Elt Ideal) arg2.view (Rect.unit (s := S3x55) ![1, 4] S1x1.size inb_S3x55_S1x1_1_4).toLoadRect (harg2.unread x1)) = Of x1 4 1 := by
  unfold k0_pay124
  simp only [rel_read x1 arg2 harg2 1 4 (1 : Fin 3) rfl (by decide)]

theorem k0_pay125_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay125 (F := Ideal) (View.readAt (Elt Ideal) arg2.view (Rect.unit (s := S3x55) ![2, 4] S1x1.size inb_S3x55_S1x1_2_4).toLoadRect (harg2.unread x1)) = Of x1 4 2 := by
  unfold k0_pay125
  simp only [rel_read x1 arg2 harg2 2 4 (2 : Fin 3) rfl (by decide)]

theorem k0_pay128_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay128 (F := Ideal) (kernelRun0_A.sl.r_6 c arg1 harg1 x0) (kernelRun0_A.sl.r_7 c arg1 harg1 x0) (kernelRun0_A.sl.r_8 c arg1 harg1 x0) (kernelRun0_A.sl.r_11 c arg1 harg1 arg2 harg2 x0 x1) (View.readAt (Elt Ideal) arg2.view (Rect.unit (s := S3x55) ![0, 4] S1x1.size inb_S3x55_S1x1_0_4).toLoadRect (harg2.unread x1)) (View.readAt (Elt Ideal) arg2.view (Rect.unit (s := S3x55) ![1, 4] S1x1.size inb_S3x55_S1x1_1_4).toLoadRect (harg2.unread x1)) (View.readAt (Elt Ideal) arg2.view (Rect.unit (s := S3x55) ![2, 4] S1x1.size inb_S3x55_S1x1_2_4).toLoadRect (harg2.unread x1)) (ix1 n) = Pn x0 x1 n 4 2 := by
  refine Eq.trans ?_ (Pn_step x0 x1 n 4 1 (by decide) rfl 2).symm
  unfold k0_pay128
  simp only [addf_apply, mulf_apply, r_6_apply c arg1 harg1 arg2 harg2 x0 x1, broadcast_apply, k0_pay123_apply c arg1 harg1 arg2 harg2 x0 x1, r_7_apply c arg1 harg1 arg2 harg2 x0 x1, k0_pay124_apply c arg1 harg1 arg2 harg2 x0 x1, r_8_apply c arg1 harg1 arg2 harg2 x0 x1, k0_pay125_apply c arg1 harg1 arg2 harg2 x0 x1, r_11_apply c arg1 harg1 arg2 harg2 x0 x1]

theorem r_53_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_53 c arg1 harg1 arg2 harg2 x0 x1 (ix1 n) = Pn x0 x1 n 4 2 := by
  delta kernelRun0_A.sl.r_53
  simp only [k0_pay128_apply c arg1 harg1 arg2 harg2 x0 x1]

theorem k0_pay207_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay207 (F := Ideal) (View.readAt (Elt Ideal) arg2.view (Rect.unit (s := S3x55) ![0, 7] S1x1.size inb_S3x55_S1x1_0_7).toLoadRect (harg2.unread x1)) = Of x1 7 0 := by
  unfold k0_pay207
  simp only [rel_read x1 arg2 harg2 0 7 (0 : Fin 3) rfl (by decide)]

theorem k0_pay208_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay208 (F := Ideal) (View.readAt (Elt Ideal) arg2.view (Rect.unit (s := S3x55) ![1, 7] S1x1.size inb_S3x55_S1x1_1_7).toLoadRect (harg2.unread x1)) = Of x1 7 1 := by
  unfold k0_pay208
  simp only [rel_read x1 arg2 harg2 1 7 (1 : Fin 3) rfl (by decide)]

theorem k0_pay209_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay209 (F := Ideal) (View.readAt (Elt Ideal) arg2.view (Rect.unit (s := S3x55) ![2, 7] S1x1.size inb_S3x55_S1x1_2_7).toLoadRect (harg2.unread x1)) = Of x1 7 2 := by
  unfold k0_pay209
  simp only [rel_read x1 arg2 harg2 2 7 (2 : Fin 3) rfl (by decide)]

theorem k0_pay212_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay212 (F := Ideal) (kernelRun0_A.sl.r_48 c arg1 harg1 x0) (kernelRun0_A.sl.r_49 c arg1 harg1 x0) (kernelRun0_A.sl.r_50 c arg1 harg1 x0) (kernelRun0_A.sl.r_53 c arg1 harg1 arg2 harg2 x0 x1) (View.readAt (Elt Ideal) arg2.view (Rect.unit (s := S3x55) ![0, 7] S1x1.size inb_S3x55_S1x1_0_7).toLoadRect (harg2.unread x1)) (View.readAt (Elt Ideal) arg2.view (Rect.unit (s := S3x55) ![1, 7] S1x1.size inb_S3x55_S1x1_1_7).toLoadRect (harg2.unread x1)) (View.readAt (Elt Ideal) arg2.view (Rect.unit (s := S3x55) ![2, 7] S1x1.size inb_S3x55_S1x1_2_7).toLoadRect (harg2.unread x1)) (ix1 n) = Pn x0 x1 n 7 2 := by
  refine Eq.trans ?_ (Pn_step x0 x1 n 7 4 (by decide) rfl 2).symm
  unfold k0_pay212
  simp only [addf_apply, mulf_apply, r_48_apply c arg1 harg1 arg2 harg2 x0 x1, broadcast_apply, k0_pay207_apply c arg1 harg1 arg2 harg2 x0 x1, r_49_apply c arg1 harg1 arg2 harg2 x0 x1, k0_pay208_apply c arg1 harg1 arg2 harg2 x0 x1, r_50_apply c arg1 harg1 arg2 harg2 x0 x1, k0_pay209_apply c arg1 harg1 arg2 harg2 x0 x1, r_53_apply c arg1 harg1 arg2 harg2 x0 x1]

theorem r_95_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_95 c arg1 harg1 arg2 harg2 x0 x1 (ix1 n) = Pn x0 x1 n 7 2 := by
  delta kernelRun0_A.sl.r_95
  simp only [k0_pay212_apply c arg1 harg1 arg2 harg2 x0 x1]

theorem k0_pay272_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay272 (F := Ideal) (kernelRun0_A.sl.r_124 c arg2 harg2 x1) = Of x1 10 0 := by
  unfold k0_pay272
  delta kernelRun0_A.sl.r_124
  simp only [rel_read x1 arg2 harg2 0 10 (0 : Fin 3) rfl (by decide)]

theorem k0_pay273_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay273 (F := Ideal) (View.readAt (Elt Ideal) arg2.view (Rect.unit (s := S3x55) ![1, 10] S1x1.size inb_S3x55_S1x1_1_10).toLoadRect (harg2.unread x1)) = Of x1 10 1 := by
  unfold k0_pay273
  simp only [rel_read x1 arg2 harg2 1 10 (1 : Fin 3) rfl (by decide)]

theorem k0_pay274_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    k0_pay274 (F := Ideal) (View.readAt (Elt Ideal) arg2.view (Rect.unit (s := S3x55) ![2, 10] S1x1.size inb_S3x55_S1x1_2_10).toLoadRect (harg2.unread x1)) = Of x1 10 2 := by
  unfold k0_pay274
  simp only [rel_read x1 arg2 harg2 2 10 (2 : Fin 3) rfl (by decide)]

theorem k0_pay277_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay277 (F := Ideal) (kernelRun0_A.sl.r_90 c arg1 harg1 x0) (kernelRun0_A.sl.r_91 c arg1 harg1 x0) (kernelRun0_A.sl.r_92 c arg1 harg1 x0) (kernelRun0_A.sl.r_95 c arg1 harg1 arg2 harg2 x0 x1) (kernelRun0_A.sl.r_124 c arg2 harg2 x1) (View.readAt (Elt Ideal) arg2.view (Rect.unit (s := S3x55) ![1, 10] S1x1.size inb_S3x55_S1x1_1_10).toLoadRect (harg2.unread x1)) (View.readAt (Elt Ideal) arg2.view (Rect.unit (s := S3x55) ![2, 10] S1x1.size inb_S3x55_S1x1_2_10).toLoadRect (harg2.unread x1)) (ix2 u n) = Pn x0 x1 n 10 2 := by
  refine Eq.trans ?_ (Pn_step x0 x1 n 10 7 (by decide) rfl 2).symm
  unfold k0_pay277
  simp only [shapeCast_a_1a_apply, addf_apply, mulf_apply, r_90_apply c arg1 harg1 arg2 harg2 x0 x1, broadcast_apply, k0_pay272_apply c arg1 harg1 arg2 harg2 x0 x1, r_91_apply c arg1 harg1 arg2 harg2 x0 x1, k0_pay273_apply c arg1 harg1 arg2 harg2 x0 x1, r_92_apply c arg1 harg1 arg2 harg2 x0 x1, k0_pay274_apply c arg1 harg1 arg2 harg2 x0 x1, r_95_apply c arg1 harg1 arg2 harg2 x0 x1]

theorem k0_pay33_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay33 (F := Ideal) (kernelRun0_A.sl.v2 c arg1 harg1 x0) (kernelRun0_A.sl.v10 c arg1 harg1 x0) (kernelRun0_A.sl.v12 c arg1 harg1 x0) (kernelRun0_A.sl.v14 c arg1 harg1 x0) (kernelRun0_A.sl.v40 c arg1 harg1 x0) (ix1 n) = Cn x0 x1 n 1 1 0 := by
  refine Eq.trans ?_ (Cn_step x0 x1 n 1 0 (by decide) rfl (by decide) 1 0).symm
  unfold k0_pay33
  simp only [addf_apply, mulf_apply, v10_apply c arg1 harg1 arg2 harg2 x0 x1, v40_apply c arg1 harg1 arg2 harg2 x0 x1, v12_apply c arg1 harg1 arg2 harg2 x0 x1, k0_pay24_apply c arg1 harg1 arg2 harg2 x0 x1, v14_apply c arg1 harg1 arg2 harg2 x0 x1, k0_pay27_apply c arg1 harg1 arg2 harg2 x0 x1]

theorem r_3_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_3 c arg1 harg1 x0 (ix1 n) = Cn x0 x1 n 1 1 0 := by
  delta kernelRun0_A.sl.r_3
  simp only [k0_pay33_apply c arg1 harg1 arg2 harg2 x0 x1]

theorem k0_pay34_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay34 (F := Ideal) (kernelRun0_A.sl.v2 c arg1 harg1 x0) (kernelRun0_A.sl.v10 c arg1 harg1 x0) (kernelRun0_A.sl.v12 c arg1 harg1 x0) (kernelRun0_A.sl.v14 c arg1 harg1 x0) (kernelRun0_A.sl.v41 c arg1 harg1 x0) (ix1 n) = Cn x0 x1 n 1 1 1 := by
  refine Eq.trans ?_ (Cn_step x0 x1 n 1 0 (by decide) rfl (by decide) 1 1).symm
  unfold k0_pay34
  simp only [addf_apply, mulf_apply, v10_apply c arg1 harg1 arg2 harg2 x0 x1, k0_pay22_apply c arg1 harg1 arg2 harg2 x0 x1, v12_apply c arg1 harg1 arg2 harg2 x0 x1, k0_pay25_apply c arg1 harg1 arg2 harg2 x0 x1, v14_apply c arg1 harg1 arg2 harg2 x0 x1, k0_pay28_apply c arg1 harg1 arg2 harg2 x0 x1]

theorem r_4_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_4 c arg1 harg1 x0 (ix1 n) = Cn x0 x1 n 1 1 1 := by
  delta kernelRun0_A.sl.r_4
  simp only [k0_pay34_apply c arg1 harg1 arg2 harg2 x0 x1]

theorem k0_pay35_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay35 (F := Ideal) (kernelRun0_A.sl.v2 c arg1 harg1 x0) (kernelRun0_A.sl.v10 c arg1 harg1 x0) (kernelRun0_A.sl.v12 c arg1 harg1 x0) (kernelRun0_A.sl.v14 c arg1 harg1 x0) (ix1 n) = Cn x0 x1 n 1 1 2 := by
  refine Eq.trans ?_ (Cn_step x0 x1 n 1 0 (by decide) rfl (by decide) 1 2).symm
  unfold k0_pay35
  simp only [addf_apply, mulf_apply, v10_apply c arg1 harg1 arg2 harg2 x0 x1, k0_pay23_apply c arg1 harg1 arg2 harg2 x0 x1, v12_apply c arg1 harg1 arg2 harg2 x0 x1, k0_pay26_apply c arg1 harg1 arg2 harg2 x0 x1, v14_apply c arg1 harg1 arg2 harg2 x0 x1, k0_pay29_apply c arg1 harg1 arg2 harg2 x0 x1]

theorem r_5_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_5 c arg1 harg1 x0 (ix1 n) = Cn x0 x1 n 1 1 2 := by
  delta kernelRun0_A.sl.r_5
  simp only [k0_pay35_apply c arg1 harg1 arg2 harg2 x0 x1]

theorem k0_pay117_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay117 (F := Ideal) (kernelRun0_A.sl.v2 c arg1 harg1 x0) (kernelRun0_A.sl.r_3 c arg1 harg1 x0) (kernelRun0_A.sl.r_4 c arg1 harg1 x0) (kernelRun0_A.sl.r_5 c arg1 harg1 x0) (kernelRun0_A.sl.r_40 c arg1 harg1 x0) (ix1 n) = Cn x0 x1 n 4 1 0 := by
  refine Eq.trans ?_ (Cn_step x0 x1 n 4 1 (by decide) rfl (by decide) 1 0).symm
  unfold k0_pay117
  simp only [addf_apply, mulf_apply, r_3_apply c arg1 harg1 arg2 harg2 x0 x1, r_40_apply c arg1 harg1 arg2 harg2 x0 x1, r_4_apply c arg1 harg1 arg2 harg2 x0 x1, k0_pay108_apply c arg1 harg1 arg2 harg2 x0 x1, r_5_apply c arg1 harg1 arg2 harg2 x0 x1, k0_pay111_apply c arg1 harg1 arg2 harg2 x0 x1]

theorem r_45_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_45 c arg1 harg1 x0 (ix1 n) = Cn x0 x1 n 4 1 0 := by
  delta kernelRun0_A.sl.r_45
  simp only [k0_pay117_apply c arg1 harg1 arg2 harg2 x0 x1]

theorem k0_pay118_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay118 (F := Ideal) (kernelRun0_A.sl.v2 c arg1 harg1 x0) (kernelRun0_A.sl.r_3 c arg1 harg1 x0) (kernelRun0_A.sl.r_4 c arg1 harg1 x0) (kernelRun0_A.sl.r_5 c arg1 harg1 x0) (kernelRun0_A.sl.r_41 c arg1 harg1 x0) (ix1 n) = Cn x0 x1 n 4 1 1 := by
  refine Eq.trans ?_ (Cn_step x0 x1 n 4 1 (by decide) rfl (by decide) 1 1).symm
  unfold k0_pay118
  simp only [addf_apply, mulf_apply, r_3_apply c arg1 harg1 arg2 harg2 x0 x1, k0_pay106_apply c arg1 harg1 arg2 harg2 x0 x1, r_4_apply c arg1 harg1 arg2 harg2 x0 x1, k0_pay109_apply c arg1 harg1 arg2 harg2 x0 x1, r_5_apply c arg1 harg1 arg2 harg2 x0 x1, k0_pay112_apply c arg1 harg1 arg2 harg2 x0 x1]

theorem r_46_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_46 c arg1 harg1 x0 (ix1 n) = Cn x0 x1 n 4 1 1 := by
  delta kernelRun0_A.sl.r_46
  simp only [k0_pay118_apply c arg1 harg1 arg2 harg2 x0 x1]

theorem k0_pay119_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay119 (F := Ideal) (kernelRun0_A.sl.v2 c arg1 harg1 x0) (kernelRun0_A.sl.r_3 c arg1 harg1 x0) (kernelRun0_A.sl.r_4 c arg1 harg1 x0) (kernelRun0_A.sl.r_5 c arg1 harg1 x0) (ix1 n) = Cn x0 x1 n 4 1 2 := by
  refine Eq.trans ?_ (Cn_step x0 x1 n 4 1 (by decide) rfl (by decide) 1 2).symm
  unfold k0_pay119
  simp only [addf_apply, mulf_apply, r_3_apply c arg1 harg1 arg2 harg2 x0 x1, k0_pay107_apply c arg1 harg1 arg2 harg2 x0 x1, r_4_apply c arg1 harg1 arg2 harg2 x0 x1, k0_pay110_apply c arg1 harg1 arg2 harg2 x0 x1, r_5_apply c arg1 harg1 arg2 harg2 x0 x1, k0_pay113_apply c arg1 harg1 arg2 harg2 x0 x1]

theorem r_47_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_47 c arg1 harg1 x0 (ix1 n) = Cn x0 x1 n 4 1 2 := by
  delta kernelRun0_A.sl.r_47
  simp only [k0_pay119_apply c arg1 harg1 arg2 harg2 x0 x1]

theorem k0_pay201_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay201 (F := Ideal) (kernelRun0_A.sl.v2 c arg1 harg1 x0) (kernelRun0_A.sl.r_45 c arg1 harg1 x0) (kernelRun0_A.sl.r_46 c arg1 harg1 x0) (kernelRun0_A.sl.r_47 c arg1 harg1 x0) (kernelRun0_A.sl.r_82 c arg1 harg1 x0) (ix1 n) = Cn x0 x1 n 7 1 0 := by
  refine Eq.trans ?_ (Cn_step x0 x1 n 7 4 (by decide) rfl (by decide) 1 0).symm
  unfold k0_pay201
  simp only [addf_apply, mulf_apply, r_45_apply c arg1 harg1 arg2 harg2 x0 x1, r_82_apply c arg1 harg1 arg2 harg2 x0 x1, r_46_apply c arg1 harg1 arg2 harg2 x0 x1, k0_pay192_apply c arg1 harg1 arg2 harg2 x0 x1, r_47_apply c arg1 harg1 arg2 harg2 x0 x1, k0_pay195_apply c arg1 harg1 arg2 harg2 x0 x1]

theorem r_87_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_87 c arg1 harg1 x0 (ix1 n) = Cn x0 x1 n 7 1 0 := by
  delta kernelRun0_A.sl.r_87
  simp only [k0_pay201_apply c arg1 harg1 arg2 harg2 x0 x1]

theorem k0_pay202_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay202 (F := Ideal) (kernelRun0_A.sl.v2 c arg1 harg1 x0) (kernelRun0_A.sl.r_45 c arg1 harg1 x0) (kernelRun0_A.sl.r_46 c arg1 harg1 x0) (kernelRun0_A.sl.r_47 c arg1 harg1 x0) (kernelRun0_A.sl.r_83 c arg1 harg1 x0) (ix1 n) = Cn x0 x1 n 7 1 1 := by
  refine Eq.trans ?_ (Cn_step x0 x1 n 7 4 (by decide) rfl (by decide) 1 1).symm
  unfold k0_pay202
  simp only [addf_apply, mulf_apply, r_45_apply c arg1 harg1 arg2 harg2 x0 x1, k0_pay190_apply c arg1 harg1 arg2 harg2 x0 x1, r_46_apply c arg1 harg1 arg2 harg2 x0 x1, k0_pay193_apply c arg1 harg1 arg2 harg2 x0 x1, r_47_apply c arg1 harg1 arg2 harg2 x0 x1, k0_pay196_apply c arg1 harg1 arg2 harg2 x0 x1]

theorem r_88_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_88 c arg1 harg1 x0 (ix1 n) = Cn x0 x1 n 7 1 1 := by
  delta kernelRun0_A.sl.r_88
  simp only [k0_pay202_apply c arg1 harg1 arg2 harg2 x0 x1]

theorem k0_pay203_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay203 (F := Ideal) (kernelRun0_A.sl.v2 c arg1 harg1 x0) (kernelRun0_A.sl.r_45 c arg1 harg1 x0) (kernelRun0_A.sl.r_46 c arg1 harg1 x0) (kernelRun0_A.sl.r_47 c arg1 harg1 x0) (ix1 n) = Cn x0 x1 n 7 1 2 := by
  refine Eq.trans ?_ (Cn_step x0 x1 n 7 4 (by decide) rfl (by decide) 1 2).symm
  unfold k0_pay203
  simp only [addf_apply, mulf_apply, r_45_apply c arg1 harg1 arg2 harg2 x0 x1, k0_pay191_apply c arg1 harg1 arg2 harg2 x0 x1, r_46_apply c arg1 harg1 arg2 harg2 x0 x1, k0_pay194_apply c arg1 harg1 arg2 harg2 x0 x1, r_47_apply c arg1 harg1 arg2 harg2 x0 x1, k0_pay197_apply c arg1 harg1 arg2 harg2 x0 x1]

theorem r_89_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_89 c arg1 harg1 x0 (ix1 n) = Cn x0 x1 n 7 1 2 := by
  delta kernelRun0_A.sl.r_89
  simp only [k0_pay203_apply c arg1 harg1 arg2 harg2 x0 x1]

theorem k0_pay43_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay43 (F := Ideal) (kernelRun0_A.sl.v10 c arg1 harg1 x0) (kernelRun0_A.sl.v12 c arg1 harg1 x0) (kernelRun0_A.sl.v14 c arg1 harg1 x0) (kernelRun0_A.sl.v26 c arg2 harg2 x1) (View.readAt (Elt Ideal) arg2.view (Rect.unit (s := S3x55) ![0, 1] S1x1.size inb_S3x55_S1x1_0_1).toLoadRect (harg2.unread x1)) (View.readAt (Elt Ideal) arg2.view (Rect.unit (s := S3x55) ![1, 1] S1x1.size inb_S3x55_S1x1_1_1).toLoadRect (harg2.unread x1)) (View.readAt (Elt Ideal) arg2.view (Rect.unit (s := S3x55) ![2, 1] S1x1.size inb_S3x55_S1x1_2_1).toLoadRect (harg2.unread x1)) (ix1 n) = Pn x0 x1 n 1 1 := by
  refine Eq.trans ?_ (Pn_step x0 x1 n 1 0 (by decide) rfl 1).symm
  unfold k0_pay43
  simp only [addf_apply, mulf_apply, v10_apply c arg1 harg1 arg2 harg2 x0 x1, broadcast_apply, k0_pay39_apply c arg1 harg1 arg2 harg2 x0 x1, v12_apply c arg1 harg1 arg2 harg2 x0 x1, k0_pay40_apply c arg1 harg1 arg2 harg2 x0 x1, v14_apply c arg1 harg1 arg2 harg2 x0 x1, k0_pay41_apply c arg1 harg1 arg2 harg2 x0 x1, v26_apply c arg1 harg1 arg2 harg2 x0 x1]

theorem r_10_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_10 c arg1 harg1 arg2 harg2 x0 x1 (ix1 n) = Pn x0 x1 n 1 1 := by
  delta kernelRun0_A.sl.r_10
  simp only [k0_pay43_apply c arg1 harg1 arg2 harg2 x0 x1]

theorem k0_pay127_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay127 (F := Ideal) (kernelRun0_A.sl.r_3 c arg1 harg1 x0) (kernelRun0_A.sl.r_4 c arg1 harg1 x0) (kernelRun0_A.sl.r_5 c arg1 harg1 x0) (kernelRun0_A.sl.r_10 c arg1 harg1 arg2 harg2 x0 x1) (View.readAt (Elt Ideal) arg2.view (Rect.unit (s := S3x55) ![0, 4] S1x1.size inb_S3x55_S1x1_0_4).toLoadRect (harg2.unread x1)) (View.readAt (Elt Ideal) arg2.view (Rect.unit (s := S3x55) ![1, 4] S1x1.size inb_S3x55_S1x1_1_4).toLoadRect (harg2.unread x1)) (View.readAt (Elt Ideal) arg2.view (Rect.unit (s := S3x55) ![2, 4] S1x1.size inb_S3x55_S1x1_2_4).toLoadRect (harg2.unread x1)) (ix1 n) = Pn x0 x1 n 4 1 := by
  refine Eq.trans ?_ (Pn_step x0 x1 n 4 1 (by decide) rfl 1).symm
  unfold k0_pay127
  simp only [addf_apply, mulf_apply, r_3_apply c arg1 harg1 arg2 harg2 x0 x1, broadcast_apply, k0_pay123_apply c arg1 harg1 arg2 harg2 x0 x1, r_4_apply c arg1 harg1 arg2 harg2 x0 x1, k0_pay124_apply c arg1 harg1 arg2 harg2 x0 x1, r_5_apply c arg1 harg1 arg2 harg2 x0 x1, k0_pay125_apply c arg1 harg1 arg2 harg2 x0 x1, r_10_apply c arg1 harg1 arg2 harg2 x0 x1]

theorem r_52_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_52 c arg1 harg1 arg2 harg2 x0 x1 (ix1 n) = Pn x0 x1 n 4 1 := by
  delta kernelRun0_A.sl.r_52
  simp only [k0_pay127_apply c arg1 harg1 arg2 harg2 x0 x1]

theorem k0_pay211_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay211 (F := Ideal) (kernelRun0_A.sl.r_45 c arg1 harg1 x0) (kernelRun0_A.sl.r_46 c arg1 harg1 x0) (kernelRun0_A.sl.r_47 c arg1 harg1 x0) (kernelRun0_A.sl.r_52 c arg1 harg1 arg2 harg2 x0 x1) (View.readAt (Elt Ideal) arg2.view (Rect.unit (s := S3x55) ![0, 7] S1x1.size inb_S3x55_S1x1_0_7).toLoadRect (harg2.unread x1)) (View.readAt (Elt Ideal) arg2.view (Rect.unit (s := S3x55) ![1, 7] S1x1.size inb_S3x55_S1x1_1_7).toLoadRect (harg2.unread x1)) (View.readAt (Elt Ideal) arg2.view (Rect.unit (s := S3x55) ![2, 7] S1x1.size inb_S3x55_S1x1_2_7).toLoadRect (harg2.unread x1)) (ix1 n) = Pn x0 x1 n 7 1 := by
  refine Eq.trans ?_ (Pn_step x0 x1 n 7 4 (by decide) rfl 1).symm
  unfold k0_pay211
  simp only [addf_apply, mulf_apply, r_45_apply c arg1 harg1 arg2 harg2 x0 x1, broadcast_apply, k0_pay207_apply c arg1 harg1 arg2 harg2 x0 x1, r_46_apply c arg1 harg1 arg2 harg2 x0 x1, k0_pay208_apply c arg1 harg1 arg2 harg2 x0 x1, r_47_apply c arg1 harg1 arg2 harg2 x0 x1, k0_pay209_apply c arg1 harg1 arg2 harg2 x0 x1, r_52_apply c arg1 harg1 arg2 harg2 x0 x1]

theorem r_94_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_94 c arg1 harg1 arg2 harg2 x0 x1 (ix1 n) = Pn x0 x1 n 7 1 := by
  delta kernelRun0_A.sl.r_94
  simp only [k0_pay211_apply c arg1 harg1 arg2 harg2 x0 x1]

theorem k0_pay276_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay276 (F := Ideal) (kernelRun0_A.sl.r_87 c arg1 harg1 x0) (kernelRun0_A.sl.r_88 c arg1 harg1 x0) (kernelRun0_A.sl.r_89 c arg1 harg1 x0) (kernelRun0_A.sl.r_94 c arg1 harg1 arg2 harg2 x0 x1) (kernelRun0_A.sl.r_124 c arg2 harg2 x1) (View.readAt (Elt Ideal) arg2.view (Rect.unit (s := S3x55) ![1, 10] S1x1.size inb_S3x55_S1x1_1_10).toLoadRect (harg2.unread x1)) (View.readAt (Elt Ideal) arg2.view (Rect.unit (s := S3x55) ![2, 10] S1x1.size inb_S3x55_S1x1_2_10).toLoadRect (harg2.unread x1)) (ix2 u n) = Pn x0 x1 n 10 1 := by
  refine Eq.trans ?_ (Pn_step x0 x1 n 10 7 (by decide) rfl 1).symm
  unfold k0_pay276
  simp only [shapeCast_a_1a_apply, addf_apply, mulf_apply, r_87_apply c arg1 harg1 arg2 harg2 x0 x1, broadcast_apply, k0_pay272_apply c arg1 harg1 arg2 harg2 x0 x1, r_88_apply c arg1 harg1 arg2 harg2 x0 x1, k0_pay273_apply c arg1 harg1 arg2 harg2 x0 x1, r_89_apply c arg1 harg1 arg2 harg2 x0 x1, k0_pay274_apply c arg1 harg1 arg2 harg2 x0 x1, r_94_apply c arg1 harg1 arg2 harg2 x0 x1]

theorem k0_pay30_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay30 (F := Ideal) (kernelRun0_A.sl.v2 c arg1 harg1 x0) (kernelRun0_A.sl.v4 c arg1 harg1 x0) (kernelRun0_A.sl.v6 c arg1 harg1 x0) (kernelRun0_A.sl.v8 c arg1 harg1 x0) (kernelRun0_A.sl.v40 c arg1 harg1 x0) (ix1 n) = Cn x0 x1 n 1 0 0 := by
  refine Eq.trans ?_ (Cn_step x0 x1 n 1 0 (by decide) rfl (by decide) 0 0).symm
  unfold k0_pay30
  simp only [addf_apply, mulf_apply, v4_apply c arg1 harg1 arg2 harg2 x0 x1, v40_apply c arg1 harg1 arg2 harg2 x0 x1, v6_apply c arg1 harg1 arg2 harg2 x0 x1, k0_pay24_apply c arg1 harg1 arg2 harg2 x0 x1, v8_apply c arg1 harg1 arg2 harg2 x0 x1, k0_pay27_apply c arg1 harg1 arg2 harg2 x0 x1]

theorem r_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r c arg1 harg1 x0 (ix1 n) = Cn x0 x1 n 1 0 0 := by
  delta kernelRun0_A.sl.r
  simp only [k0_pay30_apply c arg1 harg1 arg2 harg2 x0 x1]

theorem k0_pay31_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay31 (F := Ideal) (kernelRun0_A.sl.v2 c arg1 harg1 x0) (kernelRun0_A.sl.v4 c arg1 harg1 x0) (kernelRun0_A.sl.v6 c arg1 harg1 x0) (kernelRun0_A.sl.v8 c arg1 harg1 x0) (kernelRun0_A.sl.v41 c arg1 harg1 x0) (ix1 n) = Cn x0 x1 n 1 0 1 := by
  refine Eq.trans ?_ (Cn_step x0 x1 n 1 0 (by decide) rfl (by decide) 0 1).symm
  unfold k0_pay31
  simp only [addf_apply, mulf_apply, v4_apply c arg1 harg1 arg2 harg2 x0 x1, k0_pay22_apply c arg1 harg1 arg2 harg2 x0 x1, v6_apply c arg1 harg1 arg2 harg2 x0 x1, k0_pay25_apply c arg1 harg1 arg2 harg2 x0 x1, v8_apply c arg1 harg1 arg2 harg2 x0 x1, k0_pay28_apply c arg1 harg1 arg2 harg2 x0 x1]

theorem r_1_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_1 c arg1 harg1 x0 (ix1 n) = Cn x0 x1 n 1 0 1 := by
  delta kernelRun0_A.sl.r_1
  simp only [k0_pay31_apply c arg1 harg1 arg2 harg2 x0 x1]

theorem k0_pay32_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay32 (F := Ideal) (kernelRun0_A.sl.v2 c arg1 harg1 x0) (kernelRun0_A.sl.v4 c arg1 harg1 x0) (kernelRun0_A.sl.v6 c arg1 harg1 x0) (kernelRun0_A.sl.v8 c arg1 harg1 x0) (ix1 n) = Cn x0 x1 n 1 0 2 := by
  refine Eq.trans ?_ (Cn_step x0 x1 n 1 0 (by decide) rfl (by decide) 0 2).symm
  unfold k0_pay32
  simp only [addf_apply, mulf_apply, v4_apply c arg1 harg1 arg2 harg2 x0 x1, k0_pay23_apply c arg1 harg1 arg2 harg2 x0 x1, v6_apply c arg1 harg1 arg2 harg2 x0 x1, k0_pay26_apply c arg1 harg1 arg2 harg2 x0 x1, v8_apply c arg1 harg1 arg2 harg2 x0 x1, k0_pay29_apply c arg1 harg1 arg2 harg2 x0 x1]

theorem r_2_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_2 c arg1 harg1 x0 (ix1 n) = Cn x0 x1 n 1 0 2 := by
  delta kernelRun0_A.sl.r_2
  simp only [k0_pay32_apply c arg1 harg1 arg2 harg2 x0 x1]

theorem k0_pay114_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay114 (F := Ideal) (kernelRun0_A.sl.v2 c arg1 harg1 x0) (kernelRun0_A.sl.r c arg1 harg1 x0) (kernelRun0_A.sl.r_1 c arg1 harg1 x0) (kernelRun0_A.sl.r_2 c arg1 harg1 x0) (kernelRun0_A.sl.r_40 c arg1 harg1 x0) (ix1 n) = Cn x0 x1 n 4 0 0 := by
  refine Eq.trans ?_ (Cn_step x0 x1 n 4 1 (by decide) rfl (by decide) 0 0).symm
  unfold k0_pay114
  simp only [addf_apply, mulf_apply, r_apply c arg1 harg1 arg2 harg2 x0 x1, r_40_apply c arg1 harg1 arg2 harg2 x0 x1, r_1_apply c arg1 harg1 arg2 harg2 x0 x1, k0_pay108_apply c arg1 harg1 arg2 harg2 x0 x1, r_2_apply c arg1 harg1 arg2 harg2 x0 x1, k0_pay111_apply c arg1 harg1 arg2 harg2 x0 x1]

theorem r_42_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_42 c arg1 harg1 x0 (ix1 n) = Cn x0 x1 n 4 0 0 := by
  delta kernelRun0_A.sl.r_42
  simp only [k0_pay114_apply c arg1 harg1 arg2 harg2 x0 x1]

theorem k0_pay115_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay115 (F := Ideal) (kernelRun0_A.sl.v2 c arg1 harg1 x0) (kernelRun0_A.sl.r c arg1 harg1 x0) (kernelRun0_A.sl.r_1 c arg1 harg1 x0) (kernelRun0_A.sl.r_2 c arg1 harg1 x0) (kernelRun0_A.sl.r_41 c arg1 harg1 x0) (ix1 n) = Cn x0 x1 n 4 0 1 := by
  refine Eq.trans ?_ (Cn_step x0 x1 n 4 1 (by decide) rfl (by decide) 0 1).symm
  unfold k0_pay115
  simp only [addf_apply, mulf_apply, r_apply c arg1 harg1 arg2 harg2 x0 x1, k0_pay106_apply c arg1 harg1 arg2 harg2 x0 x1, r_1_apply c arg1 harg1 arg2 harg2 x0 x1, k0_pay109_apply c arg1 harg1 arg2 harg2 x0 x1, r_2_apply c arg1 harg1 arg2 harg2 x0 x1, k0_pay112_apply c arg1 harg1 arg2 harg2 x0 x1]

theorem r_43_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_43 c arg1 harg1 x0 (ix1 n) = Cn x0 x1 n 4 0 1 := by
  delta kernelRun0_A.sl.r_43
  simp only [k0_pay115_apply c arg1 harg1 arg2 harg2 x0 x1]

theorem k0_pay116_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay116 (F := Ideal) (kernelRun0_A.sl.v2 c arg1 harg1 x0) (kernelRun0_A.sl.r c arg1 harg1 x0) (kernelRun0_A.sl.r_1 c arg1 harg1 x0) (kernelRun0_A.sl.r_2 c arg1 harg1 x0) (ix1 n) = Cn x0 x1 n 4 0 2 := by
  refine Eq.trans ?_ (Cn_step x0 x1 n 4 1 (by decide) rfl (by decide) 0 2).symm
  unfold k0_pay116
  simp only [addf_apply, mulf_apply, r_apply c arg1 harg1 arg2 harg2 x0 x1, k0_pay107_apply c arg1 harg1 arg2 harg2 x0 x1, r_1_apply c arg1 harg1 arg2 harg2 x0 x1, k0_pay110_apply c arg1 harg1 arg2 harg2 x0 x1, r_2_apply c arg1 harg1 arg2 harg2 x0 x1, k0_pay113_apply c arg1 harg1 arg2 harg2 x0 x1]

theorem r_44_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_44 c arg1 harg1 x0 (ix1 n) = Cn x0 x1 n 4 0 2 := by
  delta kernelRun0_A.sl.r_44
  simp only [k0_pay116_apply c arg1 harg1 arg2 harg2 x0 x1]

theorem k0_pay198_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay198 (F := Ideal) (kernelRun0_A.sl.v2 c arg1 harg1 x0) (kernelRun0_A.sl.r_42 c arg1 harg1 x0) (kernelRun0_A.sl.r_43 c arg1 harg1 x0) (kernelRun0_A.sl.r_44 c arg1 harg1 x0) (kernelRun0_A.sl.r_82 c arg1 harg1 x0) (ix1 n) = Cn x0 x1 n 7 0 0 := by
  refine Eq.trans ?_ (Cn_step x0 x1 n 7 4 (by decide) rfl (by decide) 0 0).symm
  unfold k0_pay198
  simp only [addf_apply, mulf_apply, r_42_apply c arg1 harg1 arg2 harg2 x0 x1, r_82_apply c arg1 harg1 arg2 harg2 x0 x1, r_43_apply c arg1 harg1 arg2 harg2 x0 x1, k0_pay192_apply c arg1 harg1 arg2 harg2 x0 x1, r_44_apply c arg1 harg1 arg2 harg2 x0 x1, k0_pay195_apply c arg1 harg1 arg2 harg2 x0 x1]

theorem r_84_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_84 c arg1 harg1 x0 (ix1 n) = Cn x0 x1 n 7 0 0 := by
  delta kernelRun0_A.sl.r_84
  simp only [k0_pay198_apply c arg1 harg1 arg2 harg2 x0 x1]

theorem k0_pay199_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay199 (F := Ideal) (kernelRun0_A.sl.v2 c arg1 harg1 x0) (kernelRun0_A.sl.r_42 c arg1 harg1 x0) (kernelRun0_A.sl.r_43 c arg1 harg1 x0) (kernelRun0_A.sl.r_44 c arg1 harg1 x0) (kernelRun0_A.sl.r_83 c arg1 harg1 x0) (ix1 n) = Cn x0 x1 n 7 0 1 := by
  refine Eq.trans ?_ (Cn_step x0 x1 n 7 4 (by decide) rfl (by decide) 0 1).symm
  unfold k0_pay199
  simp only [addf_apply, mulf_apply, r_42_apply c arg1 harg1 arg2 harg2 x0 x1, k0_pay190_apply c arg1 harg1 arg2 harg2 x0 x1, r_43_apply c arg1 harg1 arg2 harg2 x0 x1, k0_pay193_apply c arg1 harg1 arg2 harg2 x0 x1, r_44_apply c arg1 harg1 arg2 harg2 x0 x1, k0_pay196_apply c arg1 harg1 arg2 harg2 x0 x1]

theorem r_85_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_85 c arg1 harg1 x0 (ix1 n) = Cn x0 x1 n 7 0 1 := by
  delta kernelRun0_A.sl.r_85
  simp only [k0_pay199_apply c arg1 harg1 arg2 harg2 x0 x1]

theorem k0_pay200_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay200 (F := Ideal) (kernelRun0_A.sl.v2 c arg1 harg1 x0) (kernelRun0_A.sl.r_42 c arg1 harg1 x0) (kernelRun0_A.sl.r_43 c arg1 harg1 x0) (kernelRun0_A.sl.r_44 c arg1 harg1 x0) (ix1 n) = Cn x0 x1 n 7 0 2 := by
  refine Eq.trans ?_ (Cn_step x0 x1 n 7 4 (by decide) rfl (by decide) 0 2).symm
  unfold k0_pay200
  simp only [addf_apply, mulf_apply, r_42_apply c arg1 harg1 arg2 harg2 x0 x1, k0_pay191_apply c arg1 harg1 arg2 harg2 x0 x1, r_43_apply c arg1 harg1 arg2 harg2 x0 x1, k0_pay194_apply c arg1 harg1 arg2 harg2 x0 x1, r_44_apply c arg1 harg1 arg2 harg2 x0 x1, k0_pay197_apply c arg1 harg1 arg2 harg2 x0 x1]

theorem r_86_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_86 c arg1 harg1 x0 (ix1 n) = Cn x0 x1 n 7 0 2 := by
  delta kernelRun0_A.sl.r_86
  simp only [k0_pay200_apply c arg1 harg1 arg2 harg2 x0 x1]

theorem k0_pay42_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay42 (F := Ideal) (kernelRun0_A.sl.v4 c arg1 harg1 x0) (kernelRun0_A.sl.v6 c arg1 harg1 x0) (kernelRun0_A.sl.v8 c arg1 harg1 x0) (kernelRun0_A.sl.v23 c arg2 harg2 x1) (View.readAt (Elt Ideal) arg2.view (Rect.unit (s := S3x55) ![0, 1] S1x1.size inb_S3x55_S1x1_0_1).toLoadRect (harg2.unread x1)) (View.readAt (Elt Ideal) arg2.view (Rect.unit (s := S3x55) ![1, 1] S1x1.size inb_S3x55_S1x1_1_1).toLoadRect (harg2.unread x1)) (View.readAt (Elt Ideal) arg2.view (Rect.unit (s := S3x55) ![2, 1] S1x1.size inb_S3x55_S1x1_2_1).toLoadRect (harg2.unread x1)) (ix1 n) = Pn x0 x1 n 1 0 := by
  refine Eq.trans ?_ (Pn_step x0 x1 n 1 0 (by decide) rfl 0).symm
  unfold k0_pay42
  simp only [addf_apply, mulf_apply, v4_apply c arg1 harg1 arg2 harg2 x0 x1, broadcast_apply, k0_pay39_apply c arg1 harg1 arg2 harg2 x0 x1, v6_apply c arg1 harg1 arg2 harg2 x0 x1, k0_pay40_apply c arg1 harg1 arg2 harg2 x0 x1, v8_apply c arg1 harg1 arg2 harg2 x0 x1, k0_pay41_apply c arg1 harg1 arg2 harg2 x0 x1, v23_apply c arg1 harg1 arg2 harg2 x0 x1]

theorem r_9_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_9 c arg1 harg1 arg2 harg2 x0 x1 (ix1 n) = Pn x0 x1 n 1 0 := by
  delta kernelRun0_A.sl.r_9
  simp only [k0_pay42_apply c arg1 harg1 arg2 harg2 x0 x1]

theorem k0_pay126_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay126 (F := Ideal) (kernelRun0_A.sl.r c arg1 harg1 x0) (kernelRun0_A.sl.r_1 c arg1 harg1 x0) (kernelRun0_A.sl.r_2 c arg1 harg1 x0) (kernelRun0_A.sl.r_9 c arg1 harg1 arg2 harg2 x0 x1) (View.readAt (Elt Ideal) arg2.view (Rect.unit (s := S3x55) ![0, 4] S1x1.size inb_S3x55_S1x1_0_4).toLoadRect (harg2.unread x1)) (View.readAt (Elt Ideal) arg2.view (Rect.unit (s := S3x55) ![1, 4] S1x1.size inb_S3x55_S1x1_1_4).toLoadRect (harg2.unread x1)) (View.readAt (Elt Ideal) arg2.view (Rect.unit (s := S3x55) ![2, 4] S1x1.size inb_S3x55_S1x1_2_4).toLoadRect (harg2.unread x1)) (ix1 n) = Pn x0 x1 n 4 0 := by
  refine Eq.trans ?_ (Pn_step x0 x1 n 4 1 (by decide) rfl 0).symm
  unfold k0_pay126
  simp only [addf_apply, mulf_apply, r_apply c arg1 harg1 arg2 harg2 x0 x1, broadcast_apply, k0_pay123_apply c arg1 harg1 arg2 harg2 x0 x1, r_1_apply c arg1 harg1 arg2 harg2 x0 x1, k0_pay124_apply c arg1 harg1 arg2 harg2 x0 x1, r_2_apply c arg1 harg1 arg2 harg2 x0 x1, k0_pay125_apply c arg1 harg1 arg2 harg2 x0 x1, r_9_apply c arg1 harg1 arg2 harg2 x0 x1]

theorem r_51_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_51 c arg1 harg1 arg2 harg2 x0 x1 (ix1 n) = Pn x0 x1 n 4 0 := by
  delta kernelRun0_A.sl.r_51
  simp only [k0_pay126_apply c arg1 harg1 arg2 harg2 x0 x1]

theorem k0_pay210_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    k0_pay210 (F := Ideal) (kernelRun0_A.sl.r_42 c arg1 harg1 x0) (kernelRun0_A.sl.r_43 c arg1 harg1 x0) (kernelRun0_A.sl.r_44 c arg1 harg1 x0) (kernelRun0_A.sl.r_51 c arg1 harg1 arg2 harg2 x0 x1) (View.readAt (Elt Ideal) arg2.view (Rect.unit (s := S3x55) ![0, 7] S1x1.size inb_S3x55_S1x1_0_7).toLoadRect (harg2.unread x1)) (View.readAt (Elt Ideal) arg2.view (Rect.unit (s := S3x55) ![1, 7] S1x1.size inb_S3x55_S1x1_1_7).toLoadRect (harg2.unread x1)) (View.readAt (Elt Ideal) arg2.view (Rect.unit (s := S3x55) ![2, 7] S1x1.size inb_S3x55_S1x1_2_7).toLoadRect (harg2.unread x1)) (ix1 n) = Pn x0 x1 n 7 0 := by
  refine Eq.trans ?_ (Pn_step x0 x1 n 7 4 (by decide) rfl 0).symm
  unfold k0_pay210
  simp only [addf_apply, mulf_apply, r_42_apply c arg1 harg1 arg2 harg2 x0 x1, broadcast_apply, k0_pay207_apply c arg1 harg1 arg2 harg2 x0 x1, r_43_apply c arg1 harg1 arg2 harg2 x0 x1, k0_pay208_apply c arg1 harg1 arg2 harg2 x0 x1, r_44_apply c arg1 harg1 arg2 harg2 x0 x1, k0_pay209_apply c arg1 harg1 arg2 harg2 x0 x1, r_51_apply c arg1 harg1 arg2 harg2 x0 x1]

theorem r_93_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (n : Fin 4096) :
    kernelRun0_A.sl.r_93 c arg1 harg1 arg2 harg2 x0 x1 (ix1 n) = Pn x0 x1 n 7 0 := by
  delta kernelRun0_A.sl.r_93
  simp only [k0_pay210_apply c arg1 harg1 arg2 harg2 x0 x1]

theorem k0_pay275_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay275 (F := Ideal) (kernelRun0_A.sl.r_84 c arg1 harg1 x0) (kernelRun0_A.sl.r_85 c arg1 harg1 x0) (kernelRun0_A.sl.r_86 c arg1 harg1 x0) (kernelRun0_A.sl.r_93 c arg1 harg1 arg2 harg2 x0 x1) (kernelRun0_A.sl.r_124 c arg2 harg2 x1) (View.readAt (Elt Ideal) arg2.view (Rect.unit (s := S3x55) ![1, 10] S1x1.size inb_S3x55_S1x1_1_10).toLoadRect (harg2.unread x1)) (View.readAt (Elt Ideal) arg2.view (Rect.unit (s := S3x55) ![2, 10] S1x1.size inb_S3x55_S1x1_2_10).toLoadRect (harg2.unread x1)) (ix2 u n) = Pn x0 x1 n 10 0 := by
  refine Eq.trans ?_ (Pn_step x0 x1 n 10 7 (by decide) rfl 0).symm
  unfold k0_pay275
  simp only [shapeCast_a_1a_apply, addf_apply, mulf_apply, r_84_apply c arg1 harg1 arg2 harg2 x0 x1, broadcast_apply, k0_pay272_apply c arg1 harg1 arg2 harg2 x0 x1, r_85_apply c arg1 harg1 arg2 harg2 x0 x1, k0_pay273_apply c arg1 harg1 arg2 harg2 x0 x1, r_86_apply c arg1 harg1 arg2 harg2 x0 x1, k0_pay274_apply c arg1 harg1 arg2 harg2 x0 x1, r_93_apply c arg1 harg1 arg2 harg2 x0 x1]

theorem k0_pay271_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay271 (F := Ideal) (kernelRun0_A.sl.r_76 c arg1 harg1 x0) (kernelRun0_A.sl.r_77 c arg1 harg1 x0) (kernelRun0_A.sl.r_78 c arg1 harg1 x0) (kernelRun0_A.sl.r_81 c arg1 harg1 arg2 harg2 x0 x1) (View.readAt (Elt Ideal) arg2.view (Rect.unit (s := S3x55) ![0, 9] S1x1.size inb_S3x55_S1x1_0_9).toLoadRect (harg2.unread x1)) (View.readAt (Elt Ideal) arg2.view (Rect.unit (s := S3x55) ![1, 9] S1x1.size inb_S3x55_S1x1_1_9).toLoadRect (harg2.unread x1)) (View.readAt (Elt Ideal) arg2.view (Rect.unit (s := S3x55) ![2, 9] S1x1.size inb_S3x55_S1x1_2_9).toLoadRect (harg2.unread x1)) (ix2 u n) = Pn x0 x1 n 9 2 := by
  unfold k0_pay271
  simp only [shapeCast_a_1a_apply, k0_pay268_apply c arg1 harg1 arg2 harg2 x0 x1]

theorem k0_pay270_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay270 (F := Ideal) (kernelRun0_A.sl.r_73 c arg1 harg1 x0) (kernelRun0_A.sl.r_74 c arg1 harg1 x0) (kernelRun0_A.sl.r_75 c arg1 harg1 x0) (kernelRun0_A.sl.r_80 c arg1 harg1 arg2 harg2 x0 x1) (View.readAt (Elt Ideal) arg2.view (Rect.unit (s := S3x55) ![0, 9] S1x1.size inb_S3x55_S1x1_0_9).toLoadRect (harg2.unread x1)) (View.readAt (Elt Ideal) arg2.view (Rect.unit (s := S3x55) ![1, 9] S1x1.size inb_S3x55_S1x1_1_9).toLoadRect (harg2.unread x1)) (View.readAt (Elt Ideal) arg2.view (Rect.unit (s := S3x55) ![2, 9] S1x1.size inb_S3x55_S1x1_2_9).toLoadRect (harg2.unread x1)) (ix2 u n) = Pn x0 x1 n 9 1 := by
  unfold k0_pay270
  simp only [shapeCast_a_1a_apply, k0_pay267_apply c arg1 harg1 arg2 harg2 x0 x1]

theorem k0_pay269_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay269 (F := Ideal) (kernelRun0_A.sl.r_70 c arg1 harg1 x0) (kernelRun0_A.sl.r_71 c arg1 harg1 x0) (kernelRun0_A.sl.r_72 c arg1 harg1 x0) (kernelRun0_A.sl.r_79 c arg1 harg1 arg2 harg2 x0 x1) (View.readAt (Elt Ideal) arg2.view (Rect.unit (s := S3x55) ![0, 9] S1x1.size inb_S3x55_S1x1_0_9).toLoadRect (harg2.unread x1)) (View.readAt (Elt Ideal) arg2.view (Rect.unit (s := S3x55) ![1, 9] S1x1.size inb_S3x55_S1x1_1_9).toLoadRect (harg2.unread x1)) (View.readAt (Elt Ideal) arg2.view (Rect.unit (s := S3x55) ![2, 9] S1x1.size inb_S3x55_S1x1_2_9).toLoadRect (harg2.unread x1)) (ix2 u n) = Pn x0 x1 n 9 0 := by
  unfold k0_pay269
  simp only [shapeCast_a_1a_apply, k0_pay266_apply c arg1 harg1 arg2 harg2 x0 x1]

theorem k0_pay243_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay243 (F := Ideal) (kernelRun0_A.sl.r_62 c arg1 harg1 x0) (kernelRun0_A.sl.r_63 c arg1 harg1 x0) (kernelRun0_A.sl.r_64 c arg1 harg1 x0) (kernelRun0_A.sl.r_67 c arg1 harg1 arg2 harg2 x0 x1) (View.readAt (Elt Ideal) arg2.view (Rect.unit (s := S3x55) ![0, 8] S1x1.size inb_S3x55_S1x1_0_8).toLoadRect (harg2.unread x1)) (View.readAt (Elt Ideal) arg2.view (Rect.unit (s := S3x55) ![1, 8] S1x1.size inb_S3x55_S1x1_1_8).toLoadRect (harg2.unread x1)) (View.readAt (Elt Ideal) arg2.view (Rect.unit (s := S3x55) ![2, 8] S1x1.size inb_S3x55_S1x1_2_8).toLoadRect (harg2.unread x1)) (ix2 u n) = Pn x0 x1 n 8 2 := by
  unfold k0_pay243
  simp only [shapeCast_a_1a_apply, k0_pay240_apply c arg1 harg1 arg2 harg2 x0 x1]

theorem k0_pay242_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay242 (F := Ideal) (kernelRun0_A.sl.r_59 c arg1 harg1 x0) (kernelRun0_A.sl.r_60 c arg1 harg1 x0) (kernelRun0_A.sl.r_61 c arg1 harg1 x0) (kernelRun0_A.sl.r_66 c arg1 harg1 arg2 harg2 x0 x1) (View.readAt (Elt Ideal) arg2.view (Rect.unit (s := S3x55) ![0, 8] S1x1.size inb_S3x55_S1x1_0_8).toLoadRect (harg2.unread x1)) (View.readAt (Elt Ideal) arg2.view (Rect.unit (s := S3x55) ![1, 8] S1x1.size inb_S3x55_S1x1_1_8).toLoadRect (harg2.unread x1)) (View.readAt (Elt Ideal) arg2.view (Rect.unit (s := S3x55) ![2, 8] S1x1.size inb_S3x55_S1x1_2_8).toLoadRect (harg2.unread x1)) (ix2 u n) = Pn x0 x1 n 8 1 := by
  unfold k0_pay242
  simp only [shapeCast_a_1a_apply, k0_pay239_apply c arg1 harg1 arg2 harg2 x0 x1]

theorem k0_pay241_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay241 (F := Ideal) (kernelRun0_A.sl.r_56 c arg1 harg1 x0) (kernelRun0_A.sl.r_57 c arg1 harg1 x0) (kernelRun0_A.sl.r_58 c arg1 harg1 x0) (kernelRun0_A.sl.r_65 c arg1 harg1 arg2 harg2 x0 x1) (View.readAt (Elt Ideal) arg2.view (Rect.unit (s := S3x55) ![0, 8] S1x1.size inb_S3x55_S1x1_0_8).toLoadRect (harg2.unread x1)) (View.readAt (Elt Ideal) arg2.view (Rect.unit (s := S3x55) ![1, 8] S1x1.size inb_S3x55_S1x1_1_8).toLoadRect (harg2.unread x1)) (View.readAt (Elt Ideal) arg2.view (Rect.unit (s := S3x55) ![2, 8] S1x1.size inb_S3x55_S1x1_2_8).toLoadRect (harg2.unread x1)) (ix2 u n) = Pn x0 x1 n 8 0 := by
  unfold k0_pay241
  simp only [shapeCast_a_1a_apply, k0_pay238_apply c arg1 harg1 arg2 harg2 x0 x1]

theorem k0_pay215_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay215 (F := Ideal) (kernelRun0_A.sl.r_48 c arg1 harg1 x0) (kernelRun0_A.sl.r_49 c arg1 harg1 x0) (kernelRun0_A.sl.r_50 c arg1 harg1 x0) (kernelRun0_A.sl.r_53 c arg1 harg1 arg2 harg2 x0 x1) (View.readAt (Elt Ideal) arg2.view (Rect.unit (s := S3x55) ![0, 7] S1x1.size inb_S3x55_S1x1_0_7).toLoadRect (harg2.unread x1)) (View.readAt (Elt Ideal) arg2.view (Rect.unit (s := S3x55) ![1, 7] S1x1.size inb_S3x55_S1x1_1_7).toLoadRect (harg2.unread x1)) (View.readAt (Elt Ideal) arg2.view (Rect.unit (s := S3x55) ![2, 7] S1x1.size inb_S3x55_S1x1_2_7).toLoadRect (harg2.unread x1)) (ix2 u n) = Pn x0 x1 n 7 2 := by
  unfold k0_pay215
  simp only [shapeCast_a_1a_apply, k0_pay212_apply c arg1 harg1 arg2 harg2 x0 x1]

theorem k0_pay214_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay214 (F := Ideal) (kernelRun0_A.sl.r_45 c arg1 harg1 x0) (kernelRun0_A.sl.r_46 c arg1 harg1 x0) (kernelRun0_A.sl.r_47 c arg1 harg1 x0) (kernelRun0_A.sl.r_52 c arg1 harg1 arg2 harg2 x0 x1) (View.readAt (Elt Ideal) arg2.view (Rect.unit (s := S3x55) ![0, 7] S1x1.size inb_S3x55_S1x1_0_7).toLoadRect (harg2.unread x1)) (View.readAt (Elt Ideal) arg2.view (Rect.unit (s := S3x55) ![1, 7] S1x1.size inb_S3x55_S1x1_1_7).toLoadRect (harg2.unread x1)) (View.readAt (Elt Ideal) arg2.view (Rect.unit (s := S3x55) ![2, 7] S1x1.size inb_S3x55_S1x1_2_7).toLoadRect (harg2.unread x1)) (ix2 u n) = Pn x0 x1 n 7 1 := by
  unfold k0_pay214
  simp only [shapeCast_a_1a_apply, k0_pay211_apply c arg1 harg1 arg2 harg2 x0 x1]

theorem k0_pay213_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay213 (F := Ideal) (kernelRun0_A.sl.r_42 c arg1 harg1 x0) (kernelRun0_A.sl.r_43 c arg1 harg1 x0) (kernelRun0_A.sl.r_44 c arg1 harg1 x0) (kernelRun0_A.sl.r_51 c arg1 harg1 arg2 harg2 x0 x1) (View.readAt (Elt Ideal) arg2.view (Rect.unit (s := S3x55) ![0, 7] S1x1.size inb_S3x55_S1x1_0_7).toLoadRect (harg2.unread x1)) (View.readAt (Elt Ideal) arg2.view (Rect.unit (s := S3x55) ![1, 7] S1x1.size inb_S3x55_S1x1_1_7).toLoadRect (harg2.unread x1)) (View.readAt (Elt Ideal) arg2.view (Rect.unit (s := S3x55) ![2, 7] S1x1.size inb_S3x55_S1x1_2_7).toLoadRect (harg2.unread x1)) (ix2 u n) = Pn x0 x1 n 7 0 := by
  unfold k0_pay213
  simp only [shapeCast_a_1a_apply, k0_pay210_apply c arg1 harg1 arg2 harg2 x0 x1]

theorem k0_pay187_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay187 (F := Ideal) (kernelRun0_A.sl.r_34 c arg1 harg1 x0) (kernelRun0_A.sl.r_35 c arg1 harg1 x0) (kernelRun0_A.sl.r_36 c arg1 harg1 x0) (kernelRun0_A.sl.r_39 c arg1 harg1 arg2 harg2 x0 x1) (View.readAt (Elt Ideal) arg2.view (Rect.unit (s := S3x55) ![0, 6] S1x1.size inb_S3x55_S1x1_0_6).toLoadRect (harg2.unread x1)) (View.readAt (Elt Ideal) arg2.view (Rect.unit (s := S3x55) ![1, 6] S1x1.size inb_S3x55_S1x1_1_6).toLoadRect (harg2.unread x1)) (View.readAt (Elt Ideal) arg2.view (Rect.unit (s := S3x55) ![2, 6] S1x1.size inb_S3x55_S1x1_2_6).toLoadRect (harg2.unread x1)) (ix2 u n) = Pn x0 x1 n 6 2 := by
  unfold k0_pay187
  simp only [shapeCast_a_1a_apply, k0_pay184_apply c arg1 harg1 arg2 harg2 x0 x1]

theorem k0_pay186_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay186 (F := Ideal) (kernelRun0_A.sl.r_31 c arg1 harg1 x0) (kernelRun0_A.sl.r_32 c arg1 harg1 x0) (kernelRun0_A.sl.r_33 c arg1 harg1 x0) (kernelRun0_A.sl.r_38 c arg1 harg1 arg2 harg2 x0 x1) (View.readAt (Elt Ideal) arg2.view (Rect.unit (s := S3x55) ![0, 6] S1x1.size inb_S3x55_S1x1_0_6).toLoadRect (harg2.unread x1)) (View.readAt (Elt Ideal) arg2.view (Rect.unit (s := S3x55) ![1, 6] S1x1.size inb_S3x55_S1x1_1_6).toLoadRect (harg2.unread x1)) (View.readAt (Elt Ideal) arg2.view (Rect.unit (s := S3x55) ![2, 6] S1x1.size inb_S3x55_S1x1_2_6).toLoadRect (harg2.unread x1)) (ix2 u n) = Pn x0 x1 n 6 1 := by
  unfold k0_pay186
  simp only [shapeCast_a_1a_apply, k0_pay183_apply c arg1 harg1 arg2 harg2 x0 x1]

theorem k0_pay185_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay185 (F := Ideal) (kernelRun0_A.sl.r_28 c arg1 harg1 x0) (kernelRun0_A.sl.r_29 c arg1 harg1 x0) (kernelRun0_A.sl.r_30 c arg1 harg1 x0) (kernelRun0_A.sl.r_37 c arg1 harg1 arg2 harg2 x0 x1) (View.readAt (Elt Ideal) arg2.view (Rect.unit (s := S3x55) ![0, 6] S1x1.size inb_S3x55_S1x1_0_6).toLoadRect (harg2.unread x1)) (View.readAt (Elt Ideal) arg2.view (Rect.unit (s := S3x55) ![1, 6] S1x1.size inb_S3x55_S1x1_1_6).toLoadRect (harg2.unread x1)) (View.readAt (Elt Ideal) arg2.view (Rect.unit (s := S3x55) ![2, 6] S1x1.size inb_S3x55_S1x1_2_6).toLoadRect (harg2.unread x1)) (ix2 u n) = Pn x0 x1 n 6 0 := by
  unfold k0_pay185
  simp only [shapeCast_a_1a_apply, k0_pay182_apply c arg1 harg1 arg2 harg2 x0 x1]

theorem k0_pay159_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay159 (F := Ideal) (kernelRun0_A.sl.r_20 c arg1 harg1 x0) (kernelRun0_A.sl.r_21 c arg1 harg1 x0) (kernelRun0_A.sl.r_22 c arg1 harg1 x0) (kernelRun0_A.sl.r_25 c arg1 harg1 arg2 harg2 x0 x1) (View.readAt (Elt Ideal) arg2.view (Rect.unit (s := S3x55) ![0, 5] S1x1.size inb_S3x55_S1x1_0_5).toLoadRect (harg2.unread x1)) (View.readAt (Elt Ideal) arg2.view (Rect.unit (s := S3x55) ![1, 5] S1x1.size inb_S3x55_S1x1_1_5).toLoadRect (harg2.unread x1)) (View.readAt (Elt Ideal) arg2.view (Rect.unit (s := S3x55) ![2, 5] S1x1.size inb_S3x55_S1x1_2_5).toLoadRect (harg2.unread x1)) (ix2 u n) = Pn x0 x1 n 5 2 := by
  unfold k0_pay159
  simp only [shapeCast_a_1a_apply, k0_pay156_apply c arg1 harg1 arg2 harg2 x0 x1]

theorem k0_pay158_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay158 (F := Ideal) (kernelRun0_A.sl.r_17 c arg1 harg1 x0) (kernelRun0_A.sl.r_18 c arg1 harg1 x0) (kernelRun0_A.sl.r_19 c arg1 harg1 x0) (kernelRun0_A.sl.r_24 c arg1 harg1 arg2 harg2 x0 x1) (View.readAt (Elt Ideal) arg2.view (Rect.unit (s := S3x55) ![0, 5] S1x1.size inb_S3x55_S1x1_0_5).toLoadRect (harg2.unread x1)) (View.readAt (Elt Ideal) arg2.view (Rect.unit (s := S3x55) ![1, 5] S1x1.size inb_S3x55_S1x1_1_5).toLoadRect (harg2.unread x1)) (View.readAt (Elt Ideal) arg2.view (Rect.unit (s := S3x55) ![2, 5] S1x1.size inb_S3x55_S1x1_2_5).toLoadRect (harg2.unread x1)) (ix2 u n) = Pn x0 x1 n 5 1 := by
  unfold k0_pay158
  simp only [shapeCast_a_1a_apply, k0_pay155_apply c arg1 harg1 arg2 harg2 x0 x1]

theorem k0_pay157_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay157 (F := Ideal) (kernelRun0_A.sl.r_14 c arg1 harg1 x0) (kernelRun0_A.sl.r_15 c arg1 harg1 x0) (kernelRun0_A.sl.r_16 c arg1 harg1 x0) (kernelRun0_A.sl.r_23 c arg1 harg1 arg2 harg2 x0 x1) (View.readAt (Elt Ideal) arg2.view (Rect.unit (s := S3x55) ![0, 5] S1x1.size inb_S3x55_S1x1_0_5).toLoadRect (harg2.unread x1)) (View.readAt (Elt Ideal) arg2.view (Rect.unit (s := S3x55) ![1, 5] S1x1.size inb_S3x55_S1x1_1_5).toLoadRect (harg2.unread x1)) (View.readAt (Elt Ideal) arg2.view (Rect.unit (s := S3x55) ![2, 5] S1x1.size inb_S3x55_S1x1_2_5).toLoadRect (harg2.unread x1)) (ix2 u n) = Pn x0 x1 n 5 0 := by
  unfold k0_pay157
  simp only [shapeCast_a_1a_apply, k0_pay154_apply c arg1 harg1 arg2 harg2 x0 x1]

theorem k0_pay131_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay131 (F := Ideal) (kernelRun0_A.sl.r_6 c arg1 harg1 x0) (kernelRun0_A.sl.r_7 c arg1 harg1 x0) (kernelRun0_A.sl.r_8 c arg1 harg1 x0) (kernelRun0_A.sl.r_11 c arg1 harg1 arg2 harg2 x0 x1) (View.readAt (Elt Ideal) arg2.view (Rect.unit (s := S3x55) ![0, 4] S1x1.size inb_S3x55_S1x1_0_4).toLoadRect (harg2.unread x1)) (View.readAt (Elt Ideal) arg2.view (Rect.unit (s := S3x55) ![1, 4] S1x1.size inb_S3x55_S1x1_1_4).toLoadRect (harg2.unread x1)) (View.readAt (Elt Ideal) arg2.view (Rect.unit (s := S3x55) ![2, 4] S1x1.size inb_S3x55_S1x1_2_4).toLoadRect (harg2.unread x1)) (ix2 u n) = Pn x0 x1 n 4 2 := by
  unfold k0_pay131
  simp only [shapeCast_a_1a_apply, k0_pay128_apply c arg1 harg1 arg2 harg2 x0 x1]

theorem k0_pay130_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay130 (F := Ideal) (kernelRun0_A.sl.r_3 c arg1 harg1 x0) (kernelRun0_A.sl.r_4 c arg1 harg1 x0) (kernelRun0_A.sl.r_5 c arg1 harg1 x0) (kernelRun0_A.sl.r_10 c arg1 harg1 arg2 harg2 x0 x1) (View.readAt (Elt Ideal) arg2.view (Rect.unit (s := S3x55) ![0, 4] S1x1.size inb_S3x55_S1x1_0_4).toLoadRect (harg2.unread x1)) (View.readAt (Elt Ideal) arg2.view (Rect.unit (s := S3x55) ![1, 4] S1x1.size inb_S3x55_S1x1_1_4).toLoadRect (harg2.unread x1)) (View.readAt (Elt Ideal) arg2.view (Rect.unit (s := S3x55) ![2, 4] S1x1.size inb_S3x55_S1x1_2_4).toLoadRect (harg2.unread x1)) (ix2 u n) = Pn x0 x1 n 4 1 := by
  unfold k0_pay130
  simp only [shapeCast_a_1a_apply, k0_pay127_apply c arg1 harg1 arg2 harg2 x0 x1]

theorem k0_pay129_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay129 (F := Ideal) (kernelRun0_A.sl.r c arg1 harg1 x0) (kernelRun0_A.sl.r_1 c arg1 harg1 x0) (kernelRun0_A.sl.r_2 c arg1 harg1 x0) (kernelRun0_A.sl.r_9 c arg1 harg1 arg2 harg2 x0 x1) (View.readAt (Elt Ideal) arg2.view (Rect.unit (s := S3x55) ![0, 4] S1x1.size inb_S3x55_S1x1_0_4).toLoadRect (harg2.unread x1)) (View.readAt (Elt Ideal) arg2.view (Rect.unit (s := S3x55) ![1, 4] S1x1.size inb_S3x55_S1x1_1_4).toLoadRect (harg2.unread x1)) (View.readAt (Elt Ideal) arg2.view (Rect.unit (s := S3x55) ![2, 4] S1x1.size inb_S3x55_S1x1_2_4).toLoadRect (harg2.unread x1)) (ix2 u n) = Pn x0 x1 n 4 0 := by
  unfold k0_pay129
  simp only [shapeCast_a_1a_apply, k0_pay126_apply c arg1 harg1 arg2 harg2 x0 x1]

theorem k0_pay103_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay103 (F := Ideal) (kernelRun0_A.sl.v16 c arg1 harg1 x0) (kernelRun0_A.sl.v18 c arg1 harg1 x0) (kernelRun0_A.sl.v20 c arg1 harg1 x0) (kernelRun0_A.sl.v29 c arg2 harg2 x1) (View.readAt (Elt Ideal) arg2.view (Rect.unit (s := S3x55) ![0, 3] S1x1.size inb_S3x55_S1x1_0_3).toLoadRect (harg2.unread x1)) (View.readAt (Elt Ideal) arg2.view (Rect.unit (s := S3x55) ![1, 3] S1x1.size inb_S3x55_S1x1_1_3).toLoadRect (harg2.unread x1)) (View.readAt (Elt Ideal) arg2.view (Rect.unit (s := S3x55) ![2, 3] S1x1.size inb_S3x55_S1x1_2_3).toLoadRect (harg2.unread x1)) (ix2 u n) = Pn x0 x1 n 3 2 := by
  unfold k0_pay103
  simp only [shapeCast_a_1a_apply, k0_pay100_apply c arg1 harg1 arg2 harg2 x0 x1]

theorem k0_pay102_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay102 (F := Ideal) (kernelRun0_A.sl.v10 c arg1 harg1 x0) (kernelRun0_A.sl.v12 c arg1 harg1 x0) (kernelRun0_A.sl.v14 c arg1 harg1 x0) (kernelRun0_A.sl.v26 c arg2 harg2 x1) (View.readAt (Elt Ideal) arg2.view (Rect.unit (s := S3x55) ![0, 3] S1x1.size inb_S3x55_S1x1_0_3).toLoadRect (harg2.unread x1)) (View.readAt (Elt Ideal) arg2.view (Rect.unit (s := S3x55) ![1, 3] S1x1.size inb_S3x55_S1x1_1_3).toLoadRect (harg2.unread x1)) (View.readAt (Elt Ideal) arg2.view (Rect.unit (s := S3x55) ![2, 3] S1x1.size inb_S3x55_S1x1_2_3).toLoadRect (harg2.unread x1)) (ix2 u n) = Pn x0 x1 n 3 1 := by
  unfold k0_pay102
  simp only [shapeCast_a_1a_apply, k0_pay99_apply c arg1 harg1 arg2 harg2 x0 x1]

theorem k0_pay101_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay101 (F := Ideal) (kernelRun0_A.sl.v4 c arg1 harg1 x0) (kernelRun0_A.sl.v6 c arg1 harg1 x0) (kernelRun0_A.sl.v8 c arg1 harg1 x0) (kernelRun0_A.sl.v23 c arg2 harg2 x1) (View.readAt (Elt Ideal) arg2.view (Rect.unit (s := S3x55) ![0, 3] S1x1.size inb_S3x55_S1x1_0_3).toLoadRect (harg2.unread x1)) (View.readAt (Elt Ideal) arg2.view (Rect.unit (s := S3x55) ![1, 3] S1x1.size inb_S3x55_S1x1_1_3).toLoadRect (harg2.unread x1)) (View.readAt (Elt Ideal) arg2.view (Rect.unit (s := S3x55) ![2, 3] S1x1.size inb_S3x55_S1x1_2_3).toLoadRect (harg2.unread x1)) (ix2 u n) = Pn x0 x1 n 3 0 := by
  unfold k0_pay101
  simp only [shapeCast_a_1a_apply, k0_pay98_apply c arg1 harg1 arg2 harg2 x0 x1]

theorem k0_pay75_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay75 (F := Ideal) (kernelRun0_A.sl.v16 c arg1 harg1 x0) (kernelRun0_A.sl.v18 c arg1 harg1 x0) (kernelRun0_A.sl.v20 c arg1 harg1 x0) (kernelRun0_A.sl.v29 c arg2 harg2 x1) (View.readAt (Elt Ideal) arg2.view (Rect.unit (s := S3x55) ![0, 2] S1x1.size inb_S3x55_S1x1_0_2).toLoadRect (harg2.unread x1)) (View.readAt (Elt Ideal) arg2.view (Rect.unit (s := S3x55) ![1, 2] S1x1.size inb_S3x55_S1x1_1_2).toLoadRect (harg2.unread x1)) (View.readAt (Elt Ideal) arg2.view (Rect.unit (s := S3x55) ![2, 2] S1x1.size inb_S3x55_S1x1_2_2).toLoadRect (harg2.unread x1)) (ix2 u n) = Pn x0 x1 n 2 2 := by
  unfold k0_pay75
  simp only [shapeCast_a_1a_apply, k0_pay72_apply c arg1 harg1 arg2 harg2 x0 x1]

theorem k0_pay74_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay74 (F := Ideal) (kernelRun0_A.sl.v10 c arg1 harg1 x0) (kernelRun0_A.sl.v12 c arg1 harg1 x0) (kernelRun0_A.sl.v14 c arg1 harg1 x0) (kernelRun0_A.sl.v26 c arg2 harg2 x1) (View.readAt (Elt Ideal) arg2.view (Rect.unit (s := S3x55) ![0, 2] S1x1.size inb_S3x55_S1x1_0_2).toLoadRect (harg2.unread x1)) (View.readAt (Elt Ideal) arg2.view (Rect.unit (s := S3x55) ![1, 2] S1x1.size inb_S3x55_S1x1_1_2).toLoadRect (harg2.unread x1)) (View.readAt (Elt Ideal) arg2.view (Rect.unit (s := S3x55) ![2, 2] S1x1.size inb_S3x55_S1x1_2_2).toLoadRect (harg2.unread x1)) (ix2 u n) = Pn x0 x1 n 2 1 := by
  unfold k0_pay74
  simp only [shapeCast_a_1a_apply, k0_pay71_apply c arg1 harg1 arg2 harg2 x0 x1]

theorem k0_pay73_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay73 (F := Ideal) (kernelRun0_A.sl.v4 c arg1 harg1 x0) (kernelRun0_A.sl.v6 c arg1 harg1 x0) (kernelRun0_A.sl.v8 c arg1 harg1 x0) (kernelRun0_A.sl.v23 c arg2 harg2 x1) (View.readAt (Elt Ideal) arg2.view (Rect.unit (s := S3x55) ![0, 2] S1x1.size inb_S3x55_S1x1_0_2).toLoadRect (harg2.unread x1)) (View.readAt (Elt Ideal) arg2.view (Rect.unit (s := S3x55) ![1, 2] S1x1.size inb_S3x55_S1x1_1_2).toLoadRect (harg2.unread x1)) (View.readAt (Elt Ideal) arg2.view (Rect.unit (s := S3x55) ![2, 2] S1x1.size inb_S3x55_S1x1_2_2).toLoadRect (harg2.unread x1)) (ix2 u n) = Pn x0 x1 n 2 0 := by
  unfold k0_pay73
  simp only [shapeCast_a_1a_apply, k0_pay70_apply c arg1 harg1 arg2 harg2 x0 x1]

theorem k0_pay47_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay47 (F := Ideal) (kernelRun0_A.sl.v16 c arg1 harg1 x0) (kernelRun0_A.sl.v18 c arg1 harg1 x0) (kernelRun0_A.sl.v20 c arg1 harg1 x0) (kernelRun0_A.sl.v29 c arg2 harg2 x1) (View.readAt (Elt Ideal) arg2.view (Rect.unit (s := S3x55) ![0, 1] S1x1.size inb_S3x55_S1x1_0_1).toLoadRect (harg2.unread x1)) (View.readAt (Elt Ideal) arg2.view (Rect.unit (s := S3x55) ![1, 1] S1x1.size inb_S3x55_S1x1_1_1).toLoadRect (harg2.unread x1)) (View.readAt (Elt Ideal) arg2.view (Rect.unit (s := S3x55) ![2, 1] S1x1.size inb_S3x55_S1x1_2_1).toLoadRect (harg2.unread x1)) (ix2 u n) = Pn x0 x1 n 1 2 := by
  unfold k0_pay47
  simp only [shapeCast_a_1a_apply, k0_pay44_apply c arg1 harg1 arg2 harg2 x0 x1]

theorem k0_pay46_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay46 (F := Ideal) (kernelRun0_A.sl.v10 c arg1 harg1 x0) (kernelRun0_A.sl.v12 c arg1 harg1 x0) (kernelRun0_A.sl.v14 c arg1 harg1 x0) (kernelRun0_A.sl.v26 c arg2 harg2 x1) (View.readAt (Elt Ideal) arg2.view (Rect.unit (s := S3x55) ![0, 1] S1x1.size inb_S3x55_S1x1_0_1).toLoadRect (harg2.unread x1)) (View.readAt (Elt Ideal) arg2.view (Rect.unit (s := S3x55) ![1, 1] S1x1.size inb_S3x55_S1x1_1_1).toLoadRect (harg2.unread x1)) (View.readAt (Elt Ideal) arg2.view (Rect.unit (s := S3x55) ![2, 1] S1x1.size inb_S3x55_S1x1_2_1).toLoadRect (harg2.unread x1)) (ix2 u n) = Pn x0 x1 n 1 1 := by
  unfold k0_pay46
  simp only [shapeCast_a_1a_apply, k0_pay43_apply c arg1 harg1 arg2 harg2 x0 x1]

theorem k0_pay45_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    k0_pay45 (F := Ideal) (kernelRun0_A.sl.v4 c arg1 harg1 x0) (kernelRun0_A.sl.v6 c arg1 harg1 x0) (kernelRun0_A.sl.v8 c arg1 harg1 x0) (kernelRun0_A.sl.v23 c arg2 harg2 x1) (View.readAt (Elt Ideal) arg2.view (Rect.unit (s := S3x55) ![0, 1] S1x1.size inb_S3x55_S1x1_0_1).toLoadRect (harg2.unread x1)) (View.readAt (Elt Ideal) arg2.view (Rect.unit (s := S3x55) ![1, 1] S1x1.size inb_S3x55_S1x1_1_1).toLoadRect (harg2.unread x1)) (View.readAt (Elt Ideal) arg2.view (Rect.unit (s := S3x55) ![2, 1] S1x1.size inb_S3x55_S1x1_2_1).toLoadRect (harg2.unread x1)) (ix2 u n) = Pn x0 x1 n 1 0 := by
  unfold k0_pay45
  simp only [shapeCast_a_1a_apply, k0_pay42_apply c arg1 harg1 arg2 harg2 x0 x1]

theorem v38_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v38 c arg2 harg2 x1 (ix2 u n) = Pn x0 x1 n 0 2 := by
  delta kernelRun0_A.sl.v38
  simp only [shapeCast_a_1a_apply, v29_apply c arg1 harg1 arg2 harg2 x0 x1]

theorem v35_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v35 c arg2 harg2 x1 (ix2 u n) = Pn x0 x1 n 0 1 := by
  delta kernelRun0_A.sl.v35
  simp only [shapeCast_a_1a_apply, v26_apply c arg1 harg1 arg2 harg2 x0 x1]

theorem v32_apply (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) (u : Fin 1) (n : Fin 4096) :
    kernelRun0_A.sl.v32 c arg2 harg2 x1 (ix2 u n) = Pn x0 x1 n 0 0 := by
  delta kernelRun0_A.sl.v32
  simp only [shapeCast_a_1a_apply, v23_apply c arg1 harg1 arg2 harg2 x0 x1]

/-- Every row the body stores into the scratch is a row of the position function. -/
theorem rows_eq (c : Dev nD) (arg1 : Memref sig .tc .vmem S4096x198 .f32) (harg1 : arg1.IsWhole) (arg2 : Memref sig .tc .vmem S3x55 .f32) (harg2 : arg2.IsWhole) (x0 : Vec Ideal S4096x198 .f32) (x1 : Vec Ideal S3x55 .f32) :
    ∀ p ∈ kernelRun0_A.sl.HS0_165 c arg1 harg1 arg2 harg2 x0 x1, ∀ x : p.1.shape.Idx, p.2 x = G x0 x1 (p.1.emb x) := by
  delta kernelRun0_A.sl.HS0_165
  exact
    List.forall_mem_cons.2 ⟨piece_of_row x0 x1 164 54 2 rfl inb_S165x4096_S1x4096_164_0 (k0_pay2 (F := Ideal) (kernelRun0_A.sl.r_448 c arg1 harg1 arg2 harg2 x0 x1)) (fun u n => by simp only [k0_pay2_apply c arg1 harg1 arg2 harg2 x0 x1]),
    List.forall_mem_cons.2 ⟨piece_of_row x0 x1 163 54 1 rfl inb_S165x4096_S1x4096_163_0 (k0_pay1 (F := Ideal) (kernelRun0_A.sl.r_447 c arg1 harg1 arg2 harg2 x0 x1)) (fun u n => by simp only [k0_pay1_apply c arg1 harg1 arg2 harg2 x0 x1]),
    List.forall_mem_cons.2 ⟨piece_of_row x0 x1 162 54 0 rfl inb_S165x4096_S1x4096_162_0 (k0_pay855 (F := Ideal) (kernelRun0_A.sl.r_293 c arg1 harg1 x0) (kernelRun0_A.sl.r_294 c arg1 harg1 x0) (kernelRun0_A.sl.r_295 c arg1 harg1 x0) (kernelRun0_A.sl.r_444 c arg1 harg1 arg2 harg2 x0 x1) (View.readAt (Elt Ideal) arg2.view (Rect.unit (s := S3x55) ![0, 54] S1x1.size inb_S3x55_S1x1_0_54).toLoadRect (harg2.unread x1)) (View.readAt (Elt Ideal) arg2.view (Rect.unit (s := S3x55) ![1, 54] S1x1.size inb_S3x55_S1x1_1_54).toLoadRect (harg2.unread x1)) (View.readAt (Elt Ideal) arg2.view (Rect.unit (s := S3x55) ![2, 54] S1x1.size inb_S3x55_S1x1_2_54).toLoadRect (harg2.unread x1))) (fun u n => by simp only [k0_pay855_apply c arg1 harg1 arg2 harg2 x0 x1]),
    List.forall_mem_cons.2 ⟨piece_of_row x0 x1 161 53 2 rfl inb_S165x4096_S1x4096_161_0 (k0_pay849 (F := Ideal) (kernelRun0_A.sl.r_446 c arg1 harg1 arg2 harg2 x0 x1)) (fun u n => by simp only [k0_pay849_apply c arg1 harg1 arg2 harg2 x0 x1]),
    List.forall_mem_cons.2 ⟨piece_of_row x0 x1 160 53 1 rfl inb_S165x4096_S1x4096_160_0 (k0_pay848 (F := Ideal) (kernelRun0_A.sl.r_445 c arg1 harg1 arg2 harg2 x0 x1)) (fun u n => by simp only [k0_pay848_apply c arg1 harg1 arg2 harg2 x0 x1]),
    List.forall_mem_cons.2 ⟨piece_of_row x0 x1 159 53 0 rfl inb_S165x4096_S1x4096_159_0 (k0_pay847 (F := Ideal) (kernelRun0_A.sl.r_444 c arg1 harg1 arg2 harg2 x0 x1)) (fun u n => by simp only [k0_pay847_apply c arg1 harg1 arg2 harg2 x0 x1]),
    List.forall_mem_cons.2 ⟨piece_of_row x0 x1 158 52 2 rfl inb_S165x4096_S1x4096_158_0 (k0_pay840 (F := Ideal) (kernelRun0_A.sl.r_443 c arg1 harg1 arg2 harg2 x0 x1)) (fun u n => by simp only [k0_pay840_apply c arg1 harg1 arg2 harg2 x0 x1]),
    List.forall_mem_cons.2 ⟨piece_of_row x0 x1 157 52 1 rfl inb_S165x4096_S1x4096_157_0 (k0_pay839 (F := Ideal) (kernelRun0_A.sl.r_442 c arg1 harg1 arg2 harg2 x0 x1)) (fun u n => by simp only [k0_pay839_apply c arg1 harg1 arg2 harg2 x0 x1]),
    List.forall_mem_cons.2 ⟨piece_of_row x0 x1 156 52 0 rfl inb_S165x4096_S1x4096_156_0 (k0_pay838 (F := Ideal) (kernelRun0_A.sl.r_441 c arg1 harg1 arg2 harg2 x0 x1)) (fun u n => by simp only [k0_pay838_apply c arg1 harg1 arg2 harg2 x0 x1]),
    List.forall_mem_cons.2 ⟨piece_of_row x0 x1 155 51 2 rfl inb_S165x4096_S1x4096_155_0 (k0_pay831 (F := Ideal) (kernelRun0_A.sl.r_301 c arg1 harg1 x0) (kernelRun0_A.sl.r_436 c arg1 harg1 arg2 harg2 x0 x1) (kernelRun0_A.sl.r_439 c arg1 harg1 arg2 harg2 x0 x1) (kernelRun0_A.sl.r_440 c arg2 harg2 x1)) (fun u n => by simp only [k0_pay831_apply c arg1 harg1 arg2 harg2 x0 x1]),
    List.forall_mem_cons.2 ⟨piece_of_row x0 x1 154 51 1 rfl inb_S165x4096_S1x4096_154_0 (k0_pay830 (F := Ideal) (kernelRun0_A.sl.r_438 c arg1 harg1 arg2 harg2 x0 x1)) (fun u n => by simp only [k0_pay830_apply c arg1 harg1 arg2 harg2 x0 x1]),
    List.forall_mem_cons.2 ⟨piece_of_row x0 x1 153 51 0 rfl inb_S165x4096_S1x4096_153_0 (k0_pay829 (F := Ideal) (kernelRun0_A.sl.r_437 c arg1 harg1 arg2 harg2 x0 x1)) (fun u n => by simp only [k0_pay829_apply c arg1 harg1 arg2 harg2 x0 x1]),
    List.forall_mem_cons.2 ⟨piece_of_row x0 x1 152 50 2 rfl inb_S165x4096_S1x4096_152_0 (k0_pay821 (F := Ideal) (kernelRun0_A.sl.r_300 c arg1 harg1 x0) (kernelRun0_A.sl.r_301 c arg1 harg1 x0) (kernelRun0_A.sl.r_430 c arg1 harg1 arg2 harg2 x0 x1) (kernelRun0_A.sl.r_431 c arg2 harg2 x1) (kernelRun0_A.sl.r_434 c arg1 harg1 arg2 harg2 x0 x1) (kernelRun0_A.sl.r_435 c arg2 harg2 x1)) (fun u n => by simp only [k0_pay821_apply c arg1 harg1 arg2 harg2 x0 x1]),
    List.forall_mem_cons.2 ⟨piece_of_row x0 x1 151 50 1 rfl inb_S165x4096_S1x4096_151_0 (k0_pay820 (F := Ideal) (kernelRun0_A.sl.r_433 c arg1 harg1 arg2 harg2 x0 x1)) (fun u n => by simp only [k0_pay820_apply c arg1 harg1 arg2 harg2 x0 x1]),
    List.forall_mem_cons.2 ⟨piece_of_row x0 x1 150 50 0 rfl inb_S165x4096_S1x4096_150_0 (k0_pay819 (F := Ideal) (kernelRun0_A.sl.r_432 c arg1 harg1 arg2 harg2 x0 x1)) (fun u n => by simp only [k0_pay819_apply c arg1 harg1 arg2 harg2 x0 x1]),
    List.forall_mem_cons.2 ⟨piece_of_row x0 x1 149 49 2 rfl inb_S165x4096_S1x4096_149_0 (k0_pay810 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_425 c arg2 harg2 x1) (kernelRun0_A.sl.r_426 c arg2 harg2 x1) (kernelRun0_A.sl.r_427 c arg2 harg2 x1)) (fun u n => by simp only [k0_pay810_apply c arg1 harg1 arg2 harg2 x0 x1]),
    List.forall_mem_cons.2 ⟨piece_of_row x0 x1 148 49 1 rfl inb_S165x4096_S1x4096_148_0 (k0_pay809 (F := Ideal) (kernelRun0_A.sl.r_429 c arg1 harg1 arg2 harg2 x0 x1)) (fun u n => by simp only [k0_pay809_apply c arg1 harg1 arg2 harg2 x0 x1]),
    List.forall_mem_cons.2 ⟨piece_of_row x0 x1 147 49 0 rfl inb_S165x4096_S1x4096_147_0 (k0_pay808 (F := Ideal) (kernelRun0_A.sl.r_428 c arg1 harg1 arg2 harg2 x0 x1)) (fun u n => by simp only [k0_pay808_apply c arg1 harg1 arg2 harg2 x0 x1]),
    List.forall_mem_cons.2 ⟨piece_of_row x0 x1 146 48 2 rfl inb_S165x4096_S1x4096_146_0 (k0_pay801 (F := Ideal) (kernelRun0_A.sl.r_299 c arg1 harg1 x0) (kernelRun0_A.sl.r_300 c arg1 harg1 x0) (kernelRun0_A.sl.r_301 c arg1 harg1 x0) (kernelRun0_A.sl.r_418 c arg1 harg1 arg2 harg2 x0 x1) (kernelRun0_A.sl.r_419 c arg2 harg2 x1) (kernelRun0_A.sl.r_420 c arg2 harg2 x1) (kernelRun0_A.sl.r_421 c arg2 harg2 x1)) (fun u n => by simp only [k0_pay801_apply c arg1 harg1 arg2 harg2 x0 x1]),
    List.forall_mem_cons.2 ⟨piece_of_row x0 x1 145 48 1 rfl inb_S165x4096_S1x4096_145_0 (k0_pay800 (F := Ideal) (kernelRun0_A.sl.r_298 c arg1 harg1 x0) (kernelRun0_A.sl.r_417 c arg1 harg1 arg2 harg2 x0 x1) (kernelRun0_A.sl.r_423 c arg1 harg1 arg2 harg2 x0 x1) (kernelRun0_A.sl.r_424 c arg2 harg2 x1)) (fun u n => by simp only [k0_pay800_apply c arg1 harg1 arg2 harg2 x0 x1]),
    List.forall_mem_cons.2 ⟨piece_of_row x0 x1 144 48 0 rfl inb_S165x4096_S1x4096_144_0 (k0_pay799 (F := Ideal) (kernelRun0_A.sl.r_422 c arg1 harg1 arg2 harg2 x0 x1)) (fun u n => by simp only [k0_pay799_apply c arg1 harg1 arg2 harg2 x0 x1]),
    List.forall_mem_cons.2 ⟨piece_of_row x0 x1 143 47 2 rfl inb_S165x4096_S1x4096_143_0 (k0_pay792 (F := Ideal) (kernelRun0_A.sl.r_299 c arg1 harg1 x0) (kernelRun0_A.sl.r_300 c arg1 harg1 x0) (kernelRun0_A.sl.r_301 c arg1 harg1 x0) (kernelRun0_A.sl.r_410 c arg1 harg1 arg2 harg2 x0 x1) (kernelRun0_A.sl.r_411 c arg2 harg2 x1) (kernelRun0_A.sl.r_412 c arg2 harg2 x1) (kernelRun0_A.sl.r_413 c arg2 harg2 x1)) (fun u n => by simp only [k0_pay792_apply c arg1 harg1 arg2 harg2 x0 x1]),
    List.forall_mem_cons.2 ⟨piece_of_row x0 x1 142 47 1 rfl inb_S165x4096_S1x4096_142_0 (k0_pay791 (F := Ideal) (kernelRun0_A.sl.r_297 c arg1 harg1 x0) (kernelRun0_A.sl.r_298 c arg1 harg1 x0) (kernelRun0_A.sl.r_409 c arg1 harg1 arg2 harg2 x0 x1) (kernelRun0_A.sl.r_413 c arg2 harg2 x1) (kernelRun0_A.sl.r_415 c arg1 harg1 arg2 harg2 x0 x1) (kernelRun0_A.sl.r_416 c arg2 harg2 x1)) (fun u n => by simp only [k0_pay791_apply c arg1 harg1 arg2 harg2 x0 x1]),
    List.forall_mem_cons.2 ⟨piece_of_row x0 x1 141 47 0 rfl inb_S165x4096_S1x4096_141_0 (k0_pay790 (F := Ideal) (kernelRun0_A.sl.r_414 c arg1 harg1 arg2 harg2 x0 x1)) (fun u n => by simp only [k0_pay790_apply c arg1 harg1 arg2 harg2 x0 x1]),
    List.forall_mem_cons.2 ⟨piece_of_row x0 x1 140 46 2 rfl inb_S165x4096_S1x4096_140_0 (k0_pay781 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_405 c arg2 harg2 x1) (kernelRun0_A.sl.r_406 c arg2 harg2 x1) (kernelRun0_A.sl.r_407 c arg2 harg2 x1)) (fun u n => by simp only [k0_pay781_apply c arg1 harg1 arg2 harg2 x0 x1]),
    List.forall_mem_cons.2 ⟨piece_of_row x0 x1 139 46 1 rfl inb_S165x4096_S1x4096_139_0 (k0_pay780 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (kernelRun0_A.sl.r_405 c arg2 harg2 x1) (kernelRun0_A.sl.r_406 c arg2 harg2 x1) (kernelRun0_A.sl.r_407 c arg2 harg2 x1)) (fun u n => by simp only [k0_pay780_apply c arg1 harg1 arg2 harg2 x0 x1]),
    List.forall_mem_cons.2 ⟨piece_of_row x0 x1 138 46 0 rfl inb_S165x4096_S1x4096_138_0 (k0_pay779 (F := Ideal) (kernelRun0_A.sl.r_408 c arg1 harg1 arg2 harg2 x0 x1)) (fun u n => by simp only [k0_pay779_apply c arg1 harg1 arg2 harg2 x0 x1]),
    List.forall_mem_cons.2 ⟨piece_of_row x0 x1 137 45 2 rfl inb_S165x4096_S1x4096_137_0 (k0_pay772 (F := Ideal) (kernelRun0_A.sl.r_299 c arg1 harg1 x0) (kernelRun0_A.sl.r_300 c arg1 harg1 x0) (kernelRun0_A.sl.r_301 c arg1 harg1 x0) (kernelRun0_A.sl.r_399 c arg1 harg1 arg2 harg2 x0 x1) (kernelRun0_A.sl.r_400 c arg2 harg2 x1) (kernelRun0_A.sl.r_401 c arg2 harg2 x1) (kernelRun0_A.sl.r_402 c arg2 harg2 x1)) (fun u n => by simp only [k0_pay772_apply c arg1 harg1 arg2 harg2 x0 x1]),
    List.forall_mem_cons.2 ⟨piece_of_row x0 x1 136 45 1 rfl inb_S165x4096_S1x4096_136_0 (k0_pay771 (F := Ideal) (kernelRun0_A.sl.r_296 c arg1 harg1 x0) (kernelRun0_A.sl.r_297 c arg1 harg1 x0) (kernelRun0_A.sl.r_298 c arg1 harg1 x0) (kernelRun0_A.sl.r_398 c arg1 harg1 arg2 harg2 x0 x1) (kernelRun0_A.sl.r_400 c arg2 harg2 x1) (kernelRun0_A.sl.r_401 c arg2 harg2 x1) (kernelRun0_A.sl.r_402 c arg2 harg2 x1)) (fun u n => by simp only [k0_pay771_apply c arg1 harg1 arg2 harg2 x0 x1]),
    List.forall_mem_cons.2 ⟨piece_of_row x0 x1 135 45 0 rfl inb_S165x4096_S1x4096_135_0 (k0_pay770 (F := Ideal) (kernelRun0_A.sl.r_295 c arg1 harg1 x0) (kernelRun0_A.sl.r_397 c arg1 harg1 arg2 harg2 x0 x1) (kernelRun0_A.sl.r_403 c arg1 harg1 arg2 harg2 x0 x1) (kernelRun0_A.sl.r_404 c arg2 harg2 x1)) (fun u n => by simp only [k0_pay770_apply c arg1 harg1 arg2 harg2 x0 x1]),
    List.forall_mem_cons.2 ⟨piece_of_row x0 x1 134 44 2 rfl inb_S165x4096_S1x4096_134_0 (k0_pay764 (F := Ideal) (kernelRun0_A.sl.r_299 c arg1 harg1 x0) (kernelRun0_A.sl.r_300 c arg1 harg1 x0) (kernelRun0_A.sl.r_301 c arg1 harg1 x0) (kernelRun0_A.sl.r_391 c arg1 harg1 arg2 harg2 x0 x1) (kernelRun0_A.sl.r_392 c arg2 harg2 x1) (kernelRun0_A.sl.r_393 c arg2 harg2 x1) (kernelRun0_A.sl.r_394 c arg2 harg2 x1)) (fun u n => by simp only [k0_pay764_apply c arg1 harg1 arg2 harg2 x0 x1]),
    List.forall_mem_cons.2 ⟨piece_of_row x0 x1 133 44 1 rfl inb_S165x4096_S1x4096_133_0 (k0_pay763 (F := Ideal) (kernelRun0_A.sl.r_296 c arg1 harg1 x0) (kernelRun0_A.sl.r_297 c arg1 harg1 x0) (kernelRun0_A.sl.r_298 c arg1 harg1 x0) (kernelRun0_A.sl.r_390 c arg1 harg1 arg2 harg2 x0 x1) (kernelRun0_A.sl.r_392 c arg2 harg2 x1) (kernelRun0_A.sl.r_393 c arg2 harg2 x1) (kernelRun0_A.sl.r_394 c arg2 harg2 x1)) (fun u n => by simp only [k0_pay763_apply c arg1 harg1 arg2 harg2 x0 x1]),
    List.forall_mem_cons.2 ⟨piece_of_row x0 x1 132 44 0 rfl inb_S165x4096_S1x4096_132_0 (k0_pay762 (F := Ideal) (kernelRun0_A.sl.r_294 c arg1 harg1 x0) (kernelRun0_A.sl.r_295 c arg1 harg1 x0) (kernelRun0_A.sl.r_389 c arg1 harg1 arg2 harg2 x0 x1) (kernelRun0_A.sl.r_394 c arg2 harg2 x1) (kernelRun0_A.sl.r_395 c arg1 harg1 arg2 harg2 x0 x1) (kernelRun0_A.sl.r_396 c arg2 harg2 x1)) (fun u n => by simp only [k0_pay762_apply c arg1 harg1 arg2 harg2 x0 x1]),
    List.forall_mem_cons.2 ⟨piece_of_row x0 x1 131 43 2 rfl inb_S165x4096_S1x4096_131_0 (k0_pay753 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_386 c arg2 harg2 x1) (kernelRun0_A.sl.r_387 c arg2 harg2 x1) (kernelRun0_A.sl.r_388 c arg2 harg2 x1)) (fun u n => by simp only [k0_pay753_apply c arg1 harg1 arg2 harg2 x0 x1]),
    List.forall_mem_cons.2 ⟨piece_of_row x0 x1 130 43 1 rfl inb_S165x4096_S1x4096_130_0 (k0_pay752 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (kernelRun0_A.sl.r_386 c arg2 harg2 x1) (kernelRun0_A.sl.r_387 c arg2 harg2 x1) (kernelRun0_A.sl.r_388 c arg2 harg2 x1)) (fun u n => by simp only [k0_pay752_apply c arg1 harg1 arg2 harg2 x0 x1]),
    List.forall_mem_cons.2 ⟨piece_of_row x0 x1 129 43 0 rfl inb_S165x4096_S1x4096_129_0 (k0_pay751 (F := Ideal) (kernelRun0_A.sl.r_293 c arg1 harg1 x0) (kernelRun0_A.sl.r_294 c arg1 harg1 x0) (kernelRun0_A.sl.r_295 c arg1 harg1 x0) (kernelRun0_A.sl.r_303 c arg1 harg1 arg2 harg2 x0 x1) (kernelRun0_A.sl.r_386 c arg2 harg2 x1) (kernelRun0_A.sl.r_387 c arg2 harg2 x1) (kernelRun0_A.sl.r_388 c arg2 harg2 x1)) (fun u n => by simp only [k0_pay751_apply c arg1 harg1 arg2 harg2 x0 x1]),
    List.forall_mem_cons.2 ⟨piece_of_row x0 x1 128 42 2 rfl inb_S165x4096_S1x4096_128_0 (k0_pay744 (F := Ideal) (kernelRun0_A.sl.r_299 c arg1 harg1 x0) (kernelRun0_A.sl.r_300 c arg1 harg1 x0) (kernelRun0_A.sl.r_301 c arg1 harg1 x0) (kernelRun0_A.sl.r_383 c arg1 harg1 arg2 harg2 x0 x1) (kernelRun0_A.sl.r_384 c arg2 harg2 x1) (kernelRun0_A.sl.r_385 c arg2 harg2 x1) (View.readAt (Elt Ideal) arg2.view (Rect.unit (s := S3x55) ![2, 42] S1x1.size inb_S3x55_S1x1_2_42).toLoadRect (harg2.unread x1))) (fun u n => by simp only [k0_pay744_apply c arg1 harg1 arg2 harg2 x0 x1]),
    List.forall_mem_cons.2 ⟨piece_of_row x0 x1 127 42 1 rfl inb_S165x4096_S1x4096_127_0 (k0_pay743 (F := Ideal) (kernelRun0_A.sl.r_296 c arg1 harg1 x0) (kernelRun0_A.sl.r_297 c arg1 harg1 x0) (kernelRun0_A.sl.r_298 c arg1 harg1 x0) (kernelRun0_A.sl.r_382 c arg1 harg1 arg2 harg2 x0 x1) (kernelRun0_A.sl.r_384 c arg2 harg2 x1) (kernelRun0_A.sl.r_385 c arg2 harg2 x1) (View.readAt (Elt Ideal) arg2.view (Rect.unit (s := S3x55) ![2, 42] S1x1.size inb_S3x55_S1x1_2_42).toLoadRect (harg2.unread x1))) (fun u n => by simp only [k0_pay743_apply c arg1 harg1 arg2 harg2 x0 x1]),
    List.forall_mem_cons.2 ⟨piece_of_row x0 x1 126 42 0 rfl inb_S165x4096_S1x4096_126_0 (k0_pay742 (F := Ideal) (kernelRun0_A.sl.r_293 c arg1 harg1 x0) (kernelRun0_A.sl.r_294 c arg1 harg1 x0) (kernelRun0_A.sl.r_295 c arg1 harg1 x0) (kernelRun0_A.sl.r_381 c arg1 harg1 arg2 harg2 x0 x1) (kernelRun0_A.sl.r_384 c arg2 harg2 x1) (kernelRun0_A.sl.r_385 c arg2 harg2 x1) (View.readAt (Elt Ideal) arg2.view (Rect.unit (s := S3x55) ![2, 42] S1x1.size inb_S3x55_S1x1_2_42).toLoadRect (harg2.unread x1))) (fun u n => by simp only [k0_pay742_apply c arg1 harg1 arg2 harg2 x0 x1]),
    List.forall_mem_cons.2 ⟨piece_of_row x0 x1 125 41 2 rfl inb_S165x4096_S1x4096_125_0 (k0_pay738 (F := Ideal) (kernelRun0_A.sl.r_299 c arg1 harg1 x0) (kernelRun0_A.sl.r_300 c arg1 harg1 x0) (kernelRun0_A.sl.r_301 c arg1 harg1 x0) (kernelRun0_A.sl.r_379 c arg1 harg1 arg2 harg2 x0 x1) (kernelRun0_A.sl.r_380 c arg2 harg2 x1) (View.readAt (Elt Ideal) arg2.view (Rect.unit (s := S3x55) ![1, 41] S1x1.size inb_S3x55_S1x1_1_41).toLoadRect (harg2.unread x1)) (View.readAt (Elt Ideal) arg2.view (Rect.unit (s := S3x55) ![2, 41] S1x1.size inb_S3x55_S1x1_2_41).toLoadRect (harg2.unread x1))) (fun u n => by simp only [k0_pay738_apply c arg1 harg1 arg2 harg2 x0 x1]),
    List.forall_mem_cons.2 ⟨piece_of_row x0 x1 124 41 1 rfl inb_S165x4096_S1x4096_124_0 (k0_pay737 (F := Ideal) (kernelRun0_A.sl.r_296 c arg1 harg1 x0) (kernelRun0_A.sl.r_297 c arg1 harg1 x0) (kernelRun0_A.sl.r_298 c arg1 harg1 x0) (kernelRun0_A.sl.r_378 c arg1 harg1 arg2 harg2 x0 x1) (kernelRun0_A.sl.r_380 c arg2 harg2 x1) (View.readAt (Elt Ideal) arg2.view (Rect.unit (s := S3x55) ![1, 41] S1x1.size inb_S3x55_S1x1_1_41).toLoadRect (harg2.unread x1)) (View.readAt (Elt Ideal) arg2.view (Rect.unit (s := S3x55) ![2, 41] S1x1.size inb_S3x55_S1x1_2_41).toLoadRect (harg2.unread x1))) (fun u n => by simp only [k0_pay737_apply c arg1 harg1 arg2 harg2 x0 x1]),
    List.forall_mem_cons.2 ⟨piece_of_row x0 x1 123 41 0 rfl inb_S165x4096_S1x4096_123_0 (k0_pay736 (F := Ideal) (kernelRun0_A.sl.r_293 c arg1 harg1 x0) (kernelRun0_A.sl.r_294 c arg1 harg1 x0) (kernelRun0_A.sl.r_295 c arg1 harg1 x0) (kernelRun0_A.sl.r_377 c arg1 harg1 arg2 harg2 x0 x1) (kernelRun0_A.sl.r_380 c arg2 harg2 x1) (View.readAt (Elt Ideal) arg2.view (Rect.unit (s := S3x55) ![1, 41] S1x1.size inb_S3x55_S1x1_1_41).toLoadRect (harg2.unread x1)) (View.readAt (Elt Ideal) arg2.view (Rect.unit (s := S3x55) ![2, 41] S1x1.size inb_S3x55_S1x1_2_41).toLoadRect (harg2.unread x1))) (fun u n => by simp only [k0_pay736_apply c arg1 harg1 arg2 harg2 x0 x1]),
    List.forall_mem_cons.2 ⟨piece_of_row x0 x1 122 40 2 rfl inb_S165x4096_S1x4096_122_0 (k0_pay729 (F := Ideal) (kernelRun0_A.sl.r_299 c arg1 harg1 x0) (kernelRun0_A.sl.r_300 c arg1 harg1 x0) (kernelRun0_A.sl.r_301 c arg1 harg1 x0) (kernelRun0_A.sl.r_305 c arg1 harg1 arg2 harg2 x0 x1) (kernelRun0_A.sl.r_376 c arg2 harg2 x1) (View.readAt (Elt Ideal) arg2.view (Rect.unit (s := S3x55) ![1, 40] S1x1.size inb_S3x55_S1x1_1_40).toLoadRect (harg2.unread x1)) (View.readAt (Elt Ideal) arg2.view (Rect.unit (s := S3x55) ![2, 40] S1x1.size inb_S3x55_S1x1_2_40).toLoadRect (harg2.unread x1))) (fun u n => by simp only [k0_pay729_apply c arg1 harg1 arg2 harg2 x0 x1]),
    List.forall_mem_cons.2 ⟨piece_of_row x0 x1 121 40 1 rfl inb_S165x4096_S1x4096_121_0 (k0_pay728 (F := Ideal) (kernelRun0_A.sl.r_296 c arg1 harg1 x0) (kernelRun0_A.sl.r_297 c arg1 harg1 x0) (kernelRun0_A.sl.r_298 c arg1 harg1 x0) (kernelRun0_A.sl.r_304 c arg1 harg1 arg2 harg2 x0 x1) (kernelRun0_A.sl.r_376 c arg2 harg2 x1) (View.readAt (Elt Ideal) arg2.view (Rect.unit (s := S3x55) ![1, 40] S1x1.size inb_S3x55_S1x1_1_40).toLoadRect (harg2.unread x1)) (View.readAt (Elt Ideal) arg2.view (Rect.unit (s := S3x55) ![2, 40] S1x1.size inb_S3x55_S1x1_2_40).toLoadRect (harg2.unread x1))) (fun u n => by simp only [k0_pay728_apply c arg1 harg1 arg2 harg2 x0 x1]),
    List.forall_mem_cons.2 ⟨piece_of_row x0 x1 120 40 0 rfl inb_S165x4096_S1x4096_120_0 (k0_pay727 (F := Ideal) (kernelRun0_A.sl.r_293 c arg1 harg1 x0) (kernelRun0_A.sl.r_294 c arg1 harg1 x0) (kernelRun0_A.sl.r_295 c arg1 harg1 x0) (kernelRun0_A.sl.r_303 c arg1 harg1 arg2 harg2 x0 x1) (kernelRun0_A.sl.r_376 c arg2 harg2 x1) (View.readAt (Elt Ideal) arg2.view (Rect.unit (s := S3x55) ![1, 40] S1x1.size inb_S3x55_S1x1_1_40).toLoadRect (harg2.unread x1)) (View.readAt (Elt Ideal) arg2.view (Rect.unit (s := S3x55) ![2, 40] S1x1.size inb_S3x55_S1x1_2_40).toLoadRect (harg2.unread x1))) (fun u n => by simp only [k0_pay727_apply c arg1 harg1 arg2 harg2 x0 x1]),
    List.forall_mem_cons.2 ⟨piece_of_row x0 x1 119 39 2 rfl inb_S165x4096_S1x4096_119_0 (k0_pay720 (F := Ideal) (kernelRun0_A.sl.r_281 c arg1 harg1 x0) (kernelRun0_A.sl.r_282 c arg1 harg1 x0) (kernelRun0_A.sl.r_283 c arg1 harg1 x0) (kernelRun0_A.sl.r_375 c arg1 harg1 arg2 harg2 x0 x1) (View.readAt (Elt Ideal) arg2.view (Rect.unit (s := S3x55) ![0, 39] S1x1.size inb_S3x55_S1x1_0_39).toLoadRect (harg2.unread x1)) (View.readAt (Elt Ideal) arg2.view (Rect.unit (s := S3x55) ![1, 39] S1x1.size inb_S3x55_S1x1_1_39).toLoadRect (harg2.unread x1)) (View.readAt (Elt Ideal) arg2.view (Rect.unit (s := S3x55) ![2, 39] S1x1.size inb_S3x55_S1x1_2_39).toLoadRect (harg2.unread x1))) (fun u n => by simp only [k0_pay720_apply c arg1 harg1 arg2 harg2 x0 x1]),
    List.forall_mem_cons.2 ⟨piece_of_row x0 x1 118 39 1 rfl inb_S165x4096_S1x4096_118_0 (k0_pay719 (F := Ideal) (kernelRun0_A.sl.r_278 c arg1 harg1 x0) (kernelRun0_A.sl.r_279 c arg1 harg1 x0) (kernelRun0_A.sl.r_280 c arg1 harg1 x0) (kernelRun0_A.sl.r_374 c arg1 harg1 arg2 harg2 x0 x1) (View.readAt (Elt Ideal) arg2.view (Rect.unit (s := S3x55) ![0, 39] S1x1.size inb_S3x55_S1x1_0_39).toLoadRect (harg2.unread x1)) (View.readAt (Elt Ideal) arg2.view (Rect.unit (s := S3x55) ![1, 39] S1x1.size inb_S3x55_S1x1_1_39).toLoadRect (harg2.unread x1)) (View.readAt (Elt Ideal) arg2.view (Rect.unit (s := S3x55) ![2, 39] S1x1.size inb_S3x55_S1x1_2_39).toLoadRect (harg2.unread x1))) (fun u n => by simp only [k0_pay719_apply c arg1 harg1 arg2 harg2 x0 x1]),
    List.forall_mem_cons.2 ⟨piece_of_row x0 x1 117 39 0 rfl inb_S165x4096_S1x4096_117_0 (k0_pay718 (F := Ideal) (kernelRun0_A.sl.r_275 c arg1 harg1 x0) (kernelRun0_A.sl.r_276 c arg1 harg1 x0) (kernelRun0_A.sl.r_277 c arg1 harg1 x0) (kernelRun0_A.sl.r_373 c arg1 harg1 arg2 harg2 x0 x1) (View.readAt (Elt Ideal) arg2.view (Rect.unit (s := S3x55) ![0, 39] S1x1.size inb_S3x55_S1x1_0_39).toLoadRect (harg2.unread x1)) (View.readAt (Elt Ideal) arg2.view (Rect.unit (s := S3x55) ![1, 39] S1x1.size inb_S3x55_S1x1_1_39).toLoadRect (harg2.unread x1)) (View.readAt (Elt Ideal) arg2.view (Rect.unit (s := S3x55) ![2, 39] S1x1.size inb_S3x55_S1x1_2_39).toLoadRect (harg2.unread x1))) (fun u n => by simp only [k0_pay718_apply c arg1 harg1 arg2 harg2 x0 x1]),
    List.forall_mem_cons.2 ⟨piece_of_row x0 x1 116 38 2 rfl inb_S165x4096_S1x4096_116_0 (k0_pay714 (F := Ideal) (kernelRun0_A.sl.r_281 c arg1 harg1 x0) (kernelRun0_A.sl.r_282 c arg1 harg1 x0) (kernelRun0_A.sl.r_283 c arg1 harg1 x0) (kernelRun0_A.sl.r_372 c arg1 harg1 arg2 harg2 x0 x1) (View.readAt (Elt Ideal) arg2.view (Rect.unit (s := S3x55) ![0, 38] S1x1.size inb_S3x55_S1x1_0_38).toLoadRect (harg2.unread x1)) (View.readAt (Elt Ideal) arg2.view (Rect.unit (s := S3x55) ![1, 38] S1x1.size inb_S3x55_S1x1_1_38).toLoadRect (harg2.unread x1)) (View.readAt (Elt Ideal) arg2.view (Rect.unit (s := S3x55) ![2, 38] S1x1.size inb_S3x55_S1x1_2_38).toLoadRect (harg2.unread x1))) (fun u n => by simp only [k0_pay714_apply c arg1 harg1 arg2 harg2 x0 x1]),
    List.forall_mem_cons.2 ⟨piece_of_row x0 x1 115 38 1 rfl inb_S165x4096_S1x4096_115_0 (k0_pay713 (F := Ideal) (kernelRun0_A.sl.r_278 c arg1 harg1 x0) (kernelRun0_A.sl.r_279 c arg1 harg1 x0) (kernelRun0_A.sl.r_280 c arg1 harg1 x0) (kernelRun0_A.sl.r_371 c arg1 harg1 arg2 harg2 x0 x1) (View.readAt (Elt Ideal) arg2.view (Rect.unit (s := S3x55) ![0, 38] S1x1.size inb_S3x55_S1x1_0_38).toLoadRect (harg2.unread x1)) (View.readAt (Elt Ideal) arg2.view (Rect.unit (s := S3x55) ![1, 38] S1x1.size inb_S3x55_S1x1_1_38).toLoadRect (harg2.unread x1)) (View.readAt (Elt Ideal) arg2.view (Rect.unit (s := S3x55) ![2, 38] S1x1.size inb_S3x55_S1x1_2_38).toLoadRect (harg2.unread x1))) (fun u n => by simp only [k0_pay713_apply c arg1 harg1 arg2 harg2 x0 x1]),
    List.forall_mem_cons.2 ⟨piece_of_row x0 x1 114 38 0 rfl inb_S165x4096_S1x4096_114_0 (k0_pay712 (F := Ideal) (kernelRun0_A.sl.r_275 c arg1 harg1 x0) (kernelRun0_A.sl.r_276 c arg1 harg1 x0) (kernelRun0_A.sl.r_277 c arg1 harg1 x0) (kernelRun0_A.sl.r_370 c arg1 harg1 arg2 harg2 x0 x1) (View.readAt (Elt Ideal) arg2.view (Rect.unit (s := S3x55) ![0, 38] S1x1.size inb_S3x55_S1x1_0_38).toLoadRect (harg2.unread x1)) (View.readAt (Elt Ideal) arg2.view (Rect.unit (s := S3x55) ![1, 38] S1x1.size inb_S3x55_S1x1_1_38).toLoadRect (harg2.unread x1)) (View.readAt (Elt Ideal) arg2.view (Rect.unit (s := S3x55) ![2, 38] S1x1.size inb_S3x55_S1x1_2_38).toLoadRect (harg2.unread x1))) (fun u n => by simp only [k0_pay712_apply c arg1 harg1 arg2 harg2 x0 x1]),
    List.forall_mem_cons.2 ⟨piece_of_row x0 x1 113 37 2 rfl inb_S165x4096_S1x4096_113_0 (k0_pay705 (F := Ideal) (kernelRun0_A.sl.r_372 c arg1 harg1 arg2 harg2 x0 x1)) (fun u n => by simp only [k0_pay705_apply c arg1 harg1 arg2 harg2 x0 x1]),
    List.forall_mem_cons.2 ⟨piece_of_row x0 x1 112 37 1 rfl inb_S165x4096_S1x4096_112_0 (k0_pay704 (F := Ideal) (kernelRun0_A.sl.r_278 c arg1 harg1 x0) (kernelRun0_A.sl.r_279 c arg1 harg1 x0) (kernelRun0_A.sl.r_280 c arg1 harg1 x0) (kernelRun0_A.sl.r_286 c arg1 harg1 arg2 harg2 x0 x1) (View.readAt (Elt Ideal) arg2.view (Rect.unit (s := S3x55) ![0, 37] S1x1.size inb_S3x55_S1x1_0_37).toLoadRect (harg2.unread x1)) (View.readAt (Elt Ideal) arg2.view (Rect.unit (s := S3x55) ![1, 37] S1x1.size inb_S3x55_S1x1_1_37).toLoadRect (harg2.unread x1)) (View.readAt (Elt Ideal) arg2.view (Rect.unit (s := S3x55) ![2, 37] S1x1.size inb_S3x55_S1x1_2_37).toLoadRect (harg2.unread x1))) (fun u n => by simp only [k0_pay704_apply c arg1 harg1 arg2 harg2 x0 x1]),
    List.forall_mem_cons.2 ⟨piece_of_row x0 x1 111 37 0 rfl inb_S165x4096_S1x4096_111_0 (k0_pay703 (F := Ideal) (kernelRun0_A.sl.r_275 c arg1 harg1 x0) (kernelRun0_A.sl.r_276 c arg1 harg1 x0) (kernelRun0_A.sl.r_277 c arg1 harg1 x0) (kernelRun0_A.sl.r_285 c arg1 harg1 arg2 harg2 x0 x1) (View.readAt (Elt Ideal) arg2.view (Rect.unit (s := S3x55) ![0, 37] S1x1.size inb_S3x55_S1x1_0_37).toLoadRect (harg2.unread x1)) (View.readAt (Elt Ideal) arg2.view (Rect.unit (s := S3x55) ![1, 37] S1x1.size inb_S3x55_S1x1_1_37).toLoadRect (harg2.unread x1)) (View.readAt (Elt Ideal) arg2.view (Rect.unit (s := S3x55) ![2, 37] S1x1.size inb_S3x55_S1x1_2_37).toLoadRect (harg2.unread x1))) (fun u n => by simp only [k0_pay703_apply c arg1 harg1 arg2 harg2 x0 x1]),
    List.forall_mem_cons.2 ⟨piece_of_row x0 x1 110 36 2 rfl inb_S165x4096_S1x4096_110_0 (k0_pay696 (F := Ideal) (kernelRun0_A.sl.r_369 c arg1 harg1 arg2 harg2 x0 x1)) (fun u n => by simp only [k0_pay696_apply c arg1 harg1 arg2 harg2 x0 x1]),
    List.forall_mem_cons.2 ⟨piece_of_row x0 x1 109 36 1 rfl inb_S165x4096_S1x4096_109_0 (k0_pay695 (F := Ideal) (kernelRun0_A.sl.r_278 c arg1 harg1 x0) (kernelRun0_A.sl.r_279 c arg1 harg1 x0) (kernelRun0_A.sl.r_280 c arg1 harg1 x0) (kernelRun0_A.sl.r_367 c arg1 harg1 arg2 harg2 x0 x1) (View.readAt (Elt Ideal) arg2.view (Rect.unit (s := S3x55) ![0, 36] S1x1.size inb_S3x55_S1x1_0_36).toLoadRect (harg2.unread x1)) (View.readAt (Elt Ideal) arg2.view (Rect.unit (s := S3x55) ![1, 36] S1x1.size inb_S3x55_S1x1_1_36).toLoadRect (harg2.unread x1)) (View.readAt (Elt Ideal) arg2.view (Rect.unit (s := S3x55) ![2, 36] S1x1.size inb_S3x55_S1x1_2_36).toLoadRect (harg2.unread x1))) (fun u n => by simp only [k0_pay695_apply c arg1 harg1 arg2 harg2 x0 x1]),
    List.forall_mem_cons.2 ⟨piece_of_row x0 x1 108 36 0 rfl inb_S165x4096_S1x4096_108_0 (k0_pay694 (F := Ideal) (kernelRun0_A.sl.r_275 c arg1 harg1 x0) (kernelRun0_A.sl.r_276 c arg1 harg1 x0) (kernelRun0_A.sl.r_277 c arg1 harg1 x0) (kernelRun0_A.sl.r_366 c arg1 harg1 arg2 harg2 x0 x1) (View.readAt (Elt Ideal) arg2.view (Rect.unit (s := S3x55) ![0, 36] S1x1.size inb_S3x55_S1x1_0_36).toLoadRect (harg2.unread x1)) (View.readAt (Elt Ideal) arg2.view (Rect.unit (s := S3x55) ![1, 36] S1x1.size inb_S3x55_S1x1_1_36).toLoadRect (harg2.unread x1)) (View.readAt (Elt Ideal) arg2.view (Rect.unit (s := S3x55) ![2, 36] S1x1.size inb_S3x55_S1x1_2_36).toLoadRect (harg2.unread x1))) (fun u n => by simp only [k0_pay694_apply c arg1 harg1 arg2 harg2 x0 x1]),
    List.forall_mem_cons.2 ⟨piece_of_row x0 x1 107 35 2 rfl inb_S165x4096_S1x4096_107_0 (k0_pay689 (F := Ideal) (kernelRun0_A.sl.r_368 c arg1 harg1 arg2 harg2 x0 x1)) (fun u n => by simp only [k0_pay689_apply c arg1 harg1 arg2 harg2 x0 x1]),
    List.forall_mem_cons.2 ⟨piece_of_row x0 x1 106 35 1 rfl inb_S165x4096_S1x4096_106_0 (k0_pay688 (F := Ideal) (kernelRun0_A.sl.r_367 c arg1 harg1 arg2 harg2 x0 x1)) (fun u n => by simp only [k0_pay688_apply c arg1 harg1 arg2 harg2 x0 x1]),
    List.forall_mem_cons.2 ⟨piece_of_row x0 x1 105 35 0 rfl inb_S165x4096_S1x4096_105_0 (k0_pay687 (F := Ideal) (kernelRun0_A.sl.r_275 c arg1 harg1 x0) (kernelRun0_A.sl.r_276 c arg1 harg1 x0) (kernelRun0_A.sl.r_277 c arg1 harg1 x0) (kernelRun0_A.sl.r_363 c arg1 harg1 arg2 harg2 x0 x1) (View.readAt (Elt Ideal) arg2.view (Rect.unit (s := S3x55) ![0, 35] S1x1.size inb_S3x55_S1x1_0_35).toLoadRect (harg2.unread x1)) (View.readAt (Elt Ideal) arg2.view (Rect.unit (s := S3x55) ![1, 35] S1x1.size inb_S3x55_S1x1_1_35).toLoadRect (harg2.unread x1)) (View.readAt (Elt Ideal) arg2.view (Rect.unit (s := S3x55) ![2, 35] S1x1.size inb_S3x55_S1x1_2_35).toLoadRect (harg2.unread x1))) (fun u n => by simp only [k0_pay687_apply c arg1 harg1 arg2 harg2 x0 x1]),
    List.forall_mem_cons.2 ⟨piece_of_row x0 x1 104 34 2 rfl inb_S165x4096_S1x4096_104_0 (k0_pay680 (F := Ideal) (kernelRun0_A.sl.r_365 c arg1 harg1 arg2 harg2 x0 x1)) (fun u n => by simp only [k0_pay680_apply c arg1 harg1 arg2 harg2 x0 x1]),
    List.forall_mem_cons.2 ⟨piece_of_row x0 x1 103 34 1 rfl inb_S165x4096_S1x4096_103_0 (k0_pay679 (F := Ideal) (kernelRun0_A.sl.r_364 c arg1 harg1 arg2 harg2 x0 x1)) (fun u n => by simp only [k0_pay679_apply c arg1 harg1 arg2 harg2 x0 x1]),
    List.forall_mem_cons.2 ⟨piece_of_row x0 x1 102 34 0 rfl inb_S165x4096_S1x4096_102_0 (k0_pay678 (F := Ideal) (kernelRun0_A.sl.r_275 c arg1 harg1 x0) (kernelRun0_A.sl.r_276 c arg1 harg1 x0) (kernelRun0_A.sl.r_277 c arg1 harg1 x0) (kernelRun0_A.sl.r_285 c arg1 harg1 arg2 harg2 x0 x1) (View.readAt (Elt Ideal) arg2.view (Rect.unit (s := S3x55) ![0, 34] S1x1.size inb_S3x55_S1x1_0_34).toLoadRect (harg2.unread x1)) (View.readAt (Elt Ideal) arg2.view (Rect.unit (s := S3x55) ![1, 34] S1x1.size inb_S3x55_S1x1_1_34).toLoadRect (harg2.unread x1)) (View.readAt (Elt Ideal) arg2.view (Rect.unit (s := S3x55) ![2, 34] S1x1.size inb_S3x55_S1x1_2_34).toLoadRect (harg2.unread x1))) (fun u n => by simp only [k0_pay678_apply c arg1 harg1 arg2 harg2 x0 x1]),
    List.forall_mem_cons.2 ⟨piece_of_row x0 x1 101 33 2 rfl inb_S165x4096_S1x4096_101_0 (k0_pay671 (F := Ideal) (kernelRun0_A.sl.r_362 c arg1 harg1 arg2 harg2 x0 x1)) (fun u n => by simp only [k0_pay671_apply c arg1 harg1 arg2 harg2 x0 x1]),
    List.forall_mem_cons.2 ⟨piece_of_row x0 x1 100 33 1 rfl inb_S165x4096_S1x4096_100_0 (k0_pay670 (F := Ideal) (kernelRun0_A.sl.r_361 c arg1 harg1 arg2 harg2 x0 x1)) (fun u n => by simp only [k0_pay670_apply c arg1 harg1 arg2 harg2 x0 x1]),
    List.forall_mem_cons.2 ⟨piece_of_row x0 x1 99 33 0 rfl inb_S165x4096_S1x4096_99_0 (k0_pay669 (F := Ideal) (kernelRun0_A.sl.r_360 c arg1 harg1 arg2 harg2 x0 x1)) (fun u n => by simp only [k0_pay669_apply c arg1 harg1 arg2 harg2 x0 x1]),
    List.forall_mem_cons.2 ⟨piece_of_row x0 x1 98 32 2 rfl inb_S165x4096_S1x4096_98_0 (k0_pay662 (F := Ideal) (kernelRun0_A.sl.r_359 c arg1 harg1 arg2 harg2 x0 x1)) (fun u n => by simp only [k0_pay662_apply c arg1 harg1 arg2 harg2 x0 x1]),
    List.forall_mem_cons.2 ⟨piece_of_row x0 x1 97 32 1 rfl inb_S165x4096_S1x4096_97_0 (k0_pay661 (F := Ideal) (kernelRun0_A.sl.r_358 c arg1 harg1 arg2 harg2 x0 x1)) (fun u n => by simp only [k0_pay661_apply c arg1 harg1 arg2 harg2 x0 x1]),
    List.forall_mem_cons.2 ⟨piece_of_row x0 x1 96 32 0 rfl inb_S165x4096_S1x4096_96_0 (k0_pay660 (F := Ideal) (kernelRun0_A.sl.r_357 c arg1 harg1 arg2 harg2 x0 x1)) (fun u n => by simp only [k0_pay660_apply c arg1 harg1 arg2 harg2 x0 x1]),
    List.forall_mem_cons.2 ⟨piece_of_row x0 x1 95 31 2 rfl inb_S165x4096_S1x4096_95_0 (k0_pay653 (F := Ideal) (kernelRun0_A.sl.r_283 c arg1 harg1 x0) (kernelRun0_A.sl.r_287 c arg1 harg1 arg2 harg2 x0 x1) (kernelRun0_A.sl.r_355 c arg1 harg1 arg2 harg2 x0 x1) (kernelRun0_A.sl.r_356 c arg2 harg2 x1)) (fun u n => by simp only [k0_pay653_apply c arg1 harg1 arg2 harg2 x0 x1]),
    List.forall_mem_cons.2 ⟨piece_of_row x0 x1 94 31 1 rfl inb_S165x4096_S1x4096_94_0 (k0_pay652 (F := Ideal) (kernelRun0_A.sl.r_354 c arg1 harg1 arg2 harg2 x0 x1)) (fun u n => by simp only [k0_pay652_apply c arg1 harg1 arg2 harg2 x0 x1]),
    List.forall_mem_cons.2 ⟨piece_of_row x0 x1 93 31 0 rfl inb_S165x4096_S1x4096_93_0 (k0_pay651 (F := Ideal) (kernelRun0_A.sl.r_353 c arg1 harg1 arg2 harg2 x0 x1)) (fun u n => by simp only [k0_pay651_apply c arg1 harg1 arg2 harg2 x0 x1]),
    List.forall_mem_cons.2 ⟨piece_of_row x0 x1 92 30 2 rfl inb_S165x4096_S1x4096_92_0 (k0_pay642 (F := Ideal) (kernelRun0_A.sl.r_282 c arg1 harg1 x0) (kernelRun0_A.sl.r_283 c arg1 harg1 x0) (kernelRun0_A.sl.r_347 c arg1 harg1 arg2 harg2 x0 x1) (kernelRun0_A.sl.r_348 c arg2 harg2 x1) (kernelRun0_A.sl.r_351 c arg1 harg1 arg2 harg2 x0 x1) (kernelRun0_A.sl.r_352 c arg2 harg2 x1)) (fun u n => by simp only [k0_pay642_apply c arg1 harg1 arg2 harg2 x0 x1]),
    List.forall_mem_cons.2 ⟨piece_of_row x0 x1 91 30 1 rfl inb_S165x4096_S1x4096_91_0 (k0_pay641 (F := Ideal) (kernelRun0_A.sl.r_350 c arg1 harg1 arg2 harg2 x0 x1)) (fun u n => by simp only [k0_pay641_apply c arg1 harg1 arg2 harg2 x0 x1]),
    List.forall_mem_cons.2 ⟨piece_of_row x0 x1 90 30 0 rfl inb_S165x4096_S1x4096_90_0 (k0_pay640 (F := Ideal) (kernelRun0_A.sl.r_349 c arg1 harg1 arg2 harg2 x0 x1)) (fun u n => by simp only [k0_pay640_apply c arg1 harg1 arg2 harg2 x0 x1]),
    List.forall_mem_cons.2 ⟨piece_of_row x0 x1 89 29 2 rfl inb_S165x4096_S1x4096_89_0 (k0_pay632 (F := Ideal) (kernelRun0_A.sl.r_281 c arg1 harg1 x0) (kernelRun0_A.sl.r_282 c arg1 harg1 x0) (kernelRun0_A.sl.r_283 c arg1 harg1 x0) (kernelRun0_A.sl.r_341 c arg1 harg1 arg2 harg2 x0 x1) (kernelRun0_A.sl.r_342 c arg2 harg2 x1) (kernelRun0_A.sl.r_343 c arg2 harg2 x1) (kernelRun0_A.sl.r_344 c arg2 harg2 x1)) (fun u n => by simp only [k0_pay632_apply c arg1 harg1 arg2 harg2 x0 x1]),
    List.forall_mem_cons.2 ⟨piece_of_row x0 x1 88 29 1 rfl inb_S165x4096_S1x4096_88_0 (k0_pay631 (F := Ideal) (kernelRun0_A.sl.r_346 c arg1 harg1 arg2 harg2 x0 x1)) (fun u n => by simp only [k0_pay631_apply c arg1 harg1 arg2 harg2 x0 x1]),
    List.forall_mem_cons.2 ⟨piece_of_row x0 x1 87 29 0 rfl inb_S165x4096_S1x4096_87_0 (k0_pay630 (F := Ideal) (kernelRun0_A.sl.r_345 c arg1 harg1 arg2 harg2 x0 x1)) (fun u n => by simp only [k0_pay630_apply c arg1 harg1 arg2 harg2 x0 x1]),
    List.forall_mem_cons.2 ⟨piece_of_row x0 x1 86 28 2 rfl inb_S165x4096_S1x4096_86_0 (k0_pay623 (F := Ideal) (kernelRun0_A.sl.r_281 c arg1 harg1 x0) (kernelRun0_A.sl.r_282 c arg1 harg1 x0) (kernelRun0_A.sl.r_283 c arg1 harg1 x0) (kernelRun0_A.sl.r_287 c arg1 harg1 arg2 harg2 x0 x1) (kernelRun0_A.sl.r_335 c arg2 harg2 x1) (kernelRun0_A.sl.r_336 c arg2 harg2 x1) (kernelRun0_A.sl.r_337 c arg2 harg2 x1)) (fun u n => by simp only [k0_pay623_apply c arg1 harg1 arg2 harg2 x0 x1]),
    List.forall_mem_cons.2 ⟨piece_of_row x0 x1 85 28 1 rfl inb_S165x4096_S1x4096_85_0 (k0_pay622 (F := Ideal) (kernelRun0_A.sl.r_280 c arg1 harg1 x0) (kernelRun0_A.sl.r_286 c arg1 harg1 arg2 harg2 x0 x1) (kernelRun0_A.sl.r_339 c arg1 harg1 arg2 harg2 x0 x1) (kernelRun0_A.sl.r_340 c arg2 harg2 x1)) (fun u n => by simp only [k0_pay622_apply c arg1 harg1 arg2 harg2 x0 x1]),
    List.forall_mem_cons.2 ⟨piece_of_row x0 x1 84 28 0 rfl inb_S165x4096_S1x4096_84_0 (k0_pay621 (F := Ideal) (kernelRun0_A.sl.r_338 c arg1 harg1 arg2 harg2 x0 x1)) (fun u n => by simp only [k0_pay621_apply c arg1 harg1 arg2 harg2 x0 x1]),
    List.forall_mem_cons.2 ⟨piece_of_row x0 x1 83 27 2 rfl inb_S165x4096_S1x4096_83_0 (k0_pay612 (F := Ideal) (kernelRun0_A.sl.r_281 c arg1 harg1 x0) (kernelRun0_A.sl.r_282 c arg1 harg1 x0) (kernelRun0_A.sl.r_283 c arg1 harg1 x0) (kernelRun0_A.sl.r_328 c arg1 harg1 arg2 harg2 x0 x1) (kernelRun0_A.sl.r_329 c arg2 harg2 x1) (kernelRun0_A.sl.r_330 c arg2 harg2 x1) (kernelRun0_A.sl.r_331 c arg2 harg2 x1)) (fun u n => by simp only [k0_pay612_apply c arg1 harg1 arg2 harg2 x0 x1]),
    List.forall_mem_cons.2 ⟨piece_of_row x0 x1 82 27 1 rfl inb_S165x4096_S1x4096_82_0 (k0_pay611 (F := Ideal) (kernelRun0_A.sl.r_279 c arg1 harg1 x0) (kernelRun0_A.sl.r_280 c arg1 harg1 x0) (kernelRun0_A.sl.r_327 c arg1 harg1 arg2 harg2 x0 x1) (kernelRun0_A.sl.r_331 c arg2 harg2 x1) (kernelRun0_A.sl.r_333 c arg1 harg1 arg2 harg2 x0 x1) (kernelRun0_A.sl.r_334 c arg2 harg2 x1)) (fun u n => by simp only [k0_pay611_apply c arg1 harg1 arg2 harg2 x0 x1]),
    List.forall_mem_cons.2 ⟨piece_of_row x0 x1 81 27 0 rfl inb_S165x4096_S1x4096_81_0 (k0_pay610 (F := Ideal) (kernelRun0_A.sl.r_332 c arg1 harg1 arg2 harg2 x0 x1)) (fun u n => by simp only [k0_pay610_apply c arg1 harg1 arg2 harg2 x0 x1]),
    List.forall_mem_cons.2 ⟨piece_of_row x0 x1 80 26 2 rfl inb_S165x4096_S1x4096_80_0 (k0_pay603 (F := Ideal) (kernelRun0_A.sl.r_281 c arg1 harg1 x0) (kernelRun0_A.sl.r_282 c arg1 harg1 x0) (kernelRun0_A.sl.r_283 c arg1 harg1 x0) (kernelRun0_A.sl.r_322 c arg1 harg1 arg2 harg2 x0 x1) (kernelRun0_A.sl.r_323 c arg2 harg2 x1) (kernelRun0_A.sl.r_324 c arg2 harg2 x1) (kernelRun0_A.sl.r_325 c arg2 harg2 x1)) (fun u n => by simp only [k0_pay603_apply c arg1 harg1 arg2 harg2 x0 x1]),
    List.forall_mem_cons.2 ⟨piece_of_row x0 x1 79 26 1 rfl inb_S165x4096_S1x4096_79_0 (k0_pay602 (F := Ideal) (kernelRun0_A.sl.r_278 c arg1 harg1 x0) (kernelRun0_A.sl.r_279 c arg1 harg1 x0) (kernelRun0_A.sl.r_280 c arg1 harg1 x0) (kernelRun0_A.sl.r_321 c arg1 harg1 arg2 harg2 x0 x1) (kernelRun0_A.sl.r_323 c arg2 harg2 x1) (kernelRun0_A.sl.r_324 c arg2 harg2 x1) (kernelRun0_A.sl.r_325 c arg2 harg2 x1)) (fun u n => by simp only [k0_pay602_apply c arg1 harg1 arg2 harg2 x0 x1]),
    List.forall_mem_cons.2 ⟨piece_of_row x0 x1 78 26 0 rfl inb_S165x4096_S1x4096_78_0 (k0_pay601 (F := Ideal) (kernelRun0_A.sl.r_326 c arg1 harg1 arg2 harg2 x0 x1)) (fun u n => by simp only [k0_pay601_apply c arg1 harg1 arg2 harg2 x0 x1]),
    List.forall_mem_cons.2 ⟨piece_of_row x0 x1 77 25 2 rfl inb_S165x4096_S1x4096_77_0 (k0_pay594 (F := Ideal) (kernelRun0_A.sl.r_281 c arg1 harg1 x0) (kernelRun0_A.sl.r_282 c arg1 harg1 x0) (kernelRun0_A.sl.r_283 c arg1 harg1 x0) (kernelRun0_A.sl.r_287 c arg1 harg1 arg2 harg2 x0 x1) (kernelRun0_A.sl.r_316 c arg2 harg2 x1) (kernelRun0_A.sl.r_317 c arg2 harg2 x1) (kernelRun0_A.sl.r_318 c arg2 harg2 x1)) (fun u n => by simp only [k0_pay594_apply c arg1 harg1 arg2 harg2 x0 x1]),
    List.forall_mem_cons.2 ⟨piece_of_row x0 x1 76 25 1 rfl inb_S165x4096_S1x4096_76_0 (k0_pay593 (F := Ideal) (kernelRun0_A.sl.r_278 c arg1 harg1 x0) (kernelRun0_A.sl.r_279 c arg1 harg1 x0) (kernelRun0_A.sl.r_280 c arg1 harg1 x0) (kernelRun0_A.sl.r_286 c arg1 harg1 arg2 harg2 x0 x1) (kernelRun0_A.sl.r_316 c arg2 harg2 x1) (kernelRun0_A.sl.r_317 c arg2 harg2 x1) (kernelRun0_A.sl.r_318 c arg2 harg2 x1)) (fun u n => by simp only [k0_pay593_apply c arg1 harg1 arg2 harg2 x0 x1]),
    List.forall_mem_cons.2 ⟨piece_of_row x0 x1 75 25 0 rfl inb_S165x4096_S1x4096_75_0 (k0_pay592 (F := Ideal) (kernelRun0_A.sl.r_277 c arg1 harg1 x0) (kernelRun0_A.sl.r_285 c arg1 harg1 arg2 harg2 x0 x1) (kernelRun0_A.sl.r_319 c arg1 harg1 arg2 harg2 x0 x1) (kernelRun0_A.sl.r_320 c arg2 harg2 x1)) (fun u n => by simp only [k0_pay592_apply c arg1 harg1 arg2 harg2 x0 x1]),
    List.forall_mem_cons.2 ⟨piece_of_row x0 x1 74 24 2 rfl inb_S165x4096_S1x4096_74_0 (k0_pay583 (F := Ideal) (kernelRun0_A.sl.r_191 c arg1 harg1 x0) (kernelRun0_A.sl.r_192 c arg1 harg1 x0) (kernelRun0_A.sl.r_193 c arg1 harg1 x0) (kernelRun0_A.sl.r_197 c arg1 harg1 arg2 harg2 x0 x1) (kernelRun0_A.sl.r_311 c arg2 harg2 x1) (kernelRun0_A.sl.r_312 c arg2 harg2 x1) (kernelRun0_A.sl.r_313 c arg2 harg2 x1)) (fun u n => by simp only [k0_pay583_apply c arg1 harg1 arg2 harg2 x0 x1]),
    List.forall_mem_cons.2 ⟨piece_of_row x0 x1 73 24 1 rfl inb_S165x4096_S1x4096_73_0 (k0_pay582 (F := Ideal) (kernelRun0_A.sl.r_188 c arg1 harg1 x0) (kernelRun0_A.sl.r_189 c arg1 harg1 x0) (kernelRun0_A.sl.r_190 c arg1 harg1 x0) (kernelRun0_A.sl.r_196 c arg1 harg1 arg2 harg2 x0 x1) (kernelRun0_A.sl.r_311 c arg2 harg2 x1) (kernelRun0_A.sl.r_312 c arg2 harg2 x1) (kernelRun0_A.sl.r_313 c arg2 harg2 x1)) (fun u n => by simp only [k0_pay582_apply c arg1 harg1 arg2 harg2 x0 x1]),
    List.forall_mem_cons.2 ⟨piece_of_row x0 x1 72 24 0 rfl inb_S165x4096_S1x4096_72_0 (k0_pay581 (F := Ideal) (kernelRun0_A.sl.r_186 c arg1 harg1 x0) (kernelRun0_A.sl.r_187 c arg1 harg1 x0) (kernelRun0_A.sl.r_195 c arg1 harg1 arg2 harg2 x0 x1) (kernelRun0_A.sl.r_313 c arg2 harg2 x1) (kernelRun0_A.sl.r_314 c arg1 harg1 arg2 harg2 x0 x1) (kernelRun0_A.sl.r_315 c arg2 harg2 x1)) (fun u n => by simp only [k0_pay581_apply c arg1 harg1 arg2 harg2 x0 x1]),
    List.forall_mem_cons.2 ⟨piece_of_row x0 x1 71 23 2 rfl inb_S165x4096_S1x4096_71_0 (k0_pay575 (F := Ideal) (kernelRun0_A.sl.r_191 c arg1 harg1 x0) (kernelRun0_A.sl.r_192 c arg1 harg1 x0) (kernelRun0_A.sl.r_193 c arg1 harg1 x0) (kernelRun0_A.sl.r_197 c arg1 harg1 arg2 harg2 x0 x1) (kernelRun0_A.sl.r_308 c arg2 harg2 x1) (kernelRun0_A.sl.r_309 c arg2 harg2 x1) (kernelRun0_A.sl.r_310 c arg2 harg2 x1)) (fun u n => by simp only [k0_pay575_apply c arg1 harg1 arg2 harg2 x0 x1]),
    List.forall_mem_cons.2 ⟨piece_of_row x0 x1 70 23 1 rfl inb_S165x4096_S1x4096_70_0 (k0_pay574 (F := Ideal) (kernelRun0_A.sl.r_188 c arg1 harg1 x0) (kernelRun0_A.sl.r_189 c arg1 harg1 x0) (kernelRun0_A.sl.r_190 c arg1 harg1 x0) (kernelRun0_A.sl.r_196 c arg1 harg1 arg2 harg2 x0 x1) (kernelRun0_A.sl.r_308 c arg2 harg2 x1) (kernelRun0_A.sl.r_309 c arg2 harg2 x1) (kernelRun0_A.sl.r_310 c arg2 harg2 x1)) (fun u n => by simp only [k0_pay574_apply c arg1 harg1 arg2 harg2 x0 x1]),
    List.forall_mem_cons.2 ⟨piece_of_row x0 x1 69 23 0 rfl inb_S165x4096_S1x4096_69_0 (k0_pay573 (F := Ideal) (kernelRun0_A.sl.r_185 c arg1 harg1 x0) (kernelRun0_A.sl.r_186 c arg1 harg1 x0) (kernelRun0_A.sl.r_187 c arg1 harg1 x0) (kernelRun0_A.sl.r_195 c arg1 harg1 arg2 harg2 x0 x1) (kernelRun0_A.sl.r_308 c arg2 harg2 x1) (kernelRun0_A.sl.r_309 c arg2 harg2 x1) (kernelRun0_A.sl.r_310 c arg2 harg2 x1)) (fun u n => by simp only [k0_pay573_apply c arg1 harg1 arg2 harg2 x0 x1]),
    List.forall_mem_cons.2 ⟨piece_of_row x0 x1 68 22 2 rfl inb_S165x4096_S1x4096_68_0 (k0_pay569 (F := Ideal) (kernelRun0_A.sl.r_191 c arg1 harg1 x0) (kernelRun0_A.sl.r_192 c arg1 harg1 x0) (kernelRun0_A.sl.r_193 c arg1 harg1 x0) (kernelRun0_A.sl.r_197 c arg1 harg1 arg2 harg2 x0 x1) (kernelRun0_A.sl.r_306 c arg2 harg2 x1) (kernelRun0_A.sl.r_307 c arg2 harg2 x1) (View.readAt (Elt Ideal) arg2.view (Rect.unit (s := S3x55) ![2, 22] S1x1.size inb_S3x55_S1x1_2_22).toLoadRect (harg2.unread x1))) (fun u n => by simp only [k0_pay569_apply c arg1 harg1 arg2 harg2 x0 x1]),
    List.forall_mem_cons.2 ⟨piece_of_row x0 x1 67 22 1 rfl inb_S165x4096_S1x4096_67_0 (k0_pay568 (F := Ideal) (kernelRun0_A.sl.r_188 c arg1 harg1 x0) (kernelRun0_A.sl.r_189 c arg1 harg1 x0) (kernelRun0_A.sl.r_190 c arg1 harg1 x0) (kernelRun0_A.sl.r_196 c arg1 harg1 arg2 harg2 x0 x1) (kernelRun0_A.sl.r_306 c arg2 harg2 x1) (kernelRun0_A.sl.r_307 c arg2 harg2 x1) (View.readAt (Elt Ideal) arg2.view (Rect.unit (s := S3x55) ![2, 22] S1x1.size inb_S3x55_S1x1_2_22).toLoadRect (harg2.unread x1))) (fun u n => by simp only [k0_pay568_apply c arg1 harg1 arg2 harg2 x0 x1]),
    List.forall_mem_cons.2 ⟨piece_of_row x0 x1 66 22 0 rfl inb_S165x4096_S1x4096_66_0 (k0_pay567 (F := Ideal) (kernelRun0_A.sl.r_185 c arg1 harg1 x0) (kernelRun0_A.sl.r_186 c arg1 harg1 x0) (kernelRun0_A.sl.r_187 c arg1 harg1 x0) (kernelRun0_A.sl.r_195 c arg1 harg1 arg2 harg2 x0 x1) (kernelRun0_A.sl.r_306 c arg2 harg2 x1) (kernelRun0_A.sl.r_307 c arg2 harg2 x1) (View.readAt (Elt Ideal) arg2.view (Rect.unit (s := S3x55) ![2, 22] S1x1.size inb_S3x55_S1x1_2_22).toLoadRect (harg2.unread x1))) (fun u n => by simp only [k0_pay567_apply c arg1 harg1 arg2 harg2 x0 x1]),
    List.forall_mem_cons.2 ⟨piece_of_row x0 x1 65 21 2 rfl inb_S165x4096_S1x4096_65_0 (k0_pay563 (F := Ideal) (kernelRun0_A.sl.r_263 c arg1 harg1 x0) (kernelRun0_A.sl.r_264 c arg1 harg1 x0) (kernelRun0_A.sl.r_265 c arg1 harg1 x0) (kernelRun0_A.sl.r_269 c arg1 harg1 arg2 harg2 x0 x1) (kernelRun0_A.sl.r_302 c arg2 harg2 x1) (View.readAt (Elt Ideal) arg2.view (Rect.unit (s := S3x55) ![1, 21] S1x1.size inb_S3x55_S1x1_1_21).toLoadRect (harg2.unread x1)) (View.readAt (Elt Ideal) arg2.view (Rect.unit (s := S3x55) ![2, 21] S1x1.size inb_S3x55_S1x1_2_21).toLoadRect (harg2.unread x1))) (fun u n => by simp only [k0_pay563_apply c arg1 harg1 arg2 harg2 x0 x1]),
    List.forall_mem_cons.2 ⟨piece_of_row x0 x1 64 21 1 rfl inb_S165x4096_S1x4096_64_0 (k0_pay562 (F := Ideal) (kernelRun0_A.sl.r_260 c arg1 harg1 x0) (kernelRun0_A.sl.r_261 c arg1 harg1 x0) (kernelRun0_A.sl.r_262 c arg1 harg1 x0) (kernelRun0_A.sl.r_268 c arg1 harg1 arg2 harg2 x0 x1) (kernelRun0_A.sl.r_302 c arg2 harg2 x1) (View.readAt (Elt Ideal) arg2.view (Rect.unit (s := S3x55) ![1, 21] S1x1.size inb_S3x55_S1x1_1_21).toLoadRect (harg2.unread x1)) (View.readAt (Elt Ideal) arg2.view (Rect.unit (s := S3x55) ![2, 21] S1x1.size inb_S3x55_S1x1_2_21).toLoadRect (harg2.unread x1))) (fun u n => by simp only [k0_pay562_apply c arg1 harg1 arg2 harg2 x0 x1]),
    List.forall_mem_cons.2 ⟨piece_of_row x0 x1 63 21 0 rfl inb_S165x4096_S1x4096_63_0 (k0_pay561 (F := Ideal) (kernelRun0_A.sl.r_257 c arg1 harg1 x0) (kernelRun0_A.sl.r_258 c arg1 harg1 x0) (kernelRun0_A.sl.r_259 c arg1 harg1 x0) (kernelRun0_A.sl.r_267 c arg1 harg1 arg2 harg2 x0 x1) (kernelRun0_A.sl.r_302 c arg2 harg2 x1) (View.readAt (Elt Ideal) arg2.view (Rect.unit (s := S3x55) ![1, 21] S1x1.size inb_S3x55_S1x1_1_21).toLoadRect (harg2.unread x1)) (View.readAt (Elt Ideal) arg2.view (Rect.unit (s := S3x55) ![2, 21] S1x1.size inb_S3x55_S1x1_2_21).toLoadRect (harg2.unread x1))) (fun u n => by simp only [k0_pay561_apply c arg1 harg1 arg2 harg2 x0 x1]),
    List.forall_mem_cons.2 ⟨piece_of_row x0 x1 62 20 2 rfl inb_S165x4096_S1x4096_62_0 (k0_pay535 (F := Ideal) (kernelRun0_A.sl.r_245 c arg1 harg1 x0) (kernelRun0_A.sl.r_246 c arg1 harg1 x0) (kernelRun0_A.sl.r_247 c arg1 harg1 x0) (kernelRun0_A.sl.r_251 c arg1 harg1 arg2 harg2 x0 x1) (kernelRun0_A.sl.r_284 c arg2 harg2 x1) (View.readAt (Elt Ideal) arg2.view (Rect.unit (s := S3x55) ![1, 20] S1x1.size inb_S3x55_S1x1_1_20).toLoadRect (harg2.unread x1)) (View.readAt (Elt Ideal) arg2.view (Rect.unit (s := S3x55) ![2, 20] S1x1.size inb_S3x55_S1x1_2_20).toLoadRect (harg2.unread x1))) (fun u n => by simp only [k0_pay535_apply c arg1 harg1 arg2 harg2 x0 x1]),
    List.forall_mem_cons.2 ⟨piece_of_row x0 x1 61 20 1 rfl inb_S165x4096_S1x4096_61_0 (k0_pay534 (F := Ideal) (kernelRun0_A.sl.r_242 c arg1 harg1 x0) (kernelRun0_A.sl.r_243 c arg1 harg1 x0) (kernelRun0_A.sl.r_244 c arg1 harg1 x0) (kernelRun0_A.sl.r_250 c arg1 harg1 arg2 harg2 x0 x1) (kernelRun0_A.sl.r_284 c arg2 harg2 x1) (View.readAt (Elt Ideal) arg2.view (Rect.unit (s := S3x55) ![1, 20] S1x1.size inb_S3x55_S1x1_1_20).toLoadRect (harg2.unread x1)) (View.readAt (Elt Ideal) arg2.view (Rect.unit (s := S3x55) ![2, 20] S1x1.size inb_S3x55_S1x1_2_20).toLoadRect (harg2.unread x1))) (fun u n => by simp only [k0_pay534_apply c arg1 harg1 arg2 harg2 x0 x1]),
    List.forall_mem_cons.2 ⟨piece_of_row x0 x1 60 20 0 rfl inb_S165x4096_S1x4096_60_0 (k0_pay533 (F := Ideal) (kernelRun0_A.sl.r_239 c arg1 harg1 x0) (kernelRun0_A.sl.r_240 c arg1 harg1 x0) (kernelRun0_A.sl.r_241 c arg1 harg1 x0) (kernelRun0_A.sl.r_249 c arg1 harg1 arg2 harg2 x0 x1) (kernelRun0_A.sl.r_284 c arg2 harg2 x1) (View.readAt (Elt Ideal) arg2.view (Rect.unit (s := S3x55) ![1, 20] S1x1.size inb_S3x55_S1x1_1_20).toLoadRect (harg2.unread x1)) (View.readAt (Elt Ideal) arg2.view (Rect.unit (s := S3x55) ![2, 20] S1x1.size inb_S3x55_S1x1_2_20).toLoadRect (harg2.unread x1))) (fun u n => by simp only [k0_pay533_apply c arg1 harg1 arg2 harg2 x0 x1]),
    List.forall_mem_cons.2 ⟨piece_of_row x0 x1 59 19 2 rfl inb_S165x4096_S1x4096_59_0 (k0_pay507 (F := Ideal) (kernelRun0_A.sl.r_227 c arg1 harg1 x0) (kernelRun0_A.sl.r_228 c arg1 harg1 x0) (kernelRun0_A.sl.r_229 c arg1 harg1 x0) (kernelRun0_A.sl.r_233 c arg1 harg1 arg2 harg2 x0 x1) (kernelRun0_A.sl.r_266 c arg2 harg2 x1) (View.readAt (Elt Ideal) arg2.view (Rect.unit (s := S3x55) ![1, 19] S1x1.size inb_S3x55_S1x1_1_19).toLoadRect (harg2.unread x1)) (View.readAt (Elt Ideal) arg2.view (Rect.unit (s := S3x55) ![2, 19] S1x1.size inb_S3x55_S1x1_2_19).toLoadRect (harg2.unread x1))) (fun u n => by simp only [k0_pay507_apply c arg1 harg1 arg2 harg2 x0 x1]),
    List.forall_mem_cons.2 ⟨piece_of_row x0 x1 58 19 1 rfl inb_S165x4096_S1x4096_58_0 (k0_pay506 (F := Ideal) (kernelRun0_A.sl.r_224 c arg1 harg1 x0) (kernelRun0_A.sl.r_225 c arg1 harg1 x0) (kernelRun0_A.sl.r_226 c arg1 harg1 x0) (kernelRun0_A.sl.r_232 c arg1 harg1 arg2 harg2 x0 x1) (kernelRun0_A.sl.r_266 c arg2 harg2 x1) (View.readAt (Elt Ideal) arg2.view (Rect.unit (s := S3x55) ![1, 19] S1x1.size inb_S3x55_S1x1_1_19).toLoadRect (harg2.unread x1)) (View.readAt (Elt Ideal) arg2.view (Rect.unit (s := S3x55) ![2, 19] S1x1.size inb_S3x55_S1x1_2_19).toLoadRect (harg2.unread x1))) (fun u n => by simp only [k0_pay506_apply c arg1 harg1 arg2 harg2 x0 x1]),
    List.forall_mem_cons.2 ⟨piece_of_row x0 x1 57 19 0 rfl inb_S165x4096_S1x4096_57_0 (k0_pay505 (F := Ideal) (kernelRun0_A.sl.r_221 c arg1 harg1 x0) (kernelRun0_A.sl.r_222 c arg1 harg1 x0) (kernelRun0_A.sl.r_223 c arg1 harg1 x0) (kernelRun0_A.sl.r_231 c arg1 harg1 arg2 harg2 x0 x1) (kernelRun0_A.sl.r_266 c arg2 harg2 x1) (View.readAt (Elt Ideal) arg2.view (Rect.unit (s := S3x55) ![1, 19] S1x1.size inb_S3x55_S1x1_1_19).toLoadRect (harg2.unread x1)) (View.readAt (Elt Ideal) arg2.view (Rect.unit (s := S3x55) ![2, 19] S1x1.size inb_S3x55_S1x1_2_19).toLoadRect (harg2.unread x1))) (fun u n => by simp only [k0_pay505_apply c arg1 harg1 arg2 harg2 x0 x1]),
    List.forall_mem_cons.2 ⟨piece_of_row x0 x1 56 18 2 rfl inb_S165x4096_S1x4096_56_0 (k0_pay479 (F := Ideal) (kernelRun0_A.sl.r_209 c arg1 harg1 x0) (kernelRun0_A.sl.r_210 c arg1 harg1 x0) (kernelRun0_A.sl.r_211 c arg1 harg1 x0) (kernelRun0_A.sl.r_215 c arg1 harg1 arg2 harg2 x0 x1) (kernelRun0_A.sl.r_248 c arg2 harg2 x1) (View.readAt (Elt Ideal) arg2.view (Rect.unit (s := S3x55) ![1, 18] S1x1.size inb_S3x55_S1x1_1_18).toLoadRect (harg2.unread x1)) (View.readAt (Elt Ideal) arg2.view (Rect.unit (s := S3x55) ![2, 18] S1x1.size inb_S3x55_S1x1_2_18).toLoadRect (harg2.unread x1))) (fun u n => by simp only [k0_pay479_apply c arg1 harg1 arg2 harg2 x0 x1]),
    List.forall_mem_cons.2 ⟨piece_of_row x0 x1 55 18 1 rfl inb_S165x4096_S1x4096_55_0 (k0_pay478 (F := Ideal) (kernelRun0_A.sl.r_206 c arg1 harg1 x0) (kernelRun0_A.sl.r_207 c arg1 harg1 x0) (kernelRun0_A.sl.r_208 c arg1 harg1 x0) (kernelRun0_A.sl.r_214 c arg1 harg1 arg2 harg2 x0 x1) (kernelRun0_A.sl.r_248 c arg2 harg2 x1) (View.readAt (Elt Ideal) arg2.view (Rect.unit (s := S3x55) ![1, 18] S1x1.size inb_S3x55_S1x1_1_18).toLoadRect (harg2.unread x1)) (View.readAt (Elt Ideal) arg2.view (Rect.unit (s := S3x55) ![2, 18] S1x1.size inb_S3x55_S1x1_2_18).toLoadRect (harg2.unread x1))) (fun u n => by simp only [k0_pay478_apply c arg1 harg1 arg2 harg2 x0 x1]),
    List.forall_mem_cons.2 ⟨piece_of_row x0 x1 54 18 0 rfl inb_S165x4096_S1x4096_54_0 (k0_pay477 (F := Ideal) (kernelRun0_A.sl.r_203 c arg1 harg1 x0) (kernelRun0_A.sl.r_204 c arg1 harg1 x0) (kernelRun0_A.sl.r_205 c arg1 harg1 x0) (kernelRun0_A.sl.r_213 c arg1 harg1 arg2 harg2 x0 x1) (kernelRun0_A.sl.r_248 c arg2 harg2 x1) (View.readAt (Elt Ideal) arg2.view (Rect.unit (s := S3x55) ![1, 18] S1x1.size inb_S3x55_S1x1_1_18).toLoadRect (harg2.unread x1)) (View.readAt (Elt Ideal) arg2.view (Rect.unit (s := S3x55) ![2, 18] S1x1.size inb_S3x55_S1x1_2_18).toLoadRect (harg2.unread x1))) (fun u n => by simp only [k0_pay477_apply c arg1 harg1 arg2 harg2 x0 x1]),
    List.forall_mem_cons.2 ⟨piece_of_row x0 x1 53 17 2 rfl inb_S165x4096_S1x4096_53_0 (k0_pay451 (F := Ideal) (kernelRun0_A.sl.r_173 c arg1 harg1 x0) (kernelRun0_A.sl.r_174 c arg1 harg1 x0) (kernelRun0_A.sl.r_175 c arg1 harg1 x0) (kernelRun0_A.sl.r_179 c arg1 harg1 arg2 harg2 x0 x1) (kernelRun0_A.sl.r_230 c arg2 harg2 x1) (View.readAt (Elt Ideal) arg2.view (Rect.unit (s := S3x55) ![1, 17] S1x1.size inb_S3x55_S1x1_1_17).toLoadRect (harg2.unread x1)) (View.readAt (Elt Ideal) arg2.view (Rect.unit (s := S3x55) ![2, 17] S1x1.size inb_S3x55_S1x1_2_17).toLoadRect (harg2.unread x1))) (fun u n => by simp only [k0_pay451_apply c arg1 harg1 arg2 harg2 x0 x1]),
    List.forall_mem_cons.2 ⟨piece_of_row x0 x1 52 17 1 rfl inb_S165x4096_S1x4096_52_0 (k0_pay450 (F := Ideal) (kernelRun0_A.sl.r_170 c arg1 harg1 x0) (kernelRun0_A.sl.r_171 c arg1 harg1 x0) (kernelRun0_A.sl.r_172 c arg1 harg1 x0) (kernelRun0_A.sl.r_178 c arg1 harg1 arg2 harg2 x0 x1) (kernelRun0_A.sl.r_230 c arg2 harg2 x1) (View.readAt (Elt Ideal) arg2.view (Rect.unit (s := S3x55) ![1, 17] S1x1.size inb_S3x55_S1x1_1_17).toLoadRect (harg2.unread x1)) (View.readAt (Elt Ideal) arg2.view (Rect.unit (s := S3x55) ![2, 17] S1x1.size inb_S3x55_S1x1_2_17).toLoadRect (harg2.unread x1))) (fun u n => by simp only [k0_pay450_apply c arg1 harg1 arg2 harg2 x0 x1]),
    List.forall_mem_cons.2 ⟨piece_of_row x0 x1 51 17 0 rfl inb_S165x4096_S1x4096_51_0 (k0_pay449 (F := Ideal) (kernelRun0_A.sl.r_167 c arg1 harg1 x0) (kernelRun0_A.sl.r_168 c arg1 harg1 x0) (kernelRun0_A.sl.r_169 c arg1 harg1 x0) (kernelRun0_A.sl.r_177 c arg1 harg1 arg2 harg2 x0 x1) (kernelRun0_A.sl.r_230 c arg2 harg2 x1) (View.readAt (Elt Ideal) arg2.view (Rect.unit (s := S3x55) ![1, 17] S1x1.size inb_S3x55_S1x1_1_17).toLoadRect (harg2.unread x1)) (View.readAt (Elt Ideal) arg2.view (Rect.unit (s := S3x55) ![2, 17] S1x1.size inb_S3x55_S1x1_2_17).toLoadRect (harg2.unread x1))) (fun u n => by simp only [k0_pay449_apply c arg1 harg1 arg2 harg2 x0 x1]),
    List.forall_mem_cons.2 ⟨piece_of_row x0 x1 50 16 2 rfl inb_S165x4096_S1x4096_50_0 (k0_pay423 (F := Ideal) (kernelRun0_A.sl.r_155 c arg1 harg1 x0) (kernelRun0_A.sl.r_156 c arg1 harg1 x0) (kernelRun0_A.sl.r_157 c arg1 harg1 x0) (kernelRun0_A.sl.r_161 c arg1 harg1 arg2 harg2 x0 x1) (kernelRun0_A.sl.r_212 c arg2 harg2 x1) (View.readAt (Elt Ideal) arg2.view (Rect.unit (s := S3x55) ![1, 16] S1x1.size inb_S3x55_S1x1_1_16).toLoadRect (harg2.unread x1)) (View.readAt (Elt Ideal) arg2.view (Rect.unit (s := S3x55) ![2, 16] S1x1.size inb_S3x55_S1x1_2_16).toLoadRect (harg2.unread x1))) (fun u n => by simp only [k0_pay423_apply c arg1 harg1 arg2 harg2 x0 x1]),
    List.forall_mem_cons.2 ⟨piece_of_row x0 x1 49 16 1 rfl inb_S165x4096_S1x4096_49_0 (k0_pay422 (F := Ideal) (kernelRun0_A.sl.r_152 c arg1 harg1 x0) (kernelRun0_A.sl.r_153 c arg1 harg1 x0) (kernelRun0_A.sl.r_154 c arg1 harg1 x0) (kernelRun0_A.sl.r_160 c arg1 harg1 arg2 harg2 x0 x1) (kernelRun0_A.sl.r_212 c arg2 harg2 x1) (View.readAt (Elt Ideal) arg2.view (Rect.unit (s := S3x55) ![1, 16] S1x1.size inb_S3x55_S1x1_1_16).toLoadRect (harg2.unread x1)) (View.readAt (Elt Ideal) arg2.view (Rect.unit (s := S3x55) ![2, 16] S1x1.size inb_S3x55_S1x1_2_16).toLoadRect (harg2.unread x1))) (fun u n => by simp only [k0_pay422_apply c arg1 harg1 arg2 harg2 x0 x1]),
    List.forall_mem_cons.2 ⟨piece_of_row x0 x1 48 16 0 rfl inb_S165x4096_S1x4096_48_0 (k0_pay421 (F := Ideal) (kernelRun0_A.sl.r_149 c arg1 harg1 x0) (kernelRun0_A.sl.r_150 c arg1 harg1 x0) (kernelRun0_A.sl.r_151 c arg1 harg1 x0) (kernelRun0_A.sl.r_159 c arg1 harg1 arg2 harg2 x0 x1) (kernelRun0_A.sl.r_212 c arg2 harg2 x1) (View.readAt (Elt Ideal) arg2.view (Rect.unit (s := S3x55) ![1, 16] S1x1.size inb_S3x55_S1x1_1_16).toLoadRect (harg2.unread x1)) (View.readAt (Elt Ideal) arg2.view (Rect.unit (s := S3x55) ![2, 16] S1x1.size inb_S3x55_S1x1_2_16).toLoadRect (harg2.unread x1))) (fun u n => by simp only [k0_pay421_apply c arg1 harg1 arg2 harg2 x0 x1]),
    List.forall_mem_cons.2 ⟨piece_of_row x0 x1 47 15 2 rfl inb_S165x4096_S1x4096_47_0 (k0_pay395 (F := Ideal) (kernelRun0_A.sl.r_137 c arg1 harg1 x0) (kernelRun0_A.sl.r_138 c arg1 harg1 x0) (kernelRun0_A.sl.r_139 c arg1 harg1 x0) (kernelRun0_A.sl.r_143 c arg1 harg1 arg2 harg2 x0 x1) (kernelRun0_A.sl.r_194 c arg2 harg2 x1) (View.readAt (Elt Ideal) arg2.view (Rect.unit (s := S3x55) ![1, 15] S1x1.size inb_S3x55_S1x1_1_15).toLoadRect (harg2.unread x1)) (View.readAt (Elt Ideal) arg2.view (Rect.unit (s := S3x55) ![2, 15] S1x1.size inb_S3x55_S1x1_2_15).toLoadRect (harg2.unread x1))) (fun u n => by simp only [k0_pay395_apply c arg1 harg1 arg2 harg2 x0 x1]),
    List.forall_mem_cons.2 ⟨piece_of_row x0 x1 46 15 1 rfl inb_S165x4096_S1x4096_46_0 (k0_pay394 (F := Ideal) (kernelRun0_A.sl.r_134 c arg1 harg1 x0) (kernelRun0_A.sl.r_135 c arg1 harg1 x0) (kernelRun0_A.sl.r_136 c arg1 harg1 x0) (kernelRun0_A.sl.r_142 c arg1 harg1 arg2 harg2 x0 x1) (kernelRun0_A.sl.r_194 c arg2 harg2 x1) (View.readAt (Elt Ideal) arg2.view (Rect.unit (s := S3x55) ![1, 15] S1x1.size inb_S3x55_S1x1_1_15).toLoadRect (harg2.unread x1)) (View.readAt (Elt Ideal) arg2.view (Rect.unit (s := S3x55) ![2, 15] S1x1.size inb_S3x55_S1x1_2_15).toLoadRect (harg2.unread x1))) (fun u n => by simp only [k0_pay394_apply c arg1 harg1 arg2 harg2 x0 x1]),
    List.forall_mem_cons.2 ⟨piece_of_row x0 x1 45 15 0 rfl inb_S165x4096_S1x4096_45_0 (k0_pay393 (F := Ideal) (kernelRun0_A.sl.r_131 c arg1 harg1 x0) (kernelRun0_A.sl.r_132 c arg1 harg1 x0) (kernelRun0_A.sl.r_133 c arg1 harg1 x0) (kernelRun0_A.sl.r_141 c arg1 harg1 arg2 harg2 x0 x1) (kernelRun0_A.sl.r_194 c arg2 harg2 x1) (View.readAt (Elt Ideal) arg2.view (Rect.unit (s := S3x55) ![1, 15] S1x1.size inb_S3x55_S1x1_1_15).toLoadRect (harg2.unread x1)) (View.readAt (Elt Ideal) arg2.view (Rect.unit (s := S3x55) ![2, 15] S1x1.size inb_S3x55_S1x1_2_15).toLoadRect (harg2.unread x1))) (fun u n => by simp only [k0_pay393_apply c arg1 harg1 arg2 harg2 x0 x1]),
    List.forall_mem_cons.2 ⟨piece_of_row x0 x1 44 14 2 rfl inb_S165x4096_S1x4096_44_0 (k0_pay367 (F := Ideal) (kernelRun0_A.sl.r_118 c arg1 harg1 x0) (kernelRun0_A.sl.r_119 c arg1 harg1 x0) (kernelRun0_A.sl.r_120 c arg1 harg1 x0) (kernelRun0_A.sl.r_123 c arg1 harg1 arg2 harg2 x0 x1) (kernelRun0_A.sl.r_176 c arg2 harg2 x1) (View.readAt (Elt Ideal) arg2.view (Rect.unit (s := S3x55) ![1, 14] S1x1.size inb_S3x55_S1x1_1_14).toLoadRect (harg2.unread x1)) (View.readAt (Elt Ideal) arg2.view (Rect.unit (s := S3x55) ![2, 14] S1x1.size inb_S3x55_S1x1_2_14).toLoadRect (harg2.unread x1))) (fun u n => by simp only [k0_pay367_apply c arg1 harg1 arg2 harg2 x0 x1]),
    List.forall_mem_cons.2 ⟨piece_of_row x0 x1 43 14 1 rfl inb_S165x4096_S1x4096_43_0 (k0_pay366 (F := Ideal) (kernelRun0_A.sl.r_115 c arg1 harg1 x0) (kernelRun0_A.sl.r_116 c arg1 harg1 x0) (kernelRun0_A.sl.r_117 c arg1 harg1 x0) (kernelRun0_A.sl.r_122 c arg1 harg1 arg2 harg2 x0 x1) (kernelRun0_A.sl.r_176 c arg2 harg2 x1) (View.readAt (Elt Ideal) arg2.view (Rect.unit (s := S3x55) ![1, 14] S1x1.size inb_S3x55_S1x1_1_14).toLoadRect (harg2.unread x1)) (View.readAt (Elt Ideal) arg2.view (Rect.unit (s := S3x55) ![2, 14] S1x1.size inb_S3x55_S1x1_2_14).toLoadRect (harg2.unread x1))) (fun u n => by simp only [k0_pay366_apply c arg1 harg1 arg2 harg2 x0 x1]),
    List.forall_mem_cons.2 ⟨piece_of_row x0 x1 42 14 0 rfl inb_S165x4096_S1x4096_42_0 (k0_pay365 (F := Ideal) (kernelRun0_A.sl.r_112 c arg1 harg1 x0) (kernelRun0_A.sl.r_113 c arg1 harg1 x0) (kernelRun0_A.sl.r_114 c arg1 harg1 x0) (kernelRun0_A.sl.r_121 c arg1 harg1 arg2 harg2 x0 x1) (kernelRun0_A.sl.r_176 c arg2 harg2 x1) (View.readAt (Elt Ideal) arg2.view (Rect.unit (s := S3x55) ![1, 14] S1x1.size inb_S3x55_S1x1_1_14).toLoadRect (harg2.unread x1)) (View.readAt (Elt Ideal) arg2.view (Rect.unit (s := S3x55) ![2, 14] S1x1.size inb_S3x55_S1x1_2_14).toLoadRect (harg2.unread x1))) (fun u n => by simp only [k0_pay365_apply c arg1 harg1 arg2 harg2 x0 x1]),
    List.forall_mem_cons.2 ⟨piece_of_row x0 x1 41 13 2 rfl inb_S165x4096_S1x4096_41_0 (k0_pay339 (F := Ideal) (kernelRun0_A.sl.r_118 c arg1 harg1 x0) (kernelRun0_A.sl.r_119 c arg1 harg1 x0) (kernelRun0_A.sl.r_120 c arg1 harg1 x0) (kernelRun0_A.sl.r_123 c arg1 harg1 arg2 harg2 x0 x1) (kernelRun0_A.sl.r_158 c arg2 harg2 x1) (View.readAt (Elt Ideal) arg2.view (Rect.unit (s := S3x55) ![1, 13] S1x1.size inb_S3x55_S1x1_1_13).toLoadRect (harg2.unread x1)) (View.readAt (Elt Ideal) arg2.view (Rect.unit (s := S3x55) ![2, 13] S1x1.size inb_S3x55_S1x1_2_13).toLoadRect (harg2.unread x1))) (fun u n => by simp only [k0_pay339_apply c arg1 harg1 arg2 harg2 x0 x1]),
    List.forall_mem_cons.2 ⟨piece_of_row x0 x1 40 13 1 rfl inb_S165x4096_S1x4096_40_0 (k0_pay338 (F := Ideal) (kernelRun0_A.sl.r_115 c arg1 harg1 x0) (kernelRun0_A.sl.r_116 c arg1 harg1 x0) (kernelRun0_A.sl.r_117 c arg1 harg1 x0) (kernelRun0_A.sl.r_122 c arg1 harg1 arg2 harg2 x0 x1) (kernelRun0_A.sl.r_158 c arg2 harg2 x1) (View.readAt (Elt Ideal) arg2.view (Rect.unit (s := S3x55) ![1, 13] S1x1.size inb_S3x55_S1x1_1_13).toLoadRect (harg2.unread x1)) (View.readAt (Elt Ideal) arg2.view (Rect.unit (s := S3x55) ![2, 13] S1x1.size inb_S3x55_S1x1_2_13).toLoadRect (harg2.unread x1))) (fun u n => by simp only [k0_pay338_apply c arg1 harg1 arg2 harg2 x0 x1]),
    List.forall_mem_cons.2 ⟨piece_of_row x0 x1 39 13 0 rfl inb_S165x4096_S1x4096_39_0 (k0_pay337 (F := Ideal) (kernelRun0_A.sl.r_112 c arg1 harg1 x0) (kernelRun0_A.sl.r_113 c arg1 harg1 x0) (kernelRun0_A.sl.r_114 c arg1 harg1 x0) (kernelRun0_A.sl.r_121 c arg1 harg1 arg2 harg2 x0 x1) (kernelRun0_A.sl.r_158 c arg2 harg2 x1) (View.readAt (Elt Ideal) arg2.view (Rect.unit (s := S3x55) ![1, 13] S1x1.size inb_S3x55_S1x1_1_13).toLoadRect (harg2.unread x1)) (View.readAt (Elt Ideal) arg2.view (Rect.unit (s := S3x55) ![2, 13] S1x1.size inb_S3x55_S1x1_2_13).toLoadRect (harg2.unread x1))) (fun u n => by simp only [k0_pay337_apply c arg1 harg1 arg2 harg2 x0 x1]),
    List.forall_mem_cons.2 ⟨piece_of_row x0 x1 38 12 2 rfl inb_S165x4096_S1x4096_38_0 (k0_pay311 (F := Ideal) (kernelRun0_A.sl.r_118 c arg1 harg1 x0) (kernelRun0_A.sl.r_119 c arg1 harg1 x0) (kernelRun0_A.sl.r_120 c arg1 harg1 x0) (kernelRun0_A.sl.r_123 c arg1 harg1 arg2 harg2 x0 x1) (kernelRun0_A.sl.r_140 c arg2 harg2 x1) (View.readAt (Elt Ideal) arg2.view (Rect.unit (s := S3x55) ![1, 12] S1x1.size inb_S3x55_S1x1_1_12).toLoadRect (harg2.unread x1)) (View.readAt (Elt Ideal) arg2.view (Rect.unit (s := S3x55) ![2, 12] S1x1.size inb_S3x55_S1x1_2_12).toLoadRect (harg2.unread x1))) (fun u n => by simp only [k0_pay311_apply c arg1 harg1 arg2 harg2 x0 x1]),
    List.forall_mem_cons.2 ⟨piece_of_row x0 x1 37 12 1 rfl inb_S165x4096_S1x4096_37_0 (k0_pay310 (F := Ideal) (kernelRun0_A.sl.r_115 c arg1 harg1 x0) (kernelRun0_A.sl.r_116 c arg1 harg1 x0) (kernelRun0_A.sl.r_117 c arg1 harg1 x0) (kernelRun0_A.sl.r_122 c arg1 harg1 arg2 harg2 x0 x1) (kernelRun0_A.sl.r_140 c arg2 harg2 x1) (View.readAt (Elt Ideal) arg2.view (Rect.unit (s := S3x55) ![1, 12] S1x1.size inb_S3x55_S1x1_1_12).toLoadRect (harg2.unread x1)) (View.readAt (Elt Ideal) arg2.view (Rect.unit (s := S3x55) ![2, 12] S1x1.size inb_S3x55_S1x1_2_12).toLoadRect (harg2.unread x1))) (fun u n => by simp only [k0_pay310_apply c arg1 harg1 arg2 harg2 x0 x1]),
    List.forall_mem_cons.2 ⟨piece_of_row x0 x1 36 12 0 rfl inb_S165x4096_S1x4096_36_0 (k0_pay309 (F := Ideal) (kernelRun0_A.sl.r_112 c arg1 harg1 x0) (kernelRun0_A.sl.r_113 c arg1 harg1 x0) (kernelRun0_A.sl.r_114 c arg1 harg1 x0) (kernelRun0_A.sl.r_121 c arg1 harg1 arg2 harg2 x0 x1) (kernelRun0_A.sl.r_140 c arg2 harg2 x1) (View.readAt (Elt Ideal) arg2.view (Rect.unit (s := S3x55) ![1, 12] S1x1.size inb_S3x55_S1x1_1_12).toLoadRect (harg2.unread x1)) (View.readAt (Elt Ideal) arg2.view (Rect.unit (s := S3x55) ![2, 12] S1x1.size inb_S3x55_S1x1_2_12).toLoadRect (harg2.unread x1))) (fun u n => by simp only [k0_pay309_apply c arg1 harg1 arg2 harg2 x0 x1]),
    List.forall_mem_cons.2 ⟨piece_of_row x0 x1 35 11 2 rfl inb_S165x4096_S1x4096_35_0 (k0_pay283 (F := Ideal) (kernelRun0_A.sl.r_104 c arg1 harg1 x0) (kernelRun0_A.sl.r_105 c arg1 harg1 x0) (kernelRun0_A.sl.r_106 c arg1 harg1 x0) (kernelRun0_A.sl.r_109 c arg1 harg1 arg2 harg2 x0 x1) (kernelRun0_A.sl.r_125 c arg2 harg2 x1) (View.readAt (Elt Ideal) arg2.view (Rect.unit (s := S3x55) ![1, 11] S1x1.size inb_S3x55_S1x1_1_11).toLoadRect (harg2.unread x1)) (View.readAt (Elt Ideal) arg2.view (Rect.unit (s := S3x55) ![2, 11] S1x1.size inb_S3x55_S1x1_2_11).toLoadRect (harg2.unread x1))) (fun u n => by simp only [k0_pay283_apply c arg1 harg1 arg2 harg2 x0 x1]),
    List.forall_mem_cons.2 ⟨piece_of_row x0 x1 34 11 1 rfl inb_S165x4096_S1x4096_34_0 (k0_pay282 (F := Ideal) (kernelRun0_A.sl.r_101 c arg1 harg1 x0) (kernelRun0_A.sl.r_102 c arg1 harg1 x0) (kernelRun0_A.sl.r_103 c arg1 harg1 x0) (kernelRun0_A.sl.r_108 c arg1 harg1 arg2 harg2 x0 x1) (kernelRun0_A.sl.r_125 c arg2 harg2 x1) (View.readAt (Elt Ideal) arg2.view (Rect.unit (s := S3x55) ![1, 11] S1x1.size inb_S3x55_S1x1_1_11).toLoadRect (harg2.unread x1)) (View.readAt (Elt Ideal) arg2.view (Rect.unit (s := S3x55) ![2, 11] S1x1.size inb_S3x55_S1x1_2_11).toLoadRect (harg2.unread x1))) (fun u n => by simp only [k0_pay282_apply c arg1 harg1 arg2 harg2 x0 x1]),
    List.forall_mem_cons.2 ⟨piece_of_row x0 x1 33 11 0 rfl inb_S165x4096_S1x4096_33_0 (k0_pay281 (F := Ideal) (kernelRun0_A.sl.r_98 c arg1 harg1 x0) (kernelRun0_A.sl.r_99 c arg1 harg1 x0) (kernelRun0_A.sl.r_100 c arg1 harg1 x0) (kernelRun0_A.sl.r_107 c arg1 harg1 arg2 harg2 x0 x1) (kernelRun0_A.sl.r_125 c arg2 harg2 x1) (View.readAt (Elt Ideal) arg2.view (Rect.unit (s := S3x55) ![1, 11] S1x1.size inb_S3x55_S1x1_1_11).toLoadRect (harg2.unread x1)) (View.readAt (Elt Ideal) arg2.view (Rect.unit (s := S3x55) ![2, 11] S1x1.size inb_S3x55_S1x1_2_11).toLoadRect (harg2.unread x1))) (fun u n => by simp only [k0_pay281_apply c arg1 harg1 arg2 harg2 x0 x1]),
    List.forall_mem_cons.2 ⟨piece_of_row x0 x1 32 10 2 rfl inb_S165x4096_S1x4096_32_0 (k0_pay277 (F := Ideal) (kernelRun0_A.sl.r_90 c arg1 harg1 x0) (kernelRun0_A.sl.r_91 c arg1 harg1 x0) (kernelRun0_A.sl.r_92 c arg1 harg1 x0) (kernelRun0_A.sl.r_95 c arg1 harg1 arg2 harg2 x0 x1) (kernelRun0_A.sl.r_124 c arg2 harg2 x1) (View.readAt (Elt Ideal) arg2.view (Rect.unit (s := S3x55) ![1, 10] S1x1.size inb_S3x55_S1x1_1_10).toLoadRect (harg2.unread x1)) (View.readAt (Elt Ideal) arg2.view (Rect.unit (s := S3x55) ![2, 10] S1x1.size inb_S3x55_S1x1_2_10).toLoadRect (harg2.unread x1))) (fun u n => by simp only [k0_pay277_apply c arg1 harg1 arg2 harg2 x0 x1]),
    List.forall_mem_cons.2 ⟨piece_of_row x0 x1 31 10 1 rfl inb_S165x4096_S1x4096_31_0 (k0_pay276 (F := Ideal) (kernelRun0_A.sl.r_87 c arg1 harg1 x0) (kernelRun0_A.sl.r_88 c arg1 harg1 x0) (kernelRun0_A.sl.r_89 c arg1 harg1 x0) (kernelRun0_A.sl.r_94 c arg1 harg1 arg2 harg2 x0 x1) (kernelRun0_A.sl.r_124 c arg2 harg2 x1) (View.readAt (Elt Ideal) arg2.view (Rect.unit (s := S3x55) ![1, 10] S1x1.size inb_S3x55_S1x1_1_10).toLoadRect (harg2.unread x1)) (View.readAt (Elt Ideal) arg2.view (Rect.unit (s := S3x55) ![2, 10] S1x1.size inb_S3x55_S1x1_2_10).toLoadRect (harg2.unread x1))) (fun u n => by simp only [k0_pay276_apply c arg1 harg1 arg2 harg2 x0 x1]),
    List.forall_mem_cons.2 ⟨piece_of_row x0 x1 30 10 0 rfl inb_S165x4096_S1x4096_30_0 (k0_pay275 (F := Ideal) (kernelRun0_A.sl.r_84 c arg1 harg1 x0) (kernelRun0_A.sl.r_85 c arg1 harg1 x0) (kernelRun0_A.sl.r_86 c arg1 harg1 x0) (kernelRun0_A.sl.r_93 c arg1 harg1 arg2 harg2 x0 x1) (kernelRun0_A.sl.r_124 c arg2 harg2 x1) (View.readAt (Elt Ideal) arg2.view (Rect.unit (s := S3x55) ![1, 10] S1x1.size inb_S3x55_S1x1_1_10).toLoadRect (harg2.unread x1)) (View.readAt (Elt Ideal) arg2.view (Rect.unit (s := S3x55) ![2, 10] S1x1.size inb_S3x55_S1x1_2_10).toLoadRect (harg2.unread x1))) (fun u n => by simp only [k0_pay275_apply c arg1 harg1 arg2 harg2 x0 x1]),
    List.forall_mem_cons.2 ⟨piece_of_row x0 x1 29 9 2 rfl inb_S165x4096_S1x4096_29_0 (k0_pay271 (F := Ideal) (kernelRun0_A.sl.r_76 c arg1 harg1 x0) (kernelRun0_A.sl.r_77 c arg1 harg1 x0) (kernelRun0_A.sl.r_78 c arg1 harg1 x0) (kernelRun0_A.sl.r_81 c arg1 harg1 arg2 harg2 x0 x1) (View.readAt (Elt Ideal) arg2.view (Rect.unit (s := S3x55) ![0, 9] S1x1.size inb_S3x55_S1x1_0_9).toLoadRect (harg2.unread x1)) (View.readAt (Elt Ideal) arg2.view (Rect.unit (s := S3x55) ![1, 9] S1x1.size inb_S3x55_S1x1_1_9).toLoadRect (harg2.unread x1)) (View.readAt (Elt Ideal) arg2.view (Rect.unit (s := S3x55) ![2, 9] S1x1.size inb_S3x55_S1x1_2_9).toLoadRect (harg2.unread x1))) (fun u n => by simp only [k0_pay271_apply c arg1 harg1 arg2 harg2 x0 x1]),
    List.forall_mem_cons.2 ⟨piece_of_row x0 x1 28 9 1 rfl inb_S165x4096_S1x4096_28_0 (k0_pay270 (F := Ideal) (kernelRun0_A.sl.r_73 c arg1 harg1 x0) (kernelRun0_A.sl.r_74 c arg1 harg1 x0) (kernelRun0_A.sl.r_75 c arg1 harg1 x0) (kernelRun0_A.sl.r_80 c arg1 harg1 arg2 harg2 x0 x1) (View.readAt (Elt Ideal) arg2.view (Rect.unit (s := S3x55) ![0, 9] S1x1.size inb_S3x55_S1x1_0_9).toLoadRect (harg2.unread x1)) (View.readAt (Elt Ideal) arg2.view (Rect.unit (s := S3x55) ![1, 9] S1x1.size inb_S3x55_S1x1_1_9).toLoadRect (harg2.unread x1)) (View.readAt (Elt Ideal) arg2.view (Rect.unit (s := S3x55) ![2, 9] S1x1.size inb_S3x55_S1x1_2_9).toLoadRect (harg2.unread x1))) (fun u n => by simp only [k0_pay270_apply c arg1 harg1 arg2 harg2 x0 x1]),
    List.forall_mem_cons.2 ⟨piece_of_row x0 x1 27 9 0 rfl inb_S165x4096_S1x4096_27_0 (k0_pay269 (F := Ideal) (kernelRun0_A.sl.r_70 c arg1 harg1 x0) (kernelRun0_A.sl.r_71 c arg1 harg1 x0) (kernelRun0_A.sl.r_72 c arg1 harg1 x0) (kernelRun0_A.sl.r_79 c arg1 harg1 arg2 harg2 x0 x1) (View.readAt (Elt Ideal) arg2.view (Rect.unit (s := S3x55) ![0, 9] S1x1.size inb_S3x55_S1x1_0_9).toLoadRect (harg2.unread x1)) (View.readAt (Elt Ideal) arg2.view (Rect.unit (s := S3x55) ![1, 9] S1x1.size inb_S3x55_S1x1_1_9).toLoadRect (harg2.unread x1)) (View.readAt (Elt Ideal) arg2.view (Rect.unit (s := S3x55) ![2, 9] S1x1.size inb_S3x55_S1x1_2_9).toLoadRect (harg2.unread x1))) (fun u n => by simp only [k0_pay269_apply c arg1 harg1 arg2 harg2 x0 x1]),
    List.forall_mem_cons.2 ⟨piece_of_row x0 x1 26 8 2 rfl inb_S165x4096_S1x4096_26_0 (k0_pay243 (F := Ideal) (kernelRun0_A.sl.r_62 c arg1 harg1 x0) (kernelRun0_A.sl.r_63 c arg1 harg1 x0) (kernelRun0_A.sl.r_64 c arg1 harg1 x0) (kernelRun0_A.sl.r_67 c arg1 harg1 arg2 harg2 x0 x1) (View.readAt (Elt Ideal) arg2.view (Rect.unit (s := S3x55) ![0, 8] S1x1.size inb_S3x55_S1x1_0_8).toLoadRect (harg2.unread x1)) (View.readAt (Elt Ideal) arg2.view (Rect.unit (s := S3x55) ![1, 8] S1x1.size inb_S3x55_S1x1_1_8).toLoadRect (harg2.unread x1)) (View.readAt (Elt Ideal) arg2.view (Rect.unit (s := S3x55) ![2, 8] S1x1.size inb_S3x55_S1x1_2_8).toLoadRect (harg2.unread x1))) (fun u n => by simp only [k0_pay243_apply c arg1 harg1 arg2 harg2 x0 x1]),
    List.forall_mem_cons.2 ⟨piece_of_row x0 x1 25 8 1 rfl inb_S165x4096_S1x4096_25_0 (k0_pay242 (F := Ideal) (kernelRun0_A.sl.r_59 c arg1 harg1 x0) (kernelRun0_A.sl.r_60 c arg1 harg1 x0) (kernelRun0_A.sl.r_61 c arg1 harg1 x0) (kernelRun0_A.sl.r_66 c arg1 harg1 arg2 harg2 x0 x1) (View.readAt (Elt Ideal) arg2.view (Rect.unit (s := S3x55) ![0, 8] S1x1.size inb_S3x55_S1x1_0_8).toLoadRect (harg2.unread x1)) (View.readAt (Elt Ideal) arg2.view (Rect.unit (s := S3x55) ![1, 8] S1x1.size inb_S3x55_S1x1_1_8).toLoadRect (harg2.unread x1)) (View.readAt (Elt Ideal) arg2.view (Rect.unit (s := S3x55) ![2, 8] S1x1.size inb_S3x55_S1x1_2_8).toLoadRect (harg2.unread x1))) (fun u n => by simp only [k0_pay242_apply c arg1 harg1 arg2 harg2 x0 x1]),
    List.forall_mem_cons.2 ⟨piece_of_row x0 x1 24 8 0 rfl inb_S165x4096_S1x4096_24_0 (k0_pay241 (F := Ideal) (kernelRun0_A.sl.r_56 c arg1 harg1 x0) (kernelRun0_A.sl.r_57 c arg1 harg1 x0) (kernelRun0_A.sl.r_58 c arg1 harg1 x0) (kernelRun0_A.sl.r_65 c arg1 harg1 arg2 harg2 x0 x1) (View.readAt (Elt Ideal) arg2.view (Rect.unit (s := S3x55) ![0, 8] S1x1.size inb_S3x55_S1x1_0_8).toLoadRect (harg2.unread x1)) (View.readAt (Elt Ideal) arg2.view (Rect.unit (s := S3x55) ![1, 8] S1x1.size inb_S3x55_S1x1_1_8).toLoadRect (harg2.unread x1)) (View.readAt (Elt Ideal) arg2.view (Rect.unit (s := S3x55) ![2, 8] S1x1.size inb_S3x55_S1x1_2_8).toLoadRect (harg2.unread x1))) (fun u n => by simp only [k0_pay241_apply c arg1 harg1 arg2 harg2 x0 x1]),
    List.forall_mem_cons.2 ⟨piece_of_row x0 x1 23 7 2 rfl inb_S165x4096_S1x4096_23_0 (k0_pay215 (F := Ideal) (kernelRun0_A.sl.r_48 c arg1 harg1 x0) (kernelRun0_A.sl.r_49 c arg1 harg1 x0) (kernelRun0_A.sl.r_50 c arg1 harg1 x0) (kernelRun0_A.sl.r_53 c arg1 harg1 arg2 harg2 x0 x1) (View.readAt (Elt Ideal) arg2.view (Rect.unit (s := S3x55) ![0, 7] S1x1.size inb_S3x55_S1x1_0_7).toLoadRect (harg2.unread x1)) (View.readAt (Elt Ideal) arg2.view (Rect.unit (s := S3x55) ![1, 7] S1x1.size inb_S3x55_S1x1_1_7).toLoadRect (harg2.unread x1)) (View.readAt (Elt Ideal) arg2.view (Rect.unit (s := S3x55) ![2, 7] S1x1.size inb_S3x55_S1x1_2_7).toLoadRect (harg2.unread x1))) (fun u n => by simp only [k0_pay215_apply c arg1 harg1 arg2 harg2 x0 x1]),
    List.forall_mem_cons.2 ⟨piece_of_row x0 x1 22 7 1 rfl inb_S165x4096_S1x4096_22_0 (k0_pay214 (F := Ideal) (kernelRun0_A.sl.r_45 c arg1 harg1 x0) (kernelRun0_A.sl.r_46 c arg1 harg1 x0) (kernelRun0_A.sl.r_47 c arg1 harg1 x0) (kernelRun0_A.sl.r_52 c arg1 harg1 arg2 harg2 x0 x1) (View.readAt (Elt Ideal) arg2.view (Rect.unit (s := S3x55) ![0, 7] S1x1.size inb_S3x55_S1x1_0_7).toLoadRect (harg2.unread x1)) (View.readAt (Elt Ideal) arg2.view (Rect.unit (s := S3x55) ![1, 7] S1x1.size inb_S3x55_S1x1_1_7).toLoadRect (harg2.unread x1)) (View.readAt (Elt Ideal) arg2.view (Rect.unit (s := S3x55) ![2, 7] S1x1.size inb_S3x55_S1x1_2_7).toLoadRect (harg2.unread x1))) (fun u n => by simp only [k0_pay214_apply c arg1 harg1 arg2 harg2 x0 x1]),
    List.forall_mem_cons.2 ⟨piece_of_row x0 x1 21 7 0 rfl inb_S165x4096_S1x4096_21_0 (k0_pay213 (F := Ideal) (kernelRun0_A.sl.r_42 c arg1 harg1 x0) (kernelRun0_A.sl.r_43 c arg1 harg1 x0) (kernelRun0_A.sl.r_44 c arg1 harg1 x0) (kernelRun0_A.sl.r_51 c arg1 harg1 arg2 harg2 x0 x1) (View.readAt (Elt Ideal) arg2.view (Rect.unit (s := S3x55) ![0, 7] S1x1.size inb_S3x55_S1x1_0_7).toLoadRect (harg2.unread x1)) (View.readAt (Elt Ideal) arg2.view (Rect.unit (s := S3x55) ![1, 7] S1x1.size inb_S3x55_S1x1_1_7).toLoadRect (harg2.unread x1)) (View.readAt (Elt Ideal) arg2.view (Rect.unit (s := S3x55) ![2, 7] S1x1.size inb_S3x55_S1x1_2_7).toLoadRect (harg2.unread x1))) (fun u n => by simp only [k0_pay213_apply c arg1 harg1 arg2 harg2 x0 x1]),
    List.forall_mem_cons.2 ⟨piece_of_row x0 x1 20 6 2 rfl inb_S165x4096_S1x4096_20_0 (k0_pay187 (F := Ideal) (kernelRun0_A.sl.r_34 c arg1 harg1 x0) (kernelRun0_A.sl.r_35 c arg1 harg1 x0) (kernelRun0_A.sl.r_36 c arg1 harg1 x0) (kernelRun0_A.sl.r_39 c arg1 harg1 arg2 harg2 x0 x1) (View.readAt (Elt Ideal) arg2.view (Rect.unit (s := S3x55) ![0, 6] S1x1.size inb_S3x55_S1x1_0_6).toLoadRect (harg2.unread x1)) (View.readAt (Elt Ideal) arg2.view (Rect.unit (s := S3x55) ![1, 6] S1x1.size inb_S3x55_S1x1_1_6).toLoadRect (harg2.unread x1)) (View.readAt (Elt Ideal) arg2.view (Rect.unit (s := S3x55) ![2, 6] S1x1.size inb_S3x55_S1x1_2_6).toLoadRect (harg2.unread x1))) (fun u n => by simp only [k0_pay187_apply c arg1 harg1 arg2 harg2 x0 x1]),
    List.forall_mem_cons.2 ⟨piece_of_row x0 x1 19 6 1 rfl inb_S165x4096_S1x4096_19_0 (k0_pay186 (F := Ideal) (kernelRun0_A.sl.r_31 c arg1 harg1 x0) (kernelRun0_A.sl.r_32 c arg1 harg1 x0) (kernelRun0_A.sl.r_33 c arg1 harg1 x0) (kernelRun0_A.sl.r_38 c arg1 harg1 arg2 harg2 x0 x1) (View.readAt (Elt Ideal) arg2.view (Rect.unit (s := S3x55) ![0, 6] S1x1.size inb_S3x55_S1x1_0_6).toLoadRect (harg2.unread x1)) (View.readAt (Elt Ideal) arg2.view (Rect.unit (s := S3x55) ![1, 6] S1x1.size inb_S3x55_S1x1_1_6).toLoadRect (harg2.unread x1)) (View.readAt (Elt Ideal) arg2.view (Rect.unit (s := S3x55) ![2, 6] S1x1.size inb_S3x55_S1x1_2_6).toLoadRect (harg2.unread x1))) (fun u n => by simp only [k0_pay186_apply c arg1 harg1 arg2 harg2 x0 x1]),
    List.forall_mem_cons.2 ⟨piece_of_row x0 x1 18 6 0 rfl inb_S165x4096_S1x4096_18_0 (k0_pay185 (F := Ideal) (kernelRun0_A.sl.r_28 c arg1 harg1 x0) (kernelRun0_A.sl.r_29 c arg1 harg1 x0) (kernelRun0_A.sl.r_30 c arg1 harg1 x0) (kernelRun0_A.sl.r_37 c arg1 harg1 arg2 harg2 x0 x1) (View.readAt (Elt Ideal) arg2.view (Rect.unit (s := S3x55) ![0, 6] S1x1.size inb_S3x55_S1x1_0_6).toLoadRect (harg2.unread x1)) (View.readAt (Elt Ideal) arg2.view (Rect.unit (s := S3x55) ![1, 6] S1x1.size inb_S3x55_S1x1_1_6).toLoadRect (harg2.unread x1)) (View.readAt (Elt Ideal) arg2.view (Rect.unit (s := S3x55) ![2, 6] S1x1.size inb_S3x55_S1x1_2_6).toLoadRect (harg2.unread x1))) (fun u n => by simp only [k0_pay185_apply c arg1 harg1 arg2 harg2 x0 x1]),
    List.forall_mem_cons.2 ⟨piece_of_row x0 x1 17 5 2 rfl inb_S165x4096_S1x4096_17_0 (k0_pay159 (F := Ideal) (kernelRun0_A.sl.r_20 c arg1 harg1 x0) (kernelRun0_A.sl.r_21 c arg1 harg1 x0) (kernelRun0_A.sl.r_22 c arg1 harg1 x0) (kernelRun0_A.sl.r_25 c arg1 harg1 arg2 harg2 x0 x1) (View.readAt (Elt Ideal) arg2.view (Rect.unit (s := S3x55) ![0, 5] S1x1.size inb_S3x55_S1x1_0_5).toLoadRect (harg2.unread x1)) (View.readAt (Elt Ideal) arg2.view (Rect.unit (s := S3x55) ![1, 5] S1x1.size inb_S3x55_S1x1_1_5).toLoadRect (harg2.unread x1)) (View.readAt (Elt Ideal) arg2.view (Rect.unit (s := S3x55) ![2, 5] S1x1.size inb_S3x55_S1x1_2_5).toLoadRect (harg2.unread x1))) (fun u n => by simp only [k0_pay159_apply c arg1 harg1 arg2 harg2 x0 x1]),
    List.forall_mem_cons.2 ⟨piece_of_row x0 x1 16 5 1 rfl inb_S165x4096_S1x4096_16_0 (k0_pay158 (F := Ideal) (kernelRun0_A.sl.r_17 c arg1 harg1 x0) (kernelRun0_A.sl.r_18 c arg1 harg1 x0) (kernelRun0_A.sl.r_19 c arg1 harg1 x0) (kernelRun0_A.sl.r_24 c arg1 harg1 arg2 harg2 x0 x1) (View.readAt (Elt Ideal) arg2.view (Rect.unit (s := S3x55) ![0, 5] S1x1.size inb_S3x55_S1x1_0_5).toLoadRect (harg2.unread x1)) (View.readAt (Elt Ideal) arg2.view (Rect.unit (s := S3x55) ![1, 5] S1x1.size inb_S3x55_S1x1_1_5).toLoadRect (harg2.unread x1)) (View.readAt (Elt Ideal) arg2.view (Rect.unit (s := S3x55) ![2, 5] S1x1.size inb_S3x55_S1x1_2_5).toLoadRect (harg2.unread x1))) (fun u n => by simp only [k0_pay158_apply c arg1 harg1 arg2 harg2 x0 x1]),
    List.forall_mem_cons.2 ⟨piece_of_row x0 x1 15 5 0 rfl inb_S165x4096_S1x4096_15_0 (k0_pay157 (F := Ideal) (kernelRun0_A.sl.r_14 c arg1 harg1 x0) (kernelRun0_A.sl.r_15 c arg1 harg1 x0) (kernelRun0_A.sl.r_16 c arg1 harg1 x0) (kernelRun0_A.sl.r_23 c arg1 harg1 arg2 harg2 x0 x1) (View.readAt (Elt Ideal) arg2.view (Rect.unit (s := S3x55) ![0, 5] S1x1.size inb_S3x55_S1x1_0_5).toLoadRect (harg2.unread x1)) (View.readAt (Elt Ideal) arg2.view (Rect.unit (s := S3x55) ![1, 5] S1x1.size inb_S3x55_S1x1_1_5).toLoadRect (harg2.unread x1)) (View.readAt (Elt Ideal) arg2.view (Rect.unit (s := S3x55) ![2, 5] S1x1.size inb_S3x55_S1x1_2_5).toLoadRect (harg2.unread x1))) (fun u n => by simp only [k0_pay157_apply c arg1 harg1 arg2 harg2 x0 x1]),
    List.forall_mem_cons.2 ⟨piece_of_row x0 x1 14 4 2 rfl inb_S165x4096_S1x4096_14_0 (k0_pay131 (F := Ideal) (kernelRun0_A.sl.r_6 c arg1 harg1 x0) (kernelRun0_A.sl.r_7 c arg1 harg1 x0) (kernelRun0_A.sl.r_8 c arg1 harg1 x0) (kernelRun0_A.sl.r_11 c arg1 harg1 arg2 harg2 x0 x1) (View.readAt (Elt Ideal) arg2.view (Rect.unit (s := S3x55) ![0, 4] S1x1.size inb_S3x55_S1x1_0_4).toLoadRect (harg2.unread x1)) (View.readAt (Elt Ideal) arg2.view (Rect.unit (s := S3x55) ![1, 4] S1x1.size inb_S3x55_S1x1_1_4).toLoadRect (harg2.unread x1)) (View.readAt (Elt Ideal) arg2.view (Rect.unit (s := S3x55) ![2, 4] S1x1.size inb_S3x55_S1x1_2_4).toLoadRect (harg2.unread x1))) (fun u n => by simp only [k0_pay131_apply c arg1 harg1 arg2 harg2 x0 x1]),
    List.forall_mem_cons.2 ⟨piece_of_row x0 x1 13 4 1 rfl inb_S165x4096_S1x4096_13_0 (k0_pay130 (F := Ideal) (kernelRun0_A.sl.r_3 c arg1 harg1 x0) (kernelRun0_A.sl.r_4 c arg1 harg1 x0) (kernelRun0_A.sl.r_5 c arg1 harg1 x0) (kernelRun0_A.sl.r_10 c arg1 harg1 arg2 harg2 x0 x1) (View.readAt (Elt Ideal) arg2.view (Rect.unit (s := S3x55) ![0, 4] S1x1.size inb_S3x55_S1x1_0_4).toLoadRect (harg2.unread x1)) (View.readAt (Elt Ideal) arg2.view (Rect.unit (s := S3x55) ![1, 4] S1x1.size inb_S3x55_S1x1_1_4).toLoadRect (harg2.unread x1)) (View.readAt (Elt Ideal) arg2.view (Rect.unit (s := S3x55) ![2, 4] S1x1.size inb_S3x55_S1x1_2_4).toLoadRect (harg2.unread x1))) (fun u n => by simp only [k0_pay130_apply c arg1 harg1 arg2 harg2 x0 x1]),
    List.forall_mem_cons.2 ⟨piece_of_row x0 x1 12 4 0 rfl inb_S165x4096_S1x4096_12_0 (k0_pay129 (F := Ideal) (kernelRun0_A.sl.r c arg1 harg1 x0) (kernelRun0_A.sl.r_1 c arg1 harg1 x0) (kernelRun0_A.sl.r_2 c arg1 harg1 x0) (kernelRun0_A.sl.r_9 c arg1 harg1 arg2 harg2 x0 x1) (View.readAt (Elt Ideal) arg2.view (Rect.unit (s := S3x55) ![0, 4] S1x1.size inb_S3x55_S1x1_0_4).toLoadRect (harg2.unread x1)) (View.readAt (Elt Ideal) arg2.view (Rect.unit (s := S3x55) ![1, 4] S1x1.size inb_S3x55_S1x1_1_4).toLoadRect (harg2.unread x1)) (View.readAt (Elt Ideal) arg2.view (Rect.unit (s := S3x55) ![2, 4] S1x1.size inb_S3x55_S1x1_2_4).toLoadRect (harg2.unread x1))) (fun u n => by simp only [k0_pay129_apply c arg1 harg1 arg2 harg2 x0 x1]),
    List.forall_mem_cons.2 ⟨piece_of_row x0 x1 11 3 2 rfl inb_S165x4096_S1x4096_11_0 (k0_pay103 (F := Ideal) (kernelRun0_A.sl.v16 c arg1 harg1 x0) (kernelRun0_A.sl.v18 c arg1 harg1 x0) (kernelRun0_A.sl.v20 c arg1 harg1 x0) (kernelRun0_A.sl.v29 c arg2 harg2 x1) (View.readAt (Elt Ideal) arg2.view (Rect.unit (s := S3x55) ![0, 3] S1x1.size inb_S3x55_S1x1_0_3).toLoadRect (harg2.unread x1)) (View.readAt (Elt Ideal) arg2.view (Rect.unit (s := S3x55) ![1, 3] S1x1.size inb_S3x55_S1x1_1_3).toLoadRect (harg2.unread x1)) (View.readAt (Elt Ideal) arg2.view (Rect.unit (s := S3x55) ![2, 3] S1x1.size inb_S3x55_S1x1_2_3).toLoadRect (harg2.unread x1))) (fun u n => by simp only [k0_pay103_apply c arg1 harg1 arg2 harg2 x0 x1]),
    List.forall_mem_cons.2 ⟨piece_of_row x0 x1 10 3 1 rfl inb_S165x4096_S1x4096_10_0 (k0_pay102 (F := Ideal) (kernelRun0_A.sl.v10 c arg1 harg1 x0) (kernelRun0_A.sl.v12 c arg1 harg1 x0) (kernelRun0_A.sl.v14 c arg1 harg1 x0) (kernelRun0_A.sl.v26 c arg2 harg2 x1) (View.readAt (Elt Ideal) arg2.view (Rect.unit (s := S3x55) ![0, 3] S1x1.size inb_S3x55_S1x1_0_3).toLoadRect (harg2.unread x1)) (View.readAt (Elt Ideal) arg2.view (Rect.unit (s := S3x55) ![1, 3] S1x1.size inb_S3x55_S1x1_1_3).toLoadRect (harg2.unread x1)) (View.readAt (Elt Ideal) arg2.view (Rect.unit (s := S3x55) ![2, 3] S1x1.size inb_S3x55_S1x1_2_3).toLoadRect (harg2.unread x1))) (fun u n => by simp only [k0_pay102_apply c arg1 harg1 arg2 harg2 x0 x1]),
    List.forall_mem_cons.2 ⟨piece_of_row x0 x1 9 3 0 rfl inb_S165x4096_S1x4096_9_0 (k0_pay101 (F := Ideal) (kernelRun0_A.sl.v4 c arg1 harg1 x0) (kernelRun0_A.sl.v6 c arg1 harg1 x0) (kernelRun0_A.sl.v8 c arg1 harg1 x0) (kernelRun0_A.sl.v23 c arg2 harg2 x1) (View.readAt (Elt Ideal) arg2.view (Rect.unit (s := S3x55) ![0, 3] S1x1.size inb_S3x55_S1x1_0_3).toLoadRect (harg2.unread x1)) (View.readAt (Elt Ideal) arg2.view (Rect.unit (s := S3x55) ![1, 3] S1x1.size inb_S3x55_S1x1_1_3).toLoadRect (harg2.unread x1)) (View.readAt (Elt Ideal) arg2.view (Rect.unit (s := S3x55) ![2, 3] S1x1.size inb_S3x55_S1x1_2_3).toLoadRect (harg2.unread x1))) (fun u n => by simp only [k0_pay101_apply c arg1 harg1 arg2 harg2 x0 x1]),
    List.forall_mem_cons.2 ⟨piece_of_row x0 x1 8 2 2 rfl inb_S165x4096_S1x4096_8_0 (k0_pay75 (F := Ideal) (kernelRun0_A.sl.v16 c arg1 harg1 x0) (kernelRun0_A.sl.v18 c arg1 harg1 x0) (kernelRun0_A.sl.v20 c arg1 harg1 x0) (kernelRun0_A.sl.v29 c arg2 harg2 x1) (View.readAt (Elt Ideal) arg2.view (Rect.unit (s := S3x55) ![0, 2] S1x1.size inb_S3x55_S1x1_0_2).toLoadRect (harg2.unread x1)) (View.readAt (Elt Ideal) arg2.view (Rect.unit (s := S3x55) ![1, 2] S1x1.size inb_S3x55_S1x1_1_2).toLoadRect (harg2.unread x1)) (View.readAt (Elt Ideal) arg2.view (Rect.unit (s := S3x55) ![2, 2] S1x1.size inb_S3x55_S1x1_2_2).toLoadRect (harg2.unread x1))) (fun u n => by simp only [k0_pay75_apply c arg1 harg1 arg2 harg2 x0 x1]),
    List.forall_mem_cons.2 ⟨piece_of_row x0 x1 7 2 1 rfl inb_S165x4096_S1x4096_7_0 (k0_pay74 (F := Ideal) (kernelRun0_A.sl.v10 c arg1 harg1 x0) (kernelRun0_A.sl.v12 c arg1 harg1 x0) (kernelRun0_A.sl.v14 c arg1 harg1 x0) (kernelRun0_A.sl.v26 c arg2 harg2 x1) (View.readAt (Elt Ideal) arg2.view (Rect.unit (s := S3x55) ![0, 2] S1x1.size inb_S3x55_S1x1_0_2).toLoadRect (harg2.unread x1)) (View.readAt (Elt Ideal) arg2.view (Rect.unit (s := S3x55) ![1, 2] S1x1.size inb_S3x55_S1x1_1_2).toLoadRect (harg2.unread x1)) (View.readAt (Elt Ideal) arg2.view (Rect.unit (s := S3x55) ![2, 2] S1x1.size inb_S3x55_S1x1_2_2).toLoadRect (harg2.unread x1))) (fun u n => by simp only [k0_pay74_apply c arg1 harg1 arg2 harg2 x0 x1]),
    List.forall_mem_cons.2 ⟨piece_of_row x0 x1 6 2 0 rfl inb_S165x4096_S1x4096_6_0 (k0_pay73 (F := Ideal) (kernelRun0_A.sl.v4 c arg1 harg1 x0) (kernelRun0_A.sl.v6 c arg1 harg1 x0) (kernelRun0_A.sl.v8 c arg1 harg1 x0) (kernelRun0_A.sl.v23 c arg2 harg2 x1) (View.readAt (Elt Ideal) arg2.view (Rect.unit (s := S3x55) ![0, 2] S1x1.size inb_S3x55_S1x1_0_2).toLoadRect (harg2.unread x1)) (View.readAt (Elt Ideal) arg2.view (Rect.unit (s := S3x55) ![1, 2] S1x1.size inb_S3x55_S1x1_1_2).toLoadRect (harg2.unread x1)) (View.readAt (Elt Ideal) arg2.view (Rect.unit (s := S3x55) ![2, 2] S1x1.size inb_S3x55_S1x1_2_2).toLoadRect (harg2.unread x1))) (fun u n => by simp only [k0_pay73_apply c arg1 harg1 arg2 harg2 x0 x1]),
    List.forall_mem_cons.2 ⟨piece_of_row x0 x1 5 1 2 rfl inb_S165x4096_S1x4096_5_0 (k0_pay47 (F := Ideal) (kernelRun0_A.sl.v16 c arg1 harg1 x0) (kernelRun0_A.sl.v18 c arg1 harg1 x0) (kernelRun0_A.sl.v20 c arg1 harg1 x0) (kernelRun0_A.sl.v29 c arg2 harg2 x1) (View.readAt (Elt Ideal) arg2.view (Rect.unit (s := S3x55) ![0, 1] S1x1.size inb_S3x55_S1x1_0_1).toLoadRect (harg2.unread x1)) (View.readAt (Elt Ideal) arg2.view (Rect.unit (s := S3x55) ![1, 1] S1x1.size inb_S3x55_S1x1_1_1).toLoadRect (harg2.unread x1)) (View.readAt (Elt Ideal) arg2.view (Rect.unit (s := S3x55) ![2, 1] S1x1.size inb_S3x55_S1x1_2_1).toLoadRect (harg2.unread x1))) (fun u n => by simp only [k0_pay47_apply c arg1 harg1 arg2 harg2 x0 x1]),
    List.forall_mem_cons.2 ⟨piece_of_row x0 x1 4 1 1 rfl inb_S165x4096_S1x4096_4_0 (k0_pay46 (F := Ideal) (kernelRun0_A.sl.v10 c arg1 harg1 x0) (kernelRun0_A.sl.v12 c arg1 harg1 x0) (kernelRun0_A.sl.v14 c arg1 harg1 x0) (kernelRun0_A.sl.v26 c arg2 harg2 x1) (View.readAt (Elt Ideal) arg2.view (Rect.unit (s := S3x55) ![0, 1] S1x1.size inb_S3x55_S1x1_0_1).toLoadRect (harg2.unread x1)) (View.readAt (Elt Ideal) arg2.view (Rect.unit (s := S3x55) ![1, 1] S1x1.size inb_S3x55_S1x1_1_1).toLoadRect (harg2.unread x1)) (View.readAt (Elt Ideal) arg2.view (Rect.unit (s := S3x55) ![2, 1] S1x1.size inb_S3x55_S1x1_2_1).toLoadRect (harg2.unread x1))) (fun u n => by simp only [k0_pay46_apply c arg1 harg1 arg2 harg2 x0 x1]),
    List.forall_mem_cons.2 ⟨piece_of_row x0 x1 3 1 0 rfl inb_S165x4096_S1x4096_3_0 (k0_pay45 (F := Ideal) (kernelRun0_A.sl.v4 c arg1 harg1 x0) (kernelRun0_A.sl.v6 c arg1 harg1 x0) (kernelRun0_A.sl.v8 c arg1 harg1 x0) (kernelRun0_A.sl.v23 c arg2 harg2 x1) (View.readAt (Elt Ideal) arg2.view (Rect.unit (s := S3x55) ![0, 1] S1x1.size inb_S3x55_S1x1_0_1).toLoadRect (harg2.unread x1)) (View.readAt (Elt Ideal) arg2.view (Rect.unit (s := S3x55) ![1, 1] S1x1.size inb_S3x55_S1x1_1_1).toLoadRect (harg2.unread x1)) (View.readAt (Elt Ideal) arg2.view (Rect.unit (s := S3x55) ![2, 1] S1x1.size inb_S3x55_S1x1_2_1).toLoadRect (harg2.unread x1))) (fun u n => by simp only [k0_pay45_apply c arg1 harg1 arg2 harg2 x0 x1]),
    List.forall_mem_cons.2 ⟨piece_of_row x0 x1 2 0 2 rfl inb_S165x4096_S1x4096_2_0 (kernelRun0_A.sl.v38 c arg2 harg2 x1) (fun u n => by simp only [v38_apply c arg1 harg1 arg2 harg2 x0 x1]),
    List.forall_mem_cons.2 ⟨piece_of_row x0 x1 1 0 1 rfl inb_S165x4096_S1x4096_1_0 (kernelRun0_A.sl.v35 c arg2 harg2 x1) (fun u n => by simp only [v35_apply c arg1 harg1 arg2 harg2 x0 x1]),
    List.forall_mem_cons.2 ⟨piece_of_row x0 x1 0 0 0 rfl inb_S165x4096_S1x4096_0_0 (kernelRun0_A.sl.v32 c arg2 harg2 x1) (fun u n => by simp only [v32_apply c arg1 harg1 arg2 harg2 x0 x1]),
    (fun _ h => nomatch h)⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.KernelIdeal.Body

end
-- ==== Proof.KernelBody.lean ====
import proofs.«163241_j18760417149409_2_alg».proof.Proof.KernelBodyTable

/-!
  The kernel body's value.

  One launch of the body maps a block of 4096 samples' rotations and the table of local offsets to the samples' posed
  joints: every row the body stores into its scratch is a coordinate of a joint's global position across the lanes
  (`rows_eq`, joint by joint along the tree), and the block it writes back is the scratch transposed (`out_of_pieces`).
-/

noncomputable section

open Idealize.ShloMosaic Idealize.ShloMosaic.TcCoe Idealize.SL.Sem

namespace Cert.KernelIdeal.Body

open Cert.KernelIdeal Cert.KernelIdeal.Gen

/-- What the body leaves in its output block: at sample `n`, column `3 j + r`, coordinate `r` of joint `j`'s global
    position for the rotations in row `n` of the block. -/
theorem out_eq (c : Dev nD) (i : grid0.Coords) (arg1 : Memref sig .tc .vmem S4096x198 .f32) (harg1 : arg1.IsWhole) (arg2 : Memref sig .tc .vmem S3x55 .f32) (harg2 : arg2.IsWhole) (arg3 : Memref sig .tc .vmem S4096x165 .f32) (harg3 : arg3.IsWhole) (arg4 : Memref sig .tc .vmem S165x4096 .f32) (harg4 : arg4.IsWhole) (x0 : Vec Ideal S4096x198 .f32) (x1 : Vec Ideal S3x55 .f32) :
    Cert.KernelIdeal.Gen.out0_A_2 (F := Ideal) c i arg1 harg1 arg2 harg2 arg3 harg3 arg4 harg4 x0 x1 = Cert.Chain.bodySpec x0 x1 :=
  out_of_pieces c i arg1 harg1 arg2 harg2 arg3 harg3 arg4 harg4 x0 x1 (rows_eq c arg1 harg1 arg2 harg2 x0 x1)

end Cert.KernelIdeal.Body

end
-- ==== Proof.KernelSpec.lean ====
/-
  The kernel program's whole output, before its last reshape, as one function of the two argument arrays, and two
  facts about the kinematic chain that relate it to what one block of samples is mapped to.

  Joint `j`'s global transform is built from the local rotations and offsets of `j` and of its ancestors only, all
  of which come before `j`; so two chains whose local rotations and local offsets agree up to joint `j` agree at
  joint `j`.  The local rotation of a joint is the given matrix only for the first 22 joints, so the given matrices
  need to agree only there.
-/
import proofs.«163241_j18760417149409_2_alg».proof.Proof.Chain

noncomputable section

namespace Cert.KernelIdeal.KValue

open Idealize.ShloMosaic Idealize.ShloMosaic.ValueIdx Cert.Chain

/-- Local rotations that are given by the same matrices on the first 22 joints are the same. -/
theorem rot_congr {M M' : ℕ → Fin 3 → Fin 3 → EReal} (h : ∀ j, j < 22 → ∀ a b, M j a b = M' j a b) (j : ℕ) :
    rot M j = rot M' j := by
  funext a b
  unfold rot
  by_cases hj : j < 22
  · rw [if_pos hj, if_pos hj]; exact h j hj a b
  · rw [if_neg hj, if_neg hj]

/-- The chain at joint `j` depends on the local rotations and offsets of the joints up to `j` only. -/
theorem glob_congr {M M' : ℕ → Fin 3 → Fin 3 → EReal} {L L' : ℕ → Fin 3 → EReal} (j : ℕ)
    (hM : ∀ j', j' ≤ j → rot M j' = rot M' j') (hL : ∀ j', j' ≤ j → L j' = L' j') :
    glob M L j = glob M' L' j := by
  induction j using Nat.strong_induction_on with
  | _ j ih =>
    cases j with
    | zero => rw [glob_zero, glob_zero, hM 0 le_rfl, hL 0 le_rfl]
    | succ j =>
      have hp := parent_lt j
      have ihp := ih (parent (j + 1)) hp (fun j' h => hM j' (by omega)) (fun j' h => hL j' (by omega))
      rw [glob_succ, glob_succ, ihp, hM (j + 1) le_rfl, hL (j + 1) le_rfl]

/-- The output of the one region, `[32768, 165]`: row `n` is sample `n = 2048 b + t`, column `3 j + r` is
    coordinate `r` of joint `j`'s global position. -/
def outSpec (x : SMotion.Idx → EReal) (y : SRest.Idx → EReal) : (⟨2, ![32768, 165]⟩ : Shape).Idx → EReal := fun i =>
  (glob (motionAtN x (i 0)) (rel (restAt y)) ((i 1).val / 3)).2 ⟨(i 1).val % 3, Nat.mod_lt _ (by norm_num)⟩

/-- Read at row `2048 b + t` and column `3 j + r`, it is the posed joints at `(b, t, j, r)`. -/
theorem outSpec_apply (x : SMotion.Idx → EReal) (y : SRest.Idx → EReal) (b : Fin 16) (t : Fin 2048) (j : Fin 55) (r : Fin 3)
    (n : Fin 32768) (q : Fin 165) (hn : n.val = 2048 * b.val + t.val) (hq : q.val = 3 * j.val + r.val) :
    outSpec x y (ix2 n q) = posed x y (ix4 b t j r) := by
  rw [posed_apply]
  show (glob (motionAtN x n) (rel (restAt y)) (q.val / 3)).2 ⟨q.val % 3, _⟩ = _
  have hb := b.isLt; have ht := t.isLt; have hj := j.isLt; have hr := r.isLt
  have e1 : q.val / 3 = j.val := by omega
  have e2 : (⟨q.val % 3, Nat.mod_lt _ (by norm_num)⟩ : Fin 3) = r := Fin.ext (by show q.val % 3 = r.val; omega)
  have e3 : motionAtN x n = motionAt x b t := by
    unfold motionAtN
    congr 1
    · exact Fin.ext (by show n.val / 2048 = b.val; omega)
    · exact Fin.ext (by show n.val % 2048 = t.val; omega)
  rw [e1, e2, e3]

end Cert.KernelIdeal.KValue

end
-- ==== Proof.LibRowGather.lean ====
/-
  A row gather read at an index.

  Indexing the rows of a table `x : [N, K]` by an integer array `idx : [E]` — what `x[idx]` is for a matrix `x` —
  is a gather with one collapsed axis (the rows), one offset axis (the columns), slices of one whole row, and the
  start indices carried as `[E, 1]`. Result entry `(e, k)` is the table's entry `(r, k)` where `r` is the start index
  `idx[e, 0]`, read as a signed integer and clamped into `[0, N - 1]`: a gather clamps every start index so that
  its slice stays inside the operand, so every result entry IS an entry of the table, whatever the indices are.

  Generic in the extents and in the element type; nothing mentions a program.
-/
import Idealize.ShloMosaic.Lib.ValueIdx

noncomputable section

namespace Cert.Lib.RowGather

open Idealize.ShloMosaic Idealize.ShloMosaic.ValueIdx

variable {α : Type}

/-- The dimension numbers of a row gather: operand `[N, K]`, start indices `[E, 1]`, result `[E, K]`; the rows
    collapsed, the columns the offset axis, one whole row per slice. Their conditions `wf` are decided on literal
    extents. -/
abbrev rowGatherDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The start-indices index `[e, 0]` that result row `e` reads. -/
abbrev rowIdx {E K : Nat} (y : (⟨2, ![E, K]⟩ : Shape).Idx) : (⟨2, ![E, 1]⟩ : Shape).Idx :=
  ix2 (⟨(y 0).val, idx2_lt0 y⟩ : Fin E) (⟨0, Nat.one_pos⟩ : Fin 1)

/-- THE ROW GATHER READ AT `(e, k)`: the table at row `idx[e, 0]` (read signed, clamped into `[0, N - 1]`) and
    column `k`. -/
theorem row_gather_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (y : (⟨2, ![E, K]⟩ : Shape).Idx) :
    Host.gather (rowGatherDims N E K wf) x idx y
      = x (ix2 (⟨min (idx (rowIdx y)).toInt.toNat (N - 1), by omega⟩ : Fin N) (⟨(y 1).val, idx2_lt1 y⟩ : Fin K)) := by
  unfold Host.gather
  congr 1
  funext a
  refine Fin.ext ?_
  show (rowGatherDims N E K wf).start y idx a + (rowGatherDims N E K wf).batchCoord y a
    + (rowGatherDims N E K wf).offCoord y a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    split
    · rename_i ha
      have hsi : (rowGatherDims N E K wf).siIdx y ⟨List.idxOf (⟨0, h0⟩ : Fin 2) (rowGatherDims N E K wf).startIndexMap,
          List.idxOf_lt_length_iff.2 ha⟩ = rowIdx y := by
        funext b; refine Fin.ext ?_
        match b with
        | ⟨0, _⟩ => rfl
        | ⟨1, _⟩ => rfl
      rw [hsi]
      rfl
    · rename_i ha
      exact absurd (List.mem_singleton.mpr rfl) ha
  | ⟨1, h1⟩ =>
    have hs : (rowGatherDims N E K wf).start y idx ⟨1, h1⟩ = 0 := by
      unfold GatherDims.start
      split
      · rename_i ha
        exact absurd (congrArg Fin.val (List.mem_singleton.mp ha) : (1 : ℕ) = 0) Nat.one_ne_zero
      · rfl
    have ho : (rowGatherDims N E K wf).offCoord y ⟨1, h1⟩ = (y 1).val := by
      unfold GatherDims.offCoord
      split
      · rfl
      · rename_i ha
        exact absurd ((GatherDims.mem_sKept _ _).mpr
          ⟨fun hm => absurd (congrArg Fin.val (List.mem_singleton.mp hm) : (1 : ℕ) = 0) Nat.one_ne_zero, List.not_mem_nil⟩) ha
    rw [hs, ho, Nat.zero_add]

/-! ## The accumulating row scatter read at an index

The adjoint operation: rows `upd : [E, K]` added into a table `x : [N, K]` at the rows an integer array
`idx : [E, 1]` names. Update entry `(e, k)` lands on table entry `(r, k)` with `r = idx[e, 0]` read as a signed
integer and NOT clamped: when `r` is outside `[0, N)` the update is dropped. On the extended reals the result at
`(n, k)` is therefore the table's entry plus the sum of `upd (e, k)` over the rows `e` whose index is `n`. -/

/-- The dimension numbers of a row scatter: operand `[N, K]`, scatter indices `[E, 1]`, updates `[E, K]`; the
    columns the window axis, the rows inserted. -/
abbrev rowScatterDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

section RowScatter

variable {N E K w : Nat} (wf : ScatterDims.WF ⟨2, ![N, K]⟩ ⟨2, ![E, 1]⟩ ⟨2, ![E, K]⟩ [1] [0] [0] 1)
  (idx : IVec ⟨2, ![E, 1]⟩ w) (j : (⟨2, ![E, K]⟩ : Shape).Idx)

/-- On the row axis the window starts at the update row's index, read signed. -/
theorem rowScatter_start0 : (rowScatterDims N E K wf).start j idx (0 : Fin 2) = (idx (rowIdx j)).toInt := by
  unfold ScatterDims.start
  split
  · rename_i ha
    have hsi : (rowScatterDims N E K wf).siIdx j ⟨List.idxOf (0 : Fin 2) (rowScatterDims N E K wf).scatterDimsToOperandDims,
        List.idxOf_lt_length_iff.2 ha⟩ = rowIdx j := by
      funext b; refine Fin.ext ?_
      match b with
      | ⟨0, _⟩ => rfl
      | ⟨1, _⟩ => rfl
    rw [hsi]
  · rename_i ha
    exact absurd (List.mem_singleton.mpr rfl) ha

/-- On the column axis the window starts at zero. -/
theorem rowScatter_start1 : (rowScatterDims N E K wf).start j idx (1 : Fin 2) = 0 := by
  unfold ScatterDims.start
  split
  · rename_i ha
    exact absurd (congrArg Fin.val (List.mem_singleton.mp ha) : (1 : ℕ) = 0) Nat.one_ne_zero
  · rfl

/-- The row axis is inserted: no window coordinate. -/
theorem rowScatter_window0 : (rowScatterDims N E K wf).window j (0 : Fin 2) = 0 := by
  unfold ScatterDims.window
  split
  · rename_i ha
    have : (0 : Fin 2) ∉ (rowScatterDims N E K wf).insertedWindowDims := by
      simpa [ScatterDims.sKept, Shape.kept, List.mem_filter] using ha
    exact absurd (List.mem_singleton.mpr rfl) this
  · rfl

/-- The column axis is the window: the update's column. -/
theorem rowScatter_window1 : (rowScatterDims N E K wf).window j (1 : Fin 2) = (j 1).val := by
  unfold ScatterDims.window
  split
  · rfl
  · rename_i ha
    refine absurd ?_ ha
    simp [ScatterDims.sKept, Shape.kept, List.mem_filter, List.mem_finRange]

/-- WHERE AN UPDATE LANDS: update entry `j = (e, k)` lands on table entry `i = (n, k')` exactly when its row's index,
    read signed, is `n` and `k = k'`; an index outside `[0, N)` lands nowhere. -/
theorem rowScatter_resultIdx?_eq_some_iff (i : (⟨2, ![N, K]⟩ : Shape).Idx) :
    (rowScatterDims N E K wf).resultIdx? j idx = some i
      ↔ (idx (rowIdx j)).toInt = ((i 0).val : ℤ) ∧ (j 1).val = (i 1).val := by
  have hi0 : (i 0).val < N := idx2_lt0 i
  have hj1 : (j 1).val < K := idx2_lt1 j
  unfold ScatterDims.resultIdx?
  split
  · rename_i h
    have h0 := h 0
    rw [rowScatter_start0, rowScatter_window0] at h0
    constructor
    · intro he
      have he' := congrFun (Option.some.inj he)
      have e0 := congrArg Fin.val (he' 0)
      have e1 := congrArg Fin.val (he' 1)
      simp only [rowScatter_start0, rowScatter_window0, rowScatter_start1, rowScatter_window1] at e0 e1
      refine ⟨by omega, by omega⟩
    · rintro ⟨e0, e1⟩
      refine congrArg some (funext fun a => Fin.ext ?_)
      match a with
      | ⟨0, _⟩ =>
        show ((rowScatterDims N E K wf).start j idx (0 : Fin 2) + ((rowScatterDims N E K wf).window j (0 : Fin 2) : ℤ)).toNat = (i 0).val
        rw [rowScatter_start0, rowScatter_window0, e0]; simp
      | ⟨1, _⟩ =>
        show ((rowScatterDims N E K wf).start j idx (1 : Fin 2) + ((rowScatterDims N E K wf).window j (1 : Fin 2) : ℤ)).toNat = (i 1).val
        rw [rowScatter_start1, rowScatter_window1, ← e1]; simp
  · rename_i h
    constructor
    · intro he; exact absurd he (by simp)
    · rintro ⟨e0, e1⟩
      refine absurd (fun a => ?_) h
      match a with
      | ⟨0, _⟩ =>
        show 0 ≤ (rowScatterDims N E K wf).start j idx (0 : Fin 2) + ((rowScatterDims N E K wf).window j (0 : Fin 2) : ℤ)
          ∧ (rowScatterDims N E K wf).start j idx (0 : Fin 2) + ((rowScatterDims N E K wf).window j (0 : Fin 2) : ℤ) < (N : ℤ)
        rw [rowScatter_start0, rowScatter_window0, e0]
        constructor <;> omega
      | ⟨1, _⟩ =>
        show 0 ≤ (rowScatterDims N E K wf).start j idx (1 : Fin 2) + ((rowScatterDims N E K wf).window j (1 : Fin 2) : ℤ)
          ∧ (rowScatterDims N E K wf).start j idx (1 : Fin 2) + ((rowScatterDims N E K wf).window j (1 : Fin 2) : ℤ) < (K : ℤ)
        rw [rowScatter_start1, rowScatter_window1]
        constructor <;> omega

/-- The start-indices index of an update entry depends on its row only. -/
theorem rowIdx_ix2 (e : Fin E) (k : Fin K) : rowIdx (ix2 e k) = ix2 e (⟨0, Nat.one_pos⟩ : Fin 1) := rfl

/-- THE ACCUMULATING ROW SCATTER READ AT `(n, k)`, on the extended reals: the table's entry plus the sum, over the
    update rows `e` whose index (read signed) is `n`, of the update's entry `(e, k)`. Rows whose index is outside
    `[0, N)` contribute nowhere. -/
theorem rowScatterAdd_apply (x : (⟨2, ![N, K]⟩ : Shape).Idx → EReal) (upd : (⟨2, ![E, K]⟩ : Shape).Idx → EReal)
    (i : (⟨2, ![N, K]⟩ : Shape).Idx) :
    Ideal.hostScatterAdd (rowScatterDims N E K wf) x idx upd i
      = x i + ∑ e : Fin E, if (idx (ix2 e (⟨0, Nat.one_pos⟩ : Fin 1))).toInt = ((i 0).val : ℤ)
          then upd (ix2 e (⟨(i 1).val, idx2_lt1 i⟩ : Fin K)) else 0 := by
  unfold Ideal.hostScatterAdd
  congr 1
  rw [Finset.sum_filter, sum_idx2]
  refine Finset.sum_congr rfl fun e _ => ?_
  simp only [rowScatter_resultIdx?_eq_some_iff, rowIdx_ix2]
  by_cases hv : (idx (ix2 e (⟨0, Nat.one_pos⟩ : Fin 1))).toInt = ((i 0).val : ℤ)
  · rw [if_pos hv, Finset.sum_eq_single (⟨(i 1).val, idx2_lt1 i⟩ : Fin K)]
    · exact if_pos ⟨hv, rfl⟩
    · intro k _ hk
      exact if_neg fun h => hk (Fin.ext h.2)
    · intro h; exact absurd (Finset.mem_univ _) h
  · rw [if_neg hv]
    exact Finset.sum_eq_zero fun k _ => if_neg fun h => hv h.1

end RowScatter

end Cert.Lib.RowGather

end
-- ==== Proof.KernelHost.lean ====
/-
  The two arrays the one region reads, as functions of the program's arguments.

  Before the region the program flattens the rotations `[16, 2048, 22, 3, 3]` to `[32768, 198]`: row
  `n = 2048 b + t` is sample `(b, t)`, column `9 j + 3 a + c` is entry `(a, c)` of joint `j`'s matrix.  From the
  rest positions `J : [55, 3]` it builds the table of local offsets, transposed to `[3, 55]`: row 0 of `J` as it is,
  and under it rows 1 … 54 of `J` minus the rows of `J` gathered at the parents of joints 1 … 54; the parents come
  from a literal table (behind a select on an all-false mask, which returns the table itself).  Column `j` of the
  result is joint `j`'s local offset: its rest position for the root, its rest position minus its parent's otherwise.
-/
import proofs.«163241_j18760417149409_2_alg».proof.Proof.Gen.KernelIdeal.Frame
import proofs.«163241_j18760417149409_2_alg».proof.Proof.Chain
import proofs.«163241_j18760417149409_2_alg».proof.Proof.LibRowGather
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.KValue

open Cert.KernelIdeal Cert.KernelIdeal.Gen Cert.Chain

/-! ## The table of local offsets -/

/-- The start indices of the gather: the literal table of parents, selected under an all-false mask against the table
    shifted by 55, and carried as `[54, 1]`. -/
def parentIdx : IVec S54x1 32 :=
  broadcastInDim S54x1 ![0] bcast_S54_S54x1_0
    (select (constantI S54 1 0#1)
      (addi (fun i => lit0 (S54.rowMajor i)) (broadcastInDim S54 ![] bcast_S_S54 (constantI S_ 32 55#32)))
      fun i => lit0 (S54.rowMajor i))

/-- Entry `e` of the start indices is entry `e` of the literal table. -/
theorem parentIdx_apply (e : Fin 54) : parentIdx (ix2 e (⟨0, Nat.one_pos⟩ : Fin 1)) = lit0 e := by
  unfold parentIdx
  refine (broadcastInDim_apply _ _ _ (ix2 e (⟨0, Nat.one_pos⟩ : Fin 1)) (ix1 e) ?_).trans ?_
  · intro a
    match a with
    | ⟨0, _⟩ => rfl
  rw [select_apply]
  show Scalar.select 0#1 _ _ = _
  rw [select_zero]
  exact congrArg lit0 (Fin.ext (Shape.rowMajor_val_one _))

/-- The literal table lists the parents of joints 1 … 54: entry `e`, read as a signed integer and clamped to the rows
    of `J`, is the parent of joint `e + 1`. -/
theorem lit0_parent : ∀ e : Fin 54, min (lit0 e).toInt.toNat (55 - 1) = parent (e.val + 1) := by
  decide +kernel

/-- The table of local offsets as the host operations before the region compute it from the rest positions. -/
def offTable (y : S55x3.Idx → EReal) : S3x55.Idx → EReal :=
  transpose S3x55 [1, 0]
    (concatenate S55x3 0
      [⟨S1x3, extractStridedSlice S1x3 ![0, 0] y slices_S55x3_S1x3_0_0⟩,
        ⟨S54x3, subf (F := Ideal) (φ := .f32) (extractStridedSlice S54x3 ![1, 0] y slices_S55x3_S54x3_1_0)
          (Host.gather gather_S55x3_S54x1_S54x3_1_0_n_n_0_1_13 y parentIdx)⟩]
      concatenates_S1x3_S54x3_S55x3_d0)
    transposes_S55x3_S3x55_1_0

/-- Row `e` of the gathered rows is the rest position of the parent of joint `e + 1`. -/
theorem gather_apply (y : S55x3.Idx → EReal) (e : Fin 54) (k : Fin 3) (hp : parent (e.val + 1) < 55) :
    Host.gather gather_S55x3_S54x1_S54x3_1_0_n_n_0_1_13 y parentIdx (ix2 e k) = y (ix2 ⟨parent (e.val + 1), hp⟩ k) := by
  refine (Cert.Lib.RowGather.row_gather_apply (N := 55) (E := 54) (K := 3) (by norm_num)
    gather_S55x3_S54x1_S54x3_1_0_n_n_0_1_13_wf y parentIdx (ix2 e k)).trans ?_
  refine congrArg y (funext fun a => Fin.ext ?_)
  match a with
  | ⟨0, _⟩ =>
    show min (parentIdx (ix2 e (⟨0, Nat.one_pos⟩ : Fin 1))).toInt.toNat (55 - 1) = parent (e.val + 1)
    rw [parentIdx_apply]
    exact lit0_parent e
  | ⟨1, _⟩ => rfl

/-- Column `j` of the table is joint `j`'s local offset. -/
theorem offTable_apply (y : S55x3.Idx → EReal) (k : Fin 3) (j : Fin 55) :
    offTable y (ix2 k j) = rel (restAt y) j.val k := by
  unfold offTable
  refine (transpose_apply [1, 0] _ _ (ix2 k j) (ix2 j k) ?_).trans ?_
  · intro b
    match b with
    | ⟨0, _⟩ => rfl
    | ⟨1, _⟩ => rfl
  by_cases hj : j.val = 0
  · obtain rfl : j = (⟨0, by norm_num⟩ : Fin 55) := Fin.ext hj
    refine (concatenate_pair_apply_left (t := S55x3) (s₁ := S1x3) (s₂ := S54x3) (0 : Fin 2) _ _ _ (ix2 (⟨0, by norm_num⟩ : Fin 55) k) rfl (ix2 (⟨0, Nat.one_pos⟩ : Fin 1) k) ?_).trans ?_
    · intro b
      match b with
      | ⟨0, _⟩ => rfl
      | ⟨1, _⟩ => rfl
    refine (extractStridedSlice_apply _ _ _ (ix2 (⟨0, Nat.one_pos⟩ : Fin 1) k) (ix2 (⟨0, by norm_num⟩ : Fin 55) k) ?_).trans ?_
    · intro a
      match a with
      | ⟨0, _⟩ => rfl
      | ⟨1, _⟩ => show k.val = 0 + k.val; omega
    unfold rel restAt
    rw [if_pos rfl, dif_pos (by norm_num)]
  · have hj55 := j.isLt
    obtain ⟨e, he⟩ : ∃ e : Fin 54, j.val = e.val + 1 := ⟨⟨j.val - 1, by omega⟩, by show j.val = j.val - 1 + 1; omega⟩
    have hp : parent (e.val + 1) < 55 := by have := parent_lt e.val; have := e.isLt; omega
    refine (concatenate_pair_apply_right (t := S55x3) (s₁ := S1x3) (s₂ := S54x3) (0 : Fin 2) _ _ _ (ix2 j k) rfl rfl (ix2 e k) ?_ ?_).trans ?_
    · intro b hb
      match b with
      | ⟨0, _⟩ => exact absurd rfl hb
      | ⟨1, _⟩ => rfl
    · show e.val + 1 = j.val; omega
    rw [subf_apply, gather_apply y e k hp]
    have h2 : extractStridedSlice S54x3 ![1, 0] y slices_S55x3_S54x3_1_0 (ix2 e k) = y (ix2 j k) :=
      extractStridedSlice_apply _ _ _ (ix2 e k) (ix2 j k) fun a => by
        match a with
        | ⟨0, _⟩ => show j.val = 1 + e.val; omega
        | ⟨1, _⟩ => show k.val = 0 + k.val; omega
    rw [h2]
    unfold rel restAt
    rw [if_neg hj, dif_pos hj55, dif_pos (by rw [he]; exact hp)]
    congr 2
    exact congrArg (fun r => ix2 r k) (Fin.ext (by show parent (e.val + 1) = parent j.val; rw [he]))

/-! ## The two arrays as the region finds them -/

variable (m : (ℓ : Loc nD τ sig) → Buf (Elt Ideal) ℓ)

/-- The first window's array is the rotations, reshaped. -/
theorem v0_eq (c : Dev nD) : (V m c main_v0 : S32768x198.Idx → EReal)
    = shapeCast S32768x198 (m ((c : Thread nD τ).loc main_arg0)) shapeCasts_S16x2048x22x3x3_S32768x198 := by
  show StableHlo.after hostOps0 (fun b => m (c, b)) (Proc.devRef .tc main_v0) = _
  after_results
  rfl

/-- Row `2048 b + t`, column `9 j + 3 a + d` of it is entry `(a, d)` of joint `j`'s matrix in sample `(b, t)`. -/
theorem v0_apply (c : Dev nD) (n : Fin 32768) (q : Fin 198) (b : Fin 16) (t : Fin 2048) (j : Fin 22) (a d : Fin 3)
    (hn : n.val = 2048 * b.val + t.val) (hq : q.val = 9 * j.val + 3 * a.val + d.val) :
    (V m c main_v0 : S32768x198.Idx → EReal) (ix2 n q)
      = (m ((c : Thread nD τ).loc main_arg0) : S16x2048x22x3x3.Idx → EReal) (ix5 b t j a d) := by
  rw [v0_eq]
  refine shapeCast_apply _ _ (ix2 n q) (ix5 b t j a d) ?_
  rw [Shape.rowMajor_val_five, Shape.rowMajor_val_two]
  show (((b.val * 2048 + t.val) * 22 + j.val) * 3 + a.val) * 3 + d.val = n.val * 198 + q.val
  omega

/-- The second window's array is the table of local offsets. -/
theorem v10_eq (c : Dev nD) : (V m c main_v10 : S3x55.Idx → EReal) = offTable (m ((c : Thread nD τ).loc main_arg1)) := by
  show StableHlo.after hostOps0 (fun b => m (c, b)) (Proc.devRef .tc main_v10) = _
  after_results
  rfl

end Cert.KernelIdeal.KValue

end
-- ==== Proof.KernelValue.lean ====
/-
  The kernel program's run, read: its result is the posed joints as one function of its two arguments.

  The program's one region maps blocks of 4096 samples; grid point `t` reads rows `4096 t … 4096 t + 4095` of the
  flattened rotations and the whole table of local offsets, and writes the same rows of the region's output
  `[32768, 165]`.  What one block is mapped to is taken as a hypothesis here: row `p` of a block of rotations and the
  table give, at column `3 j + r`, coordinate `r` of joint `j`'s global position along the kinematic chain.  Since
  row `4096 t + p` of the flattened rotations is sample `4096 t + p`'s rotations and the table's columns are the
  joints' local offsets, block `t` of the output is block `t` of ONE function of the arguments; the eight blocks tile
  the output, so the output is that function; and the program's last operation reshapes it to `[16, 2048, 55, 3]`,
  sending `(b, t, j, r)` to row `2048 b + t`, column `3 j + r`.
-/
import proofs.«163241_j18760417149409_2_alg».proof.Proof.Gen.KernelIdeal.Frame
import proofs.«163241_j18760417149409_2_alg».proof.Proof.Chain
import proofs.«163241_j18760417149409_2_alg».proof.Proof.KernelSpec
import proofs.«163241_j18760417149409_2_alg».proof.Proof.KernelHost
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Chain

section Pieces

variable (m : (ℓ : Loc nD τ sig) → Buf (Elt Ideal) ℓ)

/-! ## The blocks the region reads -/

/-- The printed index maps, decided over the grid: point `t` reads block `(t, 0)` of the rotations and block `(0, 0)`
    of the table, and writes block `(t, 0)` of the output. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s block of rotations is rows `4096 t … 4096 t + 4095` of the flattened rotations. -/
theorem iblk0_apply (c : Dev nD) (t : Fin cfg0.N) (x : S4096x198.Idx) (k : S32768x198.Idx)
    (hk0 : (k 0).val = 4096 * t.val + (x 0).val) (hk1 : (k 1).val = (x 1).val) :
    (iblk m c 0 t : Vec Ideal S4096x198 .f32) x = (V m c main_v0 : S32768x198.Idx → EReal) k := by
  obtain ⟨e0, e1, -, -, -, -⟩ := idx_facts t
  unfold iblk
  rw [View.read_apply]
  show V m c main_v0 _ = V m c main_v0 _
  congr 1
  funext a
  apply Fin.ext
  match a with
  | ⟨0, _⟩ => show win0_0.index t (0 : Fin 2) * 4096 + 1 * (x 0).val = (k 0).val; rw [e0, hk0]; omega
  | ⟨1, _⟩ => show win0_0.index t (1 : Fin 2) * 198 + 1 * (x 1).val = (k 1).val; rw [e1, hk1]; omega

/-- Every point's block of the table is the whole table. -/
theorem iblk1_apply (c : Dev nD) (t : Fin cfg0.N) (x : S3x55.Idx) :
    (iblk m c 1 t : Vec Ideal S3x55 .f32) x = (V m c main_v10 : S3x55.Idx → EReal) x := by
  obtain ⟨-, -, e2, e3, -, -⟩ := idx_facts t
  unfold iblk
  rw [View.read_apply]
  show V m c main_v10 _ = V m c main_v10 _
  congr 1
  funext a
  apply Fin.ext
  match a with
  | ⟨0, _⟩ => show win0_1.index t (0 : Fin 2) * 3 + 1 * (x 0).val = (x 0).val; rw [e2]; omega
  | ⟨1, _⟩ => show win0_1.index t (1 : Fin 2) * 55 + 1 * (x 1).val = (x 1).val; rw [e3]; omega

/-! ## What one point writes back -/

/-- The two arguments at core `c`. -/
abbrev argX (c : Dev nD) : SMotion.Idx → EReal := m ((c.tc : Thread nD τ).loc main_arg0)
abbrev argY (c : Dev nD) : SRest.Idx → EReal := m ((c.tc : Thread nD τ).loc main_arg1)

/-- Row `p` of point `t`'s block of rotations holds sample `4096 t + p`'s matrices for the first 22 joints. -/
theorem row_rot (c : Dev nD) (t : Fin cfg0.N) (p : Fin 4096) (n : Fin 32768) (hn : n.val = 4096 * t.val + p.val)
    (j : ℕ) (hj : j < 22) (a d : Fin 3) :
    rowRot (fun q => (iblk m c 0 t : Vec Ideal S4096x198 .f32) (ix2 p q)) j a d = motionAtN (argX m c) n j a d := by
  have ha := a.isLt; have hd := d.isLt
  have hq : 9 * j + 3 * a.val + d.val < 198 := by omega
  have hn' := n.isLt
  unfold rowRot
  rw [dif_pos hq]
  show (iblk m c 0 t : Vec Ideal S4096x198 .f32) (ix2 p ⟨9 * j + 3 * a.val + d.val, hq⟩) = _
  rw [iblk0_apply m c t (ix2 p ⟨9 * j + 3 * a.val + d.val, hq⟩) (ix2 n ⟨9 * j + 3 * a.val + d.val, hq⟩) hn rfl]
  rw [v0_apply m c n ⟨9 * j + 3 * a.val + d.val, hq⟩ ⟨n.val / 2048, by omega⟩ ⟨n.val % 2048, Nat.mod_lt _ (by norm_num)⟩
    ⟨j, hj⟩ a d (by show n.val = 2048 * (n.val / 2048) + n.val % 2048; omega) rfl]
  unfold motionAtN motionAt
  rw [dif_pos hj]

/-- Column `j` of any point's block of the table is joint `j`'s local offset. -/
theorem col_off (c : Dev nD) (t : Fin cfg0.N) (j : ℕ) (hj : j < 55) (k : Fin 3) :
    colOff (fun k j => (iblk m c 1 t : Vec Ideal S3x55 .f32) (ix2 k j)) j k = rel (restAt (argY m c)) j k := by
  unfold colOff
  rw [dif_pos hj]
  show (iblk m c 1 t : Vec Ideal S3x55 .f32) (ix2 k ⟨j, hj⟩) = _
  rw [iblk1_apply, v10_eq]
  exact offTable_apply _ k ⟨j, hj⟩

/-- The chain's value at a column does not depend on how the column number is written. -/
theorem glob_col {M : ℕ → Fin 3 → Fin 3 → EReal} {L : ℕ → Fin 3 → EReal} (a b : ℕ) (h : a = b) (ha : a % 3 < 3) (hb : b % 3 < 3) :
    (glob M L (a / 3)).2 ⟨a % 3, ha⟩ = (glob M L (b / 3)).2 ⟨b % 3, hb⟩ := by
  subst h; rfl

/-- What one block is mapped to, at row `p` of point `t`, is the output function at row `4096 t + p`. -/
theorem block_eq (c : Dev nD) (t : Fin cfg0.N) (i : S4096x165.Idx) (k : S32768x165.Idx)
    (hk0 : (k 0).val = 4096 * t.val + (i 0).val) (hk1 : (k 1).val = (i 1).val) :
    bodySpec (iblk m c 0 t) (iblk m c 1 t) i = outSpec (argX m c) (argY m c) k := by
  have hi1 : (i 1).val < 165 := idx2_lt1 i
  have key : glob (rowRot fun q => (iblk m c 0 t : Vec Ideal S4096x198 .f32) (ix2 (i 0) q))
        (colOff fun k j => (iblk m c 1 t : Vec Ideal S3x55 .f32) (ix2 k j)) ((i 1).val / 3)
      = glob (motionAtN (argX m c) (k 0)) (rel (restAt (argY m c))) ((i 1).val / 3) :=
    glob_congr _ (fun j' _ => rot_congr (fun j hj a d => row_rot m c t (i 0) (k 0) hk0 j hj a d) j')
      (fun j' hj' => funext fun kk => col_off m c t j' (by omega) kk)
  show (glob (rowRot fun q => (iblk m c 0 t : Vec Ideal S4096x198 .f32) (ix2 (i 0) q))
        (colOff fun k j => (iblk m c 1 t : Vec Ideal S3x55 .f32) (ix2 k j)) ((i 1).val / 3)).2 ⟨(i 1).val % 3, _⟩
      = (glob (motionAtN (argX m c) (k 0)) (rel (restAt (argY m c))) ((k 1).val / 3)).2 ⟨(k 1).val % 3, _⟩
  rw [key]
  exact glob_col _ _ hk1.symm _ _

/-- WHAT POINT `t` WRITES BACK is block `t` of the output function of the arguments. -/
theorem flushed_eq
    (hbody : ∀ (c : Dev nD) (i : grid0.Coords) (arg1 : Memref sig .tc .vmem S4096x198 .f32) (harg1 : arg1.IsWhole) (arg2 : Memref sig .tc .vmem S3x55 .f32) (harg2 : arg2.IsWhole) (arg3 : Memref sig .tc .vmem S4096x165 .f32) (harg3 : arg3.IsWhole) (arg4 : Memref sig .tc .vmem S165x4096 .f32) (harg4 : arg4.IsWhole) (x0 : Vec Ideal S4096x198 .f32) (x1 : Vec Ideal S3x55 .f32),
      Cert.KernelIdeal.Gen.out0_A_2 (F := Ideal) c i arg1 harg1 arg2 harg2 arg3 harg3 arg4 harg4 x0 x1 = Cert.Chain.bodySpec x0 x1)
    (c : Dev nD) (t : Fin cfg0.N) :
    (dats m 0 c).flushed 2 t = ((cfg0.win 2).blk t).view.read (Elt Ideal) (outSpec (argX m c) (argY m c)) := by
  show (cfg0.win 2).cut (grid0.coords t) ((dats m 0 c).after 2 t) = _
  rw [after0_2]
  unfold outsAt0
  rw [hbody c (grid0.coords t) (ms0_0 t) (hs0_0 t) (ms0_1 t) (hs0_1 t) (ms0_2 t) (hs0_2 t) scM0_0 (Memref.isWhole_whole _) (iblk m c 0 t) (iblk m c 1 t)]
  obtain ⟨-, -, -, -, e4, e5⟩ := idx_facts t
  funext j
  show bodySpec (iblk m c 0 t) (iblk m c 1 t) j = outSpec (argX m c) (argY m c) (((cfg0.win 2).blk t).view.emb j)
  refine block_eq m c t j _ ?_ ?_
  · show win0_2.index t (0 : Fin 2) * 4096 + 1 * (j 0).val = 4096 * t.val + (j 0).val
    rw [e4]; omega
  · show win0_2.index t (1 : Fin 2) * 165 + 1 * (j 1).val = (j 1).val
    rw [e5]; omega

/-! ## The eight blocks tile the output -/

/-- An index of the output is in point `t`'s block iff each coordinate is in the block's range on its axis. -/
theorem mem_blk (t : Fin cfg0.N) (i : S32768x165.Idx) :
    i ∈ ((cfg0.win 2).blk t).view.set ↔ ∀ a : Fin 2, win0_2.index t a * S4096x165.size a ≤ (i a).val
      ∧ (i a).val < win0_2.index t a * S4096x165.size a + S4096x165.size a := by
  show i ∈ ((View.whole main_v11).slice (win0_2.rect t)).set ↔ _
  rw [View.set_slice_whole, Rect.mem_set_unit]
  exact Iff.rfl

/-- Row `n` of the output is in the block of point `n / 4096`. -/
theorem cover (i : S32768x165.Idx) :
    ∃ t : Fin cfg0.N, (cfg0.win 2).flush t = true ∧ i ∈ ((cfg0.win 2).blk t).view.set := by
  have hN : cfg0.N = 8 := N_0
  have hi0 : (i 0).val < 32768 := idx2_lt0 i
  have hi1 : (i 1).val < 165 := idx2_lt1 i
  have ht : (i 0).val / 4096 < cfg0.N := by rw [hN]; omega
  obtain ⟨-, -, -, -, e4, e5⟩ := idx_facts ⟨(i 0).val / 4096, ht⟩
  refine ⟨⟨(i 0).val / 4096, ht⟩, flush0_2 _, ?_⟩
  rw [mem_blk]
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    rw [e4]
    show (i 0).val / 4096 * 4096 ≤ (i 0).val ∧ (i 0).val < (i 0).val / 4096 * 4096 + 4096
    omega
  | ⟨1, _⟩ =>
    show win0_2.index ⟨(i 0).val / 4096, ht⟩ (1 : Fin 2) * 165 ≤ (i 1).val
      ∧ (i 1).val < win0_2.index ⟨(i 0).val / 4096, ht⟩ (1 : Fin 2) * 165 + 165
    rw [e5]
    omega

/-- THE OUTPUT ARRAY after the region is the output function of the arguments. -/
theorem final
    (hbody : ∀ (c : Dev nD) (i : grid0.Coords) (arg1 : Memref sig .tc .vmem S4096x198 .f32) (harg1 : arg1.IsWhole) (arg2 : Memref sig .tc .vmem S3x55 .f32) (harg2 : arg2.IsWhole) (arg3 : Memref sig .tc .vmem S4096x165 .f32) (harg3 : arg3.IsWhole) (arg4 : Memref sig .tc .vmem S165x4096 .f32) (harg4 : arg4.IsWhole) (x0 : Vec Ideal S4096x198 .f32) (x1 : Vec Ideal S3x55 .f32),
      Cert.KernelIdeal.Gen.out0_A_2 (F := Ideal) c i arg1 harg1 arg2 harg2 arg3 harg3 arg4 harg4 x0 x1 = Cert.Chain.bodySpec x0 x1)
    (c : Dev nD) : (dats m 0 c).arrAt 2 cfg0.N = outSpec (argX m c) (argY m c) :=
  (dats m 0 c).arrAt_eq_of_cover 2 (outSpec (argX m c) (argY m c)) (fun t _ => flushed_eq m hbody c t) cover

/-! ## The reshape after the region -/

/-- The output function reshaped to `[16, 2048, 55, 3]` is the posed joints: `(b, t, j, r)` has the row-major position
    of row `2048 b + t`, column `3 j + r`. -/
theorem reshape_out (x : SMotion.Idx → EReal) (y : SRest.Idx → EReal) :
    shapeCast S16x2048x55x3 (outSpec x y) shapeCasts_S32768x165_S16x2048x55x3 = posed x y := by
  funext i
  obtain ⟨b, t, j, r, rfl⟩ : ∃ (b : Fin 16) (t : Fin 2048) (j : Fin 55) (r : Fin 3), i = ix4 b t j r :=
    ⟨i 0, i 1, i 2, i 3, eq_ix4 i⟩
  have hb := b.isLt; have ht := t.isLt; have hj := j.isLt; have hr := r.isLt
  refine (shapeCast_apply _ _ (ix4 b t j r)
    (ix2 (⟨2048 * b.val + t.val, by omega⟩ : Fin 32768) (⟨3 * j.val + r.val, by omega⟩ : Fin 165)) ?_).trans
    (outSpec_apply x y b t j r _ _ rfl rfl)
  rw [Shape.rowMajor_val_two, Shape.rowMajor_val_four]
  show (2048 * b.val + t.val) * 165 + (3 * j.val + r.val) = ((b.val * 2048 + t.val) * 55 + j.val) * 3 + r.val
  omega

/-- The program's result after its last operation: the reshape of whatever the region's output array ends holding. -/
theorem tail_eq (c : Dev nD) (G : S32768x165.Idx → EReal) (hG : (dats m 0 c).arrAt 2 cfg0.N = G) :
    Pipeline.afterTail₀ cfgs (dats m) 0 (V0 m) [hostOps1] c main_v12
      = shapeCast S16x2048x55x3 G shapeCasts_S32768x165_S16x2048x55x3 := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.tc.devRef main_v11) = G :=
    (Pipeline.withArrays_arr spec0 launch0.win.arr_inj c _ _ 2).trans hG
  exact congrArg (fun v => shapeCast S16x2048x55x3 v shapeCasts_S32768x165_S16x2048x55x3) e

end Pieces

/-! ## The run -/

/-- THE RUN, READ: given what one block of samples is mapped to, every weakly fair execution of the program ends with
    its result at the posed joints of its two arguments, and the arguments unchanged. -/
theorem run
    (hbody : ∀ (c : Dev nD) (i : grid0.Coords) (arg1 : Memref sig .tc .vmem S4096x198 .f32) (harg1 : arg1.IsWhole) (arg2 : Memref sig .tc .vmem S3x55 .f32) (harg2 : arg2.IsWhole) (arg3 : Memref sig .tc .vmem S4096x165 .f32) (harg3 : arg3.IsWhole) (arg4 : Memref sig .tc .vmem S165x4096 .f32) (harg4 : arg4.IsWhole) (x0 : Vec Ideal S4096x198 .f32) (x1 : Vec Ideal S3x55 .f32),
      Cert.KernelIdeal.Gen.out0_A_2 (F := Ideal) c i arg1 harg1 arg2 harg2 arg3 harg3 arg4 harg4 x0 x1 = Cert.Chain.bodySpec x0 x1)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = Cert.Chain.posed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v12 (Pipeline.mem_restRefs_of main_v12 (by decide) (by decide))).trans
        ((tail_eq m c _ (final m hbody c)).trans (reshape_out _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.lean ====
/-
  Forward kinematics of a 55-joint skeleton: the kernel against its reference, on the extended reals.

  Both programs take the local rotations of 22 body joints for 32768 samples (the other 33 joints rotate by the
  identity) and the joints' rest positions, and return every joint's global position: walking the fixed tree from the
  root, a joint's global rotation is its parent's times its own, and its global position is its parent's global
  rotation applied to its offset from the parent, plus the parent's position (Proof/Chain.lean: `Chain.glob`, and the
  result as one function of the two argument arrays, `Chain.posed`).

  The reference multiplies 4×4 homogeneous matrices down the tree and reads the last column off.  The last row
  `(0, 0, 0, 1)` contributes the products `x * 0` and `x * 1`, an identity rotation the products `x * 0` and `x * 1`
  again, and the offsets are formed as `a + (-b)`; the kernel works on the 3×3 and 3×1 parts directly, copies the parent's
  rotation through the identity joints, and forms `a - b`.  On the extended reals `x * 0 = 0`, `x * 1 = x`, `x + 0 = x`
  and `a + (-b) = a - b` hold for every value, the infinities included, and addition is associative and commutative,
  so the two programs compute the same function of ANY arguments: the precondition is not used.

    · the reference's run, written out (Proof/RefRun.lean), ends at `outOf (tmats x y)` (Proof/RefTerm.lean: one
      value per buffer), which is `Chain.posed x y`: Proof/RefLocal.lean (the local transforms at an entry),
      Proof/RefChain.lean (the walk and the read-out), Proof/RefValue.lean (the two joined);
    · the kernel's body maps a block of 4096 samples to their posed joints (Proof/KernelBody.lean), the blocks tile
      the output array and the host reshapes on either side only renumber the samples (Proof/KernelValue.lean).

  The three frames: the two kernels' are the frame proofs of their launches; the reference's is its run with the
  result dropped.  The idealized kernel is the kernel's own text read at the extended reals (no rewrite was applied),
  so there is nothing to preserve.
-/
import proofs.«163241_j18760417149409_2_alg».proof.Defs
import proofs.«163241_j18760417149409_2_alg».proof.Proof.Gen.Kernel
import proofs.«163241_j18760417149409_2_alg».proof.Proof.Gen.Kernel.Frame
import proofs.«163241_j18760417149409_2_alg».proof.Proof.Gen.KernelIdeal
import proofs.«163241_j18760417149409_2_alg».proof.Proof.Gen.KernelIdeal.Frame
import proofs.«163241_j18760417149409_2_alg».proof.Proof.Gen.ReferenceIdeal
import proofs.«163241_j18760417149409_2_alg».proof.Proof.Gen.Pre_finite_inputs
import proofs.«163241_j18760417149409_2_alg».proof.Proof.RefRun
import proofs.«163241_j18760417149409_2_alg».proof.Proof.RefValue
import proofs.«163241_j18760417149409_2_alg».proof.Proof.KernelBody
import proofs.«163241_j18760417149409_2_alg».proof.Proof.KernelValue
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run m ρ)

/-- No operation of the kernel was rewritten for the reading at the extended reals. -/
theorem preserves : Cert.preserves_Kernel_KernelIdeal := trivial

/-- From memories that agree on the arguments both programs end with the posed joints of those arguments. -/
theorem algebraic : Cert.algebraic_KernelIdeal_ReferenceIdeal := by
  intro m ρ m' ρ' _ hagree
  refine ⟨fun c => Cert.Chain.posed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run Cert.KernelIdeal.Body.out_eq m ρ, ?_⟩
  refine (θ_run Cert.ReferenceIdeal.defs _ _).mono (fun _ h c => ⟨(h c).1.trans ?_, (h c).2⟩)
    (Cert.ReferenceIdeal.HandRun.run m' ρ')
  rw [(hagree c).1, (hagree c).2.1]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
